-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v471) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S_ : Shape := ⟨0, ![]⟩

class Facts : Prop where
  bcast_S_S4096x26 : S_.BroadcastsInDim S4096x26 (![] : Fin 0 → Fin S4096x26.rank)
  reducesTo_S4096x26_S_d0_1 : S4096x26.ReducesTo [0, 1] S_
  h_S_ : 0 < S_.numel

variable [Facts]

def fn {F : FTy → Type} [FloatOps F] (main_arg0 : IVec S4096x26 32) : IVec S_ 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 999#32
  let main_v2 : IVec S4096x26 32 := broadcastInDim S4096x26 ![] bcast_S_S4096x26 main_c_0
  let main_v3 : IVec S4096x26 1 := cmpi .sle main_arg0 main_v2
  let main_v4 : IVec S4096x26 1 := andi main_v1 main_v3
  let main_c_1 : IVec S_ 1 := constantI S_ 1 1#1
  let main_v5 : IVec S_ 1 := (fun x v => Host.reduce IntOp.andi x v reducesTo_S4096x26_S_d0_1 h_S_) main_v4 main_c_1
  main_v5
-- ==== Kernel.lean ====
abbrev S4096x26 : Shape := ⟨2, ![4096, 26]⟩
abbrev S128 : Shape := ⟨1, ![128]⟩
abbrev S32x128x26 : Shape := ⟨3, ![32, 128, 26]⟩
abbrev S32x26x128 : Shape := ⟨3, ![32, 26, 128]⟩
abbrev S106496 : Shape := ⟨1, ![106496]⟩
abbrev S106624 : Shape := ⟨1, ![106624]⟩
abbrev S26000x4096 : Shape := ⟨2, ![26000, 4096]⟩
abbrev S1000x128 : Shape := ⟨2, ![1000, 128]⟩
abbrev S_ : Shape := ⟨0, ![]⟩
abbrev S16 : Shape := ⟨1, ![16]⟩
abbrev S1x16 : Shape := ⟨2, ![1, 16]⟩
abbrev S4096x26000 : Shape := ⟨2, ![4096, 26000]⟩

abbrev nBuf : Table → Nat
  | .hbm => 8
  | .local .scVector .vmem => 3
  | _ => 0

abbrev bufTy : (tb : Table) → Fin (nBuf tb) → BufTy
  | .hbm, ⟨0, _⟩ => ⟨S4096x26, .i32⟩
  | .hbm, ⟨1, _⟩ => ⟨S128, .i32⟩
  | .hbm, ⟨2, _⟩ => ⟨S32x128x26, .i32⟩
  | .hbm, ⟨3, _⟩ => ⟨S32x26x128, .i32⟩
  | .hbm, ⟨4, _⟩ => ⟨S106496, .i32⟩
  | .hbm, ⟨5, _⟩ => ⟨S106624, .i32⟩
  | .hbm, ⟨6, _⟩ => ⟨S26000x4096, .f32⟩
  | .hbm, ⟨7, _⟩ => ⟨S4096x26000, .f32⟩
  | .local .scVector .vmem, ⟨0, _⟩ => ⟨S128, .i32⟩
  | .local .scVector .vmem, ⟨1, _⟩ => ⟨S128, .i32⟩
  | .local .scVector .vmem, ⟨2, _⟩ => ⟨S1000x128, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v4_scv : Ref sig .scVector := ⟨.hbm, 5, rfl⟩
abbrev main_v5_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c1000_i32 : BitVec 32 := 1000#32
  let v4 : BitVec 32 := Scalar.addi c0_i32 c1000_i32
  let c1_i32 : BitVec 32 := 1#32
  ⟨c0_i32, v4, c1_i32⟩
def k0_off1 (k0_t1 : Fin k0_t1_loop.trips) : Fin 2 → Nat :=
  let c0_i32_1456 : BitVec 32 := 0#32
  let c0_i32 : BitVec 32 := 0#32
  let c1_i32 : BitVec 32 := 1#32
  let arg8 : BitVec 32 := Scf.iv c0_i32 c1_i32 k0_t1
  let c1_i32_1455 : BitVec 32 := 1#32
  let v1931 : BitVec 32 := Scalar.muli arg8 c1_i32_1455
  let v1932 : BitVec 32 := Scalar.addi c0_i32_1456 v1931
  let v1933 : Index := Scalar.indexCast v1932
  let c0_1457 : Index := 0#32
  ![v1933.toNat, 0]
def k0_off2 (k0_t1 : Fin k0_t1_loop.trips) : Fin 2 → Nat :=
  let c0_i32_1456 : BitVec 32 := 0#32
  let c0_i32 : BitVec 32 := 0#32
  let c1_i32 : BitVec 32 := 1#32
  let arg8 : BitVec 32 := Scf.iv c0_i32 c1_i32 k0_t1
  let c1_i32_1455 : BitVec 32 := 1#32
  let v1931 : BitVec 32 := Scalar.muli arg8 c1_i32_1455
  let v1932 : BitVec 32 := Scalar.addi c0_i32_1456 v1931
  let v1935 : Index := Scalar.indexCast v1932
  let c16_1458 : Index := 16#32
  ![v1935.toNat, 16]
def k0_off3 (k0_t1 : Fin k0_t1_loop.trips) : Fin 2 → Nat :=
  let c0_i32_1456 : BitVec 32 := 0#32
  let c0_i32 : BitVec 32 := 0#32
  let c1_i32 : BitVec 32 := 1#32
  let arg8 : BitVec 32 := Scf.iv c0_i32 c1_i32 k0_t1
  let c1_i32_1455 : BitVec 32 := 1#32
  let v1931 : BitVec 32 := Scalar.muli arg8 c1_i32_1455
  let v1932 : BitVec 32 := Scalar.addi c0_i32_1456 v1931
  let v1937 : Index := Scalar.indexCast v1932
  let c32_1459 : Index := 32#32
  ![v1937.toNat, 32]
def k0_off4 (k0_t1 : Fin k0_t1_loop.trips) : Fin 2 → Nat :=
  let c0_i32_1456 : BitVec 32 := 0#32
  let c0_i32 : BitVec 32 := 0#32
  let c1_i32 : BitVec 32 := 1#32
  let arg8 : BitVec 32 := Scf.iv c0_i32 c1_i32 k0_t1
  let c1_i32_1455 : BitVec 32 := 1#32
  let v1931 : BitVec 32 := Scalar.muli arg8 c1_i32_1455
  let v1932 : BitVec 32 := Scalar.addi c0_i32_1456 v1931
  let v1939 : Index := Scalar.indexCast v1932
  let c48_1460 : Index := 48#32
  ![v1939.toNat, 48]
def k0_off5 (k0_t1 : Fin k0_t1_loop.trips) : Fin 2 → Nat :=
  let c0_i32_1456 : BitVec 32 := 0#32
  let c0_i32 : BitVec 32 := 0#32
  let c1_i32 : BitVec 32 := 1#32
  let arg8 : BitVec 32 := Scf.iv c0_i32 c1_i32 k0_t1
  let c1_i32_1455 : BitVec 32 := 1#32
  let v1931 : BitVec 32 := Scalar.muli arg8 c1_i32_1455
  let v1932 : BitVec 32 := Scalar.addi c0_i32_1456 v1931
  let v1941 : Index := Scalar.indexCast v1932
  let c64_1461 : Index := 64#32
  ![v1941.toNat, 64]
def k0_off6 (k0_t1 : Fin k0_t1_loop.trips) : Fin 2 → Nat :=
  let c0_i32_1456 : BitVec 32 := 0#32
  let c0_i32 : BitVec 32 := 0#32
  let c1_i32 : BitVec 32 := 1#32
  let arg8 : BitVec 32 := Scf.iv c0_i32 c1_i32 k0_t1
  let c1_i32_1455 : BitVec 32 := 1#32
  let v1931 : BitVec 32 := Scalar.muli arg8 c1_i32_1455
  let v1932 : BitVec 32 := Scalar.addi c0_i32_1456 v1931
  let v1943 : Index := Scalar.indexCast v1932
  let c80_1462 : Index := 80#32
  ![v1943.toNat, 80]
def k0_off7 (k0_t1 : Fin k0_t1_loop.trips) : Fin 2 → Nat :=
  let c0_i32_1456 : BitVec 32 := 0#32
  let c0_i32 : BitVec 32 := 0#32
  let c1_i32 : BitVec 32 := 1#32
  let arg8 : BitVec 32 := Scf.iv c0_i32 c1_i32 k0_t1
  let c1_i32_1455 : BitVec 32 := 1#32
  let v1931 : BitVec 32 := Scalar.muli arg8 c1_i32_1455
  let v1932 : BitVec 32 := Scalar.addi c0_i32_1456 v1931
  let v1945 : Index := Scalar.indexCast v1932
  let c96_1463 : Index := 96#32
  ![v1945.toNat, 96]
def k0_off8 (k0_t1 : Fin k0_t1_loop.trips) : Fin 2 → Nat :=
  let c0_i32_1456 : BitVec 32 := 0#32
  let c0_i32 : BitVec 32 := 0#32
  let c1_i32 : BitVec 32 := 1#32
  let arg8 : BitVec 32 := Scf.iv c0_i32 c1_i32 k0_t1
  let c1_i32_1455 : BitVec 32 := 1#32
  let v1931 : BitVec 32 := Scalar.muli arg8 c1_i32_1455
  let v1932 : BitVec 32 := Scalar.addi c0_i32_1456 v1931
  let v1947 : Index := Scalar.indexCast v1932
  let c112_1464 : Index := 112#32
  ![v1947.toNat, 112]
def k0_off9 (i : grid0.Coords) : Fin 1 → Nat :=
  let c128_i32_5 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32 : BitVec 32 := 26#32
  let v7 : BitVec 32 := Scalar.muli v6 c26_i32
  let c0_i32_4 : BitVec 32 := 0#32
  let v8 : BitVec 32 := Scalar.addi v7 c0_i32_4
  let c128_i32 : BitVec 32 := 128#32
  let v9 : BitVec 32 := Scalar.muli v8 c128_i32
  let v10 : BitVec 32 := Scalar.addi c128_i32_5 v9
  ![v10.toNat]

def k0_chk1 (v11 : IVec S16 32) (v12 : IVec S16 32) : Prop :=
  (∀ a x, ((![v11, v12] : Fin 2 → IVec S16 32) a x).toNat < S1000x128.size a)
instance k0_chk1.dec : ∀ (v11 : IVec S16 32) (v12 : IVec S16 32), Decidable (k0_chk1 v11 v12) := fun v11 v12 => decidable_of_iff' _ (Iff.of_eq (k0_chk1.eq_1 v11 v12))
theorem k0_idx1_inb : ∀ (v11 : IVec S16 32) (v12 : IVec S16 32) (k0_hw1 : k0_chk1 v11 v12), ∀ a x, ((![v11, v12] : Fin 2 → IVec S16 32) a x).toNat < S1000x128.size a := fun v11 v12 k0_hw1 => k0_hw1

def k0_chk2 (v15 : IVec S16 32) (v16 : IVec S16 32) : Prop :=
  (∀ a x, ((![v15, v16] : Fin 2 → IVec S16 32) a x).toNat < S1000x128.size a)
instance k0_chk2.dec : ∀ (v15 : IVec S16 32) (v16 : IVec S16 32), Decidable (k0_chk2 v15 v16) := fun v15 v16 => decidable_of_iff' _ (Iff.of_eq (k0_chk2.eq_1 v15 v16))
theorem k0_idx2_inb : ∀ (v15 : IVec S16 32) (v16 : IVec S16 32) (k0_hw2 : k0_chk2 v15 v16), ∀ a x, ((![v15, v16] : Fin 2 → IVec S16 32) a x).toNat < S1000x128.size a := fun v15 v16 k0_hw2 => k0_hw2

def k0_chk3 (v19 : IVec S16 32) (v20 : IVec S16 32) : Prop :=
  (∀ a x, ((![v19, v20] : Fin 2 → IVec S16 32) a x).toNat < S1000x128.size a)
instance k0_chk3.dec : ∀ (v19 : IVec S16 32) (v20 : IVec S16 32), Decidable (k0_chk3 v19 v20) := fun v19 v20 => decidable_of_iff' _ (Iff.of_eq (k0_chk3.eq_1 v19 v20))
theorem k0_idx3_inb : ∀ (v19 : IVec S16 32) (v20 : IVec S16 32) (k0_hw3 : k0_chk3 v19 v20), ∀ a x, ((![v19, v20] : Fin 2 → IVec S16 32) a x).toNat < S1000x128.size a := fun v19 v20 k0_hw3 => k0_hw3

def k0_chk4 (v23 : IVec S16 32) (v24 : IVec S16 32) : Prop :=
  (∀ a x, ((![v23, v24] : Fin 2 → IVec S16 32) a x).toNat < S1000x128.size a)
instance k0_chk4.dec : ∀ (v23 : IVec S16 32) (v24 : IVec S16 32), Decidable (k0_chk4 v23 v24) := fun v23 v24 => decidable_of_iff' _ (Iff.of_eq (k0_chk4.eq_1 v23 v24))
theorem k0_idx4_inb : ∀ (v23 : IVec S16 32) (v24 : IVec S16 32) (k0_hw4 : k0_chk4 v23 v24), ∀ a x, ((![v23, v24] : Fin 2 → IVec S16 32) a x).toNat < S1000x128.size a := fun v23 v24 k0_hw4 => k0_hw4

def k0_chk5 (v27 : IVec S16 32) (v28 : IVec S16 32) : Prop :=
  (∀ a x, ((![v27, v28] : Fin 2 → IVec S16 32) a x).toNat < S1000x128.size a)
instance k0_chk5.dec : ∀ (v27 : IVec S16 32) (v28 : IVec S16 32), Decidable (k0_chk5 v27 v28) := fun v27 v28 => decidable_of_iff' _ (Iff.of_eq (k0_chk5.eq_1 v27 v28))
theorem k0_idx5_inb : ∀ (v27 : IVec S16 32) (v28 : IVec S16 32) (k0_hw5 : k0_chk5 v27 v28), ∀ a x, ((![v27, v28] : Fin 2 → IVec S16 32) a x).toNat < S1000x128.size a := fun v27 v28 k0_hw5 => k0_hw5

def k0_chk6 (v31 : IVec S16 32) (v32 : IVec S16 32) : Prop :=
  (∀ a x, ((![v31, v32] : Fin 2 → IVec S16 32) a x).toNat < S1000x128.size a)
instance k0_chk6.dec : ∀ (v31 : IVec S16 32) (v32 : IVec S16 32), Decidable (k0_chk6 v31 v32) := fun v31 v32 => decidable_of_iff' _ (Iff.of_eq (k0_chk6.eq_1 v31 v32))
theorem k0_idx6_inb : ∀ (v31 : IVec S16 32) (v32 : IVec S16 32) (k0_hw6 : k0_chk6 v31 v32), ∀ a x, ((![v31, v32] : Fin 2 → IVec S16 32) a x).toNat < S1000x128.size a := fun v31 v32 k0_hw6 => k0_hw6

def k0_chk7 (v35 : IVec S16 32) (v36 : IVec S16 32) : Prop :=
  (∀ a x, ((![v35, v36] : Fin 2 → IVec S16 32) a x).toNat < S1000x128.size a)
instance k0_chk7.dec : ∀ (v35 : IVec S16 32) (v36 : IVec S16 32), Decidable (k0_chk7 v35 v36) := fun v35 v36 => decidable_of_iff' _ (Iff.of_eq (k0_chk7.eq_1 v35 v36))
theorem k0_idx7_inb : ∀ (v35 : IVec S16 32) (v36 : IVec S16 32) (k0_hw7 : k0_chk7 v35 v36), ∀ a x, ((![v35, v36] : Fin 2 → IVec S16 32) a x).toNat < S1000x128.size a := fun v35 v36 k0_hw7 => k0_hw7

def k0_chk8 (v39 : IVec S16 32) (v40 : IVec S16 32) : Prop :=
  (∀ a x, ((![v39, v40] : Fin 2 → IVec S16 32) a x).toNat < S1000x128.size a)
instance k0_chk8.dec : ∀ (v39 : IVec S16 32) (v40 : IVec S16 32), Decidable (k0_chk8 v39 v40) := fun v39 v40 => decidable_of_iff' _ (Iff.of_eq (k0_chk8.eq_1 v39 v40))
theorem k0_idx8_inb : ∀ (v39 : IVec S16 32) (v40 : IVec S16 32) (k0_hw8 : k0_chk8 v39 v40), ∀ a x, ((![v39, v40] : Fin 2 → IVec S16 32) a x).toNat < S1000x128.size a := fun v39 v40 k0_hw8 => k0_hw8
def k0_off10 (i : grid0.Coords) : Fin 2 → Nat :=
  let c0_i32_23 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_22 : BitVec 32 := 128#32
  let v43 : BitVec 32 := Scalar.muli v6 c128_i32_22
  ![0, v43.toNat]

def k0_chk9 (v49 : IVec S16 32) (v50 : IVec S16 32) : Prop :=
  (∀ a x, ((![v49, v50] : Fin 2 → IVec S16 32) a x).toNat < S1000x128.size a)
instance k0_chk9.dec : ∀ (v49 : IVec S16 32) (v50 : IVec S16 32), Decidable (k0_chk9 v49 v50) := fun v49 v50 => decidable_of_iff' _ (Iff.of_eq (k0_chk9.eq_1 v49 v50))
theorem k0_idx9_inb : ∀ (v49 : IVec S16 32) (v50 : IVec S16 32) (k0_hw9 : k0_chk9 v49 v50), ∀ a x, ((![v49, v50] : Fin 2 → IVec S16 32) a x).toNat < S1000x128.size a := fun v49 v50 k0_hw9 => k0_hw9

def k0_chk10 (v53 : IVec S16 32) (v54 : IVec S16 32) : Prop :=
  (∀ a x, ((![v53, v54] : Fin 2 → IVec S16 32) a x).toNat < S1000x128.size a)
instance k0_chk10.dec : ∀ (v53 : IVec S16 32) (v54 : IVec S16 32), Decidable (k0_chk10 v53 v54) := fun v53 v54 => decidable_of_iff' _ (Iff.of_eq (k0_chk10.eq_1 v53 v54))
theorem k0_idx10_inb : ∀ (v53 : IVec S16 32) (v54 : IVec S16 32) (k0_hw10 : k0_chk10 v53 v54), ∀ a x, ((![v53, v54] : Fin 2 → IVec S16 32) a x).toNat < S1000x128.size a := fun v53 v54 k0_hw10 => k0_hw10

def k0_chk11 (v57 : IVec S16 32) (v58 : IVec S16 32) : Prop :=
  (∀ a x, ((![v57, v58] : Fin 2 → IVec S16 32) a x).toNat < S1000x128.size a)
instance k0_chk11.dec : ∀ (v57 : IVec S16 32) (v58 : IVec S16 32), Decidable (k0_chk11 v57 v58) := fun v57 v58 => decidable_of_iff' _ (Iff.of_eq (k0_chk11.eq_1 v57 v58))
theorem k0_idx11_inb : ∀ (v57 : IVec S16 32) (v58 : IVec S16 32) (k0_hw11 : k0_chk11 v57 v58), ∀ a x, ((![v57, v58] : Fin 2 → IVec S16 32) a x).toNat < S1000x128.size a := fun v57 v58 k0_hw11 => k0_hw11

def k0_chk12 (v61 : IVec S16 32) (v62 : IVec S16 32) : Prop :=
  (∀ a x, ((![v61, v62] : Fin 2 → IVec S16 32) a x).toNat < S1000x128.size a)
instance k0_chk12.dec : ∀ (v61 : IVec S16 32) (v62 : IVec S16 32), Decidable (k0_chk12 v61 v62) := fun v61 v62 => decidable_of_iff' _ (Iff.of_eq (k0_chk12.eq_1 v61 v62))
theorem k0_idx12_inb : ∀ (v61 : IVec S16 32) (v62 : IVec S16 32) (k0_hw12 : k0_chk12 v61 v62), ∀ a x, ((![v61, v62] : Fin 2 → IVec S16 32) a x).toNat < S1000x128.size a := fun v61 v62 k0_hw12 => k0_hw12

def k0_chk13 (v65 : IVec S16 32) (v66 : IVec S16 32) : Prop :=
  (∀ a x, ((![v65, v66] : Fin 2 → IVec S16 32) a x).toNat < S1000x128.size a)
instance k0_chk13.dec : ∀ (v65 : IVec S16 32) (v66 : IVec S16 32), Decidable (k0_chk13 v65 v66) := fun v65 v66 => decidable_of_iff' _ (Iff.of_eq (k0_chk13.eq_1 v65 v66))
theorem k0_idx13_inb : ∀ (v65 : IVec S16 32) (v66 : IVec S16 32) (k0_hw13 : k0_chk13 v65 v66), ∀ a x, ((![v65, v66] : Fin 2 → IVec S16 32) a x).toNat < S1000x128.size a := fun v65 v66 k0_hw13 => k0_hw13

def k0_chk14 (v69 : IVec S16 32) (v70 : IVec S16 32) : Prop :=
  (∀ a x, ((![v69, v70] : Fin 2 → IVec S16 32) a x).toNat < S1000x128.size a)
instance k0_chk14.dec : ∀ (v69 : IVec S16 32) (v70 : IVec S16 32), Decidable (k0_chk14 v69 v70) := fun v69 v70 => decidable_of_iff' _ (Iff.of_eq (k0_chk14.eq_1 v69 v70))
theorem k0_idx14_inb : ∀ (v69 : IVec S16 32) (v70 : IVec S16 32) (k0_hw14 : k0_chk14 v69 v70), ∀ a x, ((![v69, v70] : Fin 2 → IVec S16 32) a x).toNat < S1000x128.size a := fun v69 v70 k0_hw14 => k0_hw14

def k0_chk15 (v73 : IVec S16 32) (v74 : IVec S16 32) : Prop :=
  (∀ a x, ((![v73, v74] : Fin 2 → IVec S16 32) a x).toNat < S1000x128.size a)
instance k0_chk15.dec : ∀ (v73 : IVec S16 32) (v74 : IVec S16 32), Decidable (k0_chk15 v73 v74) := fun v73 v74 => decidable_of_iff' _ (Iff.of_eq (k0_chk15.eq_1 v73 v74))
theorem k0_idx15_inb : ∀ (v73 : IVec S16 32) (v74 : IVec S16 32) (k0_hw15 : k0_chk15 v73 v74), ∀ a x, ((![v73, v74] : Fin 2 → IVec S16 32) a x).toNat < S1000x128.size a := fun v73 v74 k0_hw15 => k0_hw15

def k0_chk16 (v77 : IVec S16 32) (v78 : IVec S16 32) : Prop :=
  (∀ a x, ((![v77, v78] : Fin 2 → IVec S16 32) a x).toNat < S1000x128.size a)
instance k0_chk16.dec : ∀ (v77 : IVec S16 32) (v78 : IVec S16 32), Decidable (k0_chk16 v77 v78) := fun v77 v78 => decidable_of_iff' _ (Iff.of_eq (k0_chk16.eq_1 v77 v78))
theorem k0_idx16_inb : ∀ (v77 : IVec S16 32) (v78 : IVec S16 32) (k0_hw16 : k0_chk16 v77 v78), ∀ a x, ((![v77, v78] : Fin 2 → IVec S16 32) a x).toNat < S1000x128.size a := fun v77 v78 k0_hw16 => k0_hw16
def k0_off11 (i : grid0.Coords) : Fin 1 → Nat :=
  let c128_i32_55 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_52 : BitVec 32 := 26#32
  let v81 : BitVec 32 := Scalar.muli v6 c26_i32_52
  let c1_i32_53 : BitVec 32 := 1#32
  let v82 : BitVec 32 := Scalar.addi v81 c1_i32_53
  let c128_i32_54 : BitVec 32 := 128#32
  let v83 : BitVec 32 := Scalar.muli v82 c128_i32_54
  let v84 : BitVec 32 := Scalar.addi c128_i32_55 v83
  ![v84.toNat]

def k0_chk17 (v85 : IVec S16 32) (v86 : IVec S16 32) : Prop :=
  (∀ a x, ((![v85, v86] : Fin 2 → IVec S16 32) a x).toNat < S1000x128.size a)
instance k0_chk17.dec : ∀ (v85 : IVec S16 32) (v86 : IVec S16 32), Decidable (k0_chk17 v85 v86) := fun v85 v86 => decidable_of_iff' _ (Iff.of_eq (k0_chk17.eq_1 v85 v86))
theorem k0_idx17_inb : ∀ (v85 : IVec S16 32) (v86 : IVec S16 32) (k0_hw17 : k0_chk17 v85 v86), ∀ a x, ((![v85, v86] : Fin 2 → IVec S16 32) a x).toNat < S1000x128.size a := fun v85 v86 k0_hw17 => k0_hw17

def k0_chk18 (v89 : IVec S16 32) (v90 : IVec S16 32) : Prop :=
  (∀ a x, ((![v89, v90] : Fin 2 → IVec S16 32) a x).toNat < S1000x128.size a)
instance k0_chk18.dec : ∀ (v89 : IVec S16 32) (v90 : IVec S16 32), Decidable (k0_chk18 v89 v90) := fun v89 v90 => decidable_of_iff' _ (Iff.of_eq (k0_chk18.eq_1 v89 v90))
theorem k0_idx18_inb : ∀ (v89 : IVec S16 32) (v90 : IVec S16 32) (k0_hw18 : k0_chk18 v89 v90), ∀ a x, ((![v89, v90] : Fin 2 → IVec S16 32) a x).toNat < S1000x128.size a := fun v89 v90 k0_hw18 => k0_hw18

def k0_chk19 (v93 : IVec S16 32) (v94 : IVec S16 32) : Prop :=
  (∀ a x, ((![v93, v94] : Fin 2 → IVec S16 32) a x).toNat < S1000x128.size a)
instance k0_chk19.dec : ∀ (v93 : IVec S16 32) (v94 : IVec S16 32), Decidable (k0_chk19 v93 v94) := fun v93 v94 => decidable_of_iff' _ (Iff.of_eq (k0_chk19.eq_1 v93 v94))
theorem k0_idx19_inb : ∀ (v93 : IVec S16 32) (v94 : IVec S16 32) (k0_hw19 : k0_chk19 v93 v94), ∀ a x, ((![v93, v94] : Fin 2 → IVec S16 32) a x).toNat < S1000x128.size a := fun v93 v94 k0_hw19 => k0_hw19

def k0_chk20 (v97 : IVec S16 32) (v98 : IVec S16 32) : Prop :=
  (∀ a x, ((![v97, v98] : Fin 2 → IVec S16 32) a x).toNat < S1000x128.size a)
instance k0_chk20.dec : ∀ (v97 : IVec S16 32) (v98 : IVec S16 32), Decidable (k0_chk20 v97 v98) := fun v97 v98 => decidable_of_iff' _ (Iff.of_eq (k0_chk20.eq_1 v97 v98))
theorem k0_idx20_inb : ∀ (v97 : IVec S16 32) (v98 : IVec S16 32) (k0_hw20 : k0_chk20 v97 v98), ∀ a x, ((![v97, v98] : Fin 2 → IVec S16 32) a x).toNat < S1000x128.size a := fun v97 v98 k0_hw20 => k0_hw20

def k0_chk21 (v101 : IVec S16 32) (v102 : IVec S16 32) : Prop :=
  (∀ a x, ((![v101, v102] : Fin 2 → IVec S16 32) a x).toNat < S1000x128.size a)
instance k0_chk21.dec : ∀ (v101 : IVec S16 32) (v102 : IVec S16 32), Decidable (k0_chk21 v101 v102) := fun v101 v102 => decidable_of_iff' _ (Iff.of_eq (k0_chk21.eq_1 v101 v102))
theorem k0_idx21_inb : ∀ (v101 : IVec S16 32) (v102 : IVec S16 32) (k0_hw21 : k0_chk21 v101 v102), ∀ a x, ((![v101, v102] : Fin 2 → IVec S16 32) a x).toNat < S1000x128.size a := fun v101 v102 k0_hw21 => k0_hw21

def k0_chk22 (v105 : IVec S16 32) (v106 : IVec S16 32) : Prop :=
  (∀ a x, ((![v105, v106] : Fin 2 → IVec S16 32) a x).toNat < S1000x128.size a)
instance k0_chk22.dec : ∀ (v105 : IVec S16 32) (v106 : IVec S16 32), Decidable (k0_chk22 v105 v106) := fun v105 v106 => decidable_of_iff' _ (Iff.of_eq (k0_chk22.eq_1 v105 v106))
theorem k0_idx22_inb : ∀ (v105 : IVec S16 32) (v106 : IVec S16 32) (k0_hw22 : k0_chk22 v105 v106), ∀ a x, ((![v105, v106] : Fin 2 → IVec S16 32) a x).toNat < S1000x128.size a := fun v105 v106 k0_hw22 => k0_hw22

def k0_chk23 (v109 : IVec S16 32) (v110 : IVec S16 32) : Prop :=
  (∀ a x, ((![v109, v110] : Fin 2 → IVec S16 32) a x).toNat < S1000x128.size a)
instance k0_chk23.dec : ∀ (v109 : IVec S16 32) (v110 : IVec S16 32), Decidable (k0_chk23 v109 v110) := fun v109 v110 => decidable_of_iff' _ (Iff.of_eq (k0_chk23.eq_1 v109 v110))
theorem k0_idx23_inb : ∀ (v109 : IVec S16 32) (v110 : IVec S16 32) (k0_hw23 : k0_chk23 v109 v110), ∀ a x, ((![v109, v110] : Fin 2 → IVec S16 32) a x).toNat < S1000x128.size a := fun v109 v110 k0_hw23 => k0_hw23

def k0_chk24 (v113 : IVec S16 32) (v114 : IVec S16 32) : Prop :=
  (∀ a x, ((![v113, v114] : Fin 2 → IVec S16 32) a x).toNat < S1000x128.size a)
instance k0_chk24.dec : ∀ (v113 : IVec S16 32) (v114 : IVec S16 32), Decidable (k0_chk24 v113 v114) := fun v113 v114 => decidable_of_iff' _ (Iff.of_eq (k0_chk24.eq_1 v113 v114))
theorem k0_idx24_inb : ∀ (v113 : IVec S16 32) (v114 : IVec S16 32) (k0_hw24 : k0_chk24 v113 v114), ∀ a x, ((![v113, v114] : Fin 2 → IVec S16 32) a x).toNat < S1000x128.size a := fun v113 v114 k0_hw24 => k0_hw24
def k0_off12 (i : grid0.Coords) : Fin 2 → Nat :=
  let c1000_i32_81 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_80 : BitVec 32 := 128#32
  let v117 : BitVec 32 := Scalar.muli v6 c128_i32_80
  ![1000, v117.toNat]

def k0_chk25 (v123 : IVec S16 32) (v124 : IVec S16 32) : Prop :=
  (∀ a x, ((![v123, v124] : Fin 2 → IVec S16 32) a x).toNat < S1000x128.size a)
instance k0_chk25.dec : ∀ (v123 : IVec S16 32) (v124 : IVec S16 32), Decidable (k0_chk25 v123 v124) := fun v123 v124 => decidable_of_iff' _ (Iff.of_eq (k0_chk25.eq_1 v123 v124))
theorem k0_idx25_inb : ∀ (v123 : IVec S16 32) (v124 : IVec S16 32) (k0_hw25 : k0_chk25 v123 v124), ∀ a x, ((![v123, v124] : Fin 2 → IVec S16 32) a x).toNat < S1000x128.size a := fun v123 v124 k0_hw25 => k0_hw25

def k0_chk26 (v127 : IVec S16 32) (v128 : IVec S16 32) : Prop :=
  (∀ a x, ((![v127, v128] : Fin 2 → IVec S16 32) a x).toNat < S1000x128.size a)
instance k0_chk26.dec : ∀ (v127 : IVec S16 32) (v128 : IVec S16 32), Decidable (k0_chk26 v127 v128) := fun v127 v128 => decidable_of_iff' _ (Iff.of_eq (k0_chk26.eq_1 v127 v128))
theorem k0_idx26_inb : ∀ (v127 : IVec S16 32) (v128 : IVec S16 32) (k0_hw26 : k0_chk26 v127 v128), ∀ a x, ((![v127, v128] : Fin 2 → IVec S16 32) a x).toNat < S1000x128.size a := fun v127 v128 k0_hw26 => k0_hw26

def k0_chk27 (v131 : IVec S16 32) (v132 : IVec S16 32) : Prop :=
  (∀ a x, ((![v131, v132] : Fin 2 → IVec S16 32) a x).toNat < S1000x128.size a)
instance k0_chk27.dec : ∀ (v131 : IVec S16 32) (v132 : IVec S16 32), Decidable (k0_chk27 v131 v132) := fun v131 v132 => decidable_of_iff' _ (Iff.of_eq (k0_chk27.eq_1 v131 v132))
theorem k0_idx27_inb : ∀ (v131 : IVec S16 32) (v132 : IVec S16 32) (k0_hw27 : k0_chk27 v131 v132), ∀ a x, ((![v131, v132] : Fin 2 → IVec S16 32) a x).toNat < S1000x128.size a := fun v131 v132 k0_hw27 => k0_hw27

def k0_chk28 (v135 : IVec S16 32) (v136 : IVec S16 32) : Prop :=
  (∀ a x, ((![v135, v136] : Fin 2 → IVec S16 32) a x).toNat < S1000x128.size a)
instance k0_chk28.dec : ∀ (v135 : IVec S16 32) (v136 : IVec S16 32), Decidable (k0_chk28 v135 v136) := fun v135 v136 => decidable_of_iff' _ (Iff.of_eq (k0_chk28.eq_1 v135 v136))
theorem k0_idx28_inb : ∀ (v135 : IVec S16 32) (v136 : IVec S16 32) (k0_hw28 : k0_chk28 v135 v136), ∀ a x, ((![v135, v136] : Fin 2 → IVec S16 32) a x).toNat < S1000x128.size a := fun v135 v136 k0_hw28 => k0_hw28

def k0_chk29 (v139 : IVec S16 32) (v140 : IVec S16 32) : Prop :=
  (∀ a x, ((![v139, v140] : Fin 2 → IVec S16 32) a x).toNat < S1000x128.size a)
instance k0_chk29.dec : ∀ (v139 : IVec S16 32) (v140 : IVec S16 32), Decidable (k0_chk29 v139 v140) := fun v139 v140 => decidable_of_iff' _ (Iff.of_eq (k0_chk29.eq_1 v139 v140))
theorem k0_idx29_inb : ∀ (v139 : IVec S16 32) (v140 : IVec S16 32) (k0_hw29 : k0_chk29 v139 v140), ∀ a x, ((![v139, v140] : Fin 2 → IVec S16 32) a x).toNat < S1000x128.size a := fun v139 v140 k0_hw29 => k0_hw29

def k0_chk30 (v143 : IVec S16 32) (v144 : IVec S16 32) : Prop :=
  (∀ a x, ((![v143, v144] : Fin 2 → IVec S16 32) a x).toNat < S1000x128.size a)
instance k0_chk30.dec : ∀ (v143 : IVec S16 32) (v144 : IVec S16 32), Decidable (k0_chk30 v143 v144) := fun v143 v144 => decidable_of_iff' _ (Iff.of_eq (k0_chk30.eq_1 v143 v144))
theorem k0_idx30_inb : ∀ (v143 : IVec S16 32) (v144 : IVec S16 32) (k0_hw30 : k0_chk30 v143 v144), ∀ a x, ((![v143, v144] : Fin 2 → IVec S16 32) a x).toNat < S1000x128.size a := fun v143 v144 k0_hw30 => k0_hw30

def k0_chk31 (v147 : IVec S16 32) (v148 : IVec S16 32) : Prop :=
  (∀ a x, ((![v147, v148] : Fin 2 → IVec S16 32) a x).toNat < S1000x128.size a)
instance k0_chk31.dec : ∀ (v147 : IVec S16 32) (v148 : IVec S16 32), Decidable (k0_chk31 v147 v148) := fun v147 v148 => decidable_of_iff' _ (Iff.of_eq (k0_chk31.eq_1 v147 v148))
theorem k0_idx31_inb : ∀ (v147 : IVec S16 32) (v148 : IVec S16 32) (k0_hw31 : k0_chk31 v147 v148), ∀ a x, ((![v147, v148] : Fin 2 → IVec S16 32) a x).toNat < S1000x128.size a := fun v147 v148 k0_hw31 => k0_hw31

def k0_chk32 (v151 : IVec S16 32) (v152 : IVec S16 32) : Prop :=
  (∀ a x, ((![v151, v152] : Fin 2 → IVec S16 32) a x).toNat < S1000x128.size a)
instance k0_chk32.dec : ∀ (v151 : IVec S16 32) (v152 : IVec S16 32), Decidable (k0_chk32 v151 v152) := fun v151 v152 => decidable_of_iff' _ (Iff.of_eq (k0_chk32.eq_1 v151 v152))
theorem k0_idx32_inb : ∀ (v151 : IVec S16 32) (v152 : IVec S16 32) (k0_hw32 : k0_chk32 v151 v152), ∀ a x, ((![v151, v152] : Fin 2 → IVec S16 32) a x).toNat < S1000x128.size a := fun v151 v152 k0_hw32 => k0_hw32
def k0_off13 (i : grid0.Coords) : Fin 1 → Nat :=
  let c128_i32_113 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_110 : BitVec 32 := 26#32
  let v155 : BitVec 32 := Scalar.muli v6 c26_i32_110
  let c2_i32_111 : BitVec 32 := 2#32
  let v156 : BitVec 32 := Scalar.addi v155 c2_i32_111
  let c128_i32_112 : BitVec 32 := 128#32
  let v157 : BitVec 32 := Scalar.muli v156 c128_i32_112
  let v158 : BitVec 32 := Scalar.addi c128_i32_113 v157
  ![v158.toNat]

def k0_chk33 (v159 : IVec S16 32) (v160 : IVec S16 32) : Prop :=
  (∀ a x, ((![v159, v160] : Fin 2 → IVec S16 32) a x).toNat < S1000x128.size a)
instance k0_chk33.dec : ∀ (v159 : IVec S16 32) (v160 : IVec S16 32), Decidable (k0_chk33 v159 v160) := fun v159 v160 => decidable_of_iff' _ (Iff.of_eq (k0_chk33.eq_1 v159 v160))
theorem k0_idx33_inb : ∀ (v159 : IVec S16 32) (v160 : IVec S16 32) (k0_hw33 : k0_chk33 v159 v160), ∀ a x, ((![v159, v160] : Fin 2 → IVec S16 32) a x).toNat < S1000x128.size a := fun v159 v160 k0_hw33 => k0_hw33

def k0_chk34 (v163 : IVec S16 32) (v164 : IVec S16 32) : Prop :=
  (∀ a x, ((![v163, v164] : Fin 2 → IVec S16 32) a x).toNat < S1000x128.size a)
instance k0_chk34.dec : ∀ (v163 : IVec S16 32) (v164 : IVec S16 32), Decidable (k0_chk34 v163 v164) := fun v163 v164 => decidable_of_iff' _ (Iff.of_eq (k0_chk34.eq_1 v163 v164))
theorem k0_idx34_inb : ∀ (v163 : IVec S16 32) (v164 : IVec S16 32) (k0_hw34 : k0_chk34 v163 v164), ∀ a x, ((![v163, v164] : Fin 2 → IVec S16 32) a x).toNat < S1000x128.size a := fun v163 v164 k0_hw34 => k0_hw34

def k0_chk35 (v167 : IVec S16 32) (v168 : IVec S16 32) : Prop :=
  (∀ a x, ((![v167, v168] : Fin 2 → IVec S16 32) a x).toNat < S1000x128.size a)
instance k0_chk35.dec : ∀ (v167 : IVec S16 32) (v168 : IVec S16 32), Decidable (k0_chk35 v167 v168) := fun v167 v168 => decidable_of_iff' _ (Iff.of_eq (k0_chk35.eq_1 v167 v168))
theorem k0_idx35_inb : ∀ (v167 : IVec S16 32) (v168 : IVec S16 32) (k0_hw35 : k0_chk35 v167 v168), ∀ a x, ((![v167, v168] : Fin 2 → IVec S16 32) a x).toNat < S1000x128.size a := fun v167 v168 k0_hw35 => k0_hw35

def k0_chk36 (v171 : IVec S16 32) (v172 : IVec S16 32) : Prop :=
  (∀ a x, ((![v171, v172] : Fin 2 → IVec S16 32) a x).toNat < S1000x128.size a)
instance k0_chk36.dec : ∀ (v171 : IVec S16 32) (v172 : IVec S16 32), Decidable (k0_chk36 v171 v172) := fun v171 v172 => decidable_of_iff' _ (Iff.of_eq (k0_chk36.eq_1 v171 v172))
theorem k0_idx36_inb : ∀ (v171 : IVec S16 32) (v172 : IVec S16 32) (k0_hw36 : k0_chk36 v171 v172), ∀ a x, ((![v171, v172] : Fin 2 → IVec S16 32) a x).toNat < S1000x128.size a := fun v171 v172 k0_hw36 => k0_hw36

def k0_chk37 (v175 : IVec S16 32) (v176 : IVec S16 32) : Prop :=
  (∀ a x, ((![v175, v176] : Fin 2 → IVec S16 32) a x).toNat < S1000x128.size a)
instance k0_chk37.dec : ∀ (v175 : IVec S16 32) (v176 : IVec S16 32), Decidable (k0_chk37 v175 v176) := fun v175 v176 => decidable_of_iff' _ (Iff.of_eq (k0_chk37.eq_1 v175 v176))
theorem k0_idx37_inb : ∀ (v175 : IVec S16 32) (v176 : IVec S16 32) (k0_hw37 : k0_chk37 v175 v176), ∀ a x, ((![v175, v176] : Fin 2 → IVec S16 32) a x).toNat < S1000x128.size a := fun v175 v176 k0_hw37 => k0_hw37

def k0_chk38 (v179 : IVec S16 32) (v180 : IVec S16 32) : Prop :=
  (∀ a x, ((![v179, v180] : Fin 2 → IVec S16 32) a x).toNat < S1000x128.size a)
instance k0_chk38.dec : ∀ (v179 : IVec S16 32) (v180 : IVec S16 32), Decidable (k0_chk38 v179 v180) := fun v179 v180 => decidable_of_iff' _ (Iff.of_eq (k0_chk38.eq_1 v179 v180))
theorem k0_idx38_inb : ∀ (v179 : IVec S16 32) (v180 : IVec S16 32) (k0_hw38 : k0_chk38 v179 v180), ∀ a x, ((![v179, v180] : Fin 2 → IVec S16 32) a x).toNat < S1000x128.size a := fun v179 v180 k0_hw38 => k0_hw38

def k0_chk39 (v183 : IVec S16 32) (v184 : IVec S16 32) : Prop :=
  (∀ a x, ((![v183, v184] : Fin 2 → IVec S16 32) a x).toNat < S1000x128.size a)
instance k0_chk39.dec : ∀ (v183 : IVec S16 32) (v184 : IVec S16 32), Decidable (k0_chk39 v183 v184) := fun v183 v184 => decidable_of_iff' _ (Iff.of_eq (k0_chk39.eq_1 v183 v184))
theorem k0_idx39_inb : ∀ (v183 : IVec S16 32) (v184 : IVec S16 32) (k0_hw39 : k0_chk39 v183 v184), ∀ a x, ((![v183, v184] : Fin 2 → IVec S16 32) a x).toNat < S1000x128.size a := fun v183 v184 k0_hw39 => k0_hw39

def k0_chk40 (v187 : IVec S16 32) (v188 : IVec S16 32) : Prop :=
  (∀ a x, ((![v187, v188] : Fin 2 → IVec S16 32) a x).toNat < S1000x128.size a)
instance k0_chk40.dec : ∀ (v187 : IVec S16 32) (v188 : IVec S16 32), Decidable (k0_chk40 v187 v188) := fun v187 v188 => decidable_of_iff' _ (Iff.of_eq (k0_chk40.eq_1 v187 v188))
theorem k0_idx40_inb : ∀ (v187 : IVec S16 32) (v188 : IVec S16 32) (k0_hw40 : k0_chk40 v187 v188), ∀ a x, ((![v187, v188] : Fin 2 → IVec S16 32) a x).toNat < S1000x128.size a := fun v187 v188 k0_hw40 => k0_hw40
def k0_off14 (i : grid0.Coords) : Fin 2 → Nat :=
  let c2000_i32 : BitVec 32 := 2000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_138 : BitVec 32 := 128#32
  let v191 : BitVec 32 := Scalar.muli v6 c128_i32_138
  ![2000, v191.toNat]

def k0_chk41 (v197 : IVec S16 32) (v198 : IVec S16 32) : Prop :=
  (∀ a x, ((![v197, v198] : Fin 2 → IVec S16 32) a x).toNat < S1000x128.size a)
instance k0_chk41.dec : ∀ (v197 : IVec S16 32) (v198 : IVec S16 32), Decidable (k0_chk41 v197 v198) := fun v197 v198 => decidable_of_iff' _ (Iff.of_eq (k0_chk41.eq_1 v197 v198))
theorem k0_idx41_inb : ∀ (v197 : IVec S16 32) (v198 : IVec S16 32) (k0_hw41 : k0_chk41 v197 v198), ∀ a x, ((![v197, v198] : Fin 2 → IVec S16 32) a x).toNat < S1000x128.size a := fun v197 v198 k0_hw41 => k0_hw41

def k0_chk42 (v201 : IVec S16 32) (v202 : IVec S16 32) : Prop :=
  (∀ a x, ((![v201, v202] : Fin 2 → IVec S16 32) a x).toNat < S1000x128.size a)
instance k0_chk42.dec : ∀ (v201 : IVec S16 32) (v202 : IVec S16 32), Decidable (k0_chk42 v201 v202) := fun v201 v202 => decidable_of_iff' _ (Iff.of_eq (k0_chk42.eq_1 v201 v202))
theorem k0_idx42_inb : ∀ (v201 : IVec S16 32) (v202 : IVec S16 32) (k0_hw42 : k0_chk42 v201 v202), ∀ a x, ((![v201, v202] : Fin 2 → IVec S16 32) a x).toNat < S1000x128.size a := fun v201 v202 k0_hw42 => k0_hw42

def k0_chk43 (v205 : IVec S16 32) (v206 : IVec S16 32) : Prop :=
  (∀ a x, ((![v205, v206] : Fin 2 → IVec S16 32) a x).toNat < S1000x128.size a)
instance k0_chk43.dec : ∀ (v205 : IVec S16 32) (v206 : IVec S16 32), Decidable (k0_chk43 v205 v206) := fun v205 v206 => decidable_of_iff' _ (Iff.of_eq (k0_chk43.eq_1 v205 v206))
theorem k0_idx43_inb : ∀ (v205 : IVec S16 32) (v206 : IVec S16 32) (k0_hw43 : k0_chk43 v205 v206), ∀ a x, ((![v205, v206] : Fin 2 → IVec S16 32) a x).toNat < S1000x128.size a := fun v205 v206 k0_hw43 => k0_hw43

def k0_chk44 (v209 : IVec S16 32) (v210 : IVec S16 32) : Prop :=
  (∀ a x, ((![v209, v210] : Fin 2 → IVec S16 32) a x).toNat < S1000x128.size a)
instance k0_chk44.dec : ∀ (v209 : IVec S16 32) (v210 : IVec S16 32), Decidable (k0_chk44 v209 v210) := fun v209 v210 => decidable_of_iff' _ (Iff.of_eq (k0_chk44.eq_1 v209 v210))
theorem k0_idx44_inb : ∀ (v209 : IVec S16 32) (v210 : IVec S16 32) (k0_hw44 : k0_chk44 v209 v210), ∀ a x, ((![v209, v210] : Fin 2 → IVec S16 32) a x).toNat < S1000x128.size a := fun v209 v210 k0_hw44 => k0_hw44

def k0_chk45 (v213 : IVec S16 32) (v214 : IVec S16 32) : Prop :=
  (∀ a x, ((![v213, v214] : Fin 2 → IVec S16 32) a x).toNat < S1000x128.size a)
instance k0_chk45.dec : ∀ (v213 : IVec S16 32) (v214 : IVec S16 32), Decidable (k0_chk45 v213 v214) := fun v213 v214 => decidable_of_iff' _ (Iff.of_eq (k0_chk45.eq_1 v213 v214))
theorem k0_idx45_inb : ∀ (v213 : IVec S16 32) (v214 : IVec S16 32) (k0_hw45 : k0_chk45 v213 v214), ∀ a x, ((![v213, v214] : Fin 2 → IVec S16 32) a x).toNat < S1000x128.size a := fun v213 v214 k0_hw45 => k0_hw45

def k0_chk46 (v217 : IVec S16 32) (v218 : IVec S16 32) : Prop :=
  (∀ a x, ((![v217, v218] : Fin 2 → IVec S16 32) a x).toNat < S1000x128.size a)
instance k0_chk46.dec : ∀ (v217 : IVec S16 32) (v218 : IVec S16 32), Decidable (k0_chk46 v217 v218) := fun v217 v218 => decidable_of_iff' _ (Iff.of_eq (k0_chk46.eq_1 v217 v218))
theorem k0_idx46_inb : ∀ (v217 : IVec S16 32) (v218 : IVec S16 32) (k0_hw46 : k0_chk46 v217 v218), ∀ a x, ((![v217, v218] : Fin 2 → IVec S16 32) a x).toNat < S1000x128.size a := fun v217 v218 k0_hw46 => k0_hw46

def k0_chk47 (v221 : IVec S16 32) (v222 : IVec S16 32) : Prop :=
  (∀ a x, ((![v221, v222] : Fin 2 → IVec S16 32) a x).toNat < S1000x128.size a)
instance k0_chk47.dec : ∀ (v221 : IVec S16 32) (v222 : IVec S16 32), Decidable (k0_chk47 v221 v222) := fun v221 v222 => decidable_of_iff' _ (Iff.of_eq (k0_chk47.eq_1 v221 v222))
theorem k0_idx47_inb : ∀ (v221 : IVec S16 32) (v222 : IVec S16 32) (k0_hw47 : k0_chk47 v221 v222), ∀ a x, ((![v221, v222] : Fin 2 → IVec S16 32) a x).toNat < S1000x128.size a := fun v221 v222 k0_hw47 => k0_hw47

def k0_chk48 (v225 : IVec S16 32) (v226 : IVec S16 32) : Prop :=
  (∀ a x, ((![v225, v226] : Fin 2 → IVec S16 32) a x).toNat < S1000x128.size a)
instance k0_chk48.dec : ∀ (v225 : IVec S16 32) (v226 : IVec S16 32), Decidable (k0_chk48 v225 v226) := fun v225 v226 => decidable_of_iff' _ (Iff.of_eq (k0_chk48.eq_1 v225 v226))
theorem k0_idx48_inb : ∀ (v225 : IVec S16 32) (v226 : IVec S16 32) (k0_hw48 : k0_chk48 v225 v226), ∀ a x, ((![v225, v226] : Fin 2 → IVec S16 32) a x).toNat < S1000x128.size a := fun v225 v226 k0_hw48 => k0_hw48
def k0_off15 (i : grid0.Coords) : Fin 1 → Nat :=
  let c128_i32_169 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_167 : BitVec 32 := 26#32
  let v229 : BitVec 32 := Scalar.muli v6 c26_i32_167
  let c3_i32 : BitVec 32 := 3#32
  let v230 : BitVec 32 := Scalar.addi v229 c3_i32
  let c128_i32_168 : BitVec 32 := 128#32
  let v231 : BitVec 32 := Scalar.muli v230 c128_i32_168
  let v232 : BitVec 32 := Scalar.addi c128_i32_169 v231
  ![v232.toNat]

def k0_chk49 (v233 : IVec S16 32) (v234 : IVec S16 32) : Prop :=
  (∀ a x, ((![v233, v234] : Fin 2 → IVec S16 32) a x).toNat < S1000x128.size a)
instance k0_chk49.dec : ∀ (v233 : IVec S16 32) (v234 : IVec S16 32), Decidable (k0_chk49 v233 v234) := fun v233 v234 => decidable_of_iff' _ (Iff.of_eq (k0_chk49.eq_1 v233 v234))
theorem k0_idx49_inb : ∀ (v233 : IVec S16 32) (v234 : IVec S16 32) (k0_hw49 : k0_chk49 v233 v234), ∀ a x, ((![v233, v234] : Fin 2 → IVec S16 32) a x).toNat < S1000x128.size a := fun v233 v234 k0_hw49 => k0_hw49

def k0_chk50 (v237 : IVec S16 32) (v238 : IVec S16 32) : Prop :=
  (∀ a x, ((![v237, v238] : Fin 2 → IVec S16 32) a x).toNat < S1000x128.size a)
instance k0_chk50.dec : ∀ (v237 : IVec S16 32) (v238 : IVec S16 32), Decidable (k0_chk50 v237 v238) := fun v237 v238 => decidable_of_iff' _ (Iff.of_eq (k0_chk50.eq_1 v237 v238))
theorem k0_idx50_inb : ∀ (v237 : IVec S16 32) (v238 : IVec S16 32) (k0_hw50 : k0_chk50 v237 v238), ∀ a x, ((![v237, v238] : Fin 2 → IVec S16 32) a x).toNat < S1000x128.size a := fun v237 v238 k0_hw50 => k0_hw50

def k0_chk51 (v241 : IVec S16 32) (v242 : IVec S16 32) : Prop :=
  (∀ a x, ((![v241, v242] : Fin 2 → IVec S16 32) a x).toNat < S1000x128.size a)
instance k0_chk51.dec : ∀ (v241 : IVec S16 32) (v242 : IVec S16 32), Decidable (k0_chk51 v241 v242) := fun v241 v242 => decidable_of_iff' _ (Iff.of_eq (k0_chk51.eq_1 v241 v242))
theorem k0_idx51_inb : ∀ (v241 : IVec S16 32) (v242 : IVec S16 32) (k0_hw51 : k0_chk51 v241 v242), ∀ a x, ((![v241, v242] : Fin 2 → IVec S16 32) a x).toNat < S1000x128.size a := fun v241 v242 k0_hw51 => k0_hw51

def k0_chk52 (v245 : IVec S16 32) (v246 : IVec S16 32) : Prop :=
  (∀ a x, ((![v245, v246] : Fin 2 → IVec S16 32) a x).toNat < S1000x128.size a)
instance k0_chk52.dec : ∀ (v245 : IVec S16 32) (v246 : IVec S16 32), Decidable (k0_chk52 v245 v246) := fun v245 v246 => decidable_of_iff' _ (Iff.of_eq (k0_chk52.eq_1 v245 v246))
theorem k0_idx52_inb : ∀ (v245 : IVec S16 32) (v246 : IVec S16 32) (k0_hw52 : k0_chk52 v245 v246), ∀ a x, ((![v245, v246] : Fin 2 → IVec S16 32) a x).toNat < S1000x128.size a := fun v245 v246 k0_hw52 => k0_hw52

def k0_chk53 (v249 : IVec S16 32) (v250 : IVec S16 32) : Prop :=
  (∀ a x, ((![v249, v250] : Fin 2 → IVec S16 32) a x).toNat < S1000x128.size a)
instance k0_chk53.dec : ∀ (v249 : IVec S16 32) (v250 : IVec S16 32), Decidable (k0_chk53 v249 v250) := fun v249 v250 => decidable_of_iff' _ (Iff.of_eq (k0_chk53.eq_1 v249 v250))
theorem k0_idx53_inb : ∀ (v249 : IVec S16 32) (v250 : IVec S16 32) (k0_hw53 : k0_chk53 v249 v250), ∀ a x, ((![v249, v250] : Fin 2 → IVec S16 32) a x).toNat < S1000x128.size a := fun v249 v250 k0_hw53 => k0_hw53

def k0_chk54 (v253 : IVec S16 32) (v254 : IVec S16 32) : Prop :=
  (∀ a x, ((![v253, v254] : Fin 2 → IVec S16 32) a x).toNat < S1000x128.size a)
instance k0_chk54.dec : ∀ (v253 : IVec S16 32) (v254 : IVec S16 32), Decidable (k0_chk54 v253 v254) := fun v253 v254 => decidable_of_iff' _ (Iff.of_eq (k0_chk54.eq_1 v253 v254))
theorem k0_idx54_inb : ∀ (v253 : IVec S16 32) (v254 : IVec S16 32) (k0_hw54 : k0_chk54 v253 v254), ∀ a x, ((![v253, v254] : Fin 2 → IVec S16 32) a x).toNat < S1000x128.size a := fun v253 v254 k0_hw54 => k0_hw54

def k0_chk55 (v257 : IVec S16 32) (v258 : IVec S16 32) : Prop :=
  (∀ a x, ((![v257, v258] : Fin 2 → IVec S16 32) a x).toNat < S1000x128.size a)
instance k0_chk55.dec : ∀ (v257 : IVec S16 32) (v258 : IVec S16 32), Decidable (k0_chk55 v257 v258) := fun v257 v258 => decidable_of_iff' _ (Iff.of_eq (k0_chk55.eq_1 v257 v258))
theorem k0_idx55_inb : ∀ (v257 : IVec S16 32) (v258 : IVec S16 32) (k0_hw55 : k0_chk55 v257 v258), ∀ a x, ((![v257, v258] : Fin 2 → IVec S16 32) a x).toNat < S1000x128.size a := fun v257 v258 k0_hw55 => k0_hw55

def k0_chk56 (v261 : IVec S16 32) (v262 : IVec S16 32) : Prop :=
  (∀ a x, ((![v261, v262] : Fin 2 → IVec S16 32) a x).toNat < S1000x128.size a)
instance k0_chk56.dec : ∀ (v261 : IVec S16 32) (v262 : IVec S16 32), Decidable (k0_chk56 v261 v262) := fun v261 v262 => decidable_of_iff' _ (Iff.of_eq (k0_chk56.eq_1 v261 v262))
theorem k0_idx56_inb : ∀ (v261 : IVec S16 32) (v262 : IVec S16 32) (k0_hw56 : k0_chk56 v261 v262), ∀ a x, ((![v261, v262] : Fin 2 → IVec S16 32) a x).toNat < S1000x128.size a := fun v261 v262 k0_hw56 => k0_hw56
def k0_off16 (i : grid0.Coords) : Fin 2 → Nat :=
  let c3000_i32 : BitVec 32 := 3000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_194 : BitVec 32 := 128#32
  let v265 : BitVec 32 := Scalar.muli v6 c128_i32_194
  ![3000, v265.toNat]

def k0_chk57 (v271 : IVec S16 32) (v272 : IVec S16 32) : Prop :=
  (∀ a x, ((![v271, v272] : Fin 2 → IVec S16 32) a x).toNat < S1000x128.size a)
instance k0_chk57.dec : ∀ (v271 : IVec S16 32) (v272 : IVec S16 32), Decidable (k0_chk57 v271 v272) := fun v271 v272 => decidable_of_iff' _ (Iff.of_eq (k0_chk57.eq_1 v271 v272))
theorem k0_idx57_inb : ∀ (v271 : IVec S16 32) (v272 : IVec S16 32) (k0_hw57 : k0_chk57 v271 v272), ∀ a x, ((![v271, v272] : Fin 2 → IVec S16 32) a x).toNat < S1000x128.size a := fun v271 v272 k0_hw57 => k0_hw57

def k0_chk58 (v275 : IVec S16 32) (v276 : IVec S16 32) : Prop :=
  (∀ a x, ((![v275, v276] : Fin 2 → IVec S16 32) a x).toNat < S1000x128.size a)
instance k0_chk58.dec : ∀ (v275 : IVec S16 32) (v276 : IVec S16 32), Decidable (k0_chk58 v275 v276) := fun v275 v276 => decidable_of_iff' _ (Iff.of_eq (k0_chk58.eq_1 v275 v276))
theorem k0_idx58_inb : ∀ (v275 : IVec S16 32) (v276 : IVec S16 32) (k0_hw58 : k0_chk58 v275 v276), ∀ a x, ((![v275, v276] : Fin 2 → IVec S16 32) a x).toNat < S1000x128.size a := fun v275 v276 k0_hw58 => k0_hw58

def k0_chk59 (v279 : IVec S16 32) (v280 : IVec S16 32) : Prop :=
  (∀ a x, ((![v279, v280] : Fin 2 → IVec S16 32) a x).toNat < S1000x128.size a)
instance k0_chk59.dec : ∀ (v279 : IVec S16 32) (v280 : IVec S16 32), Decidable (k0_chk59 v279 v280) := fun v279 v280 => decidable_of_iff' _ (Iff.of_eq (k0_chk59.eq_1 v279 v280))
theorem k0_idx59_inb : ∀ (v279 : IVec S16 32) (v280 : IVec S16 32) (k0_hw59 : k0_chk59 v279 v280), ∀ a x, ((![v279, v280] : Fin 2 → IVec S16 32) a x).toNat < S1000x128.size a := fun v279 v280 k0_hw59 => k0_hw59

def k0_chk60 (v283 : IVec S16 32) (v284 : IVec S16 32) : Prop :=
  (∀ a x, ((![v283, v284] : Fin 2 → IVec S16 32) a x).toNat < S1000x128.size a)
instance k0_chk60.dec : ∀ (v283 : IVec S16 32) (v284 : IVec S16 32), Decidable (k0_chk60 v283 v284) := fun v283 v284 => decidable_of_iff' _ (Iff.of_eq (k0_chk60.eq_1 v283 v284))
theorem k0_idx60_inb : ∀ (v283 : IVec S16 32) (v284 : IVec S16 32) (k0_hw60 : k0_chk60 v283 v284), ∀ a x, ((![v283, v284] : Fin 2 → IVec S16 32) a x).toNat < S1000x128.size a := fun v283 v284 k0_hw60 => k0_hw60

def k0_chk61 (v287 : IVec S16 32) (v288 : IVec S16 32) : Prop :=
  (∀ a x, ((![v287, v288] : Fin 2 → IVec S16 32) a x).toNat < S1000x128.size a)
instance k0_chk61.dec : ∀ (v287 : IVec S16 32) (v288 : IVec S16 32), Decidable (k0_chk61 v287 v288) := fun v287 v288 => decidable_of_iff' _ (Iff.of_eq (k0_chk61.eq_1 v287 v288))
theorem k0_idx61_inb : ∀ (v287 : IVec S16 32) (v288 : IVec S16 32) (k0_hw61 : k0_chk61 v287 v288), ∀ a x, ((![v287, v288] : Fin 2 → IVec S16 32) a x).toNat < S1000x128.size a := fun v287 v288 k0_hw61 => k0_hw61

def k0_chk62 (v291 : IVec S16 32) (v292 : IVec S16 32) : Prop :=
  (∀ a x, ((![v291, v292] : Fin 2 → IVec S16 32) a x).toNat < S1000x128.size a)
instance k0_chk62.dec : ∀ (v291 : IVec S16 32) (v292 : IVec S16 32), Decidable (k0_chk62 v291 v292) := fun v291 v292 => decidable_of_iff' _ (Iff.of_eq (k0_chk62.eq_1 v291 v292))
theorem k0_idx62_inb : ∀ (v291 : IVec S16 32) (v292 : IVec S16 32) (k0_hw62 : k0_chk62 v291 v292), ∀ a x, ((![v291, v292] : Fin 2 → IVec S16 32) a x).toNat < S1000x128.size a := fun v291 v292 k0_hw62 => k0_hw62

def k0_chk63 (v295 : IVec S16 32) (v296 : IVec S16 32) : Prop :=
  (∀ a x, ((![v295, v296] : Fin 2 → IVec S16 32) a x).toNat < S1000x128.size a)
instance k0_chk63.dec : ∀ (v295 : IVec S16 32) (v296 : IVec S16 32), Decidable (k0_chk63 v295 v296) := fun v295 v296 => decidable_of_iff' _ (Iff.of_eq (k0_chk63.eq_1 v295 v296))
theorem k0_idx63_inb : ∀ (v295 : IVec S16 32) (v296 : IVec S16 32) (k0_hw63 : k0_chk63 v295 v296), ∀ a x, ((![v295, v296] : Fin 2 → IVec S16 32) a x).toNat < S1000x128.size a := fun v295 v296 k0_hw63 => k0_hw63

def k0_chk64 (v299 : IVec S16 32) (v300 : IVec S16 32) : Prop :=
  (∀ a x, ((![v299, v300] : Fin 2 → IVec S16 32) a x).toNat < S1000x128.size a)
instance k0_chk64.dec : ∀ (v299 : IVec S16 32) (v300 : IVec S16 32), Decidable (k0_chk64 v299 v300) := fun v299 v300 => decidable_of_iff' _ (Iff.of_eq (k0_chk64.eq_1 v299 v300))
theorem k0_idx64_inb : ∀ (v299 : IVec S16 32) (v300 : IVec S16 32) (k0_hw64 : k0_chk64 v299 v300), ∀ a x, ((![v299, v300] : Fin 2 → IVec S16 32) a x).toNat < S1000x128.size a := fun v299 v300 k0_hw64 => k0_hw64
def k0_off17 (i : grid0.Coords) : Fin 1 → Nat :=
  let c128_i32_225 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_223 : BitVec 32 := 26#32
  let v303 : BitVec 32 := Scalar.muli v6 c26_i32_223
  let c4_i32 : BitVec 32 := 4#32
  let v304 : BitVec 32 := Scalar.addi v303 c4_i32
  let c128_i32_224 : BitVec 32 := 128#32
  let v305 : BitVec 32 := Scalar.muli v304 c128_i32_224
  let v306 : BitVec 32 := Scalar.addi c128_i32_225 v305
  ![v306.toNat]

def k0_chk65 (v307 : IVec S16 32) (v308 : IVec S16 32) : Prop :=
  (∀ a x, ((![v307, v308] : Fin 2 → IVec S16 32) a x).toNat < S1000x128.size a)
instance k0_chk65.dec : ∀ (v307 : IVec S16 32) (v308 : IVec S16 32), Decidable (k0_chk65 v307 v308) := fun v307 v308 => decidable_of_iff' _ (Iff.of_eq (k0_chk65.eq_1 v307 v308))
theorem k0_idx65_inb : ∀ (v307 : IVec S16 32) (v308 : IVec S16 32) (k0_hw65 : k0_chk65 v307 v308), ∀ a x, ((![v307, v308] : Fin 2 → IVec S16 32) a x).toNat < S1000x128.size a := fun v307 v308 k0_hw65 => k0_hw65

def k0_chk66 (v311 : IVec S16 32) (v312 : IVec S16 32) : Prop :=
  (∀ a x, ((![v311, v312] : Fin 2 → IVec S16 32) a x).toNat < S1000x128.size a)
instance k0_chk66.dec : ∀ (v311 : IVec S16 32) (v312 : IVec S16 32), Decidable (k0_chk66 v311 v312) := fun v311 v312 => decidable_of_iff' _ (Iff.of_eq (k0_chk66.eq_1 v311 v312))
theorem k0_idx66_inb : ∀ (v311 : IVec S16 32) (v312 : IVec S16 32) (k0_hw66 : k0_chk66 v311 v312), ∀ a x, ((![v311, v312] : Fin 2 → IVec S16 32) a x).toNat < S1000x128.size a := fun v311 v312 k0_hw66 => k0_hw66

def k0_chk67 (v315 : IVec S16 32) (v316 : IVec S16 32) : Prop :=
  (∀ a x, ((![v315, v316] : Fin 2 → IVec S16 32) a x).toNat < S1000x128.size a)
instance k0_chk67.dec : ∀ (v315 : IVec S16 32) (v316 : IVec S16 32), Decidable (k0_chk67 v315 v316) := fun v315 v316 => decidable_of_iff' _ (Iff.of_eq (k0_chk67.eq_1 v315 v316))
theorem k0_idx67_inb : ∀ (v315 : IVec S16 32) (v316 : IVec S16 32) (k0_hw67 : k0_chk67 v315 v316), ∀ a x, ((![v315, v316] : Fin 2 → IVec S16 32) a x).toNat < S1000x128.size a := fun v315 v316 k0_hw67 => k0_hw67

def k0_chk68 (v319 : IVec S16 32) (v320 : IVec S16 32) : Prop :=
  (∀ a x, ((![v319, v320] : Fin 2 → IVec S16 32) a x).toNat < S1000x128.size a)
instance k0_chk68.dec : ∀ (v319 : IVec S16 32) (v320 : IVec S16 32), Decidable (k0_chk68 v319 v320) := fun v319 v320 => decidable_of_iff' _ (Iff.of_eq (k0_chk68.eq_1 v319 v320))
theorem k0_idx68_inb : ∀ (v319 : IVec S16 32) (v320 : IVec S16 32) (k0_hw68 : k0_chk68 v319 v320), ∀ a x, ((![v319, v320] : Fin 2 → IVec S16 32) a x).toNat < S1000x128.size a := fun v319 v320 k0_hw68 => k0_hw68

def k0_chk69 (v323 : IVec S16 32) (v324 : IVec S16 32) : Prop :=
  (∀ a x, ((![v323, v324] : Fin 2 → IVec S16 32) a x).toNat < S1000x128.size a)
instance k0_chk69.dec : ∀ (v323 : IVec S16 32) (v324 : IVec S16 32), Decidable (k0_chk69 v323 v324) := fun v323 v324 => decidable_of_iff' _ (Iff.of_eq (k0_chk69.eq_1 v323 v324))
theorem k0_idx69_inb : ∀ (v323 : IVec S16 32) (v324 : IVec S16 32) (k0_hw69 : k0_chk69 v323 v324), ∀ a x, ((![v323, v324] : Fin 2 → IVec S16 32) a x).toNat < S1000x128.size a := fun v323 v324 k0_hw69 => k0_hw69

def k0_chk70 (v327 : IVec S16 32) (v328 : IVec S16 32) : Prop :=
  (∀ a x, ((![v327, v328] : Fin 2 → IVec S16 32) a x).toNat < S1000x128.size a)
instance k0_chk70.dec : ∀ (v327 : IVec S16 32) (v328 : IVec S16 32), Decidable (k0_chk70 v327 v328) := fun v327 v328 => decidable_of_iff' _ (Iff.of_eq (k0_chk70.eq_1 v327 v328))
theorem k0_idx70_inb : ∀ (v327 : IVec S16 32) (v328 : IVec S16 32) (k0_hw70 : k0_chk70 v327 v328), ∀ a x, ((![v327, v328] : Fin 2 → IVec S16 32) a x).toNat < S1000x128.size a := fun v327 v328 k0_hw70 => k0_hw70

def k0_chk71 (v331 : IVec S16 32) (v332 : IVec S16 32) : Prop :=
  (∀ a x, ((![v331, v332] : Fin 2 → IVec S16 32) a x).toNat < S1000x128.size a)
instance k0_chk71.dec : ∀ (v331 : IVec S16 32) (v332 : IVec S16 32), Decidable (k0_chk71 v331 v332) := fun v331 v332 => decidable_of_iff' _ (Iff.of_eq (k0_chk71.eq_1 v331 v332))
theorem k0_idx71_inb : ∀ (v331 : IVec S16 32) (v332 : IVec S16 32) (k0_hw71 : k0_chk71 v331 v332), ∀ a x, ((![v331, v332] : Fin 2 → IVec S16 32) a x).toNat < S1000x128.size a := fun v331 v332 k0_hw71 => k0_hw71

def k0_chk72 (v335 : IVec S16 32) (v336 : IVec S16 32) : Prop :=
  (∀ a x, ((![v335, v336] : Fin 2 → IVec S16 32) a x).toNat < S1000x128.size a)
instance k0_chk72.dec : ∀ (v335 : IVec S16 32) (v336 : IVec S16 32), Decidable (k0_chk72 v335 v336) := fun v335 v336 => decidable_of_iff' _ (Iff.of_eq (k0_chk72.eq_1 v335 v336))
theorem k0_idx72_inb : ∀ (v335 : IVec S16 32) (v336 : IVec S16 32) (k0_hw72 : k0_chk72 v335 v336), ∀ a x, ((![v335, v336] : Fin 2 → IVec S16 32) a x).toNat < S1000x128.size a := fun v335 v336 k0_hw72 => k0_hw72
def k0_off18 (i : grid0.Coords) : Fin 2 → Nat :=
  let c4000_i32 : BitVec 32 := 4000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_250 : BitVec 32 := 128#32
  let v339 : BitVec 32 := Scalar.muli v6 c128_i32_250
  ![4000, v339.toNat]

def k0_chk73 (v345 : IVec S16 32) (v346 : IVec S16 32) : Prop :=
  (∀ a x, ((![v345, v346] : Fin 2 → IVec S16 32) a x).toNat < S1000x128.size a)
instance k0_chk73.dec : ∀ (v345 : IVec S16 32) (v346 : IVec S16 32), Decidable (k0_chk73 v345 v346) := fun v345 v346 => decidable_of_iff' _ (Iff.of_eq (k0_chk73.eq_1 v345 v346))
theorem k0_idx73_inb : ∀ (v345 : IVec S16 32) (v346 : IVec S16 32) (k0_hw73 : k0_chk73 v345 v346), ∀ a x, ((![v345, v346] : Fin 2 → IVec S16 32) a x).toNat < S1000x128.size a := fun v345 v346 k0_hw73 => k0_hw73

def k0_chk74 (v349 : IVec S16 32) (v350 : IVec S16 32) : Prop :=
  (∀ a x, ((![v349, v350] : Fin 2 → IVec S16 32) a x).toNat < S1000x128.size a)
instance k0_chk74.dec : ∀ (v349 : IVec S16 32) (v350 : IVec S16 32), Decidable (k0_chk74 v349 v350) := fun v349 v350 => decidable_of_iff' _ (Iff.of_eq (k0_chk74.eq_1 v349 v350))
theorem k0_idx74_inb : ∀ (v349 : IVec S16 32) (v350 : IVec S16 32) (k0_hw74 : k0_chk74 v349 v350), ∀ a x, ((![v349, v350] : Fin 2 → IVec S16 32) a x).toNat < S1000x128.size a := fun v349 v350 k0_hw74 => k0_hw74

def k0_chk75 (v353 : IVec S16 32) (v354 : IVec S16 32) : Prop :=
  (∀ a x, ((![v353, v354] : Fin 2 → IVec S16 32) a x).toNat < S1000x128.size a)
instance k0_chk75.dec : ∀ (v353 : IVec S16 32) (v354 : IVec S16 32), Decidable (k0_chk75 v353 v354) := fun v353 v354 => decidable_of_iff' _ (Iff.of_eq (k0_chk75.eq_1 v353 v354))
theorem k0_idx75_inb : ∀ (v353 : IVec S16 32) (v354 : IVec S16 32) (k0_hw75 : k0_chk75 v353 v354), ∀ a x, ((![v353, v354] : Fin 2 → IVec S16 32) a x).toNat < S1000x128.size a := fun v353 v354 k0_hw75 => k0_hw75

def k0_chk76 (v357 : IVec S16 32) (v358 : IVec S16 32) : Prop :=
  (∀ a x, ((![v357, v358] : Fin 2 → IVec S16 32) a x).toNat < S1000x128.size a)
instance k0_chk76.dec : ∀ (v357 : IVec S16 32) (v358 : IVec S16 32), Decidable (k0_chk76 v357 v358) := fun v357 v358 => decidable_of_iff' _ (Iff.of_eq (k0_chk76.eq_1 v357 v358))
theorem k0_idx76_inb : ∀ (v357 : IVec S16 32) (v358 : IVec S16 32) (k0_hw76 : k0_chk76 v357 v358), ∀ a x, ((![v357, v358] : Fin 2 → IVec S16 32) a x).toNat < S1000x128.size a := fun v357 v358 k0_hw76 => k0_hw76

def k0_chk77 (v361 : IVec S16 32) (v362 : IVec S16 32) : Prop :=
  (∀ a x, ((![v361, v362] : Fin 2 → IVec S16 32) a x).toNat < S1000x128.size a)
instance k0_chk77.dec : ∀ (v361 : IVec S16 32) (v362 : IVec S16 32), Decidable (k0_chk77 v361 v362) := fun v361 v362 => decidable_of_iff' _ (Iff.of_eq (k0_chk77.eq_1 v361 v362))
theorem k0_idx77_inb : ∀ (v361 : IVec S16 32) (v362 : IVec S16 32) (k0_hw77 : k0_chk77 v361 v362), ∀ a x, ((![v361, v362] : Fin 2 → IVec S16 32) a x).toNat < S1000x128.size a := fun v361 v362 k0_hw77 => k0_hw77

def k0_chk78 (v365 : IVec S16 32) (v366 : IVec S16 32) : Prop :=
  (∀ a x, ((![v365, v366] : Fin 2 → IVec S16 32) a x).toNat < S1000x128.size a)
instance k0_chk78.dec : ∀ (v365 : IVec S16 32) (v366 : IVec S16 32), Decidable (k0_chk78 v365 v366) := fun v365 v366 => decidable_of_iff' _ (Iff.of_eq (k0_chk78.eq_1 v365 v366))
theorem k0_idx78_inb : ∀ (v365 : IVec S16 32) (v366 : IVec S16 32) (k0_hw78 : k0_chk78 v365 v366), ∀ a x, ((![v365, v366] : Fin 2 → IVec S16 32) a x).toNat < S1000x128.size a := fun v365 v366 k0_hw78 => k0_hw78

def k0_chk79 (v369 : IVec S16 32) (v370 : IVec S16 32) : Prop :=
  (∀ a x, ((![v369, v370] : Fin 2 → IVec S16 32) a x).toNat < S1000x128.size a)
instance k0_chk79.dec : ∀ (v369 : IVec S16 32) (v370 : IVec S16 32), Decidable (k0_chk79 v369 v370) := fun v369 v370 => decidable_of_iff' _ (Iff.of_eq (k0_chk79.eq_1 v369 v370))
theorem k0_idx79_inb : ∀ (v369 : IVec S16 32) (v370 : IVec S16 32) (k0_hw79 : k0_chk79 v369 v370), ∀ a x, ((![v369, v370] : Fin 2 → IVec S16 32) a x).toNat < S1000x128.size a := fun v369 v370 k0_hw79 => k0_hw79

def k0_chk80 (v373 : IVec S16 32) (v374 : IVec S16 32) : Prop :=
  (∀ a x, ((![v373, v374] : Fin 2 → IVec S16 32) a x).toNat < S1000x128.size a)
instance k0_chk80.dec : ∀ (v373 : IVec S16 32) (v374 : IVec S16 32), Decidable (k0_chk80 v373 v374) := fun v373 v374 => decidable_of_iff' _ (Iff.of_eq (k0_chk80.eq_1 v373 v374))
theorem k0_idx80_inb : ∀ (v373 : IVec S16 32) (v374 : IVec S16 32) (k0_hw80 : k0_chk80 v373 v374), ∀ a x, ((![v373, v374] : Fin 2 → IVec S16 32) a x).toNat < S1000x128.size a := fun v373 v374 k0_hw80 => k0_hw80
def k0_off19 (i : grid0.Coords) : Fin 1 → Nat :=
  let c128_i32_281 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_279 : BitVec 32 := 26#32
  let v377 : BitVec 32 := Scalar.muli v6 c26_i32_279
  let c5_i32 : BitVec 32 := 5#32
  let v378 : BitVec 32 := Scalar.addi v377 c5_i32
  let c128_i32_280 : BitVec 32 := 128#32
  let v379 : BitVec 32 := Scalar.muli v378 c128_i32_280
  let v380 : BitVec 32 := Scalar.addi c128_i32_281 v379
  ![v380.toNat]

def k0_chk81 (v381 : IVec S16 32) (v382 : IVec S16 32) : Prop :=
  (∀ a x, ((![v381, v382] : Fin 2 → IVec S16 32) a x).toNat < S1000x128.size a)
instance k0_chk81.dec : ∀ (v381 : IVec S16 32) (v382 : IVec S16 32), Decidable (k0_chk81 v381 v382) := fun v381 v382 => decidable_of_iff' _ (Iff.of_eq (k0_chk81.eq_1 v381 v382))
theorem k0_idx81_inb : ∀ (v381 : IVec S16 32) (v382 : IVec S16 32) (k0_hw81 : k0_chk81 v381 v382), ∀ a x, ((![v381, v382] : Fin 2 → IVec S16 32) a x).toNat < S1000x128.size a := fun v381 v382 k0_hw81 => k0_hw81

def k0_chk82 (v385 : IVec S16 32) (v386 : IVec S16 32) : Prop :=
  (∀ a x, ((![v385, v386] : Fin 2 → IVec S16 32) a x).toNat < S1000x128.size a)
instance k0_chk82.dec : ∀ (v385 : IVec S16 32) (v386 : IVec S16 32), Decidable (k0_chk82 v385 v386) := fun v385 v386 => decidable_of_iff' _ (Iff.of_eq (k0_chk82.eq_1 v385 v386))
theorem k0_idx82_inb : ∀ (v385 : IVec S16 32) (v386 : IVec S16 32) (k0_hw82 : k0_chk82 v385 v386), ∀ a x, ((![v385, v386] : Fin 2 → IVec S16 32) a x).toNat < S1000x128.size a := fun v385 v386 k0_hw82 => k0_hw82

def k0_chk83 (v389 : IVec S16 32) (v390 : IVec S16 32) : Prop :=
  (∀ a x, ((![v389, v390] : Fin 2 → IVec S16 32) a x).toNat < S1000x128.size a)
instance k0_chk83.dec : ∀ (v389 : IVec S16 32) (v390 : IVec S16 32), Decidable (k0_chk83 v389 v390) := fun v389 v390 => decidable_of_iff' _ (Iff.of_eq (k0_chk83.eq_1 v389 v390))
theorem k0_idx83_inb : ∀ (v389 : IVec S16 32) (v390 : IVec S16 32) (k0_hw83 : k0_chk83 v389 v390), ∀ a x, ((![v389, v390] : Fin 2 → IVec S16 32) a x).toNat < S1000x128.size a := fun v389 v390 k0_hw83 => k0_hw83

def k0_chk84 (v393 : IVec S16 32) (v394 : IVec S16 32) : Prop :=
  (∀ a x, ((![v393, v394] : Fin 2 → IVec S16 32) a x).toNat < S1000x128.size a)
instance k0_chk84.dec : ∀ (v393 : IVec S16 32) (v394 : IVec S16 32), Decidable (k0_chk84 v393 v394) := fun v393 v394 => decidable_of_iff' _ (Iff.of_eq (k0_chk84.eq_1 v393 v394))
theorem k0_idx84_inb : ∀ (v393 : IVec S16 32) (v394 : IVec S16 32) (k0_hw84 : k0_chk84 v393 v394), ∀ a x, ((![v393, v394] : Fin 2 → IVec S16 32) a x).toNat < S1000x128.size a := fun v393 v394 k0_hw84 => k0_hw84

def k0_chk85 (v397 : IVec S16 32) (v398 : IVec S16 32) : Prop :=
  (∀ a x, ((![v397, v398] : Fin 2 → IVec S16 32) a x).toNat < S1000x128.size a)
instance k0_chk85.dec : ∀ (v397 : IVec S16 32) (v398 : IVec S16 32), Decidable (k0_chk85 v397 v398) := fun v397 v398 => decidable_of_iff' _ (Iff.of_eq (k0_chk85.eq_1 v397 v398))
theorem k0_idx85_inb : ∀ (v397 : IVec S16 32) (v398 : IVec S16 32) (k0_hw85 : k0_chk85 v397 v398), ∀ a x, ((![v397, v398] : Fin 2 → IVec S16 32) a x).toNat < S1000x128.size a := fun v397 v398 k0_hw85 => k0_hw85

def k0_chk86 (v401 : IVec S16 32) (v402 : IVec S16 32) : Prop :=
  (∀ a x, ((![v401, v402] : Fin 2 → IVec S16 32) a x).toNat < S1000x128.size a)
instance k0_chk86.dec : ∀ (v401 : IVec S16 32) (v402 : IVec S16 32), Decidable (k0_chk86 v401 v402) := fun v401 v402 => decidable_of_iff' _ (Iff.of_eq (k0_chk86.eq_1 v401 v402))
theorem k0_idx86_inb : ∀ (v401 : IVec S16 32) (v402 : IVec S16 32) (k0_hw86 : k0_chk86 v401 v402), ∀ a x, ((![v401, v402] : Fin 2 → IVec S16 32) a x).toNat < S1000x128.size a := fun v401 v402 k0_hw86 => k0_hw86

def k0_chk87 (v405 : IVec S16 32) (v406 : IVec S16 32) : Prop :=
  (∀ a x, ((![v405, v406] : Fin 2 → IVec S16 32) a x).toNat < S1000x128.size a)
instance k0_chk87.dec : ∀ (v405 : IVec S16 32) (v406 : IVec S16 32), Decidable (k0_chk87 v405 v406) := fun v405 v406 => decidable_of_iff' _ (Iff.of_eq (k0_chk87.eq_1 v405 v406))
theorem k0_idx87_inb : ∀ (v405 : IVec S16 32) (v406 : IVec S16 32) (k0_hw87 : k0_chk87 v405 v406), ∀ a x, ((![v405, v406] : Fin 2 → IVec S16 32) a x).toNat < S1000x128.size a := fun v405 v406 k0_hw87 => k0_hw87

def k0_chk88 (v409 : IVec S16 32) (v410 : IVec S16 32) : Prop :=
  (∀ a x, ((![v409, v410] : Fin 2 → IVec S16 32) a x).toNat < S1000x128.size a)
instance k0_chk88.dec : ∀ (v409 : IVec S16 32) (v410 : IVec S16 32), Decidable (k0_chk88 v409 v410) := fun v409 v410 => decidable_of_iff' _ (Iff.of_eq (k0_chk88.eq_1 v409 v410))
theorem k0_idx88_inb : ∀ (v409 : IVec S16 32) (v410 : IVec S16 32) (k0_hw88 : k0_chk88 v409 v410), ∀ a x, ((![v409, v410] : Fin 2 → IVec S16 32) a x).toNat < S1000x128.size a := fun v409 v410 k0_hw88 => k0_hw88
def k0_off20 (i : grid0.Coords) : Fin 2 → Nat :=
  let c5000_i32 : BitVec 32 := 5000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_306 : BitVec 32 := 128#32
  let v413 : BitVec 32 := Scalar.muli v6 c128_i32_306
  ![5000, v413.toNat]

def k0_chk89 (v419 : IVec S16 32) (v420 : IVec S16 32) : Prop :=
  (∀ a x, ((![v419, v420] : Fin 2 → IVec S16 32) a x).toNat < S1000x128.size a)
instance k0_chk89.dec : ∀ (v419 : IVec S16 32) (v420 : IVec S16 32), Decidable (k0_chk89 v419 v420) := fun v419 v420 => decidable_of_iff' _ (Iff.of_eq (k0_chk89.eq_1 v419 v420))
theorem k0_idx89_inb : ∀ (v419 : IVec S16 32) (v420 : IVec S16 32) (k0_hw89 : k0_chk89 v419 v420), ∀ a x, ((![v419, v420] : Fin 2 → IVec S16 32) a x).toNat < S1000x128.size a := fun v419 v420 k0_hw89 => k0_hw89

def k0_chk90 (v423 : IVec S16 32) (v424 : IVec S16 32) : Prop :=
  (∀ a x, ((![v423, v424] : Fin 2 → IVec S16 32) a x).toNat < S1000x128.size a)
instance k0_chk90.dec : ∀ (v423 : IVec S16 32) (v424 : IVec S16 32), Decidable (k0_chk90 v423 v424) := fun v423 v424 => decidable_of_iff' _ (Iff.of_eq (k0_chk90.eq_1 v423 v424))
theorem k0_idx90_inb : ∀ (v423 : IVec S16 32) (v424 : IVec S16 32) (k0_hw90 : k0_chk90 v423 v424), ∀ a x, ((![v423, v424] : Fin 2 → IVec S16 32) a x).toNat < S1000x128.size a := fun v423 v424 k0_hw90 => k0_hw90

def k0_chk91 (v427 : IVec S16 32) (v428 : IVec S16 32) : Prop :=
  (∀ a x, ((![v427, v428] : Fin 2 → IVec S16 32) a x).toNat < S1000x128.size a)
instance k0_chk91.dec : ∀ (v427 : IVec S16 32) (v428 : IVec S16 32), Decidable (k0_chk91 v427 v428) := fun v427 v428 => decidable_of_iff' _ (Iff.of_eq (k0_chk91.eq_1 v427 v428))
theorem k0_idx91_inb : ∀ (v427 : IVec S16 32) (v428 : IVec S16 32) (k0_hw91 : k0_chk91 v427 v428), ∀ a x, ((![v427, v428] : Fin 2 → IVec S16 32) a x).toNat < S1000x128.size a := fun v427 v428 k0_hw91 => k0_hw91

def k0_chk92 (v431 : IVec S16 32) (v432 : IVec S16 32) : Prop :=
  (∀ a x, ((![v431, v432] : Fin 2 → IVec S16 32) a x).toNat < S1000x128.size a)
instance k0_chk92.dec : ∀ (v431 : IVec S16 32) (v432 : IVec S16 32), Decidable (k0_chk92 v431 v432) := fun v431 v432 => decidable_of_iff' _ (Iff.of_eq (k0_chk92.eq_1 v431 v432))
theorem k0_idx92_inb : ∀ (v431 : IVec S16 32) (v432 : IVec S16 32) (k0_hw92 : k0_chk92 v431 v432), ∀ a x, ((![v431, v432] : Fin 2 → IVec S16 32) a x).toNat < S1000x128.size a := fun v431 v432 k0_hw92 => k0_hw92

def k0_chk93 (v435 : IVec S16 32) (v436 : IVec S16 32) : Prop :=
  (∀ a x, ((![v435, v436] : Fin 2 → IVec S16 32) a x).toNat < S1000x128.size a)
instance k0_chk93.dec : ∀ (v435 : IVec S16 32) (v436 : IVec S16 32), Decidable (k0_chk93 v435 v436) := fun v435 v436 => decidable_of_iff' _ (Iff.of_eq (k0_chk93.eq_1 v435 v436))
theorem k0_idx93_inb : ∀ (v435 : IVec S16 32) (v436 : IVec S16 32) (k0_hw93 : k0_chk93 v435 v436), ∀ a x, ((![v435, v436] : Fin 2 → IVec S16 32) a x).toNat < S1000x128.size a := fun v435 v436 k0_hw93 => k0_hw93

def k0_chk94 (v439 : IVec S16 32) (v440 : IVec S16 32) : Prop :=
  (∀ a x, ((![v439, v440] : Fin 2 → IVec S16 32) a x).toNat < S1000x128.size a)
instance k0_chk94.dec : ∀ (v439 : IVec S16 32) (v440 : IVec S16 32), Decidable (k0_chk94 v439 v440) := fun v439 v440 => decidable_of_iff' _ (Iff.of_eq (k0_chk94.eq_1 v439 v440))
theorem k0_idx94_inb : ∀ (v439 : IVec S16 32) (v440 : IVec S16 32) (k0_hw94 : k0_chk94 v439 v440), ∀ a x, ((![v439, v440] : Fin 2 → IVec S16 32) a x).toNat < S1000x128.size a := fun v439 v440 k0_hw94 => k0_hw94

def k0_chk95 (v443 : IVec S16 32) (v444 : IVec S16 32) : Prop :=
  (∀ a x, ((![v443, v444] : Fin 2 → IVec S16 32) a x).toNat < S1000x128.size a)
instance k0_chk95.dec : ∀ (v443 : IVec S16 32) (v444 : IVec S16 32), Decidable (k0_chk95 v443 v444) := fun v443 v444 => decidable_of_iff' _ (Iff.of_eq (k0_chk95.eq_1 v443 v444))
theorem k0_idx95_inb : ∀ (v443 : IVec S16 32) (v444 : IVec S16 32) (k0_hw95 : k0_chk95 v443 v444), ∀ a x, ((![v443, v444] : Fin 2 → IVec S16 32) a x).toNat < S1000x128.size a := fun v443 v444 k0_hw95 => k0_hw95

def k0_chk96 (v447 : IVec S16 32) (v448 : IVec S16 32) : Prop :=
  (∀ a x, ((![v447, v448] : Fin 2 → IVec S16 32) a x).toNat < S1000x128.size a)
instance k0_chk96.dec : ∀ (v447 : IVec S16 32) (v448 : IVec S16 32), Decidable (k0_chk96 v447 v448) := fun v447 v448 => decidable_of_iff' _ (Iff.of_eq (k0_chk96.eq_1 v447 v448))
theorem k0_idx96_inb : ∀ (v447 : IVec S16 32) (v448 : IVec S16 32) (k0_hw96 : k0_chk96 v447 v448), ∀ a x, ((![v447, v448] : Fin 2 → IVec S16 32) a x).toNat < S1000x128.size a := fun v447 v448 k0_hw96 => k0_hw96
def k0_off21 (i : grid0.Coords) : Fin 1 → Nat :=
  let c128_i32_337 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_335 : BitVec 32 := 26#32
  let v451 : BitVec 32 := Scalar.muli v6 c26_i32_335
  let c6_i32 : BitVec 32 := 6#32
  let v452 : BitVec 32 := Scalar.addi v451 c6_i32
  let c128_i32_336 : BitVec 32 := 128#32
  let v453 : BitVec 32 := Scalar.muli v452 c128_i32_336
  let v454 : BitVec 32 := Scalar.addi c128_i32_337 v453
  ![v454.toNat]

def k0_chk97 (v455 : IVec S16 32) (v456 : IVec S16 32) : Prop :=
  (∀ a x, ((![v455, v456] : Fin 2 → IVec S16 32) a x).toNat < S1000x128.size a)
instance k0_chk97.dec : ∀ (v455 : IVec S16 32) (v456 : IVec S16 32), Decidable (k0_chk97 v455 v456) := fun v455 v456 => decidable_of_iff' _ (Iff.of_eq (k0_chk97.eq_1 v455 v456))
theorem k0_idx97_inb : ∀ (v455 : IVec S16 32) (v456 : IVec S16 32) (k0_hw97 : k0_chk97 v455 v456), ∀ a x, ((![v455, v456] : Fin 2 → IVec S16 32) a x).toNat < S1000x128.size a := fun v455 v456 k0_hw97 => k0_hw97

def k0_chk98 (v459 : IVec S16 32) (v460 : IVec S16 32) : Prop :=
  (∀ a x, ((![v459, v460] : Fin 2 → IVec S16 32) a x).toNat < S1000x128.size a)
instance k0_chk98.dec : ∀ (v459 : IVec S16 32) (v460 : IVec S16 32), Decidable (k0_chk98 v459 v460) := fun v459 v460 => decidable_of_iff' _ (Iff.of_eq (k0_chk98.eq_1 v459 v460))
theorem k0_idx98_inb : ∀ (v459 : IVec S16 32) (v460 : IVec S16 32) (k0_hw98 : k0_chk98 v459 v460), ∀ a x, ((![v459, v460] : Fin 2 → IVec S16 32) a x).toNat < S1000x128.size a := fun v459 v460 k0_hw98 => k0_hw98

def k0_chk99 (v463 : IVec S16 32) (v464 : IVec S16 32) : Prop :=
  (∀ a x, ((![v463, v464] : Fin 2 → IVec S16 32) a x).toNat < S1000x128.size a)
instance k0_chk99.dec : ∀ (v463 : IVec S16 32) (v464 : IVec S16 32), Decidable (k0_chk99 v463 v464) := fun v463 v464 => decidable_of_iff' _ (Iff.of_eq (k0_chk99.eq_1 v463 v464))
theorem k0_idx99_inb : ∀ (v463 : IVec S16 32) (v464 : IVec S16 32) (k0_hw99 : k0_chk99 v463 v464), ∀ a x, ((![v463, v464] : Fin 2 → IVec S16 32) a x).toNat < S1000x128.size a := fun v463 v464 k0_hw99 => k0_hw99

def k0_chk100 (v467 : IVec S16 32) (v468 : IVec S16 32) : Prop :=
  (∀ a x, ((![v467, v468] : Fin 2 → IVec S16 32) a x).toNat < S1000x128.size a)
instance k0_chk100.dec : ∀ (v467 : IVec S16 32) (v468 : IVec S16 32), Decidable (k0_chk100 v467 v468) := fun v467 v468 => decidable_of_iff' _ (Iff.of_eq (k0_chk100.eq_1 v467 v468))
theorem k0_idx100_inb : ∀ (v467 : IVec S16 32) (v468 : IVec S16 32) (k0_hw100 : k0_chk100 v467 v468), ∀ a x, ((![v467, v468] : Fin 2 → IVec S16 32) a x).toNat < S1000x128.size a := fun v467 v468 k0_hw100 => k0_hw100

def k0_chk101 (v471 : IVec S16 32) (v472 : IVec S16 32) : Prop :=
  (∀ a x, ((![v471, v472] : Fin 2 → IVec S16 32) a x).toNat < S1000x128.size a)
instance k0_chk101.dec : ∀ (v471 : IVec S16 32) (v472 : IVec S16 32), Decidable (k0_chk101 v471 v472) := fun v471 v472 => decidable_of_iff' _ (Iff.of_eq (k0_chk101.eq_1 v471 v472))
theorem k0_idx101_inb : ∀ (v471 : IVec S16 32) (v472 : IVec S16 32) (k0_hw101 : k0_chk101 v471 v472), ∀ a x, ((![v471, v472] : Fin 2 → IVec S16 32) a x).toNat < S1000x128.size a := fun v471 v472 k0_hw101 => k0_hw101

def k0_chk102 (v475 : IVec S16 32) (v476 : IVec S16 32) : Prop :=
  (∀ a x, ((![v475, v476] : Fin 2 → IVec S16 32) a x).toNat < S1000x128.size a)
instance k0_chk102.dec : ∀ (v475 : IVec S16 32) (v476 : IVec S16 32), Decidable (k0_chk102 v475 v476) := fun v475 v476 => decidable_of_iff' _ (Iff.of_eq (k0_chk102.eq_1 v475 v476))
theorem k0_idx102_inb : ∀ (v475 : IVec S16 32) (v476 : IVec S16 32) (k0_hw102 : k0_chk102 v475 v476), ∀ a x, ((![v475, v476] : Fin 2 → IVec S16 32) a x).toNat < S1000x128.size a := fun v475 v476 k0_hw102 => k0_hw102

def k0_chk103 (v479 : IVec S16 32) (v480 : IVec S16 32) : Prop :=
  (∀ a x, ((![v479, v480] : Fin 2 → IVec S16 32) a x).toNat < S1000x128.size a)
instance k0_chk103.dec : ∀ (v479 : IVec S16 32) (v480 : IVec S16 32), Decidable (k0_chk103 v479 v480) := fun v479 v480 => decidable_of_iff' _ (Iff.of_eq (k0_chk103.eq_1 v479 v480))
theorem k0_idx103_inb : ∀ (v479 : IVec S16 32) (v480 : IVec S16 32) (k0_hw103 : k0_chk103 v479 v480), ∀ a x, ((![v479, v480] : Fin 2 → IVec S16 32) a x).toNat < S1000x128.size a := fun v479 v480 k0_hw103 => k0_hw103

def k0_chk104 (v483 : IVec S16 32) (v484 : IVec S16 32) : Prop :=
  (∀ a x, ((![v483, v484] : Fin 2 → IVec S16 32) a x).toNat < S1000x128.size a)
instance k0_chk104.dec : ∀ (v483 : IVec S16 32) (v484 : IVec S16 32), Decidable (k0_chk104 v483 v484) := fun v483 v484 => decidable_of_iff' _ (Iff.of_eq (k0_chk104.eq_1 v483 v484))
theorem k0_idx104_inb : ∀ (v483 : IVec S16 32) (v484 : IVec S16 32) (k0_hw104 : k0_chk104 v483 v484), ∀ a x, ((![v483, v484] : Fin 2 → IVec S16 32) a x).toNat < S1000x128.size a := fun v483 v484 k0_hw104 => k0_hw104
def k0_off22 (i : grid0.Coords) : Fin 2 → Nat :=
  let c6000_i32 : BitVec 32 := 6000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_362 : BitVec 32 := 128#32
  let v487 : BitVec 32 := Scalar.muli v6 c128_i32_362
  ![6000, v487.toNat]

def k0_chk105 (v493 : IVec S16 32) (v494 : IVec S16 32) : Prop :=
  (∀ a x, ((![v493, v494] : Fin 2 → IVec S16 32) a x).toNat < S1000x128.size a)
instance k0_chk105.dec : ∀ (v493 : IVec S16 32) (v494 : IVec S16 32), Decidable (k0_chk105 v493 v494) := fun v493 v494 => decidable_of_iff' _ (Iff.of_eq (k0_chk105.eq_1 v493 v494))
theorem k0_idx105_inb : ∀ (v493 : IVec S16 32) (v494 : IVec S16 32) (k0_hw105 : k0_chk105 v493 v494), ∀ a x, ((![v493, v494] : Fin 2 → IVec S16 32) a x).toNat < S1000x128.size a := fun v493 v494 k0_hw105 => k0_hw105

def k0_chk106 (v497 : IVec S16 32) (v498 : IVec S16 32) : Prop :=
  (∀ a x, ((![v497, v498] : Fin 2 → IVec S16 32) a x).toNat < S1000x128.size a)
instance k0_chk106.dec : ∀ (v497 : IVec S16 32) (v498 : IVec S16 32), Decidable (k0_chk106 v497 v498) := fun v497 v498 => decidable_of_iff' _ (Iff.of_eq (k0_chk106.eq_1 v497 v498))
theorem k0_idx106_inb : ∀ (v497 : IVec S16 32) (v498 : IVec S16 32) (k0_hw106 : k0_chk106 v497 v498), ∀ a x, ((![v497, v498] : Fin 2 → IVec S16 32) a x).toNat < S1000x128.size a := fun v497 v498 k0_hw106 => k0_hw106

def k0_chk107 (v501 : IVec S16 32) (v502 : IVec S16 32) : Prop :=
  (∀ a x, ((![v501, v502] : Fin 2 → IVec S16 32) a x).toNat < S1000x128.size a)
instance k0_chk107.dec : ∀ (v501 : IVec S16 32) (v502 : IVec S16 32), Decidable (k0_chk107 v501 v502) := fun v501 v502 => decidable_of_iff' _ (Iff.of_eq (k0_chk107.eq_1 v501 v502))
theorem k0_idx107_inb : ∀ (v501 : IVec S16 32) (v502 : IVec S16 32) (k0_hw107 : k0_chk107 v501 v502), ∀ a x, ((![v501, v502] : Fin 2 → IVec S16 32) a x).toNat < S1000x128.size a := fun v501 v502 k0_hw107 => k0_hw107

def k0_chk108 (v505 : IVec S16 32) (v506 : IVec S16 32) : Prop :=
  (∀ a x, ((![v505, v506] : Fin 2 → IVec S16 32) a x).toNat < S1000x128.size a)
instance k0_chk108.dec : ∀ (v505 : IVec S16 32) (v506 : IVec S16 32), Decidable (k0_chk108 v505 v506) := fun v505 v506 => decidable_of_iff' _ (Iff.of_eq (k0_chk108.eq_1 v505 v506))
theorem k0_idx108_inb : ∀ (v505 : IVec S16 32) (v506 : IVec S16 32) (k0_hw108 : k0_chk108 v505 v506), ∀ a x, ((![v505, v506] : Fin 2 → IVec S16 32) a x).toNat < S1000x128.size a := fun v505 v506 k0_hw108 => k0_hw108

def k0_chk109 (v509 : IVec S16 32) (v510 : IVec S16 32) : Prop :=
  (∀ a x, ((![v509, v510] : Fin 2 → IVec S16 32) a x).toNat < S1000x128.size a)
instance k0_chk109.dec : ∀ (v509 : IVec S16 32) (v510 : IVec S16 32), Decidable (k0_chk109 v509 v510) := fun v509 v510 => decidable_of_iff' _ (Iff.of_eq (k0_chk109.eq_1 v509 v510))
theorem k0_idx109_inb : ∀ (v509 : IVec S16 32) (v510 : IVec S16 32) (k0_hw109 : k0_chk109 v509 v510), ∀ a x, ((![v509, v510] : Fin 2 → IVec S16 32) a x).toNat < S1000x128.size a := fun v509 v510 k0_hw109 => k0_hw109

def k0_chk110 (v513 : IVec S16 32) (v514 : IVec S16 32) : Prop :=
  (∀ a x, ((![v513, v514] : Fin 2 → IVec S16 32) a x).toNat < S1000x128.size a)
instance k0_chk110.dec : ∀ (v513 : IVec S16 32) (v514 : IVec S16 32), Decidable (k0_chk110 v513 v514) := fun v513 v514 => decidable_of_iff' _ (Iff.of_eq (k0_chk110.eq_1 v513 v514))
theorem k0_idx110_inb : ∀ (v513 : IVec S16 32) (v514 : IVec S16 32) (k0_hw110 : k0_chk110 v513 v514), ∀ a x, ((![v513, v514] : Fin 2 → IVec S16 32) a x).toNat < S1000x128.size a := fun v513 v514 k0_hw110 => k0_hw110

def k0_chk111 (v517 : IVec S16 32) (v518 : IVec S16 32) : Prop :=
  (∀ a x, ((![v517, v518] : Fin 2 → IVec S16 32) a x).toNat < S1000x128.size a)
instance k0_chk111.dec : ∀ (v517 : IVec S16 32) (v518 : IVec S16 32), Decidable (k0_chk111 v517 v518) := fun v517 v518 => decidable_of_iff' _ (Iff.of_eq (k0_chk111.eq_1 v517 v518))
theorem k0_idx111_inb : ∀ (v517 : IVec S16 32) (v518 : IVec S16 32) (k0_hw111 : k0_chk111 v517 v518), ∀ a x, ((![v517, v518] : Fin 2 → IVec S16 32) a x).toNat < S1000x128.size a := fun v517 v518 k0_hw111 => k0_hw111

def k0_chk112 (v521 : IVec S16 32) (v522 : IVec S16 32) : Prop :=
  (∀ a x, ((![v521, v522] : Fin 2 → IVec S16 32) a x).toNat < S1000x128.size a)
instance k0_chk112.dec : ∀ (v521 : IVec S16 32) (v522 : IVec S16 32), Decidable (k0_chk112 v521 v522) := fun v521 v522 => decidable_of_iff' _ (Iff.of_eq (k0_chk112.eq_1 v521 v522))
theorem k0_idx112_inb : ∀ (v521 : IVec S16 32) (v522 : IVec S16 32) (k0_hw112 : k0_chk112 v521 v522), ∀ a x, ((![v521, v522] : Fin 2 → IVec S16 32) a x).toNat < S1000x128.size a := fun v521 v522 k0_hw112 => k0_hw112
def k0_off23 (i : grid0.Coords) : Fin 1 → Nat :=
  let c128_i32_393 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_391 : BitVec 32 := 26#32
  let v525 : BitVec 32 := Scalar.muli v6 c26_i32_391
  let c7_i32 : BitVec 32 := 7#32
  let v526 : BitVec 32 := Scalar.addi v525 c7_i32
  let c128_i32_392 : BitVec 32 := 128#32
  let v527 : BitVec 32 := Scalar.muli v526 c128_i32_392
  let v528 : BitVec 32 := Scalar.addi c128_i32_393 v527
  ![v528.toNat]

def k0_chk113 (v529 : IVec S16 32) (v530 : IVec S16 32) : Prop :=
  (∀ a x, ((![v529, v530] : Fin 2 → IVec S16 32) a x).toNat < S1000x128.size a)
instance k0_chk113.dec : ∀ (v529 : IVec S16 32) (v530 : IVec S16 32), Decidable (k0_chk113 v529 v530) := fun v529 v530 => decidable_of_iff' _ (Iff.of_eq (k0_chk113.eq_1 v529 v530))
theorem k0_idx113_inb : ∀ (v529 : IVec S16 32) (v530 : IVec S16 32) (k0_hw113 : k0_chk113 v529 v530), ∀ a x, ((![v529, v530] : Fin 2 → IVec S16 32) a x).toNat < S1000x128.size a := fun v529 v530 k0_hw113 => k0_hw113

def k0_chk114 (v533 : IVec S16 32) (v534 : IVec S16 32) : Prop :=
  (∀ a x, ((![v533, v534] : Fin 2 → IVec S16 32) a x).toNat < S1000x128.size a)
instance k0_chk114.dec : ∀ (v533 : IVec S16 32) (v534 : IVec S16 32), Decidable (k0_chk114 v533 v534) := fun v533 v534 => decidable_of_iff' _ (Iff.of_eq (k0_chk114.eq_1 v533 v534))
theorem k0_idx114_inb : ∀ (v533 : IVec S16 32) (v534 : IVec S16 32) (k0_hw114 : k0_chk114 v533 v534), ∀ a x, ((![v533, v534] : Fin 2 → IVec S16 32) a x).toNat < S1000x128.size a := fun v533 v534 k0_hw114 => k0_hw114

def k0_chk115 (v537 : IVec S16 32) (v538 : IVec S16 32) : Prop :=
  (∀ a x, ((![v537, v538] : Fin 2 → IVec S16 32) a x).toNat < S1000x128.size a)
instance k0_chk115.dec : ∀ (v537 : IVec S16 32) (v538 : IVec S16 32), Decidable (k0_chk115 v537 v538) := fun v537 v538 => decidable_of_iff' _ (Iff.of_eq (k0_chk115.eq_1 v537 v538))
theorem k0_idx115_inb : ∀ (v537 : IVec S16 32) (v538 : IVec S16 32) (k0_hw115 : k0_chk115 v537 v538), ∀ a x, ((![v537, v538] : Fin 2 → IVec S16 32) a x).toNat < S1000x128.size a := fun v537 v538 k0_hw115 => k0_hw115

def k0_chk116 (v541 : IVec S16 32) (v542 : IVec S16 32) : Prop :=
  (∀ a x, ((![v541, v542] : Fin 2 → IVec S16 32) a x).toNat < S1000x128.size a)
instance k0_chk116.dec : ∀ (v541 : IVec S16 32) (v542 : IVec S16 32), Decidable (k0_chk116 v541 v542) := fun v541 v542 => decidable_of_iff' _ (Iff.of_eq (k0_chk116.eq_1 v541 v542))
theorem k0_idx116_inb : ∀ (v541 : IVec S16 32) (v542 : IVec S16 32) (k0_hw116 : k0_chk116 v541 v542), ∀ a x, ((![v541, v542] : Fin 2 → IVec S16 32) a x).toNat < S1000x128.size a := fun v541 v542 k0_hw116 => k0_hw116

def k0_chk117 (v545 : IVec S16 32) (v546 : IVec S16 32) : Prop :=
  (∀ a x, ((![v545, v546] : Fin 2 → IVec S16 32) a x).toNat < S1000x128.size a)
instance k0_chk117.dec : ∀ (v545 : IVec S16 32) (v546 : IVec S16 32), Decidable (k0_chk117 v545 v546) := fun v545 v546 => decidable_of_iff' _ (Iff.of_eq (k0_chk117.eq_1 v545 v546))
theorem k0_idx117_inb : ∀ (v545 : IVec S16 32) (v546 : IVec S16 32) (k0_hw117 : k0_chk117 v545 v546), ∀ a x, ((![v545, v546] : Fin 2 → IVec S16 32) a x).toNat < S1000x128.size a := fun v545 v546 k0_hw117 => k0_hw117

def k0_chk118 (v549 : IVec S16 32) (v550 : IVec S16 32) : Prop :=
  (∀ a x, ((![v549, v550] : Fin 2 → IVec S16 32) a x).toNat < S1000x128.size a)
instance k0_chk118.dec : ∀ (v549 : IVec S16 32) (v550 : IVec S16 32), Decidable (k0_chk118 v549 v550) := fun v549 v550 => decidable_of_iff' _ (Iff.of_eq (k0_chk118.eq_1 v549 v550))
theorem k0_idx118_inb : ∀ (v549 : IVec S16 32) (v550 : IVec S16 32) (k0_hw118 : k0_chk118 v549 v550), ∀ a x, ((![v549, v550] : Fin 2 → IVec S16 32) a x).toNat < S1000x128.size a := fun v549 v550 k0_hw118 => k0_hw118

def k0_chk119 (v553 : IVec S16 32) (v554 : IVec S16 32) : Prop :=
  (∀ a x, ((![v553, v554] : Fin 2 → IVec S16 32) a x).toNat < S1000x128.size a)
instance k0_chk119.dec : ∀ (v553 : IVec S16 32) (v554 : IVec S16 32), Decidable (k0_chk119 v553 v554) := fun v553 v554 => decidable_of_iff' _ (Iff.of_eq (k0_chk119.eq_1 v553 v554))
theorem k0_idx119_inb : ∀ (v553 : IVec S16 32) (v554 : IVec S16 32) (k0_hw119 : k0_chk119 v553 v554), ∀ a x, ((![v553, v554] : Fin 2 → IVec S16 32) a x).toNat < S1000x128.size a := fun v553 v554 k0_hw119 => k0_hw119

def k0_chk120 (v557 : IVec S16 32) (v558 : IVec S16 32) : Prop :=
  (∀ a x, ((![v557, v558] : Fin 2 → IVec S16 32) a x).toNat < S1000x128.size a)
instance k0_chk120.dec : ∀ (v557 : IVec S16 32) (v558 : IVec S16 32), Decidable (k0_chk120 v557 v558) := fun v557 v558 => decidable_of_iff' _ (Iff.of_eq (k0_chk120.eq_1 v557 v558))
theorem k0_idx120_inb : ∀ (v557 : IVec S16 32) (v558 : IVec S16 32) (k0_hw120 : k0_chk120 v557 v558), ∀ a x, ((![v557, v558] : Fin 2 → IVec S16 32) a x).toNat < S1000x128.size a := fun v557 v558 k0_hw120 => k0_hw120
def k0_off24 (i : grid0.Coords) : Fin 2 → Nat :=
  let c7000_i32 : BitVec 32 := 7000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_418 : BitVec 32 := 128#32
  let v561 : BitVec 32 := Scalar.muli v6 c128_i32_418
  ![7000, v561.toNat]

def k0_chk121 (v567 : IVec S16 32) (v568 : IVec S16 32) : Prop :=
  (∀ a x, ((![v567, v568] : Fin 2 → IVec S16 32) a x).toNat < S1000x128.size a)
instance k0_chk121.dec : ∀ (v567 : IVec S16 32) (v568 : IVec S16 32), Decidable (k0_chk121 v567 v568) := fun v567 v568 => decidable_of_iff' _ (Iff.of_eq (k0_chk121.eq_1 v567 v568))
theorem k0_idx121_inb : ∀ (v567 : IVec S16 32) (v568 : IVec S16 32) (k0_hw121 : k0_chk121 v567 v568), ∀ a x, ((![v567, v568] : Fin 2 → IVec S16 32) a x).toNat < S1000x128.size a := fun v567 v568 k0_hw121 => k0_hw121

def k0_chk122 (v571 : IVec S16 32) (v572 : IVec S16 32) : Prop :=
  (∀ a x, ((![v571, v572] : Fin 2 → IVec S16 32) a x).toNat < S1000x128.size a)
instance k0_chk122.dec : ∀ (v571 : IVec S16 32) (v572 : IVec S16 32), Decidable (k0_chk122 v571 v572) := fun v571 v572 => decidable_of_iff' _ (Iff.of_eq (k0_chk122.eq_1 v571 v572))
theorem k0_idx122_inb : ∀ (v571 : IVec S16 32) (v572 : IVec S16 32) (k0_hw122 : k0_chk122 v571 v572), ∀ a x, ((![v571, v572] : Fin 2 → IVec S16 32) a x).toNat < S1000x128.size a := fun v571 v572 k0_hw122 => k0_hw122

def k0_chk123 (v575 : IVec S16 32) (v576 : IVec S16 32) : Prop :=
  (∀ a x, ((![v575, v576] : Fin 2 → IVec S16 32) a x).toNat < S1000x128.size a)
instance k0_chk123.dec : ∀ (v575 : IVec S16 32) (v576 : IVec S16 32), Decidable (k0_chk123 v575 v576) := fun v575 v576 => decidable_of_iff' _ (Iff.of_eq (k0_chk123.eq_1 v575 v576))
theorem k0_idx123_inb : ∀ (v575 : IVec S16 32) (v576 : IVec S16 32) (k0_hw123 : k0_chk123 v575 v576), ∀ a x, ((![v575, v576] : Fin 2 → IVec S16 32) a x).toNat < S1000x128.size a := fun v575 v576 k0_hw123 => k0_hw123

def k0_chk124 (v579 : IVec S16 32) (v580 : IVec S16 32) : Prop :=
  (∀ a x, ((![v579, v580] : Fin 2 → IVec S16 32) a x).toNat < S1000x128.size a)
instance k0_chk124.dec : ∀ (v579 : IVec S16 32) (v580 : IVec S16 32), Decidable (k0_chk124 v579 v580) := fun v579 v580 => decidable_of_iff' _ (Iff.of_eq (k0_chk124.eq_1 v579 v580))
theorem k0_idx124_inb : ∀ (v579 : IVec S16 32) (v580 : IVec S16 32) (k0_hw124 : k0_chk124 v579 v580), ∀ a x, ((![v579, v580] : Fin 2 → IVec S16 32) a x).toNat < S1000x128.size a := fun v579 v580 k0_hw124 => k0_hw124

def k0_chk125 (v583 : IVec S16 32) (v584 : IVec S16 32) : Prop :=
  (∀ a x, ((![v583, v584] : Fin 2 → IVec S16 32) a x).toNat < S1000x128.size a)
instance k0_chk125.dec : ∀ (v583 : IVec S16 32) (v584 : IVec S16 32), Decidable (k0_chk125 v583 v584) := fun v583 v584 => decidable_of_iff' _ (Iff.of_eq (k0_chk125.eq_1 v583 v584))
theorem k0_idx125_inb : ∀ (v583 : IVec S16 32) (v584 : IVec S16 32) (k0_hw125 : k0_chk125 v583 v584), ∀ a x, ((![v583, v584] : Fin 2 → IVec S16 32) a x).toNat < S1000x128.size a := fun v583 v584 k0_hw125 => k0_hw125

def k0_chk126 (v587 : IVec S16 32) (v588 : IVec S16 32) : Prop :=
  (∀ a x, ((![v587, v588] : Fin 2 → IVec S16 32) a x).toNat < S1000x128.size a)
instance k0_chk126.dec : ∀ (v587 : IVec S16 32) (v588 : IVec S16 32), Decidable (k0_chk126 v587 v588) := fun v587 v588 => decidable_of_iff' _ (Iff.of_eq (k0_chk126.eq_1 v587 v588))
theorem k0_idx126_inb : ∀ (v587 : IVec S16 32) (v588 : IVec S16 32) (k0_hw126 : k0_chk126 v587 v588), ∀ a x, ((![v587, v588] : Fin 2 → IVec S16 32) a x).toNat < S1000x128.size a := fun v587 v588 k0_hw126 => k0_hw126

def k0_chk127 (v591 : IVec S16 32) (v592 : IVec S16 32) : Prop :=
  (∀ a x, ((![v591, v592] : Fin 2 → IVec S16 32) a x).toNat < S1000x128.size a)
instance k0_chk127.dec : ∀ (v591 : IVec S16 32) (v592 : IVec S16 32), Decidable (k0_chk127 v591 v592) := fun v591 v592 => decidable_of_iff' _ (Iff.of_eq (k0_chk127.eq_1 v591 v592))
theorem k0_idx127_inb : ∀ (v591 : IVec S16 32) (v592 : IVec S16 32) (k0_hw127 : k0_chk127 v591 v592), ∀ a x, ((![v591, v592] : Fin 2 → IVec S16 32) a x).toNat < S1000x128.size a := fun v591 v592 k0_hw127 => k0_hw127

def k0_chk128 (v595 : IVec S16 32) (v596 : IVec S16 32) : Prop :=
  (∀ a x, ((![v595, v596] : Fin 2 → IVec S16 32) a x).toNat < S1000x128.size a)
instance k0_chk128.dec : ∀ (v595 : IVec S16 32) (v596 : IVec S16 32), Decidable (k0_chk128 v595 v596) := fun v595 v596 => decidable_of_iff' _ (Iff.of_eq (k0_chk128.eq_1 v595 v596))
theorem k0_idx128_inb : ∀ (v595 : IVec S16 32) (v596 : IVec S16 32) (k0_hw128 : k0_chk128 v595 v596), ∀ a x, ((![v595, v596] : Fin 2 → IVec S16 32) a x).toNat < S1000x128.size a := fun v595 v596 k0_hw128 => k0_hw128
def k0_off25 (i : grid0.Coords) : Fin 1 → Nat :=
  let c128_i32_449 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_447 : BitVec 32 := 26#32
  let v599 : BitVec 32 := Scalar.muli v6 c26_i32_447
  let c8_i32 : BitVec 32 := 8#32
  let v600 : BitVec 32 := Scalar.addi v599 c8_i32
  let c128_i32_448 : BitVec 32 := 128#32
  let v601 : BitVec 32 := Scalar.muli v600 c128_i32_448
  let v602 : BitVec 32 := Scalar.addi c128_i32_449 v601
  ![v602.toNat]

def k0_chk129 (v603 : IVec S16 32) (v604 : IVec S16 32) : Prop :=
  (∀ a x, ((![v603, v604] : Fin 2 → IVec S16 32) a x).toNat < S1000x128.size a)
instance k0_chk129.dec : ∀ (v603 : IVec S16 32) (v604 : IVec S16 32), Decidable (k0_chk129 v603 v604) := fun v603 v604 => decidable_of_iff' _ (Iff.of_eq (k0_chk129.eq_1 v603 v604))
theorem k0_idx129_inb : ∀ (v603 : IVec S16 32) (v604 : IVec S16 32) (k0_hw129 : k0_chk129 v603 v604), ∀ a x, ((![v603, v604] : Fin 2 → IVec S16 32) a x).toNat < S1000x128.size a := fun v603 v604 k0_hw129 => k0_hw129

def k0_chk130 (v607 : IVec S16 32) (v608 : IVec S16 32) : Prop :=
  (∀ a x, ((![v607, v608] : Fin 2 → IVec S16 32) a x).toNat < S1000x128.size a)
instance k0_chk130.dec : ∀ (v607 : IVec S16 32) (v608 : IVec S16 32), Decidable (k0_chk130 v607 v608) := fun v607 v608 => decidable_of_iff' _ (Iff.of_eq (k0_chk130.eq_1 v607 v608))
theorem k0_idx130_inb : ∀ (v607 : IVec S16 32) (v608 : IVec S16 32) (k0_hw130 : k0_chk130 v607 v608), ∀ a x, ((![v607, v608] : Fin 2 → IVec S16 32) a x).toNat < S1000x128.size a := fun v607 v608 k0_hw130 => k0_hw130

def k0_chk131 (v611 : IVec S16 32) (v612 : IVec S16 32) : Prop :=
  (∀ a x, ((![v611, v612] : Fin 2 → IVec S16 32) a x).toNat < S1000x128.size a)
instance k0_chk131.dec : ∀ (v611 : IVec S16 32) (v612 : IVec S16 32), Decidable (k0_chk131 v611 v612) := fun v611 v612 => decidable_of_iff' _ (Iff.of_eq (k0_chk131.eq_1 v611 v612))
theorem k0_idx131_inb : ∀ (v611 : IVec S16 32) (v612 : IVec S16 32) (k0_hw131 : k0_chk131 v611 v612), ∀ a x, ((![v611, v612] : Fin 2 → IVec S16 32) a x).toNat < S1000x128.size a := fun v611 v612 k0_hw131 => k0_hw131

def k0_chk132 (v615 : IVec S16 32) (v616 : IVec S16 32) : Prop :=
  (∀ a x, ((![v615, v616] : Fin 2 → IVec S16 32) a x).toNat < S1000x128.size a)
instance k0_chk132.dec : ∀ (v615 : IVec S16 32) (v616 : IVec S16 32), Decidable (k0_chk132 v615 v616) := fun v615 v616 => decidable_of_iff' _ (Iff.of_eq (k0_chk132.eq_1 v615 v616))
theorem k0_idx132_inb : ∀ (v615 : IVec S16 32) (v616 : IVec S16 32) (k0_hw132 : k0_chk132 v615 v616), ∀ a x, ((![v615, v616] : Fin 2 → IVec S16 32) a x).toNat < S1000x128.size a := fun v615 v616 k0_hw132 => k0_hw132

def k0_chk133 (v619 : IVec S16 32) (v620 : IVec S16 32) : Prop :=
  (∀ a x, ((![v619, v620] : Fin 2 → IVec S16 32) a x).toNat < S1000x128.size a)
instance k0_chk133.dec : ∀ (v619 : IVec S16 32) (v620 : IVec S16 32), Decidable (k0_chk133 v619 v620) := fun v619 v620 => decidable_of_iff' _ (Iff.of_eq (k0_chk133.eq_1 v619 v620))
theorem k0_idx133_inb : ∀ (v619 : IVec S16 32) (v620 : IVec S16 32) (k0_hw133 : k0_chk133 v619 v620), ∀ a x, ((![v619, v620] : Fin 2 → IVec S16 32) a x).toNat < S1000x128.size a := fun v619 v620 k0_hw133 => k0_hw133

def k0_chk134 (v623 : IVec S16 32) (v624 : IVec S16 32) : Prop :=
  (∀ a x, ((![v623, v624] : Fin 2 → IVec S16 32) a x).toNat < S1000x128.size a)
instance k0_chk134.dec : ∀ (v623 : IVec S16 32) (v624 : IVec S16 32), Decidable (k0_chk134 v623 v624) := fun v623 v624 => decidable_of_iff' _ (Iff.of_eq (k0_chk134.eq_1 v623 v624))
theorem k0_idx134_inb : ∀ (v623 : IVec S16 32) (v624 : IVec S16 32) (k0_hw134 : k0_chk134 v623 v624), ∀ a x, ((![v623, v624] : Fin 2 → IVec S16 32) a x).toNat < S1000x128.size a := fun v623 v624 k0_hw134 => k0_hw134

def k0_chk135 (v627 : IVec S16 32) (v628 : IVec S16 32) : Prop :=
  (∀ a x, ((![v627, v628] : Fin 2 → IVec S16 32) a x).toNat < S1000x128.size a)
instance k0_chk135.dec : ∀ (v627 : IVec S16 32) (v628 : IVec S16 32), Decidable (k0_chk135 v627 v628) := fun v627 v628 => decidable_of_iff' _ (Iff.of_eq (k0_chk135.eq_1 v627 v628))
theorem k0_idx135_inb : ∀ (v627 : IVec S16 32) (v628 : IVec S16 32) (k0_hw135 : k0_chk135 v627 v628), ∀ a x, ((![v627, v628] : Fin 2 → IVec S16 32) a x).toNat < S1000x128.size a := fun v627 v628 k0_hw135 => k0_hw135

def k0_chk136 (v631 : IVec S16 32) (v632 : IVec S16 32) : Prop :=
  (∀ a x, ((![v631, v632] : Fin 2 → IVec S16 32) a x).toNat < S1000x128.size a)
instance k0_chk136.dec : ∀ (v631 : IVec S16 32) (v632 : IVec S16 32), Decidable (k0_chk136 v631 v632) := fun v631 v632 => decidable_of_iff' _ (Iff.of_eq (k0_chk136.eq_1 v631 v632))
theorem k0_idx136_inb : ∀ (v631 : IVec S16 32) (v632 : IVec S16 32) (k0_hw136 : k0_chk136 v631 v632), ∀ a x, ((![v631, v632] : Fin 2 → IVec S16 32) a x).toNat < S1000x128.size a := fun v631 v632 k0_hw136 => k0_hw136
def k0_off26 (i : grid0.Coords) : Fin 2 → Nat :=
  let c8000_i32 : BitVec 32 := 8000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_474 : BitVec 32 := 128#32
  let v635 : BitVec 32 := Scalar.muli v6 c128_i32_474
  ![8000, v635.toNat]

def k0_chk137 (v641 : IVec S16 32) (v642 : IVec S16 32) : Prop :=
  (∀ a x, ((![v641, v642] : Fin 2 → IVec S16 32) a x).toNat < S1000x128.size a)
instance k0_chk137.dec : ∀ (v641 : IVec S16 32) (v642 : IVec S16 32), Decidable (k0_chk137 v641 v642) := fun v641 v642 => decidable_of_iff' _ (Iff.of_eq (k0_chk137.eq_1 v641 v642))
theorem k0_idx137_inb : ∀ (v641 : IVec S16 32) (v642 : IVec S16 32) (k0_hw137 : k0_chk137 v641 v642), ∀ a x, ((![v641, v642] : Fin 2 → IVec S16 32) a x).toNat < S1000x128.size a := fun v641 v642 k0_hw137 => k0_hw137

def k0_chk138 (v645 : IVec S16 32) (v646 : IVec S16 32) : Prop :=
  (∀ a x, ((![v645, v646] : Fin 2 → IVec S16 32) a x).toNat < S1000x128.size a)
instance k0_chk138.dec : ∀ (v645 : IVec S16 32) (v646 : IVec S16 32), Decidable (k0_chk138 v645 v646) := fun v645 v646 => decidable_of_iff' _ (Iff.of_eq (k0_chk138.eq_1 v645 v646))
theorem k0_idx138_inb : ∀ (v645 : IVec S16 32) (v646 : IVec S16 32) (k0_hw138 : k0_chk138 v645 v646), ∀ a x, ((![v645, v646] : Fin 2 → IVec S16 32) a x).toNat < S1000x128.size a := fun v645 v646 k0_hw138 => k0_hw138

def k0_chk139 (v649 : IVec S16 32) (v650 : IVec S16 32) : Prop :=
  (∀ a x, ((![v649, v650] : Fin 2 → IVec S16 32) a x).toNat < S1000x128.size a)
instance k0_chk139.dec : ∀ (v649 : IVec S16 32) (v650 : IVec S16 32), Decidable (k0_chk139 v649 v650) := fun v649 v650 => decidable_of_iff' _ (Iff.of_eq (k0_chk139.eq_1 v649 v650))
theorem k0_idx139_inb : ∀ (v649 : IVec S16 32) (v650 : IVec S16 32) (k0_hw139 : k0_chk139 v649 v650), ∀ a x, ((![v649, v650] : Fin 2 → IVec S16 32) a x).toNat < S1000x128.size a := fun v649 v650 k0_hw139 => k0_hw139

def k0_chk140 (v653 : IVec S16 32) (v654 : IVec S16 32) : Prop :=
  (∀ a x, ((![v653, v654] : Fin 2 → IVec S16 32) a x).toNat < S1000x128.size a)
instance k0_chk140.dec : ∀ (v653 : IVec S16 32) (v654 : IVec S16 32), Decidable (k0_chk140 v653 v654) := fun v653 v654 => decidable_of_iff' _ (Iff.of_eq (k0_chk140.eq_1 v653 v654))
theorem k0_idx140_inb : ∀ (v653 : IVec S16 32) (v654 : IVec S16 32) (k0_hw140 : k0_chk140 v653 v654), ∀ a x, ((![v653, v654] : Fin 2 → IVec S16 32) a x).toNat < S1000x128.size a := fun v653 v654 k0_hw140 => k0_hw140

def k0_chk141 (v657 : IVec S16 32) (v658 : IVec S16 32) : Prop :=
  (∀ a x, ((![v657, v658] : Fin 2 → IVec S16 32) a x).toNat < S1000x128.size a)
instance k0_chk141.dec : ∀ (v657 : IVec S16 32) (v658 : IVec S16 32), Decidable (k0_chk141 v657 v658) := fun v657 v658 => decidable_of_iff' _ (Iff.of_eq (k0_chk141.eq_1 v657 v658))
theorem k0_idx141_inb : ∀ (v657 : IVec S16 32) (v658 : IVec S16 32) (k0_hw141 : k0_chk141 v657 v658), ∀ a x, ((![v657, v658] : Fin 2 → IVec S16 32) a x).toNat < S1000x128.size a := fun v657 v658 k0_hw141 => k0_hw141

def k0_chk142 (v661 : IVec S16 32) (v662 : IVec S16 32) : Prop :=
  (∀ a x, ((![v661, v662] : Fin 2 → IVec S16 32) a x).toNat < S1000x128.size a)
instance k0_chk142.dec : ∀ (v661 : IVec S16 32) (v662 : IVec S16 32), Decidable (k0_chk142 v661 v662) := fun v661 v662 => decidable_of_iff' _ (Iff.of_eq (k0_chk142.eq_1 v661 v662))
theorem k0_idx142_inb : ∀ (v661 : IVec S16 32) (v662 : IVec S16 32) (k0_hw142 : k0_chk142 v661 v662), ∀ a x, ((![v661, v662] : Fin 2 → IVec S16 32) a x).toNat < S1000x128.size a := fun v661 v662 k0_hw142 => k0_hw142

def k0_chk143 (v665 : IVec S16 32) (v666 : IVec S16 32) : Prop :=
  (∀ a x, ((![v665, v666] : Fin 2 → IVec S16 32) a x).toNat < S1000x128.size a)
instance k0_chk143.dec : ∀ (v665 : IVec S16 32) (v666 : IVec S16 32), Decidable (k0_chk143 v665 v666) := fun v665 v666 => decidable_of_iff' _ (Iff.of_eq (k0_chk143.eq_1 v665 v666))
theorem k0_idx143_inb : ∀ (v665 : IVec S16 32) (v666 : IVec S16 32) (k0_hw143 : k0_chk143 v665 v666), ∀ a x, ((![v665, v666] : Fin 2 → IVec S16 32) a x).toNat < S1000x128.size a := fun v665 v666 k0_hw143 => k0_hw143

def k0_chk144 (v669 : IVec S16 32) (v670 : IVec S16 32) : Prop :=
  (∀ a x, ((![v669, v670] : Fin 2 → IVec S16 32) a x).toNat < S1000x128.size a)
instance k0_chk144.dec : ∀ (v669 : IVec S16 32) (v670 : IVec S16 32), Decidable (k0_chk144 v669 v670) := fun v669 v670 => decidable_of_iff' _ (Iff.of_eq (k0_chk144.eq_1 v669 v670))
theorem k0_idx144_inb : ∀ (v669 : IVec S16 32) (v670 : IVec S16 32) (k0_hw144 : k0_chk144 v669 v670), ∀ a x, ((![v669, v670] : Fin 2 → IVec S16 32) a x).toNat < S1000x128.size a := fun v669 v670 k0_hw144 => k0_hw144
def k0_off27 (i : grid0.Coords) : Fin 1 → Nat :=
  let c128_i32_505 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_503 : BitVec 32 := 26#32
  let v673 : BitVec 32 := Scalar.muli v6 c26_i32_503
  let c9_i32 : BitVec 32 := 9#32
  let v674 : BitVec 32 := Scalar.addi v673 c9_i32
  let c128_i32_504 : BitVec 32 := 128#32
  let v675 : BitVec 32 := Scalar.muli v674 c128_i32_504
  let v676 : BitVec 32 := Scalar.addi c128_i32_505 v675
  ![v676.toNat]

def k0_chk145 (v677 : IVec S16 32) (v678 : IVec S16 32) : Prop :=
  (∀ a x, ((![v677, v678] : Fin 2 → IVec S16 32) a x).toNat < S1000x128.size a)
instance k0_chk145.dec : ∀ (v677 : IVec S16 32) (v678 : IVec S16 32), Decidable (k0_chk145 v677 v678) := fun v677 v678 => decidable_of_iff' _ (Iff.of_eq (k0_chk145.eq_1 v677 v678))
theorem k0_idx145_inb : ∀ (v677 : IVec S16 32) (v678 : IVec S16 32) (k0_hw145 : k0_chk145 v677 v678), ∀ a x, ((![v677, v678] : Fin 2 → IVec S16 32) a x).toNat < S1000x128.size a := fun v677 v678 k0_hw145 => k0_hw145

def k0_chk146 (v681 : IVec S16 32) (v682 : IVec S16 32) : Prop :=
  (∀ a x, ((![v681, v682] : Fin 2 → IVec S16 32) a x).toNat < S1000x128.size a)
instance k0_chk146.dec : ∀ (v681 : IVec S16 32) (v682 : IVec S16 32), Decidable (k0_chk146 v681 v682) := fun v681 v682 => decidable_of_iff' _ (Iff.of_eq (k0_chk146.eq_1 v681 v682))
theorem k0_idx146_inb : ∀ (v681 : IVec S16 32) (v682 : IVec S16 32) (k0_hw146 : k0_chk146 v681 v682), ∀ a x, ((![v681, v682] : Fin 2 → IVec S16 32) a x).toNat < S1000x128.size a := fun v681 v682 k0_hw146 => k0_hw146

def k0_chk147 (v685 : IVec S16 32) (v686 : IVec S16 32) : Prop :=
  (∀ a x, ((![v685, v686] : Fin 2 → IVec S16 32) a x).toNat < S1000x128.size a)
instance k0_chk147.dec : ∀ (v685 : IVec S16 32) (v686 : IVec S16 32), Decidable (k0_chk147 v685 v686) := fun v685 v686 => decidable_of_iff' _ (Iff.of_eq (k0_chk147.eq_1 v685 v686))
theorem k0_idx147_inb : ∀ (v685 : IVec S16 32) (v686 : IVec S16 32) (k0_hw147 : k0_chk147 v685 v686), ∀ a x, ((![v685, v686] : Fin 2 → IVec S16 32) a x).toNat < S1000x128.size a := fun v685 v686 k0_hw147 => k0_hw147

def k0_chk148 (v689 : IVec S16 32) (v690 : IVec S16 32) : Prop :=
  (∀ a x, ((![v689, v690] : Fin 2 → IVec S16 32) a x).toNat < S1000x128.size a)
instance k0_chk148.dec : ∀ (v689 : IVec S16 32) (v690 : IVec S16 32), Decidable (k0_chk148 v689 v690) := fun v689 v690 => decidable_of_iff' _ (Iff.of_eq (k0_chk148.eq_1 v689 v690))
theorem k0_idx148_inb : ∀ (v689 : IVec S16 32) (v690 : IVec S16 32) (k0_hw148 : k0_chk148 v689 v690), ∀ a x, ((![v689, v690] : Fin 2 → IVec S16 32) a x).toNat < S1000x128.size a := fun v689 v690 k0_hw148 => k0_hw148

def k0_chk149 (v693 : IVec S16 32) (v694 : IVec S16 32) : Prop :=
  (∀ a x, ((![v693, v694] : Fin 2 → IVec S16 32) a x).toNat < S1000x128.size a)
instance k0_chk149.dec : ∀ (v693 : IVec S16 32) (v694 : IVec S16 32), Decidable (k0_chk149 v693 v694) := fun v693 v694 => decidable_of_iff' _ (Iff.of_eq (k0_chk149.eq_1 v693 v694))
theorem k0_idx149_inb : ∀ (v693 : IVec S16 32) (v694 : IVec S16 32) (k0_hw149 : k0_chk149 v693 v694), ∀ a x, ((![v693, v694] : Fin 2 → IVec S16 32) a x).toNat < S1000x128.size a := fun v693 v694 k0_hw149 => k0_hw149

def k0_chk150 (v697 : IVec S16 32) (v698 : IVec S16 32) : Prop :=
  (∀ a x, ((![v697, v698] : Fin 2 → IVec S16 32) a x).toNat < S1000x128.size a)
instance k0_chk150.dec : ∀ (v697 : IVec S16 32) (v698 : IVec S16 32), Decidable (k0_chk150 v697 v698) := fun v697 v698 => decidable_of_iff' _ (Iff.of_eq (k0_chk150.eq_1 v697 v698))
theorem k0_idx150_inb : ∀ (v697 : IVec S16 32) (v698 : IVec S16 32) (k0_hw150 : k0_chk150 v697 v698), ∀ a x, ((![v697, v698] : Fin 2 → IVec S16 32) a x).toNat < S1000x128.size a := fun v697 v698 k0_hw150 => k0_hw150

def k0_chk151 (v701 : IVec S16 32) (v702 : IVec S16 32) : Prop :=
  (∀ a x, ((![v701, v702] : Fin 2 → IVec S16 32) a x).toNat < S1000x128.size a)
instance k0_chk151.dec : ∀ (v701 : IVec S16 32) (v702 : IVec S16 32), Decidable (k0_chk151 v701 v702) := fun v701 v702 => decidable_of_iff' _ (Iff.of_eq (k0_chk151.eq_1 v701 v702))
theorem k0_idx151_inb : ∀ (v701 : IVec S16 32) (v702 : IVec S16 32) (k0_hw151 : k0_chk151 v701 v702), ∀ a x, ((![v701, v702] : Fin 2 → IVec S16 32) a x).toNat < S1000x128.size a := fun v701 v702 k0_hw151 => k0_hw151

def k0_chk152 (v705 : IVec S16 32) (v706 : IVec S16 32) : Prop :=
  (∀ a x, ((![v705, v706] : Fin 2 → IVec S16 32) a x).toNat < S1000x128.size a)
instance k0_chk152.dec : ∀ (v705 : IVec S16 32) (v706 : IVec S16 32), Decidable (k0_chk152 v705 v706) := fun v705 v706 => decidable_of_iff' _ (Iff.of_eq (k0_chk152.eq_1 v705 v706))
theorem k0_idx152_inb : ∀ (v705 : IVec S16 32) (v706 : IVec S16 32) (k0_hw152 : k0_chk152 v705 v706), ∀ a x, ((![v705, v706] : Fin 2 → IVec S16 32) a x).toNat < S1000x128.size a := fun v705 v706 k0_hw152 => k0_hw152
def k0_off28 (i : grid0.Coords) : Fin 2 → Nat :=
  let c9000_i32 : BitVec 32 := 9000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_530 : BitVec 32 := 128#32
  let v709 : BitVec 32 := Scalar.muli v6 c128_i32_530
  ![9000, v709.toNat]

def k0_chk153 (v715 : IVec S16 32) (v716 : IVec S16 32) : Prop :=
  (∀ a x, ((![v715, v716] : Fin 2 → IVec S16 32) a x).toNat < S1000x128.size a)
instance k0_chk153.dec : ∀ (v715 : IVec S16 32) (v716 : IVec S16 32), Decidable (k0_chk153 v715 v716) := fun v715 v716 => decidable_of_iff' _ (Iff.of_eq (k0_chk153.eq_1 v715 v716))
theorem k0_idx153_inb : ∀ (v715 : IVec S16 32) (v716 : IVec S16 32) (k0_hw153 : k0_chk153 v715 v716), ∀ a x, ((![v715, v716] : Fin 2 → IVec S16 32) a x).toNat < S1000x128.size a := fun v715 v716 k0_hw153 => k0_hw153

def k0_chk154 (v719 : IVec S16 32) (v720 : IVec S16 32) : Prop :=
  (∀ a x, ((![v719, v720] : Fin 2 → IVec S16 32) a x).toNat < S1000x128.size a)
instance k0_chk154.dec : ∀ (v719 : IVec S16 32) (v720 : IVec S16 32), Decidable (k0_chk154 v719 v720) := fun v719 v720 => decidable_of_iff' _ (Iff.of_eq (k0_chk154.eq_1 v719 v720))
theorem k0_idx154_inb : ∀ (v719 : IVec S16 32) (v720 : IVec S16 32) (k0_hw154 : k0_chk154 v719 v720), ∀ a x, ((![v719, v720] : Fin 2 → IVec S16 32) a x).toNat < S1000x128.size a := fun v719 v720 k0_hw154 => k0_hw154

def k0_chk155 (v723 : IVec S16 32) (v724 : IVec S16 32) : Prop :=
  (∀ a x, ((![v723, v724] : Fin 2 → IVec S16 32) a x).toNat < S1000x128.size a)
instance k0_chk155.dec : ∀ (v723 : IVec S16 32) (v724 : IVec S16 32), Decidable (k0_chk155 v723 v724) := fun v723 v724 => decidable_of_iff' _ (Iff.of_eq (k0_chk155.eq_1 v723 v724))
theorem k0_idx155_inb : ∀ (v723 : IVec S16 32) (v724 : IVec S16 32) (k0_hw155 : k0_chk155 v723 v724), ∀ a x, ((![v723, v724] : Fin 2 → IVec S16 32) a x).toNat < S1000x128.size a := fun v723 v724 k0_hw155 => k0_hw155

def k0_chk156 (v727 : IVec S16 32) (v728 : IVec S16 32) : Prop :=
  (∀ a x, ((![v727, v728] : Fin 2 → IVec S16 32) a x).toNat < S1000x128.size a)
instance k0_chk156.dec : ∀ (v727 : IVec S16 32) (v728 : IVec S16 32), Decidable (k0_chk156 v727 v728) := fun v727 v728 => decidable_of_iff' _ (Iff.of_eq (k0_chk156.eq_1 v727 v728))
theorem k0_idx156_inb : ∀ (v727 : IVec S16 32) (v728 : IVec S16 32) (k0_hw156 : k0_chk156 v727 v728), ∀ a x, ((![v727, v728] : Fin 2 → IVec S16 32) a x).toNat < S1000x128.size a := fun v727 v728 k0_hw156 => k0_hw156

def k0_chk157 (v731 : IVec S16 32) (v732 : IVec S16 32) : Prop :=
  (∀ a x, ((![v731, v732] : Fin 2 → IVec S16 32) a x).toNat < S1000x128.size a)
instance k0_chk157.dec : ∀ (v731 : IVec S16 32) (v732 : IVec S16 32), Decidable (k0_chk157 v731 v732) := fun v731 v732 => decidable_of_iff' _ (Iff.of_eq (k0_chk157.eq_1 v731 v732))
theorem k0_idx157_inb : ∀ (v731 : IVec S16 32) (v732 : IVec S16 32) (k0_hw157 : k0_chk157 v731 v732), ∀ a x, ((![v731, v732] : Fin 2 → IVec S16 32) a x).toNat < S1000x128.size a := fun v731 v732 k0_hw157 => k0_hw157

def k0_chk158 (v735 : IVec S16 32) (v736 : IVec S16 32) : Prop :=
  (∀ a x, ((![v735, v736] : Fin 2 → IVec S16 32) a x).toNat < S1000x128.size a)
instance k0_chk158.dec : ∀ (v735 : IVec S16 32) (v736 : IVec S16 32), Decidable (k0_chk158 v735 v736) := fun v735 v736 => decidable_of_iff' _ (Iff.of_eq (k0_chk158.eq_1 v735 v736))
theorem k0_idx158_inb : ∀ (v735 : IVec S16 32) (v736 : IVec S16 32) (k0_hw158 : k0_chk158 v735 v736), ∀ a x, ((![v735, v736] : Fin 2 → IVec S16 32) a x).toNat < S1000x128.size a := fun v735 v736 k0_hw158 => k0_hw158

def k0_chk159 (v739 : IVec S16 32) (v740 : IVec S16 32) : Prop :=
  (∀ a x, ((![v739, v740] : Fin 2 → IVec S16 32) a x).toNat < S1000x128.size a)
instance k0_chk159.dec : ∀ (v739 : IVec S16 32) (v740 : IVec S16 32), Decidable (k0_chk159 v739 v740) := fun v739 v740 => decidable_of_iff' _ (Iff.of_eq (k0_chk159.eq_1 v739 v740))
theorem k0_idx159_inb : ∀ (v739 : IVec S16 32) (v740 : IVec S16 32) (k0_hw159 : k0_chk159 v739 v740), ∀ a x, ((![v739, v740] : Fin 2 → IVec S16 32) a x).toNat < S1000x128.size a := fun v739 v740 k0_hw159 => k0_hw159

def k0_chk160 (v743 : IVec S16 32) (v744 : IVec S16 32) : Prop :=
  (∀ a x, ((![v743, v744] : Fin 2 → IVec S16 32) a x).toNat < S1000x128.size a)
instance k0_chk160.dec : ∀ (v743 : IVec S16 32) (v744 : IVec S16 32), Decidable (k0_chk160 v743 v744) := fun v743 v744 => decidable_of_iff' _ (Iff.of_eq (k0_chk160.eq_1 v743 v744))
theorem k0_idx160_inb : ∀ (v743 : IVec S16 32) (v744 : IVec S16 32) (k0_hw160 : k0_chk160 v743 v744), ∀ a x, ((![v743, v744] : Fin 2 → IVec S16 32) a x).toNat < S1000x128.size a := fun v743 v744 k0_hw160 => k0_hw160
def k0_off29 (i : grid0.Coords) : Fin 1 → Nat :=
  let c128_i32_561 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_559 : BitVec 32 := 26#32
  let v747 : BitVec 32 := Scalar.muli v6 c26_i32_559
  let c10_i32 : BitVec 32 := 10#32
  let v748 : BitVec 32 := Scalar.addi v747 c10_i32
  let c128_i32_560 : BitVec 32 := 128#32
  let v749 : BitVec 32 := Scalar.muli v748 c128_i32_560
  let v750 : BitVec 32 := Scalar.addi c128_i32_561 v749
  ![v750.toNat]

def k0_chk161 (v751 : IVec S16 32) (v752 : IVec S16 32) : Prop :=
  (∀ a x, ((![v751, v752] : Fin 2 → IVec S16 32) a x).toNat < S1000x128.size a)
instance k0_chk161.dec : ∀ (v751 : IVec S16 32) (v752 : IVec S16 32), Decidable (k0_chk161 v751 v752) := fun v751 v752 => decidable_of_iff' _ (Iff.of_eq (k0_chk161.eq_1 v751 v752))
theorem k0_idx161_inb : ∀ (v751 : IVec S16 32) (v752 : IVec S16 32) (k0_hw161 : k0_chk161 v751 v752), ∀ a x, ((![v751, v752] : Fin 2 → IVec S16 32) a x).toNat < S1000x128.size a := fun v751 v752 k0_hw161 => k0_hw161

def k0_chk162 (v755 : IVec S16 32) (v756 : IVec S16 32) : Prop :=
  (∀ a x, ((![v755, v756] : Fin 2 → IVec S16 32) a x).toNat < S1000x128.size a)
instance k0_chk162.dec : ∀ (v755 : IVec S16 32) (v756 : IVec S16 32), Decidable (k0_chk162 v755 v756) := fun v755 v756 => decidable_of_iff' _ (Iff.of_eq (k0_chk162.eq_1 v755 v756))
theorem k0_idx162_inb : ∀ (v755 : IVec S16 32) (v756 : IVec S16 32) (k0_hw162 : k0_chk162 v755 v756), ∀ a x, ((![v755, v756] : Fin 2 → IVec S16 32) a x).toNat < S1000x128.size a := fun v755 v756 k0_hw162 => k0_hw162

def k0_chk163 (v759 : IVec S16 32) (v760 : IVec S16 32) : Prop :=
  (∀ a x, ((![v759, v760] : Fin 2 → IVec S16 32) a x).toNat < S1000x128.size a)
instance k0_chk163.dec : ∀ (v759 : IVec S16 32) (v760 : IVec S16 32), Decidable (k0_chk163 v759 v760) := fun v759 v760 => decidable_of_iff' _ (Iff.of_eq (k0_chk163.eq_1 v759 v760))
theorem k0_idx163_inb : ∀ (v759 : IVec S16 32) (v760 : IVec S16 32) (k0_hw163 : k0_chk163 v759 v760), ∀ a x, ((![v759, v760] : Fin 2 → IVec S16 32) a x).toNat < S1000x128.size a := fun v759 v760 k0_hw163 => k0_hw163

def k0_chk164 (v763 : IVec S16 32) (v764 : IVec S16 32) : Prop :=
  (∀ a x, ((![v763, v764] : Fin 2 → IVec S16 32) a x).toNat < S1000x128.size a)
instance k0_chk164.dec : ∀ (v763 : IVec S16 32) (v764 : IVec S16 32), Decidable (k0_chk164 v763 v764) := fun v763 v764 => decidable_of_iff' _ (Iff.of_eq (k0_chk164.eq_1 v763 v764))
theorem k0_idx164_inb : ∀ (v763 : IVec S16 32) (v764 : IVec S16 32) (k0_hw164 : k0_chk164 v763 v764), ∀ a x, ((![v763, v764] : Fin 2 → IVec S16 32) a x).toNat < S1000x128.size a := fun v763 v764 k0_hw164 => k0_hw164

def k0_chk165 (v767 : IVec S16 32) (v768 : IVec S16 32) : Prop :=
  (∀ a x, ((![v767, v768] : Fin 2 → IVec S16 32) a x).toNat < S1000x128.size a)
instance k0_chk165.dec : ∀ (v767 : IVec S16 32) (v768 : IVec S16 32), Decidable (k0_chk165 v767 v768) := fun v767 v768 => decidable_of_iff' _ (Iff.of_eq (k0_chk165.eq_1 v767 v768))
theorem k0_idx165_inb : ∀ (v767 : IVec S16 32) (v768 : IVec S16 32) (k0_hw165 : k0_chk165 v767 v768), ∀ a x, ((![v767, v768] : Fin 2 → IVec S16 32) a x).toNat < S1000x128.size a := fun v767 v768 k0_hw165 => k0_hw165

def k0_chk166 (v771 : IVec S16 32) (v772 : IVec S16 32) : Prop :=
  (∀ a x, ((![v771, v772] : Fin 2 → IVec S16 32) a x).toNat < S1000x128.size a)
instance k0_chk166.dec : ∀ (v771 : IVec S16 32) (v772 : IVec S16 32), Decidable (k0_chk166 v771 v772) := fun v771 v772 => decidable_of_iff' _ (Iff.of_eq (k0_chk166.eq_1 v771 v772))
theorem k0_idx166_inb : ∀ (v771 : IVec S16 32) (v772 : IVec S16 32) (k0_hw166 : k0_chk166 v771 v772), ∀ a x, ((![v771, v772] : Fin 2 → IVec S16 32) a x).toNat < S1000x128.size a := fun v771 v772 k0_hw166 => k0_hw166

def k0_chk167 (v775 : IVec S16 32) (v776 : IVec S16 32) : Prop :=
  (∀ a x, ((![v775, v776] : Fin 2 → IVec S16 32) a x).toNat < S1000x128.size a)
instance k0_chk167.dec : ∀ (v775 : IVec S16 32) (v776 : IVec S16 32), Decidable (k0_chk167 v775 v776) := fun v775 v776 => decidable_of_iff' _ (Iff.of_eq (k0_chk167.eq_1 v775 v776))
theorem k0_idx167_inb : ∀ (v775 : IVec S16 32) (v776 : IVec S16 32) (k0_hw167 : k0_chk167 v775 v776), ∀ a x, ((![v775, v776] : Fin 2 → IVec S16 32) a x).toNat < S1000x128.size a := fun v775 v776 k0_hw167 => k0_hw167

def k0_chk168 (v779 : IVec S16 32) (v780 : IVec S16 32) : Prop :=
  (∀ a x, ((![v779, v780] : Fin 2 → IVec S16 32) a x).toNat < S1000x128.size a)
instance k0_chk168.dec : ∀ (v779 : IVec S16 32) (v780 : IVec S16 32), Decidable (k0_chk168 v779 v780) := fun v779 v780 => decidable_of_iff' _ (Iff.of_eq (k0_chk168.eq_1 v779 v780))
theorem k0_idx168_inb : ∀ (v779 : IVec S16 32) (v780 : IVec S16 32) (k0_hw168 : k0_chk168 v779 v780), ∀ a x, ((![v779, v780] : Fin 2 → IVec S16 32) a x).toNat < S1000x128.size a := fun v779 v780 k0_hw168 => k0_hw168
def k0_off30 (i : grid0.Coords) : Fin 2 → Nat :=
  let c10000_i32 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_586 : BitVec 32 := 128#32
  let v783 : BitVec 32 := Scalar.muli v6 c128_i32_586
  ![10000, v783.toNat]

def k0_chk169 (v789 : IVec S16 32) (v790 : IVec S16 32) : Prop :=
  (∀ a x, ((![v789, v790] : Fin 2 → IVec S16 32) a x).toNat < S1000x128.size a)
instance k0_chk169.dec : ∀ (v789 : IVec S16 32) (v790 : IVec S16 32), Decidable (k0_chk169 v789 v790) := fun v789 v790 => decidable_of_iff' _ (Iff.of_eq (k0_chk169.eq_1 v789 v790))
theorem k0_idx169_inb : ∀ (v789 : IVec S16 32) (v790 : IVec S16 32) (k0_hw169 : k0_chk169 v789 v790), ∀ a x, ((![v789, v790] : Fin 2 → IVec S16 32) a x).toNat < S1000x128.size a := fun v789 v790 k0_hw169 => k0_hw169

def k0_chk170 (v793 : IVec S16 32) (v794 : IVec S16 32) : Prop :=
  (∀ a x, ((![v793, v794] : Fin 2 → IVec S16 32) a x).toNat < S1000x128.size a)
instance k0_chk170.dec : ∀ (v793 : IVec S16 32) (v794 : IVec S16 32), Decidable (k0_chk170 v793 v794) := fun v793 v794 => decidable_of_iff' _ (Iff.of_eq (k0_chk170.eq_1 v793 v794))
theorem k0_idx170_inb : ∀ (v793 : IVec S16 32) (v794 : IVec S16 32) (k0_hw170 : k0_chk170 v793 v794), ∀ a x, ((![v793, v794] : Fin 2 → IVec S16 32) a x).toNat < S1000x128.size a := fun v793 v794 k0_hw170 => k0_hw170

def k0_chk171 (v797 : IVec S16 32) (v798 : IVec S16 32) : Prop :=
  (∀ a x, ((![v797, v798] : Fin 2 → IVec S16 32) a x).toNat < S1000x128.size a)
instance k0_chk171.dec : ∀ (v797 : IVec S16 32) (v798 : IVec S16 32), Decidable (k0_chk171 v797 v798) := fun v797 v798 => decidable_of_iff' _ (Iff.of_eq (k0_chk171.eq_1 v797 v798))
theorem k0_idx171_inb : ∀ (v797 : IVec S16 32) (v798 : IVec S16 32) (k0_hw171 : k0_chk171 v797 v798), ∀ a x, ((![v797, v798] : Fin 2 → IVec S16 32) a x).toNat < S1000x128.size a := fun v797 v798 k0_hw171 => k0_hw171

def k0_chk172 (v801 : IVec S16 32) (v802 : IVec S16 32) : Prop :=
  (∀ a x, ((![v801, v802] : Fin 2 → IVec S16 32) a x).toNat < S1000x128.size a)
instance k0_chk172.dec : ∀ (v801 : IVec S16 32) (v802 : IVec S16 32), Decidable (k0_chk172 v801 v802) := fun v801 v802 => decidable_of_iff' _ (Iff.of_eq (k0_chk172.eq_1 v801 v802))
theorem k0_idx172_inb : ∀ (v801 : IVec S16 32) (v802 : IVec S16 32) (k0_hw172 : k0_chk172 v801 v802), ∀ a x, ((![v801, v802] : Fin 2 → IVec S16 32) a x).toNat < S1000x128.size a := fun v801 v802 k0_hw172 => k0_hw172

def k0_chk173 (v805 : IVec S16 32) (v806 : IVec S16 32) : Prop :=
  (∀ a x, ((![v805, v806] : Fin 2 → IVec S16 32) a x).toNat < S1000x128.size a)
instance k0_chk173.dec : ∀ (v805 : IVec S16 32) (v806 : IVec S16 32), Decidable (k0_chk173 v805 v806) := fun v805 v806 => decidable_of_iff' _ (Iff.of_eq (k0_chk173.eq_1 v805 v806))
theorem k0_idx173_inb : ∀ (v805 : IVec S16 32) (v806 : IVec S16 32) (k0_hw173 : k0_chk173 v805 v806), ∀ a x, ((![v805, v806] : Fin 2 → IVec S16 32) a x).toNat < S1000x128.size a := fun v805 v806 k0_hw173 => k0_hw173

def k0_chk174 (v809 : IVec S16 32) (v810 : IVec S16 32) : Prop :=
  (∀ a x, ((![v809, v810] : Fin 2 → IVec S16 32) a x).toNat < S1000x128.size a)
instance k0_chk174.dec : ∀ (v809 : IVec S16 32) (v810 : IVec S16 32), Decidable (k0_chk174 v809 v810) := fun v809 v810 => decidable_of_iff' _ (Iff.of_eq (k0_chk174.eq_1 v809 v810))
theorem k0_idx174_inb : ∀ (v809 : IVec S16 32) (v810 : IVec S16 32) (k0_hw174 : k0_chk174 v809 v810), ∀ a x, ((![v809, v810] : Fin 2 → IVec S16 32) a x).toNat < S1000x128.size a := fun v809 v810 k0_hw174 => k0_hw174

def k0_chk175 (v813 : IVec S16 32) (v814 : IVec S16 32) : Prop :=
  (∀ a x, ((![v813, v814] : Fin 2 → IVec S16 32) a x).toNat < S1000x128.size a)
instance k0_chk175.dec : ∀ (v813 : IVec S16 32) (v814 : IVec S16 32), Decidable (k0_chk175 v813 v814) := fun v813 v814 => decidable_of_iff' _ (Iff.of_eq (k0_chk175.eq_1 v813 v814))
theorem k0_idx175_inb : ∀ (v813 : IVec S16 32) (v814 : IVec S16 32) (k0_hw175 : k0_chk175 v813 v814), ∀ a x, ((![v813, v814] : Fin 2 → IVec S16 32) a x).toNat < S1000x128.size a := fun v813 v814 k0_hw175 => k0_hw175

def k0_chk176 (v817 : IVec S16 32) (v818 : IVec S16 32) : Prop :=
  (∀ a x, ((![v817, v818] : Fin 2 → IVec S16 32) a x).toNat < S1000x128.size a)
instance k0_chk176.dec : ∀ (v817 : IVec S16 32) (v818 : IVec S16 32), Decidable (k0_chk176 v817 v818) := fun v817 v818 => decidable_of_iff' _ (Iff.of_eq (k0_chk176.eq_1 v817 v818))
theorem k0_idx176_inb : ∀ (v817 : IVec S16 32) (v818 : IVec S16 32) (k0_hw176 : k0_chk176 v817 v818), ∀ a x, ((![v817, v818] : Fin 2 → IVec S16 32) a x).toNat < S1000x128.size a := fun v817 v818 k0_hw176 => k0_hw176
def k0_off31 (i : grid0.Coords) : Fin 1 → Nat :=
  let c128_i32_617 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_615 : BitVec 32 := 26#32
  let v821 : BitVec 32 := Scalar.muli v6 c26_i32_615
  let c11_i32 : BitVec 32 := 11#32
  let v822 : BitVec 32 := Scalar.addi v821 c11_i32
  let c128_i32_616 : BitVec 32 := 128#32
  let v823 : BitVec 32 := Scalar.muli v822 c128_i32_616
  let v824 : BitVec 32 := Scalar.addi c128_i32_617 v823
  ![v824.toNat]

def k0_chk177 (v825 : IVec S16 32) (v826 : IVec S16 32) : Prop :=
  (∀ a x, ((![v825, v826] : Fin 2 → IVec S16 32) a x).toNat < S1000x128.size a)
instance k0_chk177.dec : ∀ (v825 : IVec S16 32) (v826 : IVec S16 32), Decidable (k0_chk177 v825 v826) := fun v825 v826 => decidable_of_iff' _ (Iff.of_eq (k0_chk177.eq_1 v825 v826))
theorem k0_idx177_inb : ∀ (v825 : IVec S16 32) (v826 : IVec S16 32) (k0_hw177 : k0_chk177 v825 v826), ∀ a x, ((![v825, v826] : Fin 2 → IVec S16 32) a x).toNat < S1000x128.size a := fun v825 v826 k0_hw177 => k0_hw177

def k0_chk178 (v829 : IVec S16 32) (v830 : IVec S16 32) : Prop :=
  (∀ a x, ((![v829, v830] : Fin 2 → IVec S16 32) a x).toNat < S1000x128.size a)
instance k0_chk178.dec : ∀ (v829 : IVec S16 32) (v830 : IVec S16 32), Decidable (k0_chk178 v829 v830) := fun v829 v830 => decidable_of_iff' _ (Iff.of_eq (k0_chk178.eq_1 v829 v830))
theorem k0_idx178_inb : ∀ (v829 : IVec S16 32) (v830 : IVec S16 32) (k0_hw178 : k0_chk178 v829 v830), ∀ a x, ((![v829, v830] : Fin 2 → IVec S16 32) a x).toNat < S1000x128.size a := fun v829 v830 k0_hw178 => k0_hw178

def k0_chk179 (v833 : IVec S16 32) (v834 : IVec S16 32) : Prop :=
  (∀ a x, ((![v833, v834] : Fin 2 → IVec S16 32) a x).toNat < S1000x128.size a)
instance k0_chk179.dec : ∀ (v833 : IVec S16 32) (v834 : IVec S16 32), Decidable (k0_chk179 v833 v834) := fun v833 v834 => decidable_of_iff' _ (Iff.of_eq (k0_chk179.eq_1 v833 v834))
theorem k0_idx179_inb : ∀ (v833 : IVec S16 32) (v834 : IVec S16 32) (k0_hw179 : k0_chk179 v833 v834), ∀ a x, ((![v833, v834] : Fin 2 → IVec S16 32) a x).toNat < S1000x128.size a := fun v833 v834 k0_hw179 => k0_hw179

def k0_chk180 (v837 : IVec S16 32) (v838 : IVec S16 32) : Prop :=
  (∀ a x, ((![v837, v838] : Fin 2 → IVec S16 32) a x).toNat < S1000x128.size a)
instance k0_chk180.dec : ∀ (v837 : IVec S16 32) (v838 : IVec S16 32), Decidable (k0_chk180 v837 v838) := fun v837 v838 => decidable_of_iff' _ (Iff.of_eq (k0_chk180.eq_1 v837 v838))
theorem k0_idx180_inb : ∀ (v837 : IVec S16 32) (v838 : IVec S16 32) (k0_hw180 : k0_chk180 v837 v838), ∀ a x, ((![v837, v838] : Fin 2 → IVec S16 32) a x).toNat < S1000x128.size a := fun v837 v838 k0_hw180 => k0_hw180

def k0_chk181 (v841 : IVec S16 32) (v842 : IVec S16 32) : Prop :=
  (∀ a x, ((![v841, v842] : Fin 2 → IVec S16 32) a x).toNat < S1000x128.size a)
instance k0_chk181.dec : ∀ (v841 : IVec S16 32) (v842 : IVec S16 32), Decidable (k0_chk181 v841 v842) := fun v841 v842 => decidable_of_iff' _ (Iff.of_eq (k0_chk181.eq_1 v841 v842))
theorem k0_idx181_inb : ∀ (v841 : IVec S16 32) (v842 : IVec S16 32) (k0_hw181 : k0_chk181 v841 v842), ∀ a x, ((![v841, v842] : Fin 2 → IVec S16 32) a x).toNat < S1000x128.size a := fun v841 v842 k0_hw181 => k0_hw181

def k0_chk182 (v845 : IVec S16 32) (v846 : IVec S16 32) : Prop :=
  (∀ a x, ((![v845, v846] : Fin 2 → IVec S16 32) a x).toNat < S1000x128.size a)
instance k0_chk182.dec : ∀ (v845 : IVec S16 32) (v846 : IVec S16 32), Decidable (k0_chk182 v845 v846) := fun v845 v846 => decidable_of_iff' _ (Iff.of_eq (k0_chk182.eq_1 v845 v846))
theorem k0_idx182_inb : ∀ (v845 : IVec S16 32) (v846 : IVec S16 32) (k0_hw182 : k0_chk182 v845 v846), ∀ a x, ((![v845, v846] : Fin 2 → IVec S16 32) a x).toNat < S1000x128.size a := fun v845 v846 k0_hw182 => k0_hw182

def k0_chk183 (v849 : IVec S16 32) (v850 : IVec S16 32) : Prop :=
  (∀ a x, ((![v849, v850] : Fin 2 → IVec S16 32) a x).toNat < S1000x128.size a)
instance k0_chk183.dec : ∀ (v849 : IVec S16 32) (v850 : IVec S16 32), Decidable (k0_chk183 v849 v850) := fun v849 v850 => decidable_of_iff' _ (Iff.of_eq (k0_chk183.eq_1 v849 v850))
theorem k0_idx183_inb : ∀ (v849 : IVec S16 32) (v850 : IVec S16 32) (k0_hw183 : k0_chk183 v849 v850), ∀ a x, ((![v849, v850] : Fin 2 → IVec S16 32) a x).toNat < S1000x128.size a := fun v849 v850 k0_hw183 => k0_hw183

def k0_chk184 (v853 : IVec S16 32) (v854 : IVec S16 32) : Prop :=
  (∀ a x, ((![v853, v854] : Fin 2 → IVec S16 32) a x).toNat < S1000x128.size a)
instance k0_chk184.dec : ∀ (v853 : IVec S16 32) (v854 : IVec S16 32), Decidable (k0_chk184 v853 v854) := fun v853 v854 => decidable_of_iff' _ (Iff.of_eq (k0_chk184.eq_1 v853 v854))
theorem k0_idx184_inb : ∀ (v853 : IVec S16 32) (v854 : IVec S16 32) (k0_hw184 : k0_chk184 v853 v854), ∀ a x, ((![v853, v854] : Fin 2 → IVec S16 32) a x).toNat < S1000x128.size a := fun v853 v854 k0_hw184 => k0_hw184
def k0_off32 (i : grid0.Coords) : Fin 2 → Nat :=
  let c11000_i32 : BitVec 32 := 11000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_642 : BitVec 32 := 128#32
  let v857 : BitVec 32 := Scalar.muli v6 c128_i32_642
  ![11000, v857.toNat]

def k0_chk185 (v863 : IVec S16 32) (v864 : IVec S16 32) : Prop :=
  (∀ a x, ((![v863, v864] : Fin 2 → IVec S16 32) a x).toNat < S1000x128.size a)
instance k0_chk185.dec : ∀ (v863 : IVec S16 32) (v864 : IVec S16 32), Decidable (k0_chk185 v863 v864) := fun v863 v864 => decidable_of_iff' _ (Iff.of_eq (k0_chk185.eq_1 v863 v864))
theorem k0_idx185_inb : ∀ (v863 : IVec S16 32) (v864 : IVec S16 32) (k0_hw185 : k0_chk185 v863 v864), ∀ a x, ((![v863, v864] : Fin 2 → IVec S16 32) a x).toNat < S1000x128.size a := fun v863 v864 k0_hw185 => k0_hw185

def k0_chk186 (v867 : IVec S16 32) (v868 : IVec S16 32) : Prop :=
  (∀ a x, ((![v867, v868] : Fin 2 → IVec S16 32) a x).toNat < S1000x128.size a)
instance k0_chk186.dec : ∀ (v867 : IVec S16 32) (v868 : IVec S16 32), Decidable (k0_chk186 v867 v868) := fun v867 v868 => decidable_of_iff' _ (Iff.of_eq (k0_chk186.eq_1 v867 v868))
theorem k0_idx186_inb : ∀ (v867 : IVec S16 32) (v868 : IVec S16 32) (k0_hw186 : k0_chk186 v867 v868), ∀ a x, ((![v867, v868] : Fin 2 → IVec S16 32) a x).toNat < S1000x128.size a := fun v867 v868 k0_hw186 => k0_hw186

def k0_chk187 (v871 : IVec S16 32) (v872 : IVec S16 32) : Prop :=
  (∀ a x, ((![v871, v872] : Fin 2 → IVec S16 32) a x).toNat < S1000x128.size a)
instance k0_chk187.dec : ∀ (v871 : IVec S16 32) (v872 : IVec S16 32), Decidable (k0_chk187 v871 v872) := fun v871 v872 => decidable_of_iff' _ (Iff.of_eq (k0_chk187.eq_1 v871 v872))
theorem k0_idx187_inb : ∀ (v871 : IVec S16 32) (v872 : IVec S16 32) (k0_hw187 : k0_chk187 v871 v872), ∀ a x, ((![v871, v872] : Fin 2 → IVec S16 32) a x).toNat < S1000x128.size a := fun v871 v872 k0_hw187 => k0_hw187

def k0_chk188 (v875 : IVec S16 32) (v876 : IVec S16 32) : Prop :=
  (∀ a x, ((![v875, v876] : Fin 2 → IVec S16 32) a x).toNat < S1000x128.size a)
instance k0_chk188.dec : ∀ (v875 : IVec S16 32) (v876 : IVec S16 32), Decidable (k0_chk188 v875 v876) := fun v875 v876 => decidable_of_iff' _ (Iff.of_eq (k0_chk188.eq_1 v875 v876))
theorem k0_idx188_inb : ∀ (v875 : IVec S16 32) (v876 : IVec S16 32) (k0_hw188 : k0_chk188 v875 v876), ∀ a x, ((![v875, v876] : Fin 2 → IVec S16 32) a x).toNat < S1000x128.size a := fun v875 v876 k0_hw188 => k0_hw188

def k0_chk189 (v879 : IVec S16 32) (v880 : IVec S16 32) : Prop :=
  (∀ a x, ((![v879, v880] : Fin 2 → IVec S16 32) a x).toNat < S1000x128.size a)
instance k0_chk189.dec : ∀ (v879 : IVec S16 32) (v880 : IVec S16 32), Decidable (k0_chk189 v879 v880) := fun v879 v880 => decidable_of_iff' _ (Iff.of_eq (k0_chk189.eq_1 v879 v880))
theorem k0_idx189_inb : ∀ (v879 : IVec S16 32) (v880 : IVec S16 32) (k0_hw189 : k0_chk189 v879 v880), ∀ a x, ((![v879, v880] : Fin 2 → IVec S16 32) a x).toNat < S1000x128.size a := fun v879 v880 k0_hw189 => k0_hw189

def k0_chk190 (v883 : IVec S16 32) (v884 : IVec S16 32) : Prop :=
  (∀ a x, ((![v883, v884] : Fin 2 → IVec S16 32) a x).toNat < S1000x128.size a)
instance k0_chk190.dec : ∀ (v883 : IVec S16 32) (v884 : IVec S16 32), Decidable (k0_chk190 v883 v884) := fun v883 v884 => decidable_of_iff' _ (Iff.of_eq (k0_chk190.eq_1 v883 v884))
theorem k0_idx190_inb : ∀ (v883 : IVec S16 32) (v884 : IVec S16 32) (k0_hw190 : k0_chk190 v883 v884), ∀ a x, ((![v883, v884] : Fin 2 → IVec S16 32) a x).toNat < S1000x128.size a := fun v883 v884 k0_hw190 => k0_hw190

def k0_chk191 (v887 : IVec S16 32) (v888 : IVec S16 32) : Prop :=
  (∀ a x, ((![v887, v888] : Fin 2 → IVec S16 32) a x).toNat < S1000x128.size a)
instance k0_chk191.dec : ∀ (v887 : IVec S16 32) (v888 : IVec S16 32), Decidable (k0_chk191 v887 v888) := fun v887 v888 => decidable_of_iff' _ (Iff.of_eq (k0_chk191.eq_1 v887 v888))
theorem k0_idx191_inb : ∀ (v887 : IVec S16 32) (v888 : IVec S16 32) (k0_hw191 : k0_chk191 v887 v888), ∀ a x, ((![v887, v888] : Fin 2 → IVec S16 32) a x).toNat < S1000x128.size a := fun v887 v888 k0_hw191 => k0_hw191

def k0_chk192 (v891 : IVec S16 32) (v892 : IVec S16 32) : Prop :=
  (∀ a x, ((![v891, v892] : Fin 2 → IVec S16 32) a x).toNat < S1000x128.size a)
instance k0_chk192.dec : ∀ (v891 : IVec S16 32) (v892 : IVec S16 32), Decidable (k0_chk192 v891 v892) := fun v891 v892 => decidable_of_iff' _ (Iff.of_eq (k0_chk192.eq_1 v891 v892))
theorem k0_idx192_inb : ∀ (v891 : IVec S16 32) (v892 : IVec S16 32) (k0_hw192 : k0_chk192 v891 v892), ∀ a x, ((![v891, v892] : Fin 2 → IVec S16 32) a x).toNat < S1000x128.size a := fun v891 v892 k0_hw192 => k0_hw192
def k0_off33 (i : grid0.Coords) : Fin 1 → Nat :=
  let c128_i32_673 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_671 : BitVec 32 := 26#32
  let v895 : BitVec 32 := Scalar.muli v6 c26_i32_671
  let c12_i32 : BitVec 32 := 12#32
  let v896 : BitVec 32 := Scalar.addi v895 c12_i32
  let c128_i32_672 : BitVec 32 := 128#32
  let v897 : BitVec 32 := Scalar.muli v896 c128_i32_672
  let v898 : BitVec 32 := Scalar.addi c128_i32_673 v897
  ![v898.toNat]

def k0_chk193 (v899 : IVec S16 32) (v900 : IVec S16 32) : Prop :=
  (∀ a x, ((![v899, v900] : Fin 2 → IVec S16 32) a x).toNat < S1000x128.size a)
instance k0_chk193.dec : ∀ (v899 : IVec S16 32) (v900 : IVec S16 32), Decidable (k0_chk193 v899 v900) := fun v899 v900 => decidable_of_iff' _ (Iff.of_eq (k0_chk193.eq_1 v899 v900))
theorem k0_idx193_inb : ∀ (v899 : IVec S16 32) (v900 : IVec S16 32) (k0_hw193 : k0_chk193 v899 v900), ∀ a x, ((![v899, v900] : Fin 2 → IVec S16 32) a x).toNat < S1000x128.size a := fun v899 v900 k0_hw193 => k0_hw193

def k0_chk194 (v903 : IVec S16 32) (v904 : IVec S16 32) : Prop :=
  (∀ a x, ((![v903, v904] : Fin 2 → IVec S16 32) a x).toNat < S1000x128.size a)
instance k0_chk194.dec : ∀ (v903 : IVec S16 32) (v904 : IVec S16 32), Decidable (k0_chk194 v903 v904) := fun v903 v904 => decidable_of_iff' _ (Iff.of_eq (k0_chk194.eq_1 v903 v904))
theorem k0_idx194_inb : ∀ (v903 : IVec S16 32) (v904 : IVec S16 32) (k0_hw194 : k0_chk194 v903 v904), ∀ a x, ((![v903, v904] : Fin 2 → IVec S16 32) a x).toNat < S1000x128.size a := fun v903 v904 k0_hw194 => k0_hw194

def k0_chk195 (v907 : IVec S16 32) (v908 : IVec S16 32) : Prop :=
  (∀ a x, ((![v907, v908] : Fin 2 → IVec S16 32) a x).toNat < S1000x128.size a)
instance k0_chk195.dec : ∀ (v907 : IVec S16 32) (v908 : IVec S16 32), Decidable (k0_chk195 v907 v908) := fun v907 v908 => decidable_of_iff' _ (Iff.of_eq (k0_chk195.eq_1 v907 v908))
theorem k0_idx195_inb : ∀ (v907 : IVec S16 32) (v908 : IVec S16 32) (k0_hw195 : k0_chk195 v907 v908), ∀ a x, ((![v907, v908] : Fin 2 → IVec S16 32) a x).toNat < S1000x128.size a := fun v907 v908 k0_hw195 => k0_hw195

def k0_chk196 (v911 : IVec S16 32) (v912 : IVec S16 32) : Prop :=
  (∀ a x, ((![v911, v912] : Fin 2 → IVec S16 32) a x).toNat < S1000x128.size a)
instance k0_chk196.dec : ∀ (v911 : IVec S16 32) (v912 : IVec S16 32), Decidable (k0_chk196 v911 v912) := fun v911 v912 => decidable_of_iff' _ (Iff.of_eq (k0_chk196.eq_1 v911 v912))
theorem k0_idx196_inb : ∀ (v911 : IVec S16 32) (v912 : IVec S16 32) (k0_hw196 : k0_chk196 v911 v912), ∀ a x, ((![v911, v912] : Fin 2 → IVec S16 32) a x).toNat < S1000x128.size a := fun v911 v912 k0_hw196 => k0_hw196

def k0_chk197 (v915 : IVec S16 32) (v916 : IVec S16 32) : Prop :=
  (∀ a x, ((![v915, v916] : Fin 2 → IVec S16 32) a x).toNat < S1000x128.size a)
instance k0_chk197.dec : ∀ (v915 : IVec S16 32) (v916 : IVec S16 32), Decidable (k0_chk197 v915 v916) := fun v915 v916 => decidable_of_iff' _ (Iff.of_eq (k0_chk197.eq_1 v915 v916))
theorem k0_idx197_inb : ∀ (v915 : IVec S16 32) (v916 : IVec S16 32) (k0_hw197 : k0_chk197 v915 v916), ∀ a x, ((![v915, v916] : Fin 2 → IVec S16 32) a x).toNat < S1000x128.size a := fun v915 v916 k0_hw197 => k0_hw197

def k0_chk198 (v919 : IVec S16 32) (v920 : IVec S16 32) : Prop :=
  (∀ a x, ((![v919, v920] : Fin 2 → IVec S16 32) a x).toNat < S1000x128.size a)
instance k0_chk198.dec : ∀ (v919 : IVec S16 32) (v920 : IVec S16 32), Decidable (k0_chk198 v919 v920) := fun v919 v920 => decidable_of_iff' _ (Iff.of_eq (k0_chk198.eq_1 v919 v920))
theorem k0_idx198_inb : ∀ (v919 : IVec S16 32) (v920 : IVec S16 32) (k0_hw198 : k0_chk198 v919 v920), ∀ a x, ((![v919, v920] : Fin 2 → IVec S16 32) a x).toNat < S1000x128.size a := fun v919 v920 k0_hw198 => k0_hw198

def k0_chk199 (v923 : IVec S16 32) (v924 : IVec S16 32) : Prop :=
  (∀ a x, ((![v923, v924] : Fin 2 → IVec S16 32) a x).toNat < S1000x128.size a)
instance k0_chk199.dec : ∀ (v923 : IVec S16 32) (v924 : IVec S16 32), Decidable (k0_chk199 v923 v924) := fun v923 v924 => decidable_of_iff' _ (Iff.of_eq (k0_chk199.eq_1 v923 v924))
theorem k0_idx199_inb : ∀ (v923 : IVec S16 32) (v924 : IVec S16 32) (k0_hw199 : k0_chk199 v923 v924), ∀ a x, ((![v923, v924] : Fin 2 → IVec S16 32) a x).toNat < S1000x128.size a := fun v923 v924 k0_hw199 => k0_hw199

def k0_chk200 (v927 : IVec S16 32) (v928 : IVec S16 32) : Prop :=
  (∀ a x, ((![v927, v928] : Fin 2 → IVec S16 32) a x).toNat < S1000x128.size a)
instance k0_chk200.dec : ∀ (v927 : IVec S16 32) (v928 : IVec S16 32), Decidable (k0_chk200 v927 v928) := fun v927 v928 => decidable_of_iff' _ (Iff.of_eq (k0_chk200.eq_1 v927 v928))
theorem k0_idx200_inb : ∀ (v927 : IVec S16 32) (v928 : IVec S16 32) (k0_hw200 : k0_chk200 v927 v928), ∀ a x, ((![v927, v928] : Fin 2 → IVec S16 32) a x).toNat < S1000x128.size a := fun v927 v928 k0_hw200 => k0_hw200
def k0_off34 (i : grid0.Coords) : Fin 2 → Nat :=
  let c12000_i32 : BitVec 32 := 12000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_698 : BitVec 32 := 128#32
  let v931 : BitVec 32 := Scalar.muli v6 c128_i32_698
  ![12000, v931.toNat]

def k0_chk201 (v937 : IVec S16 32) (v938 : IVec S16 32) : Prop :=
  (∀ a x, ((![v937, v938] : Fin 2 → IVec S16 32) a x).toNat < S1000x128.size a)
instance k0_chk201.dec : ∀ (v937 : IVec S16 32) (v938 : IVec S16 32), Decidable (k0_chk201 v937 v938) := fun v937 v938 => decidable_of_iff' _ (Iff.of_eq (k0_chk201.eq_1 v937 v938))
theorem k0_idx201_inb : ∀ (v937 : IVec S16 32) (v938 : IVec S16 32) (k0_hw201 : k0_chk201 v937 v938), ∀ a x, ((![v937, v938] : Fin 2 → IVec S16 32) a x).toNat < S1000x128.size a := fun v937 v938 k0_hw201 => k0_hw201

def k0_chk202 (v941 : IVec S16 32) (v942 : IVec S16 32) : Prop :=
  (∀ a x, ((![v941, v942] : Fin 2 → IVec S16 32) a x).toNat < S1000x128.size a)
instance k0_chk202.dec : ∀ (v941 : IVec S16 32) (v942 : IVec S16 32), Decidable (k0_chk202 v941 v942) := fun v941 v942 => decidable_of_iff' _ (Iff.of_eq (k0_chk202.eq_1 v941 v942))
theorem k0_idx202_inb : ∀ (v941 : IVec S16 32) (v942 : IVec S16 32) (k0_hw202 : k0_chk202 v941 v942), ∀ a x, ((![v941, v942] : Fin 2 → IVec S16 32) a x).toNat < S1000x128.size a := fun v941 v942 k0_hw202 => k0_hw202

def k0_chk203 (v945 : IVec S16 32) (v946 : IVec S16 32) : Prop :=
  (∀ a x, ((![v945, v946] : Fin 2 → IVec S16 32) a x).toNat < S1000x128.size a)
instance k0_chk203.dec : ∀ (v945 : IVec S16 32) (v946 : IVec S16 32), Decidable (k0_chk203 v945 v946) := fun v945 v946 => decidable_of_iff' _ (Iff.of_eq (k0_chk203.eq_1 v945 v946))
theorem k0_idx203_inb : ∀ (v945 : IVec S16 32) (v946 : IVec S16 32) (k0_hw203 : k0_chk203 v945 v946), ∀ a x, ((![v945, v946] : Fin 2 → IVec S16 32) a x).toNat < S1000x128.size a := fun v945 v946 k0_hw203 => k0_hw203

def k0_chk204 (v949 : IVec S16 32) (v950 : IVec S16 32) : Prop :=
  (∀ a x, ((![v949, v950] : Fin 2 → IVec S16 32) a x).toNat < S1000x128.size a)
instance k0_chk204.dec : ∀ (v949 : IVec S16 32) (v950 : IVec S16 32), Decidable (k0_chk204 v949 v950) := fun v949 v950 => decidable_of_iff' _ (Iff.of_eq (k0_chk204.eq_1 v949 v950))
theorem k0_idx204_inb : ∀ (v949 : IVec S16 32) (v950 : IVec S16 32) (k0_hw204 : k0_chk204 v949 v950), ∀ a x, ((![v949, v950] : Fin 2 → IVec S16 32) a x).toNat < S1000x128.size a := fun v949 v950 k0_hw204 => k0_hw204

def k0_chk205 (v953 : IVec S16 32) (v954 : IVec S16 32) : Prop :=
  (∀ a x, ((![v953, v954] : Fin 2 → IVec S16 32) a x).toNat < S1000x128.size a)
instance k0_chk205.dec : ∀ (v953 : IVec S16 32) (v954 : IVec S16 32), Decidable (k0_chk205 v953 v954) := fun v953 v954 => decidable_of_iff' _ (Iff.of_eq (k0_chk205.eq_1 v953 v954))
theorem k0_idx205_inb : ∀ (v953 : IVec S16 32) (v954 : IVec S16 32) (k0_hw205 : k0_chk205 v953 v954), ∀ a x, ((![v953, v954] : Fin 2 → IVec S16 32) a x).toNat < S1000x128.size a := fun v953 v954 k0_hw205 => k0_hw205

def k0_chk206 (v957 : IVec S16 32) (v958 : IVec S16 32) : Prop :=
  (∀ a x, ((![v957, v958] : Fin 2 → IVec S16 32) a x).toNat < S1000x128.size a)
instance k0_chk206.dec : ∀ (v957 : IVec S16 32) (v958 : IVec S16 32), Decidable (k0_chk206 v957 v958) := fun v957 v958 => decidable_of_iff' _ (Iff.of_eq (k0_chk206.eq_1 v957 v958))
theorem k0_idx206_inb : ∀ (v957 : IVec S16 32) (v958 : IVec S16 32) (k0_hw206 : k0_chk206 v957 v958), ∀ a x, ((![v957, v958] : Fin 2 → IVec S16 32) a x).toNat < S1000x128.size a := fun v957 v958 k0_hw206 => k0_hw206

def k0_chk207 (v961 : IVec S16 32) (v962 : IVec S16 32) : Prop :=
  (∀ a x, ((![v961, v962] : Fin 2 → IVec S16 32) a x).toNat < S1000x128.size a)
instance k0_chk207.dec : ∀ (v961 : IVec S16 32) (v962 : IVec S16 32), Decidable (k0_chk207 v961 v962) := fun v961 v962 => decidable_of_iff' _ (Iff.of_eq (k0_chk207.eq_1 v961 v962))
theorem k0_idx207_inb : ∀ (v961 : IVec S16 32) (v962 : IVec S16 32) (k0_hw207 : k0_chk207 v961 v962), ∀ a x, ((![v961, v962] : Fin 2 → IVec S16 32) a x).toNat < S1000x128.size a := fun v961 v962 k0_hw207 => k0_hw207

def k0_chk208 (v965 : IVec S16 32) (v966 : IVec S16 32) : Prop :=
  (∀ a x, ((![v965, v966] : Fin 2 → IVec S16 32) a x).toNat < S1000x128.size a)
instance k0_chk208.dec : ∀ (v965 : IVec S16 32) (v966 : IVec S16 32), Decidable (k0_chk208 v965 v966) := fun v965 v966 => decidable_of_iff' _ (Iff.of_eq (k0_chk208.eq_1 v965 v966))
theorem k0_idx208_inb : ∀ (v965 : IVec S16 32) (v966 : IVec S16 32) (k0_hw208 : k0_chk208 v965 v966), ∀ a x, ((![v965, v966] : Fin 2 → IVec S16 32) a x).toNat < S1000x128.size a := fun v965 v966 k0_hw208 => k0_hw208
def k0_off35 (i : grid0.Coords) : Fin 1 → Nat :=
  let c128_i32_729 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_727 : BitVec 32 := 26#32
  let v969 : BitVec 32 := Scalar.muli v6 c26_i32_727
  let c13_i32 : BitVec 32 := 13#32
  let v970 : BitVec 32 := Scalar.addi v969 c13_i32
  let c128_i32_728 : BitVec 32 := 128#32
  let v971 : BitVec 32 := Scalar.muli v970 c128_i32_728
  let v972 : BitVec 32 := Scalar.addi c128_i32_729 v971
  ![v972.toNat]

def k0_chk209 (v973 : IVec S16 32) (v974 : IVec S16 32) : Prop :=
  (∀ a x, ((![v973, v974] : Fin 2 → IVec S16 32) a x).toNat < S1000x128.size a)
instance k0_chk209.dec : ∀ (v973 : IVec S16 32) (v974 : IVec S16 32), Decidable (k0_chk209 v973 v974) := fun v973 v974 => decidable_of_iff' _ (Iff.of_eq (k0_chk209.eq_1 v973 v974))
theorem k0_idx209_inb : ∀ (v973 : IVec S16 32) (v974 : IVec S16 32) (k0_hw209 : k0_chk209 v973 v974), ∀ a x, ((![v973, v974] : Fin 2 → IVec S16 32) a x).toNat < S1000x128.size a := fun v973 v974 k0_hw209 => k0_hw209

def k0_chk210 (v977 : IVec S16 32) (v978 : IVec S16 32) : Prop :=
  (∀ a x, ((![v977, v978] : Fin 2 → IVec S16 32) a x).toNat < S1000x128.size a)
instance k0_chk210.dec : ∀ (v977 : IVec S16 32) (v978 : IVec S16 32), Decidable (k0_chk210 v977 v978) := fun v977 v978 => decidable_of_iff' _ (Iff.of_eq (k0_chk210.eq_1 v977 v978))
theorem k0_idx210_inb : ∀ (v977 : IVec S16 32) (v978 : IVec S16 32) (k0_hw210 : k0_chk210 v977 v978), ∀ a x, ((![v977, v978] : Fin 2 → IVec S16 32) a x).toNat < S1000x128.size a := fun v977 v978 k0_hw210 => k0_hw210

def k0_chk211 (v981 : IVec S16 32) (v982 : IVec S16 32) : Prop :=
  (∀ a x, ((![v981, v982] : Fin 2 → IVec S16 32) a x).toNat < S1000x128.size a)
instance k0_chk211.dec : ∀ (v981 : IVec S16 32) (v982 : IVec S16 32), Decidable (k0_chk211 v981 v982) := fun v981 v982 => decidable_of_iff' _ (Iff.of_eq (k0_chk211.eq_1 v981 v982))
theorem k0_idx211_inb : ∀ (v981 : IVec S16 32) (v982 : IVec S16 32) (k0_hw211 : k0_chk211 v981 v982), ∀ a x, ((![v981, v982] : Fin 2 → IVec S16 32) a x).toNat < S1000x128.size a := fun v981 v982 k0_hw211 => k0_hw211

def k0_chk212 (v985 : IVec S16 32) (v986 : IVec S16 32) : Prop :=
  (∀ a x, ((![v985, v986] : Fin 2 → IVec S16 32) a x).toNat < S1000x128.size a)
instance k0_chk212.dec : ∀ (v985 : IVec S16 32) (v986 : IVec S16 32), Decidable (k0_chk212 v985 v986) := fun v985 v986 => decidable_of_iff' _ (Iff.of_eq (k0_chk212.eq_1 v985 v986))
theorem k0_idx212_inb : ∀ (v985 : IVec S16 32) (v986 : IVec S16 32) (k0_hw212 : k0_chk212 v985 v986), ∀ a x, ((![v985, v986] : Fin 2 → IVec S16 32) a x).toNat < S1000x128.size a := fun v985 v986 k0_hw212 => k0_hw212

def k0_chk213 (v989 : IVec S16 32) (v990 : IVec S16 32) : Prop :=
  (∀ a x, ((![v989, v990] : Fin 2 → IVec S16 32) a x).toNat < S1000x128.size a)
instance k0_chk213.dec : ∀ (v989 : IVec S16 32) (v990 : IVec S16 32), Decidable (k0_chk213 v989 v990) := fun v989 v990 => decidable_of_iff' _ (Iff.of_eq (k0_chk213.eq_1 v989 v990))
theorem k0_idx213_inb : ∀ (v989 : IVec S16 32) (v990 : IVec S16 32) (k0_hw213 : k0_chk213 v989 v990), ∀ a x, ((![v989, v990] : Fin 2 → IVec S16 32) a x).toNat < S1000x128.size a := fun v989 v990 k0_hw213 => k0_hw213

def k0_chk214 (v993 : IVec S16 32) (v994 : IVec S16 32) : Prop :=
  (∀ a x, ((![v993, v994] : Fin 2 → IVec S16 32) a x).toNat < S1000x128.size a)
instance k0_chk214.dec : ∀ (v993 : IVec S16 32) (v994 : IVec S16 32), Decidable (k0_chk214 v993 v994) := fun v993 v994 => decidable_of_iff' _ (Iff.of_eq (k0_chk214.eq_1 v993 v994))
theorem k0_idx214_inb : ∀ (v993 : IVec S16 32) (v994 : IVec S16 32) (k0_hw214 : k0_chk214 v993 v994), ∀ a x, ((![v993, v994] : Fin 2 → IVec S16 32) a x).toNat < S1000x128.size a := fun v993 v994 k0_hw214 => k0_hw214

def k0_chk215 (v997 : IVec S16 32) (v998 : IVec S16 32) : Prop :=
  (∀ a x, ((![v997, v998] : Fin 2 → IVec S16 32) a x).toNat < S1000x128.size a)
instance k0_chk215.dec : ∀ (v997 : IVec S16 32) (v998 : IVec S16 32), Decidable (k0_chk215 v997 v998) := fun v997 v998 => decidable_of_iff' _ (Iff.of_eq (k0_chk215.eq_1 v997 v998))
theorem k0_idx215_inb : ∀ (v997 : IVec S16 32) (v998 : IVec S16 32) (k0_hw215 : k0_chk215 v997 v998), ∀ a x, ((![v997, v998] : Fin 2 → IVec S16 32) a x).toNat < S1000x128.size a := fun v997 v998 k0_hw215 => k0_hw215

def k0_chk216 (v1001 : IVec S16 32) (v1002 : IVec S16 32) : Prop :=
  (∀ a x, ((![v1001, v1002] : Fin 2 → IVec S16 32) a x).toNat < S1000x128.size a)
instance k0_chk216.dec : ∀ (v1001 : IVec S16 32) (v1002 : IVec S16 32), Decidable (k0_chk216 v1001 v1002) := fun v1001 v1002 => decidable_of_iff' _ (Iff.of_eq (k0_chk216.eq_1 v1001 v1002))
theorem k0_idx216_inb : ∀ (v1001 : IVec S16 32) (v1002 : IVec S16 32) (k0_hw216 : k0_chk216 v1001 v1002), ∀ a x, ((![v1001, v1002] : Fin 2 → IVec S16 32) a x).toNat < S1000x128.size a := fun v1001 v1002 k0_hw216 => k0_hw216
def k0_off36 (i : grid0.Coords) : Fin 2 → Nat :=
  let c13000_i32 : BitVec 32 := 13000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_754 : BitVec 32 := 128#32
  let v1005 : BitVec 32 := Scalar.muli v6 c128_i32_754
  ![13000, v1005.toNat]

def k0_chk217 (v1011 : IVec S16 32) (v1012 : IVec S16 32) : Prop :=
  (∀ a x, ((![v1011, v1012] : Fin 2 → IVec S16 32) a x).toNat < S1000x128.size a)
instance k0_chk217.dec : ∀ (v1011 : IVec S16 32) (v1012 : IVec S16 32), Decidable (k0_chk217 v1011 v1012) := fun v1011 v1012 => decidable_of_iff' _ (Iff.of_eq (k0_chk217.eq_1 v1011 v1012))
theorem k0_idx217_inb : ∀ (v1011 : IVec S16 32) (v1012 : IVec S16 32) (k0_hw217 : k0_chk217 v1011 v1012), ∀ a x, ((![v1011, v1012] : Fin 2 → IVec S16 32) a x).toNat < S1000x128.size a := fun v1011 v1012 k0_hw217 => k0_hw217

def k0_chk218 (v1015 : IVec S16 32) (v1016 : IVec S16 32) : Prop :=
  (∀ a x, ((![v1015, v1016] : Fin 2 → IVec S16 32) a x).toNat < S1000x128.size a)
instance k0_chk218.dec : ∀ (v1015 : IVec S16 32) (v1016 : IVec S16 32), Decidable (k0_chk218 v1015 v1016) := fun v1015 v1016 => decidable_of_iff' _ (Iff.of_eq (k0_chk218.eq_1 v1015 v1016))
theorem k0_idx218_inb : ∀ (v1015 : IVec S16 32) (v1016 : IVec S16 32) (k0_hw218 : k0_chk218 v1015 v1016), ∀ a x, ((![v1015, v1016] : Fin 2 → IVec S16 32) a x).toNat < S1000x128.size a := fun v1015 v1016 k0_hw218 => k0_hw218

def k0_chk219 (v1019 : IVec S16 32) (v1020 : IVec S16 32) : Prop :=
  (∀ a x, ((![v1019, v1020] : Fin 2 → IVec S16 32) a x).toNat < S1000x128.size a)
instance k0_chk219.dec : ∀ (v1019 : IVec S16 32) (v1020 : IVec S16 32), Decidable (k0_chk219 v1019 v1020) := fun v1019 v1020 => decidable_of_iff' _ (Iff.of_eq (k0_chk219.eq_1 v1019 v1020))
theorem k0_idx219_inb : ∀ (v1019 : IVec S16 32) (v1020 : IVec S16 32) (k0_hw219 : k0_chk219 v1019 v1020), ∀ a x, ((![v1019, v1020] : Fin 2 → IVec S16 32) a x).toNat < S1000x128.size a := fun v1019 v1020 k0_hw219 => k0_hw219

def k0_chk220 (v1023 : IVec S16 32) (v1024 : IVec S16 32) : Prop :=
  (∀ a x, ((![v1023, v1024] : Fin 2 → IVec S16 32) a x).toNat < S1000x128.size a)
instance k0_chk220.dec : ∀ (v1023 : IVec S16 32) (v1024 : IVec S16 32), Decidable (k0_chk220 v1023 v1024) := fun v1023 v1024 => decidable_of_iff' _ (Iff.of_eq (k0_chk220.eq_1 v1023 v1024))
theorem k0_idx220_inb : ∀ (v1023 : IVec S16 32) (v1024 : IVec S16 32) (k0_hw220 : k0_chk220 v1023 v1024), ∀ a x, ((![v1023, v1024] : Fin 2 → IVec S16 32) a x).toNat < S1000x128.size a := fun v1023 v1024 k0_hw220 => k0_hw220

def k0_chk221 (v1027 : IVec S16 32) (v1028 : IVec S16 32) : Prop :=
  (∀ a x, ((![v1027, v1028] : Fin 2 → IVec S16 32) a x).toNat < S1000x128.size a)
instance k0_chk221.dec : ∀ (v1027 : IVec S16 32) (v1028 : IVec S16 32), Decidable (k0_chk221 v1027 v1028) := fun v1027 v1028 => decidable_of_iff' _ (Iff.of_eq (k0_chk221.eq_1 v1027 v1028))
theorem k0_idx221_inb : ∀ (v1027 : IVec S16 32) (v1028 : IVec S16 32) (k0_hw221 : k0_chk221 v1027 v1028), ∀ a x, ((![v1027, v1028] : Fin 2 → IVec S16 32) a x).toNat < S1000x128.size a := fun v1027 v1028 k0_hw221 => k0_hw221

def k0_chk222 (v1031 : IVec S16 32) (v1032 : IVec S16 32) : Prop :=
  (∀ a x, ((![v1031, v1032] : Fin 2 → IVec S16 32) a x).toNat < S1000x128.size a)
instance k0_chk222.dec : ∀ (v1031 : IVec S16 32) (v1032 : IVec S16 32), Decidable (k0_chk222 v1031 v1032) := fun v1031 v1032 => decidable_of_iff' _ (Iff.of_eq (k0_chk222.eq_1 v1031 v1032))
theorem k0_idx222_inb : ∀ (v1031 : IVec S16 32) (v1032 : IVec S16 32) (k0_hw222 : k0_chk222 v1031 v1032), ∀ a x, ((![v1031, v1032] : Fin 2 → IVec S16 32) a x).toNat < S1000x128.size a := fun v1031 v1032 k0_hw222 => k0_hw222

def k0_chk223 (v1035 : IVec S16 32) (v1036 : IVec S16 32) : Prop :=
  (∀ a x, ((![v1035, v1036] : Fin 2 → IVec S16 32) a x).toNat < S1000x128.size a)
instance k0_chk223.dec : ∀ (v1035 : IVec S16 32) (v1036 : IVec S16 32), Decidable (k0_chk223 v1035 v1036) := fun v1035 v1036 => decidable_of_iff' _ (Iff.of_eq (k0_chk223.eq_1 v1035 v1036))
theorem k0_idx223_inb : ∀ (v1035 : IVec S16 32) (v1036 : IVec S16 32) (k0_hw223 : k0_chk223 v1035 v1036), ∀ a x, ((![v1035, v1036] : Fin 2 → IVec S16 32) a x).toNat < S1000x128.size a := fun v1035 v1036 k0_hw223 => k0_hw223

def k0_chk224 (v1039 : IVec S16 32) (v1040 : IVec S16 32) : Prop :=
  (∀ a x, ((![v1039, v1040] : Fin 2 → IVec S16 32) a x).toNat < S1000x128.size a)
instance k0_chk224.dec : ∀ (v1039 : IVec S16 32) (v1040 : IVec S16 32), Decidable (k0_chk224 v1039 v1040) := fun v1039 v1040 => decidable_of_iff' _ (Iff.of_eq (k0_chk224.eq_1 v1039 v1040))
theorem k0_idx224_inb : ∀ (v1039 : IVec S16 32) (v1040 : IVec S16 32) (k0_hw224 : k0_chk224 v1039 v1040), ∀ a x, ((![v1039, v1040] : Fin 2 → IVec S16 32) a x).toNat < S1000x128.size a := fun v1039 v1040 k0_hw224 => k0_hw224
def k0_off37 (i : grid0.Coords) : Fin 1 → Nat :=
  let c128_i32_785 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_783 : BitVec 32 := 26#32
  let v1043 : BitVec 32 := Scalar.muli v6 c26_i32_783
  let c14_i32 : BitVec 32 := 14#32
  let v1044 : BitVec 32 := Scalar.addi v1043 c14_i32
  let c128_i32_784 : BitVec 32 := 128#32
  let v1045 : BitVec 32 := Scalar.muli v1044 c128_i32_784
  let v1046 : BitVec 32 := Scalar.addi c128_i32_785 v1045
  ![v1046.toNat]

def k0_chk225 (v1047 : IVec S16 32) (v1048 : IVec S16 32) : Prop :=
  (∀ a x, ((![v1047, v1048] : Fin 2 → IVec S16 32) a x).toNat < S1000x128.size a)
instance k0_chk225.dec : ∀ (v1047 : IVec S16 32) (v1048 : IVec S16 32), Decidable (k0_chk225 v1047 v1048) := fun v1047 v1048 => decidable_of_iff' _ (Iff.of_eq (k0_chk225.eq_1 v1047 v1048))
theorem k0_idx225_inb : ∀ (v1047 : IVec S16 32) (v1048 : IVec S16 32) (k0_hw225 : k0_chk225 v1047 v1048), ∀ a x, ((![v1047, v1048] : Fin 2 → IVec S16 32) a x).toNat < S1000x128.size a := fun v1047 v1048 k0_hw225 => k0_hw225

def k0_chk226 (v1051 : IVec S16 32) (v1052 : IVec S16 32) : Prop :=
  (∀ a x, ((![v1051, v1052] : Fin 2 → IVec S16 32) a x).toNat < S1000x128.size a)
instance k0_chk226.dec : ∀ (v1051 : IVec S16 32) (v1052 : IVec S16 32), Decidable (k0_chk226 v1051 v1052) := fun v1051 v1052 => decidable_of_iff' _ (Iff.of_eq (k0_chk226.eq_1 v1051 v1052))
theorem k0_idx226_inb : ∀ (v1051 : IVec S16 32) (v1052 : IVec S16 32) (k0_hw226 : k0_chk226 v1051 v1052), ∀ a x, ((![v1051, v1052] : Fin 2 → IVec S16 32) a x).toNat < S1000x128.size a := fun v1051 v1052 k0_hw226 => k0_hw226

def k0_chk227 (v1055 : IVec S16 32) (v1056 : IVec S16 32) : Prop :=
  (∀ a x, ((![v1055, v1056] : Fin 2 → IVec S16 32) a x).toNat < S1000x128.size a)
instance k0_chk227.dec : ∀ (v1055 : IVec S16 32) (v1056 : IVec S16 32), Decidable (k0_chk227 v1055 v1056) := fun v1055 v1056 => decidable_of_iff' _ (Iff.of_eq (k0_chk227.eq_1 v1055 v1056))
theorem k0_idx227_inb : ∀ (v1055 : IVec S16 32) (v1056 : IVec S16 32) (k0_hw227 : k0_chk227 v1055 v1056), ∀ a x, ((![v1055, v1056] : Fin 2 → IVec S16 32) a x).toNat < S1000x128.size a := fun v1055 v1056 k0_hw227 => k0_hw227

def k0_chk228 (v1059 : IVec S16 32) (v1060 : IVec S16 32) : Prop :=
  (∀ a x, ((![v1059, v1060] : Fin 2 → IVec S16 32) a x).toNat < S1000x128.size a)
instance k0_chk228.dec : ∀ (v1059 : IVec S16 32) (v1060 : IVec S16 32), Decidable (k0_chk228 v1059 v1060) := fun v1059 v1060 => decidable_of_iff' _ (Iff.of_eq (k0_chk228.eq_1 v1059 v1060))
theorem k0_idx228_inb : ∀ (v1059 : IVec S16 32) (v1060 : IVec S16 32) (k0_hw228 : k0_chk228 v1059 v1060), ∀ a x, ((![v1059, v1060] : Fin 2 → IVec S16 32) a x).toNat < S1000x128.size a := fun v1059 v1060 k0_hw228 => k0_hw228

def k0_chk229 (v1063 : IVec S16 32) (v1064 : IVec S16 32) : Prop :=
  (∀ a x, ((![v1063, v1064] : Fin 2 → IVec S16 32) a x).toNat < S1000x128.size a)
instance k0_chk229.dec : ∀ (v1063 : IVec S16 32) (v1064 : IVec S16 32), Decidable (k0_chk229 v1063 v1064) := fun v1063 v1064 => decidable_of_iff' _ (Iff.of_eq (k0_chk229.eq_1 v1063 v1064))
theorem k0_idx229_inb : ∀ (v1063 : IVec S16 32) (v1064 : IVec S16 32) (k0_hw229 : k0_chk229 v1063 v1064), ∀ a x, ((![v1063, v1064] : Fin 2 → IVec S16 32) a x).toNat < S1000x128.size a := fun v1063 v1064 k0_hw229 => k0_hw229

def k0_chk230 (v1067 : IVec S16 32) (v1068 : IVec S16 32) : Prop :=
  (∀ a x, ((![v1067, v1068] : Fin 2 → IVec S16 32) a x).toNat < S1000x128.size a)
instance k0_chk230.dec : ∀ (v1067 : IVec S16 32) (v1068 : IVec S16 32), Decidable (k0_chk230 v1067 v1068) := fun v1067 v1068 => decidable_of_iff' _ (Iff.of_eq (k0_chk230.eq_1 v1067 v1068))
theorem k0_idx230_inb : ∀ (v1067 : IVec S16 32) (v1068 : IVec S16 32) (k0_hw230 : k0_chk230 v1067 v1068), ∀ a x, ((![v1067, v1068] : Fin 2 → IVec S16 32) a x).toNat < S1000x128.size a := fun v1067 v1068 k0_hw230 => k0_hw230

def k0_chk231 (v1071 : IVec S16 32) (v1072 : IVec S16 32) : Prop :=
  (∀ a x, ((![v1071, v1072] : Fin 2 → IVec S16 32) a x).toNat < S1000x128.size a)
instance k0_chk231.dec : ∀ (v1071 : IVec S16 32) (v1072 : IVec S16 32), Decidable (k0_chk231 v1071 v1072) := fun v1071 v1072 => decidable_of_iff' _ (Iff.of_eq (k0_chk231.eq_1 v1071 v1072))
theorem k0_idx231_inb : ∀ (v1071 : IVec S16 32) (v1072 : IVec S16 32) (k0_hw231 : k0_chk231 v1071 v1072), ∀ a x, ((![v1071, v1072] : Fin 2 → IVec S16 32) a x).toNat < S1000x128.size a := fun v1071 v1072 k0_hw231 => k0_hw231

def k0_chk232 (v1075 : IVec S16 32) (v1076 : IVec S16 32) : Prop :=
  (∀ a x, ((![v1075, v1076] : Fin 2 → IVec S16 32) a x).toNat < S1000x128.size a)
instance k0_chk232.dec : ∀ (v1075 : IVec S16 32) (v1076 : IVec S16 32), Decidable (k0_chk232 v1075 v1076) := fun v1075 v1076 => decidable_of_iff' _ (Iff.of_eq (k0_chk232.eq_1 v1075 v1076))
theorem k0_idx232_inb : ∀ (v1075 : IVec S16 32) (v1076 : IVec S16 32) (k0_hw232 : k0_chk232 v1075 v1076), ∀ a x, ((![v1075, v1076] : Fin 2 → IVec S16 32) a x).toNat < S1000x128.size a := fun v1075 v1076 k0_hw232 => k0_hw232
def k0_off38 (i : grid0.Coords) : Fin 2 → Nat :=
  let c14000_i32 : BitVec 32 := 14000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_810 : BitVec 32 := 128#32
  let v1079 : BitVec 32 := Scalar.muli v6 c128_i32_810
  ![14000, v1079.toNat]

def k0_chk233 (v1085 : IVec S16 32) (v1086 : IVec S16 32) : Prop :=
  (∀ a x, ((![v1085, v1086] : Fin 2 → IVec S16 32) a x).toNat < S1000x128.size a)
instance k0_chk233.dec : ∀ (v1085 : IVec S16 32) (v1086 : IVec S16 32), Decidable (k0_chk233 v1085 v1086) := fun v1085 v1086 => decidable_of_iff' _ (Iff.of_eq (k0_chk233.eq_1 v1085 v1086))
theorem k0_idx233_inb : ∀ (v1085 : IVec S16 32) (v1086 : IVec S16 32) (k0_hw233 : k0_chk233 v1085 v1086), ∀ a x, ((![v1085, v1086] : Fin 2 → IVec S16 32) a x).toNat < S1000x128.size a := fun v1085 v1086 k0_hw233 => k0_hw233

def k0_chk234 (v1089 : IVec S16 32) (v1090 : IVec S16 32) : Prop :=
  (∀ a x, ((![v1089, v1090] : Fin 2 → IVec S16 32) a x).toNat < S1000x128.size a)
instance k0_chk234.dec : ∀ (v1089 : IVec S16 32) (v1090 : IVec S16 32), Decidable (k0_chk234 v1089 v1090) := fun v1089 v1090 => decidable_of_iff' _ (Iff.of_eq (k0_chk234.eq_1 v1089 v1090))
theorem k0_idx234_inb : ∀ (v1089 : IVec S16 32) (v1090 : IVec S16 32) (k0_hw234 : k0_chk234 v1089 v1090), ∀ a x, ((![v1089, v1090] : Fin 2 → IVec S16 32) a x).toNat < S1000x128.size a := fun v1089 v1090 k0_hw234 => k0_hw234

def k0_chk235 (v1093 : IVec S16 32) (v1094 : IVec S16 32) : Prop :=
  (∀ a x, ((![v1093, v1094] : Fin 2 → IVec S16 32) a x).toNat < S1000x128.size a)
instance k0_chk235.dec : ∀ (v1093 : IVec S16 32) (v1094 : IVec S16 32), Decidable (k0_chk235 v1093 v1094) := fun v1093 v1094 => decidable_of_iff' _ (Iff.of_eq (k0_chk235.eq_1 v1093 v1094))
theorem k0_idx235_inb : ∀ (v1093 : IVec S16 32) (v1094 : IVec S16 32) (k0_hw235 : k0_chk235 v1093 v1094), ∀ a x, ((![v1093, v1094] : Fin 2 → IVec S16 32) a x).toNat < S1000x128.size a := fun v1093 v1094 k0_hw235 => k0_hw235

def k0_chk236 (v1097 : IVec S16 32) (v1098 : IVec S16 32) : Prop :=
  (∀ a x, ((![v1097, v1098] : Fin 2 → IVec S16 32) a x).toNat < S1000x128.size a)
instance k0_chk236.dec : ∀ (v1097 : IVec S16 32) (v1098 : IVec S16 32), Decidable (k0_chk236 v1097 v1098) := fun v1097 v1098 => decidable_of_iff' _ (Iff.of_eq (k0_chk236.eq_1 v1097 v1098))
theorem k0_idx236_inb : ∀ (v1097 : IVec S16 32) (v1098 : IVec S16 32) (k0_hw236 : k0_chk236 v1097 v1098), ∀ a x, ((![v1097, v1098] : Fin 2 → IVec S16 32) a x).toNat < S1000x128.size a := fun v1097 v1098 k0_hw236 => k0_hw236

def k0_chk237 (v1101 : IVec S16 32) (v1102 : IVec S16 32) : Prop :=
  (∀ a x, ((![v1101, v1102] : Fin 2 → IVec S16 32) a x).toNat < S1000x128.size a)
instance k0_chk237.dec : ∀ (v1101 : IVec S16 32) (v1102 : IVec S16 32), Decidable (k0_chk237 v1101 v1102) := fun v1101 v1102 => decidable_of_iff' _ (Iff.of_eq (k0_chk237.eq_1 v1101 v1102))
theorem k0_idx237_inb : ∀ (v1101 : IVec S16 32) (v1102 : IVec S16 32) (k0_hw237 : k0_chk237 v1101 v1102), ∀ a x, ((![v1101, v1102] : Fin 2 → IVec S16 32) a x).toNat < S1000x128.size a := fun v1101 v1102 k0_hw237 => k0_hw237

def k0_chk238 (v1105 : IVec S16 32) (v1106 : IVec S16 32) : Prop :=
  (∀ a x, ((![v1105, v1106] : Fin 2 → IVec S16 32) a x).toNat < S1000x128.size a)
instance k0_chk238.dec : ∀ (v1105 : IVec S16 32) (v1106 : IVec S16 32), Decidable (k0_chk238 v1105 v1106) := fun v1105 v1106 => decidable_of_iff' _ (Iff.of_eq (k0_chk238.eq_1 v1105 v1106))
theorem k0_idx238_inb : ∀ (v1105 : IVec S16 32) (v1106 : IVec S16 32) (k0_hw238 : k0_chk238 v1105 v1106), ∀ a x, ((![v1105, v1106] : Fin 2 → IVec S16 32) a x).toNat < S1000x128.size a := fun v1105 v1106 k0_hw238 => k0_hw238

def k0_chk239 (v1109 : IVec S16 32) (v1110 : IVec S16 32) : Prop :=
  (∀ a x, ((![v1109, v1110] : Fin 2 → IVec S16 32) a x).toNat < S1000x128.size a)
instance k0_chk239.dec : ∀ (v1109 : IVec S16 32) (v1110 : IVec S16 32), Decidable (k0_chk239 v1109 v1110) := fun v1109 v1110 => decidable_of_iff' _ (Iff.of_eq (k0_chk239.eq_1 v1109 v1110))
theorem k0_idx239_inb : ∀ (v1109 : IVec S16 32) (v1110 : IVec S16 32) (k0_hw239 : k0_chk239 v1109 v1110), ∀ a x, ((![v1109, v1110] : Fin 2 → IVec S16 32) a x).toNat < S1000x128.size a := fun v1109 v1110 k0_hw239 => k0_hw239

def k0_chk240 (v1113 : IVec S16 32) (v1114 : IVec S16 32) : Prop :=
  (∀ a x, ((![v1113, v1114] : Fin 2 → IVec S16 32) a x).toNat < S1000x128.size a)
instance k0_chk240.dec : ∀ (v1113 : IVec S16 32) (v1114 : IVec S16 32), Decidable (k0_chk240 v1113 v1114) := fun v1113 v1114 => decidable_of_iff' _ (Iff.of_eq (k0_chk240.eq_1 v1113 v1114))
theorem k0_idx240_inb : ∀ (v1113 : IVec S16 32) (v1114 : IVec S16 32) (k0_hw240 : k0_chk240 v1113 v1114), ∀ a x, ((![v1113, v1114] : Fin 2 → IVec S16 32) a x).toNat < S1000x128.size a := fun v1113 v1114 k0_hw240 => k0_hw240
def k0_off39 (i : grid0.Coords) : Fin 1 → Nat :=
  let c128_i32_841 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_839 : BitVec 32 := 26#32
  let v1117 : BitVec 32 := Scalar.muli v6 c26_i32_839
  let c15_i32 : BitVec 32 := 15#32
  let v1118 : BitVec 32 := Scalar.addi v1117 c15_i32
  let c128_i32_840 : BitVec 32 := 128#32
  let v1119 : BitVec 32 := Scalar.muli v1118 c128_i32_840
  let v1120 : BitVec 32 := Scalar.addi c128_i32_841 v1119
  ![v1120.toNat]

def k0_chk241 (v1121 : IVec S16 32) (v1122 : IVec S16 32) : Prop :=
  (∀ a x, ((![v1121, v1122] : Fin 2 → IVec S16 32) a x).toNat < S1000x128.size a)
instance k0_chk241.dec : ∀ (v1121 : IVec S16 32) (v1122 : IVec S16 32), Decidable (k0_chk241 v1121 v1122) := fun v1121 v1122 => decidable_of_iff' _ (Iff.of_eq (k0_chk241.eq_1 v1121 v1122))
theorem k0_idx241_inb : ∀ (v1121 : IVec S16 32) (v1122 : IVec S16 32) (k0_hw241 : k0_chk241 v1121 v1122), ∀ a x, ((![v1121, v1122] : Fin 2 → IVec S16 32) a x).toNat < S1000x128.size a := fun v1121 v1122 k0_hw241 => k0_hw241

def k0_chk242 (v1125 : IVec S16 32) (v1126 : IVec S16 32) : Prop :=
  (∀ a x, ((![v1125, v1126] : Fin 2 → IVec S16 32) a x).toNat < S1000x128.size a)
instance k0_chk242.dec : ∀ (v1125 : IVec S16 32) (v1126 : IVec S16 32), Decidable (k0_chk242 v1125 v1126) := fun v1125 v1126 => decidable_of_iff' _ (Iff.of_eq (k0_chk242.eq_1 v1125 v1126))
theorem k0_idx242_inb : ∀ (v1125 : IVec S16 32) (v1126 : IVec S16 32) (k0_hw242 : k0_chk242 v1125 v1126), ∀ a x, ((![v1125, v1126] : Fin 2 → IVec S16 32) a x).toNat < S1000x128.size a := fun v1125 v1126 k0_hw242 => k0_hw242

def k0_chk243 (v1129 : IVec S16 32) (v1130 : IVec S16 32) : Prop :=
  (∀ a x, ((![v1129, v1130] : Fin 2 → IVec S16 32) a x).toNat < S1000x128.size a)
instance k0_chk243.dec : ∀ (v1129 : IVec S16 32) (v1130 : IVec S16 32), Decidable (k0_chk243 v1129 v1130) := fun v1129 v1130 => decidable_of_iff' _ (Iff.of_eq (k0_chk243.eq_1 v1129 v1130))
theorem k0_idx243_inb : ∀ (v1129 : IVec S16 32) (v1130 : IVec S16 32) (k0_hw243 : k0_chk243 v1129 v1130), ∀ a x, ((![v1129, v1130] : Fin 2 → IVec S16 32) a x).toNat < S1000x128.size a := fun v1129 v1130 k0_hw243 => k0_hw243

def k0_chk244 (v1133 : IVec S16 32) (v1134 : IVec S16 32) : Prop :=
  (∀ a x, ((![v1133, v1134] : Fin 2 → IVec S16 32) a x).toNat < S1000x128.size a)
instance k0_chk244.dec : ∀ (v1133 : IVec S16 32) (v1134 : IVec S16 32), Decidable (k0_chk244 v1133 v1134) := fun v1133 v1134 => decidable_of_iff' _ (Iff.of_eq (k0_chk244.eq_1 v1133 v1134))
theorem k0_idx244_inb : ∀ (v1133 : IVec S16 32) (v1134 : IVec S16 32) (k0_hw244 : k0_chk244 v1133 v1134), ∀ a x, ((![v1133, v1134] : Fin 2 → IVec S16 32) a x).toNat < S1000x128.size a := fun v1133 v1134 k0_hw244 => k0_hw244

def k0_chk245 (v1137 : IVec S16 32) (v1138 : IVec S16 32) : Prop :=
  (∀ a x, ((![v1137, v1138] : Fin 2 → IVec S16 32) a x).toNat < S1000x128.size a)
instance k0_chk245.dec : ∀ (v1137 : IVec S16 32) (v1138 : IVec S16 32), Decidable (k0_chk245 v1137 v1138) := fun v1137 v1138 => decidable_of_iff' _ (Iff.of_eq (k0_chk245.eq_1 v1137 v1138))
theorem k0_idx245_inb : ∀ (v1137 : IVec S16 32) (v1138 : IVec S16 32) (k0_hw245 : k0_chk245 v1137 v1138), ∀ a x, ((![v1137, v1138] : Fin 2 → IVec S16 32) a x).toNat < S1000x128.size a := fun v1137 v1138 k0_hw245 => k0_hw245

def k0_chk246 (v1141 : IVec S16 32) (v1142 : IVec S16 32) : Prop :=
  (∀ a x, ((![v1141, v1142] : Fin 2 → IVec S16 32) a x).toNat < S1000x128.size a)
instance k0_chk246.dec : ∀ (v1141 : IVec S16 32) (v1142 : IVec S16 32), Decidable (k0_chk246 v1141 v1142) := fun v1141 v1142 => decidable_of_iff' _ (Iff.of_eq (k0_chk246.eq_1 v1141 v1142))
theorem k0_idx246_inb : ∀ (v1141 : IVec S16 32) (v1142 : IVec S16 32) (k0_hw246 : k0_chk246 v1141 v1142), ∀ a x, ((![v1141, v1142] : Fin 2 → IVec S16 32) a x).toNat < S1000x128.size a := fun v1141 v1142 k0_hw246 => k0_hw246

def k0_chk247 (v1145 : IVec S16 32) (v1146 : IVec S16 32) : Prop :=
  (∀ a x, ((![v1145, v1146] : Fin 2 → IVec S16 32) a x).toNat < S1000x128.size a)
instance k0_chk247.dec : ∀ (v1145 : IVec S16 32) (v1146 : IVec S16 32), Decidable (k0_chk247 v1145 v1146) := fun v1145 v1146 => decidable_of_iff' _ (Iff.of_eq (k0_chk247.eq_1 v1145 v1146))
theorem k0_idx247_inb : ∀ (v1145 : IVec S16 32) (v1146 : IVec S16 32) (k0_hw247 : k0_chk247 v1145 v1146), ∀ a x, ((![v1145, v1146] : Fin 2 → IVec S16 32) a x).toNat < S1000x128.size a := fun v1145 v1146 k0_hw247 => k0_hw247

def k0_chk248 (v1149 : IVec S16 32) (v1150 : IVec S16 32) : Prop :=
  (∀ a x, ((![v1149, v1150] : Fin 2 → IVec S16 32) a x).toNat < S1000x128.size a)
instance k0_chk248.dec : ∀ (v1149 : IVec S16 32) (v1150 : IVec S16 32), Decidable (k0_chk248 v1149 v1150) := fun v1149 v1150 => decidable_of_iff' _ (Iff.of_eq (k0_chk248.eq_1 v1149 v1150))
theorem k0_idx248_inb : ∀ (v1149 : IVec S16 32) (v1150 : IVec S16 32) (k0_hw248 : k0_chk248 v1149 v1150), ∀ a x, ((![v1149, v1150] : Fin 2 → IVec S16 32) a x).toNat < S1000x128.size a := fun v1149 v1150 k0_hw248 => k0_hw248
def k0_off40 (i : grid0.Coords) : Fin 2 → Nat :=
  let c15000_i32 : BitVec 32 := 15000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_866 : BitVec 32 := 128#32
  let v1153 : BitVec 32 := Scalar.muli v6 c128_i32_866
  ![15000, v1153.toNat]

def k0_chk249 (v1159 : IVec S16 32) (v1160 : IVec S16 32) : Prop :=
  (∀ a x, ((![v1159, v1160] : Fin 2 → IVec S16 32) a x).toNat < S1000x128.size a)
instance k0_chk249.dec : ∀ (v1159 : IVec S16 32) (v1160 : IVec S16 32), Decidable (k0_chk249 v1159 v1160) := fun v1159 v1160 => decidable_of_iff' _ (Iff.of_eq (k0_chk249.eq_1 v1159 v1160))
theorem k0_idx249_inb : ∀ (v1159 : IVec S16 32) (v1160 : IVec S16 32) (k0_hw249 : k0_chk249 v1159 v1160), ∀ a x, ((![v1159, v1160] : Fin 2 → IVec S16 32) a x).toNat < S1000x128.size a := fun v1159 v1160 k0_hw249 => k0_hw249

def k0_chk250 (v1163 : IVec S16 32) (v1164 : IVec S16 32) : Prop :=
  (∀ a x, ((![v1163, v1164] : Fin 2 → IVec S16 32) a x).toNat < S1000x128.size a)
instance k0_chk250.dec : ∀ (v1163 : IVec S16 32) (v1164 : IVec S16 32), Decidable (k0_chk250 v1163 v1164) := fun v1163 v1164 => decidable_of_iff' _ (Iff.of_eq (k0_chk250.eq_1 v1163 v1164))
theorem k0_idx250_inb : ∀ (v1163 : IVec S16 32) (v1164 : IVec S16 32) (k0_hw250 : k0_chk250 v1163 v1164), ∀ a x, ((![v1163, v1164] : Fin 2 → IVec S16 32) a x).toNat < S1000x128.size a := fun v1163 v1164 k0_hw250 => k0_hw250

def k0_chk251 (v1167 : IVec S16 32) (v1168 : IVec S16 32) : Prop :=
  (∀ a x, ((![v1167, v1168] : Fin 2 → IVec S16 32) a x).toNat < S1000x128.size a)
instance k0_chk251.dec : ∀ (v1167 : IVec S16 32) (v1168 : IVec S16 32), Decidable (k0_chk251 v1167 v1168) := fun v1167 v1168 => decidable_of_iff' _ (Iff.of_eq (k0_chk251.eq_1 v1167 v1168))
theorem k0_idx251_inb : ∀ (v1167 : IVec S16 32) (v1168 : IVec S16 32) (k0_hw251 : k0_chk251 v1167 v1168), ∀ a x, ((![v1167, v1168] : Fin 2 → IVec S16 32) a x).toNat < S1000x128.size a := fun v1167 v1168 k0_hw251 => k0_hw251

def k0_chk252 (v1171 : IVec S16 32) (v1172 : IVec S16 32) : Prop :=
  (∀ a x, ((![v1171, v1172] : Fin 2 → IVec S16 32) a x).toNat < S1000x128.size a)
instance k0_chk252.dec : ∀ (v1171 : IVec S16 32) (v1172 : IVec S16 32), Decidable (k0_chk252 v1171 v1172) := fun v1171 v1172 => decidable_of_iff' _ (Iff.of_eq (k0_chk252.eq_1 v1171 v1172))
theorem k0_idx252_inb : ∀ (v1171 : IVec S16 32) (v1172 : IVec S16 32) (k0_hw252 : k0_chk252 v1171 v1172), ∀ a x, ((![v1171, v1172] : Fin 2 → IVec S16 32) a x).toNat < S1000x128.size a := fun v1171 v1172 k0_hw252 => k0_hw252

def k0_chk253 (v1175 : IVec S16 32) (v1176 : IVec S16 32) : Prop :=
  (∀ a x, ((![v1175, v1176] : Fin 2 → IVec S16 32) a x).toNat < S1000x128.size a)
instance k0_chk253.dec : ∀ (v1175 : IVec S16 32) (v1176 : IVec S16 32), Decidable (k0_chk253 v1175 v1176) := fun v1175 v1176 => decidable_of_iff' _ (Iff.of_eq (k0_chk253.eq_1 v1175 v1176))
theorem k0_idx253_inb : ∀ (v1175 : IVec S16 32) (v1176 : IVec S16 32) (k0_hw253 : k0_chk253 v1175 v1176), ∀ a x, ((![v1175, v1176] : Fin 2 → IVec S16 32) a x).toNat < S1000x128.size a := fun v1175 v1176 k0_hw253 => k0_hw253

def k0_chk254 (v1179 : IVec S16 32) (v1180 : IVec S16 32) : Prop :=
  (∀ a x, ((![v1179, v1180] : Fin 2 → IVec S16 32) a x).toNat < S1000x128.size a)
instance k0_chk254.dec : ∀ (v1179 : IVec S16 32) (v1180 : IVec S16 32), Decidable (k0_chk254 v1179 v1180) := fun v1179 v1180 => decidable_of_iff' _ (Iff.of_eq (k0_chk254.eq_1 v1179 v1180))
theorem k0_idx254_inb : ∀ (v1179 : IVec S16 32) (v1180 : IVec S16 32) (k0_hw254 : k0_chk254 v1179 v1180), ∀ a x, ((![v1179, v1180] : Fin 2 → IVec S16 32) a x).toNat < S1000x128.size a := fun v1179 v1180 k0_hw254 => k0_hw254

def k0_chk255 (v1183 : IVec S16 32) (v1184 : IVec S16 32) : Prop :=
  (∀ a x, ((![v1183, v1184] : Fin 2 → IVec S16 32) a x).toNat < S1000x128.size a)
instance k0_chk255.dec : ∀ (v1183 : IVec S16 32) (v1184 : IVec S16 32), Decidable (k0_chk255 v1183 v1184) := fun v1183 v1184 => decidable_of_iff' _ (Iff.of_eq (k0_chk255.eq_1 v1183 v1184))
theorem k0_idx255_inb : ∀ (v1183 : IVec S16 32) (v1184 : IVec S16 32) (k0_hw255 : k0_chk255 v1183 v1184), ∀ a x, ((![v1183, v1184] : Fin 2 → IVec S16 32) a x).toNat < S1000x128.size a := fun v1183 v1184 k0_hw255 => k0_hw255

def k0_chk256 (v1187 : IVec S16 32) (v1188 : IVec S16 32) : Prop :=
  (∀ a x, ((![v1187, v1188] : Fin 2 → IVec S16 32) a x).toNat < S1000x128.size a)
instance k0_chk256.dec : ∀ (v1187 : IVec S16 32) (v1188 : IVec S16 32), Decidable (k0_chk256 v1187 v1188) := fun v1187 v1188 => decidable_of_iff' _ (Iff.of_eq (k0_chk256.eq_1 v1187 v1188))
theorem k0_idx256_inb : ∀ (v1187 : IVec S16 32) (v1188 : IVec S16 32) (k0_hw256 : k0_chk256 v1187 v1188), ∀ a x, ((![v1187, v1188] : Fin 2 → IVec S16 32) a x).toNat < S1000x128.size a := fun v1187 v1188 k0_hw256 => k0_hw256
def k0_off41 (i : grid0.Coords) : Fin 1 → Nat :=
  let c128_i32_897 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_895 : BitVec 32 := 26#32
  let v1191 : BitVec 32 := Scalar.muli v6 c26_i32_895
  let c16_i32 : BitVec 32 := 16#32
  let v1192 : BitVec 32 := Scalar.addi v1191 c16_i32
  let c128_i32_896 : BitVec 32 := 128#32
  let v1193 : BitVec 32 := Scalar.muli v1192 c128_i32_896
  let v1194 : BitVec 32 := Scalar.addi c128_i32_897 v1193
  ![v1194.toNat]

def k0_chk257 (v1195 : IVec S16 32) (v1196 : IVec S16 32) : Prop :=
  (∀ a x, ((![v1195, v1196] : Fin 2 → IVec S16 32) a x).toNat < S1000x128.size a)
instance k0_chk257.dec : ∀ (v1195 : IVec S16 32) (v1196 : IVec S16 32), Decidable (k0_chk257 v1195 v1196) := fun v1195 v1196 => decidable_of_iff' _ (Iff.of_eq (k0_chk257.eq_1 v1195 v1196))
theorem k0_idx257_inb : ∀ (v1195 : IVec S16 32) (v1196 : IVec S16 32) (k0_hw257 : k0_chk257 v1195 v1196), ∀ a x, ((![v1195, v1196] : Fin 2 → IVec S16 32) a x).toNat < S1000x128.size a := fun v1195 v1196 k0_hw257 => k0_hw257

def k0_chk258 (v1199 : IVec S16 32) (v1200 : IVec S16 32) : Prop :=
  (∀ a x, ((![v1199, v1200] : Fin 2 → IVec S16 32) a x).toNat < S1000x128.size a)
instance k0_chk258.dec : ∀ (v1199 : IVec S16 32) (v1200 : IVec S16 32), Decidable (k0_chk258 v1199 v1200) := fun v1199 v1200 => decidable_of_iff' _ (Iff.of_eq (k0_chk258.eq_1 v1199 v1200))
theorem k0_idx258_inb : ∀ (v1199 : IVec S16 32) (v1200 : IVec S16 32) (k0_hw258 : k0_chk258 v1199 v1200), ∀ a x, ((![v1199, v1200] : Fin 2 → IVec S16 32) a x).toNat < S1000x128.size a := fun v1199 v1200 k0_hw258 => k0_hw258

def k0_chk259 (v1203 : IVec S16 32) (v1204 : IVec S16 32) : Prop :=
  (∀ a x, ((![v1203, v1204] : Fin 2 → IVec S16 32) a x).toNat < S1000x128.size a)
instance k0_chk259.dec : ∀ (v1203 : IVec S16 32) (v1204 : IVec S16 32), Decidable (k0_chk259 v1203 v1204) := fun v1203 v1204 => decidable_of_iff' _ (Iff.of_eq (k0_chk259.eq_1 v1203 v1204))
theorem k0_idx259_inb : ∀ (v1203 : IVec S16 32) (v1204 : IVec S16 32) (k0_hw259 : k0_chk259 v1203 v1204), ∀ a x, ((![v1203, v1204] : Fin 2 → IVec S16 32) a x).toNat < S1000x128.size a := fun v1203 v1204 k0_hw259 => k0_hw259

def k0_chk260 (v1207 : IVec S16 32) (v1208 : IVec S16 32) : Prop :=
  (∀ a x, ((![v1207, v1208] : Fin 2 → IVec S16 32) a x).toNat < S1000x128.size a)
instance k0_chk260.dec : ∀ (v1207 : IVec S16 32) (v1208 : IVec S16 32), Decidable (k0_chk260 v1207 v1208) := fun v1207 v1208 => decidable_of_iff' _ (Iff.of_eq (k0_chk260.eq_1 v1207 v1208))
theorem k0_idx260_inb : ∀ (v1207 : IVec S16 32) (v1208 : IVec S16 32) (k0_hw260 : k0_chk260 v1207 v1208), ∀ a x, ((![v1207, v1208] : Fin 2 → IVec S16 32) a x).toNat < S1000x128.size a := fun v1207 v1208 k0_hw260 => k0_hw260

def k0_chk261 (v1211 : IVec S16 32) (v1212 : IVec S16 32) : Prop :=
  (∀ a x, ((![v1211, v1212] : Fin 2 → IVec S16 32) a x).toNat < S1000x128.size a)
instance k0_chk261.dec : ∀ (v1211 : IVec S16 32) (v1212 : IVec S16 32), Decidable (k0_chk261 v1211 v1212) := fun v1211 v1212 => decidable_of_iff' _ (Iff.of_eq (k0_chk261.eq_1 v1211 v1212))
theorem k0_idx261_inb : ∀ (v1211 : IVec S16 32) (v1212 : IVec S16 32) (k0_hw261 : k0_chk261 v1211 v1212), ∀ a x, ((![v1211, v1212] : Fin 2 → IVec S16 32) a x).toNat < S1000x128.size a := fun v1211 v1212 k0_hw261 => k0_hw261

def k0_chk262 (v1215 : IVec S16 32) (v1216 : IVec S16 32) : Prop :=
  (∀ a x, ((![v1215, v1216] : Fin 2 → IVec S16 32) a x).toNat < S1000x128.size a)
instance k0_chk262.dec : ∀ (v1215 : IVec S16 32) (v1216 : IVec S16 32), Decidable (k0_chk262 v1215 v1216) := fun v1215 v1216 => decidable_of_iff' _ (Iff.of_eq (k0_chk262.eq_1 v1215 v1216))
theorem k0_idx262_inb : ∀ (v1215 : IVec S16 32) (v1216 : IVec S16 32) (k0_hw262 : k0_chk262 v1215 v1216), ∀ a x, ((![v1215, v1216] : Fin 2 → IVec S16 32) a x).toNat < S1000x128.size a := fun v1215 v1216 k0_hw262 => k0_hw262

def k0_chk263 (v1219 : IVec S16 32) (v1220 : IVec S16 32) : Prop :=
  (∀ a x, ((![v1219, v1220] : Fin 2 → IVec S16 32) a x).toNat < S1000x128.size a)
instance k0_chk263.dec : ∀ (v1219 : IVec S16 32) (v1220 : IVec S16 32), Decidable (k0_chk263 v1219 v1220) := fun v1219 v1220 => decidable_of_iff' _ (Iff.of_eq (k0_chk263.eq_1 v1219 v1220))
theorem k0_idx263_inb : ∀ (v1219 : IVec S16 32) (v1220 : IVec S16 32) (k0_hw263 : k0_chk263 v1219 v1220), ∀ a x, ((![v1219, v1220] : Fin 2 → IVec S16 32) a x).toNat < S1000x128.size a := fun v1219 v1220 k0_hw263 => k0_hw263

def k0_chk264 (v1223 : IVec S16 32) (v1224 : IVec S16 32) : Prop :=
  (∀ a x, ((![v1223, v1224] : Fin 2 → IVec S16 32) a x).toNat < S1000x128.size a)
instance k0_chk264.dec : ∀ (v1223 : IVec S16 32) (v1224 : IVec S16 32), Decidable (k0_chk264 v1223 v1224) := fun v1223 v1224 => decidable_of_iff' _ (Iff.of_eq (k0_chk264.eq_1 v1223 v1224))
theorem k0_idx264_inb : ∀ (v1223 : IVec S16 32) (v1224 : IVec S16 32) (k0_hw264 : k0_chk264 v1223 v1224), ∀ a x, ((![v1223, v1224] : Fin 2 → IVec S16 32) a x).toNat < S1000x128.size a := fun v1223 v1224 k0_hw264 => k0_hw264
def k0_off42 (i : grid0.Coords) : Fin 2 → Nat :=
  let c16000_i32 : BitVec 32 := 16000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_922 : BitVec 32 := 128#32
  let v1227 : BitVec 32 := Scalar.muli v6 c128_i32_922
  ![16000, v1227.toNat]

def k0_chk265 (v1233 : IVec S16 32) (v1234 : IVec S16 32) : Prop :=
  (∀ a x, ((![v1233, v1234] : Fin 2 → IVec S16 32) a x).toNat < S1000x128.size a)
instance k0_chk265.dec : ∀ (v1233 : IVec S16 32) (v1234 : IVec S16 32), Decidable (k0_chk265 v1233 v1234) := fun v1233 v1234 => decidable_of_iff' _ (Iff.of_eq (k0_chk265.eq_1 v1233 v1234))
theorem k0_idx265_inb : ∀ (v1233 : IVec S16 32) (v1234 : IVec S16 32) (k0_hw265 : k0_chk265 v1233 v1234), ∀ a x, ((![v1233, v1234] : Fin 2 → IVec S16 32) a x).toNat < S1000x128.size a := fun v1233 v1234 k0_hw265 => k0_hw265

def k0_chk266 (v1237 : IVec S16 32) (v1238 : IVec S16 32) : Prop :=
  (∀ a x, ((![v1237, v1238] : Fin 2 → IVec S16 32) a x).toNat < S1000x128.size a)
instance k0_chk266.dec : ∀ (v1237 : IVec S16 32) (v1238 : IVec S16 32), Decidable (k0_chk266 v1237 v1238) := fun v1237 v1238 => decidable_of_iff' _ (Iff.of_eq (k0_chk266.eq_1 v1237 v1238))
theorem k0_idx266_inb : ∀ (v1237 : IVec S16 32) (v1238 : IVec S16 32) (k0_hw266 : k0_chk266 v1237 v1238), ∀ a x, ((![v1237, v1238] : Fin 2 → IVec S16 32) a x).toNat < S1000x128.size a := fun v1237 v1238 k0_hw266 => k0_hw266

def k0_chk267 (v1241 : IVec S16 32) (v1242 : IVec S16 32) : Prop :=
  (∀ a x, ((![v1241, v1242] : Fin 2 → IVec S16 32) a x).toNat < S1000x128.size a)
instance k0_chk267.dec : ∀ (v1241 : IVec S16 32) (v1242 : IVec S16 32), Decidable (k0_chk267 v1241 v1242) := fun v1241 v1242 => decidable_of_iff' _ (Iff.of_eq (k0_chk267.eq_1 v1241 v1242))
theorem k0_idx267_inb : ∀ (v1241 : IVec S16 32) (v1242 : IVec S16 32) (k0_hw267 : k0_chk267 v1241 v1242), ∀ a x, ((![v1241, v1242] : Fin 2 → IVec S16 32) a x).toNat < S1000x128.size a := fun v1241 v1242 k0_hw267 => k0_hw267

def k0_chk268 (v1245 : IVec S16 32) (v1246 : IVec S16 32) : Prop :=
  (∀ a x, ((![v1245, v1246] : Fin 2 → IVec S16 32) a x).toNat < S1000x128.size a)
instance k0_chk268.dec : ∀ (v1245 : IVec S16 32) (v1246 : IVec S16 32), Decidable (k0_chk268 v1245 v1246) := fun v1245 v1246 => decidable_of_iff' _ (Iff.of_eq (k0_chk268.eq_1 v1245 v1246))
theorem k0_idx268_inb : ∀ (v1245 : IVec S16 32) (v1246 : IVec S16 32) (k0_hw268 : k0_chk268 v1245 v1246), ∀ a x, ((![v1245, v1246] : Fin 2 → IVec S16 32) a x).toNat < S1000x128.size a := fun v1245 v1246 k0_hw268 => k0_hw268

def k0_chk269 (v1249 : IVec S16 32) (v1250 : IVec S16 32) : Prop :=
  (∀ a x, ((![v1249, v1250] : Fin 2 → IVec S16 32) a x).toNat < S1000x128.size a)
instance k0_chk269.dec : ∀ (v1249 : IVec S16 32) (v1250 : IVec S16 32), Decidable (k0_chk269 v1249 v1250) := fun v1249 v1250 => decidable_of_iff' _ (Iff.of_eq (k0_chk269.eq_1 v1249 v1250))
theorem k0_idx269_inb : ∀ (v1249 : IVec S16 32) (v1250 : IVec S16 32) (k0_hw269 : k0_chk269 v1249 v1250), ∀ a x, ((![v1249, v1250] : Fin 2 → IVec S16 32) a x).toNat < S1000x128.size a := fun v1249 v1250 k0_hw269 => k0_hw269

def k0_chk270 (v1253 : IVec S16 32) (v1254 : IVec S16 32) : Prop :=
  (∀ a x, ((![v1253, v1254] : Fin 2 → IVec S16 32) a x).toNat < S1000x128.size a)
instance k0_chk270.dec : ∀ (v1253 : IVec S16 32) (v1254 : IVec S16 32), Decidable (k0_chk270 v1253 v1254) := fun v1253 v1254 => decidable_of_iff' _ (Iff.of_eq (k0_chk270.eq_1 v1253 v1254))
theorem k0_idx270_inb : ∀ (v1253 : IVec S16 32) (v1254 : IVec S16 32) (k0_hw270 : k0_chk270 v1253 v1254), ∀ a x, ((![v1253, v1254] : Fin 2 → IVec S16 32) a x).toNat < S1000x128.size a := fun v1253 v1254 k0_hw270 => k0_hw270

def k0_chk271 (v1257 : IVec S16 32) (v1258 : IVec S16 32) : Prop :=
  (∀ a x, ((![v1257, v1258] : Fin 2 → IVec S16 32) a x).toNat < S1000x128.size a)
instance k0_chk271.dec : ∀ (v1257 : IVec S16 32) (v1258 : IVec S16 32), Decidable (k0_chk271 v1257 v1258) := fun v1257 v1258 => decidable_of_iff' _ (Iff.of_eq (k0_chk271.eq_1 v1257 v1258))
theorem k0_idx271_inb : ∀ (v1257 : IVec S16 32) (v1258 : IVec S16 32) (k0_hw271 : k0_chk271 v1257 v1258), ∀ a x, ((![v1257, v1258] : Fin 2 → IVec S16 32) a x).toNat < S1000x128.size a := fun v1257 v1258 k0_hw271 => k0_hw271

def k0_chk272 (v1261 : IVec S16 32) (v1262 : IVec S16 32) : Prop :=
  (∀ a x, ((![v1261, v1262] : Fin 2 → IVec S16 32) a x).toNat < S1000x128.size a)
instance k0_chk272.dec : ∀ (v1261 : IVec S16 32) (v1262 : IVec S16 32), Decidable (k0_chk272 v1261 v1262) := fun v1261 v1262 => decidable_of_iff' _ (Iff.of_eq (k0_chk272.eq_1 v1261 v1262))
theorem k0_idx272_inb : ∀ (v1261 : IVec S16 32) (v1262 : IVec S16 32) (k0_hw272 : k0_chk272 v1261 v1262), ∀ a x, ((![v1261, v1262] : Fin 2 → IVec S16 32) a x).toNat < S1000x128.size a := fun v1261 v1262 k0_hw272 => k0_hw272
def k0_off43 (i : grid0.Coords) : Fin 1 → Nat :=
  let c128_i32_953 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_951 : BitVec 32 := 26#32
  let v1265 : BitVec 32 := Scalar.muli v6 c26_i32_951
  let c17_i32 : BitVec 32 := 17#32
  let v1266 : BitVec 32 := Scalar.addi v1265 c17_i32
  let c128_i32_952 : BitVec 32 := 128#32
  let v1267 : BitVec 32 := Scalar.muli v1266 c128_i32_952
  let v1268 : BitVec 32 := Scalar.addi c128_i32_953 v1267
  ![v1268.toNat]

def k0_chk273 (v1269 : IVec S16 32) (v1270 : IVec S16 32) : Prop :=
  (∀ a x, ((![v1269, v1270] : Fin 2 → IVec S16 32) a x).toNat < S1000x128.size a)
instance k0_chk273.dec : ∀ (v1269 : IVec S16 32) (v1270 : IVec S16 32), Decidable (k0_chk273 v1269 v1270) := fun v1269 v1270 => decidable_of_iff' _ (Iff.of_eq (k0_chk273.eq_1 v1269 v1270))
theorem k0_idx273_inb : ∀ (v1269 : IVec S16 32) (v1270 : IVec S16 32) (k0_hw273 : k0_chk273 v1269 v1270), ∀ a x, ((![v1269, v1270] : Fin 2 → IVec S16 32) a x).toNat < S1000x128.size a := fun v1269 v1270 k0_hw273 => k0_hw273

def k0_chk274 (v1273 : IVec S16 32) (v1274 : IVec S16 32) : Prop :=
  (∀ a x, ((![v1273, v1274] : Fin 2 → IVec S16 32) a x).toNat < S1000x128.size a)
instance k0_chk274.dec : ∀ (v1273 : IVec S16 32) (v1274 : IVec S16 32), Decidable (k0_chk274 v1273 v1274) := fun v1273 v1274 => decidable_of_iff' _ (Iff.of_eq (k0_chk274.eq_1 v1273 v1274))
theorem k0_idx274_inb : ∀ (v1273 : IVec S16 32) (v1274 : IVec S16 32) (k0_hw274 : k0_chk274 v1273 v1274), ∀ a x, ((![v1273, v1274] : Fin 2 → IVec S16 32) a x).toNat < S1000x128.size a := fun v1273 v1274 k0_hw274 => k0_hw274

def k0_chk275 (v1277 : IVec S16 32) (v1278 : IVec S16 32) : Prop :=
  (∀ a x, ((![v1277, v1278] : Fin 2 → IVec S16 32) a x).toNat < S1000x128.size a)
instance k0_chk275.dec : ∀ (v1277 : IVec S16 32) (v1278 : IVec S16 32), Decidable (k0_chk275 v1277 v1278) := fun v1277 v1278 => decidable_of_iff' _ (Iff.of_eq (k0_chk275.eq_1 v1277 v1278))
theorem k0_idx275_inb : ∀ (v1277 : IVec S16 32) (v1278 : IVec S16 32) (k0_hw275 : k0_chk275 v1277 v1278), ∀ a x, ((![v1277, v1278] : Fin 2 → IVec S16 32) a x).toNat < S1000x128.size a := fun v1277 v1278 k0_hw275 => k0_hw275

def k0_chk276 (v1281 : IVec S16 32) (v1282 : IVec S16 32) : Prop :=
  (∀ a x, ((![v1281, v1282] : Fin 2 → IVec S16 32) a x).toNat < S1000x128.size a)
instance k0_chk276.dec : ∀ (v1281 : IVec S16 32) (v1282 : IVec S16 32), Decidable (k0_chk276 v1281 v1282) := fun v1281 v1282 => decidable_of_iff' _ (Iff.of_eq (k0_chk276.eq_1 v1281 v1282))
theorem k0_idx276_inb : ∀ (v1281 : IVec S16 32) (v1282 : IVec S16 32) (k0_hw276 : k0_chk276 v1281 v1282), ∀ a x, ((![v1281, v1282] : Fin 2 → IVec S16 32) a x).toNat < S1000x128.size a := fun v1281 v1282 k0_hw276 => k0_hw276

def k0_chk277 (v1285 : IVec S16 32) (v1286 : IVec S16 32) : Prop :=
  (∀ a x, ((![v1285, v1286] : Fin 2 → IVec S16 32) a x).toNat < S1000x128.size a)
instance k0_chk277.dec : ∀ (v1285 : IVec S16 32) (v1286 : IVec S16 32), Decidable (k0_chk277 v1285 v1286) := fun v1285 v1286 => decidable_of_iff' _ (Iff.of_eq (k0_chk277.eq_1 v1285 v1286))
theorem k0_idx277_inb : ∀ (v1285 : IVec S16 32) (v1286 : IVec S16 32) (k0_hw277 : k0_chk277 v1285 v1286), ∀ a x, ((![v1285, v1286] : Fin 2 → IVec S16 32) a x).toNat < S1000x128.size a := fun v1285 v1286 k0_hw277 => k0_hw277

def k0_chk278 (v1289 : IVec S16 32) (v1290 : IVec S16 32) : Prop :=
  (∀ a x, ((![v1289, v1290] : Fin 2 → IVec S16 32) a x).toNat < S1000x128.size a)
instance k0_chk278.dec : ∀ (v1289 : IVec S16 32) (v1290 : IVec S16 32), Decidable (k0_chk278 v1289 v1290) := fun v1289 v1290 => decidable_of_iff' _ (Iff.of_eq (k0_chk278.eq_1 v1289 v1290))
theorem k0_idx278_inb : ∀ (v1289 : IVec S16 32) (v1290 : IVec S16 32) (k0_hw278 : k0_chk278 v1289 v1290), ∀ a x, ((![v1289, v1290] : Fin 2 → IVec S16 32) a x).toNat < S1000x128.size a := fun v1289 v1290 k0_hw278 => k0_hw278

def k0_chk279 (v1293 : IVec S16 32) (v1294 : IVec S16 32) : Prop :=
  (∀ a x, ((![v1293, v1294] : Fin 2 → IVec S16 32) a x).toNat < S1000x128.size a)
instance k0_chk279.dec : ∀ (v1293 : IVec S16 32) (v1294 : IVec S16 32), Decidable (k0_chk279 v1293 v1294) := fun v1293 v1294 => decidable_of_iff' _ (Iff.of_eq (k0_chk279.eq_1 v1293 v1294))
theorem k0_idx279_inb : ∀ (v1293 : IVec S16 32) (v1294 : IVec S16 32) (k0_hw279 : k0_chk279 v1293 v1294), ∀ a x, ((![v1293, v1294] : Fin 2 → IVec S16 32) a x).toNat < S1000x128.size a := fun v1293 v1294 k0_hw279 => k0_hw279

def k0_chk280 (v1297 : IVec S16 32) (v1298 : IVec S16 32) : Prop :=
  (∀ a x, ((![v1297, v1298] : Fin 2 → IVec S16 32) a x).toNat < S1000x128.size a)
instance k0_chk280.dec : ∀ (v1297 : IVec S16 32) (v1298 : IVec S16 32), Decidable (k0_chk280 v1297 v1298) := fun v1297 v1298 => decidable_of_iff' _ (Iff.of_eq (k0_chk280.eq_1 v1297 v1298))
theorem k0_idx280_inb : ∀ (v1297 : IVec S16 32) (v1298 : IVec S16 32) (k0_hw280 : k0_chk280 v1297 v1298), ∀ a x, ((![v1297, v1298] : Fin 2 → IVec S16 32) a x).toNat < S1000x128.size a := fun v1297 v1298 k0_hw280 => k0_hw280
def k0_off44 (i : grid0.Coords) : Fin 2 → Nat :=
  let c17000_i32 : BitVec 32 := 17000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_978 : BitVec 32 := 128#32
  let v1301 : BitVec 32 := Scalar.muli v6 c128_i32_978
  ![17000, v1301.toNat]

def k0_chk281 (v1307 : IVec S16 32) (v1308 : IVec S16 32) : Prop :=
  (∀ a x, ((![v1307, v1308] : Fin 2 → IVec S16 32) a x).toNat < S1000x128.size a)
instance k0_chk281.dec : ∀ (v1307 : IVec S16 32) (v1308 : IVec S16 32), Decidable (k0_chk281 v1307 v1308) := fun v1307 v1308 => decidable_of_iff' _ (Iff.of_eq (k0_chk281.eq_1 v1307 v1308))
theorem k0_idx281_inb : ∀ (v1307 : IVec S16 32) (v1308 : IVec S16 32) (k0_hw281 : k0_chk281 v1307 v1308), ∀ a x, ((![v1307, v1308] : Fin 2 → IVec S16 32) a x).toNat < S1000x128.size a := fun v1307 v1308 k0_hw281 => k0_hw281

def k0_chk282 (v1311 : IVec S16 32) (v1312 : IVec S16 32) : Prop :=
  (∀ a x, ((![v1311, v1312] : Fin 2 → IVec S16 32) a x).toNat < S1000x128.size a)
instance k0_chk282.dec : ∀ (v1311 : IVec S16 32) (v1312 : IVec S16 32), Decidable (k0_chk282 v1311 v1312) := fun v1311 v1312 => decidable_of_iff' _ (Iff.of_eq (k0_chk282.eq_1 v1311 v1312))
theorem k0_idx282_inb : ∀ (v1311 : IVec S16 32) (v1312 : IVec S16 32) (k0_hw282 : k0_chk282 v1311 v1312), ∀ a x, ((![v1311, v1312] : Fin 2 → IVec S16 32) a x).toNat < S1000x128.size a := fun v1311 v1312 k0_hw282 => k0_hw282

def k0_chk283 (v1315 : IVec S16 32) (v1316 : IVec S16 32) : Prop :=
  (∀ a x, ((![v1315, v1316] : Fin 2 → IVec S16 32) a x).toNat < S1000x128.size a)
instance k0_chk283.dec : ∀ (v1315 : IVec S16 32) (v1316 : IVec S16 32), Decidable (k0_chk283 v1315 v1316) := fun v1315 v1316 => decidable_of_iff' _ (Iff.of_eq (k0_chk283.eq_1 v1315 v1316))
theorem k0_idx283_inb : ∀ (v1315 : IVec S16 32) (v1316 : IVec S16 32) (k0_hw283 : k0_chk283 v1315 v1316), ∀ a x, ((![v1315, v1316] : Fin 2 → IVec S16 32) a x).toNat < S1000x128.size a := fun v1315 v1316 k0_hw283 => k0_hw283

def k0_chk284 (v1319 : IVec S16 32) (v1320 : IVec S16 32) : Prop :=
  (∀ a x, ((![v1319, v1320] : Fin 2 → IVec S16 32) a x).toNat < S1000x128.size a)
instance k0_chk284.dec : ∀ (v1319 : IVec S16 32) (v1320 : IVec S16 32), Decidable (k0_chk284 v1319 v1320) := fun v1319 v1320 => decidable_of_iff' _ (Iff.of_eq (k0_chk284.eq_1 v1319 v1320))
theorem k0_idx284_inb : ∀ (v1319 : IVec S16 32) (v1320 : IVec S16 32) (k0_hw284 : k0_chk284 v1319 v1320), ∀ a x, ((![v1319, v1320] : Fin 2 → IVec S16 32) a x).toNat < S1000x128.size a := fun v1319 v1320 k0_hw284 => k0_hw284

def k0_chk285 (v1323 : IVec S16 32) (v1324 : IVec S16 32) : Prop :=
  (∀ a x, ((![v1323, v1324] : Fin 2 → IVec S16 32) a x).toNat < S1000x128.size a)
instance k0_chk285.dec : ∀ (v1323 : IVec S16 32) (v1324 : IVec S16 32), Decidable (k0_chk285 v1323 v1324) := fun v1323 v1324 => decidable_of_iff' _ (Iff.of_eq (k0_chk285.eq_1 v1323 v1324))
theorem k0_idx285_inb : ∀ (v1323 : IVec S16 32) (v1324 : IVec S16 32) (k0_hw285 : k0_chk285 v1323 v1324), ∀ a x, ((![v1323, v1324] : Fin 2 → IVec S16 32) a x).toNat < S1000x128.size a := fun v1323 v1324 k0_hw285 => k0_hw285

def k0_chk286 (v1327 : IVec S16 32) (v1328 : IVec S16 32) : Prop :=
  (∀ a x, ((![v1327, v1328] : Fin 2 → IVec S16 32) a x).toNat < S1000x128.size a)
instance k0_chk286.dec : ∀ (v1327 : IVec S16 32) (v1328 : IVec S16 32), Decidable (k0_chk286 v1327 v1328) := fun v1327 v1328 => decidable_of_iff' _ (Iff.of_eq (k0_chk286.eq_1 v1327 v1328))
theorem k0_idx286_inb : ∀ (v1327 : IVec S16 32) (v1328 : IVec S16 32) (k0_hw286 : k0_chk286 v1327 v1328), ∀ a x, ((![v1327, v1328] : Fin 2 → IVec S16 32) a x).toNat < S1000x128.size a := fun v1327 v1328 k0_hw286 => k0_hw286

def k0_chk287 (v1331 : IVec S16 32) (v1332 : IVec S16 32) : Prop :=
  (∀ a x, ((![v1331, v1332] : Fin 2 → IVec S16 32) a x).toNat < S1000x128.size a)
instance k0_chk287.dec : ∀ (v1331 : IVec S16 32) (v1332 : IVec S16 32), Decidable (k0_chk287 v1331 v1332) := fun v1331 v1332 => decidable_of_iff' _ (Iff.of_eq (k0_chk287.eq_1 v1331 v1332))
theorem k0_idx287_inb : ∀ (v1331 : IVec S16 32) (v1332 : IVec S16 32) (k0_hw287 : k0_chk287 v1331 v1332), ∀ a x, ((![v1331, v1332] : Fin 2 → IVec S16 32) a x).toNat < S1000x128.size a := fun v1331 v1332 k0_hw287 => k0_hw287

def k0_chk288 (v1335 : IVec S16 32) (v1336 : IVec S16 32) : Prop :=
  (∀ a x, ((![v1335, v1336] : Fin 2 → IVec S16 32) a x).toNat < S1000x128.size a)
instance k0_chk288.dec : ∀ (v1335 : IVec S16 32) (v1336 : IVec S16 32), Decidable (k0_chk288 v1335 v1336) := fun v1335 v1336 => decidable_of_iff' _ (Iff.of_eq (k0_chk288.eq_1 v1335 v1336))
theorem k0_idx288_inb : ∀ (v1335 : IVec S16 32) (v1336 : IVec S16 32) (k0_hw288 : k0_chk288 v1335 v1336), ∀ a x, ((![v1335, v1336] : Fin 2 → IVec S16 32) a x).toNat < S1000x128.size a := fun v1335 v1336 k0_hw288 => k0_hw288
def k0_off45 (i : grid0.Coords) : Fin 1 → Nat :=
  let c128_i32_1009 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_1007 : BitVec 32 := 26#32
  let v1339 : BitVec 32 := Scalar.muli v6 c26_i32_1007
  let c18_i32 : BitVec 32 := 18#32
  let v1340 : BitVec 32 := Scalar.addi v1339 c18_i32
  let c128_i32_1008 : BitVec 32 := 128#32
  let v1341 : BitVec 32 := Scalar.muli v1340 c128_i32_1008
  let v1342 : BitVec 32 := Scalar.addi c128_i32_1009 v1341
  ![v1342.toNat]

def k0_chk289 (v1343 : IVec S16 32) (v1344 : IVec S16 32) : Prop :=
  (∀ a x, ((![v1343, v1344] : Fin 2 → IVec S16 32) a x).toNat < S1000x128.size a)
instance k0_chk289.dec : ∀ (v1343 : IVec S16 32) (v1344 : IVec S16 32), Decidable (k0_chk289 v1343 v1344) := fun v1343 v1344 => decidable_of_iff' _ (Iff.of_eq (k0_chk289.eq_1 v1343 v1344))
theorem k0_idx289_inb : ∀ (v1343 : IVec S16 32) (v1344 : IVec S16 32) (k0_hw289 : k0_chk289 v1343 v1344), ∀ a x, ((![v1343, v1344] : Fin 2 → IVec S16 32) a x).toNat < S1000x128.size a := fun v1343 v1344 k0_hw289 => k0_hw289

def k0_chk290 (v1347 : IVec S16 32) (v1348 : IVec S16 32) : Prop :=
  (∀ a x, ((![v1347, v1348] : Fin 2 → IVec S16 32) a x).toNat < S1000x128.size a)
instance k0_chk290.dec : ∀ (v1347 : IVec S16 32) (v1348 : IVec S16 32), Decidable (k0_chk290 v1347 v1348) := fun v1347 v1348 => decidable_of_iff' _ (Iff.of_eq (k0_chk290.eq_1 v1347 v1348))
theorem k0_idx290_inb : ∀ (v1347 : IVec S16 32) (v1348 : IVec S16 32) (k0_hw290 : k0_chk290 v1347 v1348), ∀ a x, ((![v1347, v1348] : Fin 2 → IVec S16 32) a x).toNat < S1000x128.size a := fun v1347 v1348 k0_hw290 => k0_hw290

def k0_chk291 (v1351 : IVec S16 32) (v1352 : IVec S16 32) : Prop :=
  (∀ a x, ((![v1351, v1352] : Fin 2 → IVec S16 32) a x).toNat < S1000x128.size a)
instance k0_chk291.dec : ∀ (v1351 : IVec S16 32) (v1352 : IVec S16 32), Decidable (k0_chk291 v1351 v1352) := fun v1351 v1352 => decidable_of_iff' _ (Iff.of_eq (k0_chk291.eq_1 v1351 v1352))
theorem k0_idx291_inb : ∀ (v1351 : IVec S16 32) (v1352 : IVec S16 32) (k0_hw291 : k0_chk291 v1351 v1352), ∀ a x, ((![v1351, v1352] : Fin 2 → IVec S16 32) a x).toNat < S1000x128.size a := fun v1351 v1352 k0_hw291 => k0_hw291

def k0_chk292 (v1355 : IVec S16 32) (v1356 : IVec S16 32) : Prop :=
  (∀ a x, ((![v1355, v1356] : Fin 2 → IVec S16 32) a x).toNat < S1000x128.size a)
instance k0_chk292.dec : ∀ (v1355 : IVec S16 32) (v1356 : IVec S16 32), Decidable (k0_chk292 v1355 v1356) := fun v1355 v1356 => decidable_of_iff' _ (Iff.of_eq (k0_chk292.eq_1 v1355 v1356))
theorem k0_idx292_inb : ∀ (v1355 : IVec S16 32) (v1356 : IVec S16 32) (k0_hw292 : k0_chk292 v1355 v1356), ∀ a x, ((![v1355, v1356] : Fin 2 → IVec S16 32) a x).toNat < S1000x128.size a := fun v1355 v1356 k0_hw292 => k0_hw292

def k0_chk293 (v1359 : IVec S16 32) (v1360 : IVec S16 32) : Prop :=
  (∀ a x, ((![v1359, v1360] : Fin 2 → IVec S16 32) a x).toNat < S1000x128.size a)
instance k0_chk293.dec : ∀ (v1359 : IVec S16 32) (v1360 : IVec S16 32), Decidable (k0_chk293 v1359 v1360) := fun v1359 v1360 => decidable_of_iff' _ (Iff.of_eq (k0_chk293.eq_1 v1359 v1360))
theorem k0_idx293_inb : ∀ (v1359 : IVec S16 32) (v1360 : IVec S16 32) (k0_hw293 : k0_chk293 v1359 v1360), ∀ a x, ((![v1359, v1360] : Fin 2 → IVec S16 32) a x).toNat < S1000x128.size a := fun v1359 v1360 k0_hw293 => k0_hw293

def k0_chk294 (v1363 : IVec S16 32) (v1364 : IVec S16 32) : Prop :=
  (∀ a x, ((![v1363, v1364] : Fin 2 → IVec S16 32) a x).toNat < S1000x128.size a)
instance k0_chk294.dec : ∀ (v1363 : IVec S16 32) (v1364 : IVec S16 32), Decidable (k0_chk294 v1363 v1364) := fun v1363 v1364 => decidable_of_iff' _ (Iff.of_eq (k0_chk294.eq_1 v1363 v1364))
theorem k0_idx294_inb : ∀ (v1363 : IVec S16 32) (v1364 : IVec S16 32) (k0_hw294 : k0_chk294 v1363 v1364), ∀ a x, ((![v1363, v1364] : Fin 2 → IVec S16 32) a x).toNat < S1000x128.size a := fun v1363 v1364 k0_hw294 => k0_hw294

def k0_chk295 (v1367 : IVec S16 32) (v1368 : IVec S16 32) : Prop :=
  (∀ a x, ((![v1367, v1368] : Fin 2 → IVec S16 32) a x).toNat < S1000x128.size a)
instance k0_chk295.dec : ∀ (v1367 : IVec S16 32) (v1368 : IVec S16 32), Decidable (k0_chk295 v1367 v1368) := fun v1367 v1368 => decidable_of_iff' _ (Iff.of_eq (k0_chk295.eq_1 v1367 v1368))
theorem k0_idx295_inb : ∀ (v1367 : IVec S16 32) (v1368 : IVec S16 32) (k0_hw295 : k0_chk295 v1367 v1368), ∀ a x, ((![v1367, v1368] : Fin 2 → IVec S16 32) a x).toNat < S1000x128.size a := fun v1367 v1368 k0_hw295 => k0_hw295

def k0_chk296 (v1371 : IVec S16 32) (v1372 : IVec S16 32) : Prop :=
  (∀ a x, ((![v1371, v1372] : Fin 2 → IVec S16 32) a x).toNat < S1000x128.size a)
instance k0_chk296.dec : ∀ (v1371 : IVec S16 32) (v1372 : IVec S16 32), Decidable (k0_chk296 v1371 v1372) := fun v1371 v1372 => decidable_of_iff' _ (Iff.of_eq (k0_chk296.eq_1 v1371 v1372))
theorem k0_idx296_inb : ∀ (v1371 : IVec S16 32) (v1372 : IVec S16 32) (k0_hw296 : k0_chk296 v1371 v1372), ∀ a x, ((![v1371, v1372] : Fin 2 → IVec S16 32) a x).toNat < S1000x128.size a := fun v1371 v1372 k0_hw296 => k0_hw296
def k0_off46 (i : grid0.Coords) : Fin 2 → Nat :=
  let c18000_i32 : BitVec 32 := 18000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_1034 : BitVec 32 := 128#32
  let v1375 : BitVec 32 := Scalar.muli v6 c128_i32_1034
  ![18000, v1375.toNat]

def k0_chk297 (v1381 : IVec S16 32) (v1382 : IVec S16 32) : Prop :=
  (∀ a x, ((![v1381, v1382] : Fin 2 → IVec S16 32) a x).toNat < S1000x128.size a)
instance k0_chk297.dec : ∀ (v1381 : IVec S16 32) (v1382 : IVec S16 32), Decidable (k0_chk297 v1381 v1382) := fun v1381 v1382 => decidable_of_iff' _ (Iff.of_eq (k0_chk297.eq_1 v1381 v1382))
theorem k0_idx297_inb : ∀ (v1381 : IVec S16 32) (v1382 : IVec S16 32) (k0_hw297 : k0_chk297 v1381 v1382), ∀ a x, ((![v1381, v1382] : Fin 2 → IVec S16 32) a x).toNat < S1000x128.size a := fun v1381 v1382 k0_hw297 => k0_hw297

def k0_chk298 (v1385 : IVec S16 32) (v1386 : IVec S16 32) : Prop :=
  (∀ a x, ((![v1385, v1386] : Fin 2 → IVec S16 32) a x).toNat < S1000x128.size a)
instance k0_chk298.dec : ∀ (v1385 : IVec S16 32) (v1386 : IVec S16 32), Decidable (k0_chk298 v1385 v1386) := fun v1385 v1386 => decidable_of_iff' _ (Iff.of_eq (k0_chk298.eq_1 v1385 v1386))
theorem k0_idx298_inb : ∀ (v1385 : IVec S16 32) (v1386 : IVec S16 32) (k0_hw298 : k0_chk298 v1385 v1386), ∀ a x, ((![v1385, v1386] : Fin 2 → IVec S16 32) a x).toNat < S1000x128.size a := fun v1385 v1386 k0_hw298 => k0_hw298

def k0_chk299 (v1389 : IVec S16 32) (v1390 : IVec S16 32) : Prop :=
  (∀ a x, ((![v1389, v1390] : Fin 2 → IVec S16 32) a x).toNat < S1000x128.size a)
instance k0_chk299.dec : ∀ (v1389 : IVec S16 32) (v1390 : IVec S16 32), Decidable (k0_chk299 v1389 v1390) := fun v1389 v1390 => decidable_of_iff' _ (Iff.of_eq (k0_chk299.eq_1 v1389 v1390))
theorem k0_idx299_inb : ∀ (v1389 : IVec S16 32) (v1390 : IVec S16 32) (k0_hw299 : k0_chk299 v1389 v1390), ∀ a x, ((![v1389, v1390] : Fin 2 → IVec S16 32) a x).toNat < S1000x128.size a := fun v1389 v1390 k0_hw299 => k0_hw299

def k0_chk300 (v1393 : IVec S16 32) (v1394 : IVec S16 32) : Prop :=
  (∀ a x, ((![v1393, v1394] : Fin 2 → IVec S16 32) a x).toNat < S1000x128.size a)
instance k0_chk300.dec : ∀ (v1393 : IVec S16 32) (v1394 : IVec S16 32), Decidable (k0_chk300 v1393 v1394) := fun v1393 v1394 => decidable_of_iff' _ (Iff.of_eq (k0_chk300.eq_1 v1393 v1394))
theorem k0_idx300_inb : ∀ (v1393 : IVec S16 32) (v1394 : IVec S16 32) (k0_hw300 : k0_chk300 v1393 v1394), ∀ a x, ((![v1393, v1394] : Fin 2 → IVec S16 32) a x).toNat < S1000x128.size a := fun v1393 v1394 k0_hw300 => k0_hw300

def k0_chk301 (v1397 : IVec S16 32) (v1398 : IVec S16 32) : Prop :=
  (∀ a x, ((![v1397, v1398] : Fin 2 → IVec S16 32) a x).toNat < S1000x128.size a)
instance k0_chk301.dec : ∀ (v1397 : IVec S16 32) (v1398 : IVec S16 32), Decidable (k0_chk301 v1397 v1398) := fun v1397 v1398 => decidable_of_iff' _ (Iff.of_eq (k0_chk301.eq_1 v1397 v1398))
theorem k0_idx301_inb : ∀ (v1397 : IVec S16 32) (v1398 : IVec S16 32) (k0_hw301 : k0_chk301 v1397 v1398), ∀ a x, ((![v1397, v1398] : Fin 2 → IVec S16 32) a x).toNat < S1000x128.size a := fun v1397 v1398 k0_hw301 => k0_hw301

def k0_chk302 (v1401 : IVec S16 32) (v1402 : IVec S16 32) : Prop :=
  (∀ a x, ((![v1401, v1402] : Fin 2 → IVec S16 32) a x).toNat < S1000x128.size a)
instance k0_chk302.dec : ∀ (v1401 : IVec S16 32) (v1402 : IVec S16 32), Decidable (k0_chk302 v1401 v1402) := fun v1401 v1402 => decidable_of_iff' _ (Iff.of_eq (k0_chk302.eq_1 v1401 v1402))
theorem k0_idx302_inb : ∀ (v1401 : IVec S16 32) (v1402 : IVec S16 32) (k0_hw302 : k0_chk302 v1401 v1402), ∀ a x, ((![v1401, v1402] : Fin 2 → IVec S16 32) a x).toNat < S1000x128.size a := fun v1401 v1402 k0_hw302 => k0_hw302

def k0_chk303 (v1405 : IVec S16 32) (v1406 : IVec S16 32) : Prop :=
  (∀ a x, ((![v1405, v1406] : Fin 2 → IVec S16 32) a x).toNat < S1000x128.size a)
instance k0_chk303.dec : ∀ (v1405 : IVec S16 32) (v1406 : IVec S16 32), Decidable (k0_chk303 v1405 v1406) := fun v1405 v1406 => decidable_of_iff' _ (Iff.of_eq (k0_chk303.eq_1 v1405 v1406))
theorem k0_idx303_inb : ∀ (v1405 : IVec S16 32) (v1406 : IVec S16 32) (k0_hw303 : k0_chk303 v1405 v1406), ∀ a x, ((![v1405, v1406] : Fin 2 → IVec S16 32) a x).toNat < S1000x128.size a := fun v1405 v1406 k0_hw303 => k0_hw303

def k0_chk304 (v1409 : IVec S16 32) (v1410 : IVec S16 32) : Prop :=
  (∀ a x, ((![v1409, v1410] : Fin 2 → IVec S16 32) a x).toNat < S1000x128.size a)
instance k0_chk304.dec : ∀ (v1409 : IVec S16 32) (v1410 : IVec S16 32), Decidable (k0_chk304 v1409 v1410) := fun v1409 v1410 => decidable_of_iff' _ (Iff.of_eq (k0_chk304.eq_1 v1409 v1410))
theorem k0_idx304_inb : ∀ (v1409 : IVec S16 32) (v1410 : IVec S16 32) (k0_hw304 : k0_chk304 v1409 v1410), ∀ a x, ((![v1409, v1410] : Fin 2 → IVec S16 32) a x).toNat < S1000x128.size a := fun v1409 v1410 k0_hw304 => k0_hw304
def k0_off47 (i : grid0.Coords) : Fin 1 → Nat :=
  let c128_i32_1065 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_1063 : BitVec 32 := 26#32
  let v1413 : BitVec 32 := Scalar.muli v6 c26_i32_1063
  let c19_i32 : BitVec 32 := 19#32
  let v1414 : BitVec 32 := Scalar.addi v1413 c19_i32
  let c128_i32_1064 : BitVec 32 := 128#32
  let v1415 : BitVec 32 := Scalar.muli v1414 c128_i32_1064
  let v1416 : BitVec 32 := Scalar.addi c128_i32_1065 v1415
  ![v1416.toNat]

def k0_chk305 (v1417 : IVec S16 32) (v1418 : IVec S16 32) : Prop :=
  (∀ a x, ((![v1417, v1418] : Fin 2 → IVec S16 32) a x).toNat < S1000x128.size a)
instance k0_chk305.dec : ∀ (v1417 : IVec S16 32) (v1418 : IVec S16 32), Decidable (k0_chk305 v1417 v1418) := fun v1417 v1418 => decidable_of_iff' _ (Iff.of_eq (k0_chk305.eq_1 v1417 v1418))
theorem k0_idx305_inb : ∀ (v1417 : IVec S16 32) (v1418 : IVec S16 32) (k0_hw305 : k0_chk305 v1417 v1418), ∀ a x, ((![v1417, v1418] : Fin 2 → IVec S16 32) a x).toNat < S1000x128.size a := fun v1417 v1418 k0_hw305 => k0_hw305

def k0_chk306 (v1421 : IVec S16 32) (v1422 : IVec S16 32) : Prop :=
  (∀ a x, ((![v1421, v1422] : Fin 2 → IVec S16 32) a x).toNat < S1000x128.size a)
instance k0_chk306.dec : ∀ (v1421 : IVec S16 32) (v1422 : IVec S16 32), Decidable (k0_chk306 v1421 v1422) := fun v1421 v1422 => decidable_of_iff' _ (Iff.of_eq (k0_chk306.eq_1 v1421 v1422))
theorem k0_idx306_inb : ∀ (v1421 : IVec S16 32) (v1422 : IVec S16 32) (k0_hw306 : k0_chk306 v1421 v1422), ∀ a x, ((![v1421, v1422] : Fin 2 → IVec S16 32) a x).toNat < S1000x128.size a := fun v1421 v1422 k0_hw306 => k0_hw306

def k0_chk307 (v1425 : IVec S16 32) (v1426 : IVec S16 32) : Prop :=
  (∀ a x, ((![v1425, v1426] : Fin 2 → IVec S16 32) a x).toNat < S1000x128.size a)
instance k0_chk307.dec : ∀ (v1425 : IVec S16 32) (v1426 : IVec S16 32), Decidable (k0_chk307 v1425 v1426) := fun v1425 v1426 => decidable_of_iff' _ (Iff.of_eq (k0_chk307.eq_1 v1425 v1426))
theorem k0_idx307_inb : ∀ (v1425 : IVec S16 32) (v1426 : IVec S16 32) (k0_hw307 : k0_chk307 v1425 v1426), ∀ a x, ((![v1425, v1426] : Fin 2 → IVec S16 32) a x).toNat < S1000x128.size a := fun v1425 v1426 k0_hw307 => k0_hw307

def k0_chk308 (v1429 : IVec S16 32) (v1430 : IVec S16 32) : Prop :=
  (∀ a x, ((![v1429, v1430] : Fin 2 → IVec S16 32) a x).toNat < S1000x128.size a)
instance k0_chk308.dec : ∀ (v1429 : IVec S16 32) (v1430 : IVec S16 32), Decidable (k0_chk308 v1429 v1430) := fun v1429 v1430 => decidable_of_iff' _ (Iff.of_eq (k0_chk308.eq_1 v1429 v1430))
theorem k0_idx308_inb : ∀ (v1429 : IVec S16 32) (v1430 : IVec S16 32) (k0_hw308 : k0_chk308 v1429 v1430), ∀ a x, ((![v1429, v1430] : Fin 2 → IVec S16 32) a x).toNat < S1000x128.size a := fun v1429 v1430 k0_hw308 => k0_hw308

def k0_chk309 (v1433 : IVec S16 32) (v1434 : IVec S16 32) : Prop :=
  (∀ a x, ((![v1433, v1434] : Fin 2 → IVec S16 32) a x).toNat < S1000x128.size a)
instance k0_chk309.dec : ∀ (v1433 : IVec S16 32) (v1434 : IVec S16 32), Decidable (k0_chk309 v1433 v1434) := fun v1433 v1434 => decidable_of_iff' _ (Iff.of_eq (k0_chk309.eq_1 v1433 v1434))
theorem k0_idx309_inb : ∀ (v1433 : IVec S16 32) (v1434 : IVec S16 32) (k0_hw309 : k0_chk309 v1433 v1434), ∀ a x, ((![v1433, v1434] : Fin 2 → IVec S16 32) a x).toNat < S1000x128.size a := fun v1433 v1434 k0_hw309 => k0_hw309

def k0_chk310 (v1437 : IVec S16 32) (v1438 : IVec S16 32) : Prop :=
  (∀ a x, ((![v1437, v1438] : Fin 2 → IVec S16 32) a x).toNat < S1000x128.size a)
instance k0_chk310.dec : ∀ (v1437 : IVec S16 32) (v1438 : IVec S16 32), Decidable (k0_chk310 v1437 v1438) := fun v1437 v1438 => decidable_of_iff' _ (Iff.of_eq (k0_chk310.eq_1 v1437 v1438))
theorem k0_idx310_inb : ∀ (v1437 : IVec S16 32) (v1438 : IVec S16 32) (k0_hw310 : k0_chk310 v1437 v1438), ∀ a x, ((![v1437, v1438] : Fin 2 → IVec S16 32) a x).toNat < S1000x128.size a := fun v1437 v1438 k0_hw310 => k0_hw310

def k0_chk311 (v1441 : IVec S16 32) (v1442 : IVec S16 32) : Prop :=
  (∀ a x, ((![v1441, v1442] : Fin 2 → IVec S16 32) a x).toNat < S1000x128.size a)
instance k0_chk311.dec : ∀ (v1441 : IVec S16 32) (v1442 : IVec S16 32), Decidable (k0_chk311 v1441 v1442) := fun v1441 v1442 => decidable_of_iff' _ (Iff.of_eq (k0_chk311.eq_1 v1441 v1442))
theorem k0_idx311_inb : ∀ (v1441 : IVec S16 32) (v1442 : IVec S16 32) (k0_hw311 : k0_chk311 v1441 v1442), ∀ a x, ((![v1441, v1442] : Fin 2 → IVec S16 32) a x).toNat < S1000x128.size a := fun v1441 v1442 k0_hw311 => k0_hw311

def k0_chk312 (v1445 : IVec S16 32) (v1446 : IVec S16 32) : Prop :=
  (∀ a x, ((![v1445, v1446] : Fin 2 → IVec S16 32) a x).toNat < S1000x128.size a)
instance k0_chk312.dec : ∀ (v1445 : IVec S16 32) (v1446 : IVec S16 32), Decidable (k0_chk312 v1445 v1446) := fun v1445 v1446 => decidable_of_iff' _ (Iff.of_eq (k0_chk312.eq_1 v1445 v1446))
theorem k0_idx312_inb : ∀ (v1445 : IVec S16 32) (v1446 : IVec S16 32) (k0_hw312 : k0_chk312 v1445 v1446), ∀ a x, ((![v1445, v1446] : Fin 2 → IVec S16 32) a x).toNat < S1000x128.size a := fun v1445 v1446 k0_hw312 => k0_hw312
def k0_off48 (i : grid0.Coords) : Fin 2 → Nat :=
  let c19000_i32 : BitVec 32 := 19000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_1090 : BitVec 32 := 128#32
  let v1449 : BitVec 32 := Scalar.muli v6 c128_i32_1090
  ![19000, v1449.toNat]

def k0_chk313 (v1455 : IVec S16 32) (v1456 : IVec S16 32) : Prop :=
  (∀ a x, ((![v1455, v1456] : Fin 2 → IVec S16 32) a x).toNat < S1000x128.size a)
instance k0_chk313.dec : ∀ (v1455 : IVec S16 32) (v1456 : IVec S16 32), Decidable (k0_chk313 v1455 v1456) := fun v1455 v1456 => decidable_of_iff' _ (Iff.of_eq (k0_chk313.eq_1 v1455 v1456))
theorem k0_idx313_inb : ∀ (v1455 : IVec S16 32) (v1456 : IVec S16 32) (k0_hw313 : k0_chk313 v1455 v1456), ∀ a x, ((![v1455, v1456] : Fin 2 → IVec S16 32) a x).toNat < S1000x128.size a := fun v1455 v1456 k0_hw313 => k0_hw313

def k0_chk314 (v1459 : IVec S16 32) (v1460 : IVec S16 32) : Prop :=
  (∀ a x, ((![v1459, v1460] : Fin 2 → IVec S16 32) a x).toNat < S1000x128.size a)
instance k0_chk314.dec : ∀ (v1459 : IVec S16 32) (v1460 : IVec S16 32), Decidable (k0_chk314 v1459 v1460) := fun v1459 v1460 => decidable_of_iff' _ (Iff.of_eq (k0_chk314.eq_1 v1459 v1460))
theorem k0_idx314_inb : ∀ (v1459 : IVec S16 32) (v1460 : IVec S16 32) (k0_hw314 : k0_chk314 v1459 v1460), ∀ a x, ((![v1459, v1460] : Fin 2 → IVec S16 32) a x).toNat < S1000x128.size a := fun v1459 v1460 k0_hw314 => k0_hw314

def k0_chk315 (v1463 : IVec S16 32) (v1464 : IVec S16 32) : Prop :=
  (∀ a x, ((![v1463, v1464] : Fin 2 → IVec S16 32) a x).toNat < S1000x128.size a)
instance k0_chk315.dec : ∀ (v1463 : IVec S16 32) (v1464 : IVec S16 32), Decidable (k0_chk315 v1463 v1464) := fun v1463 v1464 => decidable_of_iff' _ (Iff.of_eq (k0_chk315.eq_1 v1463 v1464))
theorem k0_idx315_inb : ∀ (v1463 : IVec S16 32) (v1464 : IVec S16 32) (k0_hw315 : k0_chk315 v1463 v1464), ∀ a x, ((![v1463, v1464] : Fin 2 → IVec S16 32) a x).toNat < S1000x128.size a := fun v1463 v1464 k0_hw315 => k0_hw315

def k0_chk316 (v1467 : IVec S16 32) (v1468 : IVec S16 32) : Prop :=
  (∀ a x, ((![v1467, v1468] : Fin 2 → IVec S16 32) a x).toNat < S1000x128.size a)
instance k0_chk316.dec : ∀ (v1467 : IVec S16 32) (v1468 : IVec S16 32), Decidable (k0_chk316 v1467 v1468) := fun v1467 v1468 => decidable_of_iff' _ (Iff.of_eq (k0_chk316.eq_1 v1467 v1468))
theorem k0_idx316_inb : ∀ (v1467 : IVec S16 32) (v1468 : IVec S16 32) (k0_hw316 : k0_chk316 v1467 v1468), ∀ a x, ((![v1467, v1468] : Fin 2 → IVec S16 32) a x).toNat < S1000x128.size a := fun v1467 v1468 k0_hw316 => k0_hw316

def k0_chk317 (v1471 : IVec S16 32) (v1472 : IVec S16 32) : Prop :=
  (∀ a x, ((![v1471, v1472] : Fin 2 → IVec S16 32) a x).toNat < S1000x128.size a)
instance k0_chk317.dec : ∀ (v1471 : IVec S16 32) (v1472 : IVec S16 32), Decidable (k0_chk317 v1471 v1472) := fun v1471 v1472 => decidable_of_iff' _ (Iff.of_eq (k0_chk317.eq_1 v1471 v1472))
theorem k0_idx317_inb : ∀ (v1471 : IVec S16 32) (v1472 : IVec S16 32) (k0_hw317 : k0_chk317 v1471 v1472), ∀ a x, ((![v1471, v1472] : Fin 2 → IVec S16 32) a x).toNat < S1000x128.size a := fun v1471 v1472 k0_hw317 => k0_hw317

def k0_chk318 (v1475 : IVec S16 32) (v1476 : IVec S16 32) : Prop :=
  (∀ a x, ((![v1475, v1476] : Fin 2 → IVec S16 32) a x).toNat < S1000x128.size a)
instance k0_chk318.dec : ∀ (v1475 : IVec S16 32) (v1476 : IVec S16 32), Decidable (k0_chk318 v1475 v1476) := fun v1475 v1476 => decidable_of_iff' _ (Iff.of_eq (k0_chk318.eq_1 v1475 v1476))
theorem k0_idx318_inb : ∀ (v1475 : IVec S16 32) (v1476 : IVec S16 32) (k0_hw318 : k0_chk318 v1475 v1476), ∀ a x, ((![v1475, v1476] : Fin 2 → IVec S16 32) a x).toNat < S1000x128.size a := fun v1475 v1476 k0_hw318 => k0_hw318

def k0_chk319 (v1479 : IVec S16 32) (v1480 : IVec S16 32) : Prop :=
  (∀ a x, ((![v1479, v1480] : Fin 2 → IVec S16 32) a x).toNat < S1000x128.size a)
instance k0_chk319.dec : ∀ (v1479 : IVec S16 32) (v1480 : IVec S16 32), Decidable (k0_chk319 v1479 v1480) := fun v1479 v1480 => decidable_of_iff' _ (Iff.of_eq (k0_chk319.eq_1 v1479 v1480))
theorem k0_idx319_inb : ∀ (v1479 : IVec S16 32) (v1480 : IVec S16 32) (k0_hw319 : k0_chk319 v1479 v1480), ∀ a x, ((![v1479, v1480] : Fin 2 → IVec S16 32) a x).toNat < S1000x128.size a := fun v1479 v1480 k0_hw319 => k0_hw319

def k0_chk320 (v1483 : IVec S16 32) (v1484 : IVec S16 32) : Prop :=
  (∀ a x, ((![v1483, v1484] : Fin 2 → IVec S16 32) a x).toNat < S1000x128.size a)
instance k0_chk320.dec : ∀ (v1483 : IVec S16 32) (v1484 : IVec S16 32), Decidable (k0_chk320 v1483 v1484) := fun v1483 v1484 => decidable_of_iff' _ (Iff.of_eq (k0_chk320.eq_1 v1483 v1484))
theorem k0_idx320_inb : ∀ (v1483 : IVec S16 32) (v1484 : IVec S16 32) (k0_hw320 : k0_chk320 v1483 v1484), ∀ a x, ((![v1483, v1484] : Fin 2 → IVec S16 32) a x).toNat < S1000x128.size a := fun v1483 v1484 k0_hw320 => k0_hw320
def k0_off49 (i : grid0.Coords) : Fin 1 → Nat :=
  let c128_i32_1121 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_1119 : BitVec 32 := 26#32
  let v1487 : BitVec 32 := Scalar.muli v6 c26_i32_1119
  let c20_i32 : BitVec 32 := 20#32
  let v1488 : BitVec 32 := Scalar.addi v1487 c20_i32
  let c128_i32_1120 : BitVec 32 := 128#32
  let v1489 : BitVec 32 := Scalar.muli v1488 c128_i32_1120
  let v1490 : BitVec 32 := Scalar.addi c128_i32_1121 v1489
  ![v1490.toNat]

def k0_chk321 (v1491 : IVec S16 32) (v1492 : IVec S16 32) : Prop :=
  (∀ a x, ((![v1491, v1492] : Fin 2 → IVec S16 32) a x).toNat < S1000x128.size a)
instance k0_chk321.dec : ∀ (v1491 : IVec S16 32) (v1492 : IVec S16 32), Decidable (k0_chk321 v1491 v1492) := fun v1491 v1492 => decidable_of_iff' _ (Iff.of_eq (k0_chk321.eq_1 v1491 v1492))
theorem k0_idx321_inb : ∀ (v1491 : IVec S16 32) (v1492 : IVec S16 32) (k0_hw321 : k0_chk321 v1491 v1492), ∀ a x, ((![v1491, v1492] : Fin 2 → IVec S16 32) a x).toNat < S1000x128.size a := fun v1491 v1492 k0_hw321 => k0_hw321

def k0_chk322 (v1495 : IVec S16 32) (v1496 : IVec S16 32) : Prop :=
  (∀ a x, ((![v1495, v1496] : Fin 2 → IVec S16 32) a x).toNat < S1000x128.size a)
instance k0_chk322.dec : ∀ (v1495 : IVec S16 32) (v1496 : IVec S16 32), Decidable (k0_chk322 v1495 v1496) := fun v1495 v1496 => decidable_of_iff' _ (Iff.of_eq (k0_chk322.eq_1 v1495 v1496))
theorem k0_idx322_inb : ∀ (v1495 : IVec S16 32) (v1496 : IVec S16 32) (k0_hw322 : k0_chk322 v1495 v1496), ∀ a x, ((![v1495, v1496] : Fin 2 → IVec S16 32) a x).toNat < S1000x128.size a := fun v1495 v1496 k0_hw322 => k0_hw322

def k0_chk323 (v1499 : IVec S16 32) (v1500 : IVec S16 32) : Prop :=
  (∀ a x, ((![v1499, v1500] : Fin 2 → IVec S16 32) a x).toNat < S1000x128.size a)
instance k0_chk323.dec : ∀ (v1499 : IVec S16 32) (v1500 : IVec S16 32), Decidable (k0_chk323 v1499 v1500) := fun v1499 v1500 => decidable_of_iff' _ (Iff.of_eq (k0_chk323.eq_1 v1499 v1500))
theorem k0_idx323_inb : ∀ (v1499 : IVec S16 32) (v1500 : IVec S16 32) (k0_hw323 : k0_chk323 v1499 v1500), ∀ a x, ((![v1499, v1500] : Fin 2 → IVec S16 32) a x).toNat < S1000x128.size a := fun v1499 v1500 k0_hw323 => k0_hw323

def k0_chk324 (v1503 : IVec S16 32) (v1504 : IVec S16 32) : Prop :=
  (∀ a x, ((![v1503, v1504] : Fin 2 → IVec S16 32) a x).toNat < S1000x128.size a)
instance k0_chk324.dec : ∀ (v1503 : IVec S16 32) (v1504 : IVec S16 32), Decidable (k0_chk324 v1503 v1504) := fun v1503 v1504 => decidable_of_iff' _ (Iff.of_eq (k0_chk324.eq_1 v1503 v1504))
theorem k0_idx324_inb : ∀ (v1503 : IVec S16 32) (v1504 : IVec S16 32) (k0_hw324 : k0_chk324 v1503 v1504), ∀ a x, ((![v1503, v1504] : Fin 2 → IVec S16 32) a x).toNat < S1000x128.size a := fun v1503 v1504 k0_hw324 => k0_hw324

def k0_chk325 (v1507 : IVec S16 32) (v1508 : IVec S16 32) : Prop :=
  (∀ a x, ((![v1507, v1508] : Fin 2 → IVec S16 32) a x).toNat < S1000x128.size a)
instance k0_chk325.dec : ∀ (v1507 : IVec S16 32) (v1508 : IVec S16 32), Decidable (k0_chk325 v1507 v1508) := fun v1507 v1508 => decidable_of_iff' _ (Iff.of_eq (k0_chk325.eq_1 v1507 v1508))
theorem k0_idx325_inb : ∀ (v1507 : IVec S16 32) (v1508 : IVec S16 32) (k0_hw325 : k0_chk325 v1507 v1508), ∀ a x, ((![v1507, v1508] : Fin 2 → IVec S16 32) a x).toNat < S1000x128.size a := fun v1507 v1508 k0_hw325 => k0_hw325

def k0_chk326 (v1511 : IVec S16 32) (v1512 : IVec S16 32) : Prop :=
  (∀ a x, ((![v1511, v1512] : Fin 2 → IVec S16 32) a x).toNat < S1000x128.size a)
instance k0_chk326.dec : ∀ (v1511 : IVec S16 32) (v1512 : IVec S16 32), Decidable (k0_chk326 v1511 v1512) := fun v1511 v1512 => decidable_of_iff' _ (Iff.of_eq (k0_chk326.eq_1 v1511 v1512))
theorem k0_idx326_inb : ∀ (v1511 : IVec S16 32) (v1512 : IVec S16 32) (k0_hw326 : k0_chk326 v1511 v1512), ∀ a x, ((![v1511, v1512] : Fin 2 → IVec S16 32) a x).toNat < S1000x128.size a := fun v1511 v1512 k0_hw326 => k0_hw326

def k0_chk327 (v1515 : IVec S16 32) (v1516 : IVec S16 32) : Prop :=
  (∀ a x, ((![v1515, v1516] : Fin 2 → IVec S16 32) a x).toNat < S1000x128.size a)
instance k0_chk327.dec : ∀ (v1515 : IVec S16 32) (v1516 : IVec S16 32), Decidable (k0_chk327 v1515 v1516) := fun v1515 v1516 => decidable_of_iff' _ (Iff.of_eq (k0_chk327.eq_1 v1515 v1516))
theorem k0_idx327_inb : ∀ (v1515 : IVec S16 32) (v1516 : IVec S16 32) (k0_hw327 : k0_chk327 v1515 v1516), ∀ a x, ((![v1515, v1516] : Fin 2 → IVec S16 32) a x).toNat < S1000x128.size a := fun v1515 v1516 k0_hw327 => k0_hw327

def k0_chk328 (v1519 : IVec S16 32) (v1520 : IVec S16 32) : Prop :=
  (∀ a x, ((![v1519, v1520] : Fin 2 → IVec S16 32) a x).toNat < S1000x128.size a)
instance k0_chk328.dec : ∀ (v1519 : IVec S16 32) (v1520 : IVec S16 32), Decidable (k0_chk328 v1519 v1520) := fun v1519 v1520 => decidable_of_iff' _ (Iff.of_eq (k0_chk328.eq_1 v1519 v1520))
theorem k0_idx328_inb : ∀ (v1519 : IVec S16 32) (v1520 : IVec S16 32) (k0_hw328 : k0_chk328 v1519 v1520), ∀ a x, ((![v1519, v1520] : Fin 2 → IVec S16 32) a x).toNat < S1000x128.size a := fun v1519 v1520 k0_hw328 => k0_hw328
def k0_off50 (i : grid0.Coords) : Fin 2 → Nat :=
  let c20000_i32 : BitVec 32 := 20000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_1146 : BitVec 32 := 128#32
  let v1523 : BitVec 32 := Scalar.muli v6 c128_i32_1146
  ![20000, v1523.toNat]

def k0_chk329 (v1529 : IVec S16 32) (v1530 : IVec S16 32) : Prop :=
  (∀ a x, ((![v1529, v1530] : Fin 2 → IVec S16 32) a x).toNat < S1000x128.size a)
instance k0_chk329.dec : ∀ (v1529 : IVec S16 32) (v1530 : IVec S16 32), Decidable (k0_chk329 v1529 v1530) := fun v1529 v1530 => decidable_of_iff' _ (Iff.of_eq (k0_chk329.eq_1 v1529 v1530))
theorem k0_idx329_inb : ∀ (v1529 : IVec S16 32) (v1530 : IVec S16 32) (k0_hw329 : k0_chk329 v1529 v1530), ∀ a x, ((![v1529, v1530] : Fin 2 → IVec S16 32) a x).toNat < S1000x128.size a := fun v1529 v1530 k0_hw329 => k0_hw329

def k0_chk330 (v1533 : IVec S16 32) (v1534 : IVec S16 32) : Prop :=
  (∀ a x, ((![v1533, v1534] : Fin 2 → IVec S16 32) a x).toNat < S1000x128.size a)
instance k0_chk330.dec : ∀ (v1533 : IVec S16 32) (v1534 : IVec S16 32), Decidable (k0_chk330 v1533 v1534) := fun v1533 v1534 => decidable_of_iff' _ (Iff.of_eq (k0_chk330.eq_1 v1533 v1534))
theorem k0_idx330_inb : ∀ (v1533 : IVec S16 32) (v1534 : IVec S16 32) (k0_hw330 : k0_chk330 v1533 v1534), ∀ a x, ((![v1533, v1534] : Fin 2 → IVec S16 32) a x).toNat < S1000x128.size a := fun v1533 v1534 k0_hw330 => k0_hw330

def k0_chk331 (v1537 : IVec S16 32) (v1538 : IVec S16 32) : Prop :=
  (∀ a x, ((![v1537, v1538] : Fin 2 → IVec S16 32) a x).toNat < S1000x128.size a)
instance k0_chk331.dec : ∀ (v1537 : IVec S16 32) (v1538 : IVec S16 32), Decidable (k0_chk331 v1537 v1538) := fun v1537 v1538 => decidable_of_iff' _ (Iff.of_eq (k0_chk331.eq_1 v1537 v1538))
theorem k0_idx331_inb : ∀ (v1537 : IVec S16 32) (v1538 : IVec S16 32) (k0_hw331 : k0_chk331 v1537 v1538), ∀ a x, ((![v1537, v1538] : Fin 2 → IVec S16 32) a x).toNat < S1000x128.size a := fun v1537 v1538 k0_hw331 => k0_hw331

def k0_chk332 (v1541 : IVec S16 32) (v1542 : IVec S16 32) : Prop :=
  (∀ a x, ((![v1541, v1542] : Fin 2 → IVec S16 32) a x).toNat < S1000x128.size a)
instance k0_chk332.dec : ∀ (v1541 : IVec S16 32) (v1542 : IVec S16 32), Decidable (k0_chk332 v1541 v1542) := fun v1541 v1542 => decidable_of_iff' _ (Iff.of_eq (k0_chk332.eq_1 v1541 v1542))
theorem k0_idx332_inb : ∀ (v1541 : IVec S16 32) (v1542 : IVec S16 32) (k0_hw332 : k0_chk332 v1541 v1542), ∀ a x, ((![v1541, v1542] : Fin 2 → IVec S16 32) a x).toNat < S1000x128.size a := fun v1541 v1542 k0_hw332 => k0_hw332

def k0_chk333 (v1545 : IVec S16 32) (v1546 : IVec S16 32) : Prop :=
  (∀ a x, ((![v1545, v1546] : Fin 2 → IVec S16 32) a x).toNat < S1000x128.size a)
instance k0_chk333.dec : ∀ (v1545 : IVec S16 32) (v1546 : IVec S16 32), Decidable (k0_chk333 v1545 v1546) := fun v1545 v1546 => decidable_of_iff' _ (Iff.of_eq (k0_chk333.eq_1 v1545 v1546))
theorem k0_idx333_inb : ∀ (v1545 : IVec S16 32) (v1546 : IVec S16 32) (k0_hw333 : k0_chk333 v1545 v1546), ∀ a x, ((![v1545, v1546] : Fin 2 → IVec S16 32) a x).toNat < S1000x128.size a := fun v1545 v1546 k0_hw333 => k0_hw333

def k0_chk334 (v1549 : IVec S16 32) (v1550 : IVec S16 32) : Prop :=
  (∀ a x, ((![v1549, v1550] : Fin 2 → IVec S16 32) a x).toNat < S1000x128.size a)
instance k0_chk334.dec : ∀ (v1549 : IVec S16 32) (v1550 : IVec S16 32), Decidable (k0_chk334 v1549 v1550) := fun v1549 v1550 => decidable_of_iff' _ (Iff.of_eq (k0_chk334.eq_1 v1549 v1550))
theorem k0_idx334_inb : ∀ (v1549 : IVec S16 32) (v1550 : IVec S16 32) (k0_hw334 : k0_chk334 v1549 v1550), ∀ a x, ((![v1549, v1550] : Fin 2 → IVec S16 32) a x).toNat < S1000x128.size a := fun v1549 v1550 k0_hw334 => k0_hw334

def k0_chk335 (v1553 : IVec S16 32) (v1554 : IVec S16 32) : Prop :=
  (∀ a x, ((![v1553, v1554] : Fin 2 → IVec S16 32) a x).toNat < S1000x128.size a)
instance k0_chk335.dec : ∀ (v1553 : IVec S16 32) (v1554 : IVec S16 32), Decidable (k0_chk335 v1553 v1554) := fun v1553 v1554 => decidable_of_iff' _ (Iff.of_eq (k0_chk335.eq_1 v1553 v1554))
theorem k0_idx335_inb : ∀ (v1553 : IVec S16 32) (v1554 : IVec S16 32) (k0_hw335 : k0_chk335 v1553 v1554), ∀ a x, ((![v1553, v1554] : Fin 2 → IVec S16 32) a x).toNat < S1000x128.size a := fun v1553 v1554 k0_hw335 => k0_hw335

def k0_chk336 (v1557 : IVec S16 32) (v1558 : IVec S16 32) : Prop :=
  (∀ a x, ((![v1557, v1558] : Fin 2 → IVec S16 32) a x).toNat < S1000x128.size a)
instance k0_chk336.dec : ∀ (v1557 : IVec S16 32) (v1558 : IVec S16 32), Decidable (k0_chk336 v1557 v1558) := fun v1557 v1558 => decidable_of_iff' _ (Iff.of_eq (k0_chk336.eq_1 v1557 v1558))
theorem k0_idx336_inb : ∀ (v1557 : IVec S16 32) (v1558 : IVec S16 32) (k0_hw336 : k0_chk336 v1557 v1558), ∀ a x, ((![v1557, v1558] : Fin 2 → IVec S16 32) a x).toNat < S1000x128.size a := fun v1557 v1558 k0_hw336 => k0_hw336
def k0_off51 (i : grid0.Coords) : Fin 1 → Nat :=
  let c128_i32_1177 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_1175 : BitVec 32 := 26#32
  let v1561 : BitVec 32 := Scalar.muli v6 c26_i32_1175
  let c21_i32 : BitVec 32 := 21#32
  let v1562 : BitVec 32 := Scalar.addi v1561 c21_i32
  let c128_i32_1176 : BitVec 32 := 128#32
  let v1563 : BitVec 32 := Scalar.muli v1562 c128_i32_1176
  let v1564 : BitVec 32 := Scalar.addi c128_i32_1177 v1563
  ![v1564.toNat]

def k0_chk337 (v1565 : IVec S16 32) (v1566 : IVec S16 32) : Prop :=
  (∀ a x, ((![v1565, v1566] : Fin 2 → IVec S16 32) a x).toNat < S1000x128.size a)
instance k0_chk337.dec : ∀ (v1565 : IVec S16 32) (v1566 : IVec S16 32), Decidable (k0_chk337 v1565 v1566) := fun v1565 v1566 => decidable_of_iff' _ (Iff.of_eq (k0_chk337.eq_1 v1565 v1566))
theorem k0_idx337_inb : ∀ (v1565 : IVec S16 32) (v1566 : IVec S16 32) (k0_hw337 : k0_chk337 v1565 v1566), ∀ a x, ((![v1565, v1566] : Fin 2 → IVec S16 32) a x).toNat < S1000x128.size a := fun v1565 v1566 k0_hw337 => k0_hw337

def k0_chk338 (v1569 : IVec S16 32) (v1570 : IVec S16 32) : Prop :=
  (∀ a x, ((![v1569, v1570] : Fin 2 → IVec S16 32) a x).toNat < S1000x128.size a)
instance k0_chk338.dec : ∀ (v1569 : IVec S16 32) (v1570 : IVec S16 32), Decidable (k0_chk338 v1569 v1570) := fun v1569 v1570 => decidable_of_iff' _ (Iff.of_eq (k0_chk338.eq_1 v1569 v1570))
theorem k0_idx338_inb : ∀ (v1569 : IVec S16 32) (v1570 : IVec S16 32) (k0_hw338 : k0_chk338 v1569 v1570), ∀ a x, ((![v1569, v1570] : Fin 2 → IVec S16 32) a x).toNat < S1000x128.size a := fun v1569 v1570 k0_hw338 => k0_hw338

def k0_chk339 (v1573 : IVec S16 32) (v1574 : IVec S16 32) : Prop :=
  (∀ a x, ((![v1573, v1574] : Fin 2 → IVec S16 32) a x).toNat < S1000x128.size a)
instance k0_chk339.dec : ∀ (v1573 : IVec S16 32) (v1574 : IVec S16 32), Decidable (k0_chk339 v1573 v1574) := fun v1573 v1574 => decidable_of_iff' _ (Iff.of_eq (k0_chk339.eq_1 v1573 v1574))
theorem k0_idx339_inb : ∀ (v1573 : IVec S16 32) (v1574 : IVec S16 32) (k0_hw339 : k0_chk339 v1573 v1574), ∀ a x, ((![v1573, v1574] : Fin 2 → IVec S16 32) a x).toNat < S1000x128.size a := fun v1573 v1574 k0_hw339 => k0_hw339

def k0_chk340 (v1577 : IVec S16 32) (v1578 : IVec S16 32) : Prop :=
  (∀ a x, ((![v1577, v1578] : Fin 2 → IVec S16 32) a x).toNat < S1000x128.size a)
instance k0_chk340.dec : ∀ (v1577 : IVec S16 32) (v1578 : IVec S16 32), Decidable (k0_chk340 v1577 v1578) := fun v1577 v1578 => decidable_of_iff' _ (Iff.of_eq (k0_chk340.eq_1 v1577 v1578))
theorem k0_idx340_inb : ∀ (v1577 : IVec S16 32) (v1578 : IVec S16 32) (k0_hw340 : k0_chk340 v1577 v1578), ∀ a x, ((![v1577, v1578] : Fin 2 → IVec S16 32) a x).toNat < S1000x128.size a := fun v1577 v1578 k0_hw340 => k0_hw340

def k0_chk341 (v1581 : IVec S16 32) (v1582 : IVec S16 32) : Prop :=
  (∀ a x, ((![v1581, v1582] : Fin 2 → IVec S16 32) a x).toNat < S1000x128.size a)
instance k0_chk341.dec : ∀ (v1581 : IVec S16 32) (v1582 : IVec S16 32), Decidable (k0_chk341 v1581 v1582) := fun v1581 v1582 => decidable_of_iff' _ (Iff.of_eq (k0_chk341.eq_1 v1581 v1582))
theorem k0_idx341_inb : ∀ (v1581 : IVec S16 32) (v1582 : IVec S16 32) (k0_hw341 : k0_chk341 v1581 v1582), ∀ a x, ((![v1581, v1582] : Fin 2 → IVec S16 32) a x).toNat < S1000x128.size a := fun v1581 v1582 k0_hw341 => k0_hw341

def k0_chk342 (v1585 : IVec S16 32) (v1586 : IVec S16 32) : Prop :=
  (∀ a x, ((![v1585, v1586] : Fin 2 → IVec S16 32) a x).toNat < S1000x128.size a)
instance k0_chk342.dec : ∀ (v1585 : IVec S16 32) (v1586 : IVec S16 32), Decidable (k0_chk342 v1585 v1586) := fun v1585 v1586 => decidable_of_iff' _ (Iff.of_eq (k0_chk342.eq_1 v1585 v1586))
theorem k0_idx342_inb : ∀ (v1585 : IVec S16 32) (v1586 : IVec S16 32) (k0_hw342 : k0_chk342 v1585 v1586), ∀ a x, ((![v1585, v1586] : Fin 2 → IVec S16 32) a x).toNat < S1000x128.size a := fun v1585 v1586 k0_hw342 => k0_hw342

def k0_chk343 (v1589 : IVec S16 32) (v1590 : IVec S16 32) : Prop :=
  (∀ a x, ((![v1589, v1590] : Fin 2 → IVec S16 32) a x).toNat < S1000x128.size a)
instance k0_chk343.dec : ∀ (v1589 : IVec S16 32) (v1590 : IVec S16 32), Decidable (k0_chk343 v1589 v1590) := fun v1589 v1590 => decidable_of_iff' _ (Iff.of_eq (k0_chk343.eq_1 v1589 v1590))
theorem k0_idx343_inb : ∀ (v1589 : IVec S16 32) (v1590 : IVec S16 32) (k0_hw343 : k0_chk343 v1589 v1590), ∀ a x, ((![v1589, v1590] : Fin 2 → IVec S16 32) a x).toNat < S1000x128.size a := fun v1589 v1590 k0_hw343 => k0_hw343

def k0_chk344 (v1593 : IVec S16 32) (v1594 : IVec S16 32) : Prop :=
  (∀ a x, ((![v1593, v1594] : Fin 2 → IVec S16 32) a x).toNat < S1000x128.size a)
instance k0_chk344.dec : ∀ (v1593 : IVec S16 32) (v1594 : IVec S16 32), Decidable (k0_chk344 v1593 v1594) := fun v1593 v1594 => decidable_of_iff' _ (Iff.of_eq (k0_chk344.eq_1 v1593 v1594))
theorem k0_idx344_inb : ∀ (v1593 : IVec S16 32) (v1594 : IVec S16 32) (k0_hw344 : k0_chk344 v1593 v1594), ∀ a x, ((![v1593, v1594] : Fin 2 → IVec S16 32) a x).toNat < S1000x128.size a := fun v1593 v1594 k0_hw344 => k0_hw344
def k0_off52 (i : grid0.Coords) : Fin 2 → Nat :=
  let c21000_i32 : BitVec 32 := 21000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_1202 : BitVec 32 := 128#32
  let v1597 : BitVec 32 := Scalar.muli v6 c128_i32_1202
  ![21000, v1597.toNat]

def k0_chk345 (v1603 : IVec S16 32) (v1604 : IVec S16 32) : Prop :=
  (∀ a x, ((![v1603, v1604] : Fin 2 → IVec S16 32) a x).toNat < S1000x128.size a)
instance k0_chk345.dec : ∀ (v1603 : IVec S16 32) (v1604 : IVec S16 32), Decidable (k0_chk345 v1603 v1604) := fun v1603 v1604 => decidable_of_iff' _ (Iff.of_eq (k0_chk345.eq_1 v1603 v1604))
theorem k0_idx345_inb : ∀ (v1603 : IVec S16 32) (v1604 : IVec S16 32) (k0_hw345 : k0_chk345 v1603 v1604), ∀ a x, ((![v1603, v1604] : Fin 2 → IVec S16 32) a x).toNat < S1000x128.size a := fun v1603 v1604 k0_hw345 => k0_hw345

def k0_chk346 (v1607 : IVec S16 32) (v1608 : IVec S16 32) : Prop :=
  (∀ a x, ((![v1607, v1608] : Fin 2 → IVec S16 32) a x).toNat < S1000x128.size a)
instance k0_chk346.dec : ∀ (v1607 : IVec S16 32) (v1608 : IVec S16 32), Decidable (k0_chk346 v1607 v1608) := fun v1607 v1608 => decidable_of_iff' _ (Iff.of_eq (k0_chk346.eq_1 v1607 v1608))
theorem k0_idx346_inb : ∀ (v1607 : IVec S16 32) (v1608 : IVec S16 32) (k0_hw346 : k0_chk346 v1607 v1608), ∀ a x, ((![v1607, v1608] : Fin 2 → IVec S16 32) a x).toNat < S1000x128.size a := fun v1607 v1608 k0_hw346 => k0_hw346

def k0_chk347 (v1611 : IVec S16 32) (v1612 : IVec S16 32) : Prop :=
  (∀ a x, ((![v1611, v1612] : Fin 2 → IVec S16 32) a x).toNat < S1000x128.size a)
instance k0_chk347.dec : ∀ (v1611 : IVec S16 32) (v1612 : IVec S16 32), Decidable (k0_chk347 v1611 v1612) := fun v1611 v1612 => decidable_of_iff' _ (Iff.of_eq (k0_chk347.eq_1 v1611 v1612))
theorem k0_idx347_inb : ∀ (v1611 : IVec S16 32) (v1612 : IVec S16 32) (k0_hw347 : k0_chk347 v1611 v1612), ∀ a x, ((![v1611, v1612] : Fin 2 → IVec S16 32) a x).toNat < S1000x128.size a := fun v1611 v1612 k0_hw347 => k0_hw347

def k0_chk348 (v1615 : IVec S16 32) (v1616 : IVec S16 32) : Prop :=
  (∀ a x, ((![v1615, v1616] : Fin 2 → IVec S16 32) a x).toNat < S1000x128.size a)
instance k0_chk348.dec : ∀ (v1615 : IVec S16 32) (v1616 : IVec S16 32), Decidable (k0_chk348 v1615 v1616) := fun v1615 v1616 => decidable_of_iff' _ (Iff.of_eq (k0_chk348.eq_1 v1615 v1616))
theorem k0_idx348_inb : ∀ (v1615 : IVec S16 32) (v1616 : IVec S16 32) (k0_hw348 : k0_chk348 v1615 v1616), ∀ a x, ((![v1615, v1616] : Fin 2 → IVec S16 32) a x).toNat < S1000x128.size a := fun v1615 v1616 k0_hw348 => k0_hw348

def k0_chk349 (v1619 : IVec S16 32) (v1620 : IVec S16 32) : Prop :=
  (∀ a x, ((![v1619, v1620] : Fin 2 → IVec S16 32) a x).toNat < S1000x128.size a)
instance k0_chk349.dec : ∀ (v1619 : IVec S16 32) (v1620 : IVec S16 32), Decidable (k0_chk349 v1619 v1620) := fun v1619 v1620 => decidable_of_iff' _ (Iff.of_eq (k0_chk349.eq_1 v1619 v1620))
theorem k0_idx349_inb : ∀ (v1619 : IVec S16 32) (v1620 : IVec S16 32) (k0_hw349 : k0_chk349 v1619 v1620), ∀ a x, ((![v1619, v1620] : Fin 2 → IVec S16 32) a x).toNat < S1000x128.size a := fun v1619 v1620 k0_hw349 => k0_hw349

def k0_chk350 (v1623 : IVec S16 32) (v1624 : IVec S16 32) : Prop :=
  (∀ a x, ((![v1623, v1624] : Fin 2 → IVec S16 32) a x).toNat < S1000x128.size a)
instance k0_chk350.dec : ∀ (v1623 : IVec S16 32) (v1624 : IVec S16 32), Decidable (k0_chk350 v1623 v1624) := fun v1623 v1624 => decidable_of_iff' _ (Iff.of_eq (k0_chk350.eq_1 v1623 v1624))
theorem k0_idx350_inb : ∀ (v1623 : IVec S16 32) (v1624 : IVec S16 32) (k0_hw350 : k0_chk350 v1623 v1624), ∀ a x, ((![v1623, v1624] : Fin 2 → IVec S16 32) a x).toNat < S1000x128.size a := fun v1623 v1624 k0_hw350 => k0_hw350

def k0_chk351 (v1627 : IVec S16 32) (v1628 : IVec S16 32) : Prop :=
  (∀ a x, ((![v1627, v1628] : Fin 2 → IVec S16 32) a x).toNat < S1000x128.size a)
instance k0_chk351.dec : ∀ (v1627 : IVec S16 32) (v1628 : IVec S16 32), Decidable (k0_chk351 v1627 v1628) := fun v1627 v1628 => decidable_of_iff' _ (Iff.of_eq (k0_chk351.eq_1 v1627 v1628))
theorem k0_idx351_inb : ∀ (v1627 : IVec S16 32) (v1628 : IVec S16 32) (k0_hw351 : k0_chk351 v1627 v1628), ∀ a x, ((![v1627, v1628] : Fin 2 → IVec S16 32) a x).toNat < S1000x128.size a := fun v1627 v1628 k0_hw351 => k0_hw351

def k0_chk352 (v1631 : IVec S16 32) (v1632 : IVec S16 32) : Prop :=
  (∀ a x, ((![v1631, v1632] : Fin 2 → IVec S16 32) a x).toNat < S1000x128.size a)
instance k0_chk352.dec : ∀ (v1631 : IVec S16 32) (v1632 : IVec S16 32), Decidable (k0_chk352 v1631 v1632) := fun v1631 v1632 => decidable_of_iff' _ (Iff.of_eq (k0_chk352.eq_1 v1631 v1632))
theorem k0_idx352_inb : ∀ (v1631 : IVec S16 32) (v1632 : IVec S16 32) (k0_hw352 : k0_chk352 v1631 v1632), ∀ a x, ((![v1631, v1632] : Fin 2 → IVec S16 32) a x).toNat < S1000x128.size a := fun v1631 v1632 k0_hw352 => k0_hw352
def k0_off53 (i : grid0.Coords) : Fin 1 → Nat :=
  let c128_i32_1233 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_1231 : BitVec 32 := 26#32
  let v1635 : BitVec 32 := Scalar.muli v6 c26_i32_1231
  let c22_i32 : BitVec 32 := 22#32
  let v1636 : BitVec 32 := Scalar.addi v1635 c22_i32
  let c128_i32_1232 : BitVec 32 := 128#32
  let v1637 : BitVec 32 := Scalar.muli v1636 c128_i32_1232
  let v1638 : BitVec 32 := Scalar.addi c128_i32_1233 v1637
  ![v1638.toNat]

def k0_chk353 (v1639 : IVec S16 32) (v1640 : IVec S16 32) : Prop :=
  (∀ a x, ((![v1639, v1640] : Fin 2 → IVec S16 32) a x).toNat < S1000x128.size a)
instance k0_chk353.dec : ∀ (v1639 : IVec S16 32) (v1640 : IVec S16 32), Decidable (k0_chk353 v1639 v1640) := fun v1639 v1640 => decidable_of_iff' _ (Iff.of_eq (k0_chk353.eq_1 v1639 v1640))
theorem k0_idx353_inb : ∀ (v1639 : IVec S16 32) (v1640 : IVec S16 32) (k0_hw353 : k0_chk353 v1639 v1640), ∀ a x, ((![v1639, v1640] : Fin 2 → IVec S16 32) a x).toNat < S1000x128.size a := fun v1639 v1640 k0_hw353 => k0_hw353

def k0_chk354 (v1643 : IVec S16 32) (v1644 : IVec S16 32) : Prop :=
  (∀ a x, ((![v1643, v1644] : Fin 2 → IVec S16 32) a x).toNat < S1000x128.size a)
instance k0_chk354.dec : ∀ (v1643 : IVec S16 32) (v1644 : IVec S16 32), Decidable (k0_chk354 v1643 v1644) := fun v1643 v1644 => decidable_of_iff' _ (Iff.of_eq (k0_chk354.eq_1 v1643 v1644))
theorem k0_idx354_inb : ∀ (v1643 : IVec S16 32) (v1644 : IVec S16 32) (k0_hw354 : k0_chk354 v1643 v1644), ∀ a x, ((![v1643, v1644] : Fin 2 → IVec S16 32) a x).toNat < S1000x128.size a := fun v1643 v1644 k0_hw354 => k0_hw354

def k0_chk355 (v1647 : IVec S16 32) (v1648 : IVec S16 32) : Prop :=
  (∀ a x, ((![v1647, v1648] : Fin 2 → IVec S16 32) a x).toNat < S1000x128.size a)
instance k0_chk355.dec : ∀ (v1647 : IVec S16 32) (v1648 : IVec S16 32), Decidable (k0_chk355 v1647 v1648) := fun v1647 v1648 => decidable_of_iff' _ (Iff.of_eq (k0_chk355.eq_1 v1647 v1648))
theorem k0_idx355_inb : ∀ (v1647 : IVec S16 32) (v1648 : IVec S16 32) (k0_hw355 : k0_chk355 v1647 v1648), ∀ a x, ((![v1647, v1648] : Fin 2 → IVec S16 32) a x).toNat < S1000x128.size a := fun v1647 v1648 k0_hw355 => k0_hw355

def k0_chk356 (v1651 : IVec S16 32) (v1652 : IVec S16 32) : Prop :=
  (∀ a x, ((![v1651, v1652] : Fin 2 → IVec S16 32) a x).toNat < S1000x128.size a)
instance k0_chk356.dec : ∀ (v1651 : IVec S16 32) (v1652 : IVec S16 32), Decidable (k0_chk356 v1651 v1652) := fun v1651 v1652 => decidable_of_iff' _ (Iff.of_eq (k0_chk356.eq_1 v1651 v1652))
theorem k0_idx356_inb : ∀ (v1651 : IVec S16 32) (v1652 : IVec S16 32) (k0_hw356 : k0_chk356 v1651 v1652), ∀ a x, ((![v1651, v1652] : Fin 2 → IVec S16 32) a x).toNat < S1000x128.size a := fun v1651 v1652 k0_hw356 => k0_hw356

def k0_chk357 (v1655 : IVec S16 32) (v1656 : IVec S16 32) : Prop :=
  (∀ a x, ((![v1655, v1656] : Fin 2 → IVec S16 32) a x).toNat < S1000x128.size a)
instance k0_chk357.dec : ∀ (v1655 : IVec S16 32) (v1656 : IVec S16 32), Decidable (k0_chk357 v1655 v1656) := fun v1655 v1656 => decidable_of_iff' _ (Iff.of_eq (k0_chk357.eq_1 v1655 v1656))
theorem k0_idx357_inb : ∀ (v1655 : IVec S16 32) (v1656 : IVec S16 32) (k0_hw357 : k0_chk357 v1655 v1656), ∀ a x, ((![v1655, v1656] : Fin 2 → IVec S16 32) a x).toNat < S1000x128.size a := fun v1655 v1656 k0_hw357 => k0_hw357

def k0_chk358 (v1659 : IVec S16 32) (v1660 : IVec S16 32) : Prop :=
  (∀ a x, ((![v1659, v1660] : Fin 2 → IVec S16 32) a x).toNat < S1000x128.size a)
instance k0_chk358.dec : ∀ (v1659 : IVec S16 32) (v1660 : IVec S16 32), Decidable (k0_chk358 v1659 v1660) := fun v1659 v1660 => decidable_of_iff' _ (Iff.of_eq (k0_chk358.eq_1 v1659 v1660))
theorem k0_idx358_inb : ∀ (v1659 : IVec S16 32) (v1660 : IVec S16 32) (k0_hw358 : k0_chk358 v1659 v1660), ∀ a x, ((![v1659, v1660] : Fin 2 → IVec S16 32) a x).toNat < S1000x128.size a := fun v1659 v1660 k0_hw358 => k0_hw358

def k0_chk359 (v1663 : IVec S16 32) (v1664 : IVec S16 32) : Prop :=
  (∀ a x, ((![v1663, v1664] : Fin 2 → IVec S16 32) a x).toNat < S1000x128.size a)
instance k0_chk359.dec : ∀ (v1663 : IVec S16 32) (v1664 : IVec S16 32), Decidable (k0_chk359 v1663 v1664) := fun v1663 v1664 => decidable_of_iff' _ (Iff.of_eq (k0_chk359.eq_1 v1663 v1664))
theorem k0_idx359_inb : ∀ (v1663 : IVec S16 32) (v1664 : IVec S16 32) (k0_hw359 : k0_chk359 v1663 v1664), ∀ a x, ((![v1663, v1664] : Fin 2 → IVec S16 32) a x).toNat < S1000x128.size a := fun v1663 v1664 k0_hw359 => k0_hw359

def k0_chk360 (v1667 : IVec S16 32) (v1668 : IVec S16 32) : Prop :=
  (∀ a x, ((![v1667, v1668] : Fin 2 → IVec S16 32) a x).toNat < S1000x128.size a)
instance k0_chk360.dec : ∀ (v1667 : IVec S16 32) (v1668 : IVec S16 32), Decidable (k0_chk360 v1667 v1668) := fun v1667 v1668 => decidable_of_iff' _ (Iff.of_eq (k0_chk360.eq_1 v1667 v1668))
theorem k0_idx360_inb : ∀ (v1667 : IVec S16 32) (v1668 : IVec S16 32) (k0_hw360 : k0_chk360 v1667 v1668), ∀ a x, ((![v1667, v1668] : Fin 2 → IVec S16 32) a x).toNat < S1000x128.size a := fun v1667 v1668 k0_hw360 => k0_hw360
def k0_off54 (i : grid0.Coords) : Fin 2 → Nat :=
  let c22000_i32 : BitVec 32 := 22000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_1258 : BitVec 32 := 128#32
  let v1671 : BitVec 32 := Scalar.muli v6 c128_i32_1258
  ![22000, v1671.toNat]

def k0_chk361 (v1677 : IVec S16 32) (v1678 : IVec S16 32) : Prop :=
  (∀ a x, ((![v1677, v1678] : Fin 2 → IVec S16 32) a x).toNat < S1000x128.size a)
instance k0_chk361.dec : ∀ (v1677 : IVec S16 32) (v1678 : IVec S16 32), Decidable (k0_chk361 v1677 v1678) := fun v1677 v1678 => decidable_of_iff' _ (Iff.of_eq (k0_chk361.eq_1 v1677 v1678))
theorem k0_idx361_inb : ∀ (v1677 : IVec S16 32) (v1678 : IVec S16 32) (k0_hw361 : k0_chk361 v1677 v1678), ∀ a x, ((![v1677, v1678] : Fin 2 → IVec S16 32) a x).toNat < S1000x128.size a := fun v1677 v1678 k0_hw361 => k0_hw361

def k0_chk362 (v1681 : IVec S16 32) (v1682 : IVec S16 32) : Prop :=
  (∀ a x, ((![v1681, v1682] : Fin 2 → IVec S16 32) a x).toNat < S1000x128.size a)
instance k0_chk362.dec : ∀ (v1681 : IVec S16 32) (v1682 : IVec S16 32), Decidable (k0_chk362 v1681 v1682) := fun v1681 v1682 => decidable_of_iff' _ (Iff.of_eq (k0_chk362.eq_1 v1681 v1682))
theorem k0_idx362_inb : ∀ (v1681 : IVec S16 32) (v1682 : IVec S16 32) (k0_hw362 : k0_chk362 v1681 v1682), ∀ a x, ((![v1681, v1682] : Fin 2 → IVec S16 32) a x).toNat < S1000x128.size a := fun v1681 v1682 k0_hw362 => k0_hw362

def k0_chk363 (v1685 : IVec S16 32) (v1686 : IVec S16 32) : Prop :=
  (∀ a x, ((![v1685, v1686] : Fin 2 → IVec S16 32) a x).toNat < S1000x128.size a)
instance k0_chk363.dec : ∀ (v1685 : IVec S16 32) (v1686 : IVec S16 32), Decidable (k0_chk363 v1685 v1686) := fun v1685 v1686 => decidable_of_iff' _ (Iff.of_eq (k0_chk363.eq_1 v1685 v1686))
theorem k0_idx363_inb : ∀ (v1685 : IVec S16 32) (v1686 : IVec S16 32) (k0_hw363 : k0_chk363 v1685 v1686), ∀ a x, ((![v1685, v1686] : Fin 2 → IVec S16 32) a x).toNat < S1000x128.size a := fun v1685 v1686 k0_hw363 => k0_hw363

def k0_chk364 (v1689 : IVec S16 32) (v1690 : IVec S16 32) : Prop :=
  (∀ a x, ((![v1689, v1690] : Fin 2 → IVec S16 32) a x).toNat < S1000x128.size a)
instance k0_chk364.dec : ∀ (v1689 : IVec S16 32) (v1690 : IVec S16 32), Decidable (k0_chk364 v1689 v1690) := fun v1689 v1690 => decidable_of_iff' _ (Iff.of_eq (k0_chk364.eq_1 v1689 v1690))
theorem k0_idx364_inb : ∀ (v1689 : IVec S16 32) (v1690 : IVec S16 32) (k0_hw364 : k0_chk364 v1689 v1690), ∀ a x, ((![v1689, v1690] : Fin 2 → IVec S16 32) a x).toNat < S1000x128.size a := fun v1689 v1690 k0_hw364 => k0_hw364

def k0_chk365 (v1693 : IVec S16 32) (v1694 : IVec S16 32) : Prop :=
  (∀ a x, ((![v1693, v1694] : Fin 2 → IVec S16 32) a x).toNat < S1000x128.size a)
instance k0_chk365.dec : ∀ (v1693 : IVec S16 32) (v1694 : IVec S16 32), Decidable (k0_chk365 v1693 v1694) := fun v1693 v1694 => decidable_of_iff' _ (Iff.of_eq (k0_chk365.eq_1 v1693 v1694))
theorem k0_idx365_inb : ∀ (v1693 : IVec S16 32) (v1694 : IVec S16 32) (k0_hw365 : k0_chk365 v1693 v1694), ∀ a x, ((![v1693, v1694] : Fin 2 → IVec S16 32) a x).toNat < S1000x128.size a := fun v1693 v1694 k0_hw365 => k0_hw365

def k0_chk366 (v1697 : IVec S16 32) (v1698 : IVec S16 32) : Prop :=
  (∀ a x, ((![v1697, v1698] : Fin 2 → IVec S16 32) a x).toNat < S1000x128.size a)
instance k0_chk366.dec : ∀ (v1697 : IVec S16 32) (v1698 : IVec S16 32), Decidable (k0_chk366 v1697 v1698) := fun v1697 v1698 => decidable_of_iff' _ (Iff.of_eq (k0_chk366.eq_1 v1697 v1698))
theorem k0_idx366_inb : ∀ (v1697 : IVec S16 32) (v1698 : IVec S16 32) (k0_hw366 : k0_chk366 v1697 v1698), ∀ a x, ((![v1697, v1698] : Fin 2 → IVec S16 32) a x).toNat < S1000x128.size a := fun v1697 v1698 k0_hw366 => k0_hw366

def k0_chk367 (v1701 : IVec S16 32) (v1702 : IVec S16 32) : Prop :=
  (∀ a x, ((![v1701, v1702] : Fin 2 → IVec S16 32) a x).toNat < S1000x128.size a)
instance k0_chk367.dec : ∀ (v1701 : IVec S16 32) (v1702 : IVec S16 32), Decidable (k0_chk367 v1701 v1702) := fun v1701 v1702 => decidable_of_iff' _ (Iff.of_eq (k0_chk367.eq_1 v1701 v1702))
theorem k0_idx367_inb : ∀ (v1701 : IVec S16 32) (v1702 : IVec S16 32) (k0_hw367 : k0_chk367 v1701 v1702), ∀ a x, ((![v1701, v1702] : Fin 2 → IVec S16 32) a x).toNat < S1000x128.size a := fun v1701 v1702 k0_hw367 => k0_hw367

def k0_chk368 (v1705 : IVec S16 32) (v1706 : IVec S16 32) : Prop :=
  (∀ a x, ((![v1705, v1706] : Fin 2 → IVec S16 32) a x).toNat < S1000x128.size a)
instance k0_chk368.dec : ∀ (v1705 : IVec S16 32) (v1706 : IVec S16 32), Decidable (k0_chk368 v1705 v1706) := fun v1705 v1706 => decidable_of_iff' _ (Iff.of_eq (k0_chk368.eq_1 v1705 v1706))
theorem k0_idx368_inb : ∀ (v1705 : IVec S16 32) (v1706 : IVec S16 32) (k0_hw368 : k0_chk368 v1705 v1706), ∀ a x, ((![v1705, v1706] : Fin 2 → IVec S16 32) a x).toNat < S1000x128.size a := fun v1705 v1706 k0_hw368 => k0_hw368
def k0_off55 (i : grid0.Coords) : Fin 1 → Nat :=
  let c128_i32_1289 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_1287 : BitVec 32 := 26#32
  let v1709 : BitVec 32 := Scalar.muli v6 c26_i32_1287
  let c23_i32 : BitVec 32 := 23#32
  let v1710 : BitVec 32 := Scalar.addi v1709 c23_i32
  let c128_i32_1288 : BitVec 32 := 128#32
  let v1711 : BitVec 32 := Scalar.muli v1710 c128_i32_1288
  let v1712 : BitVec 32 := Scalar.addi c128_i32_1289 v1711
  ![v1712.toNat]

def k0_chk369 (v1713 : IVec S16 32) (v1714 : IVec S16 32) : Prop :=
  (∀ a x, ((![v1713, v1714] : Fin 2 → IVec S16 32) a x).toNat < S1000x128.size a)
instance k0_chk369.dec : ∀ (v1713 : IVec S16 32) (v1714 : IVec S16 32), Decidable (k0_chk369 v1713 v1714) := fun v1713 v1714 => decidable_of_iff' _ (Iff.of_eq (k0_chk369.eq_1 v1713 v1714))
theorem k0_idx369_inb : ∀ (v1713 : IVec S16 32) (v1714 : IVec S16 32) (k0_hw369 : k0_chk369 v1713 v1714), ∀ a x, ((![v1713, v1714] : Fin 2 → IVec S16 32) a x).toNat < S1000x128.size a := fun v1713 v1714 k0_hw369 => k0_hw369

def k0_chk370 (v1717 : IVec S16 32) (v1718 : IVec S16 32) : Prop :=
  (∀ a x, ((![v1717, v1718] : Fin 2 → IVec S16 32) a x).toNat < S1000x128.size a)
instance k0_chk370.dec : ∀ (v1717 : IVec S16 32) (v1718 : IVec S16 32), Decidable (k0_chk370 v1717 v1718) := fun v1717 v1718 => decidable_of_iff' _ (Iff.of_eq (k0_chk370.eq_1 v1717 v1718))
theorem k0_idx370_inb : ∀ (v1717 : IVec S16 32) (v1718 : IVec S16 32) (k0_hw370 : k0_chk370 v1717 v1718), ∀ a x, ((![v1717, v1718] : Fin 2 → IVec S16 32) a x).toNat < S1000x128.size a := fun v1717 v1718 k0_hw370 => k0_hw370

def k0_chk371 (v1721 : IVec S16 32) (v1722 : IVec S16 32) : Prop :=
  (∀ a x, ((![v1721, v1722] : Fin 2 → IVec S16 32) a x).toNat < S1000x128.size a)
instance k0_chk371.dec : ∀ (v1721 : IVec S16 32) (v1722 : IVec S16 32), Decidable (k0_chk371 v1721 v1722) := fun v1721 v1722 => decidable_of_iff' _ (Iff.of_eq (k0_chk371.eq_1 v1721 v1722))
theorem k0_idx371_inb : ∀ (v1721 : IVec S16 32) (v1722 : IVec S16 32) (k0_hw371 : k0_chk371 v1721 v1722), ∀ a x, ((![v1721, v1722] : Fin 2 → IVec S16 32) a x).toNat < S1000x128.size a := fun v1721 v1722 k0_hw371 => k0_hw371

def k0_chk372 (v1725 : IVec S16 32) (v1726 : IVec S16 32) : Prop :=
  (∀ a x, ((![v1725, v1726] : Fin 2 → IVec S16 32) a x).toNat < S1000x128.size a)
instance k0_chk372.dec : ∀ (v1725 : IVec S16 32) (v1726 : IVec S16 32), Decidable (k0_chk372 v1725 v1726) := fun v1725 v1726 => decidable_of_iff' _ (Iff.of_eq (k0_chk372.eq_1 v1725 v1726))
theorem k0_idx372_inb : ∀ (v1725 : IVec S16 32) (v1726 : IVec S16 32) (k0_hw372 : k0_chk372 v1725 v1726), ∀ a x, ((![v1725, v1726] : Fin 2 → IVec S16 32) a x).toNat < S1000x128.size a := fun v1725 v1726 k0_hw372 => k0_hw372

def k0_chk373 (v1729 : IVec S16 32) (v1730 : IVec S16 32) : Prop :=
  (∀ a x, ((![v1729, v1730] : Fin 2 → IVec S16 32) a x).toNat < S1000x128.size a)
instance k0_chk373.dec : ∀ (v1729 : IVec S16 32) (v1730 : IVec S16 32), Decidable (k0_chk373 v1729 v1730) := fun v1729 v1730 => decidable_of_iff' _ (Iff.of_eq (k0_chk373.eq_1 v1729 v1730))
theorem k0_idx373_inb : ∀ (v1729 : IVec S16 32) (v1730 : IVec S16 32) (k0_hw373 : k0_chk373 v1729 v1730), ∀ a x, ((![v1729, v1730] : Fin 2 → IVec S16 32) a x).toNat < S1000x128.size a := fun v1729 v1730 k0_hw373 => k0_hw373

def k0_chk374 (v1733 : IVec S16 32) (v1734 : IVec S16 32) : Prop :=
  (∀ a x, ((![v1733, v1734] : Fin 2 → IVec S16 32) a x).toNat < S1000x128.size a)
instance k0_chk374.dec : ∀ (v1733 : IVec S16 32) (v1734 : IVec S16 32), Decidable (k0_chk374 v1733 v1734) := fun v1733 v1734 => decidable_of_iff' _ (Iff.of_eq (k0_chk374.eq_1 v1733 v1734))
theorem k0_idx374_inb : ∀ (v1733 : IVec S16 32) (v1734 : IVec S16 32) (k0_hw374 : k0_chk374 v1733 v1734), ∀ a x, ((![v1733, v1734] : Fin 2 → IVec S16 32) a x).toNat < S1000x128.size a := fun v1733 v1734 k0_hw374 => k0_hw374

def k0_chk375 (v1737 : IVec S16 32) (v1738 : IVec S16 32) : Prop :=
  (∀ a x, ((![v1737, v1738] : Fin 2 → IVec S16 32) a x).toNat < S1000x128.size a)
instance k0_chk375.dec : ∀ (v1737 : IVec S16 32) (v1738 : IVec S16 32), Decidable (k0_chk375 v1737 v1738) := fun v1737 v1738 => decidable_of_iff' _ (Iff.of_eq (k0_chk375.eq_1 v1737 v1738))
theorem k0_idx375_inb : ∀ (v1737 : IVec S16 32) (v1738 : IVec S16 32) (k0_hw375 : k0_chk375 v1737 v1738), ∀ a x, ((![v1737, v1738] : Fin 2 → IVec S16 32) a x).toNat < S1000x128.size a := fun v1737 v1738 k0_hw375 => k0_hw375

def k0_chk376 (v1741 : IVec S16 32) (v1742 : IVec S16 32) : Prop :=
  (∀ a x, ((![v1741, v1742] : Fin 2 → IVec S16 32) a x).toNat < S1000x128.size a)
instance k0_chk376.dec : ∀ (v1741 : IVec S16 32) (v1742 : IVec S16 32), Decidable (k0_chk376 v1741 v1742) := fun v1741 v1742 => decidable_of_iff' _ (Iff.of_eq (k0_chk376.eq_1 v1741 v1742))
theorem k0_idx376_inb : ∀ (v1741 : IVec S16 32) (v1742 : IVec S16 32) (k0_hw376 : k0_chk376 v1741 v1742), ∀ a x, ((![v1741, v1742] : Fin 2 → IVec S16 32) a x).toNat < S1000x128.size a := fun v1741 v1742 k0_hw376 => k0_hw376
def k0_off56 (i : grid0.Coords) : Fin 2 → Nat :=
  let c23000_i32 : BitVec 32 := 23000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_1314 : BitVec 32 := 128#32
  let v1745 : BitVec 32 := Scalar.muli v6 c128_i32_1314
  ![23000, v1745.toNat]

def k0_chk377 (v1751 : IVec S16 32) (v1752 : IVec S16 32) : Prop :=
  (∀ a x, ((![v1751, v1752] : Fin 2 → IVec S16 32) a x).toNat < S1000x128.size a)
instance k0_chk377.dec : ∀ (v1751 : IVec S16 32) (v1752 : IVec S16 32), Decidable (k0_chk377 v1751 v1752) := fun v1751 v1752 => decidable_of_iff' _ (Iff.of_eq (k0_chk377.eq_1 v1751 v1752))
theorem k0_idx377_inb : ∀ (v1751 : IVec S16 32) (v1752 : IVec S16 32) (k0_hw377 : k0_chk377 v1751 v1752), ∀ a x, ((![v1751, v1752] : Fin 2 → IVec S16 32) a x).toNat < S1000x128.size a := fun v1751 v1752 k0_hw377 => k0_hw377

def k0_chk378 (v1755 : IVec S16 32) (v1756 : IVec S16 32) : Prop :=
  (∀ a x, ((![v1755, v1756] : Fin 2 → IVec S16 32) a x).toNat < S1000x128.size a)
instance k0_chk378.dec : ∀ (v1755 : IVec S16 32) (v1756 : IVec S16 32), Decidable (k0_chk378 v1755 v1756) := fun v1755 v1756 => decidable_of_iff' _ (Iff.of_eq (k0_chk378.eq_1 v1755 v1756))
theorem k0_idx378_inb : ∀ (v1755 : IVec S16 32) (v1756 : IVec S16 32) (k0_hw378 : k0_chk378 v1755 v1756), ∀ a x, ((![v1755, v1756] : Fin 2 → IVec S16 32) a x).toNat < S1000x128.size a := fun v1755 v1756 k0_hw378 => k0_hw378

def k0_chk379 (v1759 : IVec S16 32) (v1760 : IVec S16 32) : Prop :=
  (∀ a x, ((![v1759, v1760] : Fin 2 → IVec S16 32) a x).toNat < S1000x128.size a)
instance k0_chk379.dec : ∀ (v1759 : IVec S16 32) (v1760 : IVec S16 32), Decidable (k0_chk379 v1759 v1760) := fun v1759 v1760 => decidable_of_iff' _ (Iff.of_eq (k0_chk379.eq_1 v1759 v1760))
theorem k0_idx379_inb : ∀ (v1759 : IVec S16 32) (v1760 : IVec S16 32) (k0_hw379 : k0_chk379 v1759 v1760), ∀ a x, ((![v1759, v1760] : Fin 2 → IVec S16 32) a x).toNat < S1000x128.size a := fun v1759 v1760 k0_hw379 => k0_hw379

def k0_chk380 (v1763 : IVec S16 32) (v1764 : IVec S16 32) : Prop :=
  (∀ a x, ((![v1763, v1764] : Fin 2 → IVec S16 32) a x).toNat < S1000x128.size a)
instance k0_chk380.dec : ∀ (v1763 : IVec S16 32) (v1764 : IVec S16 32), Decidable (k0_chk380 v1763 v1764) := fun v1763 v1764 => decidable_of_iff' _ (Iff.of_eq (k0_chk380.eq_1 v1763 v1764))
theorem k0_idx380_inb : ∀ (v1763 : IVec S16 32) (v1764 : IVec S16 32) (k0_hw380 : k0_chk380 v1763 v1764), ∀ a x, ((![v1763, v1764] : Fin 2 → IVec S16 32) a x).toNat < S1000x128.size a := fun v1763 v1764 k0_hw380 => k0_hw380

def k0_chk381 (v1767 : IVec S16 32) (v1768 : IVec S16 32) : Prop :=
  (∀ a x, ((![v1767, v1768] : Fin 2 → IVec S16 32) a x).toNat < S1000x128.size a)
instance k0_chk381.dec : ∀ (v1767 : IVec S16 32) (v1768 : IVec S16 32), Decidable (k0_chk381 v1767 v1768) := fun v1767 v1768 => decidable_of_iff' _ (Iff.of_eq (k0_chk381.eq_1 v1767 v1768))
theorem k0_idx381_inb : ∀ (v1767 : IVec S16 32) (v1768 : IVec S16 32) (k0_hw381 : k0_chk381 v1767 v1768), ∀ a x, ((![v1767, v1768] : Fin 2 → IVec S16 32) a x).toNat < S1000x128.size a := fun v1767 v1768 k0_hw381 => k0_hw381

def k0_chk382 (v1771 : IVec S16 32) (v1772 : IVec S16 32) : Prop :=
  (∀ a x, ((![v1771, v1772] : Fin 2 → IVec S16 32) a x).toNat < S1000x128.size a)
instance k0_chk382.dec : ∀ (v1771 : IVec S16 32) (v1772 : IVec S16 32), Decidable (k0_chk382 v1771 v1772) := fun v1771 v1772 => decidable_of_iff' _ (Iff.of_eq (k0_chk382.eq_1 v1771 v1772))
theorem k0_idx382_inb : ∀ (v1771 : IVec S16 32) (v1772 : IVec S16 32) (k0_hw382 : k0_chk382 v1771 v1772), ∀ a x, ((![v1771, v1772] : Fin 2 → IVec S16 32) a x).toNat < S1000x128.size a := fun v1771 v1772 k0_hw382 => k0_hw382

def k0_chk383 (v1775 : IVec S16 32) (v1776 : IVec S16 32) : Prop :=
  (∀ a x, ((![v1775, v1776] : Fin 2 → IVec S16 32) a x).toNat < S1000x128.size a)
instance k0_chk383.dec : ∀ (v1775 : IVec S16 32) (v1776 : IVec S16 32), Decidable (k0_chk383 v1775 v1776) := fun v1775 v1776 => decidable_of_iff' _ (Iff.of_eq (k0_chk383.eq_1 v1775 v1776))
theorem k0_idx383_inb : ∀ (v1775 : IVec S16 32) (v1776 : IVec S16 32) (k0_hw383 : k0_chk383 v1775 v1776), ∀ a x, ((![v1775, v1776] : Fin 2 → IVec S16 32) a x).toNat < S1000x128.size a := fun v1775 v1776 k0_hw383 => k0_hw383

def k0_chk384 (v1779 : IVec S16 32) (v1780 : IVec S16 32) : Prop :=
  (∀ a x, ((![v1779, v1780] : Fin 2 → IVec S16 32) a x).toNat < S1000x128.size a)
instance k0_chk384.dec : ∀ (v1779 : IVec S16 32) (v1780 : IVec S16 32), Decidable (k0_chk384 v1779 v1780) := fun v1779 v1780 => decidable_of_iff' _ (Iff.of_eq (k0_chk384.eq_1 v1779 v1780))
theorem k0_idx384_inb : ∀ (v1779 : IVec S16 32) (v1780 : IVec S16 32) (k0_hw384 : k0_chk384 v1779 v1780), ∀ a x, ((![v1779, v1780] : Fin 2 → IVec S16 32) a x).toNat < S1000x128.size a := fun v1779 v1780 k0_hw384 => k0_hw384
def k0_off57 (i : grid0.Coords) : Fin 1 → Nat :=
  let c128_i32_1345 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_1343 : BitVec 32 := 26#32
  let v1783 : BitVec 32 := Scalar.muli v6 c26_i32_1343
  let c24_i32 : BitVec 32 := 24#32
  let v1784 : BitVec 32 := Scalar.addi v1783 c24_i32
  let c128_i32_1344 : BitVec 32 := 128#32
  let v1785 : BitVec 32 := Scalar.muli v1784 c128_i32_1344
  let v1786 : BitVec 32 := Scalar.addi c128_i32_1345 v1785
  ![v1786.toNat]

def k0_chk385 (v1787 : IVec S16 32) (v1788 : IVec S16 32) : Prop :=
  (∀ a x, ((![v1787, v1788] : Fin 2 → IVec S16 32) a x).toNat < S1000x128.size a)
instance k0_chk385.dec : ∀ (v1787 : IVec S16 32) (v1788 : IVec S16 32), Decidable (k0_chk385 v1787 v1788) := fun v1787 v1788 => decidable_of_iff' _ (Iff.of_eq (k0_chk385.eq_1 v1787 v1788))
theorem k0_idx385_inb : ∀ (v1787 : IVec S16 32) (v1788 : IVec S16 32) (k0_hw385 : k0_chk385 v1787 v1788), ∀ a x, ((![v1787, v1788] : Fin 2 → IVec S16 32) a x).toNat < S1000x128.size a := fun v1787 v1788 k0_hw385 => k0_hw385

def k0_chk386 (v1791 : IVec S16 32) (v1792 : IVec S16 32) : Prop :=
  (∀ a x, ((![v1791, v1792] : Fin 2 → IVec S16 32) a x).toNat < S1000x128.size a)
instance k0_chk386.dec : ∀ (v1791 : IVec S16 32) (v1792 : IVec S16 32), Decidable (k0_chk386 v1791 v1792) := fun v1791 v1792 => decidable_of_iff' _ (Iff.of_eq (k0_chk386.eq_1 v1791 v1792))
theorem k0_idx386_inb : ∀ (v1791 : IVec S16 32) (v1792 : IVec S16 32) (k0_hw386 : k0_chk386 v1791 v1792), ∀ a x, ((![v1791, v1792] : Fin 2 → IVec S16 32) a x).toNat < S1000x128.size a := fun v1791 v1792 k0_hw386 => k0_hw386

def k0_chk387 (v1795 : IVec S16 32) (v1796 : IVec S16 32) : Prop :=
  (∀ a x, ((![v1795, v1796] : Fin 2 → IVec S16 32) a x).toNat < S1000x128.size a)
instance k0_chk387.dec : ∀ (v1795 : IVec S16 32) (v1796 : IVec S16 32), Decidable (k0_chk387 v1795 v1796) := fun v1795 v1796 => decidable_of_iff' _ (Iff.of_eq (k0_chk387.eq_1 v1795 v1796))
theorem k0_idx387_inb : ∀ (v1795 : IVec S16 32) (v1796 : IVec S16 32) (k0_hw387 : k0_chk387 v1795 v1796), ∀ a x, ((![v1795, v1796] : Fin 2 → IVec S16 32) a x).toNat < S1000x128.size a := fun v1795 v1796 k0_hw387 => k0_hw387

def k0_chk388 (v1799 : IVec S16 32) (v1800 : IVec S16 32) : Prop :=
  (∀ a x, ((![v1799, v1800] : Fin 2 → IVec S16 32) a x).toNat < S1000x128.size a)
instance k0_chk388.dec : ∀ (v1799 : IVec S16 32) (v1800 : IVec S16 32), Decidable (k0_chk388 v1799 v1800) := fun v1799 v1800 => decidable_of_iff' _ (Iff.of_eq (k0_chk388.eq_1 v1799 v1800))
theorem k0_idx388_inb : ∀ (v1799 : IVec S16 32) (v1800 : IVec S16 32) (k0_hw388 : k0_chk388 v1799 v1800), ∀ a x, ((![v1799, v1800] : Fin 2 → IVec S16 32) a x).toNat < S1000x128.size a := fun v1799 v1800 k0_hw388 => k0_hw388

def k0_chk389 (v1803 : IVec S16 32) (v1804 : IVec S16 32) : Prop :=
  (∀ a x, ((![v1803, v1804] : Fin 2 → IVec S16 32) a x).toNat < S1000x128.size a)
instance k0_chk389.dec : ∀ (v1803 : IVec S16 32) (v1804 : IVec S16 32), Decidable (k0_chk389 v1803 v1804) := fun v1803 v1804 => decidable_of_iff' _ (Iff.of_eq (k0_chk389.eq_1 v1803 v1804))
theorem k0_idx389_inb : ∀ (v1803 : IVec S16 32) (v1804 : IVec S16 32) (k0_hw389 : k0_chk389 v1803 v1804), ∀ a x, ((![v1803, v1804] : Fin 2 → IVec S16 32) a x).toNat < S1000x128.size a := fun v1803 v1804 k0_hw389 => k0_hw389

def k0_chk390 (v1807 : IVec S16 32) (v1808 : IVec S16 32) : Prop :=
  (∀ a x, ((![v1807, v1808] : Fin 2 → IVec S16 32) a x).toNat < S1000x128.size a)
instance k0_chk390.dec : ∀ (v1807 : IVec S16 32) (v1808 : IVec S16 32), Decidable (k0_chk390 v1807 v1808) := fun v1807 v1808 => decidable_of_iff' _ (Iff.of_eq (k0_chk390.eq_1 v1807 v1808))
theorem k0_idx390_inb : ∀ (v1807 : IVec S16 32) (v1808 : IVec S16 32) (k0_hw390 : k0_chk390 v1807 v1808), ∀ a x, ((![v1807, v1808] : Fin 2 → IVec S16 32) a x).toNat < S1000x128.size a := fun v1807 v1808 k0_hw390 => k0_hw390

def k0_chk391 (v1811 : IVec S16 32) (v1812 : IVec S16 32) : Prop :=
  (∀ a x, ((![v1811, v1812] : Fin 2 → IVec S16 32) a x).toNat < S1000x128.size a)
instance k0_chk391.dec : ∀ (v1811 : IVec S16 32) (v1812 : IVec S16 32), Decidable (k0_chk391 v1811 v1812) := fun v1811 v1812 => decidable_of_iff' _ (Iff.of_eq (k0_chk391.eq_1 v1811 v1812))
theorem k0_idx391_inb : ∀ (v1811 : IVec S16 32) (v1812 : IVec S16 32) (k0_hw391 : k0_chk391 v1811 v1812), ∀ a x, ((![v1811, v1812] : Fin 2 → IVec S16 32) a x).toNat < S1000x128.size a := fun v1811 v1812 k0_hw391 => k0_hw391

def k0_chk392 (v1815 : IVec S16 32) (v1816 : IVec S16 32) : Prop :=
  (∀ a x, ((![v1815, v1816] : Fin 2 → IVec S16 32) a x).toNat < S1000x128.size a)
instance k0_chk392.dec : ∀ (v1815 : IVec S16 32) (v1816 : IVec S16 32), Decidable (k0_chk392 v1815 v1816) := fun v1815 v1816 => decidable_of_iff' _ (Iff.of_eq (k0_chk392.eq_1 v1815 v1816))
theorem k0_idx392_inb : ∀ (v1815 : IVec S16 32) (v1816 : IVec S16 32) (k0_hw392 : k0_chk392 v1815 v1816), ∀ a x, ((![v1815, v1816] : Fin 2 → IVec S16 32) a x).toNat < S1000x128.size a := fun v1815 v1816 k0_hw392 => k0_hw392
def k0_off58 (i : grid0.Coords) : Fin 2 → Nat :=
  let c24000_i32 : BitVec 32 := 24000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_1370 : BitVec 32 := 128#32
  let v1819 : BitVec 32 := Scalar.muli v6 c128_i32_1370
  ![24000, v1819.toNat]

def k0_chk393 (v1825 : IVec S16 32) (v1826 : IVec S16 32) : Prop :=
  (∀ a x, ((![v1825, v1826] : Fin 2 → IVec S16 32) a x).toNat < S1000x128.size a)
instance k0_chk393.dec : ∀ (v1825 : IVec S16 32) (v1826 : IVec S16 32), Decidable (k0_chk393 v1825 v1826) := fun v1825 v1826 => decidable_of_iff' _ (Iff.of_eq (k0_chk393.eq_1 v1825 v1826))
theorem k0_idx393_inb : ∀ (v1825 : IVec S16 32) (v1826 : IVec S16 32) (k0_hw393 : k0_chk393 v1825 v1826), ∀ a x, ((![v1825, v1826] : Fin 2 → IVec S16 32) a x).toNat < S1000x128.size a := fun v1825 v1826 k0_hw393 => k0_hw393

def k0_chk394 (v1829 : IVec S16 32) (v1830 : IVec S16 32) : Prop :=
  (∀ a x, ((![v1829, v1830] : Fin 2 → IVec S16 32) a x).toNat < S1000x128.size a)
instance k0_chk394.dec : ∀ (v1829 : IVec S16 32) (v1830 : IVec S16 32), Decidable (k0_chk394 v1829 v1830) := fun v1829 v1830 => decidable_of_iff' _ (Iff.of_eq (k0_chk394.eq_1 v1829 v1830))
theorem k0_idx394_inb : ∀ (v1829 : IVec S16 32) (v1830 : IVec S16 32) (k0_hw394 : k0_chk394 v1829 v1830), ∀ a x, ((![v1829, v1830] : Fin 2 → IVec S16 32) a x).toNat < S1000x128.size a := fun v1829 v1830 k0_hw394 => k0_hw394

def k0_chk395 (v1833 : IVec S16 32) (v1834 : IVec S16 32) : Prop :=
  (∀ a x, ((![v1833, v1834] : Fin 2 → IVec S16 32) a x).toNat < S1000x128.size a)
instance k0_chk395.dec : ∀ (v1833 : IVec S16 32) (v1834 : IVec S16 32), Decidable (k0_chk395 v1833 v1834) := fun v1833 v1834 => decidable_of_iff' _ (Iff.of_eq (k0_chk395.eq_1 v1833 v1834))
theorem k0_idx395_inb : ∀ (v1833 : IVec S16 32) (v1834 : IVec S16 32) (k0_hw395 : k0_chk395 v1833 v1834), ∀ a x, ((![v1833, v1834] : Fin 2 → IVec S16 32) a x).toNat < S1000x128.size a := fun v1833 v1834 k0_hw395 => k0_hw395

def k0_chk396 (v1837 : IVec S16 32) (v1838 : IVec S16 32) : Prop :=
  (∀ a x, ((![v1837, v1838] : Fin 2 → IVec S16 32) a x).toNat < S1000x128.size a)
instance k0_chk396.dec : ∀ (v1837 : IVec S16 32) (v1838 : IVec S16 32), Decidable (k0_chk396 v1837 v1838) := fun v1837 v1838 => decidable_of_iff' _ (Iff.of_eq (k0_chk396.eq_1 v1837 v1838))
theorem k0_idx396_inb : ∀ (v1837 : IVec S16 32) (v1838 : IVec S16 32) (k0_hw396 : k0_chk396 v1837 v1838), ∀ a x, ((![v1837, v1838] : Fin 2 → IVec S16 32) a x).toNat < S1000x128.size a := fun v1837 v1838 k0_hw396 => k0_hw396

def k0_chk397 (v1841 : IVec S16 32) (v1842 : IVec S16 32) : Prop :=
  (∀ a x, ((![v1841, v1842] : Fin 2 → IVec S16 32) a x).toNat < S1000x128.size a)
instance k0_chk397.dec : ∀ (v1841 : IVec S16 32) (v1842 : IVec S16 32), Decidable (k0_chk397 v1841 v1842) := fun v1841 v1842 => decidable_of_iff' _ (Iff.of_eq (k0_chk397.eq_1 v1841 v1842))
theorem k0_idx397_inb : ∀ (v1841 : IVec S16 32) (v1842 : IVec S16 32) (k0_hw397 : k0_chk397 v1841 v1842), ∀ a x, ((![v1841, v1842] : Fin 2 → IVec S16 32) a x).toNat < S1000x128.size a := fun v1841 v1842 k0_hw397 => k0_hw397

def k0_chk398 (v1845 : IVec S16 32) (v1846 : IVec S16 32) : Prop :=
  (∀ a x, ((![v1845, v1846] : Fin 2 → IVec S16 32) a x).toNat < S1000x128.size a)
instance k0_chk398.dec : ∀ (v1845 : IVec S16 32) (v1846 : IVec S16 32), Decidable (k0_chk398 v1845 v1846) := fun v1845 v1846 => decidable_of_iff' _ (Iff.of_eq (k0_chk398.eq_1 v1845 v1846))
theorem k0_idx398_inb : ∀ (v1845 : IVec S16 32) (v1846 : IVec S16 32) (k0_hw398 : k0_chk398 v1845 v1846), ∀ a x, ((![v1845, v1846] : Fin 2 → IVec S16 32) a x).toNat < S1000x128.size a := fun v1845 v1846 k0_hw398 => k0_hw398

def k0_chk399 (v1849 : IVec S16 32) (v1850 : IVec S16 32) : Prop :=
  (∀ a x, ((![v1849, v1850] : Fin 2 → IVec S16 32) a x).toNat < S1000x128.size a)
instance k0_chk399.dec : ∀ (v1849 : IVec S16 32) (v1850 : IVec S16 32), Decidable (k0_chk399 v1849 v1850) := fun v1849 v1850 => decidable_of_iff' _ (Iff.of_eq (k0_chk399.eq_1 v1849 v1850))
theorem k0_idx399_inb : ∀ (v1849 : IVec S16 32) (v1850 : IVec S16 32) (k0_hw399 : k0_chk399 v1849 v1850), ∀ a x, ((![v1849, v1850] : Fin 2 → IVec S16 32) a x).toNat < S1000x128.size a := fun v1849 v1850 k0_hw399 => k0_hw399

def k0_chk400 (v1853 : IVec S16 32) (v1854 : IVec S16 32) : Prop :=
  (∀ a x, ((![v1853, v1854] : Fin 2 → IVec S16 32) a x).toNat < S1000x128.size a)
instance k0_chk400.dec : ∀ (v1853 : IVec S16 32) (v1854 : IVec S16 32), Decidable (k0_chk400 v1853 v1854) := fun v1853 v1854 => decidable_of_iff' _ (Iff.of_eq (k0_chk400.eq_1 v1853 v1854))
theorem k0_idx400_inb : ∀ (v1853 : IVec S16 32) (v1854 : IVec S16 32) (k0_hw400 : k0_chk400 v1853 v1854), ∀ a x, ((![v1853, v1854] : Fin 2 → IVec S16 32) a x).toNat < S1000x128.size a := fun v1853 v1854 k0_hw400 => k0_hw400
def k0_off59 (i : grid0.Coords) : Fin 1 → Nat :=
  let c128_i32_1401 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c26_i32_1399 : BitVec 32 := 26#32
  let v1857 : BitVec 32 := Scalar.muli v6 c26_i32_1399
  let c25_i32 : BitVec 32 := 25#32
  let v1858 : BitVec 32 := Scalar.addi v1857 c25_i32
  let c128_i32_1400 : BitVec 32 := 128#32
  let v1859 : BitVec 32 := Scalar.muli v1858 c128_i32_1400
  let v1860 : BitVec 32 := Scalar.addi c128_i32_1401 v1859
  ![v1860.toNat]

def k0_chk401 (v1861 : IVec S16 32) (v1862 : IVec S16 32) : Prop :=
  (∀ a x, ((![v1861, v1862] : Fin 2 → IVec S16 32) a x).toNat < S1000x128.size a)
instance k0_chk401.dec : ∀ (v1861 : IVec S16 32) (v1862 : IVec S16 32), Decidable (k0_chk401 v1861 v1862) := fun v1861 v1862 => decidable_of_iff' _ (Iff.of_eq (k0_chk401.eq_1 v1861 v1862))
theorem k0_idx401_inb : ∀ (v1861 : IVec S16 32) (v1862 : IVec S16 32) (k0_hw401 : k0_chk401 v1861 v1862), ∀ a x, ((![v1861, v1862] : Fin 2 → IVec S16 32) a x).toNat < S1000x128.size a := fun v1861 v1862 k0_hw401 => k0_hw401

def k0_chk402 (v1865 : IVec S16 32) (v1866 : IVec S16 32) : Prop :=
  (∀ a x, ((![v1865, v1866] : Fin 2 → IVec S16 32) a x).toNat < S1000x128.size a)
instance k0_chk402.dec : ∀ (v1865 : IVec S16 32) (v1866 : IVec S16 32), Decidable (k0_chk402 v1865 v1866) := fun v1865 v1866 => decidable_of_iff' _ (Iff.of_eq (k0_chk402.eq_1 v1865 v1866))
theorem k0_idx402_inb : ∀ (v1865 : IVec S16 32) (v1866 : IVec S16 32) (k0_hw402 : k0_chk402 v1865 v1866), ∀ a x, ((![v1865, v1866] : Fin 2 → IVec S16 32) a x).toNat < S1000x128.size a := fun v1865 v1866 k0_hw402 => k0_hw402

def k0_chk403 (v1869 : IVec S16 32) (v1870 : IVec S16 32) : Prop :=
  (∀ a x, ((![v1869, v1870] : Fin 2 → IVec S16 32) a x).toNat < S1000x128.size a)
instance k0_chk403.dec : ∀ (v1869 : IVec S16 32) (v1870 : IVec S16 32), Decidable (k0_chk403 v1869 v1870) := fun v1869 v1870 => decidable_of_iff' _ (Iff.of_eq (k0_chk403.eq_1 v1869 v1870))
theorem k0_idx403_inb : ∀ (v1869 : IVec S16 32) (v1870 : IVec S16 32) (k0_hw403 : k0_chk403 v1869 v1870), ∀ a x, ((![v1869, v1870] : Fin 2 → IVec S16 32) a x).toNat < S1000x128.size a := fun v1869 v1870 k0_hw403 => k0_hw403

def k0_chk404 (v1873 : IVec S16 32) (v1874 : IVec S16 32) : Prop :=
  (∀ a x, ((![v1873, v1874] : Fin 2 → IVec S16 32) a x).toNat < S1000x128.size a)
instance k0_chk404.dec : ∀ (v1873 : IVec S16 32) (v1874 : IVec S16 32), Decidable (k0_chk404 v1873 v1874) := fun v1873 v1874 => decidable_of_iff' _ (Iff.of_eq (k0_chk404.eq_1 v1873 v1874))
theorem k0_idx404_inb : ∀ (v1873 : IVec S16 32) (v1874 : IVec S16 32) (k0_hw404 : k0_chk404 v1873 v1874), ∀ a x, ((![v1873, v1874] : Fin 2 → IVec S16 32) a x).toNat < S1000x128.size a := fun v1873 v1874 k0_hw404 => k0_hw404

def k0_chk405 (v1877 : IVec S16 32) (v1878 : IVec S16 32) : Prop :=
  (∀ a x, ((![v1877, v1878] : Fin 2 → IVec S16 32) a x).toNat < S1000x128.size a)
instance k0_chk405.dec : ∀ (v1877 : IVec S16 32) (v1878 : IVec S16 32), Decidable (k0_chk405 v1877 v1878) := fun v1877 v1878 => decidable_of_iff' _ (Iff.of_eq (k0_chk405.eq_1 v1877 v1878))
theorem k0_idx405_inb : ∀ (v1877 : IVec S16 32) (v1878 : IVec S16 32) (k0_hw405 : k0_chk405 v1877 v1878), ∀ a x, ((![v1877, v1878] : Fin 2 → IVec S16 32) a x).toNat < S1000x128.size a := fun v1877 v1878 k0_hw405 => k0_hw405

def k0_chk406 (v1881 : IVec S16 32) (v1882 : IVec S16 32) : Prop :=
  (∀ a x, ((![v1881, v1882] : Fin 2 → IVec S16 32) a x).toNat < S1000x128.size a)
instance k0_chk406.dec : ∀ (v1881 : IVec S16 32) (v1882 : IVec S16 32), Decidable (k0_chk406 v1881 v1882) := fun v1881 v1882 => decidable_of_iff' _ (Iff.of_eq (k0_chk406.eq_1 v1881 v1882))
theorem k0_idx406_inb : ∀ (v1881 : IVec S16 32) (v1882 : IVec S16 32) (k0_hw406 : k0_chk406 v1881 v1882), ∀ a x, ((![v1881, v1882] : Fin 2 → IVec S16 32) a x).toNat < S1000x128.size a := fun v1881 v1882 k0_hw406 => k0_hw406

def k0_chk407 (v1885 : IVec S16 32) (v1886 : IVec S16 32) : Prop :=
  (∀ a x, ((![v1885, v1886] : Fin 2 → IVec S16 32) a x).toNat < S1000x128.size a)
instance k0_chk407.dec : ∀ (v1885 : IVec S16 32) (v1886 : IVec S16 32), Decidable (k0_chk407 v1885 v1886) := fun v1885 v1886 => decidable_of_iff' _ (Iff.of_eq (k0_chk407.eq_1 v1885 v1886))
theorem k0_idx407_inb : ∀ (v1885 : IVec S16 32) (v1886 : IVec S16 32) (k0_hw407 : k0_chk407 v1885 v1886), ∀ a x, ((![v1885, v1886] : Fin 2 → IVec S16 32) a x).toNat < S1000x128.size a := fun v1885 v1886 k0_hw407 => k0_hw407

def k0_chk408 (v1889 : IVec S16 32) (v1890 : IVec S16 32) : Prop :=
  (∀ a x, ((![v1889, v1890] : Fin 2 → IVec S16 32) a x).toNat < S1000x128.size a)
instance k0_chk408.dec : ∀ (v1889 : IVec S16 32) (v1890 : IVec S16 32), Decidable (k0_chk408 v1889 v1890) := fun v1889 v1890 => decidable_of_iff' _ (Iff.of_eq (k0_chk408.eq_1 v1889 v1890))
theorem k0_idx408_inb : ∀ (v1889 : IVec S16 32) (v1890 : IVec S16 32) (k0_hw408 : k0_chk408 v1889 v1890), ∀ a x, ((![v1889, v1890] : Fin 2 → IVec S16 32) a x).toNat < S1000x128.size a := fun v1889 v1890 k0_hw408 => k0_hw408
def k0_off60 (i : grid0.Coords) : Fin 2 → Nat :=
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_2 : BitVec 32 := 1#32
  let v5 : BitVec 32 := Scalar.muli v1 c1_i32_2
  let c0_i32_3 : BitVec 32 := 0#32
  let v6 : BitVec 32 := Scalar.addi v5 c0_i32_3
  let c128_i32_1426 : BitVec 32 := 128#32
  let v1893 : BitVec 32 := Scalar.muli v6 c128_i32_1426
  ![25000, v1893.toNat]

def k0_chk409 (v1899 : IVec S16 32) (v1900 : IVec S16 32) : Prop :=
  (∀ a x, ((![v1899, v1900] : Fin 2 → IVec S16 32) a x).toNat < S1000x128.size a)
instance k0_chk409.dec : ∀ (v1899 : IVec S16 32) (v1900 : IVec S16 32), Decidable (k0_chk409 v1899 v1900) := fun v1899 v1900 => decidable_of_iff' _ (Iff.of_eq (k0_chk409.eq_1 v1899 v1900))
theorem k0_idx409_inb : ∀ (v1899 : IVec S16 32) (v1900 : IVec S16 32) (k0_hw409 : k0_chk409 v1899 v1900), ∀ a x, ((![v1899, v1900] : Fin 2 → IVec S16 32) a x).toNat < S1000x128.size a := fun v1899 v1900 k0_hw409 => k0_hw409

def k0_chk410 (v1903 : IVec S16 32) (v1904 : IVec S16 32) : Prop :=
  (∀ a x, ((![v1903, v1904] : Fin 2 → IVec S16 32) a x).toNat < S1000x128.size a)
instance k0_chk410.dec : ∀ (v1903 : IVec S16 32) (v1904 : IVec S16 32), Decidable (k0_chk410 v1903 v1904) := fun v1903 v1904 => decidable_of_iff' _ (Iff.of_eq (k0_chk410.eq_1 v1903 v1904))
theorem k0_idx410_inb : ∀ (v1903 : IVec S16 32) (v1904 : IVec S16 32) (k0_hw410 : k0_chk410 v1903 v1904), ∀ a x, ((![v1903, v1904] : Fin 2 → IVec S16 32) a x).toNat < S1000x128.size a := fun v1903 v1904 k0_hw410 => k0_hw410

def k0_chk411 (v1907 : IVec S16 32) (v1908 : IVec S16 32) : Prop :=
  (∀ a x, ((![v1907, v1908] : Fin 2 → IVec S16 32) a x).toNat < S1000x128.size a)
instance k0_chk411.dec : ∀ (v1907 : IVec S16 32) (v1908 : IVec S16 32), Decidable (k0_chk411 v1907 v1908) := fun v1907 v1908 => decidable_of_iff' _ (Iff.of_eq (k0_chk411.eq_1 v1907 v1908))
theorem k0_idx411_inb : ∀ (v1907 : IVec S16 32) (v1908 : IVec S16 32) (k0_hw411 : k0_chk411 v1907 v1908), ∀ a x, ((![v1907, v1908] : Fin 2 → IVec S16 32) a x).toNat < S1000x128.size a := fun v1907 v1908 k0_hw411 => k0_hw411

def k0_chk412 (v1911 : IVec S16 32) (v1912 : IVec S16 32) : Prop :=
  (∀ a x, ((![v1911, v1912] : Fin 2 → IVec S16 32) a x).toNat < S1000x128.size a)
instance k0_chk412.dec : ∀ (v1911 : IVec S16 32) (v1912 : IVec S16 32), Decidable (k0_chk412 v1911 v1912) := fun v1911 v1912 => decidable_of_iff' _ (Iff.of_eq (k0_chk412.eq_1 v1911 v1912))
theorem k0_idx412_inb : ∀ (v1911 : IVec S16 32) (v1912 : IVec S16 32) (k0_hw412 : k0_chk412 v1911 v1912), ∀ a x, ((![v1911, v1912] : Fin 2 → IVec S16 32) a x).toNat < S1000x128.size a := fun v1911 v1912 k0_hw412 => k0_hw412

def k0_chk413 (v1915 : IVec S16 32) (v1916 : IVec S16 32) : Prop :=
  (∀ a x, ((![v1915, v1916] : Fin 2 → IVec S16 32) a x).toNat < S1000x128.size a)
instance k0_chk413.dec : ∀ (v1915 : IVec S16 32) (v1916 : IVec S16 32), Decidable (k0_chk413 v1915 v1916) := fun v1915 v1916 => decidable_of_iff' _ (Iff.of_eq (k0_chk413.eq_1 v1915 v1916))
theorem k0_idx413_inb : ∀ (v1915 : IVec S16 32) (v1916 : IVec S16 32) (k0_hw413 : k0_chk413 v1915 v1916), ∀ a x, ((![v1915, v1916] : Fin 2 → IVec S16 32) a x).toNat < S1000x128.size a := fun v1915 v1916 k0_hw413 => k0_hw413

def k0_chk414 (v1919 : IVec S16 32) (v1920 : IVec S16 32) : Prop :=
  (∀ a x, ((![v1919, v1920] : Fin 2 → IVec S16 32) a x).toNat < S1000x128.size a)
instance k0_chk414.dec : ∀ (v1919 : IVec S16 32) (v1920 : IVec S16 32), Decidable (k0_chk414 v1919 v1920) := fun v1919 v1920 => decidable_of_iff' _ (Iff.of_eq (k0_chk414.eq_1 v1919 v1920))
theorem k0_idx414_inb : ∀ (v1919 : IVec S16 32) (v1920 : IVec S16 32) (k0_hw414 : k0_chk414 v1919 v1920), ∀ a x, ((![v1919, v1920] : Fin 2 → IVec S16 32) a x).toNat < S1000x128.size a := fun v1919 v1920 k0_hw414 => k0_hw414

def k0_chk415 (v1923 : IVec S16 32) (v1924 : IVec S16 32) : Prop :=
  (∀ a x, ((![v1923, v1924] : Fin 2 → IVec S16 32) a x).toNat < S1000x128.size a)
instance k0_chk415.dec : ∀ (v1923 : IVec S16 32) (v1924 : IVec S16 32), Decidable (k0_chk415 v1923 v1924) := fun v1923 v1924 => decidable_of_iff' _ (Iff.of_eq (k0_chk415.eq_1 v1923 v1924))
theorem k0_idx415_inb : ∀ (v1923 : IVec S16 32) (v1924 : IVec S16 32) (k0_hw415 : k0_chk415 v1923 v1924), ∀ a x, ((![v1923, v1924] : Fin 2 → IVec S16 32) a x).toNat < S1000x128.size a := fun v1923 v1924 k0_hw415 => k0_hw415

def k0_chk416 (v1927 : IVec S16 32) (v1928 : IVec S16 32) : Prop :=
  (∀ a x, ((![v1927, v1928] : Fin 2 → IVec S16 32) a x).toNat < S1000x128.size a)
instance k0_chk416.dec : ∀ (v1927 : IVec S16 32) (v1928 : IVec S16 32), Decidable (k0_chk416 v1927 v1928) := fun v1927 v1928 => decidable_of_iff' _ (Iff.of_eq (k0_chk416.eq_1 v1927 v1928))
theorem k0_idx416_inb : ∀ (v1927 : IVec S16 32) (v1928 : IVec S16 32) (k0_hw416 : k0_chk416 v1927 v1928), ∀ a x, ((![v1927, v1928] : Fin 2 → IVec S16 32) a x).toNat < S1000x128.size a := fun v1927 v1928 k0_hw416 => k0_hw416
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x26_S32x128x26 : S4096x26.ShapeCasts S32x128x26
  transposes_S32x128x26_S32x26x128_0_2_1 : S32x128x26.Transposes [0, 2, 1] S32x26x128
  shapeCasts_S32x26x128_S106496 : S32x26x128.ShapeCasts S106496
  concatenates_S128_S106496_S106624_d0 : Shape.Concatenates [S128, S106496] S106624 0
  inb_S106624_S128_0 : ∀ a, (![0] : Fin 1 → Nat) a + S128.size a ≤ S106624.size a
  h_S1x16 : 0 < S1x16.numel
  shapeCasts_S1x16_S16 : S1x16.ShapeCasts S16
  shapeCasts_S16_S1x16 : S16.ShapeCasts S1x16
  inb_S128_S16_0 : ∀ a, (![0] : Fin 1 → Nat) a + S16.size a ≤ S128.size a
  h_S16 : 0 < S16.numel
  h_S1000x128 : 0 < S1000x128.numel
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  transposes_S26000x4096_S4096x26000_1_0 : S26000x4096.Transposes [1, 0] S4096x26000
  hcc0_scratch3 : 0 + S_.numel ≤ 28
  hcc0_scoped0 : 1 + S_.numel ≤ 28
  hcc0_scoped1 : 2 + S_.numel ≤ 28
  hcc0_scoped2 : 3 + S_.numel ≤ 28
  hcc0_scoped3 : 4 + S_.numel ≤ 28
  hcc0_scoped4 : 5 + S_.numel ≤ 28
  hcc0_scoped5 : 6 + S_.numel ≤ 28
  hcc0_scoped6 : 7 + S_.numel ≤ 28
  hcc0_scoped7 : 8 + S_.numel ≤ 28
  hcc0_scoped8 : 9 + S_.numel ≤ 28
  hcc0_scoped9 : 10 + S_.numel ≤ 28
  hcc0_scoped10 : 11 + S_.numel ≤ 28
  hcc0_scoped11 : 12 + S_.numel ≤ 28
  hcc0_scoped12 : 13 + S_.numel ≤ 28
  hcc0_scoped13 : 14 + S_.numel ≤ 28
  hcc0_scoped14 : 15 + S_.numel ≤ 28
  hcc0_scoped15 : 16 + S_.numel ≤ 28
  hcc0_scoped16 : 17 + S_.numel ≤ 28
  hcc0_scoped17 : 18 + S_.numel ≤ 28
  hcc0_scoped18 : 19 + S_.numel ≤ 28
  hcc0_scoped19 : 20 + S_.numel ≤ 28
  hcc0_scoped20 : 21 + S_.numel ≤ 28
  hcc0_scoped21 : 22 + S_.numel ≤ 28
  hcc0_scoped22 : 23 + S_.numel ≤ 28
  hcc0_scoped23 : 24 + S_.numel ≤ 28
  hcc0_scoped24 : 25 + S_.numel ≤ 28
  hcc0_scoped25 : 26 + S_.numel ≤ 28
  hcc0_scoped26 : 27 + S_.numel ≤ 28
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x16.size a ≤ S1000x128.size a
  k0_off2_inb : ∀ k0_t1 : Fin k0_t1_loop.trips, ∀ a, (k0_off2 k0_t1) a + S1x16.size a ≤ S1000x128.size a
  k0_off3_inb : ∀ k0_t1 : Fin k0_t1_loop.trips, ∀ a, (k0_off3 k0_t1) a + S1x16.size a ≤ S1000x128.size a
  k0_off4_inb : ∀ k0_t1 : Fin k0_t1_loop.trips, ∀ a, (k0_off4 k0_t1) a + S1x16.size a ≤ S1000x128.size a
  k0_off5_inb : ∀ k0_t1 : Fin k0_t1_loop.trips, ∀ a, (k0_off5 k0_t1) a + S1x16.size a ≤ S1000x128.size a
  k0_off6_inb : ∀ k0_t1 : Fin k0_t1_loop.trips, ∀ a, (k0_off6 k0_t1) a + S1x16.size a ≤ S1000x128.size a
  k0_off7_inb : ∀ k0_t1 : Fin k0_t1_loop.trips, ∀ a, (k0_off7 k0_t1) a + S1x16.size a ≤ S1000x128.size a
  k0_off8_inb : ∀ k0_t1 : Fin k0_t1_loop.trips, ∀ a, (k0_off8 k0_t1) a + S1x16.size a ≤ S1000x128.size a
  k0_off9_inb : ∀ i : grid0.Coords, ∀ a, (k0_off9 i) a + S128.size a ≤ S106624.size a
  k0_off10_inb : ∀ i : grid0.Coords, ∀ a, (k0_off10 i) a + S1000x128.size a ≤ S26000x4096.size a
  k0_off11_inb : ∀ i : grid0.Coords, ∀ a, (k0_off11 i) a + S128.size a ≤ S106624.size a
  k0_off12_inb : ∀ i : grid0.Coords, ∀ a, (k0_off12 i) a + S1000x128.size a ≤ S26000x4096.size a
  k0_off13_inb : ∀ i : grid0.Coords, ∀ a, (k0_off13 i) a + S128.size a ≤ S106624.size a
  k0_off14_inb : ∀ i : grid0.Coords, ∀ a, (k0_off14 i) a + S1000x128.size a ≤ S26000x4096.size a
  k0_off15_inb : ∀ i : grid0.Coords, ∀ a, (k0_off15 i) a + S128.size a ≤ S106624.size a
  k0_off16_inb : ∀ i : grid0.Coords, ∀ a, (k0_off16 i) a + S1000x128.size a ≤ S26000x4096.size a
  k0_off17_inb : ∀ i : grid0.Coords, ∀ a, (k0_off17 i) a + S128.size a ≤ S106624.size a
  k0_off18_inb : ∀ i : grid0.Coords, ∀ a, (k0_off18 i) a + S1000x128.size a ≤ S26000x4096.size a
  k0_off19_inb : ∀ i : grid0.Coords, ∀ a, (k0_off19 i) a + S128.size a ≤ S106624.size a
  k0_off20_inb : ∀ i : grid0.Coords, ∀ a, (k0_off20 i) a + S1000x128.size a ≤ S26000x4096.size a
  k0_off21_inb : ∀ i : grid0.Coords, ∀ a, (k0_off21 i) a + S128.size a ≤ S106624.size a
  k0_off22_inb : ∀ i : grid0.Coords, ∀ a, (k0_off22 i) a + S1000x128.size a ≤ S26000x4096.size a
  k0_off23_inb : ∀ i : grid0.Coords, ∀ a, (k0_off23 i) a + S128.size a ≤ S106624.size a
  k0_off24_inb : ∀ i : grid0.Coords, ∀ a, (k0_off24 i) a + S1000x128.size a ≤ S26000x4096.size a
  k0_off25_inb : ∀ i : grid0.Coords, ∀ a, (k0_off25 i) a + S128.size a ≤ S106624.size a
  k0_off26_inb : ∀ i : grid0.Coords, ∀ a, (k0_off26 i) a + S1000x128.size a ≤ S26000x4096.size a
  k0_off27_inb : ∀ i : grid0.Coords, ∀ a, (k0_off27 i) a + S128.size a ≤ S106624.size a
  k0_off28_inb : ∀ i : grid0.Coords, ∀ a, (k0_off28 i) a + S1000x128.size a ≤ S26000x4096.size a
  k0_off29_inb : ∀ i : grid0.Coords, ∀ a, (k0_off29 i) a + S128.size a ≤ S106624.size a
  k0_off30_inb : ∀ i : grid0.Coords, ∀ a, (k0_off30 i) a + S1000x128.size a ≤ S26000x4096.size a
  k0_off31_inb : ∀ i : grid0.Coords, ∀ a, (k0_off31 i) a + S128.size a ≤ S106624.size a
  k0_off32_inb : ∀ i : grid0.Coords, ∀ a, (k0_off32 i) a + S1000x128.size a ≤ S26000x4096.size a
  k0_off33_inb : ∀ i : grid0.Coords, ∀ a, (k0_off33 i) a + S128.size a ≤ S106624.size a
  k0_off34_inb : ∀ i : grid0.Coords, ∀ a, (k0_off34 i) a + S1000x128.size a ≤ S26000x4096.size a
  k0_off35_inb : ∀ i : grid0.Coords, ∀ a, (k0_off35 i) a + S128.size a ≤ S106624.size a
  k0_off36_inb : ∀ i : grid0.Coords, ∀ a, (k0_off36 i) a + S1000x128.size a ≤ S26000x4096.size a
  k0_off37_inb : ∀ i : grid0.Coords, ∀ a, (k0_off37 i) a + S128.size a ≤ S106624.size a
  k0_off38_inb : ∀ i : grid0.Coords, ∀ a, (k0_off38 i) a + S1000x128.size a ≤ S26000x4096.size a
  k0_off39_inb : ∀ i : grid0.Coords, ∀ a, (k0_off39 i) a + S128.size a ≤ S106624.size a
  k0_off40_inb : ∀ i : grid0.Coords, ∀ a, (k0_off40 i) a + S1000x128.size a ≤ S26000x4096.size a
  k0_off41_inb : ∀ i : grid0.Coords, ∀ a, (k0_off41 i) a + S128.size a ≤ S106624.size a
  k0_off42_inb : ∀ i : grid0.Coords, ∀ a, (k0_off42 i) a + S1000x128.size a ≤ S26000x4096.size a
  k0_off43_inb : ∀ i : grid0.Coords, ∀ a, (k0_off43 i) a + S128.size a ≤ S106624.size a
  k0_off44_inb : ∀ i : grid0.Coords, ∀ a, (k0_off44 i) a + S1000x128.size a ≤ S26000x4096.size a
  k0_off45_inb : ∀ i : grid0.Coords, ∀ a, (k0_off45 i) a + S128.size a ≤ S106624.size a
  k0_off46_inb : ∀ i : grid0.Coords, ∀ a, (k0_off46 i) a + S1000x128.size a ≤ S26000x4096.size a
  k0_off47_inb : ∀ i : grid0.Coords, ∀ a, (k0_off47 i) a + S128.size a ≤ S106624.size a
  k0_off48_inb : ∀ i : grid0.Coords, ∀ a, (k0_off48 i) a + S1000x128.size a ≤ S26000x4096.size a
  k0_off49_inb : ∀ i : grid0.Coords, ∀ a, (k0_off49 i) a + S128.size a ≤ S106624.size a
  k0_off50_inb : ∀ i : grid0.Coords, ∀ a, (k0_off50 i) a + S1000x128.size a ≤ S26000x4096.size a
  k0_off51_inb : ∀ i : grid0.Coords, ∀ a, (k0_off51 i) a + S128.size a ≤ S106624.size a
  k0_off52_inb : ∀ i : grid0.Coords, ∀ a, (k0_off52 i) a + S1000x128.size a ≤ S26000x4096.size a
  k0_off53_inb : ∀ i : grid0.Coords, ∀ a, (k0_off53 i) a + S128.size a ≤ S106624.size a
  k0_off54_inb : ∀ i : grid0.Coords, ∀ a, (k0_off54 i) a + S1000x128.size a ≤ S26000x4096.size a
  k0_off55_inb : ∀ i : grid0.Coords, ∀ a, (k0_off55 i) a + S128.size a ≤ S106624.size a
  k0_off56_inb : ∀ i : grid0.Coords, ∀ a, (k0_off56 i) a + S1000x128.size a ≤ S26000x4096.size a
  k0_off57_inb : ∀ i : grid0.Coords, ∀ a, (k0_off57 i) a + S128.size a ≤ S106624.size a
  k0_off58_inb : ∀ i : grid0.Coords, ∀ a, (k0_off58 i) a + S1000x128.size a ≤ S26000x4096.size a
  k0_off59_inb : ∀ i : grid0.Coords, ∀ a, (k0_off59 i) a + S128.size a ≤ S106624.size a
  k0_off60_inb : ∀ i : grid0.Coords, ∀ a, (k0_off60 i) a + S1000x128.size a ≤ S26000x4096.size a

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
abbrev cc0_scoped5 : DmaSems sig S_ := SemArray.consecutive 6 S_ hcc0_scoped5
abbrev cc0_scoped6 : DmaSems sig S_ := SemArray.consecutive 7 S_ hcc0_scoped6
abbrev cc0_scoped7 : DmaSems sig S_ := SemArray.consecutive 8 S_ hcc0_scoped7
abbrev cc0_scoped8 : DmaSems sig S_ := SemArray.consecutive 9 S_ hcc0_scoped8
abbrev cc0_scoped9 : DmaSems sig S_ := SemArray.consecutive 10 S_ hcc0_scoped9
abbrev cc0_scoped10 : DmaSems sig S_ := SemArray.consecutive 11 S_ hcc0_scoped10
abbrev cc0_scoped11 : DmaSems sig S_ := SemArray.consecutive 12 S_ hcc0_scoped11
abbrev cc0_scoped12 : DmaSems sig S_ := SemArray.consecutive 13 S_ hcc0_scoped12
abbrev cc0_scoped13 : DmaSems sig S_ := SemArray.consecutive 14 S_ hcc0_scoped13
abbrev cc0_scoped14 : DmaSems sig S_ := SemArray.consecutive 15 S_ hcc0_scoped14
abbrev cc0_scoped15 : DmaSems sig S_ := SemArray.consecutive 16 S_ hcc0_scoped15
abbrev cc0_scoped16 : DmaSems sig S_ := SemArray.consecutive 17 S_ hcc0_scoped16
abbrev cc0_scoped17 : DmaSems sig S_ := SemArray.consecutive 18 S_ hcc0_scoped17
abbrev cc0_scoped18 : DmaSems sig S_ := SemArray.consecutive 19 S_ hcc0_scoped18
abbrev cc0_scoped19 : DmaSems sig S_ := SemArray.consecutive 20 S_ hcc0_scoped19
abbrev cc0_scoped20 : DmaSems sig S_ := SemArray.consecutive 21 S_ hcc0_scoped20
abbrev cc0_scoped21 : DmaSems sig S_ := SemArray.consecutive 22 S_ hcc0_scoped21
abbrev cc0_scoped22 : DmaSems sig S_ := SemArray.consecutive 23 S_ hcc0_scoped22
abbrev cc0_scoped23 : DmaSems sig S_ := SemArray.consecutive 24 S_ hcc0_scoped23
abbrev cc0_scoped24 : DmaSems sig S_ := SemArray.consecutive 25 S_ hcc0_scoped24
abbrev cc0_scoped25 : DmaSems sig S_ := SemArray.consecutive 26 S_ hcc0_scoped25
abbrev cc0_scoped26 : DmaSems sig S_ := SemArray.consecutive 27 S_ hcc0_scoped26

class Facts : Prop extends Facts₀ where

variable [Facts]
-- ==== ReferenceIdeal.lean ====
abbrev S4096x26 : Shape := ⟨2, ![4096, 26]⟩
abbrev S4096 : Shape := ⟨1, ![4096]⟩
abbrev S_ : Shape := ⟨0, ![]⟩
abbrev S4096x1000 : Shape := ⟨2, ![4096, 1000]⟩
abbrev S4096x1 : Shape := ⟨2, ![4096, 1]⟩
abbrev S4096x2 : Shape := ⟨2, ![4096, 2]⟩
abbrev S4096x16000 : Shape := ⟨2, ![4096, 16000]⟩
abbrev S4096x10000 : Shape := ⟨2, ![4096, 10000]⟩
abbrev S4096x26000 : Shape := ⟨2, ![4096, 26000]⟩

abbrev nBuf : Space → Nat
  | .hbm => 629
  | .vmem => 0
  | .smem => 0
  | _ => 0

abbrev hbmTy0_0 (i : Nat) : BufTy := match i % 128 with
  | 0 => ⟨S4096x26, .i32⟩
  | 1 => ⟨S4096, .i32⟩
  | 2 => ⟨S_, .f32⟩
  | 3 => ⟨S4096x1000, .f32⟩
  | 4 => ⟨S4096x1, .i32⟩
  | 5 => ⟨S4096, .i32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S4096x1, .i32⟩
  | 22 => ⟨S4096x2, .i32⟩
  | 23 => ⟨S_, .f32⟩
  | 24 => ⟨S4096, .f32⟩
  | 25 => ⟨S4096x1000, .f32⟩
  | 26 => ⟨S_, .f32⟩
  | 27 => ⟨S4096x1000, .f32⟩
  | 28 => ⟨S4096x1, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S4096x1, .i32⟩
  | 46 => ⟨S4096x2, .i32⟩
  | 47 => ⟨S_, .f32⟩
  | 48 => ⟨S4096, .f32⟩
  | 49 => ⟨S4096x1000, .f32⟩
  | 50 => ⟨S_, .f32⟩
  | 51 => ⟨S4096x1000, .f32⟩
  | 52 => ⟨S4096x1, .i32⟩
  | 53 => ⟨S4096, .i32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4096x1, .i32⟩
  | 70 => ⟨S4096x2, .i32⟩
  | 71 => ⟨S_, .f32⟩
  | 72 => ⟨S4096, .f32⟩
  | 73 => ⟨S4096x1000, .f32⟩
  | 74 => ⟨S_, .f32⟩
  | 75 => ⟨S4096x1000, .f32⟩
  | 76 => ⟨S4096x1, .i32⟩
  | 77 => ⟨S4096, .i32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x1, .i32⟩
  | 94 => ⟨S4096x2, .i32⟩
  | 95 => ⟨S_, .f32⟩
  | 96 => ⟨S4096, .f32⟩
  | 97 => ⟨S4096x1000, .f32⟩
  | 98 => ⟨S_, .f32⟩
  | 99 => ⟨S4096x1000, .f32⟩
  | 100 => ⟨S4096x1, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S4096x1, .i32⟩
  | 118 => ⟨S4096x2, .i32⟩
  | 119 => ⟨S_, .f32⟩
  | 120 => ⟨S4096, .f32⟩
  | 121 => ⟨S4096x1000, .f32⟩
  | 122 => ⟨S_, .f32⟩
  | 123 => ⟨S4096x1000, .f32⟩
  | 124 => ⟨S4096x1, .i32⟩
  | 125 => ⟨S4096, .i32⟩
  | 126 => ⟨S_, .i32⟩
  | 127 => ⟨S4096, .i32⟩
  | _ => ⟨S4096x26, .i32⟩

abbrev hbmTy0_1 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S4096x1, .i32⟩
  | 14 => ⟨S4096x2, .i32⟩
  | 15 => ⟨S_, .f32⟩
  | 16 => ⟨S4096, .f32⟩
  | 17 => ⟨S4096x1000, .f32⟩
  | 18 => ⟨S_, .f32⟩
  | 19 => ⟨S4096x1000, .f32⟩
  | 20 => ⟨S4096x1, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S4096x1, .i32⟩
  | 38 => ⟨S4096x2, .i32⟩
  | 39 => ⟨S_, .f32⟩
  | 40 => ⟨S4096, .f32⟩
  | 41 => ⟨S4096x1000, .f32⟩
  | 42 => ⟨S_, .f32⟩
  | 43 => ⟨S4096x1000, .f32⟩
  | 44 => ⟨S4096x1, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S4096x1, .i32⟩
  | 62 => ⟨S4096x2, .i32⟩
  | 63 => ⟨S_, .f32⟩
  | 64 => ⟨S4096, .f32⟩
  | 65 => ⟨S4096x1000, .f32⟩
  | 66 => ⟨S_, .f32⟩
  | 67 => ⟨S4096x1000, .f32⟩
  | 68 => ⟨S4096x1, .i32⟩
  | 69 => ⟨S4096, .i32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096x1, .i32⟩
  | 86 => ⟨S4096x2, .i32⟩
  | 87 => ⟨S_, .f32⟩
  | 88 => ⟨S4096, .f32⟩
  | 89 => ⟨S4096x1000, .f32⟩
  | 90 => ⟨S_, .f32⟩
  | 91 => ⟨S4096x1000, .f32⟩
  | 92 => ⟨S4096x1, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S4096x1, .i32⟩
  | 110 => ⟨S4096x2, .i32⟩
  | 111 => ⟨S_, .f32⟩
  | 112 => ⟨S4096, .f32⟩
  | 113 => ⟨S4096x1000, .f32⟩
  | 114 => ⟨S_, .f32⟩
  | 115 => ⟨S4096x1000, .f32⟩
  | 116 => ⟨S4096x1, .i32⟩
  | 117 => ⟨S4096, .i32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i1⟩
  | _ => ⟨S4096x26, .i32⟩

abbrev hbmTy0_2 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x1, .i32⟩
  | 6 => ⟨S4096x2, .i32⟩
  | 7 => ⟨S_, .f32⟩
  | 8 => ⟨S4096, .f32⟩
  | 9 => ⟨S4096x1000, .f32⟩
  | 10 => ⟨S_, .f32⟩
  | 11 => ⟨S4096x1000, .f32⟩
  | 12 => ⟨S4096x1, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x1, .i32⟩
  | 30 => ⟨S4096x2, .i32⟩
  | 31 => ⟨S_, .f32⟩
  | 32 => ⟨S4096, .f32⟩
  | 33 => ⟨S4096x1000, .f32⟩
  | 34 => ⟨S_, .f32⟩
  | 35 => ⟨S4096x1000, .f32⟩
  | 36 => ⟨S4096x1, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S4096x1, .i32⟩
  | 54 => ⟨S4096x2, .i32⟩
  | 55 => ⟨S_, .f32⟩
  | 56 => ⟨S4096, .f32⟩
  | 57 => ⟨S4096x1000, .f32⟩
  | 58 => ⟨S_, .f32⟩
  | 59 => ⟨S4096x1000, .f32⟩
  | 60 => ⟨S4096x1, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S4096x1, .i32⟩
  | 78 => ⟨S4096x2, .i32⟩
  | 79 => ⟨S_, .f32⟩
  | 80 => ⟨S4096, .f32⟩
  | 81 => ⟨S4096x1000, .f32⟩
  | 82 => ⟨S_, .f32⟩
  | 83 => ⟨S4096x1000, .f32⟩
  | 84 => ⟨S4096x1, .i32⟩
  | 85 => ⟨S4096, .i32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S4096x1, .i32⟩
  | 101 => ⟨S4096x1, .i32⟩
  | 102 => ⟨S4096x2, .i32⟩
  | 103 => ⟨S_, .f32⟩
  | 104 => ⟨S4096, .f32⟩
  | 105 => ⟨S4096x1000, .f32⟩
  | 106 => ⟨S_, .f32⟩
  | 107 => ⟨S4096x1000, .f32⟩
  | 108 => ⟨S4096x1, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x1, .i32⟩
  | 126 => ⟨S4096x2, .i32⟩
  | 127 => ⟨S_, .f32⟩
  | _ => ⟨S4096x26, .i32⟩

abbrev hbmTy0_3 (i : Nat) : BufTy := match i % 128 with
  | 0 => ⟨S4096, .f32⟩
  | 1 => ⟨S4096x1000, .f32⟩
  | 2 => ⟨S_, .f32⟩
  | 3 => ⟨S4096x1000, .f32⟩
  | 4 => ⟨S4096x1, .i32⟩
  | 5 => ⟨S4096, .i32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S4096x1, .i32⟩
  | 22 => ⟨S4096x2, .i32⟩
  | 23 => ⟨S_, .f32⟩
  | 24 => ⟨S4096, .f32⟩
  | 25 => ⟨S4096x1000, .f32⟩
  | 26 => ⟨S_, .f32⟩
  | 27 => ⟨S4096x1000, .f32⟩
  | 28 => ⟨S4096x1, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S4096x1, .i32⟩
  | 46 => ⟨S4096x2, .i32⟩
  | 47 => ⟨S_, .f32⟩
  | 48 => ⟨S4096, .f32⟩
  | 49 => ⟨S4096x1000, .f32⟩
  | 50 => ⟨S_, .f32⟩
  | 51 => ⟨S4096x1000, .f32⟩
  | 52 => ⟨S4096x1, .i32⟩
  | 53 => ⟨S4096, .i32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4096x1, .i32⟩
  | 70 => ⟨S4096x2, .i32⟩
  | 71 => ⟨S_, .f32⟩
  | 72 => ⟨S4096, .f32⟩
  | 73 => ⟨S4096x1000, .f32⟩
  | 74 => ⟨S_, .f32⟩
  | 75 => ⟨S4096x1000, .f32⟩
  | 76 => ⟨S4096x1, .i32⟩
  | 77 => ⟨S4096, .i32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x1, .i32⟩
  | 94 => ⟨S4096x2, .i32⟩
  | 95 => ⟨S_, .f32⟩
  | 96 => ⟨S4096, .f32⟩
  | 97 => ⟨S4096x1000, .f32⟩
  | 98 => ⟨S_, .f32⟩
  | 99 => ⟨S4096x1000, .f32⟩
  | 100 => ⟨S4096x1, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S4096x1, .i32⟩
  | 118 => ⟨S4096x2, .i32⟩
  | 119 => ⟨S_, .f32⟩
  | 120 => ⟨S4096, .f32⟩
  | 121 => ⟨S4096x1000, .f32⟩
  | 122 => ⟨S_, .f32⟩
  | 123 => ⟨S4096x1000, .f32⟩
  | 124 => ⟨S4096x1, .i32⟩
  | 125 => ⟨S4096, .i32⟩
  | 126 => ⟨S_, .i32⟩
  | 127 => ⟨S4096, .i32⟩
  | _ => ⟨S4096x26, .i32⟩

abbrev hbmTy0_4 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S4096x1, .i32⟩
  | 14 => ⟨S4096x2, .i32⟩
  | 15 => ⟨S_, .f32⟩
  | 16 => ⟨S4096, .f32⟩
  | 17 => ⟨S4096x1000, .f32⟩
  | 18 => ⟨S_, .f32⟩
  | 19 => ⟨S4096x1000, .f32⟩
  | 20 => ⟨S4096x1, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S4096x1, .i32⟩
  | 38 => ⟨S4096x2, .i32⟩
  | 39 => ⟨S_, .f32⟩
  | 40 => ⟨S4096, .f32⟩
  | 41 => ⟨S4096x1000, .f32⟩
  | 42 => ⟨S_, .f32⟩
  | 43 => ⟨S4096x1000, .f32⟩
  | 44 => ⟨S4096x1, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S4096x1, .i32⟩
  | 62 => ⟨S4096x2, .i32⟩
  | 63 => ⟨S_, .f32⟩
  | 64 => ⟨S4096, .f32⟩
  | 65 => ⟨S4096x1000, .f32⟩
  | 66 => ⟨S_, .f32⟩
  | 67 => ⟨S4096x1000, .f32⟩
  | 68 => ⟨S4096x1, .i32⟩
  | 69 => ⟨S4096, .i32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096x1, .i32⟩
  | 86 => ⟨S4096x2, .i32⟩
  | 87 => ⟨S_, .f32⟩
  | 88 => ⟨S4096, .f32⟩
  | 89 => ⟨S4096x1000, .f32⟩
  | 90 => ⟨S_, .f32⟩
  | 91 => ⟨S4096x1000, .f32⟩
  | 92 => ⟨S4096x1, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S4096x1, .i32⟩
  | 110 => ⟨S4096x2, .i32⟩
  | 111 => ⟨S_, .f32⟩
  | 112 => ⟨S4096, .f32⟩
  | 113 => ⟨S4096x1000, .f32⟩
  | 114 => ⟨S4096x16000, .f32⟩
  | 115 => ⟨S4096x10000, .f32⟩
  | 116 => ⟨S4096x26000, .f32⟩
  | _ => ⟨S4096x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x26, .i32⟩

abbrev bufTy : (tb : Table) → Fin (tcTables nBuf tb) → BufTy
  | .hbm, ⟨i, _⟩ => hbmTy i
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_11 : Ref sig .tc := ⟨.hbm, 54, rfl⟩
abbrev main_v40 : Ref sig .tc := ⟨.hbm, 55, rfl⟩
abbrev main_v41 : Ref sig .tc := ⟨.hbm, 56, rfl⟩
abbrev main_c_12 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_13 : Ref sig .tc := ⟨.hbm, 61, rfl⟩
abbrev main_v45 : Ref sig .tc := ⟨.hbm, 62, rfl⟩
abbrev main_v46 : Ref sig .tc := ⟨.hbm, 63, rfl⟩
abbrev main_c_14 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_15 : Ref sig .tc := ⟨.hbm, 71, rfl⟩
abbrev main_v53 : Ref sig .tc := ⟨.hbm, 72, rfl⟩
abbrev main_v54 : Ref sig .tc := ⟨.hbm, 73, rfl⟩
abbrev main_cst_16 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_17 : Ref sig .tc := ⟨.hbm, 78, rfl⟩
abbrev main_v58 : Ref sig .tc := ⟨.hbm, 79, rfl⟩
abbrev main_v59 : Ref sig .tc := ⟨.hbm, 80, rfl⟩
abbrev main_c_18 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_19 : Ref sig .tc := ⟨.hbm, 85, rfl⟩
abbrev main_v63 : Ref sig .tc := ⟨.hbm, 86, rfl⟩
abbrev main_v64 : Ref sig .tc := ⟨.hbm, 87, rfl⟩
abbrev main_c_20 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_21 : Ref sig .tc := ⟨.hbm, 95, rfl⟩
abbrev main_v71 : Ref sig .tc := ⟨.hbm, 96, rfl⟩
abbrev main_v72 : Ref sig .tc := ⟨.hbm, 97, rfl⟩
abbrev main_cst_22 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_23 : Ref sig .tc := ⟨.hbm, 102, rfl⟩
abbrev main_v76 : Ref sig .tc := ⟨.hbm, 103, rfl⟩
abbrev main_v77 : Ref sig .tc := ⟨.hbm, 104, rfl⟩
abbrev main_c_24 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_25 : Ref sig .tc := ⟨.hbm, 109, rfl⟩
abbrev main_v81 : Ref sig .tc := ⟨.hbm, 110, rfl⟩
abbrev main_v82 : Ref sig .tc := ⟨.hbm, 111, rfl⟩
abbrev main_c_26 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_27 : Ref sig .tc := ⟨.hbm, 119, rfl⟩
abbrev main_v89 : Ref sig .tc := ⟨.hbm, 120, rfl⟩
abbrev main_v90 : Ref sig .tc := ⟨.hbm, 121, rfl⟩
abbrev main_cst_28 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_29 : Ref sig .tc := ⟨.hbm, 126, rfl⟩
abbrev main_v94 : Ref sig .tc := ⟨.hbm, 127, rfl⟩
abbrev main_v95 : Ref sig .tc := ⟨.hbm, 128, rfl⟩
abbrev main_c_30 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_31 : Ref sig .tc := ⟨.hbm, 133, rfl⟩
abbrev main_v99 : Ref sig .tc := ⟨.hbm, 134, rfl⟩
abbrev main_v100 : Ref sig .tc := ⟨.hbm, 135, rfl⟩
abbrev main_c_32 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_33 : Ref sig .tc := ⟨.hbm, 143, rfl⟩
abbrev main_v107 : Ref sig .tc := ⟨.hbm, 144, rfl⟩
abbrev main_v108 : Ref sig .tc := ⟨.hbm, 145, rfl⟩
abbrev main_cst_34 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_c_35 : Ref sig .tc := ⟨.hbm, 150, rfl⟩
abbrev main_v112 : Ref sig .tc := ⟨.hbm, 151, rfl⟩
abbrev main_v113 : Ref sig .tc := ⟨.hbm, 152, rfl⟩
abbrev main_c_36 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_37 : Ref sig .tc := ⟨.hbm, 157, rfl⟩
abbrev main_v117 : Ref sig .tc := ⟨.hbm, 158, rfl⟩
abbrev main_v118 : Ref sig .tc := ⟨.hbm, 159, rfl⟩
abbrev main_c_38 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_39 : Ref sig .tc := ⟨.hbm, 167, rfl⟩
abbrev main_v125 : Ref sig .tc := ⟨.hbm, 168, rfl⟩
abbrev main_v126 : Ref sig .tc := ⟨.hbm, 169, rfl⟩
abbrev main_cst_40 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_41 : Ref sig .tc := ⟨.hbm, 174, rfl⟩
abbrev main_v130 : Ref sig .tc := ⟨.hbm, 175, rfl⟩
abbrev main_v131 : Ref sig .tc := ⟨.hbm, 176, rfl⟩
abbrev main_c_42 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_c_43 : Ref sig .tc := ⟨.hbm, 181, rfl⟩
abbrev main_v135 : Ref sig .tc := ⟨.hbm, 182, rfl⟩
abbrev main_v136 : Ref sig .tc := ⟨.hbm, 183, rfl⟩
abbrev main_c_44 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_45 : Ref sig .tc := ⟨.hbm, 191, rfl⟩
abbrev main_v143 : Ref sig .tc := ⟨.hbm, 192, rfl⟩
abbrev main_v144 : Ref sig .tc := ⟨.hbm, 193, rfl⟩
abbrev main_cst_46 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_c_47 : Ref sig .tc := ⟨.hbm, 198, rfl⟩
abbrev main_v148 : Ref sig .tc := ⟨.hbm, 199, rfl⟩
abbrev main_v149 : Ref sig .tc := ⟨.hbm, 200, rfl⟩
abbrev main_c_48 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_c_49 : Ref sig .tc := ⟨.hbm, 205, rfl⟩
abbrev main_v153 : Ref sig .tc := ⟨.hbm, 206, rfl⟩
abbrev main_v154 : Ref sig .tc := ⟨.hbm, 207, rfl⟩
abbrev main_c_50 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_51 : Ref sig .tc := ⟨.hbm, 215, rfl⟩
abbrev main_v161 : Ref sig .tc := ⟨.hbm, 216, rfl⟩
abbrev main_v162 : Ref sig .tc := ⟨.hbm, 217, rfl⟩
abbrev main_cst_52 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_c_53 : Ref sig .tc := ⟨.hbm, 222, rfl⟩
abbrev main_v166 : Ref sig .tc := ⟨.hbm, 223, rfl⟩
abbrev main_v167 : Ref sig .tc := ⟨.hbm, 224, rfl⟩
abbrev main_c_54 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_c_55 : Ref sig .tc := ⟨.hbm, 229, rfl⟩
abbrev main_v171 : Ref sig .tc := ⟨.hbm, 230, rfl⟩
abbrev main_v172 : Ref sig .tc := ⟨.hbm, 231, rfl⟩
abbrev main_c_56 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_57 : Ref sig .tc := ⟨.hbm, 239, rfl⟩
abbrev main_v179 : Ref sig .tc := ⟨.hbm, 240, rfl⟩
abbrev main_v180 : Ref sig .tc := ⟨.hbm, 241, rfl⟩
abbrev main_cst_58 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_c_59 : Ref sig .tc := ⟨.hbm, 246, rfl⟩
abbrev main_v184 : Ref sig .tc := ⟨.hbm, 247, rfl⟩
abbrev main_v185 : Ref sig .tc := ⟨.hbm, 248, rfl⟩
abbrev main_c_60 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_c_61 : Ref sig .tc := ⟨.hbm, 253, rfl⟩
abbrev main_v189 : Ref sig .tc := ⟨.hbm, 254, rfl⟩
abbrev main_v190 : Ref sig .tc := ⟨.hbm, 255, rfl⟩
abbrev main_c_62 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_cst_63 : Ref sig .tc := ⟨.hbm, 263, rfl⟩
abbrev main_v197 : Ref sig .tc := ⟨.hbm, 264, rfl⟩
abbrev main_v198 : Ref sig .tc := ⟨.hbm, 265, rfl⟩
abbrev main_cst_64 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_c_65 : Ref sig .tc := ⟨.hbm, 270, rfl⟩
abbrev main_v202 : Ref sig .tc := ⟨.hbm, 271, rfl⟩
abbrev main_v203 : Ref sig .tc := ⟨.hbm, 272, rfl⟩
abbrev main_c_66 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_c_67 : Ref sig .tc := ⟨.hbm, 277, rfl⟩
abbrev main_v207 : Ref sig .tc := ⟨.hbm, 278, rfl⟩
abbrev main_v208 : Ref sig .tc := ⟨.hbm, 279, rfl⟩
abbrev main_c_68 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_cst_69 : Ref sig .tc := ⟨.hbm, 287, rfl⟩
abbrev main_v215 : Ref sig .tc := ⟨.hbm, 288, rfl⟩
abbrev main_v216 : Ref sig .tc := ⟨.hbm, 289, rfl⟩
abbrev main_cst_70 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_c_71 : Ref sig .tc := ⟨.hbm, 294, rfl⟩
abbrev main_v220 : Ref sig .tc := ⟨.hbm, 295, rfl⟩
abbrev main_v221 : Ref sig .tc := ⟨.hbm, 296, rfl⟩
abbrev main_c_72 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_c_73 : Ref sig .tc := ⟨.hbm, 301, rfl⟩
abbrev main_v225 : Ref sig .tc := ⟨.hbm, 302, rfl⟩
abbrev main_v226 : Ref sig .tc := ⟨.hbm, 303, rfl⟩
abbrev main_c_74 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_cst_75 : Ref sig .tc := ⟨.hbm, 311, rfl⟩
abbrev main_v233 : Ref sig .tc := ⟨.hbm, 312, rfl⟩
abbrev main_v234 : Ref sig .tc := ⟨.hbm, 313, rfl⟩
abbrev main_cst_76 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_c_77 : Ref sig .tc := ⟨.hbm, 318, rfl⟩
abbrev main_v238 : Ref sig .tc := ⟨.hbm, 319, rfl⟩
abbrev main_v239 : Ref sig .tc := ⟨.hbm, 320, rfl⟩
abbrev main_c_78 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_c_79 : Ref sig .tc := ⟨.hbm, 325, rfl⟩
abbrev main_v243 : Ref sig .tc := ⟨.hbm, 326, rfl⟩
abbrev main_v244 : Ref sig .tc := ⟨.hbm, 327, rfl⟩
abbrev main_c_80 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_cst_81 : Ref sig .tc := ⟨.hbm, 335, rfl⟩
abbrev main_v251 : Ref sig .tc := ⟨.hbm, 336, rfl⟩
abbrev main_v252 : Ref sig .tc := ⟨.hbm, 337, rfl⟩
abbrev main_cst_82 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_c_83 : Ref sig .tc := ⟨.hbm, 342, rfl⟩
abbrev main_v256 : Ref sig .tc := ⟨.hbm, 343, rfl⟩
abbrev main_v257 : Ref sig .tc := ⟨.hbm, 344, rfl⟩
abbrev main_c_84 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_c_85 : Ref sig .tc := ⟨.hbm, 349, rfl⟩
abbrev main_v261 : Ref sig .tc := ⟨.hbm, 350, rfl⟩
abbrev main_v262 : Ref sig .tc := ⟨.hbm, 351, rfl⟩
abbrev main_c_86 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_cst_87 : Ref sig .tc := ⟨.hbm, 359, rfl⟩
abbrev main_v269 : Ref sig .tc := ⟨.hbm, 360, rfl⟩
abbrev main_v270 : Ref sig .tc := ⟨.hbm, 361, rfl⟩
abbrev main_cst_88 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_c_89 : Ref sig .tc := ⟨.hbm, 366, rfl⟩
abbrev main_v274 : Ref sig .tc := ⟨.hbm, 367, rfl⟩
abbrev main_v275 : Ref sig .tc := ⟨.hbm, 368, rfl⟩
abbrev main_c_90 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_c_91 : Ref sig .tc := ⟨.hbm, 373, rfl⟩
abbrev main_v279 : Ref sig .tc := ⟨.hbm, 374, rfl⟩
abbrev main_v280 : Ref sig .tc := ⟨.hbm, 375, rfl⟩
abbrev main_c_92 : Ref sig .tc := ⟨.hbm, 376, rfl⟩
abbrev main_v281 : Ref sig .tc := ⟨.hbm, 377, rfl⟩
abbrev main_v282 : Ref sig .tc := ⟨.hbm, 378, rfl⟩
abbrev main_v283 : Ref sig .tc := ⟨.hbm, 379, rfl⟩
abbrev main_v284 : Ref sig .tc := ⟨.hbm, 380, rfl⟩
abbrev main_v285 : Ref sig .tc := ⟨.hbm, 381, rfl⟩
abbrev main_v286 : Ref sig .tc := ⟨.hbm, 382, rfl⟩
abbrev main_cst_93 : Ref sig .tc := ⟨.hbm, 383, rfl⟩
abbrev main_v287 : Ref sig .tc := ⟨.hbm, 384, rfl⟩
abbrev main_v288 : Ref sig .tc := ⟨.hbm, 385, rfl⟩
abbrev main_cst_94 : Ref sig .tc := ⟨.hbm, 386, rfl⟩
abbrev main_v289 : Ref sig .tc := ⟨.hbm, 387, rfl⟩
abbrev main_v290 : Ref sig .tc := ⟨.hbm, 388, rfl⟩
abbrev main_v291 : Ref sig .tc := ⟨.hbm, 389, rfl⟩
abbrev main_c_95 : Ref sig .tc := ⟨.hbm, 390, rfl⟩
abbrev main_v292 : Ref sig .tc := ⟨.hbm, 391, rfl⟩
abbrev main_v293 : Ref sig .tc := ⟨.hbm, 392, rfl⟩
abbrev main_c_96 : Ref sig .tc := ⟨.hbm, 393, rfl⟩
abbrev main_v294 : Ref sig .tc := ⟨.hbm, 394, rfl⟩
abbrev main_v295 : Ref sig .tc := ⟨.hbm, 395, rfl⟩
abbrev main_v296 : Ref sig .tc := ⟨.hbm, 396, rfl⟩
abbrev main_c_97 : Ref sig .tc := ⟨.hbm, 397, rfl⟩
abbrev main_v297 : Ref sig .tc := ⟨.hbm, 398, rfl⟩
abbrev main_v298 : Ref sig .tc := ⟨.hbm, 399, rfl⟩
abbrev main_c_98 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_v302 : Ref sig .tc := ⟨.hbm, 404, rfl⟩
abbrev main_v303 : Ref sig .tc := ⟨.hbm, 405, rfl⟩
abbrev main_v304 : Ref sig .tc := ⟨.hbm, 406, rfl⟩
abbrev main_cst_99 : Ref sig .tc := ⟨.hbm, 407, rfl⟩
abbrev main_v305 : Ref sig .tc := ⟨.hbm, 408, rfl⟩
abbrev main_v306 : Ref sig .tc := ⟨.hbm, 409, rfl⟩
abbrev main_cst_100 : Ref sig .tc := ⟨.hbm, 410, rfl⟩
abbrev main_v307 : Ref sig .tc := ⟨.hbm, 411, rfl⟩
abbrev main_v308 : Ref sig .tc := ⟨.hbm, 412, rfl⟩
abbrev main_v309 : Ref sig .tc := ⟨.hbm, 413, rfl⟩
abbrev main_c_101 : Ref sig .tc := ⟨.hbm, 414, rfl⟩
abbrev main_v310 : Ref sig .tc := ⟨.hbm, 415, rfl⟩
abbrev main_v311 : Ref sig .tc := ⟨.hbm, 416, rfl⟩
abbrev main_c_102 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_c_103 : Ref sig .tc := ⟨.hbm, 421, rfl⟩
abbrev main_v315 : Ref sig .tc := ⟨.hbm, 422, rfl⟩
abbrev main_v316 : Ref sig .tc := ⟨.hbm, 423, rfl⟩
abbrev main_c_104 : Ref sig .tc := ⟨.hbm, 424, rfl⟩
abbrev main_v317 : Ref sig .tc := ⟨.hbm, 425, rfl⟩
abbrev main_v318 : Ref sig .tc := ⟨.hbm, 426, rfl⟩
abbrev main_v319 : Ref sig .tc := ⟨.hbm, 427, rfl⟩
abbrev main_v320 : Ref sig .tc := ⟨.hbm, 428, rfl⟩
abbrev main_v321 : Ref sig .tc := ⟨.hbm, 429, rfl⟩
abbrev main_v322 : Ref sig .tc := ⟨.hbm, 430, rfl⟩
abbrev main_cst_105 : Ref sig .tc := ⟨.hbm, 431, rfl⟩
abbrev main_v323 : Ref sig .tc := ⟨.hbm, 432, rfl⟩
abbrev main_v324 : Ref sig .tc := ⟨.hbm, 433, rfl⟩
abbrev main_cst_106 : Ref sig .tc := ⟨.hbm, 434, rfl⟩
abbrev main_v325 : Ref sig .tc := ⟨.hbm, 435, rfl⟩
abbrev main_v326 : Ref sig .tc := ⟨.hbm, 436, rfl⟩
abbrev main_v327 : Ref sig .tc := ⟨.hbm, 437, rfl⟩
abbrev main_c_107 : Ref sig .tc := ⟨.hbm, 438, rfl⟩
abbrev main_v328 : Ref sig .tc := ⟨.hbm, 439, rfl⟩
abbrev main_v329 : Ref sig .tc := ⟨.hbm, 440, rfl⟩
abbrev main_c_108 : Ref sig .tc := ⟨.hbm, 441, rfl⟩
abbrev main_v330 : Ref sig .tc := ⟨.hbm, 442, rfl⟩
abbrev main_v331 : Ref sig .tc := ⟨.hbm, 443, rfl⟩
abbrev main_v332 : Ref sig .tc := ⟨.hbm, 444, rfl⟩
abbrev main_c_109 : Ref sig .tc := ⟨.hbm, 445, rfl⟩
abbrev main_v333 : Ref sig .tc := ⟨.hbm, 446, rfl⟩
abbrev main_v334 : Ref sig .tc := ⟨.hbm, 447, rfl⟩
abbrev main_c_110 : Ref sig .tc := ⟨.hbm, 448, rfl⟩
abbrev main_v335 : Ref sig .tc := ⟨.hbm, 449, rfl⟩
abbrev main_v336 : Ref sig .tc := ⟨.hbm, 450, rfl⟩
abbrev main_v337 : Ref sig .tc := ⟨.hbm, 451, rfl⟩
abbrev main_v338 : Ref sig .tc := ⟨.hbm, 452, rfl⟩
abbrev main_v339 : Ref sig .tc := ⟨.hbm, 453, rfl⟩
abbrev main_v340 : Ref sig .tc := ⟨.hbm, 454, rfl⟩
abbrev main_cst_111 : Ref sig .tc := ⟨.hbm, 455, rfl⟩
abbrev main_v341 : Ref sig .tc := ⟨.hbm, 456, rfl⟩
abbrev main_v342 : Ref sig .tc := ⟨.hbm, 457, rfl⟩
abbrev main_cst_112 : Ref sig .tc := ⟨.hbm, 458, rfl⟩
abbrev main_v343 : Ref sig .tc := ⟨.hbm, 459, rfl⟩
abbrev main_v344 : Ref sig .tc := ⟨.hbm, 460, rfl⟩
abbrev main_v345 : Ref sig .tc := ⟨.hbm, 461, rfl⟩
abbrev main_c_113 : Ref sig .tc := ⟨.hbm, 462, rfl⟩
abbrev main_v346 : Ref sig .tc := ⟨.hbm, 463, rfl⟩
abbrev main_v347 : Ref sig .tc := ⟨.hbm, 464, rfl⟩
abbrev main_c_114 : Ref sig .tc := ⟨.hbm, 465, rfl⟩
abbrev main_v348 : Ref sig .tc := ⟨.hbm, 466, rfl⟩
abbrev main_v349 : Ref sig .tc := ⟨.hbm, 467, rfl⟩
abbrev main_v350 : Ref sig .tc := ⟨.hbm, 468, rfl⟩
abbrev main_c_115 : Ref sig .tc := ⟨.hbm, 469, rfl⟩
abbrev main_v351 : Ref sig .tc := ⟨.hbm, 470, rfl⟩
abbrev main_v352 : Ref sig .tc := ⟨.hbm, 471, rfl⟩
abbrev main_c_116 : Ref sig .tc := ⟨.hbm, 472, rfl⟩
abbrev main_v353 : Ref sig .tc := ⟨.hbm, 473, rfl⟩
abbrev main_v354 : Ref sig .tc := ⟨.hbm, 474, rfl⟩
abbrev main_v355 : Ref sig .tc := ⟨.hbm, 475, rfl⟩
abbrev main_v356 : Ref sig .tc := ⟨.hbm, 476, rfl⟩
abbrev main_v357 : Ref sig .tc := ⟨.hbm, 477, rfl⟩
abbrev main_v358 : Ref sig .tc := ⟨.hbm, 478, rfl⟩
abbrev main_cst_117 : Ref sig .tc := ⟨.hbm, 479, rfl⟩
abbrev main_v359 : Ref sig .tc := ⟨.hbm, 480, rfl⟩
abbrev main_v360 : Ref sig .tc := ⟨.hbm, 481, rfl⟩
abbrev main_cst_118 : Ref sig .tc := ⟨.hbm, 482, rfl⟩
abbrev main_v361 : Ref sig .tc := ⟨.hbm, 483, rfl⟩
abbrev main_v362 : Ref sig .tc := ⟨.hbm, 484, rfl⟩
abbrev main_v363 : Ref sig .tc := ⟨.hbm, 485, rfl⟩
abbrev main_c_119 : Ref sig .tc := ⟨.hbm, 486, rfl⟩
abbrev main_v364 : Ref sig .tc := ⟨.hbm, 487, rfl⟩
abbrev main_v365 : Ref sig .tc := ⟨.hbm, 488, rfl⟩
abbrev main_c_120 : Ref sig .tc := ⟨.hbm, 489, rfl⟩
abbrev main_v366 : Ref sig .tc := ⟨.hbm, 490, rfl⟩
abbrev main_v367 : Ref sig .tc := ⟨.hbm, 491, rfl⟩
abbrev main_v368 : Ref sig .tc := ⟨.hbm, 492, rfl⟩
abbrev main_c_121 : Ref sig .tc := ⟨.hbm, 493, rfl⟩
abbrev main_v369 : Ref sig .tc := ⟨.hbm, 494, rfl⟩
abbrev main_v370 : Ref sig .tc := ⟨.hbm, 495, rfl⟩
abbrev main_c_122 : Ref sig .tc := ⟨.hbm, 496, rfl⟩
abbrev main_v371 : Ref sig .tc := ⟨.hbm, 497, rfl⟩
abbrev main_v372 : Ref sig .tc := ⟨.hbm, 498, rfl⟩
abbrev main_v373 : Ref sig .tc := ⟨.hbm, 499, rfl⟩
abbrev main_v374 : Ref sig .tc := ⟨.hbm, 500, rfl⟩
abbrev main_v375 : Ref sig .tc := ⟨.hbm, 501, rfl⟩
abbrev main_v376 : Ref sig .tc := ⟨.hbm, 502, rfl⟩
abbrev main_cst_123 : Ref sig .tc := ⟨.hbm, 503, rfl⟩
abbrev main_v377 : Ref sig .tc := ⟨.hbm, 504, rfl⟩
abbrev main_v378 : Ref sig .tc := ⟨.hbm, 505, rfl⟩
abbrev main_cst_124 : Ref sig .tc := ⟨.hbm, 506, rfl⟩
abbrev main_v379 : Ref sig .tc := ⟨.hbm, 507, rfl⟩
abbrev main_v380 : Ref sig .tc := ⟨.hbm, 508, rfl⟩
abbrev main_v381 : Ref sig .tc := ⟨.hbm, 509, rfl⟩
abbrev main_c_125 : Ref sig .tc := ⟨.hbm, 510, rfl⟩
abbrev main_v382 : Ref sig .tc := ⟨.hbm, 511, rfl⟩
abbrev main_v383 : Ref sig .tc := ⟨.hbm, 512, rfl⟩
abbrev main_c_126 : Ref sig .tc := ⟨.hbm, 513, rfl⟩
abbrev main_v384 : Ref sig .tc := ⟨.hbm, 514, rfl⟩
abbrev main_v385 : Ref sig .tc := ⟨.hbm, 515, rfl⟩
abbrev main_v386 : Ref sig .tc := ⟨.hbm, 516, rfl⟩
abbrev main_c_127 : Ref sig .tc := ⟨.hbm, 517, rfl⟩
abbrev main_v387 : Ref sig .tc := ⟨.hbm, 518, rfl⟩
abbrev main_v388 : Ref sig .tc := ⟨.hbm, 519, rfl⟩
abbrev main_c_128 : Ref sig .tc := ⟨.hbm, 520, rfl⟩
abbrev main_v389 : Ref sig .tc := ⟨.hbm, 521, rfl⟩
abbrev main_v390 : Ref sig .tc := ⟨.hbm, 522, rfl⟩
abbrev main_v391 : Ref sig .tc := ⟨.hbm, 523, rfl⟩
abbrev main_v392 : Ref sig .tc := ⟨.hbm, 524, rfl⟩
abbrev main_v393 : Ref sig .tc := ⟨.hbm, 525, rfl⟩
abbrev main_v394 : Ref sig .tc := ⟨.hbm, 526, rfl⟩
abbrev main_cst_129 : Ref sig .tc := ⟨.hbm, 527, rfl⟩
abbrev main_v395 : Ref sig .tc := ⟨.hbm, 528, rfl⟩
abbrev main_v396 : Ref sig .tc := ⟨.hbm, 529, rfl⟩
abbrev main_cst_130 : Ref sig .tc := ⟨.hbm, 530, rfl⟩
abbrev main_v397 : Ref sig .tc := ⟨.hbm, 531, rfl⟩
abbrev main_v398 : Ref sig .tc := ⟨.hbm, 532, rfl⟩
abbrev main_v399 : Ref sig .tc := ⟨.hbm, 533, rfl⟩
abbrev main_c_131 : Ref sig .tc := ⟨.hbm, 534, rfl⟩
abbrev main_v400 : Ref sig .tc := ⟨.hbm, 535, rfl⟩
abbrev main_v401 : Ref sig .tc := ⟨.hbm, 536, rfl⟩
abbrev main_c_132 : Ref sig .tc := ⟨.hbm, 537, rfl⟩
abbrev main_v402 : Ref sig .tc := ⟨.hbm, 538, rfl⟩
abbrev main_v403 : Ref sig .tc := ⟨.hbm, 539, rfl⟩
abbrev main_v404 : Ref sig .tc := ⟨.hbm, 540, rfl⟩
abbrev main_c_133 : Ref sig .tc := ⟨.hbm, 541, rfl⟩
abbrev main_v405 : Ref sig .tc := ⟨.hbm, 542, rfl⟩
abbrev main_v406 : Ref sig .tc := ⟨.hbm, 543, rfl⟩
abbrev main_c_134 : Ref sig .tc := ⟨.hbm, 544, rfl⟩
abbrev main_v407 : Ref sig .tc := ⟨.hbm, 545, rfl⟩
abbrev main_v408 : Ref sig .tc := ⟨.hbm, 546, rfl⟩
abbrev main_v409 : Ref sig .tc := ⟨.hbm, 547, rfl⟩
abbrev main_v410 : Ref sig .tc := ⟨.hbm, 548, rfl⟩
abbrev main_v411 : Ref sig .tc := ⟨.hbm, 549, rfl⟩
abbrev main_v412 : Ref sig .tc := ⟨.hbm, 550, rfl⟩
abbrev main_cst_135 : Ref sig .tc := ⟨.hbm, 551, rfl⟩
abbrev main_v413 : Ref sig .tc := ⟨.hbm, 552, rfl⟩
abbrev main_v414 : Ref sig .tc := ⟨.hbm, 553, rfl⟩
abbrev main_cst_136 : Ref sig .tc := ⟨.hbm, 554, rfl⟩
abbrev main_v415 : Ref sig .tc := ⟨.hbm, 555, rfl⟩
abbrev main_v416 : Ref sig .tc := ⟨.hbm, 556, rfl⟩
abbrev main_v417 : Ref sig .tc := ⟨.hbm, 557, rfl⟩
abbrev main_c_137 : Ref sig .tc := ⟨.hbm, 558, rfl⟩
abbrev main_v418 : Ref sig .tc := ⟨.hbm, 559, rfl⟩
abbrev main_v419 : Ref sig .tc := ⟨.hbm, 560, rfl⟩
abbrev main_c_138 : Ref sig .tc := ⟨.hbm, 561, rfl⟩
abbrev main_v420 : Ref sig .tc := ⟨.hbm, 562, rfl⟩
abbrev main_v421 : Ref sig .tc := ⟨.hbm, 563, rfl⟩
abbrev main_v422 : Ref sig .tc := ⟨.hbm, 564, rfl⟩
abbrev main_c_139 : Ref sig .tc := ⟨.hbm, 565, rfl⟩
abbrev main_v423 : Ref sig .tc := ⟨.hbm, 566, rfl⟩
abbrev main_v424 : Ref sig .tc := ⟨.hbm, 567, rfl⟩
abbrev main_c_140 : Ref sig .tc := ⟨.hbm, 568, rfl⟩
abbrev main_v425 : Ref sig .tc := ⟨.hbm, 569, rfl⟩
abbrev main_v426 : Ref sig .tc := ⟨.hbm, 570, rfl⟩
abbrev main_v427 : Ref sig .tc := ⟨.hbm, 571, rfl⟩
abbrev main_v428 : Ref sig .tc := ⟨.hbm, 572, rfl⟩
abbrev main_v429 : Ref sig .tc := ⟨.hbm, 573, rfl⟩
abbrev main_v430 : Ref sig .tc := ⟨.hbm, 574, rfl⟩
abbrev main_cst_141 : Ref sig .tc := ⟨.hbm, 575, rfl⟩
abbrev main_v431 : Ref sig .tc := ⟨.hbm, 576, rfl⟩
abbrev main_v432 : Ref sig .tc := ⟨.hbm, 577, rfl⟩
abbrev main_cst_142 : Ref sig .tc := ⟨.hbm, 578, rfl⟩
abbrev main_v433 : Ref sig .tc := ⟨.hbm, 579, rfl⟩
abbrev main_v434 : Ref sig .tc := ⟨.hbm, 580, rfl⟩
abbrev main_v435 : Ref sig .tc := ⟨.hbm, 581, rfl⟩
abbrev main_c_143 : Ref sig .tc := ⟨.hbm, 582, rfl⟩
abbrev main_v436 : Ref sig .tc := ⟨.hbm, 583, rfl⟩
abbrev main_v437 : Ref sig .tc := ⟨.hbm, 584, rfl⟩
abbrev main_c_144 : Ref sig .tc := ⟨.hbm, 585, rfl⟩
abbrev main_v438 : Ref sig .tc := ⟨.hbm, 586, rfl⟩
abbrev main_v439 : Ref sig .tc := ⟨.hbm, 587, rfl⟩
abbrev main_v440 : Ref sig .tc := ⟨.hbm, 588, rfl⟩
abbrev main_c_145 : Ref sig .tc := ⟨.hbm, 589, rfl⟩
abbrev main_v441 : Ref sig .tc := ⟨.hbm, 590, rfl⟩
abbrev main_v442 : Ref sig .tc := ⟨.hbm, 591, rfl⟩
abbrev main_c_146 : Ref sig .tc := ⟨.hbm, 592, rfl⟩
abbrev main_v443 : Ref sig .tc := ⟨.hbm, 593, rfl⟩
abbrev main_v444 : Ref sig .tc := ⟨.hbm, 594, rfl⟩
abbrev main_v445 : Ref sig .tc := ⟨.hbm, 595, rfl⟩
abbrev main_v446 : Ref sig .tc := ⟨.hbm, 596, rfl⟩
abbrev main_v447 : Ref sig .tc := ⟨.hbm, 597, rfl⟩
abbrev main_v448 : Ref sig .tc := ⟨.hbm, 598, rfl⟩
abbrev main_cst_147 : Ref sig .tc := ⟨.hbm, 599, rfl⟩
abbrev main_v449 : Ref sig .tc := ⟨.hbm, 600, rfl⟩
abbrev main_v450 : Ref sig .tc := ⟨.hbm, 601, rfl⟩
abbrev main_cst_148 : Ref sig .tc := ⟨.hbm, 602, rfl⟩
abbrev main_v451 : Ref sig .tc := ⟨.hbm, 603, rfl⟩
abbrev main_v452 : Ref sig .tc := ⟨.hbm, 604, rfl⟩
abbrev main_v453 : Ref sig .tc := ⟨.hbm, 605, rfl⟩
abbrev main_c_149 : Ref sig .tc := ⟨.hbm, 606, rfl⟩
abbrev main_v454 : Ref sig .tc := ⟨.hbm, 607, rfl⟩
abbrev main_v455 : Ref sig .tc := ⟨.hbm, 608, rfl⟩
abbrev main_c_150 : Ref sig .tc := ⟨.hbm, 609, rfl⟩
abbrev main_v456 : Ref sig .tc := ⟨.hbm, 610, rfl⟩
abbrev main_v457 : Ref sig .tc := ⟨.hbm, 611, rfl⟩
abbrev main_v458 : Ref sig .tc := ⟨.hbm, 612, rfl⟩
abbrev main_c_151 : Ref sig .tc := ⟨.hbm, 613, rfl⟩
abbrev main_v459 : Ref sig .tc := ⟨.hbm, 614, rfl⟩
abbrev main_v460 : Ref sig .tc := ⟨.hbm, 615, rfl⟩
abbrev main_c_152 : Ref sig .tc := ⟨.hbm, 616, rfl⟩
abbrev main_v461 : Ref sig .tc := ⟨.hbm, 617, rfl⟩
abbrev main_v462 : Ref sig .tc := ⟨.hbm, 618, rfl⟩
abbrev main_v463 : Ref sig .tc := ⟨.hbm, 619, rfl⟩
abbrev main_v464 : Ref sig .tc := ⟨.hbm, 620, rfl⟩
abbrev main_v465 : Ref sig .tc := ⟨.hbm, 621, rfl⟩
abbrev main_v466 : Ref sig .tc := ⟨.hbm, 622, rfl⟩
abbrev main_cst_153 : Ref sig .tc := ⟨.hbm, 623, rfl⟩
abbrev main_v467 : Ref sig .tc := ⟨.hbm, 624, rfl⟩
abbrev main_v468 : Ref sig .tc := ⟨.hbm, 625, rfl⟩
abbrev main_v469 : Ref sig .tc := ⟨.hbm, 626, rfl⟩
abbrev main_v470 : Ref sig .tc := ⟨.hbm, 627, rfl⟩
abbrev main_v471 : Ref sig .tc := ⟨.hbm, 628, rfl⟩

abbrev nD : Nat := 1
abbrev τ : Topo := Topo.v7x

variable {F : FTy → Type} [FloatOps F]

class Facts₀ : Prop where
  bcast_S_S4096x1000 : S_.BroadcastsInDim S4096x1000 (![] : Fin 0 → Fin S4096x1000.rank)
  slices_S4096x26_S4096x1_0_0 : S4096x26.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S4096x26_S4096x1_0_1 : S4096x26.Slices ![0, 1] S4096x1
  slices_S4096x26_S4096x1_0_2 : S4096x26.Slices ![0, 2] S4096x1
  slices_S4096x26_S4096x1_0_3 : S4096x26.Slices ![0, 3] S4096x1
  slices_S4096x26_S4096x1_0_4 : S4096x26.Slices ![0, 4] S4096x1
  slices_S4096x26_S4096x1_0_5 : S4096x26.Slices ![0, 5] S4096x1
  slices_S4096x26_S4096x1_0_6 : S4096x26.Slices ![0, 6] S4096x1
  slices_S4096x26_S4096x1_0_7 : S4096x26.Slices ![0, 7] S4096x1
  slices_S4096x26_S4096x1_0_8 : S4096x26.Slices ![0, 8] S4096x1
  slices_S4096x26_S4096x1_0_9 : S4096x26.Slices ![0, 9] S4096x1
  slices_S4096x26_S4096x1_0_10 : S4096x26.Slices ![0, 10] S4096x1
  slices_S4096x26_S4096x1_0_11 : S4096x26.Slices ![0, 11] S4096x1
  slices_S4096x26_S4096x1_0_12 : S4096x26.Slices ![0, 12] S4096x1
  slices_S4096x26_S4096x1_0_13 : S4096x26.Slices ![0, 13] S4096x1
  slices_S4096x26_S4096x1_0_14 : S4096x26.Slices ![0, 14] S4096x1
  slices_S4096x26_S4096x1_0_15 : S4096x26.Slices ![0, 15] S4096x1
  slices_S4096x26_S4096x1_0_16 : S4096x26.Slices ![0, 16] S4096x1
  slices_S4096x26_S4096x1_0_17 : S4096x26.Slices ![0, 17] S4096x1
  slices_S4096x26_S4096x1_0_18 : S4096x26.Slices ![0, 18] S4096x1
  slices_S4096x26_S4096x1_0_19 : S4096x26.Slices ![0, 19] S4096x1
  slices_S4096x26_S4096x1_0_20 : S4096x26.Slices ![0, 20] S4096x1
  slices_S4096x26_S4096x1_0_21 : S4096x26.Slices ![0, 21] S4096x1
  slices_S4096x26_S4096x1_0_22 : S4096x26.Slices ![0, 22] S4096x1
  slices_S4096x26_S4096x1_0_23 : S4096x26.Slices ![0, 23] S4096x1
  slices_S4096x26_S4096x1_0_24 : S4096x26.Slices ![0, 24] S4096x1
  slices_S4096x26_S4096x1_0_25 : S4096x26.Slices ![0, 25] S4096x1
  concatenates_S4096x1000_S4096x1000_S4096x1000_S4096x1000_S4096x1000_S4096x1000_S4096x1000_S4096x1000_S4096x1000_S4096x1000_S4096x1000_S4096x1000_S4096x1000_S4096x1000_S4096x1000_S4096x1000_S4096x16000_d1 : Shape.Concatenates [S4096x1000, S4096x1000, S4096x1000, S4096x1000, S4096x1000, S4096x1000, S4096x1000, S4096x1000, S4096x1000, S4096x1000, S4096x1000, S4096x1000, S4096x1000, S4096x1000, S4096x1000, S4096x1000] S4096x16000 1
  concatenates_S4096x1000_S4096x1000_S4096x1000_S4096x1000_S4096x1000_S4096x1000_S4096x1000_S4096x1000_S4096x1000_S4096x1000_S4096x10000_d1 : Shape.Concatenates [S4096x1000, S4096x1000, S4096x1000, S4096x1000, S4096x1000, S4096x1000, S4096x1000, S4096x1000, S4096x1000, S4096x1000] S4096x10000 1
  concatenates_S4096x16000_S4096x10000_S4096x26000_d1 : Shape.Concatenates [S4096x16000, S4096x10000] S4096x26000 1
  scatter_S4096x1000_S4096x2_S4096_n_01_01_1_wf : ScatterDims.WF S4096x1000 S4096x2 S4096 [] [0, 1] [0, 1] 1

variable [Facts₀]

def scatter_S4096x1000_S4096x2_S4096_n_01_01_1 : ScatterDims S4096x1000 S4096x2 S4096 where
  updateWindowDims := []
  insertedWindowDims := [0, 1]
  scatterDimsToOperandDims := [0, 1]
  indexVectorDim := 1
  wf := scatter_S4096x1000_S4096x2_S4096_n_01_01_1_wf

class Facts : Prop extends Facts₀ where

variable [Facts]
-- ==== Proof.OneHotSpec.lean ====
/-
  The function both programs compute, and the table the kernel reads it from.

  The input is a 4096 × 26 array of categories, each in [0, 1000).  The result is the 4096 × 26000 array whose row b is the
  concatenation of 26 one-hot rows of length 1000: entry (b, 1000·f + v) is one exactly when x[b, f] = v.

  The kernel does not read x itself but a flat table of 128 + 32·26·128 words: the first 128 words are 0, 1, …, 127, and word
  128 + ((s·26 + f)·128 + l) is x[128·s + l, f] (the batch cut into 32 stripes of 128 rows, each stripe stored feature by
  feature).  It writes the transposed result, 26000 × 4096: entry (1000·f + v, 128·s + l) is one exactly when the table's word
  for (s, f, l) is v.
-/
import Idealize.ShloMosaic.PureOps
import Idealize.ShloMosaic.Lib.ValueIdx

noncomputable section

namespace Cert.Spec

open Idealize.ShloMosaic Idealize.ShloMosaic.ValueIdx

abbrev SX : Shape := ⟨2, ![4096, 26]⟩
abbrev SO : Shape := ⟨2, ![4096, 26000]⟩
abbrev SOT : Shape := ⟨2, ![26000, 4096]⟩
abbrev ST : Shape := ⟨1, ![106624]⟩

variable {F : FTy → Type} [FloatOps F]

/-- The two float words the result is made of. -/
abbrev one : F .f32 := Scalar.ofBits .f32 0x3F800000#32
abbrev zero : F .f32 := Scalar.ofBits .f32 0x00000000#32

theorem col_div_lt (j : SO.Idx) : (j 1).val / 1000 < 26 :=
  Nat.div_lt_of_lt_mul (idx2_lt1 j)

/-- The one-hot encoding: entry `(b, 1000·f + v)` is one exactly when `x[b, f] = v`. -/
def oneHot (x : IVec SX 32) : FVec F SO .f32 := fun j =>
  if (x (ix2 (j 0) ⟨(j 1).val / 1000, col_div_lt j⟩)).toNat = (j 1).val % 1000 then one else zero

/-- The table word the kernel reads for output entry `(R, C)` of the transposed result: stripe `C / 128`, feature
    `R / 1000`, lane `C % 128`. -/
def tabPos (R C : Nat) : Nat := 128 + ((C / 128) * 26 + R / 1000) * 128 + C % 128

theorem tabPos_lt {R C : Nat} (hR : R < 26000) (hC : C < 4096) : tabPos R C < 106624 := by
  unfold tabPos
  have h1 : C / 128 < 32 := Nat.div_lt_of_lt_mul hC
  have h2 : R / 1000 < 26 := Nat.div_lt_of_lt_mul hR
  have h3 : C % 128 < 128 := Nat.mod_lt _ (by decide)
  omega

/-- What the kernel leaves in its 26000 × 4096 output, as a function of the table's words: entry `(R, C)` is one exactly
    when the table's word for it is `R % 1000`. -/
def outOfTable (tab : IVec ST 32) : FVec F SOT .f32 := fun j =>
  if (tab (ix1 ⟨tabPos (j 0).val (j 1).val, tabPos_lt (idx2_lt0 j) (idx2_lt1 j)⟩)).toNat = (j 0).val % 1000 then one else zero

/-- What the kernel needs of the table: its first 128 words count 0 … 127, and every later word is a category. -/
def TabOK (tab : IVec ST 32) : Prop :=
  (∀ j : ST.Idx, (j 0).val < 128 → (tab j).toNat = (j 0).val) ∧ (∀ j : ST.Idx, 128 ≤ (j 0).val → (tab j).toNat < 1000)

end Cert.Spec

end
-- ==== Proof.K.Setup.lean ====
/-
  The one-hot kernel as the launch of its 32 tiles sees it: the names of the arrays (the input x, the flat table, the
  transposed result), what one tile is handed — a read share of the table and the 26 windows of the result that are its
  own: rows [1000 f, 1000 f + 1000) × columns [128 w, 128 w + 128) for its stripe w — and what it hands back: the same
  windows holding the one-hot encoding read off the table.
-/
import proofs.«211696_g86517821210821_cont_sun_m_1191_30_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«211696_g86517821210821_cont_sun_m_1191_30_alg».proof.Proof.Gen.Kernel
import proofs.«211696_g86517821210821_cont_sun_m_1191_30_alg».proof.Proof.Gen.Kernel.Skeleton
import proofs.«211696_g86517821210821_cont_sun_m_1191_30_alg».proof.Proof.OneHotSpec

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The input `x`, the flat table, the transposed result, the result: as locations of device `d`. -/
abbrev xLoc (d : Dev nD) : Loc nD τ sig := (SparseCore.T d).loc main_arg0
abbrev tLoc (d : Dev nD) : Loc nD τ sig := (SparseCore.T d).loc main_v4
abbrev oLoc (d : Dev nD) : Loc nD τ sig := (SparseCore.T d).loc main_v5
abbrev rLoc (d : Dev nD) : Loc nD τ sig := (SparseCore.T d).loc main_v6

/-- A tile's place from its grid coordinates. -/
def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0

/-- The stripe of 128 batch rows a tile encodes: twice its subcore number plus its core number. -/
def wid (L : grid0.Coords) : Nat := 2 * (L 1).val + (L 0).val

/-- Window `(f, w)` of the transposed result: the thousand rows of feature `f`, the 128 columns of stripe `w`. -/
def outSet (f : Fin 26) (w : Nat) : Finset S26000x4096.Idx :=
  Finset.univ.filter fun j => (j 0).val / 1000 = f.val ∧ (j 1).val / 128 = w

variable [FloatOps F]

/-- What a tile is handed: a read share of the table at its contents, and its 26 windows of the result at whatever they hold. -/
def tileGo (d : Dev nD) (tab : Buf (Elt F) (tLoc d)) (q : PosShare TreeShare) (L : grid0.Coords) (o : Buf (Elt F) (oLoc d)) : sProp 𝕄 :=
  iprop((tLoc d ↦{q} tab) ∗ bigSep Finset.univ fun f : Fin 26 => oLoc d ↦[outSet f (wid L)]{fullShare} o)

/-- What it hands back: the share, and the windows at the encoding read off the table. -/
def tileTd (d : Dev nD) (tab : Buf (Elt F) (tLoc d)) (q : PosShare TreeShare) (L : grid0.Coords) : sProp 𝕄 :=
  iprop((tLoc d ↦{q} tab) ∗ bigSep Finset.univ fun f : Fin 26 => oLoc d ↦[outSet f (wid L)]{fullShare} (Cert.Spec.outOfTable (F := F) tab))

/-- The kernel's body on the tile at `L`, on the whole arrays and the tile's scratch. -/
abbrev tileProg (L : grid0.Coords) :=
  cc0_body (F := F) L (Memref.whole main_v4_scv) (Memref.isWhole_whole _) (Memref.whole main_v5_scv) (Memref.isWhole_whole _)
    (Memref.whole cc0_scratch0) (Memref.isWhole_whole _) (Memref.whole cc0_scratch1) (Memref.isWhole_whole _)
    (Memref.whole cc0_scratch2) (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26

/-- One tile's task: from its share of the table (whose words are as the kernel needs them) and its windows, the body runs
    to its end and leaves the windows at the encoding. -/
def TileStmt : Prop :=
  ∀ (d : Dev nD) (tab : Buf (Elt F) (tLoc d)), Cert.Spec.TabOK tab → ∀ (q : PosShare TreeShare) (L : grid0.Coords) (o : Buf (Elt F) (oLoc d))
    (O : CellTallies nD τ sig (HIx 1)) (W : Waits sig (HIx 1)), (∀ g, O g none = 0) →
    iprop(levAts (K (F := F)).L (K (F := F)).lev ∗ emp ∗ tileGo d tab q L o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tileTd d tab q L ∗ scopedBufs (V d (cV L) (jV L)) ∗ scopedSems0 (V d (cV L) (jV L))
            ∗ ∃ W', ⌜∀ p ∈ W', p ∈ W ∨ p.2 = none⌝ ∗ owes (V d (cV L) (jV L)) O W')

end Cert.KProof

end
-- ==== Proof.TableSpec.lean ====
/-
  The table the kernel reads, as the host builds it from the input, read word by word.

  The host lays the numbers 0 … 127 in front, cuts the 4096 × 26 input into 32 stripes of 128 rows, turns each stripe so
  that its 26 features come first, and flattens: word 128 + ((s·26 + f)·128 + l) is x[128·s + l, f].  Read through this
  table, the transposed result the kernel writes is the one-hot encoding of x.
-/
import Idealize.ShloMosaic.PureOps
import Idealize.ShloMosaic.Lib.ValueIdx
import Idealize.ShloMosaic.Lib.IdealHost
import Idealize.ShloMosaic.Lib.Pipeline.Value
import proofs.«211696_g86517821210821_cont_sun_m_1191_30_alg».proof.Proof.OneHotSpec

noncomputable section

namespace Cert.Spec

open Idealize.ShloMosaic Idealize.ShloMosaic.ValueIdx

variable {F : FTy → Type} [FloatOps F]

abbrev SHdr : Shape := ⟨1, ![128]⟩
abbrev SStripes : Shape := ⟨3, ![32, 128, 26]⟩
abbrev STurned : Shape := ⟨3, ![32, 26, 128]⟩
abbrev SBody : Shape := ⟨1, ![106496]⟩

/-- The stripes of the input, each turned so that a feature's 128 rows are contiguous, flattened. -/
def bodyOf (x : IVec SX 32) : IVec SBody 32 :=
  shapeCast SBody (transpose STurned [0, 2, 1] (shapeCast SStripes x (by decide)) (by decide)) (by decide)

/-- The header and the body laid end to end have the table's length. -/
theorem hdr_body_table : Shape.Concatenates [SHdr, SBody] ST 0 := by decide

/-- The table: the counting header, then the body. -/
def tabOf (x : IVec SX 32) : IVec ST 32 :=
  concatenate ST 0 [⟨SHdr, iotaInDim SHdr 32 0⟩, ⟨SBody, bodyOf x⟩] hdr_body_table

/-- Word `p = (s·26 + f)·128 + l` of the body is `x[128·s + l, f]`. -/
theorem bodyOf_apply (x : IVec SX 32) (p : Nat) (hp : p < 106496)
    (h0 : (p / 3328) * 128 + p % 128 < 4096) (h1 : (p / 128) % 26 < 26) :
    bodyOf x (ix1 ⟨p, hp⟩) = x (ix2 ⟨(p / 3328) * 128 + p % 128, h0⟩ ⟨(p / 128) % 26, h1⟩) := by
  unfold bodyOf
  refine (shapeCast_apply _ _ (ix1 (⟨p, hp⟩ : Fin 106496))
    (ix3 (⟨p / 3328, by omega⟩ : Fin 32) (⟨(p / 128) % 26, h1⟩ : Fin 26)
      (⟨p % 128, Nat.mod_lt _ (by decide)⟩ : Fin 128)) ?_).trans ?_
  · rw [Shape.rowMajor_val_three, Shape.rowMajor_val_one]
    show (p / 3328 * 26 + (p / 128) % 26) * 128 + p % 128 = p
    omega
  refine (transpose_apply _ _ _ _
    (ix3 (⟨p / 3328, by omega⟩ : Fin 32) (⟨p % 128, Nat.mod_lt _ (by decide)⟩ : Fin 128)
      (⟨(p / 128) % 26, h1⟩ : Fin 26)) ?_).trans ?_
  · intro b
    match b with
    | ⟨0, _⟩ => rfl
    | ⟨1, _⟩ => rfl
    | ⟨2, _⟩ => rfl
  refine shapeCast_apply _ _ _ _ ?_
  rw [Shape.rowMajor_val_three, Shape.rowMajor_val_two]
  rfl

/-- The header counts: word `j` of the first 128 is `j`. -/
theorem tabOf_apply_hdr (x : IVec SX 32) (j : ST.Idx) (hj : (j 0).val < 128) :
    tabOf x j = BitVec.ofNat 32 (j 0).val := by
  unfold tabOf
  refine (concatenate_pair_apply_left (0 : Fin ST.rank) _ _ hdr_body_table j rfl (ix1 ⟨(j 0).val, hj⟩) ?_).trans rfl
  intro b
  match b with
  | ⟨0, _⟩ => rfl

/-- Past the header the table is the body. -/
theorem tabOf_eq_bodyOf (x : IVec SX 32) (p : Nat) (hp : p < 106496) (hq : 128 + p < 106624) :
    tabOf x (ix1 ⟨128 + p, hq⟩) = bodyOf x (ix1 ⟨p, hp⟩) := by
  unfold tabOf
  refine concatenate_pair_apply_right (0 : Fin ST.rank) _ _ hdr_body_table (ix1 (⟨128 + p, hq⟩ : Fin 106624)) rfl rfl
    (ix1 (⟨p, hp⟩ : Fin 106496)) ?_ ?_
  · intro b hb
    match b with
    | ⟨0, _⟩ => exact absurd rfl hb
  · show p + 128 = 128 + p
    omega

/-- Word `128 + p` with `p = (s·26 + f)·128 + l` is `x[128·s + l, f]`. -/
theorem tabOf_apply_pos (x : IVec SX 32) (p : Nat) (hq : 128 + p < 106624)
    (h0 : (p / 3328) * 128 + p % 128 < 4096) (h1 : (p / 128) % 26 < 26) :
    tabOf x (ix1 ⟨128 + p, hq⟩) = x (ix2 ⟨(p / 3328) * 128 + p % 128, h0⟩ ⟨(p / 128) % 26, h1⟩) :=
  (tabOf_eq_bodyOf x p (by omega) hq).trans (bodyOf_apply x p (by omega) h0 h1)

/-- The same at any index past the header. -/
theorem tabOf_apply_body (x : IVec SX 32) (j : ST.Idx) (hj : 128 ≤ (j 0).val)
    (h0 : (((j 0).val - 128) / 3328) * 128 + ((j 0).val - 128) % 128 < 4096)
    (h1 : (((j 0).val - 128) / 128) % 26 < 26) :
    tabOf x j = x (ix2 ⟨(((j 0).val - 128) / 3328) * 128 + ((j 0).val - 128) % 128, h0⟩
      ⟨(((j 0).val - 128) / 128) % 26, h1⟩) := by
  have hlt : (j 0).val < 106624 := (j 0).isLt
  have hq : 128 + ((j 0).val - 128) < 106624 := by omega
  have hj' : j = ix1 (⟨128 + ((j 0).val - 128), hq⟩ : Fin 106624) := by
    funext a
    match a with
    | ⟨0, _⟩ => exact Fin.ext (show (j 0).val = 128 + ((j 0).val - 128) by omega)
  exact (congrArg (tabOf x) hj').trans (tabOf_apply_pos x ((j 0).val - 128) hq h0 h1)

/-- The same by stripe, feature and lane. -/
theorem tabOf_at (x : IVec SX 32) (s : Fin 32) (f : Fin 26) (l : Fin 128)
    (hq : 128 + ((s.val * 26 + f.val) * 128 + l.val) < 106624) (hr : s.val * 128 + l.val < 4096) :
    tabOf x (ix1 ⟨128 + ((s.val * 26 + f.val) * 128 + l.val), hq⟩) = x (ix2 ⟨s.val * 128 + l.val, hr⟩ f) := by
  have hs := s.isLt; have hf := f.isLt; have hl := l.isLt
  have e0 : (((s.val * 26 + f.val) * 128 + l.val) / 3328) * 128 + ((s.val * 26 + f.val) * 128 + l.val) % 128
      = s.val * 128 + l.val := by omega
  have e1 : (((s.val * 26 + f.val) * 128 + l.val) / 128) % 26 = f.val := by omega
  rw [tabOf_apply_pos x ((s.val * 26 + f.val) * 128 + l.val) hq (by omega) (by omega)]
  refine congrArg x ?_
  funext a
  match a with
  | ⟨0, _⟩ => exact Fin.ext e0
  | ⟨1, _⟩ => exact Fin.ext e1

/-- A table built from categories is what the kernel needs. -/
theorem tabOK_of_range (x : IVec SX 32) (hx : ∀ j, (x j).toNat < 1000) : TabOK (tabOf x) := by
  refine ⟨fun j hj => ?_, fun j hj => ?_⟩
  · rw [tabOf_apply_hdr x j hj, BitVec.toNat_ofNat]
    exact Nat.mod_eq_of_lt (by omega)
  · have hlt : (j 0).val < 106624 := (j 0).isLt
    rw [tabOf_apply_body x j hj (by omega) (Nat.mod_lt _ (by decide))]
    exact hx _

/-- The table's word for output entry `(R, C)` is `x[C, R / 1000]`. -/
theorem tabOf_tabPos (x : IVec SX 32) (R C : Nat) (hR : R < 26000) (hC : C < 4096) (hd : R / 1000 < 26) :
    tabOf x (ix1 ⟨tabPos R C, tabPos_lt hR hC⟩) = x (ix2 ⟨C, hC⟩ ⟨R / 1000, hd⟩) := by
  have e0 : ((((C / 128) * 26 + R / 1000) * 128 + C % 128) / 3328) * 128
      + (((C / 128) * 26 + R / 1000) * 128 + C % 128) % 128 = C := by omega
  have e1 : ((((C / 128) * 26 + R / 1000) * 128 + C % 128) / 128) % 26 = R / 1000 := by omega
  have hq : 128 + (((C / 128) * 26 + R / 1000) * 128 + C % 128) < 106624 := by omega
  have hpos : (ix1 (⟨tabPos R C, tabPos_lt hR hC⟩ : Fin 106624) : ST.Idx)
      = ix1 (⟨128 + (((C / 128) * 26 + R / 1000) * 128 + C % 128), hq⟩ : Fin 106624) := by
    funext a
    match a with
    | ⟨0, _⟩ =>
      exact Fin.ext (show tabPos R C = 128 + (((C / 128) * 26 + R / 1000) * 128 + C % 128) by unfold tabPos; omega)
  rw [hpos, tabOf_apply_pos x _ hq (by omega) (by omega)]
  refine congrArg x ?_
  funext a
  match a with
  | ⟨0, _⟩ => exact Fin.ext e0
  | ⟨1, _⟩ => exact Fin.ext e1

/-- Read through the table, the transposed result is the one-hot encoding, transposed back. -/
theorem transpose_outOfTable (x : IVec SX 32) (h : SOT.Transposes [1, 0] SO) :
    transpose SO [1, 0] (outOfTable (F := F) (tabOf x)) h = oneHot x := by
  funext j
  refine (transpose_apply _ _ _ j (ix2 (j 1) (j 0)) ?_).trans ?_
  · intro b
    match b with
    | ⟨0, _⟩ => rfl
    | ⟨1, _⟩ => rfl
  unfold outOfTable oneHot
  show (if (tabOf x (ix1 ⟨tabPos (j 1).val (j 0).val, _⟩)).toNat = (j 1).val % 1000 then one else zero) = _
  rw [tabOf_tabPos x (j 1).val (j 0).val (idx2_lt1 j) (idx2_lt0 j) (col_div_lt j)]
  rfl

end Cert.Spec

end
-- ==== Proof.K.Launch.lean ====
/-
  The launch of the one-hot kernel: from "each tile's body is proved" to the run of the whole program.

  @main builds the flat table on the TensorCore with five host operations, starts the kernel on the two SparseCores (sixteen
  tiles each), and transposes what they leave.  The table is read by all 32 tiles, so it goes out as read shares: one per
  SparseCore, each split again into its sixteen tiles' (the remainders set aside and joined back when the shares return).
  The 26000 × 4096 result is cut into the 32 · 26 windows (feature × stripe of 128 columns), which are the fibres of one
  function of the index — so they are pairwise disjoint and cover the array —; tile (c, i) owns stripe 2 i + c.  Each tile
  turns its windows into the encoding read off the table (the hypothesis), the windows join back to the whole array, and the
  final transpose gives the claim's term.
-/
import proofs.«211696_g86517821210821_cont_sun_m_1191_30_alg».proof.Proof.K.Setup
import proofs.«211696_g86517821210821_cont_sun_m_1191_30_alg».proof.Proof.TableSpec

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## The table and the result as pure terms of the input -/

/-- The flat table as the five host operations build it from the input: the counting row 0 … 127, then the input cut into
    32 stripes of 128 rows, each stripe stored feature by feature. -/
def tabTerm {d : Dev nD} (x : Buf (Elt F) (xLoc d)) : Buf (Elt F) (tLoc d) :=
  concatenate S106624 0
    [⟨S128, iotaInDim S128 32 0⟩,
     ⟨S106496, fun i => shapeCast S106496
        (transpose S32x26x128 [0, 2, 1] (fun i => shapeCast S32x128x26 x shapeCasts_S4096x26_S32x128x26 i) transposes_S32x128x26_S32x26x128_0_2_1)
        shapeCasts_S32x26x128_S106496 i⟩]
    concatenates_S128_S106496_S106624_d0

variable (m : (ℓ : Loc nD τ sig) → Buf (Elt F) ℓ) (ρ : Dev nD → PrngReg)

/-- The table on device `d`, from the launch contents of the input. -/
abbrev tabAt (d : Dev nD) : Buf (Elt F) (tLoc d) := tabTerm (m (xLoc d))

/-- The final result on device `d`: the encoding read off the table, transposed. -/
abbrev resAt (d : Dev nD) : Buf (Elt F) (rLoc d) :=
  transpose S4096x26000 [1, 0] (Cert.Spec.outOfTable (F := F) (tabAt m d)) transposes_S26000x4096_S4096x26000_1_0

/-! ## What the handshakes carry -/

/-- The read share of the table that goes to SparseCore `c`, and of it the one that goes to its tile `i`. -/
abbrev qCore (c : ℕ) : PosShare TreeShare := Transfers.shareTokN fullShare c
abbrev qTile (c i : ℕ) : PosShare TreeShare := Transfers.shareTokN (qCore c) i

/-- The 26 windows of the tile `(c, i)`, at contents `o`. -/
def wins (d : Dev nD) (c : Fin ((K (F := F)).nCore 0)) (i : Fin ((K (F := F)).nSub 0)) (o : Buf (Elt F) (oLoc d)) : sProp 𝕄 :=
  bigSep Finset.univ fun f : Fin 26 => oLoc d ↦[outSet f (wid (coordsV c i))]{fullShare} o

/-- The one call hands SparseCore `c` its read share of the table and its sixteen tiles' windows of the result; each
    tile gets a share of that share and its own windows, and hands them back with the windows at the encoding. -/
def P : (K (F := F)).Pay (nD := nD) (Val := Elt F) (Name := ℕ) (U := UU) where
  st := fun q d c => match q with
    | 0 => iprop((tLoc d ↦{qCore c.val} tabAt m d) ∗ bigSep Finset.univ fun i : Fin ((K (F := F)).nSub 0) => wins d c i (m (oLoc d)))
  dn := fun q d c => match q with
    | 0 => iprop((tLoc d ↦{qCore c.val} tabAt m d)
        ∗ bigSep Finset.univ fun i : Fin ((K (F := F)).nSub 0) => wins d c i (Cert.Spec.outOfTable (F := F) (tabAt m d)))
  go := fun q d c i => match q with
    | 0 => tileGo d (tabAt m d) (qTile c.val i.val) (coordsV c i) (m (oLoc d))
  td := fun q d c i => match q with
    | 0 => tileTd d (tabAt m d) (qTile c.val i.val) (coordsV c i)
  x := fun _ _ => iprop(emp)

instance P_storable : (P (F := F) m).IsStorable where
  st q d c := match q with
    | 0 => by unfold P wins; infer_instance
  dn q d c := match q with
    | 0 => by unfold P wins; infer_instance
  go q d c i := match q with
    | 0 => by unfold P tileGo; infer_instance
  td q d c i := match q with
    | 0 => by unfold P tileTd; infer_instance

/-! ## The launch theorem's obligations -/

/-- The kernel's label on a tile is the body at the tile's coordinates. -/
theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task is the one statement of the body, at the tile's coordinates, share and windows. -/
theorem tileObl (htile : TileStmt (F := F)) (htab : ∀ d, Cert.Spec.TabOK (tabAt m d)) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (tabAt m d) (htab d) (qTile c.val i.val) (coordsV ⟨_, hc.1⟩ ⟨_, hc.2⟩) (m (oLoc d)) O W hO).trans
    (wp_mono frame _ _ fun _ => obl_post)

/-- A SparseCore's share of the table splits into its sixteen tiles' shares (the remainder set aside until they come
    back); its windows are already the tiles'. -/
theorem vecSplit : (K (F := F)).VecSplit' (P m) 0 := by
  intro d c
  show iprop((tLoc d ↦{qCore c.val} tabAt m d) ∗ bigSep Finset.univ fun i : Fin ((K (F := F)).nSub 0) => wins d c i (m (oLoc d)))
    ⊢ |={Set.univ}=> iprop(
      (bigSep Finset.univ fun i : Fin ((K (F := F)).nSub 0) => tileGo d (tabAt m d) (qTile c.val i.val) (coordsV c i) (m (oLoc d)))
      ∗ ((bigSep Finset.univ fun i : Fin ((K (F := F)).nSub 0) => tileTd d (tabAt m d) (qTile c.val i.val) (coordsV c i))
          -∗ iprop((tLoc d ↦{qCore c.val} tabAt m d)
            ∗ bigSep Finset.univ fun i : Fin ((K (F := F)).nSub 0) => wins d c i (Cert.Spec.outOfTable (F := F) (tabAt m d)))))
  unfold tileGo tileTd wins
  rw [bigSep_sep', bigSep_sep']
  iintro ⟨Ht, Hw⟩; imodintro
  ihave Hs := (Transfers.pointsTo_toks_split (qCore c.val) ((K (F := F)).nSub 0)) $$ Ht
  icases Hs with ⟨Hdrop, Htoks⟩
  isplitl [Htoks Hw]
  · isplitl [Htoks]; · iexact Htoks
    iexact Hw
  iintro ⟨Htoks, Hw⟩
  isplitl [Hdrop Htoks]
  · iapply (Transfers.pointsTo_toks_join (qCore c.val) ((K (F := F)).nSub 0))
    isplitl [Hdrop]; · iexact Hdrop
    iexact Htoks
  iexact Hw

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The result array as its 32 · 26 windows -/

/-- The window of tile `(c, i)` for feature `f`. -/
abbrev winSet (t : Fin ((K (F := F)).nCore 0) × Fin ((K (F := F)).nSub 0) × Fin 26) : Finset S26000x4096.Idx :=
  outSet t.2.2 (wid (coordsV t.1 t.2.1))

omit [FloatOps F] in
theorem wid_coordsV (c : Fin ((K (F := F)).nCore 0)) (i : Fin ((K (F := F)).nSub 0)) : wid (coordsV c i) = 2 * i.val + c.val := rfl

omit [FloatOps F] in
theorem mem_winSet (t : Fin ((K (F := F)).nCore 0) × Fin ((K (F := F)).nSub 0) × Fin 26) (j : S26000x4096.Idx) :
    j ∈ winSet (F := F) t ↔ (j 0).val / 1000 = t.2.2.val ∧ (j 1).val / 128 = 2 * t.2.1.val + t.1.val := by
  unfold winSet outSet
  rw [wid_coordsV, Finset.mem_filter]
  exact ⟨fun h => h.2, fun h => ⟨Finset.mem_univ _, h⟩⟩

omit [FloatOps F] in
/-- Two different windows share no element: an element's feature and stripe determine its window, and a stripe number
    `2 i + c` with `c < 2` determines `i` and `c`. -/
theorem wins_disjoint : ∀ t ∈ (Finset.univ : Finset (Fin ((K (F := F)).nCore 0) × Fin ((K (F := F)).nSub 0) × Fin 26)),
    ∀ t' ∈ (Finset.univ : Finset (Fin ((K (F := F)).nCore 0) × Fin ((K (F := F)).nSub 0) × Fin 26)),
    t ≠ t' → Disjoint (winSet (F := F) t) (winSet (F := F) t') := by
  intro t _ t' _ hne
  refine Finset.disjoint_left.mpr fun j h1 h2 => hne ?_
  rw [mem_winSet] at h1 h2
  obtain ⟨c, i, f⟩ := t; obtain ⟨c', i', f'⟩ := t'
  have hc : c.val < 2 := c.isLt
  have hc' : c'.val < 2 := c'.isLt
  have e1 : f = f' := Fin.ext (h1.1.symm.trans h2.1)
  have e2 : 2 * i.val + c.val = 2 * i'.val + c'.val := h1.2.symm.trans h2.2
  have e3 : c = c' := Fin.ext (by omega)
  have e4 : i = i' := Fin.ext (by omega)
  rw [e1, e3, e4]

omit [FloatOps F] in
/-- Every element lies in a window: its row is below 26000, so its feature is below 26; its column is below 4096, so its
    stripe is below 32. -/
theorem wins_cover : (Finset.univ : Finset (Fin ((K (F := F)).nCore 0) × Fin ((K (F := F)).nSub 0) × Fin 26)).biUnion (winSet (F := F)) = Finset.univ := by
  refine Finset.eq_univ_iff_forall.mpr fun j => Finset.mem_biUnion.mpr ?_
  have h0 : (j 0).val < 26000 := (j 0).isLt
  have h1 : (j 1).val < 4096 := (j 1).isLt
  have hC : (K (F := F)).nCore 0 = 2 := rfl
  have hS : (K (F := F)).nSub 0 = 16 := rfl
  refine ⟨(⟨(j 1).val / 128 % 2, by omega⟩, ⟨(j 1).val / 128 / 2, by omega⟩, ⟨(j 0).val / 1000, by omega⟩), Finset.mem_univ _, ?_⟩
  rw [mem_winSet]
  dsimp only
  omega

/-- The result array whole is its 2 · 16 · 26 windows. -/
theorem o_split (d : Dev nD) (o : Buf (Elt F) (oLoc d)) :
    (oLoc d ↦{fullShare} o : sProp 𝕄)
      = bigSep Finset.univ fun c : Fin ((K (F := F)).nCore 0) => bigSep Finset.univ fun i : Fin ((K (F := F)).nSub 0) => wins d c i o := by
  have e : (bigSep Finset.univ fun c : Fin ((K (F := F)).nCore 0) => bigSep Finset.univ fun i : Fin ((K (F := F)).nSub 0) => wins d c i o)
      = bigSep Finset.univ fun t : Fin ((K (F := F)).nCore 0) × Fin ((K (F := F)).nSub 0) × Fin 26 =>
          (oLoc d ↦[winSet (F := F) t]{fullShare} o : sProp 𝕄) := by
    rw [bigSep_univ_prod]
    refine bigSep_congr fun c _ => ?_
    rw [bigSep_univ_prod]; rfl
  rw [e, ← pointsTo_biUnion Finset.univ (ℓ := oLoc d) (winSet (F := F)) wins_disjoint, wins_cover]

/-- What @main leaves the claim: the result at the transposed encoding, the input at its launch contents. -/
abbrev FIN (d : Dev nD) : sProp 𝕄 := iprop((rLoc d ↦{fullShare} resAt m d) ∗ xLoc d ↦{fullShare} m (xLoc d))

def fq (d : Dev nD) (s' : Phys nD τ sig (Elt F)) : Prop := s'.mem.mem (rLoc d) = resAt m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hr, Hx⟩, HSI⟩
  ihave H := (persistent_entails_right (SI_pointsTo_agree (st := s') (ℓ := rLoc d) (I := Finset.univ) (q := fullShare) (f := resAt m d))) $$ [HSI Hr]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## @main on the TensorCore -/

abbrev x' : DevRef τ sig := Proc.devRef .tc (main_arg0 : Ref sig .tc)
abbrev a' : DevRef τ sig := Proc.devRef .tc (main_v0 : Ref sig .tc)
abbrev b' : DevRef τ sig := Proc.devRef .tc (main_v1 : Ref sig .tc)
abbrev c' : DevRef τ sig := Proc.devRef .tc (main_v2 : Ref sig .tc)
abbrev e' : DevRef τ sig := Proc.devRef .tc (main_v3 : Ref sig .tc)
abbrev t' : DevRef τ sig := Proc.devRef .tc (main_v4 : Ref sig .tc)
abbrev o' : DevRef τ sig := Proc.devRef .tc (main_v5 : Ref sig .tc)
abbrev r' : DevRef τ sig := Proc.devRef .tc (main_v6 : Ref sig .tc)

/-- The host operations, as @main spells them: the five that build the table, and the final transpose. -/
abbrev op0 : HloOp τ sig (Elt F) := StableHlo.nullary main_v0 (iotaInDim S128 32 0)
abbrev op1 : HloOp τ sig (Elt F) := StableHlo.reshape main_arg0 main_v1 rfl shapeCasts_S4096x26_S32x128x26
abbrev op2 : HloOp τ sig (Elt F) := StableHlo.unary main_v1 main_v2 ((transpose S32x26x128 [0, 2, 1] · transposes_S32x128x26_S32x26x128_0_2_1) : (⟨S32x128x26, .i32⟩ : BufTy).Contents (Elt F) → (⟨S32x26x128, .i32⟩ : BufTy).Contents (Elt F))
abbrev op3 : HloOp τ sig (Elt F) := StableHlo.reshape main_v2 main_v3 rfl shapeCasts_S32x26x128_S106496
abbrev op4 : HloOp τ sig (Elt F) := StableHlo.binary main_v0 main_v3 main_v4 ((fun a b => concatenate S106624 0 [⟨S128, a⟩, ⟨S106496, b⟩] concatenates_S128_S106496_S106624_d0) : (⟨S128, .i32⟩ : BufTy).Contents (Elt F) → (⟨S106496, .i32⟩ : BufTy).Contents (Elt F) → (⟨S106624, .i32⟩ : BufTy).Contents (Elt F))
abbrev op6 : HloOp τ sig (Elt F) := StableHlo.unary main_v5 main_v6 ((transpose S4096x26000 [1, 0] · transposes_S26000x4096_S4096x26000_1_0) : (⟨S26000x4096, .f32⟩ : BufTy).Contents (Elt F) → (⟨S4096x26000, .f32⟩ : BufTy).Contents (Elt F))
abbrev ops5 : List (HloOp τ sig (Elt F)) := [op0, op1, op2, op3, op4]

/-- @main is the five operations in a line, then the call, then the transpose. -/
theorem main_eq (d : Dev nD) : main (F := F) d = (StableHlo.seq (ops5 (F := F)) >>= fun _ => (do
    (K (F := F)).run d 0
    hlo rfl (op6 (F := F)) (fun _ => .ret ⟨⟩)
    pure ⟨⟩)) := rfl

/-- The TensorCore's arrays, all unscoped: the four the claim and the call speak of, and the four intermediate ones. -/
abbrev S4 : Finset (DevRef τ sig) := {a', b', c', e'}
abbrev S8 : Finset (DevRef τ sig) := insert x' (insert t' (insert o' (insert r' S4)))
abbrev S2 : Finset (DevRef τ sig) := {o', r'}

theorem hbufs : ∀ op ∈ ops5 (F := F), op.bufs ⊆ S8 := by
  intro op hop
  simp only [List.mem_cons, List.not_mem_nil, or_false] at hop
  rcases hop with rfl | rfl | rfl | rfl | rfl
  · exact show ({a'} : Finset (DevRef τ sig)) ⊆ S8 by decide
  · exact show ({x', b'} : Finset (DevRef τ sig)) ⊆ S8 by decide
  · exact show ({b', c'} : Finset (DevRef τ sig)) ⊆ S8 by decide
  · exact show ({c', e'} : Finset (DevRef τ sig)) ⊆ S8 by decide
  · exact show ({a', e', t'} : Finset (DevRef τ sig)) ⊆ S8 by decide

theorem hfresh : ∀ op ∈ ops5 (F := F), op.fresh = ∅ := by
  intro op hop
  simp only [List.mem_cons, List.not_mem_nil, or_false] at hop
  rcases hop with rfl | rfl | rfl | rfl | rfl <;> rfl

theorem h6 : (op6 (F := F)).bufs ⊆ S2 := show ({o', r'} : Finset (DevRef τ sig)) ⊆ S2 by decide

/-- The launch valuation. -/
def V0 (d : Dev nD) : Valuation τ sig (Elt F) := fun b => m (d, b)

omit [FloatOps F] in
theorem held_S8 (d : Dev nD) (W : Valuation τ sig (Elt F)) :
    (held (T d) S8 W : sProp 𝕄) = iprop((xLoc d ↦{fullShare} W x') ∗ (tLoc d ↦{fullShare} W t') ∗ (oLoc d ↦{fullShare} W o') ∗ (rLoc d ↦{fullShare} W r')
      ∗ held (T d) S4 W) := by
  unfold held S8
  rw [SparseCore.bigSep_insert' (by decide), SparseCore.bigSep_insert' (by decide), SparseCore.bigSep_insert' (by decide), SparseCore.bigSep_insert' (by decide)]

omit [FloatOps F] in
theorem held_S4 (d : Dev nD) (W : Valuation τ sig (Elt F)) :
    (held (T d) S4 W : sProp 𝕄) = iprop(((SparseCore.T d).loc main_v0 ↦{fullShare} W a') ∗ ((SparseCore.T d).loc main_v1 ↦{fullShare} W b')
      ∗ ((SparseCore.T d).loc main_v2 ↦{fullShare} W c') ∗ (SparseCore.T d).loc main_v3 ↦{fullShare} W e') := by
  unfold held S4
  rw [SparseCore.bigSep_insert' (by decide), SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_v4) ∗ (oLoc d ↦{fullShare} W main_v5) ∗ (rLoc d ↦{fullShare} W main_v6)
      ∗ ((SparseCore.T d).loc main_v0 ↦{fullShare} W main_v0) ∗ ((SparseCore.T d).loc main_v1 ↦{fullShare} W main_v1)
      ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_v4, main_v5, main_v6, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8, held_S4]; rfl

open Idealize.ShloMosaic.StableHlo in
theorem after_t (d : Dev nD) : StableHlo.after (ops5 (F := F)) (V0 m d) t' = tabAt m d := by
  after_results
  rfl
open Idealize.ShloMosaic.StableHlo in
theorem after_x (d : Dev nD) : StableHlo.after (ops5 (F := F)) (V0 m d) x' = m (xLoc d) := by
  after_results
  rfl
open Idealize.ShloMosaic.StableHlo in
theorem after_o (d : Dev nD) : StableHlo.after (ops5 (F := F)) (V0 m d) o' = m (oLoc d) := by
  after_results
  rfl
open Idealize.ShloMosaic.StableHlo in
theorem after_r (d : Dev nD) : StableHlo.after (ops5 (F := F)) (V0 m d) r' = m (rLoc d) := by
  after_results
  rfl

/-- After the five operations: the input untouched, the table built, the two result arrays as launched. -/
theorem held_after (d : Dev nD) :
    (held (T d) S8 (StableHlo.after (ops5 (F := F)) (V0 m d)) : sProp 𝕄)
      = iprop((xLoc d ↦{fullShare} m (xLoc d)) ∗ (tLoc d ↦{fullShare} tabAt m d) ∗ (oLoc d ↦{fullShare} m (oLoc d)) ∗ (rLoc d ↦{fullShare} m (rLoc d))
        ∗ held (T d) S4 (StableHlo.after (ops5 (F := F)) (V0 m d))) := by
  rw [held_S8, after_x, after_t, after_o, after_r]

/-- The arrays the transpose touches, once the call is back: the kernel's result at the encoding. -/
def V6 (d : Dev nD) : Valuation τ sig (Elt F) := Function.update (V0 m d) o' (Cert.Spec.outOfTable (F := F) (tabAt m d))
theorem V6_o (d : Dev nD) : V6 m d o' = Cert.Spec.outOfTable (F := F) (tabAt m d) := Function.update_self _ _ _
theorem V6_r (d : Dev nD) : V6 m d r' = m (rLoc d) := Function.update_of_ne (show r' ≠ o' by decide) _ _

theorem held_V7 (d : Dev nD) :
    (held (T d) S2 ((op6 (F := F)).result (V6 m d)) : sProp 𝕄)
      = iprop((oLoc d ↦{fullShare} (op6 (F := F)).result (V6 m d) o') ∗ rLoc d ↦{fullShare} resAt m d) := by
  rw [held_S2, StableHlo.unary_result, V6_o]

/-- What the call takes for the two SparseCores — the two read shares of the table and the result array whole — and what it
    hands back. -/
theorem st0_eq (d : Dev nD) : (bigSep Finset.univ fun c : Fin ((K (F := F)).nCore 0) => (P m).st 0 d c)
    = iprop((bigSep Finset.univ fun c : Fin ((K (F := F)).nCore 0) => tLoc d ↦{Transfers.shareTok fullShare ((K (F := F)).nCore 0) c} tabAt m d)
        ∗ oLoc d ↦{fullShare} m (oLoc d)) := by
  rw [o_split]
  show (bigSep Finset.univ fun c : Fin ((K (F := F)).nCore 0) => iprop((tLoc d ↦{qCore c.val} tabAt m d)
    ∗ bigSep Finset.univ fun i : Fin ((K (F := F)).nSub 0) => wins d c i (m (oLoc d)))) = _
  rw [bigSep_sep']
theorem dn0_eq (d : Dev nD) : (bigSep Finset.univ fun c : Fin ((K (F := F)).nCore 0) => (P m).dn 0 d c)
    = iprop((bigSep Finset.univ fun c : Fin ((K (F := F)).nCore 0) => tLoc d ↦{Transfers.shareTok fullShare ((K (F := F)).nCore 0) c} tabAt m d)
        ∗ oLoc d ↦{fullShare} Cert.Spec.outOfTable (F := F) (tabAt m d)) := by
  rw [o_split]
  show (bigSep Finset.univ fun c : Fin ((K (F := F)).nCore 0) => iprop((tLoc d ↦{qCore c.val} tabAt m d)
    ∗ bigSep Finset.univ fun i : Fin ((K (F := F)).nSub 0) => wins d c i (Cert.Spec.outOfTable (F := F) (tabAt m d)))) = _
  rw [bigSep_sep']

/-- @main on device `d`'s TensorCore: the five operations in a line (the table built), the call (the table out as two read
    shares, the result array whole, both back with the result at the encoding), the transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S8 _ (ops5 (F := F)) hbufs hfresh (V0 m d)) $$ [Hb Hheld]
  · isplitl [Hb]; · iexact Hb
    iexact Hheld
  iintro ⟨Hb, Hheld⟩
  ihave Hh := (Entails.of_eq (held_after m d)) $$ Hheld
  icases Hh with ⟨Hx, Ht, Ho, Hr, -⟩
  simp only [wp_bind, wp_pure]
  -- the call: the table as two read shares, the result array whole
  ihave Hs := (Transfers.pointsTo_toks_split fullShare ((K (F := F)).nCore 0)) $$ Ht
  icases Hs with ⟨Hdrop, Htoks⟩
  iapply ((K (F := F)).wp_run (D (F := F)) 𝒱 (EH := EH) (P := P m) κ d 0) $$ [Hst Htoks Ho Hb Hx Hr]
  isplitr; · iexact Hctx
  isplitl [Hst]; · iexact Hst
  isplitl [Htoks Ho]
  · rw [st0_eq]
    isplitl [Htoks]; · iexact Htoks
    iexact Ho
  iintro ⟨Hst, Hdn⟩
  ihave Hdn' := (Entails.of_eq (dn0_eq m d)) $$ Hdn
  icases Hdn' with ⟨-, Ho⟩
  -- the transpose, over the kernel's result and the final one
  iapply (wp_hlo_within 𝒱 (SparseCore.T d) none Set.univ (op := op6) (S := S2) h6 (V := V6 m d)) $$ [Hb Ho Hr]
  · isplitl [Hb]; · iexact Hb
    rw [held_S2, V6_o, V6_r]
    isplitl [Ho]; · iexact Ho
    iexact Hr
  iintro ⟨Hb, Hheld⟩
  ihave Hh := (Entails.of_eq (held_V7 m d)) $$ Hheld
  icases Hh with ⟨-, Hr⟩
  rw [wp_ret]; imodintro; imodintro
  isplitl [Hst]; · iexact Hst
  isplitl [Hr]; · iexact Hr
  iexact Hx

/-! ## The program's run -/

/-- Every weakly fair execution of the whole program terminates, and at its end the result array holds the one-hot encoding
    read off the table (transposed back to batch-major), the input what it held at the launch. -/
theorem run_main_term [∀ e, Nonempty (Elt F e)] (htile : TileStmt (F := F)) (htab : ∀ d, Cert.Spec.TabOK (tabTerm (m (xLoc d)))) :
    θ_run (Cert.Kernel.defs (F := F)) (Cert.Kernel.threads (F := F)) ⟨m, fun _ => 0, ρ⟩ (fun r => ∀ c : Dev nD,
      r.2.mem (rLoc c) = transpose S4096x26000 [1, 0] (Cert.Spec.outOfTable (F := F) (tabTerm (m (xLoc c)))) transposes_S26000x4096_S4096x26000_1_0
      ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m htile htab)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

/-- The table term is the specification's table of the input: the same operations at the same shapes. -/
theorem tabTerm_eq {d : Dev nD} (x : Buf (Elt F) (xLoc d)) : tabTerm x = Cert.Spec.tabOf x := rfl

/-- The same run, the table named as the specification's table of the input. -/
theorem run_main [∀ e, Nonempty (Elt F e)] (htile : TileStmt (F := F)) (htab : ∀ d, Cert.Spec.TabOK (Cert.Spec.tabOf (m (xLoc d)))) :
    θ_run (Cert.Kernel.defs (F := F)) (Cert.Kernel.threads (F := F)) ⟨m, fun _ => 0, ρ⟩ (fun r => ∀ c : Dev nD,
      r.2.mem (rLoc c) = transpose S4096x26000 [1, 0] (Cert.Spec.outOfTable (F := F) (Cert.Spec.tabOf (m (xLoc c)))) transposes_S26000x4096_S4096x26000_1_0
      ∧ r.2.mem (xLoc c) = m (xLoc c)) :=
  run_main_term m ρ htile htab

end Cert.KProof

end
-- ==== Proof.ScatterBand.lean ====
/-
  One group of sixteen lanes of the scatter, read pointwise.

  The 1000 × 128 scratch holds, between two groups, a "band": the one-hot columns of the lanes in a range [lo, hi) and zero
  elsewhere.  Scattering the constant one at the rows named by lanes [16g, 16g + 16) extends the band [0, 16g) to
  [0, 16g + 16); scattering the constant zero at the same places shrinks the band [16g, 128) to [16g + 16, 128).

  With a constant stored value the order in which the lanes are written does not matter: an element ends up holding the
  constant exactly when some lane whose mask bit is set names it.
-/
import Idealize.ShloMosaic.PureOps
import Idealize.ShloMosaic.Lib.ValueIdx
import proofs.«211696_g86517821210821_cont_sun_m_1191_30_alg».proof.Proof.OneHotSpec

noncomputable section

namespace Cert.Spec

open Idealize.ShloMosaic Idealize.ShloMosaic.ValueIdx

variable {F : FTy → Type} [FloatOps F]

/-! ## An indexed store of a constant, read at an element -/

section General
variable {s : Shape} {e : EltTy} {d : Fin 1 → Nat}

/-- Every index of a rank-one shape is the index of its lane. -/
theorem ofLane_coord (x : (⟨1, d⟩ : Shape).Idx) : Shape.ofLane (x 0) = x := by
  funext a
  have ha : a = 0 := Fin.eq_zero a
  subst ha
  rfl

/-- The fold over a list of lanes: an element holds the constant when a masked lane of the list names it, and is
    untouched otherwise. -/
theorem foldl_const_apply (idxs : Fin s.rank → IVec ⟨1, d⟩ 32) (c : Elt F e) (mask : IVec ⟨1, d⟩ 1)
    (h : ∀ a x, (idxs a x).toNat < s.size a) (j : s.Idx) (l : List (Fin (d 0))) (f : Vec F s e) :
    ((∃ k ∈ l, mask (Shape.ofLane k) = 1 ∧ ∀ a, (idxs a (Shape.ofLane k)).toNat = (j a).val) →
      (l.foldl (fun g k =>
        let x := Shape.ofLane k
        if mask x = 1 then
          let i := idxAt idxs h x
          let y := if false then Elt.idxAdd e (g i) c else c
          fun j => if (∀ a, (j a).val = (i a).val) then y else g j
        else g) f) j = c) ∧
    ((¬ ∃ k ∈ l, mask (Shape.ofLane k) = 1 ∧ ∀ a, (idxs a (Shape.ofLane k)).toNat = (j a).val) →
      (l.foldl (fun g k =>
        let x := Shape.ofLane k
        if mask x = 1 then
          let i := idxAt idxs h x
          let y := if false then Elt.idxAdd e (g i) c else c
          fun j => if (∀ a, (j a).val = (i a).val) then y else g j
        else g) f) j = f j) := by
  induction l generalizing f with
  | nil => exact ⟨fun ⟨k, hk, _⟩ => absurd hk (List.not_mem_nil), fun _ => rfl⟩
  | cons k l ih =>
    rw [List.foldl_cons]
    obtain ⟨ih1, ih2⟩ := ih (f :=
        let x := Shape.ofLane k
        if mask x = 1 then
          let i := idxAt idxs h x
          let y := if false then Elt.idxAdd e (f i) c else c
          fun j => if (∀ a, (j a).val = (i a).val) then y else f j
        else f)
    by_cases hl : ∃ k' ∈ l, mask (Shape.ofLane k') = 1 ∧ ∀ a, (idxs a (Shape.ofLane k')).toNat = (j a).val
    · refine ⟨fun _ => ih1 hl, fun hn => absurd ?_ hn⟩
      obtain ⟨k', hk', hp⟩ := hl
      exact ⟨k', List.mem_cons_of_mem _ hk', hp⟩
    · by_cases hk : mask (Shape.ofLane k) = 1 ∧ ∀ a, (idxs a (Shape.ofLane k)).toNat = (j a).val
      · refine ⟨fun _ => ?_, fun hn => absurd ⟨k, List.mem_cons_self, hk⟩ hn⟩
        rw [ih2 hl]
        have hj : ∀ a, (j a).val = (idxAt idxs h (Shape.ofLane k) a).val := fun a => (hk.2 a).symm
        simp only [hk.1, if_true, Bool.false_eq_true, if_false, hj, implies_true]
      · refine ⟨fun ⟨k', hk', hp⟩ => ?_, fun _ => ?_⟩
        · rcases List.mem_cons.1 hk' with rfl | hk''
          · exact absurd hp hk
          · exact absurd ⟨k', hk'', hp⟩ hl
        · rw [ih2 hl]
          by_cases hm : mask (Shape.ofLane k) = 1
          · have hj : ¬ ∀ a, (j a).val = (idxAt idxs h (Shape.ofLane k) a).val :=
              fun hj => hk ⟨hm, fun a => (hj a).symm⟩
            simp only [hm, if_true, hj, if_false]
          · simp only [hm, if_false]

/-- An indexed store of a constant, without accumulation, at an element some masked lane names: the constant. -/
theorem storeIdx_const_hit (f : Vec F s e) (idxs : Fin s.rank → IVec ⟨1, d⟩ 32) (c : Elt F e) (mask : IVec ⟨1, d⟩ 1)
    (h : ∀ a x, (idxs a x).toNat < s.size a) (j : s.Idx)
    (hj : ∃ x : (⟨1, d⟩ : Shape).Idx, mask x = 1 ∧ ∀ a, (idxs a x).toNat = (j a).val) :
    storeIdx f idxs (fun _ => c) mask false h j = c := by
  obtain ⟨x, hx⟩ := hj
  refine (foldl_const_apply idxs c mask h j (List.finRange (d 0)) f).1 ⟨x 0, List.mem_finRange _, ?_⟩
  rw [ofLane_coord]; exact hx

/-- An indexed store of a constant, without accumulation, at an element no masked lane names: what was there. -/
theorem storeIdx_const_miss (f : Vec F s e) (idxs : Fin s.rank → IVec ⟨1, d⟩ 32) (c : Elt F e) (mask : IVec ⟨1, d⟩ 1)
    (h : ∀ a x, (idxs a x).toNat < s.size a) (j : s.Idx)
    (hj : ¬ ∃ x : (⟨1, d⟩ : Shape).Idx, mask x = 1 ∧ ∀ a, (idxs a x).toNat = (j a).val) :
    storeIdx f idxs (fun _ => c) mask false h j = f j :=
  (foldl_const_apply idxs c mask h j (List.finRange (d 0)) f).2 fun ⟨k, _, hk⟩ => hj ⟨Shape.ofLane k, hk⟩

end General

/-! ## The band and one group of the scatter -/

abbrev SB : Shape := ⟨2, ![1000, 128]⟩
abbrev S128' : Shape := ⟨1, ![128]⟩
abbrev SL : Shape := ⟨1, ![16]⟩

/-- A lane of the sixteen is below sixteen, written so that `omega` can use it. -/
theorem lane_lt (k : SL.Idx) : (k 0).val < 16 := (k 0).isLt

/-- Lane `k` of group `g` is one of the 128 lanes. -/
theorem glane_lt (g : Fin 8) (k : SL.Idx) : 16 * g.val + (k 0).val < 128 := by
  have := lane_lt k; have := g.isLt; omega

/-- The scratch between two groups: the one-hot columns of the lanes in `[lo, hi)`, zero elsewhere. -/
def band (xb : IVec S128' 32) (lo hi : Nat) : Vec F SB .f32 := fun j =>
  if lo ≤ (j 1).val ∧ (j 1).val < hi ∧ (xb (ix1 (j 1))).toNat = (j 0).val then one else zero

theorem band_empty (xb : IVec S128' 32) (a : Nat) : band (F := F) xb a a = fun _ => zero := by
  funext j
  unfold band
  rw [if_neg]
  rintro ⟨h1, h2, _⟩
  omega

theorem band_zero_eq_full (xb : IVec S128' 32) : band (F := F) xb 0 0 = band xb 128 128 := by
  rw [band_empty, band_empty]

/-- A word below 1000 is below 1000 as a signed word. -/
theorem slt_1000 (a : BitVec 32) (h : a.toNat < 1000) : IntOp.cmpi .slt a 1000#32 = 1#1 := by
  have hs : a.slt 1000#32 = true := by
    rw [BitVec.slt, decide_eq_true_eq, BitVec.toInt_eq_toNat_of_lt (by omega)]
    have : (1000#32 : BitVec 32).toInt = 1000 := by decide
    omega
  simp only [IntOp.cmpi, hs]
  rfl

section Group
variable (xb lh : IVec S128' 32) (hxb : ∀ j, (xb j).toNat < 1000) (hlh : ∀ j, (lh j).toNat = (j 0).val)
  (g : Fin 8) (v11 v12 : IVec SL 32)
  (hv11 : ∀ k : SL.Idx, v11 k = xb (ix1 ⟨16 * g.val + (k 0).val, glane_lt g k⟩))
  (hv12 : ∀ k : SL.Idx, v12 k = lh (ix1 ⟨16 * g.val + (k 0).val, glane_lt g k⟩))
include hxb hlh hv11 hv12

/-- The scatter's indices are in range: a category is a row, a lane is a column. -/
theorem chk_ok : ∀ a x, ((![v11, v12] : Fin 2 → IVec SL 32) a x).toNat < SB.size a := by
  intro a x
  match a with
  | ⟨0, _⟩ =>
    show (v11 x).toNat < 1000
    rw [hv11]; exact hxb _
  | ⟨1, _⟩ =>
    show (v12 x).toNat < 128
    rw [hv12, hlh]; exact glane_lt g x

/-- Which elements group `g` names: column `16g + k`, at the row lane `16g + k`'s word names. -/
theorem group_names (j : SB.Idx) :
    (∃ x : SL.Idx, cmpi .slt v11 (broadcast SL 1000#32) x = 1 ∧
        ∀ a, ((![v11, v12] : Fin 2 → IVec SL 32) a x).toNat = (j a).val) ↔
      (16 * g.val ≤ (j 1).val ∧ (j 1).val < 16 * (g.val + 1) ∧ (xb (ix1 (j 1))).toNat = (j 0).val) := by
  constructor
  · rintro ⟨x, _, hx⟩
    have h0 : (v11 x).toNat = (j 0).val := hx 0
    have h1 : (v12 x).toNat = (j 1).val := hx 1
    rw [hv12, hlh] at h1
    have h1' : 16 * g.val + (x 0).val = (j 1).val := h1
    have hj1 : (⟨16 * g.val + (x 0).val, glane_lt g x⟩ : Fin 128) = j 1 := Fin.ext h1'
    rw [hv11, hj1] at h0
    have := lane_lt x
    exact ⟨by omega, by omega, h0⟩
  · rintro ⟨hlo, hhi, hrow⟩
    let x : SL.Idx := ix1 ⟨(j 1).val - 16 * g.val, by omega⟩
    have hj1 : (⟨16 * g.val + (x 0).val, glane_lt g x⟩ : Fin 128) = j 1 :=
      Fin.ext (show 16 * g.val + ((j 1).val - 16 * g.val) = (j 1).val by omega)
    refine ⟨x, ?_, ?_⟩
    · show IntOp.cmpi .slt (v11 x) 1000#32 = 1
      exact slt_1000 _ (by rw [hv11]; exact hxb _)
    · intro a
      match a with
      | ⟨0, _⟩ =>
        show (v11 x).toNat = (j 0).val
        rw [hv11, hj1]; exact hrow
      | ⟨1, _⟩ =>
        show (v12 x).toNat = (j 1).val
        rw [hv12, hlh, hj1]

/-- Scattering ones at group `g`'s places extends the band by its sixteen lanes. -/
theorem scat_one (h : ∀ a x, ((![v11, v12] : Fin 2 → IVec SL 32) a x).toNat < SB.size a) :
    storeIdx (F := F) (e := .f32) (band xb 0 (16 * g.val)) ![v11, v12] (broadcast SL one)
      (cmpi .slt v11 (broadcast SL 1000#32)) false h = band xb 0 (16 * (g.val + 1)) := by
  funext j
  have hn := group_names xb lh hxb hlh g v11 v12 hv11 hv12 j
  by_cases hj : ∃ x : SL.Idx, cmpi .slt v11 (broadcast SL 1000#32) x = 1 ∧
        ∀ a, ((![v11, v12] : Fin 2 → IVec SL 32) a x).toNat = (j a).val
  · rw [show broadcast SL (one : F .f32) = fun _ => one from rfl, storeIdx_const_hit _ _ _ _ _ _ hj]
    obtain ⟨_, h2, h3⟩ := hn.1 hj
    unfold band
    rw [if_pos ⟨Nat.zero_le _, h2, h3⟩]
  · rw [show broadcast SL (one : F .f32) = fun _ => one from rfl, storeIdx_const_miss _ _ _ _ _ _ hj]
    have hn' := fun hh => hj (hn.2 hh)
    unfold band
    by_cases hlo : (j 1).val < 16 * g.val
    · by_cases hr : (xb (ix1 (j 1))).toNat = (j 0).val
      · rw [if_pos ⟨Nat.zero_le _, hlo, hr⟩, if_pos ⟨Nat.zero_le _, by omega, hr⟩]
      · rw [if_neg (fun hh => hr hh.2.2), if_neg (fun hh => hr hh.2.2)]
    · rw [if_neg (fun hh => hlo hh.2.1), if_neg (fun hh => hn' ⟨by omega, hh.2.1, hh.2.2⟩)]

/-- Scattering zeros at group `g`'s places removes its sixteen lanes from the band. -/
theorem scat_zero (h : ∀ a x, ((![v11, v12] : Fin 2 → IVec SL 32) a x).toNat < SB.size a) :
    storeIdx (F := F) (e := .f32) (band xb (16 * g.val) 128) ![v11, v12] (broadcast SL zero)
      (cmpi .slt v11 (broadcast SL 1000#32)) false h = band xb (16 * (g.val + 1)) 128 := by
  funext j
  have hn := group_names xb lh hxb hlh g v11 v12 hv11 hv12 j
  by_cases hj : ∃ x : SL.Idx, cmpi .slt v11 (broadcast SL 1000#32) x = 1 ∧
        ∀ a, ((![v11, v12] : Fin 2 → IVec SL 32) a x).toNat = (j a).val
  · rw [show broadcast SL (zero : F .f32) = fun _ => zero from rfl, storeIdx_const_hit _ _ _ _ _ _ hj]
    obtain ⟨_, h2, _⟩ := hn.1 hj
    unfold band
    rw [if_neg (fun hh => by omega)]
  · rw [show broadcast SL (zero : F .f32) = fun _ => zero from rfl, storeIdx_const_miss _ _ _ _ _ _ hj]
    have hn' := fun hh => hj (hn.2 hh)
    unfold band
    by_cases hhi : 16 * (g.val + 1) ≤ (j 1).val
    · by_cases hr : (j 1).val < 128 ∧ (xb (ix1 (j 1))).toNat = (j 0).val
      · rw [if_pos ⟨by omega, hr⟩, if_pos ⟨hhi, hr⟩]
      · rw [if_neg (fun hh => hr hh.2), if_neg (fun hh => hr hh.2)]
    · rw [if_neg (fun hh => hn' ⟨hh.1, by omega, hh.2.2⟩), if_neg (fun hh => hhi hh.1)]

end Group

end Cert.Spec

end
-- ==== Proof.BandFull.lean ====
/-
  The band over all 128 lanes is the whole one-hot block: element (v, l) is one exactly when lane l's word is v.
-/
import proofs.«211696_g86517821210821_cont_sun_m_1191_30_alg».proof.Proof.ScatterBand

noncomputable section

namespace Cert.Spec

open Idealize.ShloMosaic Idealize.ShloMosaic.ValueIdx

variable {F : FTy → Type} [FloatOps F]

/-- Every lane is inside the band `[0, 128)`. -/
theorem band_full_apply (xb : IVec S128' 32) (j : SB.Idx) :
    band (F := F) xb 0 128 j = if (xb (ix1 (j 1))).toNat = (j 0).val then one else zero := by
  have hj : (j 1).val < 128 := idx2_lt1 j
  unfold band
  by_cases hr : (xb (ix1 (j 1))).toNat = (j 0).val
  · rw [if_pos ⟨Nat.zero_le _, hj, hr⟩, if_pos hr]
  · rw [if_neg (fun hh => hr hh.2.2), if_neg hr]

/-- Sixteen times the last group's end is all the lanes. -/
theorem band_last_group (xb : IVec S128' 32) :
    band (F := F) xb 0 (16 * ((7 : Fin 8).val + 1)) = band xb 0 128 := rfl

/-- The first group starts at lane zero. -/
theorem band_first_group (xb : IVec S128' 32) (hi : Nat) :
    band (F := F) xb (16 * (0 : Fin 8).val) hi = band xb 0 hi := rfl

end Cert.Spec

end
-- ==== Proof.K.Views.lean ====
/-
  The kernel's memory windows read as plain index arithmetic: sixteen lanes of a 128-word scratch at an offset, 128 words
  of the flat table at an offset, and the 1000 × 128 window of the transposed result that belongs to a feature and a stripe.
-/
import proofs.«211696_g86517821210821_cont_sun_m_1191_30_alg».proof.Proof.K.Setup
import proofs.«211696_g86517821210821_cont_sun_m_1191_30_alg».proof.Proof.ScatterBand
import proofs.«211696_g86517821210821_cont_sun_m_1191_30_alg».proof.Proof.BandFull
import Idealize.ShloMosaic.Lib.ValueIdx

noncomputable section

namespace Cert.KProof

open Cert.Kernel
open Idealize.ShloMosaic Idealize.ShloMosaic.ValueIdx

variable {F : FTy → Type} [FloatOps F]

/-! ## Sixteen lanes of a 128-word scratch -/

/-- Lane `k` of the sixteen at offset `off` is lane `off + k` of the 128. -/
theorem lanes_idx (off : Nat) (hin : ∀ a, (![off] : Fin 1 → Nat) a + S16.size a ≤ S128.size a) (k : S16.Idx)
    (hlt : off + (k 0).val < 128) :
    (Rect.unit (s := S128) ![off] S16.size hin).toLoadRect.idx k = ix1 ⟨off + (k 0).val, hlt⟩ := by
  funext a
  apply Fin.ext
  rw [LoadRect.idx_apply, Subsingleton.elim a 0]
  show off + 1 * (k 0).val = off + (k 0).val
  rw [Nat.one_mul]

/-- Sixteen lanes loaded from the second scratch at offset `off`. -/
theorem scratch1_readAt (xb : (Memref.whole cc0_scratch1 : Memref sig .scVector .vmem S128 .i32).view.ty.Contents (Elt F))
    (off : Nat) (hin : ∀ a, (![off] : Fin 1 → Nat) a + S16.size a ≤ S128.size a) (k : S16.Idx)
    (hlt : off + (k 0).val < 128) :
    (Memref.whole cc0_scratch1 : Memref sig .scVector .vmem S128 .i32).view.readAt (Elt F)
      (Rect.unit (s := S128) ![off] S16.size hin).toLoadRect xb k = xb (ix1 ⟨off + (k 0).val, hlt⟩) := by
  simp only [View.readAt_apply, Memref.view_whole, View.read_whole]
  rw [lanes_idx off hin k hlt]

/-- Sixteen lanes loaded from the first scratch at offset `off`. -/
theorem scratch0_readAt (lh : (Memref.whole cc0_scratch0 : Memref sig .scVector .vmem S128 .i32).view.ty.Contents (Elt F))
    (off : Nat) (hin : ∀ a, (![off] : Fin 1 → Nat) a + S16.size a ≤ S128.size a) (k : S16.Idx)
    (hlt : off + (k 0).val < 128) :
    (Memref.whole cc0_scratch0 : Memref sig .scVector .vmem S128 .i32).view.readAt (Elt F)
      (Rect.unit (s := S128) ![off] S16.size hin).toLoadRect lh k = lh (ix1 ⟨off + (k 0).val, hlt⟩) := by
  simp only [View.readAt_apply, Memref.view_whole, View.read_whole]
  rw [lanes_idx off hin k hlt]

/-! ## 128 words of the flat table -/

/-- Word `l` of the 128 at offset `soff` is word `soff + l` of the table. -/
theorem table_slice_read (tab : (Memref.whole main_v4_scv : Memref sig .scVector .hbm S106624 .i32).view.ty.Contents (Elt F))
    (soffv : Fin 1 → Nat) (sinb : ∀ a, soffv a + S128.size a ≤ S106624.size a) (l : S128.Idx)
    (soff : Nat) (hs : soffv 0 = soff) (hlt : soff + (l 0).val < 106624) :
    ((Memref.whole main_v4_scv : Memref sig .scVector .hbm S106624 .i32).slice
        (Rect.unit (s := S106624) soffv S128.size sinb) (fun _ => rfl)).view.read (Elt F) tab l
      = tab (ix1 ⟨soff + (l 0).val, hlt⟩) := by
  show tab ((Rect.unit (s := S106624) soffv S128.size sinb).emb l) = _
  refine congrArg tab ?_
  funext a
  apply Fin.ext
  rw [Rect.emb_apply, Subsingleton.elim a 0]
  show soffv 0 + 1 * (l 0).val = soff + (l 0).val
  rw [Nat.one_mul, hs]

/-! ## The window of the transposed result that belongs to feature `f` and stripe `w` -/

section Window
variable (f : Fin 26) (w : Nat) (hw : w < 32) (doff : Fin 2 → Nat)
  (dinb : ∀ a, doff a + S1000x128.size a ≤ S26000x4096.size a) (h0 : doff 0 = 1000 * f.val) (h1 : doff 1 = 128 * w)

/-- The window as the kernel names it. -/
abbrev outWin : Memref sig .scVector .hbm S1000x128 .f32 :=
  (Memref.whole main_v5_scv : Memref sig .scVector .hbm S26000x4096 .f32).slice
    (Rect.unit (s := S26000x4096) doff S1000x128.size dinb) (fun _ => rfl)

include h0 h1

/-- Element `(r, l)` of the window is element `(1000 f + r, 128 w + l)` of the result. -/
theorem outWin_emb (y : S1000x128.Idx) (hr : 1000 * f.val + (y 0).val < 26000) (hc : 128 * w + (y 1).val < 4096) :
    (outWin doff dinb).view.emb y = ix2 ⟨1000 * f.val + (y 0).val, hr⟩ ⟨128 * w + (y 1).val, hc⟩ := by
  show (Rect.unit (s := S26000x4096) doff S1000x128.size dinb).emb y = _
  funext a
  apply Fin.ext
  rw [Rect.emb_apply]
  match a with
  | ⟨0, _⟩ =>
    show doff 0 + 1 * (y 0).val = 1000 * f.val + (y 0).val
    rw [Nat.one_mul, h0]
  | ⟨1, _⟩ =>
    show doff 1 + 1 * (y 1).val = 128 * w + (y 1).val
    rw [Nat.one_mul, h1]

/-- The window's elements: rows of feature `f`, columns of stripe `w`. -/
theorem outWin_set : (outWin doff dinb).view.set = outSet f w := by
  refine (View.set_slice_whole (main_v5_scv : Ref sig .scVector)
    (Rect.unit (s := S26000x4096) doff S1000x128.size dinb)).trans ?_
  ext j
  have hj0 : (j 0).val < 26000 := idx2_lt0 j
  have hj1 : (j 1).val < 4096 := idx2_lt1 j
  rw [Rect.mem_set_unit]
  show (∀ a : Fin 2, doff a ≤ (j a).val ∧ (j a).val < doff a + S1000x128.size a) ↔ _
  rw [Fin.forall_fin_two]
  unfold outSet
  rw [Finset.mem_filter]
  show (doff 0 ≤ (j 0).val ∧ (j 0).val < doff 0 + 1000) ∧ (doff 1 ≤ (j 1).val ∧ (j 1).val < doff 1 + 128) ↔ _
  rw [h0, h1]
  constructor
  · rintro ⟨⟨a1, a2⟩, b1, b2⟩
    exact ⟨Finset.mem_univ _, by omega, by omega⟩
  · rintro ⟨_, a, b⟩
    have := f.isLt
    exact ⟨⟨by omega, by omega⟩, by omega, by omega⟩

end Window

end Cert.KProof

end
-- ==== Proof.K.TileRes.lean ====
/-
  What a tile owns while its task runs, taken apart and put back: its three scratch buffers, each at some contents, and its
  28 transfer semaphores, each at zero; and, feature by feature, where in the table and in the result the kernel's
  windows lie, as functions of the tile's stripe.
-/
import proofs.«211696_g86517821210821_cont_sun_m_1191_30_alg».proof.Proof.K.Setup

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The stripe, and where each feature's windows lie -/

/-- A tile's stripe is one of the 32. -/
theorem wid_lt (L : grid0.Coords) : wid L < 32 := by
  have h0 : (L 0).val < 2 := (L 0).isLt
  have h1 : (L 1).val < 16 := (L 1).isLt
  unfold wid
  omega

theorem toff0 (L : grid0.Coords) : (k0_off9 L) 0 = 128 + (wid L * 26 + (0 : Fin 26).val) * 128 := by
  rw [Gen.k0_off9_eq]
  show 6656 * (L 1).val + 3328 * (L 0).val + 128 = 128 + ((2 * (L 1).val + (L 0).val) * 26 + 0) * 128
  omega
theorem ooff0 (L : grid0.Coords) : (k0_off10 L) 0 = 1000 * (0 : Fin 26).val ∧ (k0_off10 L) 1 = 128 * wid L := by
  rw [Gen.k0_off10_eq]
  refine ⟨?_, ?_⟩
  · show 0 = 1000 * 0
    rfl
  · show 256 * (L 1).val + 128 * (L 0).val = 128 * (2 * (L 1).val + (L 0).val)
    omega
theorem toff1 (L : grid0.Coords) : (k0_off11 L) 0 = 128 + (wid L * 26 + (1 : Fin 26).val) * 128 := by
  rw [Gen.k0_off11_eq]
  show 6656 * (L 1).val + 3328 * (L 0).val + 256 = 128 + ((2 * (L 1).val + (L 0).val) * 26 + 1) * 128
  omega
theorem ooff1 (L : grid0.Coords) : (k0_off12 L) 0 = 1000 * (1 : Fin 26).val ∧ (k0_off12 L) 1 = 128 * wid L := by
  rw [Gen.k0_off12_eq]
  refine ⟨?_, ?_⟩
  · show 1000 = 1000 * 1
    rfl
  · show 256 * (L 1).val + 128 * (L 0).val = 128 * (2 * (L 1).val + (L 0).val)
    omega
theorem toff2 (L : grid0.Coords) : (k0_off13 L) 0 = 128 + (wid L * 26 + (2 : Fin 26).val) * 128 := by
  rw [Gen.k0_off13_eq]
  show 6656 * (L 1).val + 3328 * (L 0).val + 384 = 128 + ((2 * (L 1).val + (L 0).val) * 26 + 2) * 128
  omega
theorem ooff2 (L : grid0.Coords) : (k0_off14 L) 0 = 1000 * (2 : Fin 26).val ∧ (k0_off14 L) 1 = 128 * wid L := by
  rw [Gen.k0_off14_eq]
  refine ⟨?_, ?_⟩
  · show 2000 = 1000 * 2
    rfl
  · show 256 * (L 1).val + 128 * (L 0).val = 128 * (2 * (L 1).val + (L 0).val)
    omega
theorem toff3 (L : grid0.Coords) : (k0_off15 L) 0 = 128 + (wid L * 26 + (3 : Fin 26).val) * 128 := by
  rw [Gen.k0_off15_eq]
  show 6656 * (L 1).val + 3328 * (L 0).val + 512 = 128 + ((2 * (L 1).val + (L 0).val) * 26 + 3) * 128
  omega
theorem ooff3 (L : grid0.Coords) : (k0_off16 L) 0 = 1000 * (3 : Fin 26).val ∧ (k0_off16 L) 1 = 128 * wid L := by
  rw [Gen.k0_off16_eq]
  refine ⟨?_, ?_⟩
  · show 3000 = 1000 * 3
    rfl
  · show 256 * (L 1).val + 128 * (L 0).val = 128 * (2 * (L 1).val + (L 0).val)
    omega
theorem toff4 (L : grid0.Coords) : (k0_off17 L) 0 = 128 + (wid L * 26 + (4 : Fin 26).val) * 128 := by
  rw [Gen.k0_off17_eq]
  show 6656 * (L 1).val + 3328 * (L 0).val + 640 = 128 + ((2 * (L 1).val + (L 0).val) * 26 + 4) * 128
  omega
theorem ooff4 (L : grid0.Coords) : (k0_off18 L) 0 = 1000 * (4 : Fin 26).val ∧ (k0_off18 L) 1 = 128 * wid L := by
  rw [Gen.k0_off18_eq]
  refine ⟨?_, ?_⟩
  · show 4000 = 1000 * 4
    rfl
  · show 256 * (L 1).val + 128 * (L 0).val = 128 * (2 * (L 1).val + (L 0).val)
    omega
theorem toff5 (L : grid0.Coords) : (k0_off19 L) 0 = 128 + (wid L * 26 + (5 : Fin 26).val) * 128 := by
  rw [Gen.k0_off19_eq]
  show 6656 * (L 1).val + 3328 * (L 0).val + 768 = 128 + ((2 * (L 1).val + (L 0).val) * 26 + 5) * 128
  omega
theorem ooff5 (L : grid0.Coords) : (k0_off20 L) 0 = 1000 * (5 : Fin 26).val ∧ (k0_off20 L) 1 = 128 * wid L := by
  rw [Gen.k0_off20_eq]
  refine ⟨?_, ?_⟩
  · show 5000 = 1000 * 5
    rfl
  · show 256 * (L 1).val + 128 * (L 0).val = 128 * (2 * (L 1).val + (L 0).val)
    omega
theorem toff6 (L : grid0.Coords) : (k0_off21 L) 0 = 128 + (wid L * 26 + (6 : Fin 26).val) * 128 := by
  rw [Gen.k0_off21_eq]
  show 6656 * (L 1).val + 3328 * (L 0).val + 896 = 128 + ((2 * (L 1).val + (L 0).val) * 26 + 6) * 128
  omega
theorem ooff6 (L : grid0.Coords) : (k0_off22 L) 0 = 1000 * (6 : Fin 26).val ∧ (k0_off22 L) 1 = 128 * wid L := by
  rw [Gen.k0_off22_eq]
  refine ⟨?_, ?_⟩
  · show 6000 = 1000 * 6
    rfl
  · show 256 * (L 1).val + 128 * (L 0).val = 128 * (2 * (L 1).val + (L 0).val)
    omega
theorem toff7 (L : grid0.Coords) : (k0_off23 L) 0 = 128 + (wid L * 26 + (7 : Fin 26).val) * 128 := by
  rw [Gen.k0_off23_eq]
  show 6656 * (L 1).val + 3328 * (L 0).val + 1024 = 128 + ((2 * (L 1).val + (L 0).val) * 26 + 7) * 128
  omega
theorem ooff7 (L : grid0.Coords) : (k0_off24 L) 0 = 1000 * (7 : Fin 26).val ∧ (k0_off24 L) 1 = 128 * wid L := by
  rw [Gen.k0_off24_eq]
  refine ⟨?_, ?_⟩
  · show 7000 = 1000 * 7
    rfl
  · show 256 * (L 1).val + 128 * (L 0).val = 128 * (2 * (L 1).val + (L 0).val)
    omega
theorem toff8 (L : grid0.Coords) : (k0_off25 L) 0 = 128 + (wid L * 26 + (8 : Fin 26).val) * 128 := by
  rw [Gen.k0_off25_eq]
  show 6656 * (L 1).val + 3328 * (L 0).val + 1152 = 128 + ((2 * (L 1).val + (L 0).val) * 26 + 8) * 128
  omega
theorem ooff8 (L : grid0.Coords) : (k0_off26 L) 0 = 1000 * (8 : Fin 26).val ∧ (k0_off26 L) 1 = 128 * wid L := by
  rw [Gen.k0_off26_eq]
  refine ⟨?_, ?_⟩
  · show 8000 = 1000 * 8
    rfl
  · show 256 * (L 1).val + 128 * (L 0).val = 128 * (2 * (L 1).val + (L 0).val)
    omega
theorem toff9 (L : grid0.Coords) : (k0_off27 L) 0 = 128 + (wid L * 26 + (9 : Fin 26).val) * 128 := by
  rw [Gen.k0_off27_eq]
  show 6656 * (L 1).val + 3328 * (L 0).val + 1280 = 128 + ((2 * (L 1).val + (L 0).val) * 26 + 9) * 128
  omega
theorem ooff9 (L : grid0.Coords) : (k0_off28 L) 0 = 1000 * (9 : Fin 26).val ∧ (k0_off28 L) 1 = 128 * wid L := by
  rw [Gen.k0_off28_eq]
  refine ⟨?_, ?_⟩
  · show 9000 = 1000 * 9
    rfl
  · show 256 * (L 1).val + 128 * (L 0).val = 128 * (2 * (L 1).val + (L 0).val)
    omega
theorem toff10 (L : grid0.Coords) : (k0_off29 L) 0 = 128 + (wid L * 26 + (10 : Fin 26).val) * 128 := by
  rw [Gen.k0_off29_eq]
  show 6656 * (L 1).val + 3328 * (L 0).val + 1408 = 128 + ((2 * (L 1).val + (L 0).val) * 26 + 10) * 128
  omega
theorem ooff10 (L : grid0.Coords) : (k0_off30 L) 0 = 1000 * (10 : Fin 26).val ∧ (k0_off30 L) 1 = 128 * wid L := by
  rw [Gen.k0_off30_eq]
  refine ⟨?_, ?_⟩
  · show 10000 = 1000 * 10
    rfl
  · show 256 * (L 1).val + 128 * (L 0).val = 128 * (2 * (L 1).val + (L 0).val)
    omega
theorem toff11 (L : grid0.Coords) : (k0_off31 L) 0 = 128 + (wid L * 26 + (11 : Fin 26).val) * 128 := by
  rw [Gen.k0_off31_eq]
  show 6656 * (L 1).val + 3328 * (L 0).val + 1536 = 128 + ((2 * (L 1).val + (L 0).val) * 26 + 11) * 128
  omega
theorem ooff11 (L : grid0.Coords) : (k0_off32 L) 0 = 1000 * (11 : Fin 26).val ∧ (k0_off32 L) 1 = 128 * wid L := by
  rw [Gen.k0_off32_eq]
  refine ⟨?_, ?_⟩
  · show 11000 = 1000 * 11
    rfl
  · show 256 * (L 1).val + 128 * (L 0).val = 128 * (2 * (L 1).val + (L 0).val)
    omega
theorem toff12 (L : grid0.Coords) : (k0_off33 L) 0 = 128 + (wid L * 26 + (12 : Fin 26).val) * 128 := by
  rw [Gen.k0_off33_eq]
  show 6656 * (L 1).val + 3328 * (L 0).val + 1664 = 128 + ((2 * (L 1).val + (L 0).val) * 26 + 12) * 128
  omega
theorem ooff12 (L : grid0.Coords) : (k0_off34 L) 0 = 1000 * (12 : Fin 26).val ∧ (k0_off34 L) 1 = 128 * wid L := by
  rw [Gen.k0_off34_eq]
  refine ⟨?_, ?_⟩
  · show 12000 = 1000 * 12
    rfl
  · show 256 * (L 1).val + 128 * (L 0).val = 128 * (2 * (L 1).val + (L 0).val)
    omega
theorem toff13 (L : grid0.Coords) : (k0_off35 L) 0 = 128 + (wid L * 26 + (13 : Fin 26).val) * 128 := by
  rw [Gen.k0_off35_eq]
  show 6656 * (L 1).val + 3328 * (L 0).val + 1792 = 128 + ((2 * (L 1).val + (L 0).val) * 26 + 13) * 128
  omega
theorem ooff13 (L : grid0.Coords) : (k0_off36 L) 0 = 1000 * (13 : Fin 26).val ∧ (k0_off36 L) 1 = 128 * wid L := by
  rw [Gen.k0_off36_eq]
  refine ⟨?_, ?_⟩
  · show 13000 = 1000 * 13
    rfl
  · show 256 * (L 1).val + 128 * (L 0).val = 128 * (2 * (L 1).val + (L 0).val)
    omega
theorem toff14 (L : grid0.Coords) : (k0_off37 L) 0 = 128 + (wid L * 26 + (14 : Fin 26).val) * 128 := by
  rw [Gen.k0_off37_eq]
  show 6656 * (L 1).val + 3328 * (L 0).val + 1920 = 128 + ((2 * (L 1).val + (L 0).val) * 26 + 14) * 128
  omega
theorem ooff14 (L : grid0.Coords) : (k0_off38 L) 0 = 1000 * (14 : Fin 26).val ∧ (k0_off38 L) 1 = 128 * wid L := by
  rw [Gen.k0_off38_eq]
  refine ⟨?_, ?_⟩
  · show 14000 = 1000 * 14
    rfl
  · show 256 * (L 1).val + 128 * (L 0).val = 128 * (2 * (L 1).val + (L 0).val)
    omega
theorem toff15 (L : grid0.Coords) : (k0_off39 L) 0 = 128 + (wid L * 26 + (15 : Fin 26).val) * 128 := by
  rw [Gen.k0_off39_eq]
  show 6656 * (L 1).val + 3328 * (L 0).val + 2048 = 128 + ((2 * (L 1).val + (L 0).val) * 26 + 15) * 128
  omega
theorem ooff15 (L : grid0.Coords) : (k0_off40 L) 0 = 1000 * (15 : Fin 26).val ∧ (k0_off40 L) 1 = 128 * wid L := by
  rw [Gen.k0_off40_eq]
  refine ⟨?_, ?_⟩
  · show 15000 = 1000 * 15
    rfl
  · show 256 * (L 1).val + 128 * (L 0).val = 128 * (2 * (L 1).val + (L 0).val)
    omega
theorem toff16 (L : grid0.Coords) : (k0_off41 L) 0 = 128 + (wid L * 26 + (16 : Fin 26).val) * 128 := by
  rw [Gen.k0_off41_eq]
  show 6656 * (L 1).val + 3328 * (L 0).val + 2176 = 128 + ((2 * (L 1).val + (L 0).val) * 26 + 16) * 128
  omega
theorem ooff16 (L : grid0.Coords) : (k0_off42 L) 0 = 1000 * (16 : Fin 26).val ∧ (k0_off42 L) 1 = 128 * wid L := by
  rw [Gen.k0_off42_eq]
  refine ⟨?_, ?_⟩
  · show 16000 = 1000 * 16
    rfl
  · show 256 * (L 1).val + 128 * (L 0).val = 128 * (2 * (L 1).val + (L 0).val)
    omega
theorem toff17 (L : grid0.Coords) : (k0_off43 L) 0 = 128 + (wid L * 26 + (17 : Fin 26).val) * 128 := by
  rw [Gen.k0_off43_eq]
  show 6656 * (L 1).val + 3328 * (L 0).val + 2304 = 128 + ((2 * (L 1).val + (L 0).val) * 26 + 17) * 128
  omega
theorem ooff17 (L : grid0.Coords) : (k0_off44 L) 0 = 1000 * (17 : Fin 26).val ∧ (k0_off44 L) 1 = 128 * wid L := by
  rw [Gen.k0_off44_eq]
  refine ⟨?_, ?_⟩
  · show 17000 = 1000 * 17
    rfl
  · show 256 * (L 1).val + 128 * (L 0).val = 128 * (2 * (L 1).val + (L 0).val)
    omega
theorem toff18 (L : grid0.Coords) : (k0_off45 L) 0 = 128 + (wid L * 26 + (18 : Fin 26).val) * 128 := by
  rw [Gen.k0_off45_eq]
  show 6656 * (L 1).val + 3328 * (L 0).val + 2432 = 128 + ((2 * (L 1).val + (L 0).val) * 26 + 18) * 128
  omega
theorem ooff18 (L : grid0.Coords) : (k0_off46 L) 0 = 1000 * (18 : Fin 26).val ∧ (k0_off46 L) 1 = 128 * wid L := by
  rw [Gen.k0_off46_eq]
  refine ⟨?_, ?_⟩
  · show 18000 = 1000 * 18
    rfl
  · show 256 * (L 1).val + 128 * (L 0).val = 128 * (2 * (L 1).val + (L 0).val)
    omega
theorem toff19 (L : grid0.Coords) : (k0_off47 L) 0 = 128 + (wid L * 26 + (19 : Fin 26).val) * 128 := by
  rw [Gen.k0_off47_eq]
  show 6656 * (L 1).val + 3328 * (L 0).val + 2560 = 128 + ((2 * (L 1).val + (L 0).val) * 26 + 19) * 128
  omega
theorem ooff19 (L : grid0.Coords) : (k0_off48 L) 0 = 1000 * (19 : Fin 26).val ∧ (k0_off48 L) 1 = 128 * wid L := by
  rw [Gen.k0_off48_eq]
  refine ⟨?_, ?_⟩
  · show 19000 = 1000 * 19
    rfl
  · show 256 * (L 1).val + 128 * (L 0).val = 128 * (2 * (L 1).val + (L 0).val)
    omega
theorem toff20 (L : grid0.Coords) : (k0_off49 L) 0 = 128 + (wid L * 26 + (20 : Fin 26).val) * 128 := by
  rw [Gen.k0_off49_eq]
  show 6656 * (L 1).val + 3328 * (L 0).val + 2688 = 128 + ((2 * (L 1).val + (L 0).val) * 26 + 20) * 128
  omega
theorem ooff20 (L : grid0.Coords) : (k0_off50 L) 0 = 1000 * (20 : Fin 26).val ∧ (k0_off50 L) 1 = 128 * wid L := by
  rw [Gen.k0_off50_eq]
  refine ⟨?_, ?_⟩
  · show 20000 = 1000 * 20
    rfl
  · show 256 * (L 1).val + 128 * (L 0).val = 128 * (2 * (L 1).val + (L 0).val)
    omega
theorem toff21 (L : grid0.Coords) : (k0_off51 L) 0 = 128 + (wid L * 26 + (21 : Fin 26).val) * 128 := by
  rw [Gen.k0_off51_eq]
  show 6656 * (L 1).val + 3328 * (L 0).val + 2816 = 128 + ((2 * (L 1).val + (L 0).val) * 26 + 21) * 128
  omega
theorem ooff21 (L : grid0.Coords) : (k0_off52 L) 0 = 1000 * (21 : Fin 26).val ∧ (k0_off52 L) 1 = 128 * wid L := by
  rw [Gen.k0_off52_eq]
  refine ⟨?_, ?_⟩
  · show 21000 = 1000 * 21
    rfl
  · show 256 * (L 1).val + 128 * (L 0).val = 128 * (2 * (L 1).val + (L 0).val)
    omega
theorem toff22 (L : grid0.Coords) : (k0_off53 L) 0 = 128 + (wid L * 26 + (22 : Fin 26).val) * 128 := by
  rw [Gen.k0_off53_eq]
  show 6656 * (L 1).val + 3328 * (L 0).val + 2944 = 128 + ((2 * (L 1).val + (L 0).val) * 26 + 22) * 128
  omega
theorem ooff22 (L : grid0.Coords) : (k0_off54 L) 0 = 1000 * (22 : Fin 26).val ∧ (k0_off54 L) 1 = 128 * wid L := by
  rw [Gen.k0_off54_eq]
  refine ⟨?_, ?_⟩
  · show 22000 = 1000 * 22
    rfl
  · show 256 * (L 1).val + 128 * (L 0).val = 128 * (2 * (L 1).val + (L 0).val)
    omega
theorem toff23 (L : grid0.Coords) : (k0_off55 L) 0 = 128 + (wid L * 26 + (23 : Fin 26).val) * 128 := by
  rw [Gen.k0_off55_eq]
  show 6656 * (L 1).val + 3328 * (L 0).val + 3072 = 128 + ((2 * (L 1).val + (L 0).val) * 26 + 23) * 128
  omega
theorem ooff23 (L : grid0.Coords) : (k0_off56 L) 0 = 1000 * (23 : Fin 26).val ∧ (k0_off56 L) 1 = 128 * wid L := by
  rw [Gen.k0_off56_eq]
  refine ⟨?_, ?_⟩
  · show 23000 = 1000 * 23
    rfl
  · show 256 * (L 1).val + 128 * (L 0).val = 128 * (2 * (L 1).val + (L 0).val)
    omega
theorem toff24 (L : grid0.Coords) : (k0_off57 L) 0 = 128 + (wid L * 26 + (24 : Fin 26).val) * 128 := by
  rw [Gen.k0_off57_eq]
  show 6656 * (L 1).val + 3328 * (L 0).val + 3200 = 128 + ((2 * (L 1).val + (L 0).val) * 26 + 24) * 128
  omega
theorem ooff24 (L : grid0.Coords) : (k0_off58 L) 0 = 1000 * (24 : Fin 26).val ∧ (k0_off58 L) 1 = 128 * wid L := by
  rw [Gen.k0_off58_eq]
  refine ⟨?_, ?_⟩
  · show 24000 = 1000 * 24
    rfl
  · show 256 * (L 1).val + 128 * (L 0).val = 128 * (2 * (L 1).val + (L 0).val)
    omega
theorem toff25 (L : grid0.Coords) : (k0_off59 L) 0 = 128 + (wid L * 26 + (25 : Fin 26).val) * 128 := by
  rw [Gen.k0_off59_eq]
  show 6656 * (L 1).val + 3328 * (L 0).val + 3328 = 128 + ((2 * (L 1).val + (L 0).val) * 26 + 25) * 128
  omega
theorem ooff25 (L : grid0.Coords) : (k0_off60 L) 0 = 1000 * (25 : Fin 26).val ∧ (k0_off60 L) 1 = 128 * wid L := by
  rw [Gen.k0_off60_eq]
  refine ⟨?_, ?_⟩
  · show 25000 = 1000 * 25
    rfl
  · show 256 * (L 1).val + 128 * (L 0).val = 128 * (2 * (L 1).val + (L 0).val)
    omega

/-! ## The three scratch buffers -/

variable (d : Dev nD) (L : grid0.Coords)

/-- The tile's own buffers other than the three scratch buffers. -/
def bufRest : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

/-- The tile's own buffers are the three scratch buffers, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ bufRest (F := F) d L) := by
  unfold SparseCore.Cfg.ownBufs bufRest
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

/-- The scoped buffers of the tile's thread, opened. -/
theorem scopedBufs_open :
    (scopedBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ bufRest (F := F) d L) := by
  rw [(K (F := F)).scopedBufs_V facts d (cV L) (jV L), ownBufs_V]

/-! ## The 28 transfer semaphores -/

section Sems
omit [FloatOps F]

/-- A `bigSep` over `Fin (n + 1)`, its first summand in front. -/
theorem bigSep_fin_succ {M : Type} [URA M] {n : Nat} (Φ : Fin (n + 1) → sProp M) :
    bigSep Finset.univ Φ = BI.sep (Φ 0) (bigSep Finset.univ fun i : Fin n => Φ i.succ) := by
  unfold bigSep
  rw [Fin.univ_succ, Finset.fold_cons, Finset.fold_map]
  rfl

/-- A `bigSep` over `Fin 1` is its one summand. -/
theorem bigSep_fin_one {M : Type} [URA M] (Φ : Fin 1 → sProp M) : bigSep Finset.univ Φ = Φ 0 :=
  bigSep_singleton (i := (0 : Fin 1)) (Φ := Φ)

/-- A `bigSep` over `Fin 28`, written out. -/
theorem bigSep_fin28 {M : Type} [URA M] (Φ : Fin 28 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) := by
  iterate 27 rw [bigSep_fin_succ]
  rw [bigSep_fin_one]
  rfl

/-- No regular semaphore of a vector subcore is a kernel's own: the four are the launch's. -/
theorem no_scoped_reg : ∀ s : Sem sig, sig.isScopedSem .scVector s = false := by decide

/-- The cell of the tile's transfer semaphore `i`. -/
abbrev dcell (i : DmaSem sig) : GSem nD τ sig := (V d (cV L) (jV L), .dma i)

/-- The tile's own semaphore cells are its 28 transfer semaphores (the four launch semaphores are no kernel's). -/
theorem ownCells_V : ownCells (V d (cV L) (jV L)) = (Finset.univ : Finset (DmaSem sig)).image (dcell d L) := by
  ext g
  obtain ⟨t, sm⟩ := g
  rw [mem_ownCells, Finset.mem_image]
  constructor
  · rintro ⟨ht, hs⟩
    cases sm with
    | reg s =>
      have hs' : sig.isScopedSem .scVector s = true := by
        have : t = V d (cV L) (jV L) := ht
        subst this; exact hs
      rw [no_scoped_reg s] at hs'
      exact absurd hs' (by decide)
    | dma s =>
      have : t = V d (cV L) (jV L) := ht
      subst this
      exact ⟨s, Finset.mem_univ _, rfl⟩
  · rintro ⟨i, _, hi⟩
    have h1 : t = V d (cV L) (jV L) := (congrArg Prod.fst hi).symm
    have h2 : sm = .dma i := (congrArg Prod.snd hi).symm
    subst h1; subst h2
    exact ⟨rfl, rfl⟩

/-- The tile's own semaphores at zero, as a `bigSep` over the 28 indices. -/
theorem ownSems0_V :
    (ownSems0 (V d (cV L) (jV L)) : sProp 𝕄) = bigSep Finset.univ fun i : DmaSem sig => semVal (dcell d L i) 0 := by
  unfold SparseCore.Cfg.ownSems0
  rw [ownCells_V, bigSep_image_of_injOn (fun a _ b _ e => by
    have := congrArg Prod.snd e
    exact SemLoc.dma.inj this)]

/-- The same written out: the scratch operand's semaphore, then the 27 regions' semaphores, in the pool's order. -/
theorem ownSems0_list :
    (ownSems0 (V d (cV L) (jV L)) : sProp 𝕄)
      = iprop(semVal ((V d (cV L) (jV L), .dma cc0_scratch3.sem) : GSem nD τ sig) 0
          ∗ semVal ((V d (cV L) (jV L), .dma cc0_scoped0.sem) : GSem nD τ sig) 0
          ∗ semVal ((V d (cV L) (jV L), .dma cc0_scoped1.sem) : GSem nD τ sig) 0
          ∗ semVal ((V d (cV L) (jV L), .dma cc0_scoped2.sem) : GSem nD τ sig) 0
          ∗ semVal ((V d (cV L) (jV L), .dma cc0_scoped3.sem) : GSem nD τ sig) 0
          ∗ semVal ((V d (cV L) (jV L), .dma cc0_scoped4.sem) : GSem nD τ sig) 0
          ∗ semVal ((V d (cV L) (jV L), .dma cc0_scoped5.sem) : GSem nD τ sig) 0
          ∗ semVal ((V d (cV L) (jV L), .dma cc0_scoped6.sem) : GSem nD τ sig) 0
          ∗ semVal ((V d (cV L) (jV L), .dma cc0_scoped7.sem) : GSem nD τ sig) 0
          ∗ semVal ((V d (cV L) (jV L), .dma cc0_scoped8.sem) : GSem nD τ sig) 0
          ∗ semVal ((V d (cV L) (jV L), .dma cc0_scoped9.sem) : GSem nD τ sig) 0
          ∗ semVal ((V d (cV L) (jV L), .dma cc0_scoped10.sem) : GSem nD τ sig) 0
          ∗ semVal ((V d (cV L) (jV L), .dma cc0_scoped11.sem) : GSem nD τ sig) 0
          ∗ semVal ((V d (cV L) (jV L), .dma cc0_scoped12.sem) : GSem nD τ sig) 0
          ∗ semVal ((V d (cV L) (jV L), .dma cc0_scoped13.sem) : GSem nD τ sig) 0
          ∗ semVal ((V d (cV L) (jV L), .dma cc0_scoped14.sem) : GSem nD τ sig) 0
          ∗ semVal ((V d (cV L) (jV L), .dma cc0_scoped15.sem) : GSem nD τ sig) 0
          ∗ semVal ((V d (cV L) (jV L), .dma cc0_scoped16.sem) : GSem nD τ sig) 0
          ∗ semVal ((V d (cV L) (jV L), .dma cc0_scoped17.sem) : GSem nD τ sig) 0
          ∗ semVal ((V d (cV L) (jV L), .dma cc0_scoped18.sem) : GSem nD τ sig) 0
          ∗ semVal ((V d (cV L) (jV L), .dma cc0_scoped19.sem) : GSem nD τ sig) 0
          ∗ semVal ((V d (cV L) (jV L), .dma cc0_scoped20.sem) : GSem nD τ sig) 0
          ∗ semVal ((V d (cV L) (jV L), .dma cc0_scoped21.sem) : GSem nD τ sig) 0
          ∗ semVal ((V d (cV L) (jV L), .dma cc0_scoped22.sem) : GSem nD τ sig) 0
          ∗ semVal ((V d (cV L) (jV L), .dma cc0_scoped23.sem) : GSem nD τ sig) 0
          ∗ semVal ((V d (cV L) (jV L), .dma cc0_scoped24.sem) : GSem nD τ sig) 0
          ∗ semVal ((V d (cV L) (jV L), .dma cc0_scoped25.sem) : GSem nD τ sig) 0
          ∗ semVal ((V d (cV L) (jV L), .dma cc0_scoped26.sem) : GSem nD τ sig) 0) := by
  rw [ownSems0_V]
  exact bigSep_fin28 _

/-- The scoped semaphores of the tile's thread, opened. -/
theorem scopedSems0_open :
    (scopedSems0 (V d (cV L) (jV L)) : sProp 𝕄)
      = iprop(semVal ((V d (cV L) (jV L), .dma cc0_scratch3.sem) : GSem nD τ sig) 0
          ∗ semVal ((V d (cV L) (jV L), .dma cc0_scoped0.sem) : GSem nD τ sig) 0
          ∗ semVal ((V d (cV L) (jV L), .dma cc0_scoped1.sem) : GSem nD τ sig) 0
          ∗ semVal ((V d (cV L) (jV L), .dma cc0_scoped2.sem) : GSem nD τ sig) 0
          ∗ semVal ((V d (cV L) (jV L), .dma cc0_scoped3.sem) : GSem nD τ sig) 0
          ∗ semVal ((V d (cV L) (jV L), .dma cc0_scoped4.sem) : GSem nD τ sig) 0
          ∗ semVal ((V d (cV L) (jV L), .dma cc0_scoped5.sem) : GSem nD τ sig) 0
          ∗ semVal ((V d (cV L) (jV L), .dma cc0_scoped6.sem) : GSem nD τ sig) 0
          ∗ semVal ((V d (cV L) (jV L), .dma cc0_scoped7.sem) : GSem nD τ sig) 0
          ∗ semVal ((V d (cV L) (jV L), .dma cc0_scoped8.sem) : GSem nD τ sig) 0
          ∗ semVal ((V d (cV L) (jV L), .dma cc0_scoped9.sem) : GSem nD τ sig) 0
          ∗ semVal ((V d (cV L) (jV L), .dma cc0_scoped10.sem) : GSem nD τ sig) 0
          ∗ semVal ((V d (cV L) (jV L), .dma cc0_scoped11.sem) : GSem nD τ sig) 0
          ∗ semVal ((V d (cV L) (jV L), .dma cc0_scoped12.sem) : GSem nD τ sig) 0
          ∗ semVal ((V d (cV L) (jV L), .dma cc0_scoped13.sem) : GSem nD τ sig) 0
          ∗ semVal ((V d (cV L) (jV L), .dma cc0_scoped14.sem) : GSem nD τ sig) 0
          ∗ semVal ((V d (cV L) (jV L), .dma cc0_scoped15.sem) : GSem nD τ sig) 0
          ∗ semVal ((V d (cV L) (jV L), .dma cc0_scoped16.sem) : GSem nD τ sig) 0
          ∗ semVal ((V d (cV L) (jV L), .dma cc0_scoped17.sem) : GSem nD τ sig) 0
          ∗ semVal ((V d (cV L) (jV L), .dma cc0_scoped18.sem) : GSem nD τ sig) 0
          ∗ semVal ((V d (cV L) (jV L), .dma cc0_scoped19.sem) : GSem nD τ sig) 0
          ∗ semVal ((V d (cV L) (jV L), .dma cc0_scoped20.sem) : GSem nD τ sig) 0
          ∗ semVal ((V d (cV L) (jV L), .dma cc0_scoped21.sem) : GSem nD τ sig) 0
          ∗ semVal ((V d (cV L) (jV L), .dma cc0_scoped22.sem) : GSem nD τ sig) 0
          ∗ semVal ((V d (cV L) (jV L), .dma cc0_scoped23.sem) : GSem nD τ sig) 0
          ∗ semVal ((V d (cV L) (jV L), .dma cc0_scoped24.sem) : GSem nD τ sig) 0
          ∗ semVal ((V d (cV L) (jV L), .dma cc0_scoped25.sem) : GSem nD τ sig) 0
          ∗ semVal ((V d (cV L) (jV L), .dma cc0_scoped26.sem) : GSem nD τ sig) 0) := by
  rw [SparseCore.Cfg.scopedSems0_V (Val := Elt F) d (cV L) (jV L), ownSems0_list]

/-- The same as a `bigSep` over the 28 indices. -/
theorem scopedSems0_bigSep :
    (scopedSems0 (V d (cV L) (jV L)) : sProp 𝕄) = bigSep Finset.univ fun i : DmaSem sig => semVal (dcell d L i) 0 := by
  rw [SparseCore.Cfg.scopedSems0_V (Val := Elt F) d (cV L) (jV L), ownSems0_V]

/-- The scratch operand's semaphore is index 0 of the pool, region `k`'s is index `k + 1`. -/
theorem sem_scratch3 : (cc0_scratch3.sem : DmaSem sig) = (0 : Fin 28) := rfl
theorem sem_scoped0 : (cc0_scoped0.sem : DmaSem sig) = (1 : Fin 28) := rfl
theorem sem_scoped1 : (cc0_scoped1.sem : DmaSem sig) = (2 : Fin 28) := rfl
theorem sem_scoped2 : (cc0_scoped2.sem : DmaSem sig) = (3 : Fin 28) := rfl
theorem sem_scoped3 : (cc0_scoped3.sem : DmaSem sig) = (4 : Fin 28) := rfl
theorem sem_scoped4 : (cc0_scoped4.sem : DmaSem sig) = (5 : Fin 28) := rfl
theorem sem_scoped5 : (cc0_scoped5.sem : DmaSem sig) = (6 : Fin 28) := rfl
theorem sem_scoped6 : (cc0_scoped6.sem : DmaSem sig) = (7 : Fin 28) := rfl
theorem sem_scoped7 : (cc0_scoped7.sem : DmaSem sig) = (8 : Fin 28) := rfl
theorem sem_scoped8 : (cc0_scoped8.sem : DmaSem sig) = (9 : Fin 28) := rfl
theorem sem_scoped9 : (cc0_scoped9.sem : DmaSem sig) = (10 : Fin 28) := rfl
theorem sem_scoped10 : (cc0_scoped10.sem : DmaSem sig) = (11 : Fin 28) := rfl
theorem sem_scoped11 : (cc0_scoped11.sem : DmaSem sig) = (12 : Fin 28) := rfl
theorem sem_scoped12 : (cc0_scoped12.sem : DmaSem sig) = (13 : Fin 28) := rfl
theorem sem_scoped13 : (cc0_scoped13.sem : DmaSem sig) = (14 : Fin 28) := rfl
theorem sem_scoped14 : (cc0_scoped14.sem : DmaSem sig) = (15 : Fin 28) := rfl
theorem sem_scoped15 : (cc0_scoped15.sem : DmaSem sig) = (16 : Fin 28) := rfl
theorem sem_scoped16 : (cc0_scoped16.sem : DmaSem sig) = (17 : Fin 28) := rfl
theorem sem_scoped17 : (cc0_scoped17.sem : DmaSem sig) = (18 : Fin 28) := rfl
theorem sem_scoped18 : (cc0_scoped18.sem : DmaSem sig) = (19 : Fin 28) := rfl
theorem sem_scoped19 : (cc0_scoped19.sem : DmaSem sig) = (20 : Fin 28) := rfl
theorem sem_scoped20 : (cc0_scoped20.sem : DmaSem sig) = (21 : Fin 28) := rfl
theorem sem_scoped21 : (cc0_scoped21.sem : DmaSem sig) = (22 : Fin 28) := rfl
theorem sem_scoped22 : (cc0_scoped22.sem : DmaSem sig) = (23 : Fin 28) := rfl
theorem sem_scoped23 : (cc0_scoped23.sem : DmaSem sig) = (24 : Fin 28) := rfl
theorem sem_scoped24 : (cc0_scoped24.sem : DmaSem sig) = (25 : Fin 28) := rfl
theorem sem_scoped25 : (cc0_scoped25.sem : DmaSem sig) = (26 : Fin 28) := rfl
theorem sem_scoped26 : (cc0_scoped26.sem : DmaSem sig) = (27 : Fin 28) := rfl

end Sems

end Cert.KProof

end
-- ==== Proof.K.TileProg.lean ====
/-
  The tile's body by its structure: one header copy of the table's lane numbers, a loop that zeroes the big scratch, and 26
  features, each the same sequence — 128 table words fetched, ones scattered lane group by lane group, the scratch copied out
  to the feature's window of the result, the same places zeroed again — at its own table offset, window and semaphore.
-/
import proofs.«211696_g86517821210821_cont_sun_m_1191_30_alg».proof.Proof.K.Setup

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev tW : Memref sig .scVector .hbm S106624 .i32 := Memref.whole main_v4_scv
abbrev oW : Memref sig .scVector .hbm S26000x4096 .f32 := Memref.whole main_v5_scv
abbrev sH : Memref sig .scVector .vmem S128 .i32 := Memref.whole cc0_scratch0
abbrev sX : Memref sig .scVector .vmem S128 .i32 := Memref.whole cc0_scratch1
abbrev sB : Memref sig .scVector .vmem S1000x128 .f32 := Memref.whole cc0_scratch2

/-! ## The body by its structure

One header copy, a zeroing loop, and 26 features, each the same sequence of operations at its own table offset, result
window and semaphore.  That this is the tile's program is checked by unfolding both. -/

/-- The tile's processor. -/
abbrev tileProc (L : grid0.Coords) : Proc τ := .scVector ((L 0).castLE hcore0) ((L 1).castLE hsub0)

/-- The float vectors the scatters store. -/
abbrev onesV : FVec F S16 .f32 := broadcast S16 (Scalar.ofBits .f32 0x3F800000#32)
abbrev zerosV : FVec F S16 .f32 := broadcast S16 (Scalar.ofBits .f32 0x00000000#32)

/-- The 128 table words at `toff`, and the result window at `ooff`, as the body slices them. -/
abbrev tSl (toff : Fin 1 → Nat) (tinb : ∀ a, toff a + S128.size a ≤ S106624.size a) : Memref sig .scVector .hbm S128 .i32 :=
  tW.slice (Rect.unit (s := S106624) toff S128.size tinb) (fun _ => rfl)
abbrev oSl (ooff : Fin 2 → Nat) (oinb : ∀ a, ooff a + S1000x128.size a ≤ S26000x4096.size a) : Memref sig .scVector .hbm S1000x128 .f32 :=
  oW.slice (Rect.unit (s := S26000x4096) ooff S1000x128.size oinb) (fun _ => rfl)

/-- One lane group: sixteen categories and their sixteen lane numbers loaded, checked in range, and `v` scattered at
    (category, lane) for the lanes whose category is below 1000. -/
def grp (L : grid0.Coords) (v : FVec F S16 .f32) (off : Nat) (hin : ∀ a, (![off] : Fin 1 → Nat) a + S16.size a ≤ S128.size a) :
    Prog (TpuEff nD τ sig (Elt F) Λ₀ (tileProc L)) PUnit := do
  let v11 : Vec F S16 .i32 ← Prog.lift (.load sX (Rect.unit (s := S128) ![off] S16.size hin).toLoadRect (View.loadsAt_vmem h_S16))
  let v12 : Vec F S16 .i32 ← Prog.lift (.load sH (Rect.unit (s := S128) ![off] S16.size hin).toLoadRect (View.loadsAt_vmem h_S16))
  have hw : k0_chk1 v11 v12 := (← Prog.lift (TpuEff.assume (k0_chk1 v11 v12) (k0_chk1.dec v11 v12))).down
  SparseCore.vectorStoreIdx sB ![v11, v12] v (cmpi .slt v11 (broadcast S16 1000#32)) false (k0_idx1_inb v11 v12 hw) (View.stores_vmem_bits_univ h_S1000x128 rfl)

/-- 128 table words copied into a 128-word scratch, and waited for. -/
def fetch (L : grid0.Coords) (toff : Fin 1 → Nat) (tinb : ∀ a, toff a + S128.size a ≤ S106624.size a)
    (dst : Memref sig .scVector .vmem S128 .i32) (hdst : dst.IsWhole) (sem : DmaSems sig S_) :
    Prog (TpuEff nD τ sig (Elt F) Λ₀ (tileProc L)) PUnit := do
  Prog.lift (.enqueueDma (tSl toff tinb) (.here dst) (.dma sem.sem) (View.wordExact_bits rfl) hdst.wordExact ⟨Or.inl rfl, trivial⟩)
  Prog.lift (.waitDma2 sem.sem (tSl toff tinb) dst (View.wordExact_bits rfl) hdst.wordExact)

/-- The big scratch copied out to a result window, and waited for. -/
def flush (L : grid0.Coords) (ooff : Fin 2 → Nat) (oinb : ∀ a, ooff a + S1000x128.size a ≤ S26000x4096.size a) :
    Prog (TpuEff nD τ sig (Elt F) Λ₀ (tileProc L)) PUnit := do
  Prog.lift (.enqueueDma sB (.here (oSl ooff oinb)) (.dma cc0_scratch3.sem) (Memref.isWhole_whole _).wordExact (View.wordExact_bits rfl) ⟨Or.inl rfl, trivial⟩)
  Prog.lift (.waitDma2 cc0_scratch3.sem sB (oSl ooff oinb) (Memref.isWhole_whole _).wordExact (View.wordExact_bits rfl))

/-- One feature: its 128 table words fetched, ones scattered lane group by lane group, the scratch copied out to the
    feature's window, and the same places zeroed again. -/
def feat (L : grid0.Coords) (toff : Fin 1 → Nat) (tinb : ∀ a, toff a + S128.size a ≤ S106624.size a)
    (ooff : Fin 2 → Nat) (oinb : ∀ a, ooff a + S1000x128.size a ≤ S26000x4096.size a) (sem : DmaSems sig S_) :
    Prog (TpuEff nD τ sig (Elt F) Λ₀ (tileProc L)) PUnit := do
  fetch (F := F) L toff tinb sX (Memref.isWhole_whole _) sem
  grp (F := F) L onesV 0 inb_S128_S16_0
  grp (F := F) L onesV 16 inb_S128_S16_16
  grp (F := F) L onesV 32 inb_S128_S16_32
  grp (F := F) L onesV 48 inb_S128_S16_48
  grp (F := F) L onesV 64 inb_S128_S16_64
  grp (F := F) L onesV 80 inb_S128_S16_80
  grp (F := F) L onesV 96 inb_S128_S16_96
  grp (F := F) L onesV 112 inb_S128_S16_112
  flush (F := F) L ooff oinb
  grp (F := F) L zerosV 0 inb_S128_S16_0
  grp (F := F) L zerosV 16 inb_S128_S16_16
  grp (F := F) L zerosV 32 inb_S128_S16_32
  grp (F := F) L zerosV 48 inb_S128_S16_48
  grp (F := F) L zerosV 64 inb_S128_S16_64
  grp (F := F) L zerosV 80 inb_S128_S16_80
  grp (F := F) L zerosV 96 inb_S128_S16_96
  grp (F := F) L zerosV 112 inb_S128_S16_112

/-- The zeroing loop. -/
def zloop (L : grid0.Coords) : Prog (TpuEff nD τ sig (Elt F) Λ₀ (tileProc L)) PUnit :=
  Scf.Loop.for k0_t1_loop k0_t1_ok ⟨⟩ (k0_t1_body (F := F) L tW (Memref.isWhole_whole _) oW (Memref.isWhole_whole _) sH (Memref.isWhole_whole _) sX (Memref.isWhole_whole _) sB (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26)

/-- The body by its structure. -/
def structured (L : grid0.Coords) : Prog (TpuEff nD τ sig (Elt F) Λ₀ (tileProc L)) PUnit := do
  fetch (F := F) L ![0] inb_S106624_S128_0 sH (Memref.isWhole_whole _) cc0_scoped0
  zloop (F := F) L
  feat (F := F) L (k0_off9 L) (k0_off9_inb L) (k0_off10 L) (k0_off10_inb L) cc0_scoped1
  feat (F := F) L (k0_off11 L) (k0_off11_inb L) (k0_off12 L) (k0_off12_inb L) cc0_scoped2
  feat (F := F) L (k0_off13 L) (k0_off13_inb L) (k0_off14 L) (k0_off14_inb L) cc0_scoped3
  feat (F := F) L (k0_off15 L) (k0_off15_inb L) (k0_off16 L) (k0_off16_inb L) cc0_scoped4
  feat (F := F) L (k0_off17 L) (k0_off17_inb L) (k0_off18 L) (k0_off18_inb L) cc0_scoped5
  feat (F := F) L (k0_off19 L) (k0_off19_inb L) (k0_off20 L) (k0_off20_inb L) cc0_scoped6
  feat (F := F) L (k0_off21 L) (k0_off21_inb L) (k0_off22 L) (k0_off22_inb L) cc0_scoped7
  feat (F := F) L (k0_off23 L) (k0_off23_inb L) (k0_off24 L) (k0_off24_inb L) cc0_scoped8
  feat (F := F) L (k0_off25 L) (k0_off25_inb L) (k0_off26 L) (k0_off26_inb L) cc0_scoped9
  feat (F := F) L (k0_off27 L) (k0_off27_inb L) (k0_off28 L) (k0_off28_inb L) cc0_scoped10
  feat (F := F) L (k0_off29 L) (k0_off29_inb L) (k0_off30 L) (k0_off30_inb L) cc0_scoped11
  feat (F := F) L (k0_off31 L) (k0_off31_inb L) (k0_off32 L) (k0_off32_inb L) cc0_scoped12
  feat (F := F) L (k0_off33 L) (k0_off33_inb L) (k0_off34 L) (k0_off34_inb L) cc0_scoped13
  feat (F := F) L (k0_off35 L) (k0_off35_inb L) (k0_off36 L) (k0_off36_inb L) cc0_scoped14
  feat (F := F) L (k0_off37 L) (k0_off37_inb L) (k0_off38 L) (k0_off38_inb L) cc0_scoped15
  feat (F := F) L (k0_off39 L) (k0_off39_inb L) (k0_off40 L) (k0_off40_inb L) cc0_scoped16
  feat (F := F) L (k0_off41 L) (k0_off41_inb L) (k0_off42 L) (k0_off42_inb L) cc0_scoped17
  feat (F := F) L (k0_off43 L) (k0_off43_inb L) (k0_off44 L) (k0_off44_inb L) cc0_scoped18
  feat (F := F) L (k0_off45 L) (k0_off45_inb L) (k0_off46 L) (k0_off46_inb L) cc0_scoped19
  feat (F := F) L (k0_off47 L) (k0_off47_inb L) (k0_off48 L) (k0_off48_inb L) cc0_scoped20
  feat (F := F) L (k0_off49 L) (k0_off49_inb L) (k0_off50 L) (k0_off50_inb L) cc0_scoped21
  feat (F := F) L (k0_off51 L) (k0_off51_inb L) (k0_off52 L) (k0_off52_inb L) cc0_scoped22
  feat (F := F) L (k0_off53 L) (k0_off53_inb L) (k0_off54 L) (k0_off54_inb L) cc0_scoped23
  feat (F := F) L (k0_off55 L) (k0_off55_inb L) (k0_off56 L) (k0_off56_inb L) cc0_scoped24
  feat (F := F) L (k0_off57 L) (k0_off57_inb L) (k0_off58 L) (k0_off58_inb L) cc0_scoped25
  feat (F := F) L (k0_off59 L) (k0_off59_inb L) (k0_off60 L) (k0_off60_inb L) cc0_scoped26
  pure ⟨⟩

/-- The first feature's beginning, up to where the tile's program hands its pending values on. -/
def r1 (L : grid0.Coords) : Prog (TpuEff nD τ sig (Elt F) Λ₀ (tileProc L))
    (Σ' (v2 : FVec F S16 .f32) (v3 : FVec F S16 .f32) (v6 : BitVec 32) (v15 : Vec F S16 .i32) (v16 : Vec F S16 .i32) (k0_hw2 : k0_chk2 v15 v16), IVec S16 1) := do
  fetch (F := F) L (k0_off9 L) (k0_off9_inb L) sX (Memref.isWhole_whole _) cc0_scoped1
  grp (F := F) L onesV 0 inb_S128_S16_0
  let v15 : Vec F S16 .i32 ← Prog.lift (.load sX (Rect.unit (s := S128) ![16] S16.size inb_S128_S16_16).toLoadRect (View.loadsAt_vmem h_S16))
  let v16 : Vec F S16 .i32 ← Prog.lift (.load sH (Rect.unit (s := S128) ![16] S16.size inb_S128_S16_16).toLoadRect (View.loadsAt_vmem h_S16))
  have hw : k0_chk2 v15 v16 := (← Prog.lift (TpuEff.assume (k0_chk2 v15 v16) (k0_chk2.dec v15 v16))).down
  pure ⟨onesV, zerosV, Scalar.addi (Scalar.muli (Scalar.addi (Scalar.muli (BitVec.ofNat 32 (L 1).val) 2#32) (BitVec.ofNat 32 (L 0).val)) 1#32) 0#32, v15, v16, hw, cmpi .slt v15 (broadcast S16 1000#32)⟩

set_option maxRecDepth 65536 in
theorem part1_eq (L : grid0.Coords) : k0_part1 (F := F) L tW (Memref.isWhole_whole _) oW (Memref.isWhole_whole _) sH (Memref.isWhole_whole _) sX (Memref.isWhole_whole _) sB (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26
    = (fetch (F := F) L ![0] inb_S106624_S128_0 sH (Memref.isWhole_whole _) cc0_scoped0 >>= fun _ => zloop (F := F) L >>= fun _ => r1 (F := F) L) := rfl

set_option maxRecDepth 65536 in
set_option maxHeartbeats 0 in
/-- The tile's program is the body by its structure: the two agree operation by operation once the sequencing is
    reassociated past the loop. -/
theorem tileProg_eq (L : grid0.Coords) : tileProg (F := F) L = structured (F := F) L := by
  show cc0_body_skel (F := F) L tW (Memref.isWhole_whole _) oW (Memref.isWhole_whole _) sH (Memref.isWhole_whole _) sX (Memref.isWhole_whole _) sB (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 = _
  unfold cc0_body_skel k0_part76
  rw [part1_eq]
  simp only [bind_assoc]
  unfold structured
  refine congrArg _ (funext fun _ => congrArg _ (funext fun _ => ?_))
  rfl

end Cert.KProof

end
-- ==== Proof.K.ZeroRow.lean ====
/-
  One trip of the zeroing loop: the eight stores of sixteen zeros each fill row k of the 1000 × 128 scratch, so that after
  trip k every row up to k is zero if every row before k was.
-/
import proofs.«211696_g86517821210821_cont_sun_m_1191_30_alg».proof.Proof.K.Setup
import proofs.«211696_g86517821210821_cont_sun_m_1191_30_alg».proof.Proof.ScatterBand
import Idealize.ShloMosaic.Lib.Writes
import Idealize.ShloMosaic.Lib.ValueIdx

noncomputable section

namespace Cert.KProof

open Cert.Kernel Cert.Kernel.Gen
open Idealize.ShloMosaic Idealize.ShloMosaic.ValueIdx

variable {F : FTy → Type} [FloatOps F]

/-- The eight stores of trip `k`, the last first. -/
def zeroPieces (k : Fin k0_t1_loop.trips) : List (View.Piece (Elt F) S1000x128 .f32) :=
    [⟨Rect.unit (k0_off8 k) S1x16.size (k0_off8_inb k), shapeCast S1x16 (k0_pay2 (F := F)) shapeCasts_S16_S1x16⟩,
     ⟨Rect.unit (k0_off7 k) S1x16.size (k0_off7_inb k), shapeCast S1x16 (k0_pay2 (F := F)) shapeCasts_S16_S1x16⟩,
     ⟨Rect.unit (k0_off6 k) S1x16.size (k0_off6_inb k), shapeCast S1x16 (k0_pay2 (F := F)) shapeCasts_S16_S1x16⟩,
     ⟨Rect.unit (k0_off5 k) S1x16.size (k0_off5_inb k), shapeCast S1x16 (k0_pay2 (F := F)) shapeCasts_S16_S1x16⟩,
     ⟨Rect.unit (k0_off4 k) S1x16.size (k0_off4_inb k), shapeCast S1x16 (k0_pay2 (F := F)) shapeCasts_S16_S1x16⟩,
     ⟨Rect.unit (k0_off3 k) S1x16.size (k0_off3_inb k), shapeCast S1x16 (k0_pay2 (F := F)) shapeCasts_S16_S1x16⟩,
     ⟨Rect.unit (k0_off2 k) S1x16.size (k0_off2_inb k), shapeCast S1x16 (k0_pay2 (F := F)) shapeCasts_S16_S1x16⟩,
     ⟨Rect.unit (k0_off1 k) S1x16.size (k0_off1_inb k), shapeCast S1x16 (k0_pay2 (F := F)) shapeCasts_S16_S1x16⟩]

/-- Every store of the trip stores zeros. -/
theorem zeroPieces_zero (k : Fin k0_t1_loop.trips) :
    ∀ p ∈ zeroPieces (F := F) k, ∀ x : p.1.shape.Idx, p.2 x = (fun _ : S1000x128.Idx => (Cert.Spec.zero : F .f32)) (p.1.emb x) := by
  intro p hp x
  unfold zeroPieces at hp
  simp only [List.mem_cons, List.not_mem_nil, or_false] at hp
  rcases hp with rfl | rfl | rfl | rfl | rfl | rfl | rfl | rfl <;> rfl

/-- The eight stores cover row `k`. -/
theorem zeroPieces_cover (k : Fin k0_t1_loop.trips) (j : S1000x128.Idx) (hj : (j 0).val = k.val) :
    ∃ p ∈ zeroPieces (F := F) k, j ∈ p.1.set := by
  have hj1 : (j 1).val < 128 := idx2_lt1 j
  unfold zeroPieces
  have hcases : (112 ≤ (j 1).val) ∨ (96 ≤ (j 1).val ∧ (j 1).val < 112) ∨ (80 ≤ (j 1).val ∧ (j 1).val < 96)
      ∨ (64 ≤ (j 1).val ∧ (j 1).val < 80) ∨ (48 ≤ (j 1).val ∧ (j 1).val < 64) ∨ (32 ≤ (j 1).val ∧ (j 1).val < 48)
      ∨ (16 ≤ (j 1).val ∧ (j 1).val < 32) ∨ ((j 1).val < 16) := by omega
  rcases hcases with h | h | h | h | h | h | h | h
  all_goals revert h
  · -- lanes [112, 128)
    intro hq
    refine ⟨_, List.mem_cons_self, ?_⟩
    show j ∈ (Rect.unit (s := S1000x128) (k0_off8 k) S1x16.size (k0_off8_inb k)).set
    rw [Rect.mem_set_unit, Gen.k0_off8_eq]
    show ∀ a : Fin 2, (![k.val, 112] : Fin 2 → Nat) a ≤ (j a).val ∧ (j a).val < (![k.val, 112] : Fin 2 → Nat) a + S1x16.size a
    rw [Fin.forall_fin_two]
    show (k.val ≤ (j 0).val ∧ (j 0).val < k.val + 1) ∧ (112 ≤ (j 1).val ∧ (j 1).val < 112 + 16)
    omega
  · -- lanes [96, 112)
    intro hq
    refine ⟨_, (List.mem_cons_of_mem _ List.mem_cons_self), ?_⟩
    show j ∈ (Rect.unit (s := S1000x128) (k0_off7 k) S1x16.size (k0_off7_inb k)).set
    rw [Rect.mem_set_unit, Gen.k0_off7_eq]
    show ∀ a : Fin 2, (![k.val, 96] : Fin 2 → Nat) a ≤ (j a).val ∧ (j a).val < (![k.val, 96] : Fin 2 → Nat) a + S1x16.size a
    rw [Fin.forall_fin_two]
    show (k.val ≤ (j 0).val ∧ (j 0).val < k.val + 1) ∧ (96 ≤ (j 1).val ∧ (j 1).val < 96 + 16)
    omega
  · -- lanes [80, 96)
    intro hq
    refine ⟨_, (List.mem_cons_of_mem _ (List.mem_cons_of_mem _ List.mem_cons_self)), ?_⟩
    show j ∈ (Rect.unit (s := S1000x128) (k0_off6 k) S1x16.size (k0_off6_inb k)).set
    rw [Rect.mem_set_unit, Gen.k0_off6_eq]
    show ∀ a : Fin 2, (![k.val, 80] : Fin 2 → Nat) a ≤ (j a).val ∧ (j a).val < (![k.val, 80] : Fin 2 → Nat) a + S1x16.size a
    rw [Fin.forall_fin_two]
    show (k.val ≤ (j 0).val ∧ (j 0).val < k.val + 1) ∧ (80 ≤ (j 1).val ∧ (j 1).val < 80 + 16)
    omega
  · -- lanes [64, 80)
    intro hq
    refine ⟨_, (List.mem_cons_of_mem _ (List.mem_cons_of_mem _ (List.mem_cons_of_mem _ List.mem_cons_self))), ?_⟩
    show j ∈ (Rect.unit (s := S1000x128) (k0_off5 k) S1x16.size (k0_off5_inb k)).set
    rw [Rect.mem_set_unit, Gen.k0_off5_eq]
    show ∀ a : Fin 2, (![k.val, 64] : Fin 2 → Nat) a ≤ (j a).val ∧ (j a).val < (![k.val, 64] : Fin 2 → Nat) a + S1x16.size a
    rw [Fin.forall_fin_two]
    show (k.val ≤ (j 0).val ∧ (j 0).val < k.val + 1) ∧ (64 ≤ (j 1).val ∧ (j 1).val < 64 + 16)
    omega
  · -- lanes [48, 64)
    intro hq
    refine ⟨_, (List.mem_cons_of_mem _ (List.mem_cons_of_mem _ (List.mem_cons_of_mem _ (List.mem_cons_of_mem _ List.mem_cons_self)))), ?_⟩
    show j ∈ (Rect.unit (s := S1000x128) (k0_off4 k) S1x16.size (k0_off4_inb k)).set
    rw [Rect.mem_set_unit, Gen.k0_off4_eq]
    show ∀ a : Fin 2, (![k.val, 48] : Fin 2 → Nat) a ≤ (j a).val ∧ (j a).val < (![k.val, 48] : Fin 2 → Nat) a + S1x16.size a
    rw [Fin.forall_fin_two]
    show (k.val ≤ (j 0).val ∧ (j 0).val < k.val + 1) ∧ (48 ≤ (j 1).val ∧ (j 1).val < 48 + 16)
    omega
  · -- lanes [32, 48)
    intro hq
    refine ⟨_, (List.mem_cons_of_mem _ (List.mem_cons_of_mem _ (List.mem_cons_of_mem _ (List.mem_cons_of_mem _ (List.mem_cons_of_mem _ List.mem_cons_self))))), ?_⟩
    show j ∈ (Rect.unit (s := S1000x128) (k0_off3 k) S1x16.size (k0_off3_inb k)).set
    rw [Rect.mem_set_unit, Gen.k0_off3_eq]
    show ∀ a : Fin 2, (![k.val, 32] : Fin 2 → Nat) a ≤ (j a).val ∧ (j a).val < (![k.val, 32] : Fin 2 → Nat) a + S1x16.size a
    rw [Fin.forall_fin_two]
    show (k.val ≤ (j 0).val ∧ (j 0).val < k.val + 1) ∧ (32 ≤ (j 1).val ∧ (j 1).val < 32 + 16)
    omega
  · -- lanes [16, 32)
    intro hq
    refine ⟨_, (List.mem_cons_of_mem _ (List.mem_cons_of_mem _ (List.mem_cons_of_mem _ (List.mem_cons_of_mem _ (List.mem_cons_of_mem _ (List.mem_cons_of_mem _ List.mem_cons_self)))))), ?_⟩
    show j ∈ (Rect.unit (s := S1000x128) (k0_off2 k) S1x16.size (k0_off2_inb k)).set
    rw [Rect.mem_set_unit, Gen.k0_off2_eq]
    show ∀ a : Fin 2, (![k.val, 16] : Fin 2 → Nat) a ≤ (j a).val ∧ (j a).val < (![k.val, 16] : Fin 2 → Nat) a + S1x16.size a
    rw [Fin.forall_fin_two]
    show (k.val ≤ (j 0).val ∧ (j 0).val < k.val + 1) ∧ (16 ≤ (j 1).val ∧ (j 1).val < 16 + 16)
    omega
  · -- lanes [0, 16)
    intro hq
    refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    show j ∈ (Rect.unit (s := S1000x128) (k0_off1 k) S1x16.size (k0_off1_inb k)).set
    rw [Rect.mem_set_unit, Gen.k0_off1_eq]
    show ∀ a : Fin 2, (![k.val, 0] : Fin 2 → Nat) a ≤ (j a).val ∧ (j a).val < (![k.val, 0] : Fin 2 → Nat) a + S1x16.size a
    rw [Fin.forall_fin_two]
    show (k.val ≤ (j 0).val ∧ (j 0).val < k.val + 1) ∧ (0 ≤ (j 1).val ∧ (j 1).val < 0 + 16)
    omega

/-- After trip `k` every row up to `k` is zero, if every row before `k` was. -/
theorem zero_row (g : (Memref.whole cc0_scratch2 : Memref sig .scVector .vmem S1000x128 .f32).view.ty.Contents (Elt F))
    (k : Fin k0_t1_loop.trips) (hg : ∀ j : S1000x128.Idx, (j 0).val < k.val → g j = Cert.Spec.zero)
    (j : S1000x128.Idx) (hj : (j 0).val < k.val + 1) :
    (Memref.whole cc0_scratch2 : Memref sig .scVector .vmem S1000x128 .f32).view.writes (Elt F) g
      [⟨Rect.unit (k0_off8 k) S1x16.size (k0_off8_inb k), shapeCast S1x16 (k0_pay2 (F := F)) shapeCasts_S16_S1x16⟩,
     ⟨Rect.unit (k0_off7 k) S1x16.size (k0_off7_inb k), shapeCast S1x16 (k0_pay2 (F := F)) shapeCasts_S16_S1x16⟩,
     ⟨Rect.unit (k0_off6 k) S1x16.size (k0_off6_inb k), shapeCast S1x16 (k0_pay2 (F := F)) shapeCasts_S16_S1x16⟩,
     ⟨Rect.unit (k0_off5 k) S1x16.size (k0_off5_inb k), shapeCast S1x16 (k0_pay2 (F := F)) shapeCasts_S16_S1x16⟩,
     ⟨Rect.unit (k0_off4 k) S1x16.size (k0_off4_inb k), shapeCast S1x16 (k0_pay2 (F := F)) shapeCasts_S16_S1x16⟩,
     ⟨Rect.unit (k0_off3 k) S1x16.size (k0_off3_inb k), shapeCast S1x16 (k0_pay2 (F := F)) shapeCasts_S16_S1x16⟩,
     ⟨Rect.unit (k0_off2 k) S1x16.size (k0_off2_inb k), shapeCast S1x16 (k0_pay2 (F := F)) shapeCasts_S16_S1x16⟩,
     ⟨Rect.unit (k0_off1 k) S1x16.size (k0_off1_inb k), shapeCast S1x16 (k0_pay2 (F := F)) shapeCasts_S16_S1x16⟩] j = Cert.Spec.zero := by
  show (Memref.whole cc0_scratch2 : Memref sig .scVector .vmem S1000x128 .f32).view.read (Elt F)
    ((Memref.whole cc0_scratch2 : Memref sig .scVector .vmem S1000x128 .f32).view.writes (Elt F) g (zeroPieces (F := F) k)) j = _
  by_cases hc : ∃ p ∈ zeroPieces (F := F) k, j ∈ p.1.set
  · exact View.read_writes_apply_of_pieces _ g (fun _ => Cert.Spec.zero) (zeroPieces k) (zeroPieces_zero k) j hc
  · have hlt : (j 0).val < k.val := by
      by_contra hge
      exact hc (zeroPieces_cover k j (by omega))
    rw [View.read_writes_apply_of_forall_not_mem _ g j (zeroPieces k) (fun p hp hm => hc ⟨p, hp, hm⟩)]
    exact hg j hlt

/-- A scratch that is zero everywhere is the empty band. -/
theorem all_zero_band (g : S1000x128.Idx → F .f32) (h : ∀ j, g j = Cert.Spec.zero) (xb : IVec S128 32) :
    g = Cert.Spec.band (F := F) xb 0 0 := by
  rw [Cert.Spec.band_empty]
  exact funext h

end Cert.KProof

end
-- ==== Proof.K.TileTop.lean ====
/-
  One tile's task from its parts.

  The task is: the header fetch (the table's first 128 words, which count the lanes, into the first scratch), the zeroing loop
  (the big scratch all zero), then the 26 features in turn, each fetching its 128 categories, scattering ones, copying the big
  scratch out to the feature's window of the result and scattering zeros back.  Here the tile's resources are taken apart (its
  three scratch buffers, its 28 transfer semaphores, its 26 windows), the header and the loop are run, the feature's lemma —
  a hypothesis of this module, stated as `FeatSpec` — is applied 26 times, and the resources are put back.
-/
import proofs.«211696_g86517821210821_cont_sun_m_1191_30_alg».proof.Proof.K.Setup
import proofs.«211696_g86517821210821_cont_sun_m_1191_30_alg».proof.Proof.K.Views
import proofs.«211696_g86517821210821_cont_sun_m_1191_30_alg».proof.Proof.K.TileRes
import proofs.«211696_g86517821210821_cont_sun_m_1191_30_alg».proof.Proof.K.TileProg
import proofs.«211696_g86517821210821_cont_sun_m_1191_30_alg».proof.Proof.K.ZeroRow

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (d : Dev nD) (L : grid0.Coords)

/-- The tile's thread. -/
abbrev thrT : Thread nD τ := V d (cV L) (jV L)

/-- The header fetch: the table's first 128 words land in the first scratch, which then counts its lanes. -/
theorem hdr_spec (tab : Buf (Elt F) (tLoc d)) (htab : Cert.Spec.TabOK tab) (q : PosShare TreeShare) (O : CellTallies nD τ sig (HIx 1)) (W : Waits sig (HIx 1))
    (fh : Buf (Elt F) ((thrT d L).loc cc0_scratch0)) (Φ : PUnit → sProp 𝕄) :
    iprop(Transfers.MayWaits (thrT d L) (none : HIx 1) O ∗ ((tW).view.loc (thrT d L) ↦{q} tab) ∗ ((sH).view.loc (thrT d L) ↦{fullShare} fh)
        ∗ semVal (thrT d L, SemLoc.dma cc0_scoped0.sem) 0
        ∗ (∃ W', ⌜∀ p ∈ W', p ∈ W ∨ p.2 = none⌝ ∗ owes (thrT d L) O W')
        ∗ ((Transfers.MayWaits (thrT d L) (none : HIx 1) O ∗ ((tW).view.loc (thrT d L) ↦{q} tab)
            ∗ (∃ lh : IVec S128 32, ⌜∀ j, (lh j).toNat = (j 0).val⌝ ∗ ((sH).view.loc (thrT d L) ↦{fullShare} lh))
            ∗ semVal (thrT d L, SemLoc.dma cc0_scoped0.sem) 0
            ∗ (∃ W', ⌜∀ p ∈ W', p ∈ W ∨ p.2 = none⌝ ∗ owes (thrT d L) O W')) -∗ Φ ⟨⟩))
      ⊢ wp frame (wpE (defs₀ (F := F)) 𝒱₀ (thrT d L) none) Set.univ
          (fetch (F := F) L ![0] inb_S106624_S128_0 sH (Memref.isWhole_whole _) cc0_scoped0) Φ := by
  unfold fetch
  iintro ⟨Hmw, Ht, HsH, Hs0, ⟨%W', %hW', HO⟩, HΦ⟩
  sl_exec
  sl_step
  iapply HΦ
  isplitl [Hmw]; · iexact Hmw
  isplitl [Ht]; · iexact Ht
  isplitl [HsH]
  · iexists _
    isplitr
    · ipureintro
      intro j
      have hj : (j 0).val < 128 := (j 0).isLt
      have hlt : 0 + (j 0).val < 106624 := by omega
      have e : View.write (Elt F) sH.view fh (hdr_spec.sl.dma0 d tab) Finset.univ j = tab (ix1 ⟨0 + (j 0).val, hlt⟩) := by
        exact (congrFun (View.write_whole_univ (Val := Elt F) cc0_scratch0 fh _) j).trans
          (table_slice_read tab ![0] inb_S106624_S128_0 j 0 rfl hlt)
      show ((View.write (Elt F) sH.view fh (hdr_spec.sl.dma0 d tab) Finset.univ) j).toNat = (j 0).val
      rw [e, htab.1 _ (show ((ix1 ⟨0 + (j 0).val, hlt⟩ : Cert.Spec.ST.Idx) 0).val < 128 by show 0 + (j 0).val < 128; omega)]
      show 0 + (j 0).val = (j 0).val
      omega
    · iexact HsH
  isplitl [Hs0]; · iexact Hs0
  iexists (insert (SemLoc.dma cc0_scoped0.sem, (default : HIx 1)) W')
  isplitr
  · ipureintro
    intro p hp
    rcases Finset.mem_insert.mp hp with hp | hp
    · subst hp; exact .inr rfl
    · exact hW' p hp
  · iexact HO

/-- Before trip `k` of the zeroing loop the first `k` rows of the big scratch are zero. -/
def zinv (k : Nat) (_ : PUnit) : sProp 𝕄 :=
  iprop(∃ g : Buf (Elt F) ((thrT d L).loc cc0_scratch2), ⌜∀ j : S1000x128.Idx, (j 0).val < k → g j = Cert.Spec.zero⌝ ∗ ((sB).view.loc (thrT d L) ↦{fullShare} g))

theorem trips_eq : k0_t1_loop.trips = 1000 := by decide

/-- The zeroing loop leaves the big scratch all zero. -/
theorem zloop_spec (fb : Buf (Elt F) ((thrT d L).loc cc0_scratch2)) (Φ : PUnit → sProp 𝕄) :
    iprop(((sB).view.loc (thrT d L) ↦{fullShare} fb)
        ∗ ((((sB).view.loc (thrT d L) ↦{fullShare} (fun _ => (Cert.Spec.zero : F .f32)))) -∗ Φ ⟨⟩))
      ⊢ wp frame (wpE (defs₀ (F := F)) 𝒱₀ (thrT d L) none) Set.univ (zloop (F := F) L) Φ := by
  unfold zloop
  iintro ⟨HsB, HΦ⟩
  sl_for (zinv (F := F) d L) $$ [HsB HΦ]
  case region =>
    intro k _
    unfold zinv
    iintro ⟨%g, %hg, HsB⟩
    sl_exec
    sl_step
    iexists _
    isplitr
    · ipureintro; exact zero_row g k hg
    · iexact HsB
  · unfold zinv
    isplitl [HsB]
    · iexists fb
      isplitr
      · ipureintro; intro j hj; omega
      · iexact HsB
    · iintro %acc ⟨%g, %hg, HsB⟩
      obtain rfl : acc = ⟨⟩ := rfl
      have hz : g = fun _ => (Cert.Spec.zero : F .f32) := funext fun j => hg j (by
        have : (j 0).val < 1000 := idx2_lt0 j
        have := trips_eq
        unfold Scf.Loop.trips at this
        omega)
      subst hz
      iapply HΦ
      iexact HsB

/-- A `bigSep` over `Fin 26`, written out. -/
theorem bigSep_fin26 {M : Type} [URA M] (Φ : Fin 26 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) := by
  iterate 25 rw [bigSep_fin_succ]
  rw [bigSep_fin_one]
  rfl

/-- One feature of the task (the statement the feature's proof delivers): from the table share, the lane numbers in the first
    scratch, the big scratch all zero, the feature's window and the two semaphores it uses, the feature's part of the task runs
    and leaves the window at the encoding, the big scratch all zero again. -/
def FeatSpec : Prop :=
  ∀ (d : Dev nD) (L : grid0.Coords) (tab : Buf (Elt F) (tLoc d)) (_ : Cert.Spec.TabOK tab) (q : PosShare TreeShare) (f : Fin 26)
    (toff : Fin 1 → Nat) (tinb : ∀ a, toff a + S128.size a ≤ S106624.size a) (ooff : Fin 2 → Nat) (oinb : ∀ a, ooff a + S1000x128.size a ≤ S26000x4096.size a)
    (_ : toff 0 = 128 + (wid L * 26 + f.val) * 128) (_ : ooff 0 = 1000 * f.val ∧ ooff 1 = 128 * wid L)
    (sem : DmaSems sig S_) (lh : IVec S128 32) (_ : ∀ j, (lh j).toNat = (j 0).val) (o : Buf (Elt F) (oLoc d))
    (O : CellTallies nD τ sig (HIx 1)) (W : Waits sig (HIx 1)) (Φ : PUnit → sProp 𝕄),
  (iprop(Transfers.MayWaits (thrT d L) (none : HIx 1) O
      ∗ ((tW).view.loc (thrT d L) ↦{q} tab) ∗ ((sH).view.loc (thrT d L) ↦{fullShare} lh) ∗ (∃ fx, (sX).view.loc (thrT d L) ↦{fullShare} fx)
      ∗ ((sB).view.loc (thrT d L) ↦{fullShare} (fun _ => Cert.Spec.zero))
      ∗ (oLoc d ↦[outSet f (wid L)]{fullShare} o)
      ∗ semVal (thrT d L, SemLoc.dma sem.sem) 0 ∗ semVal (thrT d L, SemLoc.dma cc0_scratch3.sem) 0
      ∗ (∃ W', ⌜∀ p ∈ W', p ∈ W ∨ p.2 = none⌝ ∗ owes (thrT d L) O W')
      ∗ ((Transfers.MayWaits (thrT d L) (none : HIx 1) O
      ∗ ((tW).view.loc (thrT d L) ↦{q} tab) ∗ ((sH).view.loc (thrT d L) ↦{fullShare} lh) ∗ (∃ fx, (sX).view.loc (thrT d L) ↦{fullShare} fx)
      ∗ ((sB).view.loc (thrT d L) ↦{fullShare} (fun _ => Cert.Spec.zero))
      ∗ (oLoc d ↦[outSet f (wid L)]{fullShare} Cert.Spec.outOfTable (F := F) tab)
      ∗ semVal (thrT d L, SemLoc.dma sem.sem) 0 ∗ semVal (thrT d L, SemLoc.dma cc0_scratch3.sem) 0
      ∗ (∃ W', ⌜∀ p ∈ W', p ∈ W ∨ p.2 = none⌝ ∗ owes (thrT d L) O W')) -∗ Φ ⟨⟩)) : sProp 𝕄)
    ⊢ wp frame (wpE (defs₀ (F := F)) 𝒱₀ (thrT d L) none) Set.univ (feat (F := F) L toff tinb ooff oinb sem) Φ

/-- One tile's task, given the feature's lemma: the header, the zeroing loop, the 26 features, and the tile's resources put
    back. -/
theorem tile_body_of (hfeat : FeatSpec (F := F)) : TileStmt (F := F) := by
  intro d tab htab q L o O W hO
  rw [tileProg_eq]
  unfold structured
  simp only [wp_bind]
  rw [scopedBufs_open (F := F) d L, scopedSems0_open (F := F) d L]
  unfold tileGo tileTd
  rw [bigSep_fin26, bigSep_fin26]
  iintro ⟨#Hlv, -, ⟨Ht, Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩, ⟨⟨%fh, HsH⟩, HsX, ⟨%fb, HsB⟩, Hrest⟩, ⟨HsD, Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26⟩, HO⟩
  ihave Hmw := ((K (F := F)).mayWaits_none (thr := thrT d L) hO) $$ Hlv
  ihave HOW : (∃ W', ⌜∀ p ∈ W', p ∈ W ∨ p.2 = none⌝ ∗ owes (thrT d L) O W') $$ [HO]
  · iexists W; isplitr
    · ipureintro; exact fun p hp => .inl hp
    · iexact HO
  -- the header
  iapply (hdr_spec d L tab htab q O W fh)
  isplitl [Hmw]; · iexact Hmw
  isplitl [Ht]; · iexact Ht
  isplitl [HsH]; · iexact HsH
  isplitl [Hs0]; · iexact Hs0
  isplitl [HOW]; · iexact HOW
  iintro ⟨Hmw, Ht, ⟨%lh, %hlh, HsH⟩, Hs0, HOW⟩
  -- the zeroing loop
  iapply (zloop_spec d L fb)
  isplitl [HsB]; · iexact HsB
  iintro HsB
  -- feature 0
  iapply (hfeat d L tab htab q (0 : Fin 26) (k0_off9 L) (k0_off9_inb L) (k0_off10 L) (k0_off10_inb L) (toff0 L) (ooff0 L) cc0_scoped1 lh hlh o O W)
  isplitl [Hmw]; · iexact Hmw
  isplitl [Ht]; · iexact Ht
  isplitl [HsH]; · iexact HsH
  isplitl [HsX]; · iexact HsX
  isplitl [HsB]; · iexact HsB
  isplitl [Hw0]; · iexact Hw0
  isplitl [Hs1]; · iexact Hs1
  isplitl [HsD]; · iexact HsD
  isplitl [HOW]; · iexact HOW
  iintro ⟨Hmw, Ht, HsH, HsX, HsB, Hw0, Hs1, HsD, HOW⟩
  -- feature 1
  iapply (hfeat d L tab htab q (1 : Fin 26) (k0_off11 L) (k0_off11_inb L) (k0_off12 L) (k0_off12_inb L) (toff1 L) (ooff1 L) cc0_scoped2 lh hlh o O W)
  isplitl [Hmw]; · iexact Hmw
  isplitl [Ht]; · iexact Ht
  isplitl [HsH]; · iexact HsH
  isplitl [HsX]; · iexact HsX
  isplitl [HsB]; · iexact HsB
  isplitl [Hw1]; · iexact Hw1
  isplitl [Hs2]; · iexact Hs2
  isplitl [HsD]; · iexact HsD
  isplitl [HOW]; · iexact HOW
  iintro ⟨Hmw, Ht, HsH, HsX, HsB, Hw1, Hs2, HsD, HOW⟩
  -- feature 2
  iapply (hfeat d L tab htab q (2 : Fin 26) (k0_off13 L) (k0_off13_inb L) (k0_off14 L) (k0_off14_inb L) (toff2 L) (ooff2 L) cc0_scoped3 lh hlh o O W)
  isplitl [Hmw]; · iexact Hmw
  isplitl [Ht]; · iexact Ht
  isplitl [HsH]; · iexact HsH
  isplitl [HsX]; · iexact HsX
  isplitl [HsB]; · iexact HsB
  isplitl [Hw2]; · iexact Hw2
  isplitl [Hs3]; · iexact Hs3
  isplitl [HsD]; · iexact HsD
  isplitl [HOW]; · iexact HOW
  iintro ⟨Hmw, Ht, HsH, HsX, HsB, Hw2, Hs3, HsD, HOW⟩
  -- feature 3
  iapply (hfeat d L tab htab q (3 : Fin 26) (k0_off15 L) (k0_off15_inb L) (k0_off16 L) (k0_off16_inb L) (toff3 L) (ooff3 L) cc0_scoped4 lh hlh o O W)
  isplitl [Hmw]; · iexact Hmw
  isplitl [Ht]; · iexact Ht
  isplitl [HsH]; · iexact HsH
  isplitl [HsX]; · iexact HsX
  isplitl [HsB]; · iexact HsB
  isplitl [Hw3]; · iexact Hw3
  isplitl [Hs4]; · iexact Hs4
  isplitl [HsD]; · iexact HsD
  isplitl [HOW]; · iexact HOW
  iintro ⟨Hmw, Ht, HsH, HsX, HsB, Hw3, Hs4, HsD, HOW⟩
  -- feature 4
  iapply (hfeat d L tab htab q (4 : Fin 26) (k0_off17 L) (k0_off17_inb L) (k0_off18 L) (k0_off18_inb L) (toff4 L) (ooff4 L) cc0_scoped5 lh hlh o O W)
  isplitl [Hmw]; · iexact Hmw
  isplitl [Ht]; · iexact Ht
  isplitl [HsH]; · iexact HsH
  isplitl [HsX]; · iexact HsX
  isplitl [HsB]; · iexact HsB
  isplitl [Hw4]; · iexact Hw4
  isplitl [Hs5]; · iexact Hs5
  isplitl [HsD]; · iexact HsD
  isplitl [HOW]; · iexact HOW
  iintro ⟨Hmw, Ht, HsH, HsX, HsB, Hw4, Hs5, HsD, HOW⟩
  -- feature 5
  iapply (hfeat d L tab htab q (5 : Fin 26) (k0_off19 L) (k0_off19_inb L) (k0_off20 L) (k0_off20_inb L) (toff5 L) (ooff5 L) cc0_scoped6 lh hlh o O W)
  isplitl [Hmw]; · iexact Hmw
  isplitl [Ht]; · iexact Ht
  isplitl [HsH]; · iexact HsH
  isplitl [HsX]; · iexact HsX
  isplitl [HsB]; · iexact HsB
  isplitl [Hw5]; · iexact Hw5
  isplitl [Hs6]; · iexact Hs6
  isplitl [HsD]; · iexact HsD
  isplitl [HOW]; · iexact HOW
  iintro ⟨Hmw, Ht, HsH, HsX, HsB, Hw5, Hs6, HsD, HOW⟩
  -- feature 6
  iapply (hfeat d L tab htab q (6 : Fin 26) (k0_off21 L) (k0_off21_inb L) (k0_off22 L) (k0_off22_inb L) (toff6 L) (ooff6 L) cc0_scoped7 lh hlh o O W)
  isplitl [Hmw]; · iexact Hmw
  isplitl [Ht]; · iexact Ht
  isplitl [HsH]; · iexact HsH
  isplitl [HsX]; · iexact HsX
  isplitl [HsB]; · iexact HsB
  isplitl [Hw6]; · iexact Hw6
  isplitl [Hs7]; · iexact Hs7
  isplitl [HsD]; · iexact HsD
  isplitl [HOW]; · iexact HOW
  iintro ⟨Hmw, Ht, HsH, HsX, HsB, Hw6, Hs7, HsD, HOW⟩
  -- feature 7
  iapply (hfeat d L tab htab q (7 : Fin 26) (k0_off23 L) (k0_off23_inb L) (k0_off24 L) (k0_off24_inb L) (toff7 L) (ooff7 L) cc0_scoped8 lh hlh o O W)
  isplitl [Hmw]; · iexact Hmw
  isplitl [Ht]; · iexact Ht
  isplitl [HsH]; · iexact HsH
  isplitl [HsX]; · iexact HsX
  isplitl [HsB]; · iexact HsB
  isplitl [Hw7]; · iexact Hw7
  isplitl [Hs8]; · iexact Hs8
  isplitl [HsD]; · iexact HsD
  isplitl [HOW]; · iexact HOW
  iintro ⟨Hmw, Ht, HsH, HsX, HsB, Hw7, Hs8, HsD, HOW⟩
  -- feature 8
  iapply (hfeat d L tab htab q (8 : Fin 26) (k0_off25 L) (k0_off25_inb L) (k0_off26 L) (k0_off26_inb L) (toff8 L) (ooff8 L) cc0_scoped9 lh hlh o O W)
  isplitl [Hmw]; · iexact Hmw
  isplitl [Ht]; · iexact Ht
  isplitl [HsH]; · iexact HsH
  isplitl [HsX]; · iexact HsX
  isplitl [HsB]; · iexact HsB
  isplitl [Hw8]; · iexact Hw8
  isplitl [Hs9]; · iexact Hs9
  isplitl [HsD]; · iexact HsD
  isplitl [HOW]; · iexact HOW
  iintro ⟨Hmw, Ht, HsH, HsX, HsB, Hw8, Hs9, HsD, HOW⟩
  -- feature 9
  iapply (hfeat d L tab htab q (9 : Fin 26) (k0_off27 L) (k0_off27_inb L) (k0_off28 L) (k0_off28_inb L) (toff9 L) (ooff9 L) cc0_scoped10 lh hlh o O W)
  isplitl [Hmw]; · iexact Hmw
  isplitl [Ht]; · iexact Ht
  isplitl [HsH]; · iexact HsH
  isplitl [HsX]; · iexact HsX
  isplitl [HsB]; · iexact HsB
  isplitl [Hw9]; · iexact Hw9
  isplitl [Hs10]; · iexact Hs10
  isplitl [HsD]; · iexact HsD
  isplitl [HOW]; · iexact HOW
  iintro ⟨Hmw, Ht, HsH, HsX, HsB, Hw9, Hs10, HsD, HOW⟩
  -- feature 10
  iapply (hfeat d L tab htab q (10 : Fin 26) (k0_off29 L) (k0_off29_inb L) (k0_off30 L) (k0_off30_inb L) (toff10 L) (ooff10 L) cc0_scoped11 lh hlh o O W)
  isplitl [Hmw]; · iexact Hmw
  isplitl [Ht]; · iexact Ht
  isplitl [HsH]; · iexact HsH
  isplitl [HsX]; · iexact HsX
  isplitl [HsB]; · iexact HsB
  isplitl [Hw10]; · iexact Hw10
  isplitl [Hs11]; · iexact Hs11
  isplitl [HsD]; · iexact HsD
  isplitl [HOW]; · iexact HOW
  iintro ⟨Hmw, Ht, HsH, HsX, HsB, Hw10, Hs11, HsD, HOW⟩
  -- feature 11
  iapply (hfeat d L tab htab q (11 : Fin 26) (k0_off31 L) (k0_off31_inb L) (k0_off32 L) (k0_off32_inb L) (toff11 L) (ooff11 L) cc0_scoped12 lh hlh o O W)
  isplitl [Hmw]; · iexact Hmw
  isplitl [Ht]; · iexact Ht
  isplitl [HsH]; · iexact HsH
  isplitl [HsX]; · iexact HsX
  isplitl [HsB]; · iexact HsB
  isplitl [Hw11]; · iexact Hw11
  isplitl [Hs12]; · iexact Hs12
  isplitl [HsD]; · iexact HsD
  isplitl [HOW]; · iexact HOW
  iintro ⟨Hmw, Ht, HsH, HsX, HsB, Hw11, Hs12, HsD, HOW⟩
  -- feature 12
  iapply (hfeat d L tab htab q (12 : Fin 26) (k0_off33 L) (k0_off33_inb L) (k0_off34 L) (k0_off34_inb L) (toff12 L) (ooff12 L) cc0_scoped13 lh hlh o O W)
  isplitl [Hmw]; · iexact Hmw
  isplitl [Ht]; · iexact Ht
  isplitl [HsH]; · iexact HsH
  isplitl [HsX]; · iexact HsX
  isplitl [HsB]; · iexact HsB
  isplitl [Hw12]; · iexact Hw12
  isplitl [Hs13]; · iexact Hs13
  isplitl [HsD]; · iexact HsD
  isplitl [HOW]; · iexact HOW
  iintro ⟨Hmw, Ht, HsH, HsX, HsB, Hw12, Hs13, HsD, HOW⟩
  -- feature 13
  iapply (hfeat d L tab htab q (13 : Fin 26) (k0_off35 L) (k0_off35_inb L) (k0_off36 L) (k0_off36_inb L) (toff13 L) (ooff13 L) cc0_scoped14 lh hlh o O W)
  isplitl [Hmw]; · iexact Hmw
  isplitl [Ht]; · iexact Ht
  isplitl [HsH]; · iexact HsH
  isplitl [HsX]; · iexact HsX
  isplitl [HsB]; · iexact HsB
  isplitl [Hw13]; · iexact Hw13
  isplitl [Hs14]; · iexact Hs14
  isplitl [HsD]; · iexact HsD
  isplitl [HOW]; · iexact HOW
  iintro ⟨Hmw, Ht, HsH, HsX, HsB, Hw13, Hs14, HsD, HOW⟩
  -- feature 14
  iapply (hfeat d L tab htab q (14 : Fin 26) (k0_off37 L) (k0_off37_inb L) (k0_off38 L) (k0_off38_inb L) (toff14 L) (ooff14 L) cc0_scoped15 lh hlh o O W)
  isplitl [Hmw]; · iexact Hmw
  isplitl [Ht]; · iexact Ht
  isplitl [HsH]; · iexact HsH
  isplitl [HsX]; · iexact HsX
  isplitl [HsB]; · iexact HsB
  isplitl [Hw14]; · iexact Hw14
  isplitl [Hs15]; · iexact Hs15
  isplitl [HsD]; · iexact HsD
  isplitl [HOW]; · iexact HOW
  iintro ⟨Hmw, Ht, HsH, HsX, HsB, Hw14, Hs15, HsD, HOW⟩
  -- feature 15
  iapply (hfeat d L tab htab q (15 : Fin 26) (k0_off39 L) (k0_off39_inb L) (k0_off40 L) (k0_off40_inb L) (toff15 L) (ooff15 L) cc0_scoped16 lh hlh o O W)
  isplitl [Hmw]; · iexact Hmw
  isplitl [Ht]; · iexact Ht
  isplitl [HsH]; · iexact HsH
  isplitl [HsX]; · iexact HsX
  isplitl [HsB]; · iexact HsB
  isplitl [Hw15]; · iexact Hw15
  isplitl [Hs16]; · iexact Hs16
  isplitl [HsD]; · iexact HsD
  isplitl [HOW]; · iexact HOW
  iintro ⟨Hmw, Ht, HsH, HsX, HsB, Hw15, Hs16, HsD, HOW⟩
  -- feature 16
  iapply (hfeat d L tab htab q (16 : Fin 26) (k0_off41 L) (k0_off41_inb L) (k0_off42 L) (k0_off42_inb L) (toff16 L) (ooff16 L) cc0_scoped17 lh hlh o O W)
  isplitl [Hmw]; · iexact Hmw
  isplitl [Ht]; · iexact Ht
  isplitl [HsH]; · iexact HsH
  isplitl [HsX]; · iexact HsX
  isplitl [HsB]; · iexact HsB
  isplitl [Hw16]; · iexact Hw16
  isplitl [Hs17]; · iexact Hs17
  isplitl [HsD]; · iexact HsD
  isplitl [HOW]; · iexact HOW
  iintro ⟨Hmw, Ht, HsH, HsX, HsB, Hw16, Hs17, HsD, HOW⟩
  -- feature 17
  iapply (hfeat d L tab htab q (17 : Fin 26) (k0_off43 L) (k0_off43_inb L) (k0_off44 L) (k0_off44_inb L) (toff17 L) (ooff17 L) cc0_scoped18 lh hlh o O W)
  isplitl [Hmw]; · iexact Hmw
  isplitl [Ht]; · iexact Ht
  isplitl [HsH]; · iexact HsH
  isplitl [HsX]; · iexact HsX
  isplitl [HsB]; · iexact HsB
  isplitl [Hw17]; · iexact Hw17
  isplitl [Hs18]; · iexact Hs18
  isplitl [HsD]; · iexact HsD
  isplitl [HOW]; · iexact HOW
  iintro ⟨Hmw, Ht, HsH, HsX, HsB, Hw17, Hs18, HsD, HOW⟩
  -- feature 18
  iapply (hfeat d L tab htab q (18 : Fin 26) (k0_off45 L) (k0_off45_inb L) (k0_off46 L) (k0_off46_inb L) (toff18 L) (ooff18 L) cc0_scoped19 lh hlh o O W)
  isplitl [Hmw]; · iexact Hmw
  isplitl [Ht]; · iexact Ht
  isplitl [HsH]; · iexact HsH
  isplitl [HsX]; · iexact HsX
  isplitl [HsB]; · iexact HsB
  isplitl [Hw18]; · iexact Hw18
  isplitl [Hs19]; · iexact Hs19
  isplitl [HsD]; · iexact HsD
  isplitl [HOW]; · iexact HOW
  iintro ⟨Hmw, Ht, HsH, HsX, HsB, Hw18, Hs19, HsD, HOW⟩
  -- feature 19
  iapply (hfeat d L tab htab q (19 : Fin 26) (k0_off47 L) (k0_off47_inb L) (k0_off48 L) (k0_off48_inb L) (toff19 L) (ooff19 L) cc0_scoped20 lh hlh o O W)
  isplitl [Hmw]; · iexact Hmw
  isplitl [Ht]; · iexact Ht
  isplitl [HsH]; · iexact HsH
  isplitl [HsX]; · iexact HsX
  isplitl [HsB]; · iexact HsB
  isplitl [Hw19]; · iexact Hw19
  isplitl [Hs20]; · iexact Hs20
  isplitl [HsD]; · iexact HsD
  isplitl [HOW]; · iexact HOW
  iintro ⟨Hmw, Ht, HsH, HsX, HsB, Hw19, Hs20, HsD, HOW⟩
  -- feature 20
  iapply (hfeat d L tab htab q (20 : Fin 26) (k0_off49 L) (k0_off49_inb L) (k0_off50 L) (k0_off50_inb L) (toff20 L) (ooff20 L) cc0_scoped21 lh hlh o O W)
  isplitl [Hmw]; · iexact Hmw
  isplitl [Ht]; · iexact Ht
  isplitl [HsH]; · iexact HsH
  isplitl [HsX]; · iexact HsX
  isplitl [HsB]; · iexact HsB
  isplitl [Hw20]; · iexact Hw20
  isplitl [Hs21]; · iexact Hs21
  isplitl [HsD]; · iexact HsD
  isplitl [HOW]; · iexact HOW
  iintro ⟨Hmw, Ht, HsH, HsX, HsB, Hw20, Hs21, HsD, HOW⟩
  -- feature 21
  iapply (hfeat d L tab htab q (21 : Fin 26) (k0_off51 L) (k0_off51_inb L) (k0_off52 L) (k0_off52_inb L) (toff21 L) (ooff21 L) cc0_scoped22 lh hlh o O W)
  isplitl [Hmw]; · iexact Hmw
  isplitl [Ht]; · iexact Ht
  isplitl [HsH]; · iexact HsH
  isplitl [HsX]; · iexact HsX
  isplitl [HsB]; · iexact HsB
  isplitl [Hw21]; · iexact Hw21
  isplitl [Hs22]; · iexact Hs22
  isplitl [HsD]; · iexact HsD
  isplitl [HOW]; · iexact HOW
  iintro ⟨Hmw, Ht, HsH, HsX, HsB, Hw21, Hs22, HsD, HOW⟩
  -- feature 22
  iapply (hfeat d L tab htab q (22 : Fin 26) (k0_off53 L) (k0_off53_inb L) (k0_off54 L) (k0_off54_inb L) (toff22 L) (ooff22 L) cc0_scoped23 lh hlh o O W)
  isplitl [Hmw]; · iexact Hmw
  isplitl [Ht]; · iexact Ht
  isplitl [HsH]; · iexact HsH
  isplitl [HsX]; · iexact HsX
  isplitl [HsB]; · iexact HsB
  isplitl [Hw22]; · iexact Hw22
  isplitl [Hs23]; · iexact Hs23
  isplitl [HsD]; · iexact HsD
  isplitl [HOW]; · iexact HOW
  iintro ⟨Hmw, Ht, HsH, HsX, HsB, Hw22, Hs23, HsD, HOW⟩
  -- feature 23
  iapply (hfeat d L tab htab q (23 : Fin 26) (k0_off55 L) (k0_off55_inb L) (k0_off56 L) (k0_off56_inb L) (toff23 L) (ooff23 L) cc0_scoped24 lh hlh o O W)
  isplitl [Hmw]; · iexact Hmw
  isplitl [Ht]; · iexact Ht
  isplitl [HsH]; · iexact HsH
  isplitl [HsX]; · iexact HsX
  isplitl [HsB]; · iexact HsB
  isplitl [Hw23]; · iexact Hw23
  isplitl [Hs24]; · iexact Hs24
  isplitl [HsD]; · iexact HsD
  isplitl [HOW]; · iexact HOW
  iintro ⟨Hmw, Ht, HsH, HsX, HsB, Hw23, Hs24, HsD, HOW⟩
  -- feature 24
  iapply (hfeat d L tab htab q (24 : Fin 26) (k0_off57 L) (k0_off57_inb L) (k0_off58 L) (k0_off58_inb L) (toff24 L) (ooff24 L) cc0_scoped25 lh hlh o O W)
  isplitl [Hmw]; · iexact Hmw
  isplitl [Ht]; · iexact Ht
  isplitl [HsH]; · iexact HsH
  isplitl [HsX]; · iexact HsX
  isplitl [HsB]; · iexact HsB
  isplitl [Hw24]; · iexact Hw24
  isplitl [Hs25]; · iexact Hs25
  isplitl [HsD]; · iexact HsD
  isplitl [HOW]; · iexact HOW
  iintro ⟨Hmw, Ht, HsH, HsX, HsB, Hw24, Hs25, HsD, HOW⟩
  -- feature 25
  iapply (hfeat d L tab htab q (25 : Fin 26) (k0_off59 L) (k0_off59_inb L) (k0_off60 L) (k0_off60_inb L) (toff25 L) (ooff25 L) cc0_scoped26 lh hlh o O W)
  isplitl [Hmw]; · iexact Hmw
  isplitl [Ht]; · iexact Ht
  isplitl [HsH]; · iexact HsH
  isplitl [HsX]; · iexact HsX
  isplitl [HsB]; · iexact HsB
  isplitl [Hw25]; · iexact Hw25
  isplitl [Hs26]; · iexact Hs26
  isplitl [HsD]; · iexact HsD
  isplitl [HOW]; · iexact HOW
  iintro ⟨Hmw, Ht, HsH, HsX, HsB, Hw25, Hs26, HsD, HOW⟩
  -- the end of the task: everything handed back
  sl_step
  isplitl [Ht Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Ht]; · iexact Ht
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  isplitl [HsH HsX HsB Hrest]
  · isplitl [HsH]; · iexists _; iexact HsH
    isplitl [HsX]; · iexact HsX
    isplitl [HsB]; · iexists _; iexact HsB
    iexact Hrest
  isplitl [HsD Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26]
  · isplitl [HsD]; · iexact HsD
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    iexact Hs26
  iexact HOW

end Cert.KProof
end
-- ==== Proof.ScatterOff.lean ====
/-
  One group of sixteen lanes of the scatter at an arbitrary lane offset.

  The sixteen lanes [off, off + 16) need not start at a multiple of sixteen: scattering ones at the rows they name extends
  the band [0, off) to [0, off + 16), and scattering zeros there shrinks the band [off, 128) to [off + 16, 128).
-/
import proofs.«211696_g86517821210821_cont_sun_m_1191_30_alg».proof.Proof.ScatterBand

noncomputable section

namespace Cert.Spec

open Idealize.ShloMosaic Idealize.ShloMosaic.ValueIdx

variable {F : FTy → Type} [FloatOps F]

/-- Lane `k` of the sixteen starting at `off` is one of the 128 lanes. -/
theorem olane_lt (off : Nat) (hoff : off + 16 ≤ 128) (k : SL.Idx) : off + (k 0).val < 128 := by
  have := lane_lt k; omega

section Offset
variable (xb lh : IVec S128' 32) (hxb : ∀ j, (xb j).toNat < 1000) (hlh : ∀ j, (lh j).toNat = (j 0).val)
  (off : Nat) (hoff : off + 16 ≤ 128) (v11 v12 : IVec SL 32)
  (hv11 : ∀ k : SL.Idx, v11 k = xb (ix1 ⟨off + (k 0).val, olane_lt off hoff k⟩))
  (hv12 : ∀ k : SL.Idx, v12 k = lh (ix1 ⟨off + (k 0).val, olane_lt off hoff k⟩))
include hxb hlh hv11 hv12

/-- The scatter's indices are in range: a category is a row, a lane is a column. -/
theorem chk_off : ∀ a x, ((![v11, v12] : Fin 2 → IVec SL 32) a x).toNat < SB.size a := by
  intro a x
  match a with
  | ⟨0, _⟩ =>
    show (v11 x).toNat < 1000
    rw [hv11]; exact hxb _
  | ⟨1, _⟩ =>
    show (v12 x).toNat < 128
    rw [hv12, hlh]; exact olane_lt off hoff x

/-- Which elements the sixteen lanes name: column `off + k`, at the row lane `off + k`'s word names. -/
theorem names_off (j : SB.Idx) :
    (∃ x : SL.Idx, cmpi .slt v11 (broadcast SL 1000#32) x = 1 ∧
        ∀ a, ((![v11, v12] : Fin 2 → IVec SL 32) a x).toNat = (j a).val) ↔
      (off ≤ (j 1).val ∧ (j 1).val < off + 16 ∧ (xb (ix1 (j 1))).toNat = (j 0).val) := by
  constructor
  · rintro ⟨x, _, hx⟩
    have h0 : (v11 x).toNat = (j 0).val := hx 0
    have h1 : (v12 x).toNat = (j 1).val := hx 1
    rw [hv12, hlh] at h1
    have h1' : off + (x 0).val = (j 1).val := h1
    have hj1 : (⟨off + (x 0).val, olane_lt off hoff x⟩ : Fin 128) = j 1 := Fin.ext h1'
    rw [hv11, hj1] at h0
    have := lane_lt x
    exact ⟨by omega, by omega, h0⟩
  · rintro ⟨hlo, hhi, hrow⟩
    let x : SL.Idx := ix1 ⟨(j 1).val - off, by omega⟩
    have hj1 : (⟨off + (x 0).val, olane_lt off hoff x⟩ : Fin 128) = j 1 :=
      Fin.ext (show off + ((j 1).val - off) = (j 1).val by omega)
    refine ⟨x, ?_, ?_⟩
    · show IntOp.cmpi .slt (v11 x) 1000#32 = 1
      exact slt_1000 _ (by rw [hv11]; exact hxb _)
    · intro a
      match a with
      | ⟨0, _⟩ =>
        show (v11 x).toNat = (j 0).val
        rw [hv11, hj1]; exact hrow
      | ⟨1, _⟩ =>
        show (v12 x).toNat = (j 1).val
        rw [hv12, hlh, hj1]

/-- Scattering ones at the sixteen lanes' places extends the band by them. -/
theorem scat_one_off (h : ∀ a x, ((![v11, v12] : Fin 2 → IVec SL 32) a x).toNat < SB.size a) :
    storeIdx (F := F) (e := .f32) (band xb 0 off) ![v11, v12] (broadcast SL one)
      (cmpi .slt v11 (broadcast SL 1000#32)) false h = band xb 0 (off + 16) := by
  funext j
  have hn := names_off xb lh hxb hlh off hoff v11 v12 hv11 hv12 j
  by_cases hj : ∃ x : SL.Idx, cmpi .slt v11 (broadcast SL 1000#32) x = 1 ∧
        ∀ a, ((![v11, v12] : Fin 2 → IVec SL 32) a x).toNat = (j a).val
  · rw [show broadcast SL (one : F .f32) = fun _ => one from rfl, storeIdx_const_hit _ _ _ _ _ _ hj]
    obtain ⟨_, h2, h3⟩ := hn.1 hj
    unfold band
    rw [if_pos ⟨Nat.zero_le _, h2, h3⟩]
  · rw [show broadcast SL (one : F .f32) = fun _ => one from rfl, storeIdx_const_miss _ _ _ _ _ _ hj]
    have hn' := fun hh => hj (hn.2 hh)
    unfold band
    by_cases hlo : (j 1).val < off
    · by_cases hr : (xb (ix1 (j 1))).toNat = (j 0).val
      · rw [if_pos ⟨Nat.zero_le _, hlo, hr⟩, if_pos ⟨Nat.zero_le _, by omega, hr⟩]
      · rw [if_neg (fun hh => hr hh.2.2), if_neg (fun hh => hr hh.2.2)]
    · rw [if_neg (fun hh => hlo hh.2.1), if_neg (fun hh => hn' ⟨by omega, hh.2.1, hh.2.2⟩)]

/-- Scattering zeros at the sixteen lanes' places removes them from the band. -/
theorem scat_zero_off (h : ∀ a x, ((![v11, v12] : Fin 2 → IVec SL 32) a x).toNat < SB.size a) :
    storeIdx (F := F) (e := .f32) (band xb off 128) ![v11, v12] (broadcast SL zero)
      (cmpi .slt v11 (broadcast SL 1000#32)) false h = band xb (off + 16) 128 := by
  funext j
  have hn := names_off xb lh hxb hlh off hoff v11 v12 hv11 hv12 j
  by_cases hj : ∃ x : SL.Idx, cmpi .slt v11 (broadcast SL 1000#32) x = 1 ∧
        ∀ a, ((![v11, v12] : Fin 2 → IVec SL 32) a x).toNat = (j a).val
  · rw [show broadcast SL (zero : F .f32) = fun _ => zero from rfl, storeIdx_const_hit _ _ _ _ _ _ hj]
    obtain ⟨_, h2, _⟩ := hn.1 hj
    unfold band
    rw [if_neg (fun hh => by omega)]
  · rw [show broadcast SL (zero : F .f32) = fun _ => zero from rfl, storeIdx_const_miss _ _ _ _ _ _ hj]
    have hn' := fun hh => hj (hn.2 hh)
    unfold band
    by_cases hhi : off + 16 ≤ (j 1).val
    · by_cases hr : (j 1).val < 128 ∧ (xb (ix1 (j 1))).toNat = (j 0).val
      · rw [if_pos ⟨by omega, hr⟩, if_pos ⟨hhi, hr⟩]
      · rw [if_neg (fun hh => hr hh.2), if_neg (fun hh => hr hh.2)]
    · rw [if_neg (fun hh => hn' ⟨hh.1, by omega, hh.2.2⟩), if_neg (fun hh => hhi hh.1)]

end Offset

end Cert.Spec

end
-- ==== Proof.K.WindowValue.lean ====
/-
  What a window of the transposed result holds once the full band has been copied into it: the one-hot encoding read off
  the table, on that window.
-/
import proofs.«211696_g86517821210821_cont_sun_m_1191_30_alg».proof.Proof.K.Views

noncomputable section

namespace Cert.KProof

open Cert.Kernel
open Idealize.ShloMosaic Idealize.ShloMosaic.ValueIdx

variable {F : FTy → Type} [FloatOps F]

/-- The table word of stripe `w`, feature `f`, lane `l` is inside the table. -/
theorem tword_lt (f : Fin 26) (w : Nat) (hw : w < 32) (l : S128.Idx) :
    128 + (w * 26 + f.val) * 128 + (l 0).val < 106624 := by
  have hl : (l 0).val < 128 := (l 0).isLt
  have hf := f.isLt
  omega

/-- If the 128-word scratch holds the table's words for stripe `w` and feature `f`, the full band written through the
    window `(f, w)` leaves there what the table says. -/
theorem outWin_write (f : Fin 26) (w : Nat) (hw : w < 32) (doff : Fin 2 → Nat)
    (dinb : ∀ a, doff a + S1000x128.size a ≤ S26000x4096.size a) (h0 : doff 0 = 1000 * f.val) (h1 : doff 1 = 128 * w)
    (tab : IVec Cert.Spec.ST 32) (xb : IVec S128 32)
    (hxb : ∀ l : S128.Idx, xb l = tab (ix1 ⟨128 + (w * 26 + f.val) * 128 + (l 0).val, tword_lt f w hw l⟩))
    (o : (outWin doff dinb).view.ty.Contents (Elt F)) :
    ∀ j ∈ outSet f w, (outWin doff dinb).view.write (Elt F) o (Cert.Spec.band (F := F) xb 0 128) Finset.univ j
      = Cert.Spec.outOfTable (F := F) tab j := by
  intro j hj
  unfold outSet at hj
  rw [Finset.mem_filter] at hj
  obtain ⟨_, hjf, hjw⟩ := hj
  have hj0 : (j 0).val < 26000 := idx2_lt0 j
  have hj1 : (j 1).val < 4096 := idx2_lt1 j
  have hf := f.isLt
  have hy0 : (j 0).val - 1000 * f.val < 1000 := by omega
  have hy1 : (j 1).val - 128 * w < 128 := by omega
  have hy : (outWin doff dinb).view.emb (ix2 ⟨(j 0).val - 1000 * f.val, hy0⟩ ⟨(j 1).val - 128 * w, hy1⟩) = j := by
    rw [outWin_emb f w doff dinb h0 h1 _
      (show 1000 * f.val + ((j 0).val - 1000 * f.val) < 26000 by omega)
      (show 128 * w + ((j 1).val - 128 * w) < 4096 by omega)]
    funext a
    match a with
    | ⟨0, _⟩ => exact Fin.ext (show 1000 * f.val + ((j 0).val - 1000 * f.val) = (j 0).val by omega)
    | ⟨1, _⟩ => exact Fin.ext (show 128 * w + ((j 1).val - 128 * w) = (j 1).val by omega)
  have hwr := View.write_emb_of_mem (v := (outWin doff dinb).view) o (Cert.Spec.band (F := F) xb 0 128)
    (Finset.mem_univ (ix2 ⟨(j 0).val - 1000 * f.val, hy0⟩ ⟨(j 1).val - 128 * w, hy1⟩))
  rw [hy] at hwr
  refine hwr.trans ?_
  show Cert.Spec.band (F := F) xb 0 128 (ix2 ⟨(j 0).val - 1000 * f.val, hy0⟩ ⟨(j 1).val - 128 * w, hy1⟩) = _
  rw [Cert.Spec.band_full_apply]
  unfold Cert.Spec.outOfTable
  have e1 : xb (ix1 (⟨(j 1).val - 128 * w, hy1⟩ : Fin 128))
      = tab (ix1 ⟨Cert.Spec.tabPos (j 0).val (j 1).val, Cert.Spec.tabPos_lt hj0 hj1⟩) := by
    rw [hxb]
    refine congrArg tab ?_
    funext a
    match a with
    | ⟨0, _⟩ =>
      refine Fin.ext ?_
      show 128 + (w * 26 + f.val) * 128 + ((j 1).val - 128 * w) = Cert.Spec.tabPos (j 0).val (j 1).val
      unfold Cert.Spec.tabPos
      omega
  have e2 : (j 0).val - 1000 * f.val = (j 0).val % 1000 := by omega
  show (if (xb (ix1 (⟨(j 1).val - 128 * w, hy1⟩ : Fin 128))).toNat = (j 0).val - 1000 * f.val then Cert.Spec.one
      else Cert.Spec.zero) = _
  rw [e1, e2]

end Cert.KProof

end
-- ==== Proof.K.TileFeat.lean ====
/-
  One feature of the tile's body, and the pieces it is made of.

  A lane group loads sixteen categories and their sixteen lane numbers, and scatters a constant at (category, lane): with
  ones, the band of one-hot columns held in the big scratch grows by the group's sixteen lanes; with zeros it shrinks by them.
  A feature fetches its 128 table words, grows the band from empty to full in eight groups, copies the scratch out to its
  window of the result — which is then the encoding read off the table, on that window —, and shrinks the band back to
  empty, so that the next feature starts from an all-zero scratch again.
-/
import proofs.«211696_g86517821210821_cont_sun_m_1191_30_alg».proof.Proof.K.TileProg
import proofs.«211696_g86517821210821_cont_sun_m_1191_30_alg».proof.Proof.ScatterOff
import proofs.«211696_g86517821210821_cont_sun_m_1191_30_alg».proof.Proof.BandFull
import proofs.«211696_g86517821210821_cont_sun_m_1191_30_alg».proof.Proof.K.Views
import proofs.«211696_g86517821210821_cont_sun_m_1191_30_alg».proof.Proof.K.WindowValue
import proofs.«211696_g86517821210821_cont_sun_m_1191_30_alg».proof.Proof.K.TileRes

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (d : Dev nD) (L : grid0.Coords)

/-- The tile's thread. -/
abbrev thr : Thread nD τ := V d (cV L) (jV L)

/-- Sixteen lanes at offset `off` of a 128-word scratch. -/
abbrev laneRect (off : Nat) (hin : ∀ a, (![off] : Fin 1 → Nat) a + S16.size a ≤ S128.size a) :=
  (Rect.unit (s := S128) ![off] S16.size hin).toLoadRect

section Group
variable (xb lh : IVec S128 32) (hxb : ∀ j, (xb j).toNat < 1000) (hlh : ∀ j, (lh j).toNat = (j 0).val)
  (off : Nat) (hin : ∀ a, (![off] : Fin 1 → Nat) a + S16.size a ≤ S128.size a) (hoff : off + 16 ≤ 128)
include hxb hlh hoff

theorem grp_chk : k0_chk1 ((sX).view.readAt (Elt F) (laneRect off hin) xb) ((sH).view.readAt (Elt F) (laneRect off hin) lh) :=
  Cert.Spec.chk_off xb lh hxb hlh off hoff _ _
    (fun k => scratch1_readAt (F := F) xb off hin k (Cert.Spec.olane_lt off hoff k))
    (fun k => scratch0_readAt (F := F) lh off hin k (Cert.Spec.olane_lt off hoff k))

/-- The big scratch after one group's scatter of ones, as the run leaves it: the band one group wider. -/
theorem grp_one_val (h : ∀ a x, ((![(sX).view.readAt (Elt F) (laneRect off hin) xb, (sH).view.readAt (Elt F) (laneRect off hin) lh] : Fin 2 → IVec S16 32) a x).toNat < S1000x128.size a) :
    (sB).view.writes (Elt F) (Cert.Spec.band (F := F) xb 0 off)
      [⟨Rect.whole S1000x128, storeIdx (F := F) (e := .f32) ((sB).view.readAt (Elt F) (LoadRect.whole S1000x128) (Cert.Spec.band (F := F) xb 0 off))
        ![(sX).view.readAt (Elt F) (laneRect off hin) xb, (sH).view.readAt (Elt F) (laneRect off hin) lh] (onesV (F := F))
        (cmpi .slt ((sX).view.readAt (Elt F) (laneRect off hin) xb) (broadcast S16 1000#32)) false h⟩]
      = Cert.Spec.band (F := F) xb 0 (off + 16) := by
  rw [← View.write_univ_eq_writes_whole (Val := Elt F) (sB).view (Cert.Spec.band (F := F) xb 0 off) [] _]
  have e : (sB).view.readAt (Elt F) (LoadRect.whole S1000x128) (Cert.Spec.band (F := F) xb 0 off) = Cert.Spec.band (F := F) xb 0 off :=
    Memref.readAt_whole (Elt F) cc0_scratch2 _
  rw [e]
  exact (View.write_whole_univ (Val := Elt F) cc0_scratch2 _ _).trans (Cert.Spec.scat_one_off (F := F) xb lh hxb hlh off hoff _ _
    (fun k => scratch1_readAt (F := F) xb off hin k (Cert.Spec.olane_lt off hoff k))
    (fun k => scratch0_readAt (F := F) lh off hin k (Cert.Spec.olane_lt off hoff k)) h)

/-- The same for the scatter of zeros: the band one group narrower. -/
theorem grp_zero_val (h : ∀ a x, ((![(sX).view.readAt (Elt F) (laneRect off hin) xb, (sH).view.readAt (Elt F) (laneRect off hin) lh] : Fin 2 → IVec S16 32) a x).toNat < S1000x128.size a) :
    (sB).view.writes (Elt F) (Cert.Spec.band (F := F) xb off 128)
      [⟨Rect.whole S1000x128, storeIdx (F := F) (e := .f32) ((sB).view.readAt (Elt F) (LoadRect.whole S1000x128) (Cert.Spec.band (F := F) xb off 128))
        ![(sX).view.readAt (Elt F) (laneRect off hin) xb, (sH).view.readAt (Elt F) (laneRect off hin) lh] (zerosV (F := F))
        (cmpi .slt ((sX).view.readAt (Elt F) (laneRect off hin) xb) (broadcast S16 1000#32)) false h⟩]
      = Cert.Spec.band (F := F) xb (off + 16) 128 := by
  rw [← View.write_univ_eq_writes_whole (Val := Elt F) (sB).view (Cert.Spec.band (F := F) xb off 128) [] _]
  have e : (sB).view.readAt (Elt F) (LoadRect.whole S1000x128) (Cert.Spec.band (F := F) xb off 128) = Cert.Spec.band (F := F) xb off 128 :=
    Memref.readAt_whole (Elt F) cc0_scratch2 _
  rw [e]
  exact (View.write_whole_univ (Val := Elt F) cc0_scratch2 _ _).trans (Cert.Spec.scat_zero_off (F := F) xb lh hxb hlh off hoff _ _
    (fun k => scratch1_readAt (F := F) xb off hin k (Cert.Spec.olane_lt off hoff k))
    (fun k => scratch0_readAt (F := F) lh off hin k (Cert.Spec.olane_lt off hoff k)) h)

/-- One group of ones: with the 128-word scratches at `xb` (categories) and `lh` (lane numbers) and the big scratch at
    the band `[0, off)`, the group runs and leaves the band `[0, off + 16)`. -/
theorem grp_one (Φ : PUnit → sProp 𝕄) :
    (iprop(((sX).view.loc (thr d L) ↦{fullShare} xb) ∗ ((sH).view.loc (thr d L) ↦{fullShare} lh)
        ∗ ((sB).view.loc (thr d L) ↦{fullShare} (Cert.Spec.band (F := F) xb 0 off))
        ∗ ((((sX).view.loc (thr d L) ↦{fullShare} xb) ∗ ((sH).view.loc (thr d L) ↦{fullShare} lh)
            ∗ ((sB).view.loc (thr d L) ↦{fullShare} (Cert.Spec.band (F := F) xb 0 (off + 16)))) -∗ Φ ⟨⟩)) : sProp 𝕄)
      ⊢ wp frame (wpE (defs₀ (F := F)) 𝒱₀ (thr d L) none) Set.univ (grp (F := F) L onesV off hin) Φ := by
  have hchk := grp_chk (F := F) xb lh hxb hlh off hin hoff
  unfold grp SparseCore.vectorStoreIdx
  iintro ⟨HsX, HsH, HsB, Hk⟩
  sl_exec
  sl_step
  rw [grp_one_val (F := F) xb lh hxb hlh off hin hoff]
  iapply Hk
  isplitl [HsX]; · iexact HsX
  isplitl [HsH]; · iexact HsH
  iexact HsB

theorem grp_zero (Φ : PUnit → sProp 𝕄) :
    (iprop(((sX).view.loc (thr d L) ↦{fullShare} xb) ∗ ((sH).view.loc (thr d L) ↦{fullShare} lh)
        ∗ ((sB).view.loc (thr d L) ↦{fullShare} (Cert.Spec.band (F := F) xb off 128))
        ∗ ((((sX).view.loc (thr d L) ↦{fullShare} xb) ∗ ((sH).view.loc (thr d L) ↦{fullShare} lh)
            ∗ ((sB).view.loc (thr d L) ↦{fullShare} (Cert.Spec.band (F := F) xb (off + 16) 128))) -∗ Φ ⟨⟩)) : sProp 𝕄)
      ⊢ wp frame (wpE (defs₀ (F := F)) 𝒱₀ (thr d L) none) Set.univ (grp (F := F) L zerosV off hin) Φ := by
  have hchk := grp_chk (F := F) xb lh hxb hlh off hin hoff
  unfold grp SparseCore.vectorStoreIdx
  iintro ⟨HsX, HsH, HsB, Hk⟩
  sl_exec
  sl_step
  rw [grp_zero_val (F := F) xb lh hxb hlh off hin hoff]
  iapply Hk
  isplitl [HsX]; · iexact HsX
  isplitl [HsH]; · iexact HsH
  iexact HsB

end Group

/-! ## The two copies -/

/-- The fetch of 128 table words into the second scratch: the scratch then holds those words; the wait is recorded. -/
theorem fetch_sX (tab : Buf (Elt F) (tLoc d)) (q : PosShare TreeShare)
    (toff : Fin 1 → Nat) (tinb : ∀ a, toff a + S128.size a ≤ S106624.size a) (sem : DmaSems sig S_)
    (fx : Buf (Elt F) ((thr d L).loc cc0_scratch1)) (O : CellTallies nD τ sig (HIx 1)) (W : Waits sig (HIx 1)) (Φ : PUnit → sProp 𝕄) :
    (iprop(Transfers.MayWaits (thr d L) (none : HIx 1) O
        ∗ ((tW).view.loc (thr d L) ↦{q} tab) ∗ ((sX).view.loc (thr d L) ↦{fullShare} fx)
        ∗ semVal (thr d L, SemLoc.dma sem.sem) 0 ∗ owes (thr d L) O W
        ∗ ((Transfers.MayWaits (thr d L) (none : HIx 1) O
            ∗ ((tW).view.loc (thr d L) ↦{q} tab) ∗ ((sX).view.loc (thr d L) ↦{fullShare} (tSl toff tinb).view.read (Elt F) tab)
            ∗ semVal (thr d L, SemLoc.dma sem.sem) 0 ∗ owes (thr d L) O (insert (SemLoc.dma sem.sem, none) W)) -∗ Φ ⟨⟩)) : sProp 𝕄)
      ⊢ wp frame (wpE (defs₀ (F := F)) 𝒱₀ (thr d L) none) Set.univ (fetch (F := F) L toff tinb sX (Memref.isWhole_whole _) sem) Φ := by
  unfold fetch
  iintro ⟨Hmw, Ht, HsX, Hsem, HO, Hk⟩
  sl_exec
  sl_step
  iapply Hk
  isplitl [Hmw]; · iexact Hmw
  isplitl [Ht]; · iexact Ht
  isplitl [HsX]
  · iapply (Entails.of_eq (congrArg (fun g => ((sX).view.loc (thr d L) ↦{fullShare} g : sProp 𝕄))
      (View.write_whole_univ (Val := Elt F) cc0_scratch1 fx ((tSl toff tinb).view.read (Elt F) tab))))
    iexact HsX
  isplitl [Hsem]; · iexact Hsem
  iexact HO

/-- The copy of the big scratch out to a result window: the window then holds the scratch's contents. -/
theorem flush_spec (c : Buf (Elt F) ((thr d L).loc cc0_scratch2))
    (ooff : Fin 2 → Nat) (oinb : ∀ a, ooff a + S1000x128.size a ≤ S26000x4096.size a)
    (o : Buf (Elt F) (oLoc d)) (O : CellTallies nD τ sig (HIx 1)) (W : Waits sig (HIx 1)) (Φ : PUnit → sProp 𝕄) :
    (iprop(Transfers.MayWaits (thr d L) (none : HIx 1) O
        ∗ ((sB).view.loc (thr d L) ↦{fullShare} c)
        ∗ ((oSl ooff oinb).view.loc (thr d L) ↦[(oSl ooff oinb).view.set]{fullShare} o)
        ∗ semVal (thr d L, SemLoc.dma cc0_scratch3.sem) 0 ∗ owes (thr d L) O W
        ∗ ((Transfers.MayWaits (thr d L) (none : HIx 1) O
            ∗ ((sB).view.loc (thr d L) ↦{fullShare} c)
            ∗ ((oSl ooff oinb).view.loc (thr d L) ↦[(oSl ooff oinb).view.set]{fullShare} (oSl ooff oinb).view.write (Elt F) o c Finset.univ)
            ∗ semVal (thr d L, SemLoc.dma cc0_scratch3.sem) 0 ∗ owes (thr d L) O (insert (SemLoc.dma cc0_scratch3.sem, none) W)) -∗ Φ ⟨⟩)) : sProp 𝕄)
      ⊢ wp frame (wpE (defs₀ (F := F)) 𝒱₀ (thr d L) none) Set.univ (flush (F := F) L ooff oinb) Φ := by
  unfold flush
  iintro ⟨Hmw, HsB, Hw, Hsem, HO, Hk⟩
  sl_exec
  sl_step
  iapply Hk
  isplitl [Hmw]; · iexact Hmw
  isplitl [HsB]; · iexact HsB
  isplitl [Hw]
  · iapply (Entails.of_eq (congrArg (fun g => ((oSl ooff oinb).view.loc (thr d L) ↦[(oSl ooff oinb).view.set]{fullShare} g : sProp 𝕄))
      (View.write_univ_eq_writes_whole (Val := Elt F) (oSl ooff oinb).view o [] c).symm))
    iexact Hw
  isplitl [Hsem]; · iexact Hsem
  iexact HO

/-! ## One feature -/

section Feature
variable (tab : Buf (Elt F) (tLoc d)) (htab : Cert.Spec.TabOK tab) (q : PosShare TreeShare) (f : Fin 26)
  (toff : Fin 1 → Nat) (tinb : ∀ a, toff a + S128.size a ≤ S106624.size a)
  (ooff : Fin 2 → Nat) (oinb : ∀ a, ooff a + S1000x128.size a ≤ S26000x4096.size a)
  (ht : toff 0 = 128 + (wid L * 26 + f.val) * 128) (ho : ooff 0 = 1000 * f.val ∧ ooff 1 = 128 * wid L)

/-- The feature's 128 table words. -/
abbrev xbOf : IVec S128 32 := (tSl toff tinb).view.read (Elt F) tab

include ht in
theorem xbOf_eq (l : S128.Idx) :
    xbOf (F := F) d tab toff tinb l = tab (ix1 ⟨128 + (wid L * 26 + f.val) * 128 + (l 0).val, tword_lt f (wid L) (wid_lt L) l⟩) :=
  table_slice_read (F := F) tab toff tinb l _ ht _

include ht htab in
theorem xbOf_lt (j : S128.Idx) : (xbOf (F := F) d tab toff tinb j).toNat < 1000 := by
  rw [xbOf_eq (F := F) (d := d) (L := L) (tab := tab) (f := f) (toff := toff) (tinb := tinb) (ht := ht) j]
  refine htab.2 _ ?_
  show 128 ≤ 128 + (wid L * 26 + f.val) * 128 + (j 0).val
  omega

include htab ht ho in
/-- One feature: from the table share, the lane numbers in the first scratch, the big scratch all zero and the feature's
    window of the result, the feature runs and leaves the window at the encoding read off the table, the big scratch all
    zero again. -/
theorem feat_spec (sem : DmaSems sig S_) (lh : IVec S128 32) (hlh : ∀ j, (lh j).toNat = (j 0).val) (o : Buf (Elt F) (oLoc d))
    (O : CellTallies nD τ sig (HIx 1)) (W : Waits sig (HIx 1)) (Φ : PUnit → sProp 𝕄) :
    (iprop(Transfers.MayWaits (thr d L) (none : HIx 1) O
        ∗ ((tW).view.loc (thr d L) ↦{q} tab) ∗ ((sH).view.loc (thr d L) ↦{fullShare} lh) ∗ (∃ fx, (sX).view.loc (thr d L) ↦{fullShare} fx)
        ∗ ((sB).view.loc (thr d L) ↦{fullShare} (fun _ => Cert.Spec.zero))
        ∗ (oLoc d ↦[outSet f (wid L)]{fullShare} o)
        ∗ semVal (thr d L, SemLoc.dma sem.sem) 0 ∗ semVal (thr d L, SemLoc.dma cc0_scratch3.sem) 0
        ∗ (∃ W', ⌜∀ p ∈ W', p ∈ W ∨ p.2 = none⌝ ∗ owes (thr d L) O W')
        ∗ ((Transfers.MayWaits (thr d L) (none : HIx 1) O
            ∗ ((tW).view.loc (thr d L) ↦{q} tab) ∗ ((sH).view.loc (thr d L) ↦{fullShare} lh) ∗ (∃ fx, (sX).view.loc (thr d L) ↦{fullShare} fx)
            ∗ ((sB).view.loc (thr d L) ↦{fullShare} (fun _ => Cert.Spec.zero))
            ∗ (oLoc d ↦[outSet f (wid L)]{fullShare} Cert.Spec.outOfTable (F := F) tab)
            ∗ semVal (thr d L, SemLoc.dma sem.sem) 0 ∗ semVal (thr d L, SemLoc.dma cc0_scratch3.sem) 0
            ∗ (∃ W', ⌜∀ p ∈ W', p ∈ W ∨ p.2 = none⌝ ∗ owes (thr d L) O W')) -∗ Φ ⟨⟩)) : sProp 𝕄)
      ⊢ wp frame (wpE (defs₀ (F := F)) 𝒱₀ (thr d L) none) Set.univ (feat (F := F) L toff tinb ooff oinb sem) Φ := by
  have hxb : ∀ j, (xbOf (F := F) d tab toff tinb j).toNat < 1000 := xbOf_lt (F := F) (d := d) (L := L) (tab := tab) (htab := htab) (f := f) (toff := toff) (tinb := tinb) (ht := ht)
  have hwset : (outWin ooff oinb).view.set = outSet f (wid L) := outWin_set f (wid L) ooff oinb ho.1 ho.2
  have hwval : ∀ j ∈ (outWin ooff oinb).view.set,
      (outWin ooff oinb).view.write (Elt F) o (Cert.Spec.band (F := F) (xbOf (F := F) d tab toff tinb) 0 128) Finset.univ j
        = Cert.Spec.outOfTable (F := F) tab j := fun j hj =>
    outWin_write (F := F) f (wid L) (wid_lt L) ooff oinb ho.1 ho.2 tab (xbOf (F := F) d tab toff tinb)
      (xbOf_eq (F := F) (d := d) (L := L) (tab := tab) (f := f) (toff := toff) (tinb := tinb) (ht := ht)) o j (hwset ▸ hj)
  unfold feat
  rw [← hwset]
  iintro ⟨Hmw, Ht, HsH, ⟨%fx, HsX⟩, HsB, Hw, Hsem, Hs3, ⟨%W', %hW', HO⟩, Hk⟩
  -- the fetch
  rw [wp_bind]
  iapply (fetch_sX (F := F) d L tab q toff tinb sem fx O W') $$ [Hmw Ht HsH HsX HsB Hw Hsem Hs3 HO Hk]
  isplitl [Hmw]; · iexact Hmw
  isplitl [Ht]; · iexact Ht
  isplitl [HsX]; · iexact HsX
  isplitl [Hsem]; · iexact Hsem
  isplitl [HO]; · iexact HO
  iintro ⟨Hmw, Ht, HsX, Hsem, HO⟩
  ihave HsB := (Entails.of_eq (congrArg (fun g => ((sB).view.loc (thr d L) ↦{fullShare} g : sProp 𝕄))
    (Cert.Spec.band_empty (F := F) (xbOf (F := F) d tab toff tinb) 0).symm)) $$ HsB
  -- ones, lane group by lane group
  rw [wp_bind]
  iapply (grp_one (F := F) d L (xbOf (F := F) d tab toff tinb) lh hxb hlh 0 inb_S128_S16_0 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 16 inb_S128_S16_16 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 32 inb_S128_S16_32 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 48 inb_S128_S16_48 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 64 inb_S128_S16_64 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 80 inb_S128_S16_80 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 96 inb_S128_S16_96 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 112 inb_S128_S16_112 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  -- the copy out to the window
  rw [wp_bind]
  iapply (flush_spec (F := F) d L (Cert.Spec.band (F := F) (xbOf (F := F) d tab toff tinb) 0 128) ooff oinb o O (insert (SemLoc.dma sem.sem, none) W')) $$ [Hmw Ht HsH HsX HsB Hw Hsem Hs3 HO Hk]
  isplitl [Hmw]; · iexact Hmw
  isplitl [HsB]; · iexact HsB
  isplitl [Hw]; · iexact Hw
  isplitl [Hs3]; · iexact Hs3
  isplitl [HO]; · iexact HO
  iintro ⟨Hmw, HsB, Hw, Hs3, HO⟩
  -- zeros, lane group by lane group
  rw [wp_bind]
  iapply (grp_zero (F := F) d L (xbOf (F := F) d tab toff tinb) lh hxb hlh 0 inb_S128_S16_0 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 16 inb_S128_S16_16 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 32 inb_S128_S16_32 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 48 inb_S128_S16_48 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 64 inb_S128_S16_64 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 80 inb_S128_S16_80 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 96 inb_S128_S16_96 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  iapply (grp_zero (F := F) d L (xbOf (F := F) d tab toff tinb) lh hxb hlh 112 inb_S128_S16_112 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  -- what is handed back
  iapply Hk
  isplitl [Hmw]; · iexact Hmw
  isplitl [Ht]; · iexact Ht
  isplitl [HsH]; · iexact HsH
  isplitl [HsX]; · iexists _; iexact HsX
  isplitl [HsB]
  · iapply (Entails.of_eq (congrArg (fun g => ((sB).view.loc (thr d L) ↦{fullShare} g : sProp 𝕄))
      (Cert.Spec.band_empty (F := F) (xbOf (F := F) d tab toff tinb) 128)))
    iexact HsB
  isplitl [Hw]
  · iapply (Entails.of_eq (pointsTo_congr hwval))
    iexact Hw
  isplitl [Hsem]; · iexact Hsem
  isplitl [Hs3]; · iexact Hs3
  iexists (insert (SemLoc.dma cc0_scratch3.sem, none) (insert (SemLoc.dma sem.sem, none) W')); isplitr
  · ipureintro; intro p hp
    rcases Finset.mem_insert.mp hp with rfl | hp
    · exact .inr rfl
    rcases Finset.mem_insert.mp hp with rfl | hp
    · exact .inr rfl
    exact hW' p hp
  · iexact HO

end Feature

/-- The feature lemma, every argument explicit in the order of its statement. -/
example (d : Dev nD) (L : grid0.Coords) (tab : Buf (Elt F) (tLoc d)) (htab : Cert.Spec.TabOK tab) (q : PosShare TreeShare) (f : Fin 26)
    (toff : Fin 1 → Nat) (tinb : ∀ a, toff a + S128.size a ≤ S106624.size a) (ooff : Fin 2 → Nat) (oinb : ∀ a, ooff a + S1000x128.size a ≤ S26000x4096.size a)
    (ht : toff 0 = 128 + (wid L * 26 + f.val) * 128) (ho : ooff 0 = 1000 * f.val ∧ ooff 1 = 128 * wid L)
    (sem : DmaSems sig S_) (lh : IVec S128 32) (hlh : ∀ j, (lh j).toNat = (j 0).val) (o : Buf (Elt F) (oLoc d))
    (O : CellTallies nD τ sig (HIx 1)) (W : Waits sig (HIx 1)) (Φ : PUnit → sProp 𝕄) :=
  feat_spec (F := F) d L tab htab q f toff tinb ooff oinb ht ho sem lh hlh o O W Φ

end Cert.KProof

end
-- ==== Proof.K.Tile.lean ====
/-
  One tile's task: the header, the zeroing loop and the 26 features, from the feature's lemma.
-/
import proofs.«211696_g86517821210821_cont_sun_m_1191_30_alg».proof.Proof.K.TileTop
import proofs.«211696_g86517821210821_cont_sun_m_1191_30_alg».proof.Proof.K.TileFeat

noncomputable section

namespace Cert.KProof

open Cert.Kernel Cert.Kernel.Gen
open Idealize.ShloMosaic

variable {F : FTy → Type} [FloatOps F]

/-- One tile's task: from its share of the table and its 26 windows, the body runs to its end and leaves the windows at the
    encoding read off the table. -/
theorem tile_body : TileStmt (F := F) :=
  tile_body_of (fun d L tab htab q f toff tinb ooff oinb ht ho sem lh hlh o O W Φ =>
    feat_spec (F := F) d L tab htab q f toff tinb ooff oinb ht ho sem lh hlh o O W Φ)

end Cert.KProof

end
-- ==== Proof.KI.Setup.lean ====
/-
  The one-hot kernel as the launch of its 32 tiles sees it: the names of the arrays (the input x, the flat table, the
  transposed result), what one tile is handed — a read share of the table and the 26 windows of the result that are its
  own: rows [1000 f, 1000 f + 1000) × columns [128 w, 128 w + 128) for its stripe w — and what it hands back: the same
  windows holding the one-hot encoding read off the table.
-/
import proofs.«211696_g86517821210821_cont_sun_m_1191_30_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«211696_g86517821210821_cont_sun_m_1191_30_alg».proof.Proof.Gen.KernelIdeal
import proofs.«211696_g86517821210821_cont_sun_m_1191_30_alg».proof.Proof.Gen.KernelIdeal.Skeleton
import proofs.«211696_g86517821210821_cont_sun_m_1191_30_alg».proof.Proof.OneHotSpec

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The input `x`, the flat table, the transposed result, the result: as locations of device `d`. -/
abbrev xLoc (d : Dev nD) : Loc nD τ sig := (SparseCore.T d).loc main_arg0
abbrev tLoc (d : Dev nD) : Loc nD τ sig := (SparseCore.T d).loc main_v4
abbrev oLoc (d : Dev nD) : Loc nD τ sig := (SparseCore.T d).loc main_v5
abbrev rLoc (d : Dev nD) : Loc nD τ sig := (SparseCore.T d).loc main_v6

/-- A tile's place from its grid coordinates. -/
def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0

/-- The stripe of 128 batch rows a tile encodes: twice its subcore number plus its core number. -/
def wid (L : grid0.Coords) : Nat := 2 * (L 1).val + (L 0).val

/-- Window `(f, w)` of the transposed result: the thousand rows of feature `f`, the 128 columns of stripe `w`. -/
def outSet (f : Fin 26) (w : Nat) : Finset S26000x4096.Idx :=
  Finset.univ.filter fun j => (j 0).val / 1000 = f.val ∧ (j 1).val / 128 = w

variable [FloatOps F]

/-- What a tile is handed: a read share of the table at its contents, and its 26 windows of the result at whatever they hold. -/
def tileGo (d : Dev nD) (tab : Buf (Elt F) (tLoc d)) (q : PosShare TreeShare) (L : grid0.Coords) (o : Buf (Elt F) (oLoc d)) : sProp 𝕄 :=
  iprop((tLoc d ↦{q} tab) ∗ bigSep Finset.univ fun f : Fin 26 => oLoc d ↦[outSet f (wid L)]{fullShare} o)

/-- What it hands back: the share, and the windows at the encoding read off the table. -/
def tileTd (d : Dev nD) (tab : Buf (Elt F) (tLoc d)) (q : PosShare TreeShare) (L : grid0.Coords) : sProp 𝕄 :=
  iprop((tLoc d ↦{q} tab) ∗ bigSep Finset.univ fun f : Fin 26 => oLoc d ↦[outSet f (wid L)]{fullShare} (Cert.Spec.outOfTable (F := F) tab))

/-- The kernel's body on the tile at `L`, on the whole arrays and the tile's scratch. -/
abbrev tileProg (L : grid0.Coords) :=
  cc0_body (F := F) L (Memref.whole main_v4_scv) (Memref.isWhole_whole _) (Memref.whole main_v5_scv) (Memref.isWhole_whole _)
    (Memref.whole cc0_scratch0) (Memref.isWhole_whole _) (Memref.whole cc0_scratch1) (Memref.isWhole_whole _)
    (Memref.whole cc0_scratch2) (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26

/-- One tile's task: from its share of the table (whose words are as the kernel needs them) and its windows, the body runs
    to its end and leaves the windows at the encoding. -/
def TileStmt : Prop :=
  ∀ (d : Dev nD) (tab : Buf (Elt F) (tLoc d)), Cert.Spec.TabOK tab → ∀ (q : PosShare TreeShare) (L : grid0.Coords) (o : Buf (Elt F) (oLoc d))
    (O : CellTallies nD τ sig (HIx 1)) (W : Waits sig (HIx 1)), (∀ g, O g none = 0) →
    iprop(levAts (K (F := F)).L (K (F := F)).lev ∗ emp ∗ tileGo d tab q L o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tileTd d tab q L ∗ scopedBufs (V d (cV L) (jV L)) ∗ scopedSems0 (V d (cV L) (jV L))
            ∗ ∃ W', ⌜∀ p ∈ W', p ∈ W ∨ p.2 = none⌝ ∗ owes (V d (cV L) (jV L)) O W')

end Cert.KIProof

end
-- ==== Proof.KI.Launch.lean ====
/-
  The launch of the one-hot kernel: from "each tile's body is proved" to the run of the whole program.

  @main builds the flat table on the TensorCore with five host operations, starts the kernel on the two SparseCores (sixteen
  tiles each), and transposes what they leave.  The table is read by all 32 tiles, so it goes out as read shares: one per
  SparseCore, each split again into its sixteen tiles' (the remainders set aside and joined back when the shares return).
  The 26000 × 4096 result is cut into the 32 · 26 windows (feature × stripe of 128 columns), which are the fibres of one
  function of the index — so they are pairwise disjoint and cover the array —; tile (c, i) owns stripe 2 i + c.  Each tile
  turns its windows into the encoding read off the table (the hypothesis), the windows join back to the whole array, and the
  final transpose gives the claim's term.
-/
import proofs.«211696_g86517821210821_cont_sun_m_1191_30_alg».proof.Proof.KI.Setup
import proofs.«211696_g86517821210821_cont_sun_m_1191_30_alg».proof.Proof.TableSpec

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## The table and the result as pure terms of the input -/

/-- The flat table as the five host operations build it from the input: the counting row 0 … 127, then the input cut into
    32 stripes of 128 rows, each stripe stored feature by feature. -/
def tabTerm {d : Dev nD} (x : Buf (Elt F) (xLoc d)) : Buf (Elt F) (tLoc d) :=
  concatenate S106624 0
    [⟨S128, iotaInDim S128 32 0⟩,
     ⟨S106496, fun i => shapeCast S106496
        (transpose S32x26x128 [0, 2, 1] (fun i => shapeCast S32x128x26 x shapeCasts_S4096x26_S32x128x26 i) transposes_S32x128x26_S32x26x128_0_2_1)
        shapeCasts_S32x26x128_S106496 i⟩]
    concatenates_S128_S106496_S106624_d0

variable (m : (ℓ : Loc nD τ sig) → Buf (Elt F) ℓ) (ρ : Dev nD → PrngReg)

/-- The table on device `d`, from the launch contents of the input. -/
abbrev tabAt (d : Dev nD) : Buf (Elt F) (tLoc d) := tabTerm (m (xLoc d))

/-- The final result on device `d`: the encoding read off the table, transposed. -/
abbrev resAt (d : Dev nD) : Buf (Elt F) (rLoc d) :=
  transpose S4096x26000 [1, 0] (Cert.Spec.outOfTable (F := F) (tabAt m d)) transposes_S26000x4096_S4096x26000_1_0

/-! ## What the handshakes carry -/

/-- The read share of the table that goes to SparseCore `c`, and of it the one that goes to its tile `i`. -/
abbrev qCore (c : ℕ) : PosShare TreeShare := Transfers.shareTokN fullShare c
abbrev qTile (c i : ℕ) : PosShare TreeShare := Transfers.shareTokN (qCore c) i

/-- The 26 windows of the tile `(c, i)`, at contents `o`. -/
def wins (d : Dev nD) (c : Fin ((K (F := F)).nCore 0)) (i : Fin ((K (F := F)).nSub 0)) (o : Buf (Elt F) (oLoc d)) : sProp 𝕄 :=
  bigSep Finset.univ fun f : Fin 26 => oLoc d ↦[outSet f (wid (coordsV c i))]{fullShare} o

/-- The one call hands SparseCore `c` its read share of the table and its sixteen tiles' windows of the result; each
    tile gets a share of that share and its own windows, and hands them back with the windows at the encoding. -/
def P : (K (F := F)).Pay (nD := nD) (Val := Elt F) (Name := ℕ) (U := UU) where
  st := fun q d c => match q with
    | 0 => iprop((tLoc d ↦{qCore c.val} tabAt m d) ∗ bigSep Finset.univ fun i : Fin ((K (F := F)).nSub 0) => wins d c i (m (oLoc d)))
  dn := fun q d c => match q with
    | 0 => iprop((tLoc d ↦{qCore c.val} tabAt m d)
        ∗ bigSep Finset.univ fun i : Fin ((K (F := F)).nSub 0) => wins d c i (Cert.Spec.outOfTable (F := F) (tabAt m d)))
  go := fun q d c i => match q with
    | 0 => tileGo d (tabAt m d) (qTile c.val i.val) (coordsV c i) (m (oLoc d))
  td := fun q d c i => match q with
    | 0 => tileTd d (tabAt m d) (qTile c.val i.val) (coordsV c i)
  x := fun _ _ => iprop(emp)

instance P_storable : (P (F := F) m).IsStorable where
  st q d c := match q with
    | 0 => by unfold P wins; infer_instance
  dn q d c := match q with
    | 0 => by unfold P wins; infer_instance
  go q d c i := match q with
    | 0 => by unfold P tileGo; infer_instance
  td q d c i := match q with
    | 0 => by unfold P tileTd; infer_instance

/-! ## The launch theorem's obligations -/

/-- The kernel's label on a tile is the body at the tile's coordinates. -/
theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task is the one statement of the body, at the tile's coordinates, share and windows. -/
theorem tileObl (htile : TileStmt (F := F)) (htab : ∀ d, Cert.Spec.TabOK (tabAt m d)) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (tabAt m d) (htab d) (qTile c.val i.val) (coordsV ⟨_, hc.1⟩ ⟨_, hc.2⟩) (m (oLoc d)) O W hO).trans
    (wp_mono frame _ _ fun _ => obl_post)

/-- A SparseCore's share of the table splits into its sixteen tiles' shares (the remainder set aside until they come
    back); its windows are already the tiles'. -/
theorem vecSplit : (K (F := F)).VecSplit' (P m) 0 := by
  intro d c
  show iprop((tLoc d ↦{qCore c.val} tabAt m d) ∗ bigSep Finset.univ fun i : Fin ((K (F := F)).nSub 0) => wins d c i (m (oLoc d)))
    ⊢ |={Set.univ}=> iprop(
      (bigSep Finset.univ fun i : Fin ((K (F := F)).nSub 0) => tileGo d (tabAt m d) (qTile c.val i.val) (coordsV c i) (m (oLoc d)))
      ∗ ((bigSep Finset.univ fun i : Fin ((K (F := F)).nSub 0) => tileTd d (tabAt m d) (qTile c.val i.val) (coordsV c i))
          -∗ iprop((tLoc d ↦{qCore c.val} tabAt m d)
            ∗ bigSep Finset.univ fun i : Fin ((K (F := F)).nSub 0) => wins d c i (Cert.Spec.outOfTable (F := F) (tabAt m d)))))
  unfold tileGo tileTd wins
  rw [bigSep_sep', bigSep_sep']
  iintro ⟨Ht, Hw⟩; imodintro
  ihave Hs := (Transfers.pointsTo_toks_split (qCore c.val) ((K (F := F)).nSub 0)) $$ Ht
  icases Hs with ⟨Hdrop, Htoks⟩
  isplitl [Htoks Hw]
  · isplitl [Htoks]; · iexact Htoks
    iexact Hw
  iintro ⟨Htoks, Hw⟩
  isplitl [Hdrop Htoks]
  · iapply (Transfers.pointsTo_toks_join (qCore c.val) ((K (F := F)).nSub 0))
    isplitl [Hdrop]; · iexact Hdrop
    iexact Htoks
  iexact Hw

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The result array as its 32 · 26 windows -/

/-- The window of tile `(c, i)` for feature `f`. -/
abbrev winSet (t : Fin ((K (F := F)).nCore 0) × Fin ((K (F := F)).nSub 0) × Fin 26) : Finset S26000x4096.Idx :=
  outSet t.2.2 (wid (coordsV t.1 t.2.1))

omit [FloatOps F] in
theorem wid_coordsV (c : Fin ((K (F := F)).nCore 0)) (i : Fin ((K (F := F)).nSub 0)) : wid (coordsV c i) = 2 * i.val + c.val := rfl

omit [FloatOps F] in
theorem mem_winSet (t : Fin ((K (F := F)).nCore 0) × Fin ((K (F := F)).nSub 0) × Fin 26) (j : S26000x4096.Idx) :
    j ∈ winSet (F := F) t ↔ (j 0).val / 1000 = t.2.2.val ∧ (j 1).val / 128 = 2 * t.2.1.val + t.1.val := by
  unfold winSet outSet
  rw [wid_coordsV, Finset.mem_filter]
  exact ⟨fun h => h.2, fun h => ⟨Finset.mem_univ _, h⟩⟩

omit [FloatOps F] in
/-- Two different windows share no element: an element's feature and stripe determine its window, and a stripe number
    `2 i + c` with `c < 2` determines `i` and `c`. -/
theorem wins_disjoint : ∀ t ∈ (Finset.univ : Finset (Fin ((K (F := F)).nCore 0) × Fin ((K (F := F)).nSub 0) × Fin 26)),
    ∀ t' ∈ (Finset.univ : Finset (Fin ((K (F := F)).nCore 0) × Fin ((K (F := F)).nSub 0) × Fin 26)),
    t ≠ t' → Disjoint (winSet (F := F) t) (winSet (F := F) t') := by
  intro t _ t' _ hne
  refine Finset.disjoint_left.mpr fun j h1 h2 => hne ?_
  rw [mem_winSet] at h1 h2
  obtain ⟨c, i, f⟩ := t; obtain ⟨c', i', f'⟩ := t'
  have hc : c.val < 2 := c.isLt
  have hc' : c'.val < 2 := c'.isLt
  have e1 : f = f' := Fin.ext (h1.1.symm.trans h2.1)
  have e2 : 2 * i.val + c.val = 2 * i'.val + c'.val := h1.2.symm.trans h2.2
  have e3 : c = c' := Fin.ext (by omega)
  have e4 : i = i' := Fin.ext (by omega)
  rw [e1, e3, e4]

omit [FloatOps F] in
/-- Every element lies in a window: its row is below 26000, so its feature is below 26; its column is below 4096, so its
    stripe is below 32. -/
theorem wins_cover : (Finset.univ : Finset (Fin ((K (F := F)).nCore 0) × Fin ((K (F := F)).nSub 0) × Fin 26)).biUnion (winSet (F := F)) = Finset.univ := by
  refine Finset.eq_univ_iff_forall.mpr fun j => Finset.mem_biUnion.mpr ?_
  have h0 : (j 0).val < 26000 := (j 0).isLt
  have h1 : (j 1).val < 4096 := (j 1).isLt
  have hC : (K (F := F)).nCore 0 = 2 := rfl
  have hS : (K (F := F)).nSub 0 = 16 := rfl
  refine ⟨(⟨(j 1).val / 128 % 2, by omega⟩, ⟨(j 1).val / 128 / 2, by omega⟩, ⟨(j 0).val / 1000, by omega⟩), Finset.mem_univ _, ?_⟩
  rw [mem_winSet]
  dsimp only
  omega

/-- The result array whole is its 2 · 16 · 26 windows. -/
theorem o_split (d : Dev nD) (o : Buf (Elt F) (oLoc d)) :
    (oLoc d ↦{fullShare} o : sProp 𝕄)
      = bigSep Finset.univ fun c : Fin ((K (F := F)).nCore 0) => bigSep Finset.univ fun i : Fin ((K (F := F)).nSub 0) => wins d c i o := by
  have e : (bigSep Finset.univ fun c : Fin ((K (F := F)).nCore 0) => bigSep Finset.univ fun i : Fin ((K (F := F)).nSub 0) => wins d c i o)
      = bigSep Finset.univ fun t : Fin ((K (F := F)).nCore 0) × Fin ((K (F := F)).nSub 0) × Fin 26 =>
          (oLoc d ↦[winSet (F := F) t]{fullShare} o : sProp 𝕄) := by
    rw [bigSep_univ_prod]
    refine bigSep_congr fun c _ => ?_
    rw [bigSep_univ_prod]; rfl
  rw [e, ← pointsTo_biUnion Finset.univ (ℓ := oLoc d) (winSet (F := F)) wins_disjoint, wins_cover]

/-- What @main leaves the claim: the result at the transposed encoding, the input at its launch contents. -/
abbrev FIN (d : Dev nD) : sProp 𝕄 := iprop((rLoc d ↦{fullShare} resAt m d) ∗ xLoc d ↦{fullShare} m (xLoc d))

def fq (d : Dev nD) (s' : Phys nD τ sig (Elt F)) : Prop := s'.mem.mem (rLoc d) = resAt m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hr, Hx⟩, HSI⟩
  ihave H := (persistent_entails_right (SI_pointsTo_agree (st := s') (ℓ := rLoc d) (I := Finset.univ) (q := fullShare) (f := resAt m d))) $$ [HSI Hr]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## @main on the TensorCore -/

abbrev x' : DevRef τ sig := Proc.devRef .tc (main_arg0 : Ref sig .tc)
abbrev a' : DevRef τ sig := Proc.devRef .tc (main_v0 : Ref sig .tc)
abbrev b' : DevRef τ sig := Proc.devRef .tc (main_v1 : Ref sig .tc)
abbrev c' : DevRef τ sig := Proc.devRef .tc (main_v2 : Ref sig .tc)
abbrev e' : DevRef τ sig := Proc.devRef .tc (main_v3 : Ref sig .tc)
abbrev t' : DevRef τ sig := Proc.devRef .tc (main_v4 : Ref sig .tc)
abbrev o' : DevRef τ sig := Proc.devRef .tc (main_v5 : Ref sig .tc)
abbrev r' : DevRef τ sig := Proc.devRef .tc (main_v6 : Ref sig .tc)

/-- The host operations, as @main spells them: the five that build the table, and the final transpose. -/
abbrev op0 : HloOp τ sig (Elt F) := StableHlo.nullary main_v0 (iotaInDim S128 32 0)
abbrev op1 : HloOp τ sig (Elt F) := StableHlo.reshape main_arg0 main_v1 rfl shapeCasts_S4096x26_S32x128x26
abbrev op2 : HloOp τ sig (Elt F) := StableHlo.unary main_v1 main_v2 ((transpose S32x26x128 [0, 2, 1] · transposes_S32x128x26_S32x26x128_0_2_1) : (⟨S32x128x26, .i32⟩ : BufTy).Contents (Elt F) → (⟨S32x26x128, .i32⟩ : BufTy).Contents (Elt F))
abbrev op3 : HloOp τ sig (Elt F) := StableHlo.reshape main_v2 main_v3 rfl shapeCasts_S32x26x128_S106496
abbrev op4 : HloOp τ sig (Elt F) := StableHlo.binary main_v0 main_v3 main_v4 ((fun a b => concatenate S106624 0 [⟨S128, a⟩, ⟨S106496, b⟩] concatenates_S128_S106496_S106624_d0) : (⟨S128, .i32⟩ : BufTy).Contents (Elt F) → (⟨S106496, .i32⟩ : BufTy).Contents (Elt F) → (⟨S106624, .i32⟩ : BufTy).Contents (Elt F))
abbrev op6 : HloOp τ sig (Elt F) := StableHlo.unary main_v5 main_v6 ((transpose S4096x26000 [1, 0] · transposes_S26000x4096_S4096x26000_1_0) : (⟨S26000x4096, .f32⟩ : BufTy).Contents (Elt F) → (⟨S4096x26000, .f32⟩ : BufTy).Contents (Elt F))
abbrev ops5 : List (HloOp τ sig (Elt F)) := [op0, op1, op2, op3, op4]

/-- @main is the five operations in a line, then the call, then the transpose. -/
theorem main_eq (d : Dev nD) : main (F := F) d = (StableHlo.seq (ops5 (F := F)) >>= fun _ => (do
    (K (F := F)).run d 0
    hlo rfl (op6 (F := F)) (fun _ => .ret ⟨⟩)
    pure ⟨⟩)) := rfl

/-- The TensorCore's arrays, all unscoped: the four the claim and the call speak of, and the four intermediate ones. -/
abbrev S4 : Finset (DevRef τ sig) := {a', b', c', e'}
abbrev S8 : Finset (DevRef τ sig) := insert x' (insert t' (insert o' (insert r' S4)))
abbrev S2 : Finset (DevRef τ sig) := {o', r'}

theorem hbufs : ∀ op ∈ ops5 (F := F), op.bufs ⊆ S8 := by
  intro op hop
  simp only [List.mem_cons, List.not_mem_nil, or_false] at hop
  rcases hop with rfl | rfl | rfl | rfl | rfl
  · exact show ({a'} : Finset (DevRef τ sig)) ⊆ S8 by decide
  · exact show ({x', b'} : Finset (DevRef τ sig)) ⊆ S8 by decide
  · exact show ({b', c'} : Finset (DevRef τ sig)) ⊆ S8 by decide
  · exact show ({c', e'} : Finset (DevRef τ sig)) ⊆ S8 by decide
  · exact show ({a', e', t'} : Finset (DevRef τ sig)) ⊆ S8 by decide

theorem hfresh : ∀ op ∈ ops5 (F := F), op.fresh = ∅ := by
  intro op hop
  simp only [List.mem_cons, List.not_mem_nil, or_false] at hop
  rcases hop with rfl | rfl | rfl | rfl | rfl <;> rfl

theorem h6 : (op6 (F := F)).bufs ⊆ S2 := show ({o', r'} : Finset (DevRef τ sig)) ⊆ S2 by decide

/-- The launch valuation. -/
def V0 (d : Dev nD) : Valuation τ sig (Elt F) := fun b => m (d, b)

omit [FloatOps F] in
theorem held_S8 (d : Dev nD) (W : Valuation τ sig (Elt F)) :
    (held (T d) S8 W : sProp 𝕄) = iprop((xLoc d ↦{fullShare} W x') ∗ (tLoc d ↦{fullShare} W t') ∗ (oLoc d ↦{fullShare} W o') ∗ (rLoc d ↦{fullShare} W r')
      ∗ held (T d) S4 W) := by
  unfold held S8
  rw [SparseCore.bigSep_insert' (by decide), SparseCore.bigSep_insert' (by decide), SparseCore.bigSep_insert' (by decide), SparseCore.bigSep_insert' (by decide)]

omit [FloatOps F] in
theorem held_S4 (d : Dev nD) (W : Valuation τ sig (Elt F)) :
    (held (T d) S4 W : sProp 𝕄) = iprop(((SparseCore.T d).loc main_v0 ↦{fullShare} W a') ∗ ((SparseCore.T d).loc main_v1 ↦{fullShare} W b')
      ∗ ((SparseCore.T d).loc main_v2 ↦{fullShare} W c') ∗ (SparseCore.T d).loc main_v3 ↦{fullShare} W e') := by
  unfold held S4
  rw [SparseCore.bigSep_insert' (by decide), SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_v4) ∗ (oLoc d ↦{fullShare} W main_v5) ∗ (rLoc d ↦{fullShare} W main_v6)
      ∗ ((SparseCore.T d).loc main_v0 ↦{fullShare} W main_v0) ∗ ((SparseCore.T d).loc main_v1 ↦{fullShare} W main_v1)
      ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_v4, main_v5, main_v6, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8, held_S4]; rfl

open Idealize.ShloMosaic.StableHlo in
theorem after_t (d : Dev nD) : StableHlo.after (ops5 (F := F)) (V0 m d) t' = tabAt m d := by
  after_results
  rfl
open Idealize.ShloMosaic.StableHlo in
theorem after_x (d : Dev nD) : StableHlo.after (ops5 (F := F)) (V0 m d) x' = m (xLoc d) := by
  after_results
  rfl
open Idealize.ShloMosaic.StableHlo in
theorem after_o (d : Dev nD) : StableHlo.after (ops5 (F := F)) (V0 m d) o' = m (oLoc d) := by
  after_results
  rfl
open Idealize.ShloMosaic.StableHlo in
theorem after_r (d : Dev nD) : StableHlo.after (ops5 (F := F)) (V0 m d) r' = m (rLoc d) := by
  after_results
  rfl

/-- After the five operations: the input untouched, the table built, the two result arrays as launched. -/
theorem held_after (d : Dev nD) :
    (held (T d) S8 (StableHlo.after (ops5 (F := F)) (V0 m d)) : sProp 𝕄)
      = iprop((xLoc d ↦{fullShare} m (xLoc d)) ∗ (tLoc d ↦{fullShare} tabAt m d) ∗ (oLoc d ↦{fullShare} m (oLoc d)) ∗ (rLoc d ↦{fullShare} m (rLoc d))
        ∗ held (T d) S4 (StableHlo.after (ops5 (F := F)) (V0 m d))) := by
  rw [held_S8, after_x, after_t, after_o, after_r]

/-- The arrays the transpose touches, once the call is back: the kernel's result at the encoding. -/
def V6 (d : Dev nD) : Valuation τ sig (Elt F) := Function.update (V0 m d) o' (Cert.Spec.outOfTable (F := F) (tabAt m d))
theorem V6_o (d : Dev nD) : V6 m d o' = Cert.Spec.outOfTable (F := F) (tabAt m d) := Function.update_self _ _ _
theorem V6_r (d : Dev nD) : V6 m d r' = m (rLoc d) := Function.update_of_ne (show r' ≠ o' by decide) _ _

theorem held_V7 (d : Dev nD) :
    (held (T d) S2 ((op6 (F := F)).result (V6 m d)) : sProp 𝕄)
      = iprop((oLoc d ↦{fullShare} (op6 (F := F)).result (V6 m d) o') ∗ rLoc d ↦{fullShare} resAt m d) := by
  rw [held_S2, StableHlo.unary_result, V6_o]

/-- What the call takes for the two SparseCores — the two read shares of the table and the result array whole — and what it
    hands back. -/
theorem st0_eq (d : Dev nD) : (bigSep Finset.univ fun c : Fin ((K (F := F)).nCore 0) => (P m).st 0 d c)
    = iprop((bigSep Finset.univ fun c : Fin ((K (F := F)).nCore 0) => tLoc d ↦{Transfers.shareTok fullShare ((K (F := F)).nCore 0) c} tabAt m d)
        ∗ oLoc d ↦{fullShare} m (oLoc d)) := by
  rw [o_split]
  show (bigSep Finset.univ fun c : Fin ((K (F := F)).nCore 0) => iprop((tLoc d ↦{qCore c.val} tabAt m d)
    ∗ bigSep Finset.univ fun i : Fin ((K (F := F)).nSub 0) => wins d c i (m (oLoc d)))) = _
  rw [bigSep_sep']
theorem dn0_eq (d : Dev nD) : (bigSep Finset.univ fun c : Fin ((K (F := F)).nCore 0) => (P m).dn 0 d c)
    = iprop((bigSep Finset.univ fun c : Fin ((K (F := F)).nCore 0) => tLoc d ↦{Transfers.shareTok fullShare ((K (F := F)).nCore 0) c} tabAt m d)
        ∗ oLoc d ↦{fullShare} Cert.Spec.outOfTable (F := F) (tabAt m d)) := by
  rw [o_split]
  show (bigSep Finset.univ fun c : Fin ((K (F := F)).nCore 0) => iprop((tLoc d ↦{qCore c.val} tabAt m d)
    ∗ bigSep Finset.univ fun i : Fin ((K (F := F)).nSub 0) => wins d c i (Cert.Spec.outOfTable (F := F) (tabAt m d)))) = _
  rw [bigSep_sep']

/-- @main on device `d`'s TensorCore: the five operations in a line (the table built), the call (the table out as two read
    shares, the result array whole, both back with the result at the encoding), the transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S8 _ (ops5 (F := F)) hbufs hfresh (V0 m d)) $$ [Hb Hheld]
  · isplitl [Hb]; · iexact Hb
    iexact Hheld
  iintro ⟨Hb, Hheld⟩
  ihave Hh := (Entails.of_eq (held_after m d)) $$ Hheld
  icases Hh with ⟨Hx, Ht, Ho, Hr, -⟩
  simp only [wp_bind, wp_pure]
  -- the call: the table as two read shares, the result array whole
  ihave Hs := (Transfers.pointsTo_toks_split fullShare ((K (F := F)).nCore 0)) $$ Ht
  icases Hs with ⟨Hdrop, Htoks⟩
  iapply ((K (F := F)).wp_run (D (F := F)) 𝒱 (EH := EH) (P := P m) κ d 0) $$ [Hst Htoks Ho Hb Hx Hr]
  isplitr; · iexact Hctx
  isplitl [Hst]; · iexact Hst
  isplitl [Htoks Ho]
  · rw [st0_eq]
    isplitl [Htoks]; · iexact Htoks
    iexact Ho
  iintro ⟨Hst, Hdn⟩
  ihave Hdn' := (Entails.of_eq (dn0_eq m d)) $$ Hdn
  icases Hdn' with ⟨-, Ho⟩
  -- the transpose, over the kernel's result and the final one
  iapply (wp_hlo_within 𝒱 (SparseCore.T d) none Set.univ (op := op6) (S := S2) h6 (V := V6 m d)) $$ [Hb Ho Hr]
  · isplitl [Hb]; · iexact Hb
    rw [held_S2, V6_o, V6_r]
    isplitl [Ho]; · iexact Ho
    iexact Hr
  iintro ⟨Hb, Hheld⟩
  ihave Hh := (Entails.of_eq (held_V7 m d)) $$ Hheld
  icases Hh with ⟨-, Hr⟩
  rw [wp_ret]; imodintro; imodintro
  isplitl [Hst]; · iexact Hst
  isplitl [Hr]; · iexact Hr
  iexact Hx

/-! ## The program's run -/

/-- Every weakly fair execution of the whole program terminates, and at its end the result array holds the one-hot encoding
    read off the table (transposed back to batch-major), the input what it held at the launch. -/
theorem run_main_term [∀ e, Nonempty (Elt F e)] (htile : TileStmt (F := F)) (htab : ∀ d, Cert.Spec.TabOK (tabTerm (m (xLoc d)))) :
    θ_run (Cert.KernelIdeal.defs (F := F)) (Cert.KernelIdeal.threads (F := F)) ⟨m, fun _ => 0, ρ⟩ (fun r => ∀ c : Dev nD,
      r.2.mem (rLoc c) = transpose S4096x26000 [1, 0] (Cert.Spec.outOfTable (F := F) (tabTerm (m (xLoc c)))) transposes_S26000x4096_S4096x26000_1_0
      ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m htile htab)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

/-- The table term is the specification's table of the input: the same operations at the same shapes. -/
theorem tabTerm_eq {d : Dev nD} (x : Buf (Elt F) (xLoc d)) : tabTerm x = Cert.Spec.tabOf x := rfl

/-- The same run, the table named as the specification's table of the input. -/
theorem run_main [∀ e, Nonempty (Elt F e)] (htile : TileStmt (F := F)) (htab : ∀ d, Cert.Spec.TabOK (Cert.Spec.tabOf (m (xLoc d)))) :
    θ_run (Cert.KernelIdeal.defs (F := F)) (Cert.KernelIdeal.threads (F := F)) ⟨m, fun _ => 0, ρ⟩ (fun r => ∀ c : Dev nD,
      r.2.mem (rLoc c) = transpose S4096x26000 [1, 0] (Cert.Spec.outOfTable (F := F) (Cert.Spec.tabOf (m (xLoc c)))) transposes_S26000x4096_S4096x26000_1_0
      ∧ r.2.mem (xLoc c) = m (xLoc c)) :=
  run_main_term m ρ htile htab

end Cert.KIProof

end
-- ==== Proof.KI.Views.lean ====
/-
  The kernel's memory windows read as plain index arithmetic: sixteen lanes of a 128-word scratch at an offset, 128 words
  of the flat table at an offset, and the 1000 × 128 window of the transposed result that belongs to a feature and a stripe.
-/
import proofs.«211696_g86517821210821_cont_sun_m_1191_30_alg».proof.Proof.KI.Setup
import proofs.«211696_g86517821210821_cont_sun_m_1191_30_alg».proof.Proof.ScatterBand
import proofs.«211696_g86517821210821_cont_sun_m_1191_30_alg».proof.Proof.BandFull
import Idealize.ShloMosaic.Lib.ValueIdx

noncomputable section

namespace Cert.KIProof

open Cert.KernelIdeal
open Idealize.ShloMosaic Idealize.ShloMosaic.ValueIdx

variable {F : FTy → Type} [FloatOps F]

/-! ## Sixteen lanes of a 128-word scratch -/

/-- Lane `k` of the sixteen at offset `off` is lane `off + k` of the 128. -/
theorem lanes_idx (off : Nat) (hin : ∀ a, (![off] : Fin 1 → Nat) a + S16.size a ≤ S128.size a) (k : S16.Idx)
    (hlt : off + (k 0).val < 128) :
    (Rect.unit (s := S128) ![off] S16.size hin).toLoadRect.idx k = ix1 ⟨off + (k 0).val, hlt⟩ := by
  funext a
  apply Fin.ext
  rw [LoadRect.idx_apply, Subsingleton.elim a 0]
  show off + 1 * (k 0).val = off + (k 0).val
  rw [Nat.one_mul]

/-- Sixteen lanes loaded from the second scratch at offset `off`. -/
theorem scratch1_readAt (xb : (Memref.whole cc0_scratch1 : Memref sig .scVector .vmem S128 .i32).view.ty.Contents (Elt F))
    (off : Nat) (hin : ∀ a, (![off] : Fin 1 → Nat) a + S16.size a ≤ S128.size a) (k : S16.Idx)
    (hlt : off + (k 0).val < 128) :
    (Memref.whole cc0_scratch1 : Memref sig .scVector .vmem S128 .i32).view.readAt (Elt F)
      (Rect.unit (s := S128) ![off] S16.size hin).toLoadRect xb k = xb (ix1 ⟨off + (k 0).val, hlt⟩) := by
  simp only [View.readAt_apply, Memref.view_whole, View.read_whole]
  rw [lanes_idx off hin k hlt]

/-- Sixteen lanes loaded from the first scratch at offset `off`. -/
theorem scratch0_readAt (lh : (Memref.whole cc0_scratch0 : Memref sig .scVector .vmem S128 .i32).view.ty.Contents (Elt F))
    (off : Nat) (hin : ∀ a, (![off] : Fin 1 → Nat) a + S16.size a ≤ S128.size a) (k : S16.Idx)
    (hlt : off + (k 0).val < 128) :
    (Memref.whole cc0_scratch0 : Memref sig .scVector .vmem S128 .i32).view.readAt (Elt F)
      (Rect.unit (s := S128) ![off] S16.size hin).toLoadRect lh k = lh (ix1 ⟨off + (k 0).val, hlt⟩) := by
  simp only [View.readAt_apply, Memref.view_whole, View.read_whole]
  rw [lanes_idx off hin k hlt]

/-! ## 128 words of the flat table -/

/-- Word `l` of the 128 at offset `soff` is word `soff + l` of the table. -/
theorem table_slice_read (tab : (Memref.whole main_v4_scv : Memref sig .scVector .hbm S106624 .i32).view.ty.Contents (Elt F))
    (soffv : Fin 1 → Nat) (sinb : ∀ a, soffv a + S128.size a ≤ S106624.size a) (l : S128.Idx)
    (soff : Nat) (hs : soffv 0 = soff) (hlt : soff + (l 0).val < 106624) :
    ((Memref.whole main_v4_scv : Memref sig .scVector .hbm S106624 .i32).slice
        (Rect.unit (s := S106624) soffv S128.size sinb) (fun _ => rfl)).view.read (Elt F) tab l
      = tab (ix1 ⟨soff + (l 0).val, hlt⟩) := by
  show tab ((Rect.unit (s := S106624) soffv S128.size sinb).emb l) = _
  refine congrArg tab ?_
  funext a
  apply Fin.ext
  rw [Rect.emb_apply, Subsingleton.elim a 0]
  show soffv 0 + 1 * (l 0).val = soff + (l 0).val
  rw [Nat.one_mul, hs]

/-! ## The window of the transposed result that belongs to feature `f` and stripe `w` -/

section Window
variable (f : Fin 26) (w : Nat) (hw : w < 32) (doff : Fin 2 → Nat)
  (dinb : ∀ a, doff a + S1000x128.size a ≤ S26000x4096.size a) (h0 : doff 0 = 1000 * f.val) (h1 : doff 1 = 128 * w)

/-- The window as the kernel names it. -/
abbrev outWin : Memref sig .scVector .hbm S1000x128 .f32 :=
  (Memref.whole main_v5_scv : Memref sig .scVector .hbm S26000x4096 .f32).slice
    (Rect.unit (s := S26000x4096) doff S1000x128.size dinb) (fun _ => rfl)

include h0 h1

/-- Element `(r, l)` of the window is element `(1000 f + r, 128 w + l)` of the result. -/
theorem outWin_emb (y : S1000x128.Idx) (hr : 1000 * f.val + (y 0).val < 26000) (hc : 128 * w + (y 1).val < 4096) :
    (outWin doff dinb).view.emb y = ix2 ⟨1000 * f.val + (y 0).val, hr⟩ ⟨128 * w + (y 1).val, hc⟩ := by
  show (Rect.unit (s := S26000x4096) doff S1000x128.size dinb).emb y = _
  funext a
  apply Fin.ext
  rw [Rect.emb_apply]
  match a with
  | ⟨0, _⟩ =>
    show doff 0 + 1 * (y 0).val = 1000 * f.val + (y 0).val
    rw [Nat.one_mul, h0]
  | ⟨1, _⟩ =>
    show doff 1 + 1 * (y 1).val = 128 * w + (y 1).val
    rw [Nat.one_mul, h1]

/-- The window's elements: rows of feature `f`, columns of stripe `w`. -/
theorem outWin_set : (outWin doff dinb).view.set = outSet f w := by
  refine (View.set_slice_whole (main_v5_scv : Ref sig .scVector)
    (Rect.unit (s := S26000x4096) doff S1000x128.size dinb)).trans ?_
  ext j
  have hj0 : (j 0).val < 26000 := idx2_lt0 j
  have hj1 : (j 1).val < 4096 := idx2_lt1 j
  rw [Rect.mem_set_unit]
  show (∀ a : Fin 2, doff a ≤ (j a).val ∧ (j a).val < doff a + S1000x128.size a) ↔ _
  rw [Fin.forall_fin_two]
  unfold outSet
  rw [Finset.mem_filter]
  show (doff 0 ≤ (j 0).val ∧ (j 0).val < doff 0 + 1000) ∧ (doff 1 ≤ (j 1).val ∧ (j 1).val < doff 1 + 128) ↔ _
  rw [h0, h1]
  constructor
  · rintro ⟨⟨a1, a2⟩, b1, b2⟩
    exact ⟨Finset.mem_univ _, by omega, by omega⟩
  · rintro ⟨_, a, b⟩
    have := f.isLt
    exact ⟨⟨by omega, by omega⟩, by omega, by omega⟩

end Window

end Cert.KIProof

end
-- ==== Proof.KI.TileRes.lean ====
/-
  What a tile owns while its task runs, taken apart and put back: its three scratch buffers, each at some contents, and its
  28 transfer semaphores, each at zero; and, feature by feature, where in the table and in the result the kernel's
  windows lie, as functions of the tile's stripe.
-/
import proofs.«211696_g86517821210821_cont_sun_m_1191_30_alg».proof.Proof.KI.Setup

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The stripe, and where each feature's windows lie -/

/-- A tile's stripe is one of the 32. -/
theorem wid_lt (L : grid0.Coords) : wid L < 32 := by
  have h0 : (L 0).val < 2 := (L 0).isLt
  have h1 : (L 1).val < 16 := (L 1).isLt
  unfold wid
  omega

theorem toff0 (L : grid0.Coords) : (k0_off9 L) 0 = 128 + (wid L * 26 + (0 : Fin 26).val) * 128 := by
  rw [Gen.k0_off9_eq]
  show 6656 * (L 1).val + 3328 * (L 0).val + 128 = 128 + ((2 * (L 1).val + (L 0).val) * 26 + 0) * 128
  omega
theorem ooff0 (L : grid0.Coords) : (k0_off10 L) 0 = 1000 * (0 : Fin 26).val ∧ (k0_off10 L) 1 = 128 * wid L := by
  rw [Gen.k0_off10_eq]
  refine ⟨?_, ?_⟩
  · show 0 = 1000 * 0
    rfl
  · show 256 * (L 1).val + 128 * (L 0).val = 128 * (2 * (L 1).val + (L 0).val)
    omega
theorem toff1 (L : grid0.Coords) : (k0_off11 L) 0 = 128 + (wid L * 26 + (1 : Fin 26).val) * 128 := by
  rw [Gen.k0_off11_eq]
  show 6656 * (L 1).val + 3328 * (L 0).val + 256 = 128 + ((2 * (L 1).val + (L 0).val) * 26 + 1) * 128
  omega
theorem ooff1 (L : grid0.Coords) : (k0_off12 L) 0 = 1000 * (1 : Fin 26).val ∧ (k0_off12 L) 1 = 128 * wid L := by
  rw [Gen.k0_off12_eq]
  refine ⟨?_, ?_⟩
  · show 1000 = 1000 * 1
    rfl
  · show 256 * (L 1).val + 128 * (L 0).val = 128 * (2 * (L 1).val + (L 0).val)
    omega
theorem toff2 (L : grid0.Coords) : (k0_off13 L) 0 = 128 + (wid L * 26 + (2 : Fin 26).val) * 128 := by
  rw [Gen.k0_off13_eq]
  show 6656 * (L 1).val + 3328 * (L 0).val + 384 = 128 + ((2 * (L 1).val + (L 0).val) * 26 + 2) * 128
  omega
theorem ooff2 (L : grid0.Coords) : (k0_off14 L) 0 = 1000 * (2 : Fin 26).val ∧ (k0_off14 L) 1 = 128 * wid L := by
  rw [Gen.k0_off14_eq]
  refine ⟨?_, ?_⟩
  · show 2000 = 1000 * 2
    rfl
  · show 256 * (L 1).val + 128 * (L 0).val = 128 * (2 * (L 1).val + (L 0).val)
    omega
theorem toff3 (L : grid0.Coords) : (k0_off15 L) 0 = 128 + (wid L * 26 + (3 : Fin 26).val) * 128 := by
  rw [Gen.k0_off15_eq]
  show 6656 * (L 1).val + 3328 * (L 0).val + 512 = 128 + ((2 * (L 1).val + (L 0).val) * 26 + 3) * 128
  omega
theorem ooff3 (L : grid0.Coords) : (k0_off16 L) 0 = 1000 * (3 : Fin 26).val ∧ (k0_off16 L) 1 = 128 * wid L := by
  rw [Gen.k0_off16_eq]
  refine ⟨?_, ?_⟩
  · show 3000 = 1000 * 3
    rfl
  · show 256 * (L 1).val + 128 * (L 0).val = 128 * (2 * (L 1).val + (L 0).val)
    omega
theorem toff4 (L : grid0.Coords) : (k0_off17 L) 0 = 128 + (wid L * 26 + (4 : Fin 26).val) * 128 := by
  rw [Gen.k0_off17_eq]
  show 6656 * (L 1).val + 3328 * (L 0).val + 640 = 128 + ((2 * (L 1).val + (L 0).val) * 26 + 4) * 128
  omega
theorem ooff4 (L : grid0.Coords) : (k0_off18 L) 0 = 1000 * (4 : Fin 26).val ∧ (k0_off18 L) 1 = 128 * wid L := by
  rw [Gen.k0_off18_eq]
  refine ⟨?_, ?_⟩
  · show 4000 = 1000 * 4
    rfl
  · show 256 * (L 1).val + 128 * (L 0).val = 128 * (2 * (L 1).val + (L 0).val)
    omega
theorem toff5 (L : grid0.Coords) : (k0_off19 L) 0 = 128 + (wid L * 26 + (5 : Fin 26).val) * 128 := by
  rw [Gen.k0_off19_eq]
  show 6656 * (L 1).val + 3328 * (L 0).val + 768 = 128 + ((2 * (L 1).val + (L 0).val) * 26 + 5) * 128
  omega
theorem ooff5 (L : grid0.Coords) : (k0_off20 L) 0 = 1000 * (5 : Fin 26).val ∧ (k0_off20 L) 1 = 128 * wid L := by
  rw [Gen.k0_off20_eq]
  refine ⟨?_, ?_⟩
  · show 5000 = 1000 * 5
    rfl
  · show 256 * (L 1).val + 128 * (L 0).val = 128 * (2 * (L 1).val + (L 0).val)
    omega
theorem toff6 (L : grid0.Coords) : (k0_off21 L) 0 = 128 + (wid L * 26 + (6 : Fin 26).val) * 128 := by
  rw [Gen.k0_off21_eq]
  show 6656 * (L 1).val + 3328 * (L 0).val + 896 = 128 + ((2 * (L 1).val + (L 0).val) * 26 + 6) * 128
  omega
theorem ooff6 (L : grid0.Coords) : (k0_off22 L) 0 = 1000 * (6 : Fin 26).val ∧ (k0_off22 L) 1 = 128 * wid L := by
  rw [Gen.k0_off22_eq]
  refine ⟨?_, ?_⟩
  · show 6000 = 1000 * 6
    rfl
  · show 256 * (L 1).val + 128 * (L 0).val = 128 * (2 * (L 1).val + (L 0).val)
    omega
theorem toff7 (L : grid0.Coords) : (k0_off23 L) 0 = 128 + (wid L * 26 + (7 : Fin 26).val) * 128 := by
  rw [Gen.k0_off23_eq]
  show 6656 * (L 1).val + 3328 * (L 0).val + 1024 = 128 + ((2 * (L 1).val + (L 0).val) * 26 + 7) * 128
  omega
theorem ooff7 (L : grid0.Coords) : (k0_off24 L) 0 = 1000 * (7 : Fin 26).val ∧ (k0_off24 L) 1 = 128 * wid L := by
  rw [Gen.k0_off24_eq]
  refine ⟨?_, ?_⟩
  · show 7000 = 1000 * 7
    rfl
  · show 256 * (L 1).val + 128 * (L 0).val = 128 * (2 * (L 1).val + (L 0).val)
    omega
theorem toff8 (L : grid0.Coords) : (k0_off25 L) 0 = 128 + (wid L * 26 + (8 : Fin 26).val) * 128 := by
  rw [Gen.k0_off25_eq]
  show 6656 * (L 1).val + 3328 * (L 0).val + 1152 = 128 + ((2 * (L 1).val + (L 0).val) * 26 + 8) * 128
  omega
theorem ooff8 (L : grid0.Coords) : (k0_off26 L) 0 = 1000 * (8 : Fin 26).val ∧ (k0_off26 L) 1 = 128 * wid L := by
  rw [Gen.k0_off26_eq]
  refine ⟨?_, ?_⟩
  · show 8000 = 1000 * 8
    rfl
  · show 256 * (L 1).val + 128 * (L 0).val = 128 * (2 * (L 1).val + (L 0).val)
    omega
theorem toff9 (L : grid0.Coords) : (k0_off27 L) 0 = 128 + (wid L * 26 + (9 : Fin 26).val) * 128 := by
  rw [Gen.k0_off27_eq]
  show 6656 * (L 1).val + 3328 * (L 0).val + 1280 = 128 + ((2 * (L 1).val + (L 0).val) * 26 + 9) * 128
  omega
theorem ooff9 (L : grid0.Coords) : (k0_off28 L) 0 = 1000 * (9 : Fin 26).val ∧ (k0_off28 L) 1 = 128 * wid L := by
  rw [Gen.k0_off28_eq]
  refine ⟨?_, ?_⟩
  · show 9000 = 1000 * 9
    rfl
  · show 256 * (L 1).val + 128 * (L 0).val = 128 * (2 * (L 1).val + (L 0).val)
    omega
theorem toff10 (L : grid0.Coords) : (k0_off29 L) 0 = 128 + (wid L * 26 + (10 : Fin 26).val) * 128 := by
  rw [Gen.k0_off29_eq]
  show 6656 * (L 1).val + 3328 * (L 0).val + 1408 = 128 + ((2 * (L 1).val + (L 0).val) * 26 + 10) * 128
  omega
theorem ooff10 (L : grid0.Coords) : (k0_off30 L) 0 = 1000 * (10 : Fin 26).val ∧ (k0_off30 L) 1 = 128 * wid L := by
  rw [Gen.k0_off30_eq]
  refine ⟨?_, ?_⟩
  · show 10000 = 1000 * 10
    rfl
  · show 256 * (L 1).val + 128 * (L 0).val = 128 * (2 * (L 1).val + (L 0).val)
    omega
theorem toff11 (L : grid0.Coords) : (k0_off31 L) 0 = 128 + (wid L * 26 + (11 : Fin 26).val) * 128 := by
  rw [Gen.k0_off31_eq]
  show 6656 * (L 1).val + 3328 * (L 0).val + 1536 = 128 + ((2 * (L 1).val + (L 0).val) * 26 + 11) * 128
  omega
theorem ooff11 (L : grid0.Coords) : (k0_off32 L) 0 = 1000 * (11 : Fin 26).val ∧ (k0_off32 L) 1 = 128 * wid L := by
  rw [Gen.k0_off32_eq]
  refine ⟨?_, ?_⟩
  · show 11000 = 1000 * 11
    rfl
  · show 256 * (L 1).val + 128 * (L 0).val = 128 * (2 * (L 1).val + (L 0).val)
    omega
theorem toff12 (L : grid0.Coords) : (k0_off33 L) 0 = 128 + (wid L * 26 + (12 : Fin 26).val) * 128 := by
  rw [Gen.k0_off33_eq]
  show 6656 * (L 1).val + 3328 * (L 0).val + 1664 = 128 + ((2 * (L 1).val + (L 0).val) * 26 + 12) * 128
  omega
theorem ooff12 (L : grid0.Coords) : (k0_off34 L) 0 = 1000 * (12 : Fin 26).val ∧ (k0_off34 L) 1 = 128 * wid L := by
  rw [Gen.k0_off34_eq]
  refine ⟨?_, ?_⟩
  · show 12000 = 1000 * 12
    rfl
  · show 256 * (L 1).val + 128 * (L 0).val = 128 * (2 * (L 1).val + (L 0).val)
    omega
theorem toff13 (L : grid0.Coords) : (k0_off35 L) 0 = 128 + (wid L * 26 + (13 : Fin 26).val) * 128 := by
  rw [Gen.k0_off35_eq]
  show 6656 * (L 1).val + 3328 * (L 0).val + 1792 = 128 + ((2 * (L 1).val + (L 0).val) * 26 + 13) * 128
  omega
theorem ooff13 (L : grid0.Coords) : (k0_off36 L) 0 = 1000 * (13 : Fin 26).val ∧ (k0_off36 L) 1 = 128 * wid L := by
  rw [Gen.k0_off36_eq]
  refine ⟨?_, ?_⟩
  · show 13000 = 1000 * 13
    rfl
  · show 256 * (L 1).val + 128 * (L 0).val = 128 * (2 * (L 1).val + (L 0).val)
    omega
theorem toff14 (L : grid0.Coords) : (k0_off37 L) 0 = 128 + (wid L * 26 + (14 : Fin 26).val) * 128 := by
  rw [Gen.k0_off37_eq]
  show 6656 * (L 1).val + 3328 * (L 0).val + 1920 = 128 + ((2 * (L 1).val + (L 0).val) * 26 + 14) * 128
  omega
theorem ooff14 (L : grid0.Coords) : (k0_off38 L) 0 = 1000 * (14 : Fin 26).val ∧ (k0_off38 L) 1 = 128 * wid L := by
  rw [Gen.k0_off38_eq]
  refine ⟨?_, ?_⟩
  · show 14000 = 1000 * 14
    rfl
  · show 256 * (L 1).val + 128 * (L 0).val = 128 * (2 * (L 1).val + (L 0).val)
    omega
theorem toff15 (L : grid0.Coords) : (k0_off39 L) 0 = 128 + (wid L * 26 + (15 : Fin 26).val) * 128 := by
  rw [Gen.k0_off39_eq]
  show 6656 * (L 1).val + 3328 * (L 0).val + 2048 = 128 + ((2 * (L 1).val + (L 0).val) * 26 + 15) * 128
  omega
theorem ooff15 (L : grid0.Coords) : (k0_off40 L) 0 = 1000 * (15 : Fin 26).val ∧ (k0_off40 L) 1 = 128 * wid L := by
  rw [Gen.k0_off40_eq]
  refine ⟨?_, ?_⟩
  · show 15000 = 1000 * 15
    rfl
  · show 256 * (L 1).val + 128 * (L 0).val = 128 * (2 * (L 1).val + (L 0).val)
    omega
theorem toff16 (L : grid0.Coords) : (k0_off41 L) 0 = 128 + (wid L * 26 + (16 : Fin 26).val) * 128 := by
  rw [Gen.k0_off41_eq]
  show 6656 * (L 1).val + 3328 * (L 0).val + 2176 = 128 + ((2 * (L 1).val + (L 0).val) * 26 + 16) * 128
  omega
theorem ooff16 (L : grid0.Coords) : (k0_off42 L) 0 = 1000 * (16 : Fin 26).val ∧ (k0_off42 L) 1 = 128 * wid L := by
  rw [Gen.k0_off42_eq]
  refine ⟨?_, ?_⟩
  · show 16000 = 1000 * 16
    rfl
  · show 256 * (L 1).val + 128 * (L 0).val = 128 * (2 * (L 1).val + (L 0).val)
    omega
theorem toff17 (L : grid0.Coords) : (k0_off43 L) 0 = 128 + (wid L * 26 + (17 : Fin 26).val) * 128 := by
  rw [Gen.k0_off43_eq]
  show 6656 * (L 1).val + 3328 * (L 0).val + 2304 = 128 + ((2 * (L 1).val + (L 0).val) * 26 + 17) * 128
  omega
theorem ooff17 (L : grid0.Coords) : (k0_off44 L) 0 = 1000 * (17 : Fin 26).val ∧ (k0_off44 L) 1 = 128 * wid L := by
  rw [Gen.k0_off44_eq]
  refine ⟨?_, ?_⟩
  · show 17000 = 1000 * 17
    rfl
  · show 256 * (L 1).val + 128 * (L 0).val = 128 * (2 * (L 1).val + (L 0).val)
    omega
theorem toff18 (L : grid0.Coords) : (k0_off45 L) 0 = 128 + (wid L * 26 + (18 : Fin 26).val) * 128 := by
  rw [Gen.k0_off45_eq]
  show 6656 * (L 1).val + 3328 * (L 0).val + 2432 = 128 + ((2 * (L 1).val + (L 0).val) * 26 + 18) * 128
  omega
theorem ooff18 (L : grid0.Coords) : (k0_off46 L) 0 = 1000 * (18 : Fin 26).val ∧ (k0_off46 L) 1 = 128 * wid L := by
  rw [Gen.k0_off46_eq]
  refine ⟨?_, ?_⟩
  · show 18000 = 1000 * 18
    rfl
  · show 256 * (L 1).val + 128 * (L 0).val = 128 * (2 * (L 1).val + (L 0).val)
    omega
theorem toff19 (L : grid0.Coords) : (k0_off47 L) 0 = 128 + (wid L * 26 + (19 : Fin 26).val) * 128 := by
  rw [Gen.k0_off47_eq]
  show 6656 * (L 1).val + 3328 * (L 0).val + 2560 = 128 + ((2 * (L 1).val + (L 0).val) * 26 + 19) * 128
  omega
theorem ooff19 (L : grid0.Coords) : (k0_off48 L) 0 = 1000 * (19 : Fin 26).val ∧ (k0_off48 L) 1 = 128 * wid L := by
  rw [Gen.k0_off48_eq]
  refine ⟨?_, ?_⟩
  · show 19000 = 1000 * 19
    rfl
  · show 256 * (L 1).val + 128 * (L 0).val = 128 * (2 * (L 1).val + (L 0).val)
    omega
theorem toff20 (L : grid0.Coords) : (k0_off49 L) 0 = 128 + (wid L * 26 + (20 : Fin 26).val) * 128 := by
  rw [Gen.k0_off49_eq]
  show 6656 * (L 1).val + 3328 * (L 0).val + 2688 = 128 + ((2 * (L 1).val + (L 0).val) * 26 + 20) * 128
  omega
theorem ooff20 (L : grid0.Coords) : (k0_off50 L) 0 = 1000 * (20 : Fin 26).val ∧ (k0_off50 L) 1 = 128 * wid L := by
  rw [Gen.k0_off50_eq]
  refine ⟨?_, ?_⟩
  · show 20000 = 1000 * 20
    rfl
  · show 256 * (L 1).val + 128 * (L 0).val = 128 * (2 * (L 1).val + (L 0).val)
    omega
theorem toff21 (L : grid0.Coords) : (k0_off51 L) 0 = 128 + (wid L * 26 + (21 : Fin 26).val) * 128 := by
  rw [Gen.k0_off51_eq]
  show 6656 * (L 1).val + 3328 * (L 0).val + 2816 = 128 + ((2 * (L 1).val + (L 0).val) * 26 + 21) * 128
  omega
theorem ooff21 (L : grid0.Coords) : (k0_off52 L) 0 = 1000 * (21 : Fin 26).val ∧ (k0_off52 L) 1 = 128 * wid L := by
  rw [Gen.k0_off52_eq]
  refine ⟨?_, ?_⟩
  · show 21000 = 1000 * 21
    rfl
  · show 256 * (L 1).val + 128 * (L 0).val = 128 * (2 * (L 1).val + (L 0).val)
    omega
theorem toff22 (L : grid0.Coords) : (k0_off53 L) 0 = 128 + (wid L * 26 + (22 : Fin 26).val) * 128 := by
  rw [Gen.k0_off53_eq]
  show 6656 * (L 1).val + 3328 * (L 0).val + 2944 = 128 + ((2 * (L 1).val + (L 0).val) * 26 + 22) * 128
  omega
theorem ooff22 (L : grid0.Coords) : (k0_off54 L) 0 = 1000 * (22 : Fin 26).val ∧ (k0_off54 L) 1 = 128 * wid L := by
  rw [Gen.k0_off54_eq]
  refine ⟨?_, ?_⟩
  · show 22000 = 1000 * 22
    rfl
  · show 256 * (L 1).val + 128 * (L 0).val = 128 * (2 * (L 1).val + (L 0).val)
    omega
theorem toff23 (L : grid0.Coords) : (k0_off55 L) 0 = 128 + (wid L * 26 + (23 : Fin 26).val) * 128 := by
  rw [Gen.k0_off55_eq]
  show 6656 * (L 1).val + 3328 * (L 0).val + 3072 = 128 + ((2 * (L 1).val + (L 0).val) * 26 + 23) * 128
  omega
theorem ooff23 (L : grid0.Coords) : (k0_off56 L) 0 = 1000 * (23 : Fin 26).val ∧ (k0_off56 L) 1 = 128 * wid L := by
  rw [Gen.k0_off56_eq]
  refine ⟨?_, ?_⟩
  · show 23000 = 1000 * 23
    rfl
  · show 256 * (L 1).val + 128 * (L 0).val = 128 * (2 * (L 1).val + (L 0).val)
    omega
theorem toff24 (L : grid0.Coords) : (k0_off57 L) 0 = 128 + (wid L * 26 + (24 : Fin 26).val) * 128 := by
  rw [Gen.k0_off57_eq]
  show 6656 * (L 1).val + 3328 * (L 0).val + 3200 = 128 + ((2 * (L 1).val + (L 0).val) * 26 + 24) * 128
  omega
theorem ooff24 (L : grid0.Coords) : (k0_off58 L) 0 = 1000 * (24 : Fin 26).val ∧ (k0_off58 L) 1 = 128 * wid L := by
  rw [Gen.k0_off58_eq]
  refine ⟨?_, ?_⟩
  · show 24000 = 1000 * 24
    rfl
  · show 256 * (L 1).val + 128 * (L 0).val = 128 * (2 * (L 1).val + (L 0).val)
    omega
theorem toff25 (L : grid0.Coords) : (k0_off59 L) 0 = 128 + (wid L * 26 + (25 : Fin 26).val) * 128 := by
  rw [Gen.k0_off59_eq]
  show 6656 * (L 1).val + 3328 * (L 0).val + 3328 = 128 + ((2 * (L 1).val + (L 0).val) * 26 + 25) * 128
  omega
theorem ooff25 (L : grid0.Coords) : (k0_off60 L) 0 = 1000 * (25 : Fin 26).val ∧ (k0_off60 L) 1 = 128 * wid L := by
  rw [Gen.k0_off60_eq]
  refine ⟨?_, ?_⟩
  · show 25000 = 1000 * 25
    rfl
  · show 256 * (L 1).val + 128 * (L 0).val = 128 * (2 * (L 1).val + (L 0).val)
    omega

/-! ## The three scratch buffers -/

variable (d : Dev nD) (L : grid0.Coords)

/-- The tile's own buffers other than the three scratch buffers. -/
def bufRest : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

/-- The tile's own buffers are the three scratch buffers, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ bufRest (F := F) d L) := by
  unfold SparseCore.Cfg.ownBufs bufRest
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

/-- The scoped buffers of the tile's thread, opened. -/
theorem scopedBufs_open :
    (scopedBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ bufRest (F := F) d L) := by
  rw [(K (F := F)).scopedBufs_V facts d (cV L) (jV L), ownBufs_V]

/-! ## The 28 transfer semaphores -/

section Sems
omit [FloatOps F]

/-- A `bigSep` over `Fin (n + 1)`, its first summand in front. -/
theorem bigSep_fin_succ {M : Type} [URA M] {n : Nat} (Φ : Fin (n + 1) → sProp M) :
    bigSep Finset.univ Φ = BI.sep (Φ 0) (bigSep Finset.univ fun i : Fin n => Φ i.succ) := by
  unfold bigSep
  rw [Fin.univ_succ, Finset.fold_cons, Finset.fold_map]
  rfl

/-- A `bigSep` over `Fin 1` is its one summand. -/
theorem bigSep_fin_one {M : Type} [URA M] (Φ : Fin 1 → sProp M) : bigSep Finset.univ Φ = Φ 0 :=
  bigSep_singleton (i := (0 : Fin 1)) (Φ := Φ)

/-- A `bigSep` over `Fin 28`, written out. -/
theorem bigSep_fin28 {M : Type} [URA M] (Φ : Fin 28 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) := by
  iterate 27 rw [bigSep_fin_succ]
  rw [bigSep_fin_one]
  rfl

/-- No regular semaphore of a vector subcore is a kernel's own: the four are the launch's. -/
theorem no_scoped_reg : ∀ s : Sem sig, sig.isScopedSem .scVector s = false := by decide

/-- The cell of the tile's transfer semaphore `i`. -/
abbrev dcell (i : DmaSem sig) : GSem nD τ sig := (V d (cV L) (jV L), .dma i)

/-- The tile's own semaphore cells are its 28 transfer semaphores (the four launch semaphores are no kernel's). -/
theorem ownCells_V : ownCells (V d (cV L) (jV L)) = (Finset.univ : Finset (DmaSem sig)).image (dcell d L) := by
  ext g
  obtain ⟨t, sm⟩ := g
  rw [mem_ownCells, Finset.mem_image]
  constructor
  · rintro ⟨ht, hs⟩
    cases sm with
    | reg s =>
      have hs' : sig.isScopedSem .scVector s = true := by
        have : t = V d (cV L) (jV L) := ht
        subst this; exact hs
      rw [no_scoped_reg s] at hs'
      exact absurd hs' (by decide)
    | dma s =>
      have : t = V d (cV L) (jV L) := ht
      subst this
      exact ⟨s, Finset.mem_univ _, rfl⟩
  · rintro ⟨i, _, hi⟩
    have h1 : t = V d (cV L) (jV L) := (congrArg Prod.fst hi).symm
    have h2 : sm = .dma i := (congrArg Prod.snd hi).symm
    subst h1; subst h2
    exact ⟨rfl, rfl⟩

/-- The tile's own semaphores at zero, as a `bigSep` over the 28 indices. -/
theorem ownSems0_V :
    (ownSems0 (V d (cV L) (jV L)) : sProp 𝕄) = bigSep Finset.univ fun i : DmaSem sig => semVal (dcell d L i) 0 := by
  unfold SparseCore.Cfg.ownSems0
  rw [ownCells_V, bigSep_image_of_injOn (fun a _ b _ e => by
    have := congrArg Prod.snd e
    exact SemLoc.dma.inj this)]

/-- The same written out: the scratch operand's semaphore, then the 27 regions' semaphores, in the pool's order. -/
theorem ownSems0_list :
    (ownSems0 (V d (cV L) (jV L)) : sProp 𝕄)
      = iprop(semVal ((V d (cV L) (jV L), .dma cc0_scratch3.sem) : GSem nD τ sig) 0
          ∗ semVal ((V d (cV L) (jV L), .dma cc0_scoped0.sem) : GSem nD τ sig) 0
          ∗ semVal ((V d (cV L) (jV L), .dma cc0_scoped1.sem) : GSem nD τ sig) 0
          ∗ semVal ((V d (cV L) (jV L), .dma cc0_scoped2.sem) : GSem nD τ sig) 0
          ∗ semVal ((V d (cV L) (jV L), .dma cc0_scoped3.sem) : GSem nD τ sig) 0
          ∗ semVal ((V d (cV L) (jV L), .dma cc0_scoped4.sem) : GSem nD τ sig) 0
          ∗ semVal ((V d (cV L) (jV L), .dma cc0_scoped5.sem) : GSem nD τ sig) 0
          ∗ semVal ((V d (cV L) (jV L), .dma cc0_scoped6.sem) : GSem nD τ sig) 0
          ∗ semVal ((V d (cV L) (jV L), .dma cc0_scoped7.sem) : GSem nD τ sig) 0
          ∗ semVal ((V d (cV L) (jV L), .dma cc0_scoped8.sem) : GSem nD τ sig) 0
          ∗ semVal ((V d (cV L) (jV L), .dma cc0_scoped9.sem) : GSem nD τ sig) 0
          ∗ semVal ((V d (cV L) (jV L), .dma cc0_scoped10.sem) : GSem nD τ sig) 0
          ∗ semVal ((V d (cV L) (jV L), .dma cc0_scoped11.sem) : GSem nD τ sig) 0
          ∗ semVal ((V d (cV L) (jV L), .dma cc0_scoped12.sem) : GSem nD τ sig) 0
          ∗ semVal ((V d (cV L) (jV L), .dma cc0_scoped13.sem) : GSem nD τ sig) 0
          ∗ semVal ((V d (cV L) (jV L), .dma cc0_scoped14.sem) : GSem nD τ sig) 0
          ∗ semVal ((V d (cV L) (jV L), .dma cc0_scoped15.sem) : GSem nD τ sig) 0
          ∗ semVal ((V d (cV L) (jV L), .dma cc0_scoped16.sem) : GSem nD τ sig) 0
          ∗ semVal ((V d (cV L) (jV L), .dma cc0_scoped17.sem) : GSem nD τ sig) 0
          ∗ semVal ((V d (cV L) (jV L), .dma cc0_scoped18.sem) : GSem nD τ sig) 0
          ∗ semVal ((V d (cV L) (jV L), .dma cc0_scoped19.sem) : GSem nD τ sig) 0
          ∗ semVal ((V d (cV L) (jV L), .dma cc0_scoped20.sem) : GSem nD τ sig) 0
          ∗ semVal ((V d (cV L) (jV L), .dma cc0_scoped21.sem) : GSem nD τ sig) 0
          ∗ semVal ((V d (cV L) (jV L), .dma cc0_scoped22.sem) : GSem nD τ sig) 0
          ∗ semVal ((V d (cV L) (jV L), .dma cc0_scoped23.sem) : GSem nD τ sig) 0
          ∗ semVal ((V d (cV L) (jV L), .dma cc0_scoped24.sem) : GSem nD τ sig) 0
          ∗ semVal ((V d (cV L) (jV L), .dma cc0_scoped25.sem) : GSem nD τ sig) 0
          ∗ semVal ((V d (cV L) (jV L), .dma cc0_scoped26.sem) : GSem nD τ sig) 0) := by
  rw [ownSems0_V]
  exact bigSep_fin28 _

/-- The scoped semaphores of the tile's thread, opened. -/
theorem scopedSems0_open :
    (scopedSems0 (V d (cV L) (jV L)) : sProp 𝕄)
      = iprop(semVal ((V d (cV L) (jV L), .dma cc0_scratch3.sem) : GSem nD τ sig) 0
          ∗ semVal ((V d (cV L) (jV L), .dma cc0_scoped0.sem) : GSem nD τ sig) 0
          ∗ semVal ((V d (cV L) (jV L), .dma cc0_scoped1.sem) : GSem nD τ sig) 0
          ∗ semVal ((V d (cV L) (jV L), .dma cc0_scoped2.sem) : GSem nD τ sig) 0
          ∗ semVal ((V d (cV L) (jV L), .dma cc0_scoped3.sem) : GSem nD τ sig) 0
          ∗ semVal ((V d (cV L) (jV L), .dma cc0_scoped4.sem) : GSem nD τ sig) 0
          ∗ semVal ((V d (cV L) (jV L), .dma cc0_scoped5.sem) : GSem nD τ sig) 0
          ∗ semVal ((V d (cV L) (jV L), .dma cc0_scoped6.sem) : GSem nD τ sig) 0
          ∗ semVal ((V d (cV L) (jV L), .dma cc0_scoped7.sem) : GSem nD τ sig) 0
          ∗ semVal ((V d (cV L) (jV L), .dma cc0_scoped8.sem) : GSem nD τ sig) 0
          ∗ semVal ((V d (cV L) (jV L), .dma cc0_scoped9.sem) : GSem nD τ sig) 0
          ∗ semVal ((V d (cV L) (jV L), .dma cc0_scoped10.sem) : GSem nD τ sig) 0
          ∗ semVal ((V d (cV L) (jV L), .dma cc0_scoped11.sem) : GSem nD τ sig) 0
          ∗ semVal ((V d (cV L) (jV L), .dma cc0_scoped12.sem) : GSem nD τ sig) 0
          ∗ semVal ((V d (cV L) (jV L), .dma cc0_scoped13.sem) : GSem nD τ sig) 0
          ∗ semVal ((V d (cV L) (jV L), .dma cc0_scoped14.sem) : GSem nD τ sig) 0
          ∗ semVal ((V d (cV L) (jV L), .dma cc0_scoped15.sem) : GSem nD τ sig) 0
          ∗ semVal ((V d (cV L) (jV L), .dma cc0_scoped16.sem) : GSem nD τ sig) 0
          ∗ semVal ((V d (cV L) (jV L), .dma cc0_scoped17.sem) : GSem nD τ sig) 0
          ∗ semVal ((V d (cV L) (jV L), .dma cc0_scoped18.sem) : GSem nD τ sig) 0
          ∗ semVal ((V d (cV L) (jV L), .dma cc0_scoped19.sem) : GSem nD τ sig) 0
          ∗ semVal ((V d (cV L) (jV L), .dma cc0_scoped20.sem) : GSem nD τ sig) 0
          ∗ semVal ((V d (cV L) (jV L), .dma cc0_scoped21.sem) : GSem nD τ sig) 0
          ∗ semVal ((V d (cV L) (jV L), .dma cc0_scoped22.sem) : GSem nD τ sig) 0
          ∗ semVal ((V d (cV L) (jV L), .dma cc0_scoped23.sem) : GSem nD τ sig) 0
          ∗ semVal ((V d (cV L) (jV L), .dma cc0_scoped24.sem) : GSem nD τ sig) 0
          ∗ semVal ((V d (cV L) (jV L), .dma cc0_scoped25.sem) : GSem nD τ sig) 0
          ∗ semVal ((V d (cV L) (jV L), .dma cc0_scoped26.sem) : GSem nD τ sig) 0) := by
  rw [SparseCore.Cfg.scopedSems0_V (Val := Elt F) d (cV L) (jV L), ownSems0_list]

/-- The same as a `bigSep` over the 28 indices. -/
theorem scopedSems0_bigSep :
    (scopedSems0 (V d (cV L) (jV L)) : sProp 𝕄) = bigSep Finset.univ fun i : DmaSem sig => semVal (dcell d L i) 0 := by
  rw [SparseCore.Cfg.scopedSems0_V (Val := Elt F) d (cV L) (jV L), ownSems0_V]

/-- The scratch operand's semaphore is index 0 of the pool, region `k`'s is index `k + 1`. -/
theorem sem_scratch3 : (cc0_scratch3.sem : DmaSem sig) = (0 : Fin 28) := rfl
theorem sem_scoped0 : (cc0_scoped0.sem : DmaSem sig) = (1 : Fin 28) := rfl
theorem sem_scoped1 : (cc0_scoped1.sem : DmaSem sig) = (2 : Fin 28) := rfl
theorem sem_scoped2 : (cc0_scoped2.sem : DmaSem sig) = (3 : Fin 28) := rfl
theorem sem_scoped3 : (cc0_scoped3.sem : DmaSem sig) = (4 : Fin 28) := rfl
theorem sem_scoped4 : (cc0_scoped4.sem : DmaSem sig) = (5 : Fin 28) := rfl
theorem sem_scoped5 : (cc0_scoped5.sem : DmaSem sig) = (6 : Fin 28) := rfl
theorem sem_scoped6 : (cc0_scoped6.sem : DmaSem sig) = (7 : Fin 28) := rfl
theorem sem_scoped7 : (cc0_scoped7.sem : DmaSem sig) = (8 : Fin 28) := rfl
theorem sem_scoped8 : (cc0_scoped8.sem : DmaSem sig) = (9 : Fin 28) := rfl
theorem sem_scoped9 : (cc0_scoped9.sem : DmaSem sig) = (10 : Fin 28) := rfl
theorem sem_scoped10 : (cc0_scoped10.sem : DmaSem sig) = (11 : Fin 28) := rfl
theorem sem_scoped11 : (cc0_scoped11.sem : DmaSem sig) = (12 : Fin 28) := rfl
theorem sem_scoped12 : (cc0_scoped12.sem : DmaSem sig) = (13 : Fin 28) := rfl
theorem sem_scoped13 : (cc0_scoped13.sem : DmaSem sig) = (14 : Fin 28) := rfl
theorem sem_scoped14 : (cc0_scoped14.sem : DmaSem sig) = (15 : Fin 28) := rfl
theorem sem_scoped15 : (cc0_scoped15.sem : DmaSem sig) = (16 : Fin 28) := rfl
theorem sem_scoped16 : (cc0_scoped16.sem : DmaSem sig) = (17 : Fin 28) := rfl
theorem sem_scoped17 : (cc0_scoped17.sem : DmaSem sig) = (18 : Fin 28) := rfl
theorem sem_scoped18 : (cc0_scoped18.sem : DmaSem sig) = (19 : Fin 28) := rfl
theorem sem_scoped19 : (cc0_scoped19.sem : DmaSem sig) = (20 : Fin 28) := rfl
theorem sem_scoped20 : (cc0_scoped20.sem : DmaSem sig) = (21 : Fin 28) := rfl
theorem sem_scoped21 : (cc0_scoped21.sem : DmaSem sig) = (22 : Fin 28) := rfl
theorem sem_scoped22 : (cc0_scoped22.sem : DmaSem sig) = (23 : Fin 28) := rfl
theorem sem_scoped23 : (cc0_scoped23.sem : DmaSem sig) = (24 : Fin 28) := rfl
theorem sem_scoped24 : (cc0_scoped24.sem : DmaSem sig) = (25 : Fin 28) := rfl
theorem sem_scoped25 : (cc0_scoped25.sem : DmaSem sig) = (26 : Fin 28) := rfl
theorem sem_scoped26 : (cc0_scoped26.sem : DmaSem sig) = (27 : Fin 28) := rfl

end Sems

end Cert.KIProof

end
-- ==== Proof.KI.TileProg.lean ====
/-
  The tile's body by its structure: one header copy of the table's lane numbers, a loop that zeroes the big scratch, and 26
  features, each the same sequence — 128 table words fetched, ones scattered lane group by lane group, the scratch copied out
  to the feature's window of the result, the same places zeroed again — at its own table offset, window and semaphore.
-/
import proofs.«211696_g86517821210821_cont_sun_m_1191_30_alg».proof.Proof.KI.Setup

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev tW : Memref sig .scVector .hbm S106624 .i32 := Memref.whole main_v4_scv
abbrev oW : Memref sig .scVector .hbm S26000x4096 .f32 := Memref.whole main_v5_scv
abbrev sH : Memref sig .scVector .vmem S128 .i32 := Memref.whole cc0_scratch0
abbrev sX : Memref sig .scVector .vmem S128 .i32 := Memref.whole cc0_scratch1
abbrev sB : Memref sig .scVector .vmem S1000x128 .f32 := Memref.whole cc0_scratch2

/-! ## The body by its structure

One header copy, a zeroing loop, and 26 features, each the same sequence of operations at its own table offset, result
window and semaphore.  That this is the tile's program is checked by unfolding both. -/

/-- The tile's processor. -/
abbrev tileProc (L : grid0.Coords) : Proc τ := .scVector ((L 0).castLE hcore0) ((L 1).castLE hsub0)

/-- The float vectors the scatters store. -/
abbrev onesV : FVec F S16 .f32 := broadcast S16 (Scalar.ofBits .f32 0x3F800000#32)
abbrev zerosV : FVec F S16 .f32 := broadcast S16 (Scalar.ofBits .f32 0x00000000#32)

/-- The 128 table words at `toff`, and the result window at `ooff`, as the body slices them. -/
abbrev tSl (toff : Fin 1 → Nat) (tinb : ∀ a, toff a + S128.size a ≤ S106624.size a) : Memref sig .scVector .hbm S128 .i32 :=
  tW.slice (Rect.unit (s := S106624) toff S128.size tinb) (fun _ => rfl)
abbrev oSl (ooff : Fin 2 → Nat) (oinb : ∀ a, ooff a + S1000x128.size a ≤ S26000x4096.size a) : Memref sig .scVector .hbm S1000x128 .f32 :=
  oW.slice (Rect.unit (s := S26000x4096) ooff S1000x128.size oinb) (fun _ => rfl)

/-- One lane group: sixteen categories and their sixteen lane numbers loaded, checked in range, and `v` scattered at
    (category, lane) for the lanes whose category is below 1000. -/
def grp (L : grid0.Coords) (v : FVec F S16 .f32) (off : Nat) (hin : ∀ a, (![off] : Fin 1 → Nat) a + S16.size a ≤ S128.size a) :
    Prog (TpuEff nD τ sig (Elt F) Λ₀ (tileProc L)) PUnit := do
  let v11 : Vec F S16 .i32 ← Prog.lift (.load sX (Rect.unit (s := S128) ![off] S16.size hin).toLoadRect (View.loadsAt_vmem h_S16))
  let v12 : Vec F S16 .i32 ← Prog.lift (.load sH (Rect.unit (s := S128) ![off] S16.size hin).toLoadRect (View.loadsAt_vmem h_S16))
  have hw : k0_chk1 v11 v12 := (← Prog.lift (TpuEff.assume (k0_chk1 v11 v12) (k0_chk1.dec v11 v12))).down
  SparseCore.vectorStoreIdx sB ![v11, v12] v (cmpi .slt v11 (broadcast S16 1000#32)) false (k0_idx1_inb v11 v12 hw) (View.stores_vmem_bits_univ h_S1000x128 rfl)

/-- 128 table words copied into a 128-word scratch, and waited for. -/
def fetch (L : grid0.Coords) (toff : Fin 1 → Nat) (tinb : ∀ a, toff a + S128.size a ≤ S106624.size a)
    (dst : Memref sig .scVector .vmem S128 .i32) (hdst : dst.IsWhole) (sem : DmaSems sig S_) :
    Prog (TpuEff nD τ sig (Elt F) Λ₀ (tileProc L)) PUnit := do
  Prog.lift (.enqueueDma (tSl toff tinb) (.here dst) (.dma sem.sem) (View.wordExact_bits rfl) hdst.wordExact ⟨Or.inl rfl, trivial⟩)
  Prog.lift (.waitDma2 sem.sem (tSl toff tinb) dst (View.wordExact_bits rfl) hdst.wordExact)

/-- The big scratch copied out to a result window, and waited for. -/
def flush (L : grid0.Coords) (ooff : Fin 2 → Nat) (oinb : ∀ a, ooff a + S1000x128.size a ≤ S26000x4096.size a) :
    Prog (TpuEff nD τ sig (Elt F) Λ₀ (tileProc L)) PUnit := do
  Prog.lift (.enqueueDma sB (.here (oSl ooff oinb)) (.dma cc0_scratch3.sem) (Memref.isWhole_whole _).wordExact (View.wordExact_bits rfl) ⟨Or.inl rfl, trivial⟩)
  Prog.lift (.waitDma2 cc0_scratch3.sem sB (oSl ooff oinb) (Memref.isWhole_whole _).wordExact (View.wordExact_bits rfl))

/-- One feature: its 128 table words fetched, ones scattered lane group by lane group, the scratch copied out to the
    feature's window, and the same places zeroed again. -/
def feat (L : grid0.Coords) (toff : Fin 1 → Nat) (tinb : ∀ a, toff a + S128.size a ≤ S106624.size a)
    (ooff : Fin 2 → Nat) (oinb : ∀ a, ooff a + S1000x128.size a ≤ S26000x4096.size a) (sem : DmaSems sig S_) :
    Prog (TpuEff nD τ sig (Elt F) Λ₀ (tileProc L)) PUnit := do
  fetch (F := F) L toff tinb sX (Memref.isWhole_whole _) sem
  grp (F := F) L onesV 0 inb_S128_S16_0
  grp (F := F) L onesV 16 inb_S128_S16_16
  grp (F := F) L onesV 32 inb_S128_S16_32
  grp (F := F) L onesV 48 inb_S128_S16_48
  grp (F := F) L onesV 64 inb_S128_S16_64
  grp (F := F) L onesV 80 inb_S128_S16_80
  grp (F := F) L onesV 96 inb_S128_S16_96
  grp (F := F) L onesV 112 inb_S128_S16_112
  flush (F := F) L ooff oinb
  grp (F := F) L zerosV 0 inb_S128_S16_0
  grp (F := F) L zerosV 16 inb_S128_S16_16
  grp (F := F) L zerosV 32 inb_S128_S16_32
  grp (F := F) L zerosV 48 inb_S128_S16_48
  grp (F := F) L zerosV 64 inb_S128_S16_64
  grp (F := F) L zerosV 80 inb_S128_S16_80
  grp (F := F) L zerosV 96 inb_S128_S16_96
  grp (F := F) L zerosV 112 inb_S128_S16_112

/-- The zeroing loop. -/
def zloop (L : grid0.Coords) : Prog (TpuEff nD τ sig (Elt F) Λ₀ (tileProc L)) PUnit :=
  Scf.Loop.for k0_t1_loop k0_t1_ok ⟨⟩ (k0_t1_body (F := F) L tW (Memref.isWhole_whole _) oW (Memref.isWhole_whole _) sH (Memref.isWhole_whole _) sX (Memref.isWhole_whole _) sB (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26)

/-- The body by its structure. -/
def structured (L : grid0.Coords) : Prog (TpuEff nD τ sig (Elt F) Λ₀ (tileProc L)) PUnit := do
  fetch (F := F) L ![0] inb_S106624_S128_0 sH (Memref.isWhole_whole _) cc0_scoped0
  zloop (F := F) L
  feat (F := F) L (k0_off9 L) (k0_off9_inb L) (k0_off10 L) (k0_off10_inb L) cc0_scoped1
  feat (F := F) L (k0_off11 L) (k0_off11_inb L) (k0_off12 L) (k0_off12_inb L) cc0_scoped2
  feat (F := F) L (k0_off13 L) (k0_off13_inb L) (k0_off14 L) (k0_off14_inb L) cc0_scoped3
  feat (F := F) L (k0_off15 L) (k0_off15_inb L) (k0_off16 L) (k0_off16_inb L) cc0_scoped4
  feat (F := F) L (k0_off17 L) (k0_off17_inb L) (k0_off18 L) (k0_off18_inb L) cc0_scoped5
  feat (F := F) L (k0_off19 L) (k0_off19_inb L) (k0_off20 L) (k0_off20_inb L) cc0_scoped6
  feat (F := F) L (k0_off21 L) (k0_off21_inb L) (k0_off22 L) (k0_off22_inb L) cc0_scoped7
  feat (F := F) L (k0_off23 L) (k0_off23_inb L) (k0_off24 L) (k0_off24_inb L) cc0_scoped8
  feat (F := F) L (k0_off25 L) (k0_off25_inb L) (k0_off26 L) (k0_off26_inb L) cc0_scoped9
  feat (F := F) L (k0_off27 L) (k0_off27_inb L) (k0_off28 L) (k0_off28_inb L) cc0_scoped10
  feat (F := F) L (k0_off29 L) (k0_off29_inb L) (k0_off30 L) (k0_off30_inb L) cc0_scoped11
  feat (F := F) L (k0_off31 L) (k0_off31_inb L) (k0_off32 L) (k0_off32_inb L) cc0_scoped12
  feat (F := F) L (k0_off33 L) (k0_off33_inb L) (k0_off34 L) (k0_off34_inb L) cc0_scoped13
  feat (F := F) L (k0_off35 L) (k0_off35_inb L) (k0_off36 L) (k0_off36_inb L) cc0_scoped14
  feat (F := F) L (k0_off37 L) (k0_off37_inb L) (k0_off38 L) (k0_off38_inb L) cc0_scoped15
  feat (F := F) L (k0_off39 L) (k0_off39_inb L) (k0_off40 L) (k0_off40_inb L) cc0_scoped16
  feat (F := F) L (k0_off41 L) (k0_off41_inb L) (k0_off42 L) (k0_off42_inb L) cc0_scoped17
  feat (F := F) L (k0_off43 L) (k0_off43_inb L) (k0_off44 L) (k0_off44_inb L) cc0_scoped18
  feat (F := F) L (k0_off45 L) (k0_off45_inb L) (k0_off46 L) (k0_off46_inb L) cc0_scoped19
  feat (F := F) L (k0_off47 L) (k0_off47_inb L) (k0_off48 L) (k0_off48_inb L) cc0_scoped20
  feat (F := F) L (k0_off49 L) (k0_off49_inb L) (k0_off50 L) (k0_off50_inb L) cc0_scoped21
  feat (F := F) L (k0_off51 L) (k0_off51_inb L) (k0_off52 L) (k0_off52_inb L) cc0_scoped22
  feat (F := F) L (k0_off53 L) (k0_off53_inb L) (k0_off54 L) (k0_off54_inb L) cc0_scoped23
  feat (F := F) L (k0_off55 L) (k0_off55_inb L) (k0_off56 L) (k0_off56_inb L) cc0_scoped24
  feat (F := F) L (k0_off57 L) (k0_off57_inb L) (k0_off58 L) (k0_off58_inb L) cc0_scoped25
  feat (F := F) L (k0_off59 L) (k0_off59_inb L) (k0_off60 L) (k0_off60_inb L) cc0_scoped26
  pure ⟨⟩

/-- The first feature's beginning, up to where the tile's program hands its pending values on. -/
def r1 (L : grid0.Coords) : Prog (TpuEff nD τ sig (Elt F) Λ₀ (tileProc L))
    (Σ' (v2 : FVec F S16 .f32) (v3 : FVec F S16 .f32) (v6 : BitVec 32) (v15 : Vec F S16 .i32) (v16 : Vec F S16 .i32) (k0_hw2 : k0_chk2 v15 v16), IVec S16 1) := do
  fetch (F := F) L (k0_off9 L) (k0_off9_inb L) sX (Memref.isWhole_whole _) cc0_scoped1
  grp (F := F) L onesV 0 inb_S128_S16_0
  let v15 : Vec F S16 .i32 ← Prog.lift (.load sX (Rect.unit (s := S128) ![16] S16.size inb_S128_S16_16).toLoadRect (View.loadsAt_vmem h_S16))
  let v16 : Vec F S16 .i32 ← Prog.lift (.load sH (Rect.unit (s := S128) ![16] S16.size inb_S128_S16_16).toLoadRect (View.loadsAt_vmem h_S16))
  have hw : k0_chk2 v15 v16 := (← Prog.lift (TpuEff.assume (k0_chk2 v15 v16) (k0_chk2.dec v15 v16))).down
  pure ⟨onesV, zerosV, Scalar.addi (Scalar.muli (Scalar.addi (Scalar.muli (BitVec.ofNat 32 (L 1).val) 2#32) (BitVec.ofNat 32 (L 0).val)) 1#32) 0#32, v15, v16, hw, cmpi .slt v15 (broadcast S16 1000#32)⟩

set_option maxRecDepth 65536 in
theorem part1_eq (L : grid0.Coords) : k0_part1 (F := F) L tW (Memref.isWhole_whole _) oW (Memref.isWhole_whole _) sH (Memref.isWhole_whole _) sX (Memref.isWhole_whole _) sB (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26
    = (fetch (F := F) L ![0] inb_S106624_S128_0 sH (Memref.isWhole_whole _) cc0_scoped0 >>= fun _ => zloop (F := F) L >>= fun _ => r1 (F := F) L) := rfl

set_option maxRecDepth 65536 in
set_option maxHeartbeats 0 in
/-- The tile's program is the body by its structure: the two agree operation by operation once the sequencing is
    reassociated past the loop. -/
theorem tileProg_eq (L : grid0.Coords) : tileProg (F := F) L = structured (F := F) L := by
  show cc0_body_skel (F := F) L tW (Memref.isWhole_whole _) oW (Memref.isWhole_whole _) sH (Memref.isWhole_whole _) sX (Memref.isWhole_whole _) sB (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 = _
  unfold cc0_body_skel k0_part76
  rw [part1_eq]
  simp only [bind_assoc]
  unfold structured
  refine congrArg _ (funext fun _ => congrArg _ (funext fun _ => ?_))
  rfl

end Cert.KIProof

end
-- ==== Proof.KI.ZeroRow.lean ====
/-
  One trip of the zeroing loop: the eight stores of sixteen zeros each fill row k of the 1000 × 128 scratch, so that after
  trip k every row up to k is zero if every row before k was.
-/
import proofs.«211696_g86517821210821_cont_sun_m_1191_30_alg».proof.Proof.KI.Setup
import proofs.«211696_g86517821210821_cont_sun_m_1191_30_alg».proof.Proof.ScatterBand
import Idealize.ShloMosaic.Lib.Writes
import Idealize.ShloMosaic.Lib.ValueIdx

noncomputable section

namespace Cert.KIProof

open Cert.KernelIdeal Cert.KernelIdeal.Gen
open Idealize.ShloMosaic Idealize.ShloMosaic.ValueIdx

variable {F : FTy → Type} [FloatOps F]

/-- The eight stores of trip `k`, the last first. -/
def zeroPieces (k : Fin k0_t1_loop.trips) : List (View.Piece (Elt F) S1000x128 .f32) :=
    [⟨Rect.unit (k0_off8 k) S1x16.size (k0_off8_inb k), shapeCast S1x16 (k0_pay2 (F := F)) shapeCasts_S16_S1x16⟩,
     ⟨Rect.unit (k0_off7 k) S1x16.size (k0_off7_inb k), shapeCast S1x16 (k0_pay2 (F := F)) shapeCasts_S16_S1x16⟩,
     ⟨Rect.unit (k0_off6 k) S1x16.size (k0_off6_inb k), shapeCast S1x16 (k0_pay2 (F := F)) shapeCasts_S16_S1x16⟩,
     ⟨Rect.unit (k0_off5 k) S1x16.size (k0_off5_inb k), shapeCast S1x16 (k0_pay2 (F := F)) shapeCasts_S16_S1x16⟩,
     ⟨Rect.unit (k0_off4 k) S1x16.size (k0_off4_inb k), shapeCast S1x16 (k0_pay2 (F := F)) shapeCasts_S16_S1x16⟩,
     ⟨Rect.unit (k0_off3 k) S1x16.size (k0_off3_inb k), shapeCast S1x16 (k0_pay2 (F := F)) shapeCasts_S16_S1x16⟩,
     ⟨Rect.unit (k0_off2 k) S1x16.size (k0_off2_inb k), shapeCast S1x16 (k0_pay2 (F := F)) shapeCasts_S16_S1x16⟩,
     ⟨Rect.unit (k0_off1 k) S1x16.size (k0_off1_inb k), shapeCast S1x16 (k0_pay2 (F := F)) shapeCasts_S16_S1x16⟩]

/-- Every store of the trip stores zeros. -/
theorem zeroPieces_zero (k : Fin k0_t1_loop.trips) :
    ∀ p ∈ zeroPieces (F := F) k, ∀ x : p.1.shape.Idx, p.2 x = (fun _ : S1000x128.Idx => (Cert.Spec.zero : F .f32)) (p.1.emb x) := by
  intro p hp x
  unfold zeroPieces at hp
  simp only [List.mem_cons, List.not_mem_nil, or_false] at hp
  rcases hp with rfl | rfl | rfl | rfl | rfl | rfl | rfl | rfl <;> rfl

/-- The eight stores cover row `k`. -/
theorem zeroPieces_cover (k : Fin k0_t1_loop.trips) (j : S1000x128.Idx) (hj : (j 0).val = k.val) :
    ∃ p ∈ zeroPieces (F := F) k, j ∈ p.1.set := by
  have hj1 : (j 1).val < 128 := idx2_lt1 j
  unfold zeroPieces
  have hcases : (112 ≤ (j 1).val) ∨ (96 ≤ (j 1).val ∧ (j 1).val < 112) ∨ (80 ≤ (j 1).val ∧ (j 1).val < 96)
      ∨ (64 ≤ (j 1).val ∧ (j 1).val < 80) ∨ (48 ≤ (j 1).val ∧ (j 1).val < 64) ∨ (32 ≤ (j 1).val ∧ (j 1).val < 48)
      ∨ (16 ≤ (j 1).val ∧ (j 1).val < 32) ∨ ((j 1).val < 16) := by omega
  rcases hcases with h | h | h | h | h | h | h | h
  all_goals revert h
  · -- lanes [112, 128)
    intro hq
    refine ⟨_, List.mem_cons_self, ?_⟩
    show j ∈ (Rect.unit (s := S1000x128) (k0_off8 k) S1x16.size (k0_off8_inb k)).set
    rw [Rect.mem_set_unit, Gen.k0_off8_eq]
    show ∀ a : Fin 2, (![k.val, 112] : Fin 2 → Nat) a ≤ (j a).val ∧ (j a).val < (![k.val, 112] : Fin 2 → Nat) a + S1x16.size a
    rw [Fin.forall_fin_two]
    show (k.val ≤ (j 0).val ∧ (j 0).val < k.val + 1) ∧ (112 ≤ (j 1).val ∧ (j 1).val < 112 + 16)
    omega
  · -- lanes [96, 112)
    intro hq
    refine ⟨_, (List.mem_cons_of_mem _ List.mem_cons_self), ?_⟩
    show j ∈ (Rect.unit (s := S1000x128) (k0_off7 k) S1x16.size (k0_off7_inb k)).set
    rw [Rect.mem_set_unit, Gen.k0_off7_eq]
    show ∀ a : Fin 2, (![k.val, 96] : Fin 2 → Nat) a ≤ (j a).val ∧ (j a).val < (![k.val, 96] : Fin 2 → Nat) a + S1x16.size a
    rw [Fin.forall_fin_two]
    show (k.val ≤ (j 0).val ∧ (j 0).val < k.val + 1) ∧ (96 ≤ (j 1).val ∧ (j 1).val < 96 + 16)
    omega
  · -- lanes [80, 96)
    intro hq
    refine ⟨_, (List.mem_cons_of_mem _ (List.mem_cons_of_mem _ List.mem_cons_self)), ?_⟩
    show j ∈ (Rect.unit (s := S1000x128) (k0_off6 k) S1x16.size (k0_off6_inb k)).set
    rw [Rect.mem_set_unit, Gen.k0_off6_eq]
    show ∀ a : Fin 2, (![k.val, 80] : Fin 2 → Nat) a ≤ (j a).val ∧ (j a).val < (![k.val, 80] : Fin 2 → Nat) a + S1x16.size a
    rw [Fin.forall_fin_two]
    show (k.val ≤ (j 0).val ∧ (j 0).val < k.val + 1) ∧ (80 ≤ (j 1).val ∧ (j 1).val < 80 + 16)
    omega
  · -- lanes [64, 80)
    intro hq
    refine ⟨_, (List.mem_cons_of_mem _ (List.mem_cons_of_mem _ (List.mem_cons_of_mem _ List.mem_cons_self))), ?_⟩
    show j ∈ (Rect.unit (s := S1000x128) (k0_off5 k) S1x16.size (k0_off5_inb k)).set
    rw [Rect.mem_set_unit, Gen.k0_off5_eq]
    show ∀ a : Fin 2, (![k.val, 64] : Fin 2 → Nat) a ≤ (j a).val ∧ (j a).val < (![k.val, 64] : Fin 2 → Nat) a + S1x16.size a
    rw [Fin.forall_fin_two]
    show (k.val ≤ (j 0).val ∧ (j 0).val < k.val + 1) ∧ (64 ≤ (j 1).val ∧ (j 1).val < 64 + 16)
    omega
  · -- lanes [48, 64)
    intro hq
    refine ⟨_, (List.mem_cons_of_mem _ (List.mem_cons_of_mem _ (List.mem_cons_of_mem _ (List.mem_cons_of_mem _ List.mem_cons_self)))), ?_⟩
    show j ∈ (Rect.unit (s := S1000x128) (k0_off4 k) S1x16.size (k0_off4_inb k)).set
    rw [Rect.mem_set_unit, Gen.k0_off4_eq]
    show ∀ a : Fin 2, (![k.val, 48] : Fin 2 → Nat) a ≤ (j a).val ∧ (j a).val < (![k.val, 48] : Fin 2 → Nat) a + S1x16.size a
    rw [Fin.forall_fin_two]
    show (k.val ≤ (j 0).val ∧ (j 0).val < k.val + 1) ∧ (48 ≤ (j 1).val ∧ (j 1).val < 48 + 16)
    omega
  · -- lanes [32, 48)
    intro hq
    refine ⟨_, (List.mem_cons_of_mem _ (List.mem_cons_of_mem _ (List.mem_cons_of_mem _ (List.mem_cons_of_mem _ (List.mem_cons_of_mem _ List.mem_cons_self))))), ?_⟩
    show j ∈ (Rect.unit (s := S1000x128) (k0_off3 k) S1x16.size (k0_off3_inb k)).set
    rw [Rect.mem_set_unit, Gen.k0_off3_eq]
    show ∀ a : Fin 2, (![k.val, 32] : Fin 2 → Nat) a ≤ (j a).val ∧ (j a).val < (![k.val, 32] : Fin 2 → Nat) a + S1x16.size a
    rw [Fin.forall_fin_two]
    show (k.val ≤ (j 0).val ∧ (j 0).val < k.val + 1) ∧ (32 ≤ (j 1).val ∧ (j 1).val < 32 + 16)
    omega
  · -- lanes [16, 32)
    intro hq
    refine ⟨_, (List.mem_cons_of_mem _ (List.mem_cons_of_mem _ (List.mem_cons_of_mem _ (List.mem_cons_of_mem _ (List.mem_cons_of_mem _ (List.mem_cons_of_mem _ List.mem_cons_self)))))), ?_⟩
    show j ∈ (Rect.unit (s := S1000x128) (k0_off2 k) S1x16.size (k0_off2_inb k)).set
    rw [Rect.mem_set_unit, Gen.k0_off2_eq]
    show ∀ a : Fin 2, (![k.val, 16] : Fin 2 → Nat) a ≤ (j a).val ∧ (j a).val < (![k.val, 16] : Fin 2 → Nat) a + S1x16.size a
    rw [Fin.forall_fin_two]
    show (k.val ≤ (j 0).val ∧ (j 0).val < k.val + 1) ∧ (16 ≤ (j 1).val ∧ (j 1).val < 16 + 16)
    omega
  · -- lanes [0, 16)
    intro hq
    refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    show j ∈ (Rect.unit (s := S1000x128) (k0_off1 k) S1x16.size (k0_off1_inb k)).set
    rw [Rect.mem_set_unit, Gen.k0_off1_eq]
    show ∀ a : Fin 2, (![k.val, 0] : Fin 2 → Nat) a ≤ (j a).val ∧ (j a).val < (![k.val, 0] : Fin 2 → Nat) a + S1x16.size a
    rw [Fin.forall_fin_two]
    show (k.val ≤ (j 0).val ∧ (j 0).val < k.val + 1) ∧ (0 ≤ (j 1).val ∧ (j 1).val < 0 + 16)
    omega

/-- After trip `k` every row up to `k` is zero, if every row before `k` was. -/
theorem zero_row (g : (Memref.whole cc0_scratch2 : Memref sig .scVector .vmem S1000x128 .f32).view.ty.Contents (Elt F))
    (k : Fin k0_t1_loop.trips) (hg : ∀ j : S1000x128.Idx, (j 0).val < k.val → g j = Cert.Spec.zero)
    (j : S1000x128.Idx) (hj : (j 0).val < k.val + 1) :
    (Memref.whole cc0_scratch2 : Memref sig .scVector .vmem S1000x128 .f32).view.writes (Elt F) g
      [⟨Rect.unit (k0_off8 k) S1x16.size (k0_off8_inb k), shapeCast S1x16 (k0_pay2 (F := F)) shapeCasts_S16_S1x16⟩,
     ⟨Rect.unit (k0_off7 k) S1x16.size (k0_off7_inb k), shapeCast S1x16 (k0_pay2 (F := F)) shapeCasts_S16_S1x16⟩,
     ⟨Rect.unit (k0_off6 k) S1x16.size (k0_off6_inb k), shapeCast S1x16 (k0_pay2 (F := F)) shapeCasts_S16_S1x16⟩,
     ⟨Rect.unit (k0_off5 k) S1x16.size (k0_off5_inb k), shapeCast S1x16 (k0_pay2 (F := F)) shapeCasts_S16_S1x16⟩,
     ⟨Rect.unit (k0_off4 k) S1x16.size (k0_off4_inb k), shapeCast S1x16 (k0_pay2 (F := F)) shapeCasts_S16_S1x16⟩,
     ⟨Rect.unit (k0_off3 k) S1x16.size (k0_off3_inb k), shapeCast S1x16 (k0_pay2 (F := F)) shapeCasts_S16_S1x16⟩,
     ⟨Rect.unit (k0_off2 k) S1x16.size (k0_off2_inb k), shapeCast S1x16 (k0_pay2 (F := F)) shapeCasts_S16_S1x16⟩,
     ⟨Rect.unit (k0_off1 k) S1x16.size (k0_off1_inb k), shapeCast S1x16 (k0_pay2 (F := F)) shapeCasts_S16_S1x16⟩] j = Cert.Spec.zero := by
  show (Memref.whole cc0_scratch2 : Memref sig .scVector .vmem S1000x128 .f32).view.read (Elt F)
    ((Memref.whole cc0_scratch2 : Memref sig .scVector .vmem S1000x128 .f32).view.writes (Elt F) g (zeroPieces (F := F) k)) j = _
  by_cases hc : ∃ p ∈ zeroPieces (F := F) k, j ∈ p.1.set
  · exact View.read_writes_apply_of_pieces _ g (fun _ => Cert.Spec.zero) (zeroPieces k) (zeroPieces_zero k) j hc
  · have hlt : (j 0).val < k.val := by
      by_contra hge
      exact hc (zeroPieces_cover k j (by omega))
    rw [View.read_writes_apply_of_forall_not_mem _ g j (zeroPieces k) (fun p hp hm => hc ⟨p, hp, hm⟩)]
    exact hg j hlt

/-- A scratch that is zero everywhere is the empty band. -/
theorem all_zero_band (g : S1000x128.Idx → F .f32) (h : ∀ j, g j = Cert.Spec.zero) (xb : IVec S128 32) :
    g = Cert.Spec.band (F := F) xb 0 0 := by
  rw [Cert.Spec.band_empty]
  exact funext h

end Cert.KIProof

end
-- ==== Proof.KI.TileTop.lean ====
/-
  One tile's task from its parts.

  The task is: the header fetch (the table's first 128 words, which count the lanes, into the first scratch), the zeroing loop
  (the big scratch all zero), then the 26 features in turn, each fetching its 128 categories, scattering ones, copying the big
  scratch out to the feature's window of the result and scattering zeros back.  Here the tile's resources are taken apart (its
  three scratch buffers, its 28 transfer semaphores, its 26 windows), the header and the loop are run, the feature's lemma —
  a hypothesis of this module, stated as `FeatSpec` — is applied 26 times, and the resources are put back.
-/
import proofs.«211696_g86517821210821_cont_sun_m_1191_30_alg».proof.Proof.KI.Setup
import proofs.«211696_g86517821210821_cont_sun_m_1191_30_alg».proof.Proof.KI.Views
import proofs.«211696_g86517821210821_cont_sun_m_1191_30_alg».proof.Proof.KI.TileRes
import proofs.«211696_g86517821210821_cont_sun_m_1191_30_alg».proof.Proof.KI.TileProg
import proofs.«211696_g86517821210821_cont_sun_m_1191_30_alg».proof.Proof.KI.ZeroRow

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (d : Dev nD) (L : grid0.Coords)

/-- The tile's thread. -/
abbrev thrT : Thread nD τ := V d (cV L) (jV L)

/-- The header fetch: the table's first 128 words land in the first scratch, which then counts its lanes. -/
theorem hdr_spec (tab : Buf (Elt F) (tLoc d)) (htab : Cert.Spec.TabOK tab) (q : PosShare TreeShare) (O : CellTallies nD τ sig (HIx 1)) (W : Waits sig (HIx 1))
    (fh : Buf (Elt F) ((thrT d L).loc cc0_scratch0)) (Φ : PUnit → sProp 𝕄) :
    iprop(Transfers.MayWaits (thrT d L) (none : HIx 1) O ∗ ((tW).view.loc (thrT d L) ↦{q} tab) ∗ ((sH).view.loc (thrT d L) ↦{fullShare} fh)
        ∗ semVal (thrT d L, SemLoc.dma cc0_scoped0.sem) 0
        ∗ (∃ W', ⌜∀ p ∈ W', p ∈ W ∨ p.2 = none⌝ ∗ owes (thrT d L) O W')
        ∗ ((Transfers.MayWaits (thrT d L) (none : HIx 1) O ∗ ((tW).view.loc (thrT d L) ↦{q} tab)
            ∗ (∃ lh : IVec S128 32, ⌜∀ j, (lh j).toNat = (j 0).val⌝ ∗ ((sH).view.loc (thrT d L) ↦{fullShare} lh))
            ∗ semVal (thrT d L, SemLoc.dma cc0_scoped0.sem) 0
            ∗ (∃ W', ⌜∀ p ∈ W', p ∈ W ∨ p.2 = none⌝ ∗ owes (thrT d L) O W')) -∗ Φ ⟨⟩))
      ⊢ wp frame (wpE (defs₀ (F := F)) 𝒱₀ (thrT d L) none) Set.univ
          (fetch (F := F) L ![0] inb_S106624_S128_0 sH (Memref.isWhole_whole _) cc0_scoped0) Φ := by
  unfold fetch
  iintro ⟨Hmw, Ht, HsH, Hs0, ⟨%W', %hW', HO⟩, HΦ⟩
  sl_exec
  sl_step
  iapply HΦ
  isplitl [Hmw]; · iexact Hmw
  isplitl [Ht]; · iexact Ht
  isplitl [HsH]
  · iexists _
    isplitr
    · ipureintro
      intro j
      have hj : (j 0).val < 128 := (j 0).isLt
      have hlt : 0 + (j 0).val < 106624 := by omega
      have e : View.write (Elt F) sH.view fh (hdr_spec.sl.dma0 d tab) Finset.univ j = tab (ix1 ⟨0 + (j 0).val, hlt⟩) := by
        exact (congrFun (View.write_whole_univ (Val := Elt F) cc0_scratch0 fh _) j).trans
          (table_slice_read tab ![0] inb_S106624_S128_0 j 0 rfl hlt)
      show ((View.write (Elt F) sH.view fh (hdr_spec.sl.dma0 d tab) Finset.univ) j).toNat = (j 0).val
      rw [e, htab.1 _ (show ((ix1 ⟨0 + (j 0).val, hlt⟩ : Cert.Spec.ST.Idx) 0).val < 128 by show 0 + (j 0).val < 128; omega)]
      show 0 + (j 0).val = (j 0).val
      omega
    · iexact HsH
  isplitl [Hs0]; · iexact Hs0
  iexists (insert (SemLoc.dma cc0_scoped0.sem, (default : HIx 1)) W')
  isplitr
  · ipureintro
    intro p hp
    rcases Finset.mem_insert.mp hp with hp | hp
    · subst hp; exact .inr rfl
    · exact hW' p hp
  · iexact HO

/-- Before trip `k` of the zeroing loop the first `k` rows of the big scratch are zero. -/
def zinv (k : Nat) (_ : PUnit) : sProp 𝕄 :=
  iprop(∃ g : Buf (Elt F) ((thrT d L).loc cc0_scratch2), ⌜∀ j : S1000x128.Idx, (j 0).val < k → g j = Cert.Spec.zero⌝ ∗ ((sB).view.loc (thrT d L) ↦{fullShare} g))

theorem trips_eq : k0_t1_loop.trips = 1000 := by decide

/-- The zeroing loop leaves the big scratch all zero. -/
theorem zloop_spec (fb : Buf (Elt F) ((thrT d L).loc cc0_scratch2)) (Φ : PUnit → sProp 𝕄) :
    iprop(((sB).view.loc (thrT d L) ↦{fullShare} fb)
        ∗ ((((sB).view.loc (thrT d L) ↦{fullShare} (fun _ => (Cert.Spec.zero : F .f32)))) -∗ Φ ⟨⟩))
      ⊢ wp frame (wpE (defs₀ (F := F)) 𝒱₀ (thrT d L) none) Set.univ (zloop (F := F) L) Φ := by
  unfold zloop
  iintro ⟨HsB, HΦ⟩
  sl_for (zinv (F := F) d L) $$ [HsB HΦ]
  case region =>
    intro k _
    unfold zinv
    iintro ⟨%g, %hg, HsB⟩
    sl_exec
    sl_step
    iexists _
    isplitr
    · ipureintro; exact zero_row g k hg
    · iexact HsB
  · unfold zinv
    isplitl [HsB]
    · iexists fb
      isplitr
      · ipureintro; intro j hj; omega
      · iexact HsB
    · iintro %acc ⟨%g, %hg, HsB⟩
      obtain rfl : acc = ⟨⟩ := rfl
      have hz : g = fun _ => (Cert.Spec.zero : F .f32) := funext fun j => hg j (by
        have : (j 0).val < 1000 := idx2_lt0 j
        have := trips_eq
        unfold Scf.Loop.trips at this
        omega)
      subst hz
      iapply HΦ
      iexact HsB

/-- A `bigSep` over `Fin 26`, written out. -/
theorem bigSep_fin26 {M : Type} [URA M] (Φ : Fin 26 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) := by
  iterate 25 rw [bigSep_fin_succ]
  rw [bigSep_fin_one]
  rfl

/-- One feature of the task (the statement the feature's proof delivers): from the table share, the lane numbers in the first
    scratch, the big scratch all zero, the feature's window and the two semaphores it uses, the feature's part of the task runs
    and leaves the window at the encoding, the big scratch all zero again. -/
def FeatSpec : Prop :=
  ∀ (d : Dev nD) (L : grid0.Coords) (tab : Buf (Elt F) (tLoc d)) (_ : Cert.Spec.TabOK tab) (q : PosShare TreeShare) (f : Fin 26)
    (toff : Fin 1 → Nat) (tinb : ∀ a, toff a + S128.size a ≤ S106624.size a) (ooff : Fin 2 → Nat) (oinb : ∀ a, ooff a + S1000x128.size a ≤ S26000x4096.size a)
    (_ : toff 0 = 128 + (wid L * 26 + f.val) * 128) (_ : ooff 0 = 1000 * f.val ∧ ooff 1 = 128 * wid L)
    (sem : DmaSems sig S_) (lh : IVec S128 32) (_ : ∀ j, (lh j).toNat = (j 0).val) (o : Buf (Elt F) (oLoc d))
    (O : CellTallies nD τ sig (HIx 1)) (W : Waits sig (HIx 1)) (Φ : PUnit → sProp 𝕄),
  (iprop(Transfers.MayWaits (thrT d L) (none : HIx 1) O
      ∗ ((tW).view.loc (thrT d L) ↦{q} tab) ∗ ((sH).view.loc (thrT d L) ↦{fullShare} lh) ∗ (∃ fx, (sX).view.loc (thrT d L) ↦{fullShare} fx)
      ∗ ((sB).view.loc (thrT d L) ↦{fullShare} (fun _ => Cert.Spec.zero))
      ∗ (oLoc d ↦[outSet f (wid L)]{fullShare} o)
      ∗ semVal (thrT d L, SemLoc.dma sem.sem) 0 ∗ semVal (thrT d L, SemLoc.dma cc0_scratch3.sem) 0
      ∗ (∃ W', ⌜∀ p ∈ W', p ∈ W ∨ p.2 = none⌝ ∗ owes (thrT d L) O W')
      ∗ ((Transfers.MayWaits (thrT d L) (none : HIx 1) O
      ∗ ((tW).view.loc (thrT d L) ↦{q} tab) ∗ ((sH).view.loc (thrT d L) ↦{fullShare} lh) ∗ (∃ fx, (sX).view.loc (thrT d L) ↦{fullShare} fx)
      ∗ ((sB).view.loc (thrT d L) ↦{fullShare} (fun _ => Cert.Spec.zero))
      ∗ (oLoc d ↦[outSet f (wid L)]{fullShare} Cert.Spec.outOfTable (F := F) tab)
      ∗ semVal (thrT d L, SemLoc.dma sem.sem) 0 ∗ semVal (thrT d L, SemLoc.dma cc0_scratch3.sem) 0
      ∗ (∃ W', ⌜∀ p ∈ W', p ∈ W ∨ p.2 = none⌝ ∗ owes (thrT d L) O W')) -∗ Φ ⟨⟩)) : sProp 𝕄)
    ⊢ wp frame (wpE (defs₀ (F := F)) 𝒱₀ (thrT d L) none) Set.univ (feat (F := F) L toff tinb ooff oinb sem) Φ

/-- One tile's task, given the feature's lemma: the header, the zeroing loop, the 26 features, and the tile's resources put
    back. -/
theorem tile_body_of (hfeat : FeatSpec (F := F)) : TileStmt (F := F) := by
  intro d tab htab q L o O W hO
  rw [tileProg_eq]
  unfold structured
  simp only [wp_bind]
  rw [scopedBufs_open (F := F) d L, scopedSems0_open (F := F) d L]
  unfold tileGo tileTd
  rw [bigSep_fin26, bigSep_fin26]
  iintro ⟨#Hlv, -, ⟨Ht, Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩, ⟨⟨%fh, HsH⟩, HsX, ⟨%fb, HsB⟩, Hrest⟩, ⟨HsD, Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26⟩, HO⟩
  ihave Hmw := ((K (F := F)).mayWaits_none (thr := thrT d L) hO) $$ Hlv
  ihave HOW : (∃ W', ⌜∀ p ∈ W', p ∈ W ∨ p.2 = none⌝ ∗ owes (thrT d L) O W') $$ [HO]
  · iexists W; isplitr
    · ipureintro; exact fun p hp => .inl hp
    · iexact HO
  -- the header
  iapply (hdr_spec d L tab htab q O W fh)
  isplitl [Hmw]; · iexact Hmw
  isplitl [Ht]; · iexact Ht
  isplitl [HsH]; · iexact HsH
  isplitl [Hs0]; · iexact Hs0
  isplitl [HOW]; · iexact HOW
  iintro ⟨Hmw, Ht, ⟨%lh, %hlh, HsH⟩, Hs0, HOW⟩
  -- the zeroing loop
  iapply (zloop_spec d L fb)
  isplitl [HsB]; · iexact HsB
  iintro HsB
  -- feature 0
  iapply (hfeat d L tab htab q (0 : Fin 26) (k0_off9 L) (k0_off9_inb L) (k0_off10 L) (k0_off10_inb L) (toff0 L) (ooff0 L) cc0_scoped1 lh hlh o O W)
  isplitl [Hmw]; · iexact Hmw
  isplitl [Ht]; · iexact Ht
  isplitl [HsH]; · iexact HsH
  isplitl [HsX]; · iexact HsX
  isplitl [HsB]; · iexact HsB
  isplitl [Hw0]; · iexact Hw0
  isplitl [Hs1]; · iexact Hs1
  isplitl [HsD]; · iexact HsD
  isplitl [HOW]; · iexact HOW
  iintro ⟨Hmw, Ht, HsH, HsX, HsB, Hw0, Hs1, HsD, HOW⟩
  -- feature 1
  iapply (hfeat d L tab htab q (1 : Fin 26) (k0_off11 L) (k0_off11_inb L) (k0_off12 L) (k0_off12_inb L) (toff1 L) (ooff1 L) cc0_scoped2 lh hlh o O W)
  isplitl [Hmw]; · iexact Hmw
  isplitl [Ht]; · iexact Ht
  isplitl [HsH]; · iexact HsH
  isplitl [HsX]; · iexact HsX
  isplitl [HsB]; · iexact HsB
  isplitl [Hw1]; · iexact Hw1
  isplitl [Hs2]; · iexact Hs2
  isplitl [HsD]; · iexact HsD
  isplitl [HOW]; · iexact HOW
  iintro ⟨Hmw, Ht, HsH, HsX, HsB, Hw1, Hs2, HsD, HOW⟩
  -- feature 2
  iapply (hfeat d L tab htab q (2 : Fin 26) (k0_off13 L) (k0_off13_inb L) (k0_off14 L) (k0_off14_inb L) (toff2 L) (ooff2 L) cc0_scoped3 lh hlh o O W)
  isplitl [Hmw]; · iexact Hmw
  isplitl [Ht]; · iexact Ht
  isplitl [HsH]; · iexact HsH
  isplitl [HsX]; · iexact HsX
  isplitl [HsB]; · iexact HsB
  isplitl [Hw2]; · iexact Hw2
  isplitl [Hs3]; · iexact Hs3
  isplitl [HsD]; · iexact HsD
  isplitl [HOW]; · iexact HOW
  iintro ⟨Hmw, Ht, HsH, HsX, HsB, Hw2, Hs3, HsD, HOW⟩
  -- feature 3
  iapply (hfeat d L tab htab q (3 : Fin 26) (k0_off15 L) (k0_off15_inb L) (k0_off16 L) (k0_off16_inb L) (toff3 L) (ooff3 L) cc0_scoped4 lh hlh o O W)
  isplitl [Hmw]; · iexact Hmw
  isplitl [Ht]; · iexact Ht
  isplitl [HsH]; · iexact HsH
  isplitl [HsX]; · iexact HsX
  isplitl [HsB]; · iexact HsB
  isplitl [Hw3]; · iexact Hw3
  isplitl [Hs4]; · iexact Hs4
  isplitl [HsD]; · iexact HsD
  isplitl [HOW]; · iexact HOW
  iintro ⟨Hmw, Ht, HsH, HsX, HsB, Hw3, Hs4, HsD, HOW⟩
  -- feature 4
  iapply (hfeat d L tab htab q (4 : Fin 26) (k0_off17 L) (k0_off17_inb L) (k0_off18 L) (k0_off18_inb L) (toff4 L) (ooff4 L) cc0_scoped5 lh hlh o O W)
  isplitl [Hmw]; · iexact Hmw
  isplitl [Ht]; · iexact Ht
  isplitl [HsH]; · iexact HsH
  isplitl [HsX]; · iexact HsX
  isplitl [HsB]; · iexact HsB
  isplitl [Hw4]; · iexact Hw4
  isplitl [Hs5]; · iexact Hs5
  isplitl [HsD]; · iexact HsD
  isplitl [HOW]; · iexact HOW
  iintro ⟨Hmw, Ht, HsH, HsX, HsB, Hw4, Hs5, HsD, HOW⟩
  -- feature 5
  iapply (hfeat d L tab htab q (5 : Fin 26) (k0_off19 L) (k0_off19_inb L) (k0_off20 L) (k0_off20_inb L) (toff5 L) (ooff5 L) cc0_scoped6 lh hlh o O W)
  isplitl [Hmw]; · iexact Hmw
  isplitl [Ht]; · iexact Ht
  isplitl [HsH]; · iexact HsH
  isplitl [HsX]; · iexact HsX
  isplitl [HsB]; · iexact HsB
  isplitl [Hw5]; · iexact Hw5
  isplitl [Hs6]; · iexact Hs6
  isplitl [HsD]; · iexact HsD
  isplitl [HOW]; · iexact HOW
  iintro ⟨Hmw, Ht, HsH, HsX, HsB, Hw5, Hs6, HsD, HOW⟩
  -- feature 6
  iapply (hfeat d L tab htab q (6 : Fin 26) (k0_off21 L) (k0_off21_inb L) (k0_off22 L) (k0_off22_inb L) (toff6 L) (ooff6 L) cc0_scoped7 lh hlh o O W)
  isplitl [Hmw]; · iexact Hmw
  isplitl [Ht]; · iexact Ht
  isplitl [HsH]; · iexact HsH
  isplitl [HsX]; · iexact HsX
  isplitl [HsB]; · iexact HsB
  isplitl [Hw6]; · iexact Hw6
  isplitl [Hs7]; · iexact Hs7
  isplitl [HsD]; · iexact HsD
  isplitl [HOW]; · iexact HOW
  iintro ⟨Hmw, Ht, HsH, HsX, HsB, Hw6, Hs7, HsD, HOW⟩
  -- feature 7
  iapply (hfeat d L tab htab q (7 : Fin 26) (k0_off23 L) (k0_off23_inb L) (k0_off24 L) (k0_off24_inb L) (toff7 L) (ooff7 L) cc0_scoped8 lh hlh o O W)
  isplitl [Hmw]; · iexact Hmw
  isplitl [Ht]; · iexact Ht
  isplitl [HsH]; · iexact HsH
  isplitl [HsX]; · iexact HsX
  isplitl [HsB]; · iexact HsB
  isplitl [Hw7]; · iexact Hw7
  isplitl [Hs8]; · iexact Hs8
  isplitl [HsD]; · iexact HsD
  isplitl [HOW]; · iexact HOW
  iintro ⟨Hmw, Ht, HsH, HsX, HsB, Hw7, Hs8, HsD, HOW⟩
  -- feature 8
  iapply (hfeat d L tab htab q (8 : Fin 26) (k0_off25 L) (k0_off25_inb L) (k0_off26 L) (k0_off26_inb L) (toff8 L) (ooff8 L) cc0_scoped9 lh hlh o O W)
  isplitl [Hmw]; · iexact Hmw
  isplitl [Ht]; · iexact Ht
  isplitl [HsH]; · iexact HsH
  isplitl [HsX]; · iexact HsX
  isplitl [HsB]; · iexact HsB
  isplitl [Hw8]; · iexact Hw8
  isplitl [Hs9]; · iexact Hs9
  isplitl [HsD]; · iexact HsD
  isplitl [HOW]; · iexact HOW
  iintro ⟨Hmw, Ht, HsH, HsX, HsB, Hw8, Hs9, HsD, HOW⟩
  -- feature 9
  iapply (hfeat d L tab htab q (9 : Fin 26) (k0_off27 L) (k0_off27_inb L) (k0_off28 L) (k0_off28_inb L) (toff9 L) (ooff9 L) cc0_scoped10 lh hlh o O W)
  isplitl [Hmw]; · iexact Hmw
  isplitl [Ht]; · iexact Ht
  isplitl [HsH]; · iexact HsH
  isplitl [HsX]; · iexact HsX
  isplitl [HsB]; · iexact HsB
  isplitl [Hw9]; · iexact Hw9
  isplitl [Hs10]; · iexact Hs10
  isplitl [HsD]; · iexact HsD
  isplitl [HOW]; · iexact HOW
  iintro ⟨Hmw, Ht, HsH, HsX, HsB, Hw9, Hs10, HsD, HOW⟩
  -- feature 10
  iapply (hfeat d L tab htab q (10 : Fin 26) (k0_off29 L) (k0_off29_inb L) (k0_off30 L) (k0_off30_inb L) (toff10 L) (ooff10 L) cc0_scoped11 lh hlh o O W)
  isplitl [Hmw]; · iexact Hmw
  isplitl [Ht]; · iexact Ht
  isplitl [HsH]; · iexact HsH
  isplitl [HsX]; · iexact HsX
  isplitl [HsB]; · iexact HsB
  isplitl [Hw10]; · iexact Hw10
  isplitl [Hs11]; · iexact Hs11
  isplitl [HsD]; · iexact HsD
  isplitl [HOW]; · iexact HOW
  iintro ⟨Hmw, Ht, HsH, HsX, HsB, Hw10, Hs11, HsD, HOW⟩
  -- feature 11
  iapply (hfeat d L tab htab q (11 : Fin 26) (k0_off31 L) (k0_off31_inb L) (k0_off32 L) (k0_off32_inb L) (toff11 L) (ooff11 L) cc0_scoped12 lh hlh o O W)
  isplitl [Hmw]; · iexact Hmw
  isplitl [Ht]; · iexact Ht
  isplitl [HsH]; · iexact HsH
  isplitl [HsX]; · iexact HsX
  isplitl [HsB]; · iexact HsB
  isplitl [Hw11]; · iexact Hw11
  isplitl [Hs12]; · iexact Hs12
  isplitl [HsD]; · iexact HsD
  isplitl [HOW]; · iexact HOW
  iintro ⟨Hmw, Ht, HsH, HsX, HsB, Hw11, Hs12, HsD, HOW⟩
  -- feature 12
  iapply (hfeat d L tab htab q (12 : Fin 26) (k0_off33 L) (k0_off33_inb L) (k0_off34 L) (k0_off34_inb L) (toff12 L) (ooff12 L) cc0_scoped13 lh hlh o O W)
  isplitl [Hmw]; · iexact Hmw
  isplitl [Ht]; · iexact Ht
  isplitl [HsH]; · iexact HsH
  isplitl [HsX]; · iexact HsX
  isplitl [HsB]; · iexact HsB
  isplitl [Hw12]; · iexact Hw12
  isplitl [Hs13]; · iexact Hs13
  isplitl [HsD]; · iexact HsD
  isplitl [HOW]; · iexact HOW
  iintro ⟨Hmw, Ht, HsH, HsX, HsB, Hw12, Hs13, HsD, HOW⟩
  -- feature 13
  iapply (hfeat d L tab htab q (13 : Fin 26) (k0_off35 L) (k0_off35_inb L) (k0_off36 L) (k0_off36_inb L) (toff13 L) (ooff13 L) cc0_scoped14 lh hlh o O W)
  isplitl [Hmw]; · iexact Hmw
  isplitl [Ht]; · iexact Ht
  isplitl [HsH]; · iexact HsH
  isplitl [HsX]; · iexact HsX
  isplitl [HsB]; · iexact HsB
  isplitl [Hw13]; · iexact Hw13
  isplitl [Hs14]; · iexact Hs14
  isplitl [HsD]; · iexact HsD
  isplitl [HOW]; · iexact HOW
  iintro ⟨Hmw, Ht, HsH, HsX, HsB, Hw13, Hs14, HsD, HOW⟩
  -- feature 14
  iapply (hfeat d L tab htab q (14 : Fin 26) (k0_off37 L) (k0_off37_inb L) (k0_off38 L) (k0_off38_inb L) (toff14 L) (ooff14 L) cc0_scoped15 lh hlh o O W)
  isplitl [Hmw]; · iexact Hmw
  isplitl [Ht]; · iexact Ht
  isplitl [HsH]; · iexact HsH
  isplitl [HsX]; · iexact HsX
  isplitl [HsB]; · iexact HsB
  isplitl [Hw14]; · iexact Hw14
  isplitl [Hs15]; · iexact Hs15
  isplitl [HsD]; · iexact HsD
  isplitl [HOW]; · iexact HOW
  iintro ⟨Hmw, Ht, HsH, HsX, HsB, Hw14, Hs15, HsD, HOW⟩
  -- feature 15
  iapply (hfeat d L tab htab q (15 : Fin 26) (k0_off39 L) (k0_off39_inb L) (k0_off40 L) (k0_off40_inb L) (toff15 L) (ooff15 L) cc0_scoped16 lh hlh o O W)
  isplitl [Hmw]; · iexact Hmw
  isplitl [Ht]; · iexact Ht
  isplitl [HsH]; · iexact HsH
  isplitl [HsX]; · iexact HsX
  isplitl [HsB]; · iexact HsB
  isplitl [Hw15]; · iexact Hw15
  isplitl [Hs16]; · iexact Hs16
  isplitl [HsD]; · iexact HsD
  isplitl [HOW]; · iexact HOW
  iintro ⟨Hmw, Ht, HsH, HsX, HsB, Hw15, Hs16, HsD, HOW⟩
  -- feature 16
  iapply (hfeat d L tab htab q (16 : Fin 26) (k0_off41 L) (k0_off41_inb L) (k0_off42 L) (k0_off42_inb L) (toff16 L) (ooff16 L) cc0_scoped17 lh hlh o O W)
  isplitl [Hmw]; · iexact Hmw
  isplitl [Ht]; · iexact Ht
  isplitl [HsH]; · iexact HsH
  isplitl [HsX]; · iexact HsX
  isplitl [HsB]; · iexact HsB
  isplitl [Hw16]; · iexact Hw16
  isplitl [Hs17]; · iexact Hs17
  isplitl [HsD]; · iexact HsD
  isplitl [HOW]; · iexact HOW
  iintro ⟨Hmw, Ht, HsH, HsX, HsB, Hw16, Hs17, HsD, HOW⟩
  -- feature 17
  iapply (hfeat d L tab htab q (17 : Fin 26) (k0_off43 L) (k0_off43_inb L) (k0_off44 L) (k0_off44_inb L) (toff17 L) (ooff17 L) cc0_scoped18 lh hlh o O W)
  isplitl [Hmw]; · iexact Hmw
  isplitl [Ht]; · iexact Ht
  isplitl [HsH]; · iexact HsH
  isplitl [HsX]; · iexact HsX
  isplitl [HsB]; · iexact HsB
  isplitl [Hw17]; · iexact Hw17
  isplitl [Hs18]; · iexact Hs18
  isplitl [HsD]; · iexact HsD
  isplitl [HOW]; · iexact HOW
  iintro ⟨Hmw, Ht, HsH, HsX, HsB, Hw17, Hs18, HsD, HOW⟩
  -- feature 18
  iapply (hfeat d L tab htab q (18 : Fin 26) (k0_off45 L) (k0_off45_inb L) (k0_off46 L) (k0_off46_inb L) (toff18 L) (ooff18 L) cc0_scoped19 lh hlh o O W)
  isplitl [Hmw]; · iexact Hmw
  isplitl [Ht]; · iexact Ht
  isplitl [HsH]; · iexact HsH
  isplitl [HsX]; · iexact HsX
  isplitl [HsB]; · iexact HsB
  isplitl [Hw18]; · iexact Hw18
  isplitl [Hs19]; · iexact Hs19
  isplitl [HsD]; · iexact HsD
  isplitl [HOW]; · iexact HOW
  iintro ⟨Hmw, Ht, HsH, HsX, HsB, Hw18, Hs19, HsD, HOW⟩
  -- feature 19
  iapply (hfeat d L tab htab q (19 : Fin 26) (k0_off47 L) (k0_off47_inb L) (k0_off48 L) (k0_off48_inb L) (toff19 L) (ooff19 L) cc0_scoped20 lh hlh o O W)
  isplitl [Hmw]; · iexact Hmw
  isplitl [Ht]; · iexact Ht
  isplitl [HsH]; · iexact HsH
  isplitl [HsX]; · iexact HsX
  isplitl [HsB]; · iexact HsB
  isplitl [Hw19]; · iexact Hw19
  isplitl [Hs20]; · iexact Hs20
  isplitl [HsD]; · iexact HsD
  isplitl [HOW]; · iexact HOW
  iintro ⟨Hmw, Ht, HsH, HsX, HsB, Hw19, Hs20, HsD, HOW⟩
  -- feature 20
  iapply (hfeat d L tab htab q (20 : Fin 26) (k0_off49 L) (k0_off49_inb L) (k0_off50 L) (k0_off50_inb L) (toff20 L) (ooff20 L) cc0_scoped21 lh hlh o O W)
  isplitl [Hmw]; · iexact Hmw
  isplitl [Ht]; · iexact Ht
  isplitl [HsH]; · iexact HsH
  isplitl [HsX]; · iexact HsX
  isplitl [HsB]; · iexact HsB
  isplitl [Hw20]; · iexact Hw20
  isplitl [Hs21]; · iexact Hs21
  isplitl [HsD]; · iexact HsD
  isplitl [HOW]; · iexact HOW
  iintro ⟨Hmw, Ht, HsH, HsX, HsB, Hw20, Hs21, HsD, HOW⟩
  -- feature 21
  iapply (hfeat d L tab htab q (21 : Fin 26) (k0_off51 L) (k0_off51_inb L) (k0_off52 L) (k0_off52_inb L) (toff21 L) (ooff21 L) cc0_scoped22 lh hlh o O W)
  isplitl [Hmw]; · iexact Hmw
  isplitl [Ht]; · iexact Ht
  isplitl [HsH]; · iexact HsH
  isplitl [HsX]; · iexact HsX
  isplitl [HsB]; · iexact HsB
  isplitl [Hw21]; · iexact Hw21
  isplitl [Hs22]; · iexact Hs22
  isplitl [HsD]; · iexact HsD
  isplitl [HOW]; · iexact HOW
  iintro ⟨Hmw, Ht, HsH, HsX, HsB, Hw21, Hs22, HsD, HOW⟩
  -- feature 22
  iapply (hfeat d L tab htab q (22 : Fin 26) (k0_off53 L) (k0_off53_inb L) (k0_off54 L) (k0_off54_inb L) (toff22 L) (ooff22 L) cc0_scoped23 lh hlh o O W)
  isplitl [Hmw]; · iexact Hmw
  isplitl [Ht]; · iexact Ht
  isplitl [HsH]; · iexact HsH
  isplitl [HsX]; · iexact HsX
  isplitl [HsB]; · iexact HsB
  isplitl [Hw22]; · iexact Hw22
  isplitl [Hs23]; · iexact Hs23
  isplitl [HsD]; · iexact HsD
  isplitl [HOW]; · iexact HOW
  iintro ⟨Hmw, Ht, HsH, HsX, HsB, Hw22, Hs23, HsD, HOW⟩
  -- feature 23
  iapply (hfeat d L tab htab q (23 : Fin 26) (k0_off55 L) (k0_off55_inb L) (k0_off56 L) (k0_off56_inb L) (toff23 L) (ooff23 L) cc0_scoped24 lh hlh o O W)
  isplitl [Hmw]; · iexact Hmw
  isplitl [Ht]; · iexact Ht
  isplitl [HsH]; · iexact HsH
  isplitl [HsX]; · iexact HsX
  isplitl [HsB]; · iexact HsB
  isplitl [Hw23]; · iexact Hw23
  isplitl [Hs24]; · iexact Hs24
  isplitl [HsD]; · iexact HsD
  isplitl [HOW]; · iexact HOW
  iintro ⟨Hmw, Ht, HsH, HsX, HsB, Hw23, Hs24, HsD, HOW⟩
  -- feature 24
  iapply (hfeat d L tab htab q (24 : Fin 26) (k0_off57 L) (k0_off57_inb L) (k0_off58 L) (k0_off58_inb L) (toff24 L) (ooff24 L) cc0_scoped25 lh hlh o O W)
  isplitl [Hmw]; · iexact Hmw
  isplitl [Ht]; · iexact Ht
  isplitl [HsH]; · iexact HsH
  isplitl [HsX]; · iexact HsX
  isplitl [HsB]; · iexact HsB
  isplitl [Hw24]; · iexact Hw24
  isplitl [Hs25]; · iexact Hs25
  isplitl [HsD]; · iexact HsD
  isplitl [HOW]; · iexact HOW
  iintro ⟨Hmw, Ht, HsH, HsX, HsB, Hw24, Hs25, HsD, HOW⟩
  -- feature 25
  iapply (hfeat d L tab htab q (25 : Fin 26) (k0_off59 L) (k0_off59_inb L) (k0_off60 L) (k0_off60_inb L) (toff25 L) (ooff25 L) cc0_scoped26 lh hlh o O W)
  isplitl [Hmw]; · iexact Hmw
  isplitl [Ht]; · iexact Ht
  isplitl [HsH]; · iexact HsH
  isplitl [HsX]; · iexact HsX
  isplitl [HsB]; · iexact HsB
  isplitl [Hw25]; · iexact Hw25
  isplitl [Hs26]; · iexact Hs26
  isplitl [HsD]; · iexact HsD
  isplitl [HOW]; · iexact HOW
  iintro ⟨Hmw, Ht, HsH, HsX, HsB, Hw25, Hs26, HsD, HOW⟩
  -- the end of the task: everything handed back
  sl_step
  isplitl [Ht Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Ht]; · iexact Ht
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  isplitl [HsH HsX HsB Hrest]
  · isplitl [HsH]; · iexists _; iexact HsH
    isplitl [HsX]; · iexact HsX
    isplitl [HsB]; · iexists _; iexact HsB
    iexact Hrest
  isplitl [HsD Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26]
  · isplitl [HsD]; · iexact HsD
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    iexact Hs26
  iexact HOW

end Cert.KIProof
end
-- ==== Proof.KI.WindowValue.lean ====
/-
  What a window of the transposed result holds once the full band has been copied into it: the one-hot encoding read off
  the table, on that window.
-/
import proofs.«211696_g86517821210821_cont_sun_m_1191_30_alg».proof.Proof.KI.Views

noncomputable section

namespace Cert.KIProof

open Cert.KernelIdeal
open Idealize.ShloMosaic Idealize.ShloMosaic.ValueIdx

variable {F : FTy → Type} [FloatOps F]

/-- The table word of stripe `w`, feature `f`, lane `l` is inside the table. -/
theorem tword_lt (f : Fin 26) (w : Nat) (hw : w < 32) (l : S128.Idx) :
    128 + (w * 26 + f.val) * 128 + (l 0).val < 106624 := by
  have hl : (l 0).val < 128 := (l 0).isLt
  have hf := f.isLt
  omega

/-- If the 128-word scratch holds the table's words for stripe `w` and feature `f`, the full band written through the
    window `(f, w)` leaves there what the table says. -/
theorem outWin_write (f : Fin 26) (w : Nat) (hw : w < 32) (doff : Fin 2 → Nat)
    (dinb : ∀ a, doff a + S1000x128.size a ≤ S26000x4096.size a) (h0 : doff 0 = 1000 * f.val) (h1 : doff 1 = 128 * w)
    (tab : IVec Cert.Spec.ST 32) (xb : IVec S128 32)
    (hxb : ∀ l : S128.Idx, xb l = tab (ix1 ⟨128 + (w * 26 + f.val) * 128 + (l 0).val, tword_lt f w hw l⟩))
    (o : (outWin doff dinb).view.ty.Contents (Elt F)) :
    ∀ j ∈ outSet f w, (outWin doff dinb).view.write (Elt F) o (Cert.Spec.band (F := F) xb 0 128) Finset.univ j
      = Cert.Spec.outOfTable (F := F) tab j := by
  intro j hj
  unfold outSet at hj
  rw [Finset.mem_filter] at hj
  obtain ⟨_, hjf, hjw⟩ := hj
  have hj0 : (j 0).val < 26000 := idx2_lt0 j
  have hj1 : (j 1).val < 4096 := idx2_lt1 j
  have hf := f.isLt
  have hy0 : (j 0).val - 1000 * f.val < 1000 := by omega
  have hy1 : (j 1).val - 128 * w < 128 := by omega
  have hy : (outWin doff dinb).view.emb (ix2 ⟨(j 0).val - 1000 * f.val, hy0⟩ ⟨(j 1).val - 128 * w, hy1⟩) = j := by
    rw [outWin_emb f w doff dinb h0 h1 _
      (show 1000 * f.val + ((j 0).val - 1000 * f.val) < 26000 by omega)
      (show 128 * w + ((j 1).val - 128 * w) < 4096 by omega)]
    funext a
    match a with
    | ⟨0, _⟩ => exact Fin.ext (show 1000 * f.val + ((j 0).val - 1000 * f.val) = (j 0).val by omega)
    | ⟨1, _⟩ => exact Fin.ext (show 128 * w + ((j 1).val - 128 * w) = (j 1).val by omega)
  have hwr := View.write_emb_of_mem (v := (outWin doff dinb).view) o (Cert.Spec.band (F := F) xb 0 128)
    (Finset.mem_univ (ix2 ⟨(j 0).val - 1000 * f.val, hy0⟩ ⟨(j 1).val - 128 * w, hy1⟩))
  rw [hy] at hwr
  refine hwr.trans ?_
  show Cert.Spec.band (F := F) xb 0 128 (ix2 ⟨(j 0).val - 1000 * f.val, hy0⟩ ⟨(j 1).val - 128 * w, hy1⟩) = _
  rw [Cert.Spec.band_full_apply]
  unfold Cert.Spec.outOfTable
  have e1 : xb (ix1 (⟨(j 1).val - 128 * w, hy1⟩ : Fin 128))
      = tab (ix1 ⟨Cert.Spec.tabPos (j 0).val (j 1).val, Cert.Spec.tabPos_lt hj0 hj1⟩) := by
    rw [hxb]
    refine congrArg tab ?_
    funext a
    match a with
    | ⟨0, _⟩ =>
      refine Fin.ext ?_
      show 128 + (w * 26 + f.val) * 128 + ((j 1).val - 128 * w) = Cert.Spec.tabPos (j 0).val (j 1).val
      unfold Cert.Spec.tabPos
      omega
  have e2 : (j 0).val - 1000 * f.val = (j 0).val % 1000 := by omega
  show (if (xb (ix1 (⟨(j 1).val - 128 * w, hy1⟩ : Fin 128))).toNat = (j 0).val - 1000 * f.val then Cert.Spec.one
      else Cert.Spec.zero) = _
  rw [e1, e2]

end Cert.KIProof

end
-- ==== Proof.KI.TileFeat.lean ====
/-
  One feature of the tile's body, and the pieces it is made of.

  A lane group loads sixteen categories and their sixteen lane numbers, and scatters a constant at (category, lane): with
  ones, the band of one-hot columns held in the big scratch grows by the group's sixteen lanes; with zeros it shrinks by them.
  A feature fetches its 128 table words, grows the band from empty to full in eight groups, copies the scratch out to its
  window of the result — which is then the encoding read off the table, on that window —, and shrinks the band back to
  empty, so that the next feature starts from an all-zero scratch again.
-/
import proofs.«211696_g86517821210821_cont_sun_m_1191_30_alg».proof.Proof.KI.TileProg
import proofs.«211696_g86517821210821_cont_sun_m_1191_30_alg».proof.Proof.ScatterOff
import proofs.«211696_g86517821210821_cont_sun_m_1191_30_alg».proof.Proof.BandFull
import proofs.«211696_g86517821210821_cont_sun_m_1191_30_alg».proof.Proof.KI.Views
import proofs.«211696_g86517821210821_cont_sun_m_1191_30_alg».proof.Proof.KI.WindowValue
import proofs.«211696_g86517821210821_cont_sun_m_1191_30_alg».proof.Proof.KI.TileRes

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (d : Dev nD) (L : grid0.Coords)

/-- The tile's thread. -/
abbrev thr : Thread nD τ := V d (cV L) (jV L)

/-- Sixteen lanes at offset `off` of a 128-word scratch. -/
abbrev laneRect (off : Nat) (hin : ∀ a, (![off] : Fin 1 → Nat) a + S16.size a ≤ S128.size a) :=
  (Rect.unit (s := S128) ![off] S16.size hin).toLoadRect

section Group
variable (xb lh : IVec S128 32) (hxb : ∀ j, (xb j).toNat < 1000) (hlh : ∀ j, (lh j).toNat = (j 0).val)
  (off : Nat) (hin : ∀ a, (![off] : Fin 1 → Nat) a + S16.size a ≤ S128.size a) (hoff : off + 16 ≤ 128)
include hxb hlh hoff

theorem grp_chk : k0_chk1 ((sX).view.readAt (Elt F) (laneRect off hin) xb) ((sH).view.readAt (Elt F) (laneRect off hin) lh) :=
  Cert.Spec.chk_off xb lh hxb hlh off hoff _ _
    (fun k => scratch1_readAt (F := F) xb off hin k (Cert.Spec.olane_lt off hoff k))
    (fun k => scratch0_readAt (F := F) lh off hin k (Cert.Spec.olane_lt off hoff k))

/-- The big scratch after one group's scatter of ones, as the run leaves it: the band one group wider. -/
theorem grp_one_val (h : ∀ a x, ((![(sX).view.readAt (Elt F) (laneRect off hin) xb, (sH).view.readAt (Elt F) (laneRect off hin) lh] : Fin 2 → IVec S16 32) a x).toNat < S1000x128.size a) :
    (sB).view.writes (Elt F) (Cert.Spec.band (F := F) xb 0 off)
      [⟨Rect.whole S1000x128, storeIdx (F := F) (e := .f32) ((sB).view.readAt (Elt F) (LoadRect.whole S1000x128) (Cert.Spec.band (F := F) xb 0 off))
        ![(sX).view.readAt (Elt F) (laneRect off hin) xb, (sH).view.readAt (Elt F) (laneRect off hin) lh] (onesV (F := F))
        (cmpi .slt ((sX).view.readAt (Elt F) (laneRect off hin) xb) (broadcast S16 1000#32)) false h⟩]
      = Cert.Spec.band (F := F) xb 0 (off + 16) := by
  rw [← View.write_univ_eq_writes_whole (Val := Elt F) (sB).view (Cert.Spec.band (F := F) xb 0 off) [] _]
  have e : (sB).view.readAt (Elt F) (LoadRect.whole S1000x128) (Cert.Spec.band (F := F) xb 0 off) = Cert.Spec.band (F := F) xb 0 off :=
    Memref.readAt_whole (Elt F) cc0_scratch2 _
  rw [e]
  exact (View.write_whole_univ (Val := Elt F) cc0_scratch2 _ _).trans (Cert.Spec.scat_one_off (F := F) xb lh hxb hlh off hoff _ _
    (fun k => scratch1_readAt (F := F) xb off hin k (Cert.Spec.olane_lt off hoff k))
    (fun k => scratch0_readAt (F := F) lh off hin k (Cert.Spec.olane_lt off hoff k)) h)

/-- The same for the scatter of zeros: the band one group narrower. -/
theorem grp_zero_val (h : ∀ a x, ((![(sX).view.readAt (Elt F) (laneRect off hin) xb, (sH).view.readAt (Elt F) (laneRect off hin) lh] : Fin 2 → IVec S16 32) a x).toNat < S1000x128.size a) :
    (sB).view.writes (Elt F) (Cert.Spec.band (F := F) xb off 128)
      [⟨Rect.whole S1000x128, storeIdx (F := F) (e := .f32) ((sB).view.readAt (Elt F) (LoadRect.whole S1000x128) (Cert.Spec.band (F := F) xb off 128))
        ![(sX).view.readAt (Elt F) (laneRect off hin) xb, (sH).view.readAt (Elt F) (laneRect off hin) lh] (zerosV (F := F))
        (cmpi .slt ((sX).view.readAt (Elt F) (laneRect off hin) xb) (broadcast S16 1000#32)) false h⟩]
      = Cert.Spec.band (F := F) xb (off + 16) 128 := by
  rw [← View.write_univ_eq_writes_whole (Val := Elt F) (sB).view (Cert.Spec.band (F := F) xb off 128) [] _]
  have e : (sB).view.readAt (Elt F) (LoadRect.whole S1000x128) (Cert.Spec.band (F := F) xb off 128) = Cert.Spec.band (F := F) xb off 128 :=
    Memref.readAt_whole (Elt F) cc0_scratch2 _
  rw [e]
  exact (View.write_whole_univ (Val := Elt F) cc0_scratch2 _ _).trans (Cert.Spec.scat_zero_off (F := F) xb lh hxb hlh off hoff _ _
    (fun k => scratch1_readAt (F := F) xb off hin k (Cert.Spec.olane_lt off hoff k))
    (fun k => scratch0_readAt (F := F) lh off hin k (Cert.Spec.olane_lt off hoff k)) h)

/-- One group of ones: with the 128-word scratches at `xb` (categories) and `lh` (lane numbers) and the big scratch at
    the band `[0, off)`, the group runs and leaves the band `[0, off + 16)`. -/
theorem grp_one (Φ : PUnit → sProp 𝕄) :
    (iprop(((sX).view.loc (thr d L) ↦{fullShare} xb) ∗ ((sH).view.loc (thr d L) ↦{fullShare} lh)
        ∗ ((sB).view.loc (thr d L) ↦{fullShare} (Cert.Spec.band (F := F) xb 0 off))
        ∗ ((((sX).view.loc (thr d L) ↦{fullShare} xb) ∗ ((sH).view.loc (thr d L) ↦{fullShare} lh)
            ∗ ((sB).view.loc (thr d L) ↦{fullShare} (Cert.Spec.band (F := F) xb 0 (off + 16)))) -∗ Φ ⟨⟩)) : sProp 𝕄)
      ⊢ wp frame (wpE (defs₀ (F := F)) 𝒱₀ (thr d L) none) Set.univ (grp (F := F) L onesV off hin) Φ := by
  have hchk := grp_chk (F := F) xb lh hxb hlh off hin hoff
  unfold grp SparseCore.vectorStoreIdx
  iintro ⟨HsX, HsH, HsB, Hk⟩
  sl_exec
  sl_step
  rw [grp_one_val (F := F) xb lh hxb hlh off hin hoff]
  iapply Hk
  isplitl [HsX]; · iexact HsX
  isplitl [HsH]; · iexact HsH
  iexact HsB

theorem grp_zero (Φ : PUnit → sProp 𝕄) :
    (iprop(((sX).view.loc (thr d L) ↦{fullShare} xb) ∗ ((sH).view.loc (thr d L) ↦{fullShare} lh)
        ∗ ((sB).view.loc (thr d L) ↦{fullShare} (Cert.Spec.band (F := F) xb off 128))
        ∗ ((((sX).view.loc (thr d L) ↦{fullShare} xb) ∗ ((sH).view.loc (thr d L) ↦{fullShare} lh)
            ∗ ((sB).view.loc (thr d L) ↦{fullShare} (Cert.Spec.band (F := F) xb (off + 16) 128))) -∗ Φ ⟨⟩)) : sProp 𝕄)
      ⊢ wp frame (wpE (defs₀ (F := F)) 𝒱₀ (thr d L) none) Set.univ (grp (F := F) L zerosV off hin) Φ := by
  have hchk := grp_chk (F := F) xb lh hxb hlh off hin hoff
  unfold grp SparseCore.vectorStoreIdx
  iintro ⟨HsX, HsH, HsB, Hk⟩
  sl_exec
  sl_step
  rw [grp_zero_val (F := F) xb lh hxb hlh off hin hoff]
  iapply Hk
  isplitl [HsX]; · iexact HsX
  isplitl [HsH]; · iexact HsH
  iexact HsB

end Group

/-! ## The two copies -/

/-- The fetch of 128 table words into the second scratch: the scratch then holds those words; the wait is recorded. -/
theorem fetch_sX (tab : Buf (Elt F) (tLoc d)) (q : PosShare TreeShare)
    (toff : Fin 1 → Nat) (tinb : ∀ a, toff a + S128.size a ≤ S106624.size a) (sem : DmaSems sig S_)
    (fx : Buf (Elt F) ((thr d L).loc cc0_scratch1)) (O : CellTallies nD τ sig (HIx 1)) (W : Waits sig (HIx 1)) (Φ : PUnit → sProp 𝕄) :
    (iprop(Transfers.MayWaits (thr d L) (none : HIx 1) O
        ∗ ((tW).view.loc (thr d L) ↦{q} tab) ∗ ((sX).view.loc (thr d L) ↦{fullShare} fx)
        ∗ semVal (thr d L, SemLoc.dma sem.sem) 0 ∗ owes (thr d L) O W
        ∗ ((Transfers.MayWaits (thr d L) (none : HIx 1) O
            ∗ ((tW).view.loc (thr d L) ↦{q} tab) ∗ ((sX).view.loc (thr d L) ↦{fullShare} (tSl toff tinb).view.read (Elt F) tab)
            ∗ semVal (thr d L, SemLoc.dma sem.sem) 0 ∗ owes (thr d L) O (insert (SemLoc.dma sem.sem, none) W)) -∗ Φ ⟨⟩)) : sProp 𝕄)
      ⊢ wp frame (wpE (defs₀ (F := F)) 𝒱₀ (thr d L) none) Set.univ (fetch (F := F) L toff tinb sX (Memref.isWhole_whole _) sem) Φ := by
  unfold fetch
  iintro ⟨Hmw, Ht, HsX, Hsem, HO, Hk⟩
  sl_exec
  sl_step
  iapply Hk
  isplitl [Hmw]; · iexact Hmw
  isplitl [Ht]; · iexact Ht
  isplitl [HsX]
  · iapply (Entails.of_eq (congrArg (fun g => ((sX).view.loc (thr d L) ↦{fullShare} g : sProp 𝕄))
      (View.write_whole_univ (Val := Elt F) cc0_scratch1 fx ((tSl toff tinb).view.read (Elt F) tab))))
    iexact HsX
  isplitl [Hsem]; · iexact Hsem
  iexact HO

/-- The copy of the big scratch out to a result window: the window then holds the scratch's contents. -/
theorem flush_spec (c : Buf (Elt F) ((thr d L).loc cc0_scratch2))
    (ooff : Fin 2 → Nat) (oinb : ∀ a, ooff a + S1000x128.size a ≤ S26000x4096.size a)
    (o : Buf (Elt F) (oLoc d)) (O : CellTallies nD τ sig (HIx 1)) (W : Waits sig (HIx 1)) (Φ : PUnit → sProp 𝕄) :
    (iprop(Transfers.MayWaits (thr d L) (none : HIx 1) O
        ∗ ((sB).view.loc (thr d L) ↦{fullShare} c)
        ∗ ((oSl ooff oinb).view.loc (thr d L) ↦[(oSl ooff oinb).view.set]{fullShare} o)
        ∗ semVal (thr d L, SemLoc.dma cc0_scratch3.sem) 0 ∗ owes (thr d L) O W
        ∗ ((Transfers.MayWaits (thr d L) (none : HIx 1) O
            ∗ ((sB).view.loc (thr d L) ↦{fullShare} c)
            ∗ ((oSl ooff oinb).view.loc (thr d L) ↦[(oSl ooff oinb).view.set]{fullShare} (oSl ooff oinb).view.write (Elt F) o c Finset.univ)
            ∗ semVal (thr d L, SemLoc.dma cc0_scratch3.sem) 0 ∗ owes (thr d L) O (insert (SemLoc.dma cc0_scratch3.sem, none) W)) -∗ Φ ⟨⟩)) : sProp 𝕄)
      ⊢ wp frame (wpE (defs₀ (F := F)) 𝒱₀ (thr d L) none) Set.univ (flush (F := F) L ooff oinb) Φ := by
  unfold flush
  iintro ⟨Hmw, HsB, Hw, Hsem, HO, Hk⟩
  sl_exec
  sl_step
  iapply Hk
  isplitl [Hmw]; · iexact Hmw
  isplitl [HsB]; · iexact HsB
  isplitl [Hw]
  · iapply (Entails.of_eq (congrArg (fun g => ((oSl ooff oinb).view.loc (thr d L) ↦[(oSl ooff oinb).view.set]{fullShare} g : sProp 𝕄))
      (View.write_univ_eq_writes_whole (Val := Elt F) (oSl ooff oinb).view o [] c).symm))
    iexact Hw
  isplitl [Hsem]; · iexact Hsem
  iexact HO

/-! ## One feature -/

section Feature
variable (tab : Buf (Elt F) (tLoc d)) (htab : Cert.Spec.TabOK tab) (q : PosShare TreeShare) (f : Fin 26)
  (toff : Fin 1 → Nat) (tinb : ∀ a, toff a + S128.size a ≤ S106624.size a)
  (ooff : Fin 2 → Nat) (oinb : ∀ a, ooff a + S1000x128.size a ≤ S26000x4096.size a)
  (ht : toff 0 = 128 + (wid L * 26 + f.val) * 128) (ho : ooff 0 = 1000 * f.val ∧ ooff 1 = 128 * wid L)

/-- The feature's 128 table words. -/
abbrev xbOf : IVec S128 32 := (tSl toff tinb).view.read (Elt F) tab

include ht in
theorem xbOf_eq (l : S128.Idx) :
    xbOf (F := F) d tab toff tinb l = tab (ix1 ⟨128 + (wid L * 26 + f.val) * 128 + (l 0).val, tword_lt f (wid L) (wid_lt L) l⟩) :=
  table_slice_read (F := F) tab toff tinb l _ ht _

include ht htab in
theorem xbOf_lt (j : S128.Idx) : (xbOf (F := F) d tab toff tinb j).toNat < 1000 := by
  rw [xbOf_eq (F := F) (d := d) (L := L) (tab := tab) (f := f) (toff := toff) (tinb := tinb) (ht := ht) j]
  refine htab.2 _ ?_
  show 128 ≤ 128 + (wid L * 26 + f.val) * 128 + (j 0).val
  omega

include htab ht ho in
/-- One feature: from the table share, the lane numbers in the first scratch, the big scratch all zero and the feature's
    window of the result, the feature runs and leaves the window at the encoding read off the table, the big scratch all
    zero again. -/
theorem feat_spec (sem : DmaSems sig S_) (lh : IVec S128 32) (hlh : ∀ j, (lh j).toNat = (j 0).val) (o : Buf (Elt F) (oLoc d))
    (O : CellTallies nD τ sig (HIx 1)) (W : Waits sig (HIx 1)) (Φ : PUnit → sProp 𝕄) :
    (iprop(Transfers.MayWaits (thr d L) (none : HIx 1) O
        ∗ ((tW).view.loc (thr d L) ↦{q} tab) ∗ ((sH).view.loc (thr d L) ↦{fullShare} lh) ∗ (∃ fx, (sX).view.loc (thr d L) ↦{fullShare} fx)
        ∗ ((sB).view.loc (thr d L) ↦{fullShare} (fun _ => Cert.Spec.zero))
        ∗ (oLoc d ↦[outSet f (wid L)]{fullShare} o)
        ∗ semVal (thr d L, SemLoc.dma sem.sem) 0 ∗ semVal (thr d L, SemLoc.dma cc0_scratch3.sem) 0
        ∗ (∃ W', ⌜∀ p ∈ W', p ∈ W ∨ p.2 = none⌝ ∗ owes (thr d L) O W')
        ∗ ((Transfers.MayWaits (thr d L) (none : HIx 1) O
            ∗ ((tW).view.loc (thr d L) ↦{q} tab) ∗ ((sH).view.loc (thr d L) ↦{fullShare} lh) ∗ (∃ fx, (sX).view.loc (thr d L) ↦{fullShare} fx)
            ∗ ((sB).view.loc (thr d L) ↦{fullShare} (fun _ => Cert.Spec.zero))
            ∗ (oLoc d ↦[outSet f (wid L)]{fullShare} Cert.Spec.outOfTable (F := F) tab)
            ∗ semVal (thr d L, SemLoc.dma sem.sem) 0 ∗ semVal (thr d L, SemLoc.dma cc0_scratch3.sem) 0
            ∗ (∃ W', ⌜∀ p ∈ W', p ∈ W ∨ p.2 = none⌝ ∗ owes (thr d L) O W')) -∗ Φ ⟨⟩)) : sProp 𝕄)
      ⊢ wp frame (wpE (defs₀ (F := F)) 𝒱₀ (thr d L) none) Set.univ (feat (F := F) L toff tinb ooff oinb sem) Φ := by
  have hxb : ∀ j, (xbOf (F := F) d tab toff tinb j).toNat < 1000 := xbOf_lt (F := F) (d := d) (L := L) (tab := tab) (htab := htab) (f := f) (toff := toff) (tinb := tinb) (ht := ht)
  have hwset : (outWin ooff oinb).view.set = outSet f (wid L) := outWin_set f (wid L) ooff oinb ho.1 ho.2
  have hwval : ∀ j ∈ (outWin ooff oinb).view.set,
      (outWin ooff oinb).view.write (Elt F) o (Cert.Spec.band (F := F) (xbOf (F := F) d tab toff tinb) 0 128) Finset.univ j
        = Cert.Spec.outOfTable (F := F) tab j := fun j hj =>
    outWin_write (F := F) f (wid L) (wid_lt L) ooff oinb ho.1 ho.2 tab (xbOf (F := F) d tab toff tinb)
      (xbOf_eq (F := F) (d := d) (L := L) (tab := tab) (f := f) (toff := toff) (tinb := tinb) (ht := ht)) o j (hwset ▸ hj)
  unfold feat
  rw [← hwset]
  iintro ⟨Hmw, Ht, HsH, ⟨%fx, HsX⟩, HsB, Hw, Hsem, Hs3, ⟨%W', %hW', HO⟩, Hk⟩
  -- the fetch
  rw [wp_bind]
  iapply (fetch_sX (F := F) d L tab q toff tinb sem fx O W') $$ [Hmw Ht HsH HsX HsB Hw Hsem Hs3 HO Hk]
  isplitl [Hmw]; · iexact Hmw
  isplitl [Ht]; · iexact Ht
  isplitl [HsX]; · iexact HsX
  isplitl [Hsem]; · iexact Hsem
  isplitl [HO]; · iexact HO
  iintro ⟨Hmw, Ht, HsX, Hsem, HO⟩
  ihave HsB := (Entails.of_eq (congrArg (fun g => ((sB).view.loc (thr d L) ↦{fullShare} g : sProp 𝕄))
    (Cert.Spec.band_empty (F := F) (xbOf (F := F) d tab toff tinb) 0).symm)) $$ HsB
  -- ones, lane group by lane group
  rw [wp_bind]
  iapply (grp_one (F := F) d L (xbOf (F := F) d tab toff tinb) lh hxb hlh 0 inb_S128_S16_0 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 16 inb_S128_S16_16 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 32 inb_S128_S16_32 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 48 inb_S128_S16_48 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 64 inb_S128_S16_64 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 80 inb_S128_S16_80 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 96 inb_S128_S16_96 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_one (F := F) d L (xbOf (F := F) d tab toff tinb) lh hxb hlh 112 inb_S128_S16_112 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  -- the copy out to the window
  rw [wp_bind]
  iapply (flush_spec (F := F) d L (Cert.Spec.band (F := F) (xbOf (F := F) d tab toff tinb) 0 128) ooff oinb o O (insert (SemLoc.dma sem.sem, none) W')) $$ [Hmw Ht HsH HsX HsB Hw Hsem Hs3 HO Hk]
  isplitl [Hmw]; · iexact Hmw
  isplitl [HsB]; · iexact HsB
  isplitl [Hw]; · iexact Hw
  isplitl [Hs3]; · iexact Hs3
  isplitl [HO]; · iexact HO
  iintro ⟨Hmw, HsB, Hw, Hs3, HO⟩
  -- zeros, lane group by lane group
  rw [wp_bind]
  iapply (grp_zero (F := F) d L (xbOf (F := F) d tab toff tinb) lh hxb hlh 0 inb_S128_S16_0 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 16 inb_S128_S16_16 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 32 inb_S128_S16_32 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 48 inb_S128_S16_48 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 64 inb_S128_S16_64 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 80 inb_S128_S16_80 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  rw [wp_bind]
  iapply (grp_zero (F := F) d L (xbOf (F := F) d tab toff tinb) lh hxb hlh 96 inb_S128_S16_96 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  iapply (grp_zero (F := F) d L (xbOf (F := F) d tab toff tinb) lh hxb hlh 112 inb_S128_S16_112 (by omega)) $$ [Hmw Ht HsH HsX HsB Hw Hsem Hs3 HO Hk]
  isplitl [HsX]; · iexact HsX
  isplitl [HsH]; · iexact HsH
  isplitl [HsB]; · iexact HsB
  iintro ⟨HsX, HsH, HsB⟩
  -- what is handed back
  iapply Hk
  isplitl [Hmw]; · iexact Hmw
  isplitl [Ht]; · iexact Ht
  isplitl [HsH]; · iexact HsH
  isplitl [HsX]; · iexists _; iexact HsX
  isplitl [HsB]
  · iapply (Entails.of_eq (congrArg (fun g => ((sB).view.loc (thr d L) ↦{fullShare} g : sProp 𝕄))
      (Cert.Spec.band_empty (F := F) (xbOf (F := F) d tab toff tinb) 128)))
    iexact HsB
  isplitl [Hw]
  · iapply (Entails.of_eq (pointsTo_congr hwval))
    iexact Hw
  isplitl [Hsem]; · iexact Hsem
  isplitl [Hs3]; · iexact Hs3
  iexists (insert (SemLoc.dma cc0_scratch3.sem, none) (insert (SemLoc.dma sem.sem, none) W')); isplitr
  · ipureintro; intro p hp
    rcases Finset.mem_insert.mp hp with rfl | hp
    · exact .inr rfl
    rcases Finset.mem_insert.mp hp with rfl | hp
    · exact .inr rfl
    exact hW' p hp
  · iexact HO

end Feature

/-- The feature lemma, every argument explicit in the order of its statement. -/
example (d : Dev nD) (L : grid0.Coords) (tab : Buf (Elt F) (tLoc d)) (htab : Cert.Spec.TabOK tab) (q : PosShare TreeShare) (f : Fin 26)
    (toff : Fin 1 → Nat) (tinb : ∀ a, toff a + S128.size a ≤ S106624.size a) (ooff : Fin 2 → Nat) (oinb : ∀ a, ooff a + S1000x128.size a ≤ S26000x4096.size a)
    (ht : toff 0 = 128 + (wid L * 26 + f.val) * 128) (ho : ooff 0 = 1000 * f.val ∧ ooff 1 = 128 * wid L)
    (sem : DmaSems sig S_) (lh : IVec S128 32) (hlh : ∀ j, (lh j).toNat = (j 0).val) (o : Buf (Elt F) (oLoc d))
    (O : CellTallies nD τ sig (HIx 1)) (W : Waits sig (HIx 1)) (Φ : PUnit → sProp 𝕄) :=
  feat_spec (F := F) d L tab htab q f toff tinb ooff oinb ht ho sem lh hlh o O W Φ

end Cert.KIProof

end
-- ==== Proof.KI.Tile.lean ====
/-
  One tile's task: the header, the zeroing loop and the 26 features, from the feature's lemma.
-/
import proofs.«211696_g86517821210821_cont_sun_m_1191_30_alg».proof.Proof.KI.TileTop
import proofs.«211696_g86517821210821_cont_sun_m_1191_30_alg».proof.Proof.KI.TileFeat

noncomputable section

namespace Cert.KIProof

open Cert.KernelIdeal Cert.KernelIdeal.Gen
open Idealize.ShloMosaic

variable {F : FTy → Type} [FloatOps F]

/-- One tile's task: from its share of the table and its 26 windows, the body runs to its end and leaves the windows at the
    encoding read off the table. -/
theorem tile_body : TileStmt (F := F) :=
  tile_body_of (fun d L tab htab q f toff tinb ooff oinb ht ho sem lh hlh o O W Φ =>
    feat_spec (F := F) d L tab htab q f toff tinb ooff oinb ht ho sem lh hlh o O W Φ)

end Cert.KIProof

end
-- ==== Proof.PreRange.lean ====
/-
  What the stated input domain says of the input: every word is a category.

  The precondition compares every word, read signed, with 0 from below and with 999 from above, and takes the
  conjunction over the whole array.  A 32-bit word that is at least 0 as a signed number reads the same unsigned, so a
  word inside both bounds is below 1000 as a natural number.
-/
import proofs.«211696_g86517821210821_cont_sun_m_1191_30_alg».proof.Pre_input_domain
import proofs.«211696_g86517821210821_cont_sun_m_1191_30_alg».proof.Proof.Gen.Pre_input_domain
import proofs.«211696_g86517821210821_cont_sun_m_1191_30_alg».proof.Proof.OneHotSpec
import Idealize.ShloMosaic.Lib.ReduceAll
import Idealize.ShloMosaic.Lib.IdealHost

noncomputable section

namespace Cert.Spec

open Idealize.ShloMosaic Idealize.ShloMosaic.ValueIdx

variable {F : FTy → Type} [FloatOps F]

/-- A word between 0 and 999 as a signed number is below 1000 as a natural number. -/
theorem toNat_lt_of_signed_range (a : BitVec 32) (h0 : (0#32 : BitVec 32).toInt ≤ a.toInt)
    (h1 : a.toInt ≤ (999#32 : BitVec 32).toInt) : a.toNat < 1000 := by
  have e0 : (0#32 : BitVec 32).toInt = 0 := by decide
  have e1 : (999#32 : BitVec 32).toInt = 999 := by decide
  rw [e0] at h0
  rw [e1] at h1
  have hpos : 2 * a.toNat < 2 ^ 32 := BitVec.toInt_pos_iff.1 h0
  rw [BitVec.toInt_eq_toNat_of_lt hpos] at h1
  omega

/-- The stated input domain holds: every word of the input is a category. -/
theorem range_of_pre [Cert.Pre_input_domain.Facts] (x : IVec SX 32)
    (h : Cert.Pre_input_domain.fn (F := F) x = fun _ => 1#1) : ∀ j, (x j).toNat < 1000 := by
  intro j
  have e := congrFun h ix0
  unfold Cert.Pre_input_domain.fn at e
  have hall := Host.reduce_andi_all _ _ _ _ _ e j
  obtain ⟨h1, h2⟩ := IntOp.andi_eq_one.1 hall
  have g1 := IntOp.cmpi_sge.1 h1
  have g2 := IntOp.cmpi_sle.1 h2
  rw [broadcastInDim_scalar_apply] at g1 g2
  exact toNat_lt_of_signed_range (x j) g1 g2

end Cert.Spec

end
-- ==== Proof.ScatterSet.lean ====
/-
  A scatter whose body returns the update, read at an index.

  `Host.scatter d (fun _ b => b) x idx upd` is the left fold, over the update indices in row-major order, of "write the
  update's element at the operand index the update lands on (when it lands inside)".  When every update element is the same
  value `c`, the order of the writes does not matter: the result at `i` is `c` when some update lands on `i`, and the
  operand's element otherwise.
-/
import Idealize.ShloMosaic.PureOps
import Idealize.ShloMosaic.Lib.ValueIdx

namespace Cert.RefValue

open Idealize.ShloMosaic

variable {α : Type} {s si u : Shape} {w : Nat}

/-- The fold of Host.scatter over any list of update positions, all updates equal to `c`. -/
theorem scatter_fold_const (d : ScatterDims s si u) (idx : IVec si w) (upd : u.Idx → α) (c : α) (hupd : ∀ j, upd j = c)
    (i : s.Idx) : ∀ (l : List (Fin u.numel)) (x : s.Idx → α),
    (l.foldl (fun r n =>
      match d.resultIdx? (u.rowMajor.symm n) idx with
      | some i => fun i' => if i' = i then (fun (_ b : α) => b) (r i) (upd (u.rowMajor.symm n)) else r i'
      | none => r) x) i
      = if ∃ n ∈ l, d.resultIdx? (u.rowMajor.symm n) idx = some i then c else x i
  | [], x => by simp
  | a :: l, x => by
    rw [List.foldl_cons, scatter_fold_const d idx upd c hupd i l]
    cases h : d.resultIdx? (u.rowMajor.symm a) idx with
    | none =>
      simp only [List.mem_cons, exists_eq_or_imp, h, false_or, reduceCtorEq]
    | some i0 =>
      simp only [List.mem_cons, exists_eq_or_imp, h, Option.some.injEq]
      by_cases hi : i0 = i
      · subst hi
        simp [hupd]
      · have hi' : ¬ i = i0 := fun e => hi e.symm
        simp [hi, hi']

/-- A scatter of equal updates `c` whose body returns the update: `c` where some update lands, the operand elsewhere. -/
theorem scatter_const_apply (d : ScatterDims s si u) (x : s.Idx → α) (idx : IVec si w) (upd : u.Idx → α) (c : α)
    (hupd : ∀ j, upd j = c) (i : s.Idx) :
    Host.scatter d (fun _ b => b) x idx upd i = if ∃ j : u.Idx, d.resultIdx? j idx = some i then c else x i := by
  refine Eq.trans (scatter_fold_const d idx upd c hupd i (List.finRange u.numel) x) ?_
  have : (∃ n ∈ List.finRange u.numel, d.resultIdx? (u.rowMajor.symm n) idx = some i) ↔ ∃ j : u.Idx, d.resultIdx? j idx = some i :=
    ⟨fun ⟨n, _, h⟩ => ⟨_, h⟩, fun ⟨j, h⟩ => ⟨u.rowMajor j, List.mem_finRange _, by rw [Equiv.symm_apply_apply]; exact h⟩⟩
  simp only [this]

end Cert.RefValue
-- ==== Proof.RefColumn.lean ====
/-
  One feature's block of the reference's result.

  The reference builds, for each of the 26 features, a 4096 × 1000 array by scattering ones into zeros: row b of the index
  table holds the pair (b, x[b, k]) (each half after jnp's normalisation of a negative index, which leaves a word in
  [0, 2^31) alone), and the scatter writes a one at every pair.  Entry (r, c) of the block is therefore one exactly when
  some row b has (b, x[b, k]) = (r, c), that is when x[r, k] = c.
-/
import proofs.«211696_g86517821210821_cont_sun_m_1191_30_alg».proof.Proof.Gen.ReferenceIdeal
import proofs.«211696_g86517821210821_cont_sun_m_1191_30_alg».proof.Proof.ScatterSet
import proofs.«211696_g86517821210821_cont_sun_m_1191_30_alg».proof.Proof.OneHotSpec
import Idealize.ShloMosaic.Lib.ValueIdx
import Idealize.ShloMosaic.Lib.ValueLayout
import Idealize.ShloMosaic.Lib.Pipeline.Value

noncomputable section

namespace Cert.RefValue

open Cert.ReferenceIdeal Idealize.ShloMosaic Idealize.ShloMosaic.ValueIdx

variable [Cert.ReferenceIdeal.Facts]
open Cert.ReferenceIdeal.Facts₀

abbrev sd : ScatterDims S4096x1000 S4096x2 S4096 := scatter_S4096x1000_S4096x2_S4096_n_01_01_1

theorem window_zero (j : S4096.Idx) (a : Fin 2) : sd.window j a = 0 := by
  unfold ScatterDims.window
  rw [dif_neg]
  fin_cases a <;> decide

theorem siIdx0 (j : S4096.Idx) (h) : sd.siIdx j ⟨0, h⟩ = ix2 (j 0) 0 := by
  funext b
  fin_cases b
  · rfl
  · rfl

theorem siIdx1 (j : S4096.Idx) (h) : sd.siIdx j ⟨1, h⟩ = ix2 (j 0) 1 := by
  funext b
  fin_cases b
  · rfl
  · rfl

theorem start0 (j : S4096.Idx) (idx : IVec S4096x2 32) : sd.start j idx 0 = (idx (ix2 (j 0) 0)).toInt := by
  unfold ScatterDims.start
  rw [dif_pos (by decide)]
  exact congrArg (fun k => (idx k).toInt) (siIdx0 j _)

theorem start1 (j : S4096.Idx) (idx : IVec S4096x2 32) : sd.start j idx 1 = (idx (ix2 (j 0) 1)).toInt := by
  unfold ScatterDims.start
  rw [dif_pos (by decide)]
  exact congrArg (fun k => (idx k).toInt) (siIdx1 j _)

/-- Where update `j` lands: at the (row, column) pair its index vector names, read signed. -/
theorem resultIdx_iff (idx : IVec S4096x2 32) (j : S4096.Idx) (i : S4096x1000.Idx) :
    sd.resultIdx? j idx = some i ↔
      (idx (ix2 (j 0) 0)).toInt = ((i 0).val : Int) ∧ (idx (ix2 (j 0) 1)).toInt = ((i 1).val : Int) := by
  unfold ScatterDims.resultIdx?
  split
  · next h =>
    rw [Option.some.injEq]
    have h0 := h 0
    have h1 := h 1
    rw [start0, window_zero] at h0
    rw [start1, window_zero] at h1
    constructor
    · intro e
      have e0 := congrArg (fun f => (f 0).val) e
      have e1 := congrArg (fun f => (f 1).val) e
      simp only [start0, start1, window_zero] at e0 e1
      omega
    · intro ⟨e0, e1⟩
      funext a
      apply Fin.ext
      fin_cases a
      · show (sd.start j idx 0 + (sd.window j 0 : Nat)).toNat = (i 0).val
        rw [start0, window_zero]; omega
      · show (sd.start j idx 1 + (sd.window j 1 : Nat)).toNat = (i 1).val
        rw [start1, window_zero]; omega
  · next h =>
    constructor
    · intro e; exact absurd e (by simp)
    · intro ⟨e0, e1⟩
      exfalso
      apply h
      intro a
      fin_cases a
      · show 0 ≤ sd.start j idx 0 + (sd.window j 0 : Nat) ∧ sd.start j idx 0 + (sd.window j 0 : Nat) < (4096 : Nat)
        rw [start0, window_zero]
        have := (i 0).isLt
        have hs : S4096x1000.size 0 = 4096 := rfl
        omega
      · show 0 ≤ sd.start j idx 1 + (sd.window j 1 : Nat) ∧ sd.start j idx 1 + (sd.window j 1 : Nat) < (1000 : Nat)
        rw [start1, window_zero]
        have := (i 1).isLt
        have hs : S4096x1000.size 1 = 1000 := rfl
        omega

variable {F : FTy → Type} [FloatOps F]

/-- A word below 2^31 read signed is its unsigned value. -/
theorem toInt_small (w : BitVec 32) (h : w.toNat < 2 ^ 31) : w.toInt = (w.toNat : Int) := by
  unfold BitVec.toInt
  split <;> omega

/-- jnp's index normalisation (add the extent to a negative index) leaves a word in [0, 2^31) alone. -/
theorem norm_small (w e : BitVec 32) (h : w.toNat < 2 ^ 31) :
    Scalar.select (IntOp.cmpi .slt w 0#32) (IntOp.addi w e) w = w := by
  unfold Scalar.select
  rw [if_neg]
  rw [show (1 : BitVec 1) = 1#1 from rfl, IntOp.cmpi_slt, toInt_small w h]
  simp

/-- The row half of a column's index table: row `b`'s index vector names row `b`. -/
abbrev rowSel : IVec S4096 32 :=
  select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)

/-- The column half: the category, normalised. -/
abbrev colSel (xi : IVec S4096 32) : IVec S4096 32 :=
  select (cmpi .slt xi (broadcastInDim S4096 ![] bcast_S_S4096 (constantI S_ 32 0#32))) (addi xi (broadcastInDim S4096 ![] bcast_S_S4096 (constantI S_ 32 1000#32))) xi

/-- The index table of one column's scatter: row `b` holds (b, category of b). -/
abbrev idxTab (xi : IVec S4096 32) : IVec S4096x2 32 :=
  concatenate S4096x2 1 [⟨S4096x1, (broadcastInDim S4096x1 ![0] bcast_S4096_S4096x1_0 rowSel)⟩, ⟨S4096x1, (broadcastInDim S4096x1 ![0] bcast_S4096_S4096x1_0 (colSel xi))⟩] concatenates_S4096x1_S4096x1_S4096x2_d1

theorem rowSel_apply (b : Fin 4096) : rowSel (ix1 b) = BitVec.ofNat 32 b.val :=
  norm_small (BitVec.ofNat 32 b.val) 4096#32 (by rw [BitVec.toNat_ofNat]; have := b.isLt; omega)

theorem colSel_apply (xi : IVec S4096 32) (b : Fin 4096) (h : (xi (ix1 b)).toNat < 1000) : colSel xi (ix1 b) = xi (ix1 b) :=
  norm_small (xi (ix1 b)) 1000#32 (by omega)

theorem bcast_col_apply (v : IVec S4096 32) (b : Fin 4096) :
    broadcastInDim S4096x1 ![0] bcast_S4096_S4096x1_0 v (ix2 b 0) = v (ix1 b) :=
  broadcastInDim_apply _ _ v (ix2 b 0) (ix1 b) (fun a => by fin_cases a; rfl)

theorem idxTab_row (xi : IVec S4096 32) (b : Fin 4096) : idxTab xi (ix2 b 0) = BitVec.ofNat 32 b.val := by
  refine (concatenate_pair_apply_left (t := S4096x2) (s₁ := S4096x1) (s₂ := S4096x1) (1 : Fin 2) _ _
    concatenates_S4096x1_S4096x1_S4096x2_d1 (ix2 b 0 : S4096x2.Idx) rfl (ix2 b 0 : S4096x1.Idx)
    (fun a => by fin_cases a <;> rfl)).trans ?_
  rw [bcast_col_apply, rowSel_apply]

theorem idxTab_col (xi : IVec S4096 32) (b : Fin 4096) (h : (xi (ix1 b)).toNat < 1000) : idxTab xi (ix2 b 1) = xi (ix1 b) := by
  refine (concatenate_pair_apply_right (t := S4096x2) (s₁ := S4096x1) (s₂ := S4096x1) (1 : Fin 2) _ _
    concatenates_S4096x1_S4096x1_S4096x2_d1 (ix2 b 1 : S4096x2.Idx) rfl rfl (ix2 b 0 : S4096x1.Idx)
    (fun a ha => by fin_cases a <;> first | rfl | exact absurd rfl ha) rfl).trans ?_
  rw [bcast_col_apply, colSel_apply xi b h]

/-- One column of the result, as the program composes it from the column `xi` of categories: ones scattered into zeros
    at (row, category). -/
def col (xi : IVec S4096 32) : FVec F S4096x1000 .f32 :=
  Host.scatter scatter_S4096x1000_S4096x2_S4096_n_01_01_1 (fun _ b => b) (broadcastInDim S4096x1000 ![] bcast_S_S4096x1000 (constant S_ .f32 0x00000000#32)) (idxTab xi) (broadcastInDim S4096 ![] bcast_S_S4096 (constant S_ .f32 0x3F800000#32))

/-- Where the update of row `b` lands, at literal coordinates. -/
theorem resultIdx_iff' (idx : IVec S4096x2 32) (b r : Fin 4096) (c : Fin 1000) :
    sd.resultIdx? (ix1 b) idx = some (ix2 r c) ↔
      (idx (ix2 b 0)).toInt = (r.val : Int) ∧ (idx (ix2 b 1)).toInt = (c.val : Int) :=
  resultIdx_iff idx (ix1 b) (ix2 r c)

/-- A column is the one-hot encoding of its categories. -/
theorem col_apply (xi : IVec S4096 32) (hx : ∀ b : Fin 4096, (xi (ix1 b)).toNat < 1000) (r : Fin 4096) (c : Fin 1000) :
    col (F := F) xi (ix2 r c) = if (xi (ix1 r)).toNat = c.val then Spec.one else Spec.zero := by
  unfold col
  refine (scatter_const_apply sd _ _ _ (Spec.one (F := F)) (fun _ => rfl) _).trans ?_
  have hiff : (∃ j : S4096.Idx, sd.resultIdx? j (idxTab xi) = some (ix2 r c)) ↔ (xi (ix1 r)).toNat = c.val := by
    constructor
    · rintro ⟨j, hj⟩
      obtain ⟨b, rfl⟩ : ∃ b : Fin 4096, j = ix1 b := ⟨j 0, eq_ix1 j⟩
      rw [resultIdx_iff', idxTab_row, idxTab_col xi b (hx _)] at hj
      obtain ⟨h0, h1⟩ := hj
      rw [toInt_small _ (by rw [BitVec.toNat_ofNat]; have := b.isLt; omega), BitVec.toNat_ofNat] at h0
      have hb : b = r := Fin.ext (by have := b.isLt; omega)
      rw [hb, toInt_small _ (by have := hx r; omega)] at h1
      exact_mod_cast h1
    · intro h
      refine ⟨ix1 r, ?_⟩
      rw [resultIdx_iff', idxTab_row, idxTab_col xi r (hx _)]
      refine ⟨?_, ?_⟩
      · rw [toInt_small _ (by rw [BitVec.toNat_ofNat]; have := r.isLt; omega), BitVec.toNat_ofNat]
        have := r.isLt
        have e : r.val % 2 ^ 32 = r.val := Nat.mod_eq_of_lt (by omega)
        rw [e]
      · rw [toInt_small _ (by have := hx r; omega), h]
  simp only [hiff]
  rfl

/-- Column `k` of the categories, as the program slices and reshapes it, at row `b`. -/
theorem xcol_apply (x : IVec S4096x26 32) (k : Nat) (hk : k < 26) (h : S4096x26.Slices ![0, k] S4096x1) (b : Fin 4096) :
    shapeCast S4096 (extractStridedSlice S4096x1 ![0, k] x h) shapeCasts_S4096x1_S4096 (ix1 b) = x (ix2 b ⟨k, hk⟩) := by
  refine (shapeCast_apply _ shapeCasts_S4096x1_S4096 (ix1 b : S4096.Idx) (ix2 b 0 : S4096x1.Idx) ?_).trans ?_
  · rw [Shape.rowMajor_val_two, Shape.rowMajor_val_one]
    show b.val * 1 + 0 = b.val
    omega
  · exact extractStridedSlice_apply _ x h (ix2 b 0 : S4096x1.Idx) (ix2 b ⟨k, hk⟩ : S4096x26.Idx) (fun a => by
      fin_cases a
      · show b.val = 0 + b.val
        omega
      · show k = k + 0
        omega)

/-- The result's entry in row `r` at column `n` of the concatenation, by the category the column's feature has there. -/
def hot (x : IVec S4096x26 32) (r : Fin 4096) (n : Nat) (hn : n < 26000) : F .f32 :=
  if (x (ix2 r ⟨n / 1000, Nat.div_lt_of_lt_mul hn⟩)).toNat = n % 1000 then Spec.one else Spec.zero

theorem hot_eq (x : IVec S4096x26 32) (r : Fin 4096) (n : Nat) (hn : n < 26000) (k : Nat) (hk : k < 26) (c' : Nat)
    (h : n = 1000 * k + c') (hc' : c' < 1000) :
    hot (F := F) x r n hn = if (x (ix2 r ⟨k, hk⟩)).toNat = c' then Spec.one else Spec.zero := by
  unfold hot
  have e1 : n / 1000 = k := by omega
  have e2 : n % 1000 = c' := by omega
  have e3 : (⟨n / 1000, Nat.div_lt_of_lt_mul hn⟩ : Fin 26) = ⟨k, hk⟩ := Fin.ext e1
  rw [e3, e2]

/-- Feature `k`'s block of the result: the column's scatter, read at (r, c'), is the one-hot entry. -/
theorem piece_apply (x : IVec S4096x26 32) (hx : ∀ (r : Fin 4096) (k : Fin 26), (x (ix2 r k)).toNat < 1000)
    (k : Nat) (hk : k < 26) (h : S4096x26.Slices ![0, k] S4096x1) (r : Fin 4096) (c' : Fin 1000)
    (n : Nat) (hn : n < 26000) (hnk : n = 1000 * k + c'.val) :
    col (F := F) (shapeCast S4096 (extractStridedSlice S4096x1 ![0, k] x h) shapeCasts_S4096x1_S4096) (ix2 r c')
      = hot x r n hn := by
  rw [hot_eq x r n hn k hk c'.val hnk c'.isLt, col_apply _ (fun b => by rw [xcol_apply x k hk h b]; exact hx b ⟨k, hk⟩) r c',
    xcol_apply x k hk h r]

end Cert.RefValue
end
-- ==== Proof.RefOneHot.lean ====
/-
  The reference computes the one-hot encoding.

  Its result is the concatenation, along the columns, of 26 blocks of 1000 columns (first sixteen of them, then ten, then those
  two).  Block k is feature k's scatter of ones into zeros, whose entry (r, c') is one exactly when x[r, k] = c'.  Reading the
  concatenations at (r, c): the block is c / 1000 and the column inside it c % 1000, so the entry is one exactly when
  x[r, c / 1000] = c % 1000 — the specification's one-hot encoding.  The precondition (every category in [0, 999], a reduction
  by "and" over the whole array) gives the range fact the scatter's index normalisation needs.
-/
import proofs.«211696_g86517821210821_cont_sun_m_1191_30_alg».proof.Proof.Gen.ReferenceIdeal.Run
import proofs.«211696_g86517821210821_cont_sun_m_1191_30_alg».proof.Proof.Gen.Pre_input_domain
import proofs.«211696_g86517821210821_cont_sun_m_1191_30_alg».proof.Proof.OneHotSpec
import proofs.«211696_g86517821210821_cont_sun_m_1191_30_alg».proof.Proof.RefColumn
import proofs.«211696_g86517821210821_cont_sun_m_1191_30_alg».proof.Defs
import Idealize.ShloMosaic.Lib.ReduceAll

set_option maxRecDepth 8192

noncomputable section

namespace Cert.RefValue

open Cert.ReferenceIdeal Cert.ReferenceIdeal.Value Idealize.ShloMosaic Idealize.ShloMosaic.TcCoe Idealize.SL.Sem
open Idealize.ShloMosaic.ValueIdx Idealize.ShloMosaic.StableHlo
open Cert.ReferenceIdeal.Facts₀

variable {F : FTy → Type} [FloatOps F]

/-- The categories in range, as the precondition gives them. -/
abbrev InRange (x : IVec S4096x26 32) : Prop := ∀ (r : Fin 4096) (k : Fin 26), (x (ix2 r k)).toNat < 1000

theorem hot_congr (x : IVec S4096x26 32) (r : Fin 4096) (n n' : Nat) (hn : n < 26000) (hn' : n' < 26000) (h : n = n') :
    hot (F := F) x r n hn = hot x r n' hn' := by
  subst h; rfl

/-- Every feature's column is a slice of the argument. -/
theorem slices_k (k : Nat) (hk : k < 26) : S4096x26.Slices ![0, k] S4096x1 :=
  ⟨rfl, fun a => by
    fin_cases a
    · show 0 + 4096 ≤ 4096
      omega
    · show k + 1 ≤ 26
      omega⟩

/-- Feature `k`'s block of the result, as the program composes it. -/
def colOf (x : IVec S4096x26 32) (k : Nat) (hk : k < 26) : FVec F S4096x1000 .f32 :=
  col (shapeCast S4096 (extractStridedSlice S4096x1 ![0, k] x (slices_k k hk)) shapeCasts_S4096x1_S4096)

section
variable {α : Type}

/-- Sixteen blocks of 1000 columns side by side, read at (r, c): block c / 1000 at column c % 1000. -/
theorem concat16_apply (p : Fin 16 → (S4096x1000.Idx → α))
    (h : Shape.Concatenates [S4096x1000, S4096x1000, S4096x1000, S4096x1000, S4096x1000, S4096x1000, S4096x1000, S4096x1000, S4096x1000, S4096x1000, S4096x1000, S4096x1000, S4096x1000, S4096x1000, S4096x1000, S4096x1000] S4096x16000 1) (r : Fin 4096) (c : Fin 16000) :
    concatenate S4096x16000 1 [⟨S4096x1000, p 0⟩, ⟨S4096x1000, p 1⟩, ⟨S4096x1000, p 2⟩, ⟨S4096x1000, p 3⟩, ⟨S4096x1000, p 4⟩, ⟨S4096x1000, p 5⟩, ⟨S4096x1000, p 6⟩, ⟨S4096x1000, p 7⟩, ⟨S4096x1000, p 8⟩, ⟨S4096x1000, p 9⟩, ⟨S4096x1000, p 10⟩, ⟨S4096x1000, p 11⟩, ⟨S4096x1000, p 12⟩, ⟨S4096x1000, p 13⟩, ⟨S4096x1000, p 14⟩, ⟨S4096x1000, p 15⟩] h (ix2 r c)
      = p ⟨c.val / 1000, Nat.div_lt_of_lt_mul c.isLt⟩ (ix2 r ⟨c.val % 1000, Nat.mod_lt _ (by decide)⟩) :=
  concatenate_ofFn_apply (t := S4096x16000) (s₁ := S4096x1000) (1 : Fin 2) p h rfl 1000 rfl (ix2 r c : S4096x16000.Idx)
    ⟨c.val / 1000, Nat.div_lt_of_lt_mul c.isLt⟩ rfl (ix2 r ⟨c.val % 1000, Nat.mod_lt _ (by decide)⟩ : S4096x1000.Idx) rfl
    (fun b hb => by fin_cases b <;> first | rfl | exact absurd rfl hb)

/-- Ten blocks of 1000 columns side by side, read at (r, c). -/
theorem concat10_apply (p : Fin 10 → (S4096x1000.Idx → α))
    (h : Shape.Concatenates [S4096x1000, S4096x1000, S4096x1000, S4096x1000, S4096x1000, S4096x1000, S4096x1000, S4096x1000, S4096x1000, S4096x1000] S4096x10000 1) (r : Fin 4096) (c : Fin 10000) :
    concatenate S4096x10000 1 [⟨S4096x1000, p 0⟩, ⟨S4096x1000, p 1⟩, ⟨S4096x1000, p 2⟩, ⟨S4096x1000, p 3⟩, ⟨S4096x1000, p 4⟩, ⟨S4096x1000, p 5⟩, ⟨S4096x1000, p 6⟩, ⟨S4096x1000, p 7⟩, ⟨S4096x1000, p 8⟩, ⟨S4096x1000, p 9⟩] h (ix2 r c)
      = p ⟨c.val / 1000, Nat.div_lt_of_lt_mul c.isLt⟩ (ix2 r ⟨c.val % 1000, Nat.mod_lt _ (by decide)⟩) :=
  concatenate_ofFn_apply (t := S4096x10000) (s₁ := S4096x1000) (1 : Fin 2) p h rfl 1000 rfl (ix2 r c : S4096x10000.Idx)
    ⟨c.val / 1000, Nat.div_lt_of_lt_mul c.isLt⟩ rfl (ix2 r ⟨c.val % 1000, Nat.mod_lt _ (by decide)⟩ : S4096x1000.Idx) rfl
    (fun b hb => by fin_cases b <;> first | rfl | exact absurd rfl hb)

end

set_option maxHeartbeats 4000000 in
set_option maxRecDepth 100000 in
/-- The first sixteen blocks as the program composes them are features 0 … 15's. -/
theorem eA (V0 : Valuation τ sig (Elt F)) :
    res_main_v469 V0 = concatenate S4096x16000 1 [⟨S4096x1000, colOf (F := F) (V0 (Proc.devRef .tc main_arg0)) 0 (by decide)⟩, ⟨S4096x1000, colOf (F := F) (V0 (Proc.devRef .tc main_arg0)) 1 (by decide)⟩, ⟨S4096x1000, colOf (F := F) (V0 (Proc.devRef .tc main_arg0)) 2 (by decide)⟩, ⟨S4096x1000, colOf (F := F) (V0 (Proc.devRef .tc main_arg0)) 3 (by decide)⟩, ⟨S4096x1000, colOf (F := F) (V0 (Proc.devRef .tc main_arg0)) 4 (by decide)⟩, ⟨S4096x1000, colOf (F := F) (V0 (Proc.devRef .tc main_arg0)) 5 (by decide)⟩, ⟨S4096x1000, colOf (F := F) (V0 (Proc.devRef .tc main_arg0)) 6 (by decide)⟩, ⟨S4096x1000, colOf (F := F) (V0 (Proc.devRef .tc main_arg0)) 7 (by decide)⟩, ⟨S4096x1000, colOf (F := F) (V0 (Proc.devRef .tc main_arg0)) 8 (by decide)⟩, ⟨S4096x1000, colOf (F := F) (V0 (Proc.devRef .tc main_arg0)) 9 (by decide)⟩, ⟨S4096x1000, colOf (F := F) (V0 (Proc.devRef .tc main_arg0)) 10 (by decide)⟩, ⟨S4096x1000, colOf (F := F) (V0 (Proc.devRef .tc main_arg0)) 11 (by decide)⟩, ⟨S4096x1000, colOf (F := F) (V0 (Proc.devRef .tc main_arg0)) 12 (by decide)⟩, ⟨S4096x1000, colOf (F := F) (V0 (Proc.devRef .tc main_arg0)) 13 (by decide)⟩, ⟨S4096x1000, colOf (F := F) (V0 (Proc.devRef .tc main_arg0)) 14 (by decide)⟩, ⟨S4096x1000, colOf (F := F) (V0 (Proc.devRef .tc main_arg0)) 15 (by decide)⟩]
      concatenates_S4096x1000_S4096x1000_S4096x1000_S4096x1000_S4096x1000_S4096x1000_S4096x1000_S4096x1000_S4096x1000_S4096x1000_S4096x1000_S4096x1000_S4096x1000_S4096x1000_S4096x1000_S4096x1000_S4096x16000_d1 := by
  unfold res_main_v469
  rfl

set_option maxHeartbeats 4000000 in
set_option maxRecDepth 100000 in
/-- The last ten blocks as the program composes them are features 16 … 25's. -/
theorem eB (V0 : Valuation τ sig (Elt F)) :
    res_main_v470 V0 = concatenate S4096x10000 1 [⟨S4096x1000, colOf (F := F) (V0 (Proc.devRef .tc main_arg0)) 16 (by decide)⟩, ⟨S4096x1000, colOf (F := F) (V0 (Proc.devRef .tc main_arg0)) 17 (by decide)⟩, ⟨S4096x1000, colOf (F := F) (V0 (Proc.devRef .tc main_arg0)) 18 (by decide)⟩, ⟨S4096x1000, colOf (F := F) (V0 (Proc.devRef .tc main_arg0)) 19 (by decide)⟩, ⟨S4096x1000, colOf (F := F) (V0 (Proc.devRef .tc main_arg0)) 20 (by decide)⟩, ⟨S4096x1000, colOf (F := F) (V0 (Proc.devRef .tc main_arg0)) 21 (by decide)⟩, ⟨S4096x1000, colOf (F := F) (V0 (Proc.devRef .tc main_arg0)) 22 (by decide)⟩, ⟨S4096x1000, colOf (F := F) (V0 (Proc.devRef .tc main_arg0)) 23 (by decide)⟩, ⟨S4096x1000, colOf (F := F) (V0 (Proc.devRef .tc main_arg0)) 24 (by decide)⟩, ⟨S4096x1000, colOf (F := F) (V0 (Proc.devRef .tc main_arg0)) 25 (by decide)⟩]
      concatenates_S4096x1000_S4096x1000_S4096x1000_S4096x1000_S4096x1000_S4096x1000_S4096x1000_S4096x1000_S4096x1000_S4096x1000_S4096x10000_d1 := by
  unfold res_main_v470
  rfl

set_option maxHeartbeats 4000000 in
/-- The first sixteen features' blocks, concatenated, at (r, c). -/
theorem partA (V0 : Valuation τ sig (Elt F)) (hx : InRange (V0 (Proc.devRef .tc main_arg0))) (r : Fin 4096) (c : Fin 16000) :
    res_main_v469 V0 (ix2 r c) = hot (V0 (Proc.devRef .tc main_arg0)) r c.val (by have := c.isLt; omega) := by
  have hk : c.val / 1000 < 26 := by have := c.isLt; omega
  rw [eA]
  refine Eq.trans (concat16_apply (fun n : Fin 16 => colOf (F := F) (V0 (Proc.devRef .tc main_arg0)) n.val (by have := n.isLt; omega))
    concatenates_S4096x1000_S4096x1000_S4096x1000_S4096x1000_S4096x1000_S4096x1000_S4096x1000_S4096x1000_S4096x1000_S4096x1000_S4096x1000_S4096x1000_S4096x1000_S4096x1000_S4096x1000_S4096x1000_S4096x16000_d1 r c) ?_
  exact piece_apply _ hx (c.val / 1000) hk _ r ⟨c.val % 1000, Nat.mod_lt _ (by decide)⟩ c.val _
    (by show c.val = 1000 * (c.val / 1000) + c.val % 1000; omega)

set_option maxHeartbeats 4000000 in
/-- The last ten features' blocks, concatenated, at (r, c): features 16 … 25. -/
theorem partB (V0 : Valuation τ sig (Elt F)) (hx : InRange (V0 (Proc.devRef .tc main_arg0))) (r : Fin 4096) (c : Fin 10000) :
    res_main_v470 V0 (ix2 r c) = hot (V0 (Proc.devRef .tc main_arg0)) r (16000 + c.val) (by have := c.isLt; omega) := by
  have hk : 16 + c.val / 1000 < 26 := by have := c.isLt; omega
  rw [eB]
  refine Eq.trans (concat10_apply (fun n : Fin 10 => colOf (F := F) (V0 (Proc.devRef .tc main_arg0)) (16 + n.val) (by have := n.isLt; omega))
    concatenates_S4096x1000_S4096x1000_S4096x1000_S4096x1000_S4096x1000_S4096x1000_S4096x1000_S4096x1000_S4096x1000_S4096x1000_S4096x10000_d1 r c) ?_
  exact piece_apply _ hx (16 + c.val / 1000) hk _ r ⟨c.val % 1000, Nat.mod_lt _ (by decide)⟩ (16000 + c.val) _
    (by show 16000 + c.val = 1000 * (16 + c.val / 1000) + c.val % 1000; omega)

set_option maxRecDepth 100000 in
/-- The reference's composed term is the one-hot encoding of its argument. -/
theorem ref_value (V0 : Valuation τ sig (Elt F)) (hx : InRange (V0 (Proc.devRef .tc main_arg0))) :
    concatenate S4096x26000 1 [⟨S4096x16000, (res_main_v469 V0)⟩, ⟨S4096x10000, (res_main_v470 V0)⟩] concatenates_S4096x16000_S4096x10000_S4096x26000_d1
      = Spec.oneHot (F := F) (V0 (Proc.devRef .tc main_arg0)) := by
  funext j
  obtain ⟨r, c, rfl⟩ : ∃ (r : Fin 4096) (c : Fin 26000), j = ix2 r c := ⟨j 0, j 1, eq_ix2 j⟩
  have hspec : Spec.oneHot (F := F) (V0 (Proc.devRef .tc main_arg0)) (ix2 r c) = hot (V0 (Proc.devRef .tc main_arg0)) r c.val c.isLt := rfl
  rw [hspec]
  by_cases hc : c.val < 16000
  · refine (concatenate_pair_apply_left (t := S4096x26000) (s₁ := S4096x16000) (s₂ := S4096x10000) (1 : Fin 2) _ _
      concatenates_S4096x16000_S4096x10000_S4096x26000_d1 (ix2 r c : S4096x26000.Idx) rfl (ix2 r ⟨c.val, hc⟩ : S4096x16000.Idx)
      (fun a => by fin_cases a <;> rfl)).trans ?_
    exact partA V0 hx r ⟨c.val, hc⟩
  · have hc2 : c.val - 16000 < 10000 := by have := c.isLt; omega
    refine (concatenate_pair_apply_right (t := S4096x26000) (s₁ := S4096x16000) (s₂ := S4096x10000) (1 : Fin 2) _ _
      concatenates_S4096x16000_S4096x10000_S4096x26000_d1 (ix2 r c : S4096x26000.Idx) rfl rfl (ix2 r ⟨c.val - 16000, hc2⟩ : S4096x10000.Idx)
      (fun a ha => by fin_cases a <;> first | rfl | exact absurd rfl ha) (by show c.val - 16000 + 16000 = c.val; omega)).trans ?_
    refine (partB V0 hx r ⟨c.val - 16000, hc2⟩).trans ?_
    exact hot_congr _ r _ _ _ _ (by show 16000 + (c.val - 16000) = c.val; omega)

instance : Subsingleton Cert.Pre_input_domain.S_.Idx := ⟨fun a b => funext fun d => d.elim0⟩

/-- The precondition decoded: every category is in [0, 999] signed, so below 1000 unsigned. -/
theorem pre_inRange [hP : Cert.Pre_input_domain.Facts] (x : IVec S4096x26 32)
    (h : Cert.Pre_input_domain.fn (F := F) x = fun _ => 1#1) : InRange x := by
  intro r k
  have e := congrFun h ix0
  dsimp only [Cert.Pre_input_domain.fn] at e
  have hi := Host.reduce_andi_all _ _ _ _ _ e (ix2 r k)
  have hi' : IntOp.andi (IntOp.cmpi .sge (x (ix2 r k)) 0#32) (IntOp.cmpi .sle (x (ix2 r k)) 999#32) = 1#1 := hi
  rw [IntOp.andi_eq_one, IntOp.cmpi_sge, IntOp.cmpi_sle] at hi'
  obtain ⟨h0, h9⟩ := hi'
  have z : (0#32 : BitVec 32).toInt = 0 := by decide
  have n : (999#32 : BitVec 32).toInt = 999 := by decide
  rw [z] at h0
  rw [n] at h9
  have hlt := (x (ix2 r k)).isLt
  unfold BitVec.toInt at h0 h9
  split at h0 <;> omega

set_option maxHeartbeats 4000000 in
/-- The reference, run from a memory whose categories are in range, ends with the one-hot encoding of its argument in its
    result and the argument unchanged. -/
theorem ref_run [hR : Cert.ReferenceIdeal.Facts] [hP : Cert.Pre_input_domain.Facts]
    (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v471)
          = Cert.Spec.oneHot (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run (Cert.ReferenceIdeal.defs (F := Ideal)) _ _).mono
    (fun _ h c => ⟨(h c).1.trans (ref_value (launchContents m c) (pre_inRange _ (hpre c))), (h c).2⟩)
    (Cert.ReferenceIdeal.Value.run (F := Ideal) m ρ)

end Cert.RefValue
end
-- ==== Proof.lean ====
/-
  The certificate of the one-hot encoder: a 4096 × 26 array of categories in [0, 1000) is encoded as the 4096 × 26000 array
  whose entry (b, 1000·f + v) is one exactly when x[b, f] = v.

  The kernel builds a flat table of x (a header 0 … 127, then the batch in 32 stripes of 128 rows, feature by feature), has
  each of its 32 tiles scatter ones into a zeroed 1000 × 128 scratch at (table word, lane), copy the scratch to its window of
  the transposed result and scatter zeros back, and transposes at the end; the reference scatters ones into 26 zero blocks
  and concatenates them.  Both results are the one function `Cert.Spec.oneHot` of the argument: the kernel's by the tiles'
  run (each window holds the encoding read off the table) and the table's reading at an index, the reference's by reading
  each scatter and the concatenations at an index.  The three frames are those runs with the values dropped; nothing was
  rewritten between the kernel and its idealization, so the fourth conjunct is trivial.
-/
import proofs.«211696_g86517821210821_cont_sun_m_1191_30_alg».proof.Defs
import proofs.«211696_g86517821210821_cont_sun_m_1191_30_alg».proof.Proof.Gen.Kernel
import proofs.«211696_g86517821210821_cont_sun_m_1191_30_alg».proof.Proof.Gen.Kernel.Skeleton
import proofs.«211696_g86517821210821_cont_sun_m_1191_30_alg».proof.Proof.Gen.KernelIdeal
import proofs.«211696_g86517821210821_cont_sun_m_1191_30_alg».proof.Proof.Gen.KernelIdeal.Skeleton
import proofs.«211696_g86517821210821_cont_sun_m_1191_30_alg».proof.Proof.Gen.ReferenceIdeal
import proofs.«211696_g86517821210821_cont_sun_m_1191_30_alg».proof.Proof.Gen.ReferenceIdeal.Run
import proofs.«211696_g86517821210821_cont_sun_m_1191_30_alg».proof.Proof.Gen.Pre_input_domain
import proofs.«211696_g86517821210821_cont_sun_m_1191_30_alg».proof.Proof.K.Launch
import proofs.«211696_g86517821210821_cont_sun_m_1191_30_alg».proof.Proof.K.Tile
import proofs.«211696_g86517821210821_cont_sun_m_1191_30_alg».proof.Proof.KI.Launch
import proofs.«211696_g86517821210821_cont_sun_m_1191_30_alg».proof.Proof.KI.Tile
import proofs.«211696_g86517821210821_cont_sun_m_1191_30_alg».proof.Proof.TableSpec
import proofs.«211696_g86517821210821_cont_sun_m_1191_30_alg».proof.Proof.PreRange
import proofs.«211696_g86517821210821_cont_sun_m_1191_30_alg».proof.Proof.RefOneHot
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    -- the kernel as printed runs, and leaves x alone: its run with the result dropped (the range of x makes the table fit)
    fun m g hpre => (θ_run Cert.Kernel.defs _ _).mono (fun _ h c => (h c).2)
      (Cert.KProof.run_main (F := Bits) m g Cert.KProof.tile_body
        fun d => Cert.Spec.tabOK_of_range _ (Cert.Spec.range_of_pre (F := Bits) _ (hpre d))),
    -- the same of the idealized kernel
    fun m g hpre => (θ_run Cert.KernelIdeal.defs _ _).mono (fun _ h c => (h c).2)
      (Cert.KIProof.run_main (F := Ideal) m g Cert.KIProof.tile_body
        fun d => Cert.Spec.tabOK_of_range _ (Cert.Spec.range_of_pre (F := Ideal) _ (hpre d))),
    -- and of the reference
    fun m g hpre => (θ_run Cert.ReferenceIdeal.defs _ _).mono (fun _ h c => (h c).2) (Cert.RefValue.ref_run m g hpre),
    trivial,
    -- both results are the one-hot encoding of the (agreeing) arguments
    fun m g m' g' hpre hagree => by
      refine ⟨fun c => Cert.Spec.oneHot (F := Ideal) (m ((c.tc : Thread Cert.KernelIdeal.nD Cert.KernelIdeal.τ).loc Cert.KernelIdeal.main_arg0)), ?_, ?_⟩
      · refine (θ_run Cert.KernelIdeal.defs _ _).mono (fun _ h c => ⟨(h c).1.trans ?_, (h c).2⟩)
          (Cert.KIProof.run_main (F := Ideal) m g Cert.KIProof.tile_body
            fun d => Cert.Spec.tabOK_of_range _ (Cert.Spec.range_of_pre (F := Ideal) _ (hpre d)))
        exact Cert.Spec.transpose_outOfTable (F := Ideal) _ _
      · have hpre' : Cert.Pre_ReferenceIdeal m' := fun c => by rw [hagree c]; exact hpre c
        refine (θ_run Cert.ReferenceIdeal.defs _ _).mono (fun _ h c => ⟨(h c).1.trans ?_, (h c).2⟩) (Cert.RefValue.ref_run m' g' hpre')
        rw [hagree c]⟩

end Cert.Proof

end
